-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_200" .f32 0x3BA3D70A#32 ((1 / 200 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x200 : Shape := ⟨2, ![16384, 200]⟩
abbrev S10000x64 : Shape := ⟨2, ![10000, 64]⟩
abbrev S64x64 : Shape := ⟨2, ![64, 64]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S10000x64 : S_.BroadcastsInDim S10000x64 (![] : Fin 0 → Fin S10000x64.rank)
  reducesTo_S10000x64_S_d0_1 : S10000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S16384x200 : S_.BroadcastsInDim S16384x200 (![] : Fin 0 → Fin S16384x200.rank)
  reducesTo_S16384x200_S_d0_1 : S16384x200.ReducesTo [0, 1] S_

variable [Facts]

def fn_part1 {F : FTy → Type} [FloatOps F] (main_arg0 : IVec S16384x200 32) (main_arg5 : FVec F S1 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S16384x200 32 := broadcastInDim S16384x200 ![] bcast_S_S16384x200 main_c_8
  let main_v25 : IVec S16384x200 1 := cmpi .sge main_arg0 main_v24
  let main_c_9 : IVec S_ 32 := constantI S_ 32 9999#32
  let main_v26 : IVec S16384x200 32 := broadcastInDim S16384x200 ![] bcast_S_S16384x200 main_c_9
  let main_v27 : IVec S16384x200 1 := cmpi .sle main_arg0 main_v26
  let main_v28 : IVec S16384x200 1 := andi main_v25 main_v27
  let main_c_10 : IVec S_ 1 := constantI S_ 1 1#1
  let main_v29 : IVec S_ 1 := (fun x v => Host.reduce IntOp.andi x v reducesTo_S16384x200_S_d0_1 h_S_) main_v28 main_c_10
  let main_v30 : IVec S_ 1 := andi main_v23 main_v29
  main_v30

def fn {F : FTy → Type} [FloatOps F] (main_arg0 : IVec S16384x200 32) (main_arg1 : FVec F S10000x64 .f32) (main_arg2 : FVec F S64x64 .f32) (main_arg3 : FVec F S64 .f32) (main_arg4 : FVec F S1x64 .f32) (main_arg5 : FVec F S1 .f32) : IVec S_ 1 :=
  let main_v0 : FVec F S10000x64 .f32 := Host.absf main_arg1
  let main_cst : FVec F S_ .f32 := constant S_ .f32 0x7F800000#32
  let main_v1 : FVec F S10000x64 .f32 := broadcastInDim S10000x64 ![] bcast_S_S10000x64 main_cst
  let main_v2 : IVec S10000x64 1 := cmpf .olt main_v0 main_v1
  let main_c : IVec S_ 1 := constantI S_ 1 1#1
  let main_v3 : IVec S_ 1 := (fun x v => Host.reduce IntOp.andi x v reducesTo_S10000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1x64 .f32 := Host.absf main_arg4
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg0 main_arg5 main_v13 main_v16
-- ==== Kernel.lean ====
abbrev S16384x200 : Shape := ⟨2, ![16384, 200]⟩
abbrev S10000x64 : Shape := ⟨2, ![10000, 64]⟩
abbrev S64x64 : Shape := ⟨2, ![64, 64]⟩
abbrev S64 : Shape := ⟨1, ![64]⟩
abbrev S1x64 : Shape := ⟨2, ![1, 64]⟩
abbrev S1 : Shape := ⟨1, ![1]⟩
abbrev S200x16384 : Shape := ⟨2, ![200, 16384]⟩
abbrev S_ : Shape := ⟨0, ![]⟩
abbrev S8x64 : Shape := ⟨2, ![8, 64]⟩
abbrev S64x10000 : Shape := ⟨2, ![64, 10000]⟩
abbrev S1x1 : Shape := ⟨2, ![1, 1]⟩
abbrev S10000 : Shape := ⟨1, ![10000]⟩
abbrev S1x1x64 : Shape := ⟨3, ![1, 1, 64]⟩
abbrev S1x1x1 : Shape := ⟨3, ![1, 1, 1]⟩
abbrev S8x10000 : Shape := ⟨2, ![8, 10000]⟩
abbrev S1x10000 : Shape := ⟨2, ![1, 10000]⟩
abbrev S16384 : Shape := ⟨1, ![16384]⟩
abbrev S104x512 : Shape := ⟨2, ![104, 512]⟩
abbrev S96x512 : Shape := ⟨2, ![96, 512]⟩
abbrev S512 : Shape := ⟨1, ![512]⟩
abbrev S16 : Shape := ⟨1, ![16]⟩
abbrev S1x16 : Shape := ⟨2, ![1, 16]⟩
abbrev S16384x1 : Shape := ⟨2, ![16384, 1]⟩

abbrev nBuf : Table → Nat
  | .hbm => 19
  | .local .tc .vmem => 6
  | .local .scVector .vmem => 4
  | _ => 0

abbrev bufTy : (tb : Table) → Fin (nBuf tb) → BufTy
  | .hbm, ⟨0, _⟩ => ⟨S16384x200, .i32⟩
  | .hbm, ⟨1, _⟩ => ⟨S10000x64, .f32⟩
  | .hbm, ⟨2, _⟩ => ⟨S64x64, .f32⟩
  | .hbm, ⟨3, _⟩ => ⟨S64, .f32⟩
  | .hbm, ⟨4, _⟩ => ⟨S1x64, .f32⟩
  | .hbm, ⟨5, _⟩ => ⟨S1, .f32⟩
  | .hbm, ⟨6, _⟩ => ⟨S200x16384, .i32⟩
  | .hbm, ⟨7, _⟩ => ⟨S_, .f32⟩
  | .hbm, ⟨8, _⟩ => ⟨S8x64, .f32⟩
  | .hbm, ⟨9, _⟩ => ⟨S64, .f32⟩
  | .hbm, ⟨10, _⟩ => ⟨S_, .i32⟩
  | .hbm, ⟨11, _⟩ => ⟨S1, .i32⟩
  | .hbm, ⟨12, _⟩ => ⟨S8x64, .f32⟩
  | .hbm, ⟨13, _⟩ => ⟨S64x10000, .f32⟩
  | .hbm, ⟨14, _⟩ => ⟨S1x64, .f32⟩
  | .hbm, ⟨15, _⟩ => ⟨S1x1, .f32⟩
  | .hbm, ⟨16, _⟩ => ⟨S10000, .f32⟩
  | .hbm, ⟨17, _⟩ => ⟨S16384, .f32⟩
  | .hbm, ⟨18, _⟩ => ⟨S16384x1, .f32⟩
  | .local .tc .vmem, ⟨0, _⟩ => ⟨S64x10000, .f32⟩
  | .local .tc .vmem, ⟨1, _⟩ => ⟨S64x64, .f32⟩
  | .local .tc .vmem, ⟨2, _⟩ => ⟨S1x64, .f32⟩
  | .local .tc .vmem, ⟨3, _⟩ => ⟨S8x64, .f32⟩
  | .local .tc .vmem, ⟨4, _⟩ => ⟨S1x1, .f32⟩
  | .local .tc .vmem, ⟨5, _⟩ => ⟨S10000, .f32⟩
  | .local .scVector .vmem, ⟨0, _⟩ => ⟨S104x512, .i32⟩
  | .local .scVector .vmem, ⟨1, _⟩ => ⟨S96x512, .i32⟩
  | .local .scVector .vmem, ⟨2, _⟩ => ⟨S10000, .f32⟩
  | .local .scVector .vmem, ⟨3, _⟩ => ⟨S512, .f32⟩
  | _, _ => ⟨S16384x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v0_scv : Ref sig .scVector := ⟨.hbm, 6, rfl⟩
abbrev main_v8_scv : Ref sig .scVector := ⟨.hbm, 16, rfl⟩
abbrev main_v9_scv : Ref sig .scVector := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S64x10000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
def k1_off2 (i : grid1.Coords) : Fin 2 → Nat :=
  let c104_i32 : BitVec 32 := 104#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![104, v2.toNat]
@[reducible] def k1_t1_loop : Scf.Loop 32 :=
  let c0_i32_4 : BitVec 32 := 0#32
  let c13_i32 : BitVec 32 := 13#32
  let v10 : BitVec 32 := Scalar.addi c0_i32_4 c13_i32
  let c1_i32 : BitVec 32 := 1#32
  ⟨c0_i32_4, v10, c1_i32⟩
def k1_off3 (k1_t1 : Fin k1_t1_loop.trips) : Fin 2 → Nat :=
  let c0_i32_4 : BitVec 32 := 0#32
  let c1_i32 : BitVec 32 := 1#32
  let arg11 : BitVec 32 := Scf.iv c0_i32_4 c1_i32 k1_t1
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c0_324 : Index := 0#32
  ![v718.toNat, 0]

def k1_chk1 (v719 : IVec S16 32) : Prop :=
  (∀ a x, ((![v719] : Fin 1 → IVec S16 32) a x).toNat < S10000.size a)
instance k1_chk1.dec : ∀ (v719 : IVec S16 32), Decidable (k1_chk1 v719) := fun v719 => decidable_of_iff' _ (Iff.of_eq (k1_chk1.eq_1 v719))
theorem k1_idx1_inb : ∀ (v719 : IVec S16 32) (k1_hw1 : k1_chk1 v719), ∀ a x, ((![v719] : Fin 1 → IVec S16 32) a x).toNat < S10000.size a := fun v719 k1_hw1 => k1_hw1
def k1_off4 (k1_t1 : Fin k1_t1_loop.trips) : Fin 2 → Nat :=
  let c0_i32_4 : BitVec 32 := 0#32
  let c1_i32 : BitVec 32 := 1#32
  let arg11 : BitVec 32 := Scf.iv c0_i32_4 c1_i32 k1_t1
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c0_327 : Index := 0#32
  ![v724.toNat, 0]

def k1_chk2 (v725 : IVec S16 32) : Prop :=
  (∀ a x, ((![v725] : Fin 1 → IVec S16 32) a x).toNat < S10000.size a)
instance k1_chk2.dec : ∀ (v725 : IVec S16 32), Decidable (k1_chk2 v725) := fun v725 => decidable_of_iff' _ (Iff.of_eq (k1_chk2.eq_1 v725))
theorem k1_idx2_inb : ∀ (v725 : IVec S16 32) (k1_hw2 : k1_chk2 v725), ∀ a x, ((![v725] : Fin 1 → IVec S16 32) a x).toNat < S10000.size a := fun v725 k1_hw2 => k1_hw2
def k1_off5 (k1_t1 : Fin k1_t1_loop.trips) : Fin 2 → Nat :=
  let c0_i32_4 : BitVec 32 := 0#32
  let c1_i32 : BitVec 32 := 1#32
  let arg11 : BitVec 32 := Scf.iv c0_i32_4 c1_i32 k1_t1
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c0_330 : Index := 0#32
  ![v730.toNat, 0]

def k1_chk3 (v731 : IVec S16 32) : Prop :=
  (∀ a x, ((![v731] : Fin 1 → IVec S16 32) a x).toNat < S10000.size a)
instance k1_chk3.dec : ∀ (v731 : IVec S16 32), Decidable (k1_chk3 v731) := fun v731 => decidable_of_iff' _ (Iff.of_eq (k1_chk3.eq_1 v731))
theorem k1_idx3_inb : ∀ (v731 : IVec S16 32) (k1_hw3 : k1_chk3 v731), ∀ a x, ((![v731] : Fin 1 → IVec S16 32) a x).toNat < S10000.size a := fun v731 k1_hw3 => k1_hw3
def k1_off6 (k1_t1 : Fin k1_t1_loop.trips) : Fin 2 → Nat :=
  let c0_i32_4 : BitVec 32 := 0#32
  let c1_i32 : BitVec 32 := 1#32
  let arg11 : BitVec 32 := Scf.iv c0_i32_4 c1_i32 k1_t1
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c0_332 : Index := 0#32
  ![v736.toNat, 0]

def k1_chk4 (v737 : IVec S16 32) : Prop :=
  (∀ a x, ((![v737] : Fin 1 → IVec S16 32) a x).toNat < S10000.size a)
instance k1_chk4.dec : ∀ (v737 : IVec S16 32), Decidable (k1_chk4 v737) := fun v737 => decidable_of_iff' _ (Iff.of_eq (k1_chk4.eq_1 v737))
theorem k1_idx4_inb : ∀ (v737 : IVec S16 32) (k1_hw4 : k1_chk4 v737), ∀ a x, ((![v737] : Fin 1 → IVec S16 32) a x).toNat < S10000.size a := fun v737 k1_hw4 => k1_hw4
def k1_off7 (k1_t1 : Fin k1_t1_loop.trips) : Fin 2 → Nat :=
  let c0_i32_4 : BitVec 32 := 0#32
  let c1_i32 : BitVec 32 := 1#32
  let arg11 : BitVec 32 := Scf.iv c0_i32_4 c1_i32 k1_t1
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c0_334 : Index := 0#32
  ![v742.toNat, 0]

def k1_chk5 (v743 : IVec S16 32) : Prop :=
  (∀ a x, ((![v743] : Fin 1 → IVec S16 32) a x).toNat < S10000.size a)
instance k1_chk5.dec : ∀ (v743 : IVec S16 32), Decidable (k1_chk5 v743) := fun v743 => decidable_of_iff' _ (Iff.of_eq (k1_chk5.eq_1 v743))
theorem k1_idx5_inb : ∀ (v743 : IVec S16 32) (k1_hw5 : k1_chk5 v743), ∀ a x, ((![v743] : Fin 1 → IVec S16 32) a x).toNat < S10000.size a := fun v743 k1_hw5 => k1_hw5
def k1_off8 (k1_t1 : Fin k1_t1_loop.trips) : Fin 2 → Nat :=
  let c0_i32_4 : BitVec 32 := 0#32
  let c1_i32 : BitVec 32 := 1#32
  let arg11 : BitVec 32 := Scf.iv c0_i32_4 c1_i32 k1_t1
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c0_336 : Index := 0#32
  ![v748.toNat, 0]

def k1_chk6 (v749 : IVec S16 32) : Prop :=
  (∀ a x, ((![v749] : Fin 1 → IVec S16 32) a x).toNat < S10000.size a)
instance k1_chk6.dec : ∀ (v749 : IVec S16 32), Decidable (k1_chk6 v749) := fun v749 => decidable_of_iff' _ (Iff.of_eq (k1_chk6.eq_1 v749))
theorem k1_idx6_inb : ∀ (v749 : IVec S16 32) (k1_hw6 : k1_chk6 v749), ∀ a x, ((![v749] : Fin 1 → IVec S16 32) a x).toNat < S10000.size a := fun v749 k1_hw6 => k1_hw6
def k1_off9 (k1_t1 : Fin k1_t1_loop.trips) : Fin 2 → Nat :=
  let c0_i32_4 : BitVec 32 := 0#32
  let c1_i32 : BitVec 32 := 1#32
  let arg11 : BitVec 32 := Scf.iv c0_i32_4 c1_i32 k1_t1
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c0_338 : Index := 0#32
  ![v754.toNat, 0]

def k1_chk7 (v755 : IVec S16 32) : Prop :=
  (∀ a x, ((![v755] : Fin 1 → IVec S16 32) a x).toNat < S10000.size a)
instance k1_chk7.dec : ∀ (v755 : IVec S16 32), Decidable (k1_chk7 v755) := fun v755 => decidable_of_iff' _ (Iff.of_eq (k1_chk7.eq_1 v755))
theorem k1_idx7_inb : ∀ (v755 : IVec S16 32) (k1_hw7 : k1_chk7 v755), ∀ a x, ((![v755] : Fin 1 → IVec S16 32) a x).toNat < S10000.size a := fun v755 k1_hw7 => k1_hw7
def k1_off10 (k1_t1 : Fin k1_t1_loop.trips) : Fin 2 → Nat :=
  let c0_i32_4 : BitVec 32 := 0#32
  let c1_i32 : BitVec 32 := 1#32
  let arg11 : BitVec 32 := Scf.iv c0_i32_4 c1_i32 k1_t1
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c0_340 : Index := 0#32
  ![v760.toNat, 0]

def k1_chk8 (v761 : IVec S16 32) : Prop :=
  (∀ a x, ((![v761] : Fin 1 → IVec S16 32) a x).toNat < S10000.size a)
instance k1_chk8.dec : ∀ (v761 : IVec S16 32), Decidable (k1_chk8 v761) := fun v761 => decidable_of_iff' _ (Iff.of_eq (k1_chk8.eq_1 v761))
theorem k1_idx8_inb : ∀ (v761 : IVec S16 32) (k1_hw8 : k1_chk8 v761), ∀ a x, ((![v761] : Fin 1 → IVec S16 32) a x).toNat < S10000.size a := fun v761 k1_hw8 => k1_hw8
@[reducible] def k1_t2_loop : Scf.Loop 32 :=
  let c0_i32_6 : BitVec 32 := 0#32
  let c13_i32_7 : BitVec 32 := 13#32
  let v20 : BitVec 32 := Scalar.addi c0_i32_6 c13_i32_7
  let c1_i32_8 : BitVec 32 := 1#32
  ⟨c0_i32_6, v20, c1_i32_8⟩
def k1_off11 (k1_t2 : Fin k1_t2_loop.trips) : Fin 2 → Nat :=
  let c0_i32_6 : BitVec 32 := 0#32
  let c1_i32_8 : BitVec 32 := 1#32
  let arg11 : BitVec 32 := Scf.iv c0_i32_6 c1_i32_8 k1_t2
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c16_324 : Index := 16#32
  ![v718.toNat, 16]

def k1_chk9 (v719 : IVec S16 32) : Prop :=
  (∀ a x, ((![v719] : Fin 1 → IVec S16 32) a x).toNat < S10000.size a)
instance k1_chk9.dec : ∀ (v719 : IVec S16 32), Decidable (k1_chk9 v719) := fun v719 => decidable_of_iff' _ (Iff.of_eq (k1_chk9.eq_1 v719))
theorem k1_idx9_inb : ∀ (v719 : IVec S16 32) (k1_hw9 : k1_chk9 v719), ∀ a x, ((![v719] : Fin 1 → IVec S16 32) a x).toNat < S10000.size a := fun v719 k1_hw9 => k1_hw9
def k1_off12 (k1_t2 : Fin k1_t2_loop.trips) : Fin 2 → Nat :=
  let c0_i32_6 : BitVec 32 := 0#32
  let c1_i32_8 : BitVec 32 := 1#32
  let arg11 : BitVec 32 := Scf.iv c0_i32_6 c1_i32_8 k1_t2
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c16_327 : Index := 16#32
  ![v724.toNat, 16]

def k1_chk10 (v725 : IVec S16 32) : Prop :=
  (∀ a x, ((![v725] : Fin 1 → IVec S16 32) a x).toNat < S10000.size a)
instance k1_chk10.dec : ∀ (v725 : IVec S16 32), Decidable (k1_chk10 v725) := fun v725 => decidable_of_iff' _ (Iff.of_eq (k1_chk10.eq_1 v725))
theorem k1_idx10_inb : ∀ (v725 : IVec S16 32) (k1_hw10 : k1_chk10 v725), ∀ a x, ((![v725] : Fin 1 → IVec S16 32) a x).toNat < S10000.size a := fun v725 k1_hw10 => k1_hw10
def k1_off13 (k1_t2 : Fin k1_t2_loop.trips) : Fin 2 → Nat :=
  let c0_i32_6 : BitVec 32 := 0#32
  let c1_i32_8 : BitVec 32 := 1#32
  let arg11 : BitVec 32 := Scf.iv c0_i32_6 c1_i32_8 k1_t2
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c16_330 : Index := 16#32
  ![v730.toNat, 16]

def k1_chk11 (v731 : IVec S16 32) : Prop :=
  (∀ a x, ((![v731] : Fin 1 → IVec S16 32) a x).toNat < S10000.size a)
instance k1_chk11.dec : ∀ (v731 : IVec S16 32), Decidable (k1_chk11 v731) := fun v731 => decidable_of_iff' _ (Iff.of_eq (k1_chk11.eq_1 v731))
theorem k1_idx11_inb : ∀ (v731 : IVec S16 32) (k1_hw11 : k1_chk11 v731), ∀ a x, ((![v731] : Fin 1 → IVec S16 32) a x).toNat < S10000.size a := fun v731 k1_hw11 => k1_hw11
def k1_off14 (k1_t2 : Fin k1_t2_loop.trips) : Fin 2 → Nat :=
  let c0_i32_6 : BitVec 32 := 0#32
  let c1_i32_8 : BitVec 32 := 1#32
  let arg11 : BitVec 32 := Scf.iv c0_i32_6 c1_i32_8 k1_t2
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c16_332 : Index := 16#32
  ![v736.toNat, 16]

def k1_chk12 (v737 : IVec S16 32) : Prop :=
  (∀ a x, ((![v737] : Fin 1 → IVec S16 32) a x).toNat < S10000.size a)
instance k1_chk12.dec : ∀ (v737 : IVec S16 32), Decidable (k1_chk12 v737) := fun v737 => decidable_of_iff' _ (Iff.of_eq (k1_chk12.eq_1 v737))
theorem k1_idx12_inb : ∀ (v737 : IVec S16 32) (k1_hw12 : k1_chk12 v737), ∀ a x, ((![v737] : Fin 1 → IVec S16 32) a x).toNat < S10000.size a := fun v737 k1_hw12 => k1_hw12
def k1_off15 (k1_t2 : Fin k1_t2_loop.trips) : Fin 2 → Nat :=
  let c0_i32_6 : BitVec 32 := 0#32
  let c1_i32_8 : BitVec 32 := 1#32
  let arg11 : BitVec 32 := Scf.iv c0_i32_6 c1_i32_8 k1_t2
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c16_334 : Index := 16#32
  ![v742.toNat, 16]

def k1_chk13 (v743 : IVec S16 32) : Prop :=
  (∀ a x, ((![v743] : Fin 1 → IVec S16 32) a x).toNat < S10000.size a)
instance k1_chk13.dec : ∀ (v743 : IVec S16 32), Decidable (k1_chk13 v743) := fun v743 => decidable_of_iff' _ (Iff.of_eq (k1_chk13.eq_1 v743))
theorem k1_idx13_inb : ∀ (v743 : IVec S16 32) (k1_hw13 : k1_chk13 v743), ∀ a x, ((![v743] : Fin 1 → IVec S16 32) a x).toNat < S10000.size a := fun v743 k1_hw13 => k1_hw13
def k1_off16 (k1_t2 : Fin k1_t2_loop.trips) : Fin 2 → Nat :=
  let c0_i32_6 : BitVec 32 := 0#32
  let c1_i32_8 : BitVec 32 := 1#32
  let arg11 : BitVec 32 := Scf.iv c0_i32_6 c1_i32_8 k1_t2
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c16_336 : Index := 16#32
  ![v748.toNat, 16]

def k1_chk14 (v749 : IVec S16 32) : Prop :=
  (∀ a x, ((![v749] : Fin 1 → IVec S16 32) a x).toNat < S10000.size a)
instance k1_chk14.dec : ∀ (v749 : IVec S16 32), Decidable (k1_chk14 v749) := fun v749 => decidable_of_iff' _ (Iff.of_eq (k1_chk14.eq_1 v749))
theorem k1_idx14_inb : ∀ (v749 : IVec S16 32) (k1_hw14 : k1_chk14 v749), ∀ a x, ((![v749] : Fin 1 → IVec S16 32) a x).toNat < S10000.size a := fun v749 k1_hw14 => k1_hw14
def k1_off17 (k1_t2 : Fin k1_t2_loop.trips) : Fin 2 → Nat :=
  let c0_i32_6 : BitVec 32 := 0#32
  let c1_i32_8 : BitVec 32 := 1#32
  let arg11 : BitVec 32 := Scf.iv c0_i32_6 c1_i32_8 k1_t2
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c16_338 : Index := 16#32
  ![v754.toNat, 16]

def k1_chk15 (v755 : IVec S16 32) : Prop :=
  (∀ a x, ((![v755] : Fin 1 → IVec S16 32) a x).toNat < S10000.size a)
instance k1_chk15.dec : ∀ (v755 : IVec S16 32), Decidable (k1_chk15 v755) := fun v755 => decidable_of_iff' _ (Iff.of_eq (k1_chk15.eq_1 v755))
theorem k1_idx15_inb : ∀ (v755 : IVec S16 32) (k1_hw15 : k1_chk15 v755), ∀ a x, ((![v755] : Fin 1 → IVec S16 32) a x).toNat < S10000.size a := fun v755 k1_hw15 => k1_hw15
def k1_off18 (k1_t2 : Fin k1_t2_loop.trips) : Fin 2 → Nat :=
  let c0_i32_6 : BitVec 32 := 0#32
  let c1_i32_8 : BitVec 32 := 1#32
  let arg11 : BitVec 32 := Scf.iv c0_i32_6 c1_i32_8 k1_t2
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c16_340 : Index := 16#32
  ![v760.toNat, 16]

def k1_chk16 (v761 : IVec S16 32) : Prop :=
  (∀ a x, ((![v761] : Fin 1 → IVec S16 32) a x).toNat < S10000.size a)
instance k1_chk16.dec : ∀ (v761 : IVec S16 32), Decidable (k1_chk16 v761) := fun v761 => decidable_of_iff' _ (Iff.of_eq (k1_chk16.eq_1 v761))
theorem k1_idx16_inb : ∀ (v761 : IVec S16 32) (k1_hw16 : k1_chk16 v761), ∀ a x, ((![v761] : Fin 1 → IVec S16 32) a x).toNat < S10000.size a := fun v761 k1_hw16 => k1_hw16
@[reducible] def k1_t3_loop : Scf.Loop 32 :=
  let c0_i32_10 : BitVec 32 := 0#32
  let c13_i32_11 : BitVec 32 := 13#32
  let v30 : BitVec 32 := Scalar.addi c0_i32_10 c13_i32_11
  let c1_i32_12 : BitVec 32 := 1#32
  ⟨c0_i32_10, v30, c1_i32_12⟩
def k1_off19 (k1_t3 : Fin k1_t3_loop.trips) : Fin 2 → Nat :=
  let c0_i32_10 : BitVec 32 := 0#32
  let c1_i32_12 : BitVec 32 := 1#32
  let arg11 : BitVec 32 := Scf.iv c0_i32_10 c1_i32_12 k1_t3
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c32_324 : Index := 32#32
  ![v718.toNat, 32]

def k1_chk17 (v719 : IVec S16 32) : Prop :=
  (∀ a x, ((![v719] : Fin 1 → IVec S16 32) a x).toNat < S10000.size a)
instance k1_chk17.dec : ∀ (v719 : IVec S16 32), Decidable (k1_chk17 v719) := fun v719 => decidable_of_iff' _ (Iff.of_eq (k1_chk17.eq_1 v719))
theorem k1_idx17_inb : ∀ (v719 : IVec S16 32) (k1_hw17 : k1_chk17 v719), ∀ a x, ((![v719] : Fin 1 → IVec S16 32) a x).toNat < S10000.size a := fun v719 k1_hw17 => k1_hw17
def k1_off20 (k1_t3 : Fin k1_t3_loop.trips) : Fin 2 → Nat :=
  let c0_i32_10 : BitVec 32 := 0#32
  let c1_i32_12 : BitVec 32 := 1#32
  let arg11 : BitVec 32 := Scf.iv c0_i32_10 c1_i32_12 k1_t3
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c32_327 : Index := 32#32
  ![v724.toNat, 32]

def k1_chk18 (v725 : IVec S16 32) : Prop :=
  (∀ a x, ((![v725] : Fin 1 → IVec S16 32) a x).toNat < S10000.size a)
instance k1_chk18.dec : ∀ (v725 : IVec S16 32), Decidable (k1_chk18 v725) := fun v725 => decidable_of_iff' _ (Iff.of_eq (k1_chk18.eq_1 v725))
theorem k1_idx18_inb : ∀ (v725 : IVec S16 32) (k1_hw18 : k1_chk18 v725), ∀ a x, ((![v725] : Fin 1 → IVec S16 32) a x).toNat < S10000.size a := fun v725 k1_hw18 => k1_hw18
def k1_off21 (k1_t3 : Fin k1_t3_loop.trips) : Fin 2 → Nat :=
  let c0_i32_10 : BitVec 32 := 0#32
  let c1_i32_12 : BitVec 32 := 1#32
  let arg11 : BitVec 32 := Scf.iv c0_i32_10 c1_i32_12 k1_t3
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c32_330 : Index := 32#32
  ![v730.toNat, 32]

def k1_chk19 (v731 : IVec S16 32) : Prop :=
  (∀ a x, ((![v731] : Fin 1 → IVec S16 32) a x).toNat < S10000.size a)
instance k1_chk19.dec : ∀ (v731 : IVec S16 32), Decidable (k1_chk19 v731) := fun v731 => decidable_of_iff' _ (Iff.of_eq (k1_chk19.eq_1 v731))
theorem k1_idx19_inb : ∀ (v731 : IVec S16 32) (k1_hw19 : k1_chk19 v731), ∀ a x, ((![v731] : Fin 1 → IVec S16 32) a x).toNat < S10000.size a := fun v731 k1_hw19 => k1_hw19
def k1_off22 (k1_t3 : Fin k1_t3_loop.trips) : Fin 2 → Nat :=
  let c0_i32_10 : BitVec 32 := 0#32
  let c1_i32_12 : BitVec 32 := 1#32
  let arg11 : BitVec 32 := Scf.iv c0_i32_10 c1_i32_12 k1_t3
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c32_332 : Index := 32#32
  ![v736.toNat, 32]

def k1_chk20 (v737 : IVec S16 32) : Prop :=
  (∀ a x, ((![v737] : Fin 1 → IVec S16 32) a x).toNat < S10000.size a)
instance k1_chk20.dec : ∀ (v737 : IVec S16 32), Decidable (k1_chk20 v737) := fun v737 => decidable_of_iff' _ (Iff.of_eq (k1_chk20.eq_1 v737))
theorem k1_idx20_inb : ∀ (v737 : IVec S16 32) (k1_hw20 : k1_chk20 v737), ∀ a x, ((![v737] : Fin 1 → IVec S16 32) a x).toNat < S10000.size a := fun v737 k1_hw20 => k1_hw20
def k1_off23 (k1_t3 : Fin k1_t3_loop.trips) : Fin 2 → Nat :=
  let c0_i32_10 : BitVec 32 := 0#32
  let c1_i32_12 : BitVec 32 := 1#32
  let arg11 : BitVec 32 := Scf.iv c0_i32_10 c1_i32_12 k1_t3
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c32_334 : Index := 32#32
  ![v742.toNat, 32]

def k1_chk21 (v743 : IVec S16 32) : Prop :=
  (∀ a x, ((![v743] : Fin 1 → IVec S16 32) a x).toNat < S10000.size a)
instance k1_chk21.dec : ∀ (v743 : IVec S16 32), Decidable (k1_chk21 v743) := fun v743 => decidable_of_iff' _ (Iff.of_eq (k1_chk21.eq_1 v743))
theorem k1_idx21_inb : ∀ (v743 : IVec S16 32) (k1_hw21 : k1_chk21 v743), ∀ a x, ((![v743] : Fin 1 → IVec S16 32) a x).toNat < S10000.size a := fun v743 k1_hw21 => k1_hw21
def k1_off24 (k1_t3 : Fin k1_t3_loop.trips) : Fin 2 → Nat :=
  let c0_i32_10 : BitVec 32 := 0#32
  let c1_i32_12 : BitVec 32 := 1#32
  let arg11 : BitVec 32 := Scf.iv c0_i32_10 c1_i32_12 k1_t3
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c32_336 : Index := 32#32
  ![v748.toNat, 32]

def k1_chk22 (v749 : IVec S16 32) : Prop :=
  (∀ a x, ((![v749] : Fin 1 → IVec S16 32) a x).toNat < S10000.size a)
instance k1_chk22.dec : ∀ (v749 : IVec S16 32), Decidable (k1_chk22 v749) := fun v749 => decidable_of_iff' _ (Iff.of_eq (k1_chk22.eq_1 v749))
theorem k1_idx22_inb : ∀ (v749 : IVec S16 32) (k1_hw22 : k1_chk22 v749), ∀ a x, ((![v749] : Fin 1 → IVec S16 32) a x).toNat < S10000.size a := fun v749 k1_hw22 => k1_hw22
def k1_off25 (k1_t3 : Fin k1_t3_loop.trips) : Fin 2 → Nat :=
  let c0_i32_10 : BitVec 32 := 0#32
  let c1_i32_12 : BitVec 32 := 1#32
  let arg11 : BitVec 32 := Scf.iv c0_i32_10 c1_i32_12 k1_t3
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c32_338 : Index := 32#32
  ![v754.toNat, 32]

def k1_chk23 (v755 : IVec S16 32) : Prop :=
  (∀ a x, ((![v755] : Fin 1 → IVec S16 32) a x).toNat < S10000.size a)
instance k1_chk23.dec : ∀ (v755 : IVec S16 32), Decidable (k1_chk23 v755) := fun v755 => decidable_of_iff' _ (Iff.of_eq (k1_chk23.eq_1 v755))
theorem k1_idx23_inb : ∀ (v755 : IVec S16 32) (k1_hw23 : k1_chk23 v755), ∀ a x, ((![v755] : Fin 1 → IVec S16 32) a x).toNat < S10000.size a := fun v755 k1_hw23 => k1_hw23
def k1_off26 (k1_t3 : Fin k1_t3_loop.trips) : Fin 2 → Nat :=
  let c0_i32_10 : BitVec 32 := 0#32
  let c1_i32_12 : BitVec 32 := 1#32
  let arg11 : BitVec 32 := Scf.iv c0_i32_10 c1_i32_12 k1_t3
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c32_340 : Index := 32#32
  ![v760.toNat, 32]

def k1_chk24 (v761 : IVec S16 32) : Prop :=
  (∀ a x, ((![v761] : Fin 1 → IVec S16 32) a x).toNat < S10000.size a)
instance k1_chk24.dec : ∀ (v761 : IVec S16 32), Decidable (k1_chk24 v761) := fun v761 => decidable_of_iff' _ (Iff.of_eq (k1_chk24.eq_1 v761))
theorem k1_idx24_inb : ∀ (v761 : IVec S16 32) (k1_hw24 : k1_chk24 v761), ∀ a x, ((![v761] : Fin 1 → IVec S16 32) a x).toNat < S10000.size a := fun v761 k1_hw24 => k1_hw24
@[reducible] def k1_t4_loop : Scf.Loop 32 :=
  let c0_i32_14 : BitVec 32 := 0#32
  let c13_i32_15 : BitVec 32 := 13#32
  let v40 : BitVec 32 := Scalar.addi c0_i32_14 c13_i32_15
  let c1_i32_16 : BitVec 32 := 1#32
  ⟨c0_i32_14, v40, c1_i32_16⟩
def k1_off27 (k1_t4 : Fin k1_t4_loop.trips) : Fin 2 → Nat :=
  let c0_i32_14 : BitVec 32 := 0#32
  let c1_i32_16 : BitVec 32 := 1#32
  let arg11 : BitVec 32 := Scf.iv c0_i32_14 c1_i32_16 k1_t4
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c48_324 : Index := 48#32
  ![v718.toNat, 48]

def k1_chk25 (v719 : IVec S16 32) : Prop :=
  (∀ a x, ((![v719] : Fin 1 → IVec S16 32) a x).toNat < S10000.size a)
instance k1_chk25.dec : ∀ (v719 : IVec S16 32), Decidable (k1_chk25 v719) := fun v719 => decidable_of_iff' _ (Iff.of_eq (k1_chk25.eq_1 v719))
theorem k1_idx25_inb : ∀ (v719 : IVec S16 32) (k1_hw25 : k1_chk25 v719), ∀ a x, ((![v719] : Fin 1 → IVec S16 32) a x).toNat < S10000.size a := fun v719 k1_hw25 => k1_hw25
def k1_off28 (k1_t4 : Fin k1_t4_loop.trips) : Fin 2 → Nat :=
  let c0_i32_14 : BitVec 32 := 0#32
  let c1_i32_16 : BitVec 32 := 1#32
  let arg11 : BitVec 32 := Scf.iv c0_i32_14 c1_i32_16 k1_t4
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c48_327 : Index := 48#32
  ![v724.toNat, 48]

def k1_chk26 (v725 : IVec S16 32) : Prop :=
  (∀ a x, ((![v725] : Fin 1 → IVec S16 32) a x).toNat < S10000.size a)
instance k1_chk26.dec : ∀ (v725 : IVec S16 32), Decidable (k1_chk26 v725) := fun v725 => decidable_of_iff' _ (Iff.of_eq (k1_chk26.eq_1 v725))
theorem k1_idx26_inb : ∀ (v725 : IVec S16 32) (k1_hw26 : k1_chk26 v725), ∀ a x, ((![v725] : Fin 1 → IVec S16 32) a x).toNat < S10000.size a := fun v725 k1_hw26 => k1_hw26
def k1_off29 (k1_t4 : Fin k1_t4_loop.trips) : Fin 2 → Nat :=
  let c0_i32_14 : BitVec 32 := 0#32
  let c1_i32_16 : BitVec 32 := 1#32
  let arg11 : BitVec 32 := Scf.iv c0_i32_14 c1_i32_16 k1_t4
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c48_330 : Index := 48#32
  ![v730.toNat, 48]

def k1_chk27 (v731 : IVec S16 32) : Prop :=
  (∀ a x, ((![v731] : Fin 1 → IVec S16 32) a x).toNat < S10000.size a)
instance k1_chk27.dec : ∀ (v731 : IVec S16 32), Decidable (k1_chk27 v731) := fun v731 => decidable_of_iff' _ (Iff.of_eq (k1_chk27.eq_1 v731))
theorem k1_idx27_inb : ∀ (v731 : IVec S16 32) (k1_hw27 : k1_chk27 v731), ∀ a x, ((![v731] : Fin 1 → IVec S16 32) a x).toNat < S10000.size a := fun v731 k1_hw27 => k1_hw27
def k1_off30 (k1_t4 : Fin k1_t4_loop.trips) : Fin 2 → Nat :=
  let c0_i32_14 : BitVec 32 := 0#32
  let c1_i32_16 : BitVec 32 := 1#32
  let arg11 : BitVec 32 := Scf.iv c0_i32_14 c1_i32_16 k1_t4
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c48_332 : Index := 48#32
  ![v736.toNat, 48]

def k1_chk28 (v737 : IVec S16 32) : Prop :=
  (∀ a x, ((![v737] : Fin 1 → IVec S16 32) a x).toNat < S10000.size a)
instance k1_chk28.dec : ∀ (v737 : IVec S16 32), Decidable (k1_chk28 v737) := fun v737 => decidable_of_iff' _ (Iff.of_eq (k1_chk28.eq_1 v737))
theorem k1_idx28_inb : ∀ (v737 : IVec S16 32) (k1_hw28 : k1_chk28 v737), ∀ a x, ((![v737] : Fin 1 → IVec S16 32) a x).toNat < S10000.size a := fun v737 k1_hw28 => k1_hw28
def k1_off31 (k1_t4 : Fin k1_t4_loop.trips) : Fin 2 → Nat :=
  let c0_i32_14 : BitVec 32 := 0#32
  let c1_i32_16 : BitVec 32 := 1#32
  let arg11 : BitVec 32 := Scf.iv c0_i32_14 c1_i32_16 k1_t4
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c48_334 : Index := 48#32
  ![v742.toNat, 48]

def k1_chk29 (v743 : IVec S16 32) : Prop :=
  (∀ a x, ((![v743] : Fin 1 → IVec S16 32) a x).toNat < S10000.size a)
instance k1_chk29.dec : ∀ (v743 : IVec S16 32), Decidable (k1_chk29 v743) := fun v743 => decidable_of_iff' _ (Iff.of_eq (k1_chk29.eq_1 v743))
theorem k1_idx29_inb : ∀ (v743 : IVec S16 32) (k1_hw29 : k1_chk29 v743), ∀ a x, ((![v743] : Fin 1 → IVec S16 32) a x).toNat < S10000.size a := fun v743 k1_hw29 => k1_hw29
def k1_off32 (k1_t4 : Fin k1_t4_loop.trips) : Fin 2 → Nat :=
  let c0_i32_14 : BitVec 32 := 0#32
  let c1_i32_16 : BitVec 32 := 1#32
  let arg11 : BitVec 32 := Scf.iv c0_i32_14 c1_i32_16 k1_t4
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c48_336 : Index := 48#32
  ![v748.toNat, 48]

def k1_chk30 (v749 : IVec S16 32) : Prop :=
  (∀ a x, ((![v749] : Fin 1 → IVec S16 32) a x).toNat < S10000.size a)
instance k1_chk30.dec : ∀ (v749 : IVec S16 32), Decidable (k1_chk30 v749) := fun v749 => decidable_of_iff' _ (Iff.of_eq (k1_chk30.eq_1 v749))
theorem k1_idx30_inb : ∀ (v749 : IVec S16 32) (k1_hw30 : k1_chk30 v749), ∀ a x, ((![v749] : Fin 1 → IVec S16 32) a x).toNat < S10000.size a := fun v749 k1_hw30 => k1_hw30
def k1_off33 (k1_t4 : Fin k1_t4_loop.trips) : Fin 2 → Nat :=
  let c0_i32_14 : BitVec 32 := 0#32
  let c1_i32_16 : BitVec 32 := 1#32
  let arg11 : BitVec 32 := Scf.iv c0_i32_14 c1_i32_16 k1_t4
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c48_338 : Index := 48#32
  ![v754.toNat, 48]

def k1_chk31 (v755 : IVec S16 32) : Prop :=
  (∀ a x, ((![v755] : Fin 1 → IVec S16 32) a x).toNat < S10000.size a)
instance k1_chk31.dec : ∀ (v755 : IVec S16 32), Decidable (k1_chk31 v755) := fun v755 => decidable_of_iff' _ (Iff.of_eq (k1_chk31.eq_1 v755))
theorem k1_idx31_inb : ∀ (v755 : IVec S16 32) (k1_hw31 : k1_chk31 v755), ∀ a x, ((![v755] : Fin 1 → IVec S16 32) a x).toNat < S10000.size a := fun v755 k1_hw31 => k1_hw31
def k1_off34 (k1_t4 : Fin k1_t4_loop.trips) : Fin 2 → Nat :=
  let c0_i32_14 : BitVec 32 := 0#32
  let c1_i32_16 : BitVec 32 := 1#32
  let arg11 : BitVec 32 := Scf.iv c0_i32_14 c1_i32_16 k1_t4
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c48_340 : Index := 48#32
  ![v760.toNat, 48]

def k1_chk32 (v761 : IVec S16 32) : Prop :=
  (∀ a x, ((![v761] : Fin 1 → IVec S16 32) a x).toNat < S10000.size a)
instance k1_chk32.dec : ∀ (v761 : IVec S16 32), Decidable (k1_chk32 v761) := fun v761 => decidable_of_iff' _ (Iff.of_eq (k1_chk32.eq_1 v761))
theorem k1_idx32_inb : ∀ (v761 : IVec S16 32) (k1_hw32 : k1_chk32 v761), ∀ a x, ((![v761] : Fin 1 → IVec S16 32) a x).toNat < S10000.size a := fun v761 k1_hw32 => k1_hw32
@[reducible] def k1_t5_loop : Scf.Loop 32 :=
  let c0_i32_18 : BitVec 32 := 0#32
  let c13_i32_19 : BitVec 32 := 13#32
  let v50 : BitVec 32 := Scalar.addi c0_i32_18 c13_i32_19
  let c1_i32_20 : BitVec 32 := 1#32
  ⟨c0_i32_18, v50, c1_i32_20⟩
def k1_off35 (k1_t5 : Fin k1_t5_loop.trips) : Fin 2 → Nat :=
  let c0_i32_18 : BitVec 32 := 0#32
  let c1_i32_20 : BitVec 32 := 1#32
  let arg11 : BitVec 32 := Scf.iv c0_i32_18 c1_i32_20 k1_t5
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c64_324 : Index := 64#32
  ![v718.toNat, 64]

def k1_chk33 (v719 : IVec S16 32) : Prop :=
  (∀ a x, ((![v719] : Fin 1 → IVec S16 32) a x).toNat < S10000.size a)
instance k1_chk33.dec : ∀ (v719 : IVec S16 32), Decidable (k1_chk33 v719) := fun v719 => decidable_of_iff' _ (Iff.of_eq (k1_chk33.eq_1 v719))
theorem k1_idx33_inb : ∀ (v719 : IVec S16 32) (k1_hw33 : k1_chk33 v719), ∀ a x, ((![v719] : Fin 1 → IVec S16 32) a x).toNat < S10000.size a := fun v719 k1_hw33 => k1_hw33
def k1_off36 (k1_t5 : Fin k1_t5_loop.trips) : Fin 2 → Nat :=
  let c0_i32_18 : BitVec 32 := 0#32
  let c1_i32_20 : BitVec 32 := 1#32
  let arg11 : BitVec 32 := Scf.iv c0_i32_18 c1_i32_20 k1_t5
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c64_327 : Index := 64#32
  ![v724.toNat, 64]

def k1_chk34 (v725 : IVec S16 32) : Prop :=
  (∀ a x, ((![v725] : Fin 1 → IVec S16 32) a x).toNat < S10000.size a)
instance k1_chk34.dec : ∀ (v725 : IVec S16 32), Decidable (k1_chk34 v725) := fun v725 => decidable_of_iff' _ (Iff.of_eq (k1_chk34.eq_1 v725))
theorem k1_idx34_inb : ∀ (v725 : IVec S16 32) (k1_hw34 : k1_chk34 v725), ∀ a x, ((![v725] : Fin 1 → IVec S16 32) a x).toNat < S10000.size a := fun v725 k1_hw34 => k1_hw34
def k1_off37 (k1_t5 : Fin k1_t5_loop.trips) : Fin 2 → Nat :=
  let c0_i32_18 : BitVec 32 := 0#32
  let c1_i32_20 : BitVec 32 := 1#32
  let arg11 : BitVec 32 := Scf.iv c0_i32_18 c1_i32_20 k1_t5
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c64_330 : Index := 64#32
  ![v730.toNat, 64]

def k1_chk35 (v731 : IVec S16 32) : Prop :=
  (∀ a x, ((![v731] : Fin 1 → IVec S16 32) a x).toNat < S10000.size a)
instance k1_chk35.dec : ∀ (v731 : IVec S16 32), Decidable (k1_chk35 v731) := fun v731 => decidable_of_iff' _ (Iff.of_eq (k1_chk35.eq_1 v731))
theorem k1_idx35_inb : ∀ (v731 : IVec S16 32) (k1_hw35 : k1_chk35 v731), ∀ a x, ((![v731] : Fin 1 → IVec S16 32) a x).toNat < S10000.size a := fun v731 k1_hw35 => k1_hw35
def k1_off38 (k1_t5 : Fin k1_t5_loop.trips) : Fin 2 → Nat :=
  let c0_i32_18 : BitVec 32 := 0#32
  let c1_i32_20 : BitVec 32 := 1#32
  let arg11 : BitVec 32 := Scf.iv c0_i32_18 c1_i32_20 k1_t5
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c64_332 : Index := 64#32
  ![v736.toNat, 64]

def k1_chk36 (v737 : IVec S16 32) : Prop :=
  (∀ a x, ((![v737] : Fin 1 → IVec S16 32) a x).toNat < S10000.size a)
instance k1_chk36.dec : ∀ (v737 : IVec S16 32), Decidable (k1_chk36 v737) := fun v737 => decidable_of_iff' _ (Iff.of_eq (k1_chk36.eq_1 v737))
theorem k1_idx36_inb : ∀ (v737 : IVec S16 32) (k1_hw36 : k1_chk36 v737), ∀ a x, ((![v737] : Fin 1 → IVec S16 32) a x).toNat < S10000.size a := fun v737 k1_hw36 => k1_hw36
def k1_off39 (k1_t5 : Fin k1_t5_loop.trips) : Fin 2 → Nat :=
  let c0_i32_18 : BitVec 32 := 0#32
  let c1_i32_20 : BitVec 32 := 1#32
  let arg11 : BitVec 32 := Scf.iv c0_i32_18 c1_i32_20 k1_t5
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c64_334 : Index := 64#32
  ![v742.toNat, 64]

def k1_chk37 (v743 : IVec S16 32) : Prop :=
  (∀ a x, ((![v743] : Fin 1 → IVec S16 32) a x).toNat < S10000.size a)
instance k1_chk37.dec : ∀ (v743 : IVec S16 32), Decidable (k1_chk37 v743) := fun v743 => decidable_of_iff' _ (Iff.of_eq (k1_chk37.eq_1 v743))
theorem k1_idx37_inb : ∀ (v743 : IVec S16 32) (k1_hw37 : k1_chk37 v743), ∀ a x, ((![v743] : Fin 1 → IVec S16 32) a x).toNat < S10000.size a := fun v743 k1_hw37 => k1_hw37
def k1_off40 (k1_t5 : Fin k1_t5_loop.trips) : Fin 2 → Nat :=
  let c0_i32_18 : BitVec 32 := 0#32
  let c1_i32_20 : BitVec 32 := 1#32
  let arg11 : BitVec 32 := Scf.iv c0_i32_18 c1_i32_20 k1_t5
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c64_336 : Index := 64#32
  ![v748.toNat, 64]

def k1_chk38 (v749 : IVec S16 32) : Prop :=
  (∀ a x, ((![v749] : Fin 1 → IVec S16 32) a x).toNat < S10000.size a)
instance k1_chk38.dec : ∀ (v749 : IVec S16 32), Decidable (k1_chk38 v749) := fun v749 => decidable_of_iff' _ (Iff.of_eq (k1_chk38.eq_1 v749))
theorem k1_idx38_inb : ∀ (v749 : IVec S16 32) (k1_hw38 : k1_chk38 v749), ∀ a x, ((![v749] : Fin 1 → IVec S16 32) a x).toNat < S10000.size a := fun v749 k1_hw38 => k1_hw38
def k1_off41 (k1_t5 : Fin k1_t5_loop.trips) : Fin 2 → Nat :=
  let c0_i32_18 : BitVec 32 := 0#32
  let c1_i32_20 : BitVec 32 := 1#32
  let arg11 : BitVec 32 := Scf.iv c0_i32_18 c1_i32_20 k1_t5
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c64_338 : Index := 64#32
  ![v754.toNat, 64]

def k1_chk39 (v755 : IVec S16 32) : Prop :=
  (∀ a x, ((![v755] : Fin 1 → IVec S16 32) a x).toNat < S10000.size a)
instance k1_chk39.dec : ∀ (v755 : IVec S16 32), Decidable (k1_chk39 v755) := fun v755 => decidable_of_iff' _ (Iff.of_eq (k1_chk39.eq_1 v755))
theorem k1_idx39_inb : ∀ (v755 : IVec S16 32) (k1_hw39 : k1_chk39 v755), ∀ a x, ((![v755] : Fin 1 → IVec S16 32) a x).toNat < S10000.size a := fun v755 k1_hw39 => k1_hw39
def k1_off42 (k1_t5 : Fin k1_t5_loop.trips) : Fin 2 → Nat :=
  let c0_i32_18 : BitVec 32 := 0#32
  let c1_i32_20 : BitVec 32 := 1#32
  let arg11 : BitVec 32 := Scf.iv c0_i32_18 c1_i32_20 k1_t5
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c64_340 : Index := 64#32
  ![v760.toNat, 64]

def k1_chk40 (v761 : IVec S16 32) : Prop :=
  (∀ a x, ((![v761] : Fin 1 → IVec S16 32) a x).toNat < S10000.size a)
instance k1_chk40.dec : ∀ (v761 : IVec S16 32), Decidable (k1_chk40 v761) := fun v761 => decidable_of_iff' _ (Iff.of_eq (k1_chk40.eq_1 v761))
theorem k1_idx40_inb : ∀ (v761 : IVec S16 32) (k1_hw40 : k1_chk40 v761), ∀ a x, ((![v761] : Fin 1 → IVec S16 32) a x).toNat < S10000.size a := fun v761 k1_hw40 => k1_hw40
@[reducible] def k1_t6_loop : Scf.Loop 32 :=
  let c0_i32_22 : BitVec 32 := 0#32
  let c13_i32_23 : BitVec 32 := 13#32
  let v60 : BitVec 32 := Scalar.addi c0_i32_22 c13_i32_23
  let c1_i32_24 : BitVec 32 := 1#32
  ⟨c0_i32_22, v60, c1_i32_24⟩
def k1_off43 (k1_t6 : Fin k1_t6_loop.trips) : Fin 2 → Nat :=
  let c0_i32_22 : BitVec 32 := 0#32
  let c1_i32_24 : BitVec 32 := 1#32
  let arg11 : BitVec 32 := Scf.iv c0_i32_22 c1_i32_24 k1_t6
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c80_324 : Index := 80#32
  ![v718.toNat, 80]

def k1_chk41 (v719 : IVec S16 32) : Prop :=
  (∀ a x, ((![v719] : Fin 1 → IVec S16 32) a x).toNat < S10000.size a)
instance k1_chk41.dec : ∀ (v719 : IVec S16 32), Decidable (k1_chk41 v719) := fun v719 => decidable_of_iff' _ (Iff.of_eq (k1_chk41.eq_1 v719))
theorem k1_idx41_inb : ∀ (v719 : IVec S16 32) (k1_hw41 : k1_chk41 v719), ∀ a x, ((![v719] : Fin 1 → IVec S16 32) a x).toNat < S10000.size a := fun v719 k1_hw41 => k1_hw41
def k1_off44 (k1_t6 : Fin k1_t6_loop.trips) : Fin 2 → Nat :=
  let c0_i32_22 : BitVec 32 := 0#32
  let c1_i32_24 : BitVec 32 := 1#32
  let arg11 : BitVec 32 := Scf.iv c0_i32_22 c1_i32_24 k1_t6
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c80_327 : Index := 80#32
  ![v724.toNat, 80]

def k1_chk42 (v725 : IVec S16 32) : Prop :=
  (∀ a x, ((![v725] : Fin 1 → IVec S16 32) a x).toNat < S10000.size a)
instance k1_chk42.dec : ∀ (v725 : IVec S16 32), Decidable (k1_chk42 v725) := fun v725 => decidable_of_iff' _ (Iff.of_eq (k1_chk42.eq_1 v725))
theorem k1_idx42_inb : ∀ (v725 : IVec S16 32) (k1_hw42 : k1_chk42 v725), ∀ a x, ((![v725] : Fin 1 → IVec S16 32) a x).toNat < S10000.size a := fun v725 k1_hw42 => k1_hw42
def k1_off45 (k1_t6 : Fin k1_t6_loop.trips) : Fin 2 → Nat :=
  let c0_i32_22 : BitVec 32 := 0#32
  let c1_i32_24 : BitVec 32 := 1#32
  let arg11 : BitVec 32 := Scf.iv c0_i32_22 c1_i32_24 k1_t6
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c80_330 : Index := 80#32
  ![v730.toNat, 80]

def k1_chk43 (v731 : IVec S16 32) : Prop :=
  (∀ a x, ((![v731] : Fin 1 → IVec S16 32) a x).toNat < S10000.size a)
instance k1_chk43.dec : ∀ (v731 : IVec S16 32), Decidable (k1_chk43 v731) := fun v731 => decidable_of_iff' _ (Iff.of_eq (k1_chk43.eq_1 v731))
theorem k1_idx43_inb : ∀ (v731 : IVec S16 32) (k1_hw43 : k1_chk43 v731), ∀ a x, ((![v731] : Fin 1 → IVec S16 32) a x).toNat < S10000.size a := fun v731 k1_hw43 => k1_hw43
def k1_off46 (k1_t6 : Fin k1_t6_loop.trips) : Fin 2 → Nat :=
  let c0_i32_22 : BitVec 32 := 0#32
  let c1_i32_24 : BitVec 32 := 1#32
  let arg11 : BitVec 32 := Scf.iv c0_i32_22 c1_i32_24 k1_t6
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c80_332 : Index := 80#32
  ![v736.toNat, 80]

def k1_chk44 (v737 : IVec S16 32) : Prop :=
  (∀ a x, ((![v737] : Fin 1 → IVec S16 32) a x).toNat < S10000.size a)
instance k1_chk44.dec : ∀ (v737 : IVec S16 32), Decidable (k1_chk44 v737) := fun v737 => decidable_of_iff' _ (Iff.of_eq (k1_chk44.eq_1 v737))
theorem k1_idx44_inb : ∀ (v737 : IVec S16 32) (k1_hw44 : k1_chk44 v737), ∀ a x, ((![v737] : Fin 1 → IVec S16 32) a x).toNat < S10000.size a := fun v737 k1_hw44 => k1_hw44
def k1_off47 (k1_t6 : Fin k1_t6_loop.trips) : Fin 2 → Nat :=
  let c0_i32_22 : BitVec 32 := 0#32
  let c1_i32_24 : BitVec 32 := 1#32
  let arg11 : BitVec 32 := Scf.iv c0_i32_22 c1_i32_24 k1_t6
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c80_334 : Index := 80#32
  ![v742.toNat, 80]

def k1_chk45 (v743 : IVec S16 32) : Prop :=
  (∀ a x, ((![v743] : Fin 1 → IVec S16 32) a x).toNat < S10000.size a)
instance k1_chk45.dec : ∀ (v743 : IVec S16 32), Decidable (k1_chk45 v743) := fun v743 => decidable_of_iff' _ (Iff.of_eq (k1_chk45.eq_1 v743))
theorem k1_idx45_inb : ∀ (v743 : IVec S16 32) (k1_hw45 : k1_chk45 v743), ∀ a x, ((![v743] : Fin 1 → IVec S16 32) a x).toNat < S10000.size a := fun v743 k1_hw45 => k1_hw45
def k1_off48 (k1_t6 : Fin k1_t6_loop.trips) : Fin 2 → Nat :=
  let c0_i32_22 : BitVec 32 := 0#32
  let c1_i32_24 : BitVec 32 := 1#32
  let arg11 : BitVec 32 := Scf.iv c0_i32_22 c1_i32_24 k1_t6
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c80_336 : Index := 80#32
  ![v748.toNat, 80]

def k1_chk46 (v749 : IVec S16 32) : Prop :=
  (∀ a x, ((![v749] : Fin 1 → IVec S16 32) a x).toNat < S10000.size a)
instance k1_chk46.dec : ∀ (v749 : IVec S16 32), Decidable (k1_chk46 v749) := fun v749 => decidable_of_iff' _ (Iff.of_eq (k1_chk46.eq_1 v749))
theorem k1_idx46_inb : ∀ (v749 : IVec S16 32) (k1_hw46 : k1_chk46 v749), ∀ a x, ((![v749] : Fin 1 → IVec S16 32) a x).toNat < S10000.size a := fun v749 k1_hw46 => k1_hw46
def k1_off49 (k1_t6 : Fin k1_t6_loop.trips) : Fin 2 → Nat :=
  let c0_i32_22 : BitVec 32 := 0#32
  let c1_i32_24 : BitVec 32 := 1#32
  let arg11 : BitVec 32 := Scf.iv c0_i32_22 c1_i32_24 k1_t6
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c80_338 : Index := 80#32
  ![v754.toNat, 80]

def k1_chk47 (v755 : IVec S16 32) : Prop :=
  (∀ a x, ((![v755] : Fin 1 → IVec S16 32) a x).toNat < S10000.size a)
instance k1_chk47.dec : ∀ (v755 : IVec S16 32), Decidable (k1_chk47 v755) := fun v755 => decidable_of_iff' _ (Iff.of_eq (k1_chk47.eq_1 v755))
theorem k1_idx47_inb : ∀ (v755 : IVec S16 32) (k1_hw47 : k1_chk47 v755), ∀ a x, ((![v755] : Fin 1 → IVec S16 32) a x).toNat < S10000.size a := fun v755 k1_hw47 => k1_hw47
def k1_off50 (k1_t6 : Fin k1_t6_loop.trips) : Fin 2 → Nat :=
  let c0_i32_22 : BitVec 32 := 0#32
  let c1_i32_24 : BitVec 32 := 1#32
  let arg11 : BitVec 32 := Scf.iv c0_i32_22 c1_i32_24 k1_t6
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c80_340 : Index := 80#32
  ![v760.toNat, 80]

def k1_chk48 (v761 : IVec S16 32) : Prop :=
  (∀ a x, ((![v761] : Fin 1 → IVec S16 32) a x).toNat < S10000.size a)
instance k1_chk48.dec : ∀ (v761 : IVec S16 32), Decidable (k1_chk48 v761) := fun v761 => decidable_of_iff' _ (Iff.of_eq (k1_chk48.eq_1 v761))
theorem k1_idx48_inb : ∀ (v761 : IVec S16 32) (k1_hw48 : k1_chk48 v761), ∀ a x, ((![v761] : Fin 1 → IVec S16 32) a x).toNat < S10000.size a := fun v761 k1_hw48 => k1_hw48
@[reducible] def k1_t7_loop : Scf.Loop 32 :=
  let c0_i32_26 : BitVec 32 := 0#32
  let c13_i32_27 : BitVec 32 := 13#32
  let v70 : BitVec 32 := Scalar.addi c0_i32_26 c13_i32_27
  let c1_i32_28 : BitVec 32 := 1#32
  ⟨c0_i32_26, v70, c1_i32_28⟩
def k1_off51 (k1_t7 : Fin k1_t7_loop.trips) : Fin 2 → Nat :=
  let c0_i32_26 : BitVec 32 := 0#32
  let c1_i32_28 : BitVec 32 := 1#32
  let arg11 : BitVec 32 := Scf.iv c0_i32_26 c1_i32_28 k1_t7
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c96_324 : Index := 96#32
  ![v718.toNat, 96]

def k1_chk49 (v719 : IVec S16 32) : Prop :=
  (∀ a x, ((![v719] : Fin 1 → IVec S16 32) a x).toNat < S10000.size a)
instance k1_chk49.dec : ∀ (v719 : IVec S16 32), Decidable (k1_chk49 v719) := fun v719 => decidable_of_iff' _ (Iff.of_eq (k1_chk49.eq_1 v719))
theorem k1_idx49_inb : ∀ (v719 : IVec S16 32) (k1_hw49 : k1_chk49 v719), ∀ a x, ((![v719] : Fin 1 → IVec S16 32) a x).toNat < S10000.size a := fun v719 k1_hw49 => k1_hw49
def k1_off52 (k1_t7 : Fin k1_t7_loop.trips) : Fin 2 → Nat :=
  let c0_i32_26 : BitVec 32 := 0#32
  let c1_i32_28 : BitVec 32 := 1#32
  let arg11 : BitVec 32 := Scf.iv c0_i32_26 c1_i32_28 k1_t7
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c96_327 : Index := 96#32
  ![v724.toNat, 96]

def k1_chk50 (v725 : IVec S16 32) : Prop :=
  (∀ a x, ((![v725] : Fin 1 → IVec S16 32) a x).toNat < S10000.size a)
instance k1_chk50.dec : ∀ (v725 : IVec S16 32), Decidable (k1_chk50 v725) := fun v725 => decidable_of_iff' _ (Iff.of_eq (k1_chk50.eq_1 v725))
theorem k1_idx50_inb : ∀ (v725 : IVec S16 32) (k1_hw50 : k1_chk50 v725), ∀ a x, ((![v725] : Fin 1 → IVec S16 32) a x).toNat < S10000.size a := fun v725 k1_hw50 => k1_hw50
def k1_off53 (k1_t7 : Fin k1_t7_loop.trips) : Fin 2 → Nat :=
  let c0_i32_26 : BitVec 32 := 0#32
  let c1_i32_28 : BitVec 32 := 1#32
  let arg11 : BitVec 32 := Scf.iv c0_i32_26 c1_i32_28 k1_t7
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c96_330 : Index := 96#32
  ![v730.toNat, 96]

def k1_chk51 (v731 : IVec S16 32) : Prop :=
  (∀ a x, ((![v731] : Fin 1 → IVec S16 32) a x).toNat < S10000.size a)
instance k1_chk51.dec : ∀ (v731 : IVec S16 32), Decidable (k1_chk51 v731) := fun v731 => decidable_of_iff' _ (Iff.of_eq (k1_chk51.eq_1 v731))
theorem k1_idx51_inb : ∀ (v731 : IVec S16 32) (k1_hw51 : k1_chk51 v731), ∀ a x, ((![v731] : Fin 1 → IVec S16 32) a x).toNat < S10000.size a := fun v731 k1_hw51 => k1_hw51
def k1_off54 (k1_t7 : Fin k1_t7_loop.trips) : Fin 2 → Nat :=
  let c0_i32_26 : BitVec 32 := 0#32
  let c1_i32_28 : BitVec 32 := 1#32
  let arg11 : BitVec 32 := Scf.iv c0_i32_26 c1_i32_28 k1_t7
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c96_332 : Index := 96#32
  ![v736.toNat, 96]

def k1_chk52 (v737 : IVec S16 32) : Prop :=
  (∀ a x, ((![v737] : Fin 1 → IVec S16 32) a x).toNat < S10000.size a)
instance k1_chk52.dec : ∀ (v737 : IVec S16 32), Decidable (k1_chk52 v737) := fun v737 => decidable_of_iff' _ (Iff.of_eq (k1_chk52.eq_1 v737))
theorem k1_idx52_inb : ∀ (v737 : IVec S16 32) (k1_hw52 : k1_chk52 v737), ∀ a x, ((![v737] : Fin 1 → IVec S16 32) a x).toNat < S10000.size a := fun v737 k1_hw52 => k1_hw52
def k1_off55 (k1_t7 : Fin k1_t7_loop.trips) : Fin 2 → Nat :=
  let c0_i32_26 : BitVec 32 := 0#32
  let c1_i32_28 : BitVec 32 := 1#32
  let arg11 : BitVec 32 := Scf.iv c0_i32_26 c1_i32_28 k1_t7
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c96_334 : Index := 96#32
  ![v742.toNat, 96]

def k1_chk53 (v743 : IVec S16 32) : Prop :=
  (∀ a x, ((![v743] : Fin 1 → IVec S16 32) a x).toNat < S10000.size a)
instance k1_chk53.dec : ∀ (v743 : IVec S16 32), Decidable (k1_chk53 v743) := fun v743 => decidable_of_iff' _ (Iff.of_eq (k1_chk53.eq_1 v743))
theorem k1_idx53_inb : ∀ (v743 : IVec S16 32) (k1_hw53 : k1_chk53 v743), ∀ a x, ((![v743] : Fin 1 → IVec S16 32) a x).toNat < S10000.size a := fun v743 k1_hw53 => k1_hw53
def k1_off56 (k1_t7 : Fin k1_t7_loop.trips) : Fin 2 → Nat :=
  let c0_i32_26 : BitVec 32 := 0#32
  let c1_i32_28 : BitVec 32 := 1#32
  let arg11 : BitVec 32 := Scf.iv c0_i32_26 c1_i32_28 k1_t7
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c96_336 : Index := 96#32
  ![v748.toNat, 96]

def k1_chk54 (v749 : IVec S16 32) : Prop :=
  (∀ a x, ((![v749] : Fin 1 → IVec S16 32) a x).toNat < S10000.size a)
instance k1_chk54.dec : ∀ (v749 : IVec S16 32), Decidable (k1_chk54 v749) := fun v749 => decidable_of_iff' _ (Iff.of_eq (k1_chk54.eq_1 v749))
theorem k1_idx54_inb : ∀ (v749 : IVec S16 32) (k1_hw54 : k1_chk54 v749), ∀ a x, ((![v749] : Fin 1 → IVec S16 32) a x).toNat < S10000.size a := fun v749 k1_hw54 => k1_hw54
def k1_off57 (k1_t7 : Fin k1_t7_loop.trips) : Fin 2 → Nat :=
  let c0_i32_26 : BitVec 32 := 0#32
  let c1_i32_28 : BitVec 32 := 1#32
  let arg11 : BitVec 32 := Scf.iv c0_i32_26 c1_i32_28 k1_t7
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c96_338 : Index := 96#32
  ![v754.toNat, 96]

def k1_chk55 (v755 : IVec S16 32) : Prop :=
  (∀ a x, ((![v755] : Fin 1 → IVec S16 32) a x).toNat < S10000.size a)
instance k1_chk55.dec : ∀ (v755 : IVec S16 32), Decidable (k1_chk55 v755) := fun v755 => decidable_of_iff' _ (Iff.of_eq (k1_chk55.eq_1 v755))
theorem k1_idx55_inb : ∀ (v755 : IVec S16 32) (k1_hw55 : k1_chk55 v755), ∀ a x, ((![v755] : Fin 1 → IVec S16 32) a x).toNat < S10000.size a := fun v755 k1_hw55 => k1_hw55
def k1_off58 (k1_t7 : Fin k1_t7_loop.trips) : Fin 2 → Nat :=
  let c0_i32_26 : BitVec 32 := 0#32
  let c1_i32_28 : BitVec 32 := 1#32
  let arg11 : BitVec 32 := Scf.iv c0_i32_26 c1_i32_28 k1_t7
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c96_340 : Index := 96#32
  ![v760.toNat, 96]

def k1_chk56 (v761 : IVec S16 32) : Prop :=
  (∀ a x, ((![v761] : Fin 1 → IVec S16 32) a x).toNat < S10000.size a)
instance k1_chk56.dec : ∀ (v761 : IVec S16 32), Decidable (k1_chk56 v761) := fun v761 => decidable_of_iff' _ (Iff.of_eq (k1_chk56.eq_1 v761))
theorem k1_idx56_inb : ∀ (v761 : IVec S16 32) (k1_hw56 : k1_chk56 v761), ∀ a x, ((![v761] : Fin 1 → IVec S16 32) a x).toNat < S10000.size a := fun v761 k1_hw56 => k1_hw56
@[reducible] def k1_t8_loop : Scf.Loop 32 :=
  let c0_i32_30 : BitVec 32 := 0#32
  let c13_i32_31 : BitVec 32 := 13#32
  let v80 : BitVec 32 := Scalar.addi c0_i32_30 c13_i32_31
  let c1_i32_32 : BitVec 32 := 1#32
  ⟨c0_i32_30, v80, c1_i32_32⟩
def k1_off59 (k1_t8 : Fin k1_t8_loop.trips) : Fin 2 → Nat :=
  let c0_i32_30 : BitVec 32 := 0#32
  let c1_i32_32 : BitVec 32 := 1#32
  let arg11 : BitVec 32 := Scf.iv c0_i32_30 c1_i32_32 k1_t8
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c112_324 : Index := 112#32
  ![v718.toNat, 112]

def k1_chk57 (v719 : IVec S16 32) : Prop :=
  (∀ a x, ((![v719] : Fin 1 → IVec S16 32) a x).toNat < S10000.size a)
instance k1_chk57.dec : ∀ (v719 : IVec S16 32), Decidable (k1_chk57 v719) := fun v719 => decidable_of_iff' _ (Iff.of_eq (k1_chk57.eq_1 v719))
theorem k1_idx57_inb : ∀ (v719 : IVec S16 32) (k1_hw57 : k1_chk57 v719), ∀ a x, ((![v719] : Fin 1 → IVec S16 32) a x).toNat < S10000.size a := fun v719 k1_hw57 => k1_hw57
def k1_off60 (k1_t8 : Fin k1_t8_loop.trips) : Fin 2 → Nat :=
  let c0_i32_30 : BitVec 32 := 0#32
  let c1_i32_32 : BitVec 32 := 1#32
  let arg11 : BitVec 32 := Scf.iv c0_i32_30 c1_i32_32 k1_t8
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c112_327 : Index := 112#32
  ![v724.toNat, 112]

def k1_chk58 (v725 : IVec S16 32) : Prop :=
  (∀ a x, ((![v725] : Fin 1 → IVec S16 32) a x).toNat < S10000.size a)
instance k1_chk58.dec : ∀ (v725 : IVec S16 32), Decidable (k1_chk58 v725) := fun v725 => decidable_of_iff' _ (Iff.of_eq (k1_chk58.eq_1 v725))
theorem k1_idx58_inb : ∀ (v725 : IVec S16 32) (k1_hw58 : k1_chk58 v725), ∀ a x, ((![v725] : Fin 1 → IVec S16 32) a x).toNat < S10000.size a := fun v725 k1_hw58 => k1_hw58
def k1_off61 (k1_t8 : Fin k1_t8_loop.trips) : Fin 2 → Nat :=
  let c0_i32_30 : BitVec 32 := 0#32
  let c1_i32_32 : BitVec 32 := 1#32
  let arg11 : BitVec 32 := Scf.iv c0_i32_30 c1_i32_32 k1_t8
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c112_330 : Index := 112#32
  ![v730.toNat, 112]

def k1_chk59 (v731 : IVec S16 32) : Prop :=
  (∀ a x, ((![v731] : Fin 1 → IVec S16 32) a x).toNat < S10000.size a)
instance k1_chk59.dec : ∀ (v731 : IVec S16 32), Decidable (k1_chk59 v731) := fun v731 => decidable_of_iff' _ (Iff.of_eq (k1_chk59.eq_1 v731))
theorem k1_idx59_inb : ∀ (v731 : IVec S16 32) (k1_hw59 : k1_chk59 v731), ∀ a x, ((![v731] : Fin 1 → IVec S16 32) a x).toNat < S10000.size a := fun v731 k1_hw59 => k1_hw59
def k1_off62 (k1_t8 : Fin k1_t8_loop.trips) : Fin 2 → Nat :=
  let c0_i32_30 : BitVec 32 := 0#32
  let c1_i32_32 : BitVec 32 := 1#32
  let arg11 : BitVec 32 := Scf.iv c0_i32_30 c1_i32_32 k1_t8
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c112_332 : Index := 112#32
  ![v736.toNat, 112]

def k1_chk60 (v737 : IVec S16 32) : Prop :=
  (∀ a x, ((![v737] : Fin 1 → IVec S16 32) a x).toNat < S10000.size a)
instance k1_chk60.dec : ∀ (v737 : IVec S16 32), Decidable (k1_chk60 v737) := fun v737 => decidable_of_iff' _ (Iff.of_eq (k1_chk60.eq_1 v737))
theorem k1_idx60_inb : ∀ (v737 : IVec S16 32) (k1_hw60 : k1_chk60 v737), ∀ a x, ((![v737] : Fin 1 → IVec S16 32) a x).toNat < S10000.size a := fun v737 k1_hw60 => k1_hw60
def k1_off63 (k1_t8 : Fin k1_t8_loop.trips) : Fin 2 → Nat :=
  let c0_i32_30 : BitVec 32 := 0#32
  let c1_i32_32 : BitVec 32 := 1#32
  let arg11 : BitVec 32 := Scf.iv c0_i32_30 c1_i32_32 k1_t8
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c112_334 : Index := 112#32
  ![v742.toNat, 112]

def k1_chk61 (v743 : IVec S16 32) : Prop :=
  (∀ a x, ((![v743] : Fin 1 → IVec S16 32) a x).toNat < S10000.size a)
instance k1_chk61.dec : ∀ (v743 : IVec S16 32), Decidable (k1_chk61 v743) := fun v743 => decidable_of_iff' _ (Iff.of_eq (k1_chk61.eq_1 v743))
theorem k1_idx61_inb : ∀ (v743 : IVec S16 32) (k1_hw61 : k1_chk61 v743), ∀ a x, ((![v743] : Fin 1 → IVec S16 32) a x).toNat < S10000.size a := fun v743 k1_hw61 => k1_hw61
def k1_off64 (k1_t8 : Fin k1_t8_loop.trips) : Fin 2 → Nat :=
  let c0_i32_30 : BitVec 32 := 0#32
  let c1_i32_32 : BitVec 32 := 1#32
  let arg11 : BitVec 32 := Scf.iv c0_i32_30 c1_i32_32 k1_t8
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c112_336 : Index := 112#32
  ![v748.toNat, 112]

def k1_chk62 (v749 : IVec S16 32) : Prop :=
  (∀ a x, ((![v749] : Fin 1 → IVec S16 32) a x).toNat < S10000.size a)
instance k1_chk62.dec : ∀ (v749 : IVec S16 32), Decidable (k1_chk62 v749) := fun v749 => decidable_of_iff' _ (Iff.of_eq (k1_chk62.eq_1 v749))
theorem k1_idx62_inb : ∀ (v749 : IVec S16 32) (k1_hw62 : k1_chk62 v749), ∀ a x, ((![v749] : Fin 1 → IVec S16 32) a x).toNat < S10000.size a := fun v749 k1_hw62 => k1_hw62
def k1_off65 (k1_t8 : Fin k1_t8_loop.trips) : Fin 2 → Nat :=
  let c0_i32_30 : BitVec 32 := 0#32
  let c1_i32_32 : BitVec 32 := 1#32
  let arg11 : BitVec 32 := Scf.iv c0_i32_30 c1_i32_32 k1_t8
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c112_338 : Index := 112#32
  ![v754.toNat, 112]

def k1_chk63 (v755 : IVec S16 32) : Prop :=
  (∀ a x, ((![v755] : Fin 1 → IVec S16 32) a x).toNat < S10000.size a)
instance k1_chk63.dec : ∀ (v755 : IVec S16 32), Decidable (k1_chk63 v755) := fun v755 => decidable_of_iff' _ (Iff.of_eq (k1_chk63.eq_1 v755))
theorem k1_idx63_inb : ∀ (v755 : IVec S16 32) (k1_hw63 : k1_chk63 v755), ∀ a x, ((![v755] : Fin 1 → IVec S16 32) a x).toNat < S10000.size a := fun v755 k1_hw63 => k1_hw63
def k1_off66 (k1_t8 : Fin k1_t8_loop.trips) : Fin 2 → Nat :=
  let c0_i32_30 : BitVec 32 := 0#32
  let c1_i32_32 : BitVec 32 := 1#32
  let arg11 : BitVec 32 := Scf.iv c0_i32_30 c1_i32_32 k1_t8
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c112_340 : Index := 112#32
  ![v760.toNat, 112]

def k1_chk64 (v761 : IVec S16 32) : Prop :=
  (∀ a x, ((![v761] : Fin 1 → IVec S16 32) a x).toNat < S10000.size a)
instance k1_chk64.dec : ∀ (v761 : IVec S16 32), Decidable (k1_chk64 v761) := fun v761 => decidable_of_iff' _ (Iff.of_eq (k1_chk64.eq_1 v761))
theorem k1_idx64_inb : ∀ (v761 : IVec S16 32) (k1_hw64 : k1_chk64 v761), ∀ a x, ((![v761] : Fin 1 → IVec S16 32) a x).toNat < S10000.size a := fun v761 k1_hw64 => k1_hw64
@[reducible] def k1_t9_loop : Scf.Loop 32 :=
  let c0_i32_34 : BitVec 32 := 0#32
  let c13_i32_35 : BitVec 32 := 13#32
  let v90 : BitVec 32 := Scalar.addi c0_i32_34 c13_i32_35
  let c1_i32_36 : BitVec 32 := 1#32
  ⟨c0_i32_34, v90, c1_i32_36⟩
def k1_off67 (k1_t9 : Fin k1_t9_loop.trips) : Fin 2 → Nat :=
  let c0_i32_34 : BitVec 32 := 0#32
  let c1_i32_36 : BitVec 32 := 1#32
  let arg11 : BitVec 32 := Scf.iv c0_i32_34 c1_i32_36 k1_t9
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c128_324 : Index := 128#32
  ![v718.toNat, 128]

def k1_chk65 (v719 : IVec S16 32) : Prop :=
  (∀ a x, ((![v719] : Fin 1 → IVec S16 32) a x).toNat < S10000.size a)
instance k1_chk65.dec : ∀ (v719 : IVec S16 32), Decidable (k1_chk65 v719) := fun v719 => decidable_of_iff' _ (Iff.of_eq (k1_chk65.eq_1 v719))
theorem k1_idx65_inb : ∀ (v719 : IVec S16 32) (k1_hw65 : k1_chk65 v719), ∀ a x, ((![v719] : Fin 1 → IVec S16 32) a x).toNat < S10000.size a := fun v719 k1_hw65 => k1_hw65
def k1_off68 (k1_t9 : Fin k1_t9_loop.trips) : Fin 2 → Nat :=
  let c0_i32_34 : BitVec 32 := 0#32
  let c1_i32_36 : BitVec 32 := 1#32
  let arg11 : BitVec 32 := Scf.iv c0_i32_34 c1_i32_36 k1_t9
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c128_327 : Index := 128#32
  ![v724.toNat, 128]

def k1_chk66 (v725 : IVec S16 32) : Prop :=
  (∀ a x, ((![v725] : Fin 1 → IVec S16 32) a x).toNat < S10000.size a)
instance k1_chk66.dec : ∀ (v725 : IVec S16 32), Decidable (k1_chk66 v725) := fun v725 => decidable_of_iff' _ (Iff.of_eq (k1_chk66.eq_1 v725))
theorem k1_idx66_inb : ∀ (v725 : IVec S16 32) (k1_hw66 : k1_chk66 v725), ∀ a x, ((![v725] : Fin 1 → IVec S16 32) a x).toNat < S10000.size a := fun v725 k1_hw66 => k1_hw66
def k1_off69 (k1_t9 : Fin k1_t9_loop.trips) : Fin 2 → Nat :=
  let c0_i32_34 : BitVec 32 := 0#32
  let c1_i32_36 : BitVec 32 := 1#32
  let arg11 : BitVec 32 := Scf.iv c0_i32_34 c1_i32_36 k1_t9
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c128_330 : Index := 128#32
  ![v730.toNat, 128]

def k1_chk67 (v731 : IVec S16 32) : Prop :=
  (∀ a x, ((![v731] : Fin 1 → IVec S16 32) a x).toNat < S10000.size a)
instance k1_chk67.dec : ∀ (v731 : IVec S16 32), Decidable (k1_chk67 v731) := fun v731 => decidable_of_iff' _ (Iff.of_eq (k1_chk67.eq_1 v731))
theorem k1_idx67_inb : ∀ (v731 : IVec S16 32) (k1_hw67 : k1_chk67 v731), ∀ a x, ((![v731] : Fin 1 → IVec S16 32) a x).toNat < S10000.size a := fun v731 k1_hw67 => k1_hw67
def k1_off70 (k1_t9 : Fin k1_t9_loop.trips) : Fin 2 → Nat :=
  let c0_i32_34 : BitVec 32 := 0#32
  let c1_i32_36 : BitVec 32 := 1#32
  let arg11 : BitVec 32 := Scf.iv c0_i32_34 c1_i32_36 k1_t9
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c128_332 : Index := 128#32
  ![v736.toNat, 128]

def k1_chk68 (v737 : IVec S16 32) : Prop :=
  (∀ a x, ((![v737] : Fin 1 → IVec S16 32) a x).toNat < S10000.size a)
instance k1_chk68.dec : ∀ (v737 : IVec S16 32), Decidable (k1_chk68 v737) := fun v737 => decidable_of_iff' _ (Iff.of_eq (k1_chk68.eq_1 v737))
theorem k1_idx68_inb : ∀ (v737 : IVec S16 32) (k1_hw68 : k1_chk68 v737), ∀ a x, ((![v737] : Fin 1 → IVec S16 32) a x).toNat < S10000.size a := fun v737 k1_hw68 => k1_hw68
def k1_off71 (k1_t9 : Fin k1_t9_loop.trips) : Fin 2 → Nat :=
  let c0_i32_34 : BitVec 32 := 0#32
  let c1_i32_36 : BitVec 32 := 1#32
  let arg11 : BitVec 32 := Scf.iv c0_i32_34 c1_i32_36 k1_t9
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c128_334 : Index := 128#32
  ![v742.toNat, 128]

def k1_chk69 (v743 : IVec S16 32) : Prop :=
  (∀ a x, ((![v743] : Fin 1 → IVec S16 32) a x).toNat < S10000.size a)
instance k1_chk69.dec : ∀ (v743 : IVec S16 32), Decidable (k1_chk69 v743) := fun v743 => decidable_of_iff' _ (Iff.of_eq (k1_chk69.eq_1 v743))
theorem k1_idx69_inb : ∀ (v743 : IVec S16 32) (k1_hw69 : k1_chk69 v743), ∀ a x, ((![v743] : Fin 1 → IVec S16 32) a x).toNat < S10000.size a := fun v743 k1_hw69 => k1_hw69
def k1_off72 (k1_t9 : Fin k1_t9_loop.trips) : Fin 2 → Nat :=
  let c0_i32_34 : BitVec 32 := 0#32
  let c1_i32_36 : BitVec 32 := 1#32
  let arg11 : BitVec 32 := Scf.iv c0_i32_34 c1_i32_36 k1_t9
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c128_336 : Index := 128#32
  ![v748.toNat, 128]

def k1_chk70 (v749 : IVec S16 32) : Prop :=
  (∀ a x, ((![v749] : Fin 1 → IVec S16 32) a x).toNat < S10000.size a)
instance k1_chk70.dec : ∀ (v749 : IVec S16 32), Decidable (k1_chk70 v749) := fun v749 => decidable_of_iff' _ (Iff.of_eq (k1_chk70.eq_1 v749))
theorem k1_idx70_inb : ∀ (v749 : IVec S16 32) (k1_hw70 : k1_chk70 v749), ∀ a x, ((![v749] : Fin 1 → IVec S16 32) a x).toNat < S10000.size a := fun v749 k1_hw70 => k1_hw70
def k1_off73 (k1_t9 : Fin k1_t9_loop.trips) : Fin 2 → Nat :=
  let c0_i32_34 : BitVec 32 := 0#32
  let c1_i32_36 : BitVec 32 := 1#32
  let arg11 : BitVec 32 := Scf.iv c0_i32_34 c1_i32_36 k1_t9
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c128_338 : Index := 128#32
  ![v754.toNat, 128]

def k1_chk71 (v755 : IVec S16 32) : Prop :=
  (∀ a x, ((![v755] : Fin 1 → IVec S16 32) a x).toNat < S10000.size a)
instance k1_chk71.dec : ∀ (v755 : IVec S16 32), Decidable (k1_chk71 v755) := fun v755 => decidable_of_iff' _ (Iff.of_eq (k1_chk71.eq_1 v755))
theorem k1_idx71_inb : ∀ (v755 : IVec S16 32) (k1_hw71 : k1_chk71 v755), ∀ a x, ((![v755] : Fin 1 → IVec S16 32) a x).toNat < S10000.size a := fun v755 k1_hw71 => k1_hw71
def k1_off74 (k1_t9 : Fin k1_t9_loop.trips) : Fin 2 → Nat :=
  let c0_i32_34 : BitVec 32 := 0#32
  let c1_i32_36 : BitVec 32 := 1#32
  let arg11 : BitVec 32 := Scf.iv c0_i32_34 c1_i32_36 k1_t9
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c128_340 : Index := 128#32
  ![v760.toNat, 128]

def k1_chk72 (v761 : IVec S16 32) : Prop :=
  (∀ a x, ((![v761] : Fin 1 → IVec S16 32) a x).toNat < S10000.size a)
instance k1_chk72.dec : ∀ (v761 : IVec S16 32), Decidable (k1_chk72 v761) := fun v761 => decidable_of_iff' _ (Iff.of_eq (k1_chk72.eq_1 v761))
theorem k1_idx72_inb : ∀ (v761 : IVec S16 32) (k1_hw72 : k1_chk72 v761), ∀ a x, ((![v761] : Fin 1 → IVec S16 32) a x).toNat < S10000.size a := fun v761 k1_hw72 => k1_hw72
@[reducible] def k1_t10_loop : Scf.Loop 32 :=
  let c0_i32_38 : BitVec 32 := 0#32
  let c13_i32_39 : BitVec 32 := 13#32
  let v100 : BitVec 32 := Scalar.addi c0_i32_38 c13_i32_39
  let c1_i32_40 : BitVec 32 := 1#32
  ⟨c0_i32_38, v100, c1_i32_40⟩
def k1_off75 (k1_t10 : Fin k1_t10_loop.trips) : Fin 2 → Nat :=
  let c0_i32_38 : BitVec 32 := 0#32
  let c1_i32_40 : BitVec 32 := 1#32
  let arg11 : BitVec 32 := Scf.iv c0_i32_38 c1_i32_40 k1_t10
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c144_324 : Index := 144#32
  ![v718.toNat, 144]

def k1_chk73 (v719 : IVec S16 32) : Prop :=
  (∀ a x, ((![v719] : Fin 1 → IVec S16 32) a x).toNat < S10000.size a)
instance k1_chk73.dec : ∀ (v719 : IVec S16 32), Decidable (k1_chk73 v719) := fun v719 => decidable_of_iff' _ (Iff.of_eq (k1_chk73.eq_1 v719))
theorem k1_idx73_inb : ∀ (v719 : IVec S16 32) (k1_hw73 : k1_chk73 v719), ∀ a x, ((![v719] : Fin 1 → IVec S16 32) a x).toNat < S10000.size a := fun v719 k1_hw73 => k1_hw73
def k1_off76 (k1_t10 : Fin k1_t10_loop.trips) : Fin 2 → Nat :=
  let c0_i32_38 : BitVec 32 := 0#32
  let c1_i32_40 : BitVec 32 := 1#32
  let arg11 : BitVec 32 := Scf.iv c0_i32_38 c1_i32_40 k1_t10
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c144_327 : Index := 144#32
  ![v724.toNat, 144]

def k1_chk74 (v725 : IVec S16 32) : Prop :=
  (∀ a x, ((![v725] : Fin 1 → IVec S16 32) a x).toNat < S10000.size a)
instance k1_chk74.dec : ∀ (v725 : IVec S16 32), Decidable (k1_chk74 v725) := fun v725 => decidable_of_iff' _ (Iff.of_eq (k1_chk74.eq_1 v725))
theorem k1_idx74_inb : ∀ (v725 : IVec S16 32) (k1_hw74 : k1_chk74 v725), ∀ a x, ((![v725] : Fin 1 → IVec S16 32) a x).toNat < S10000.size a := fun v725 k1_hw74 => k1_hw74
def k1_off77 (k1_t10 : Fin k1_t10_loop.trips) : Fin 2 → Nat :=
  let c0_i32_38 : BitVec 32 := 0#32
  let c1_i32_40 : BitVec 32 := 1#32
  let arg11 : BitVec 32 := Scf.iv c0_i32_38 c1_i32_40 k1_t10
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c144_330 : Index := 144#32
  ![v730.toNat, 144]

def k1_chk75 (v731 : IVec S16 32) : Prop :=
  (∀ a x, ((![v731] : Fin 1 → IVec S16 32) a x).toNat < S10000.size a)
instance k1_chk75.dec : ∀ (v731 : IVec S16 32), Decidable (k1_chk75 v731) := fun v731 => decidable_of_iff' _ (Iff.of_eq (k1_chk75.eq_1 v731))
theorem k1_idx75_inb : ∀ (v731 : IVec S16 32) (k1_hw75 : k1_chk75 v731), ∀ a x, ((![v731] : Fin 1 → IVec S16 32) a x).toNat < S10000.size a := fun v731 k1_hw75 => k1_hw75
def k1_off78 (k1_t10 : Fin k1_t10_loop.trips) : Fin 2 → Nat :=
  let c0_i32_38 : BitVec 32 := 0#32
  let c1_i32_40 : BitVec 32 := 1#32
  let arg11 : BitVec 32 := Scf.iv c0_i32_38 c1_i32_40 k1_t10
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c144_332 : Index := 144#32
  ![v736.toNat, 144]

def k1_chk76 (v737 : IVec S16 32) : Prop :=
  (∀ a x, ((![v737] : Fin 1 → IVec S16 32) a x).toNat < S10000.size a)
instance k1_chk76.dec : ∀ (v737 : IVec S16 32), Decidable (k1_chk76 v737) := fun v737 => decidable_of_iff' _ (Iff.of_eq (k1_chk76.eq_1 v737))
theorem k1_idx76_inb : ∀ (v737 : IVec S16 32) (k1_hw76 : k1_chk76 v737), ∀ a x, ((![v737] : Fin 1 → IVec S16 32) a x).toNat < S10000.size a := fun v737 k1_hw76 => k1_hw76
def k1_off79 (k1_t10 : Fin k1_t10_loop.trips) : Fin 2 → Nat :=
  let c0_i32_38 : BitVec 32 := 0#32
  let c1_i32_40 : BitVec 32 := 1#32
  let arg11 : BitVec 32 := Scf.iv c0_i32_38 c1_i32_40 k1_t10
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c144_334 : Index := 144#32
  ![v742.toNat, 144]

def k1_chk77 (v743 : IVec S16 32) : Prop :=
  (∀ a x, ((![v743] : Fin 1 → IVec S16 32) a x).toNat < S10000.size a)
instance k1_chk77.dec : ∀ (v743 : IVec S16 32), Decidable (k1_chk77 v743) := fun v743 => decidable_of_iff' _ (Iff.of_eq (k1_chk77.eq_1 v743))
theorem k1_idx77_inb : ∀ (v743 : IVec S16 32) (k1_hw77 : k1_chk77 v743), ∀ a x, ((![v743] : Fin 1 → IVec S16 32) a x).toNat < S10000.size a := fun v743 k1_hw77 => k1_hw77
def k1_off80 (k1_t10 : Fin k1_t10_loop.trips) : Fin 2 → Nat :=
  let c0_i32_38 : BitVec 32 := 0#32
  let c1_i32_40 : BitVec 32 := 1#32
  let arg11 : BitVec 32 := Scf.iv c0_i32_38 c1_i32_40 k1_t10
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c144_336 : Index := 144#32
  ![v748.toNat, 144]

def k1_chk78 (v749 : IVec S16 32) : Prop :=
  (∀ a x, ((![v749] : Fin 1 → IVec S16 32) a x).toNat < S10000.size a)
instance k1_chk78.dec : ∀ (v749 : IVec S16 32), Decidable (k1_chk78 v749) := fun v749 => decidable_of_iff' _ (Iff.of_eq (k1_chk78.eq_1 v749))
theorem k1_idx78_inb : ∀ (v749 : IVec S16 32) (k1_hw78 : k1_chk78 v749), ∀ a x, ((![v749] : Fin 1 → IVec S16 32) a x).toNat < S10000.size a := fun v749 k1_hw78 => k1_hw78
def k1_off81 (k1_t10 : Fin k1_t10_loop.trips) : Fin 2 → Nat :=
  let c0_i32_38 : BitVec 32 := 0#32
  let c1_i32_40 : BitVec 32 := 1#32
  let arg11 : BitVec 32 := Scf.iv c0_i32_38 c1_i32_40 k1_t10
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c144_338 : Index := 144#32
  ![v754.toNat, 144]

def k1_chk79 (v755 : IVec S16 32) : Prop :=
  (∀ a x, ((![v755] : Fin 1 → IVec S16 32) a x).toNat < S10000.size a)
instance k1_chk79.dec : ∀ (v755 : IVec S16 32), Decidable (k1_chk79 v755) := fun v755 => decidable_of_iff' _ (Iff.of_eq (k1_chk79.eq_1 v755))
theorem k1_idx79_inb : ∀ (v755 : IVec S16 32) (k1_hw79 : k1_chk79 v755), ∀ a x, ((![v755] : Fin 1 → IVec S16 32) a x).toNat < S10000.size a := fun v755 k1_hw79 => k1_hw79
def k1_off82 (k1_t10 : Fin k1_t10_loop.trips) : Fin 2 → Nat :=
  let c0_i32_38 : BitVec 32 := 0#32
  let c1_i32_40 : BitVec 32 := 1#32
  let arg11 : BitVec 32 := Scf.iv c0_i32_38 c1_i32_40 k1_t10
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c144_340 : Index := 144#32
  ![v760.toNat, 144]

def k1_chk80 (v761 : IVec S16 32) : Prop :=
  (∀ a x, ((![v761] : Fin 1 → IVec S16 32) a x).toNat < S10000.size a)
instance k1_chk80.dec : ∀ (v761 : IVec S16 32), Decidable (k1_chk80 v761) := fun v761 => decidable_of_iff' _ (Iff.of_eq (k1_chk80.eq_1 v761))
theorem k1_idx80_inb : ∀ (v761 : IVec S16 32) (k1_hw80 : k1_chk80 v761), ∀ a x, ((![v761] : Fin 1 → IVec S16 32) a x).toNat < S10000.size a := fun v761 k1_hw80 => k1_hw80
@[reducible] def k1_t11_loop : Scf.Loop 32 :=
  let c0_i32_42 : BitVec 32 := 0#32
  let c13_i32_43 : BitVec 32 := 13#32
  let v110 : BitVec 32 := Scalar.addi c0_i32_42 c13_i32_43
  let c1_i32_44 : BitVec 32 := 1#32
  ⟨c0_i32_42, v110, c1_i32_44⟩
def k1_off83 (k1_t11 : Fin k1_t11_loop.trips) : Fin 2 → Nat :=
  let c0_i32_42 : BitVec 32 := 0#32
  let c1_i32_44 : BitVec 32 := 1#32
  let arg11 : BitVec 32 := Scf.iv c0_i32_42 c1_i32_44 k1_t11
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c160_324 : Index := 160#32
  ![v718.toNat, 160]

def k1_chk81 (v719 : IVec S16 32) : Prop :=
  (∀ a x, ((![v719] : Fin 1 → IVec S16 32) a x).toNat < S10000.size a)
instance k1_chk81.dec : ∀ (v719 : IVec S16 32), Decidable (k1_chk81 v719) := fun v719 => decidable_of_iff' _ (Iff.of_eq (k1_chk81.eq_1 v719))
theorem k1_idx81_inb : ∀ (v719 : IVec S16 32) (k1_hw81 : k1_chk81 v719), ∀ a x, ((![v719] : Fin 1 → IVec S16 32) a x).toNat < S10000.size a := fun v719 k1_hw81 => k1_hw81
def k1_off84 (k1_t11 : Fin k1_t11_loop.trips) : Fin 2 → Nat :=
  let c0_i32_42 : BitVec 32 := 0#32
  let c1_i32_44 : BitVec 32 := 1#32
  let arg11 : BitVec 32 := Scf.iv c0_i32_42 c1_i32_44 k1_t11
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c160_327 : Index := 160#32
  ![v724.toNat, 160]

def k1_chk82 (v725 : IVec S16 32) : Prop :=
  (∀ a x, ((![v725] : Fin 1 → IVec S16 32) a x).toNat < S10000.size a)
instance k1_chk82.dec : ∀ (v725 : IVec S16 32), Decidable (k1_chk82 v725) := fun v725 => decidable_of_iff' _ (Iff.of_eq (k1_chk82.eq_1 v725))
theorem k1_idx82_inb : ∀ (v725 : IVec S16 32) (k1_hw82 : k1_chk82 v725), ∀ a x, ((![v725] : Fin 1 → IVec S16 32) a x).toNat < S10000.size a := fun v725 k1_hw82 => k1_hw82
def k1_off85 (k1_t11 : Fin k1_t11_loop.trips) : Fin 2 → Nat :=
  let c0_i32_42 : BitVec 32 := 0#32
  let c1_i32_44 : BitVec 32 := 1#32
  let arg11 : BitVec 32 := Scf.iv c0_i32_42 c1_i32_44 k1_t11
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c160_330 : Index := 160#32
  ![v730.toNat, 160]

def k1_chk83 (v731 : IVec S16 32) : Prop :=
  (∀ a x, ((![v731] : Fin 1 → IVec S16 32) a x).toNat < S10000.size a)
instance k1_chk83.dec : ∀ (v731 : IVec S16 32), Decidable (k1_chk83 v731) := fun v731 => decidable_of_iff' _ (Iff.of_eq (k1_chk83.eq_1 v731))
theorem k1_idx83_inb : ∀ (v731 : IVec S16 32) (k1_hw83 : k1_chk83 v731), ∀ a x, ((![v731] : Fin 1 → IVec S16 32) a x).toNat < S10000.size a := fun v731 k1_hw83 => k1_hw83
def k1_off86 (k1_t11 : Fin k1_t11_loop.trips) : Fin 2 → Nat :=
  let c0_i32_42 : BitVec 32 := 0#32
  let c1_i32_44 : BitVec 32 := 1#32
  let arg11 : BitVec 32 := Scf.iv c0_i32_42 c1_i32_44 k1_t11
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c160_332 : Index := 160#32
  ![v736.toNat, 160]

def k1_chk84 (v737 : IVec S16 32) : Prop :=
  (∀ a x, ((![v737] : Fin 1 → IVec S16 32) a x).toNat < S10000.size a)
instance k1_chk84.dec : ∀ (v737 : IVec S16 32), Decidable (k1_chk84 v737) := fun v737 => decidable_of_iff' _ (Iff.of_eq (k1_chk84.eq_1 v737))
theorem k1_idx84_inb : ∀ (v737 : IVec S16 32) (k1_hw84 : k1_chk84 v737), ∀ a x, ((![v737] : Fin 1 → IVec S16 32) a x).toNat < S10000.size a := fun v737 k1_hw84 => k1_hw84
def k1_off87 (k1_t11 : Fin k1_t11_loop.trips) : Fin 2 → Nat :=
  let c0_i32_42 : BitVec 32 := 0#32
  let c1_i32_44 : BitVec 32 := 1#32
  let arg11 : BitVec 32 := Scf.iv c0_i32_42 c1_i32_44 k1_t11
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c160_334 : Index := 160#32
  ![v742.toNat, 160]

def k1_chk85 (v743 : IVec S16 32) : Prop :=
  (∀ a x, ((![v743] : Fin 1 → IVec S16 32) a x).toNat < S10000.size a)
instance k1_chk85.dec : ∀ (v743 : IVec S16 32), Decidable (k1_chk85 v743) := fun v743 => decidable_of_iff' _ (Iff.of_eq (k1_chk85.eq_1 v743))
theorem k1_idx85_inb : ∀ (v743 : IVec S16 32) (k1_hw85 : k1_chk85 v743), ∀ a x, ((![v743] : Fin 1 → IVec S16 32) a x).toNat < S10000.size a := fun v743 k1_hw85 => k1_hw85
def k1_off88 (k1_t11 : Fin k1_t11_loop.trips) : Fin 2 → Nat :=
  let c0_i32_42 : BitVec 32 := 0#32
  let c1_i32_44 : BitVec 32 := 1#32
  let arg11 : BitVec 32 := Scf.iv c0_i32_42 c1_i32_44 k1_t11
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c160_336 : Index := 160#32
  ![v748.toNat, 160]

def k1_chk86 (v749 : IVec S16 32) : Prop :=
  (∀ a x, ((![v749] : Fin 1 → IVec S16 32) a x).toNat < S10000.size a)
instance k1_chk86.dec : ∀ (v749 : IVec S16 32), Decidable (k1_chk86 v749) := fun v749 => decidable_of_iff' _ (Iff.of_eq (k1_chk86.eq_1 v749))
theorem k1_idx86_inb : ∀ (v749 : IVec S16 32) (k1_hw86 : k1_chk86 v749), ∀ a x, ((![v749] : Fin 1 → IVec S16 32) a x).toNat < S10000.size a := fun v749 k1_hw86 => k1_hw86
def k1_off89 (k1_t11 : Fin k1_t11_loop.trips) : Fin 2 → Nat :=
  let c0_i32_42 : BitVec 32 := 0#32
  let c1_i32_44 : BitVec 32 := 1#32
  let arg11 : BitVec 32 := Scf.iv c0_i32_42 c1_i32_44 k1_t11
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c160_338 : Index := 160#32
  ![v754.toNat, 160]

def k1_chk87 (v755 : IVec S16 32) : Prop :=
  (∀ a x, ((![v755] : Fin 1 → IVec S16 32) a x).toNat < S10000.size a)
instance k1_chk87.dec : ∀ (v755 : IVec S16 32), Decidable (k1_chk87 v755) := fun v755 => decidable_of_iff' _ (Iff.of_eq (k1_chk87.eq_1 v755))
theorem k1_idx87_inb : ∀ (v755 : IVec S16 32) (k1_hw87 : k1_chk87 v755), ∀ a x, ((![v755] : Fin 1 → IVec S16 32) a x).toNat < S10000.size a := fun v755 k1_hw87 => k1_hw87
def k1_off90 (k1_t11 : Fin k1_t11_loop.trips) : Fin 2 → Nat :=
  let c0_i32_42 : BitVec 32 := 0#32
  let c1_i32_44 : BitVec 32 := 1#32
  let arg11 : BitVec 32 := Scf.iv c0_i32_42 c1_i32_44 k1_t11
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c160_340 : Index := 160#32
  ![v760.toNat, 160]

def k1_chk88 (v761 : IVec S16 32) : Prop :=
  (∀ a x, ((![v761] : Fin 1 → IVec S16 32) a x).toNat < S10000.size a)
instance k1_chk88.dec : ∀ (v761 : IVec S16 32), Decidable (k1_chk88 v761) := fun v761 => decidable_of_iff' _ (Iff.of_eq (k1_chk88.eq_1 v761))
theorem k1_idx88_inb : ∀ (v761 : IVec S16 32) (k1_hw88 : k1_chk88 v761), ∀ a x, ((![v761] : Fin 1 → IVec S16 32) a x).toNat < S10000.size a := fun v761 k1_hw88 => k1_hw88
@[reducible] def k1_t12_loop : Scf.Loop 32 :=
  let c0_i32_46 : BitVec 32 := 0#32
  let c13_i32_47 : BitVec 32 := 13#32
  let v120 : BitVec 32 := Scalar.addi c0_i32_46 c13_i32_47
  let c1_i32_48 : BitVec 32 := 1#32
  ⟨c0_i32_46, v120, c1_i32_48⟩
def k1_off91 (k1_t12 : Fin k1_t12_loop.trips) : Fin 2 → Nat :=
  let c0_i32_46 : BitVec 32 := 0#32
  let c1_i32_48 : BitVec 32 := 1#32
  let arg11 : BitVec 32 := Scf.iv c0_i32_46 c1_i32_48 k1_t12
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c176_324 : Index := 176#32
  ![v718.toNat, 176]

def k1_chk89 (v719 : IVec S16 32) : Prop :=
  (∀ a x, ((![v719] : Fin 1 → IVec S16 32) a x).toNat < S10000.size a)
instance k1_chk89.dec : ∀ (v719 : IVec S16 32), Decidable (k1_chk89 v719) := fun v719 => decidable_of_iff' _ (Iff.of_eq (k1_chk89.eq_1 v719))
theorem k1_idx89_inb : ∀ (v719 : IVec S16 32) (k1_hw89 : k1_chk89 v719), ∀ a x, ((![v719] : Fin 1 → IVec S16 32) a x).toNat < S10000.size a := fun v719 k1_hw89 => k1_hw89
def k1_off92 (k1_t12 : Fin k1_t12_loop.trips) : Fin 2 → Nat :=
  let c0_i32_46 : BitVec 32 := 0#32
  let c1_i32_48 : BitVec 32 := 1#32
  let arg11 : BitVec 32 := Scf.iv c0_i32_46 c1_i32_48 k1_t12
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c176_327 : Index := 176#32
  ![v724.toNat, 176]

def k1_chk90 (v725 : IVec S16 32) : Prop :=
  (∀ a x, ((![v725] : Fin 1 → IVec S16 32) a x).toNat < S10000.size a)
instance k1_chk90.dec : ∀ (v725 : IVec S16 32), Decidable (k1_chk90 v725) := fun v725 => decidable_of_iff' _ (Iff.of_eq (k1_chk90.eq_1 v725))
theorem k1_idx90_inb : ∀ (v725 : IVec S16 32) (k1_hw90 : k1_chk90 v725), ∀ a x, ((![v725] : Fin 1 → IVec S16 32) a x).toNat < S10000.size a := fun v725 k1_hw90 => k1_hw90
def k1_off93 (k1_t12 : Fin k1_t12_loop.trips) : Fin 2 → Nat :=
  let c0_i32_46 : BitVec 32 := 0#32
  let c1_i32_48 : BitVec 32 := 1#32
  let arg11 : BitVec 32 := Scf.iv c0_i32_46 c1_i32_48 k1_t12
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c176_330 : Index := 176#32
  ![v730.toNat, 176]

def k1_chk91 (v731 : IVec S16 32) : Prop :=
  (∀ a x, ((![v731] : Fin 1 → IVec S16 32) a x).toNat < S10000.size a)
instance k1_chk91.dec : ∀ (v731 : IVec S16 32), Decidable (k1_chk91 v731) := fun v731 => decidable_of_iff' _ (Iff.of_eq (k1_chk91.eq_1 v731))
theorem k1_idx91_inb : ∀ (v731 : IVec S16 32) (k1_hw91 : k1_chk91 v731), ∀ a x, ((![v731] : Fin 1 → IVec S16 32) a x).toNat < S10000.size a := fun v731 k1_hw91 => k1_hw91
def k1_off94 (k1_t12 : Fin k1_t12_loop.trips) : Fin 2 → Nat :=
  let c0_i32_46 : BitVec 32 := 0#32
  let c1_i32_48 : BitVec 32 := 1#32
  let arg11 : BitVec 32 := Scf.iv c0_i32_46 c1_i32_48 k1_t12
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c176_332 : Index := 176#32
  ![v736.toNat, 176]

def k1_chk92 (v737 : IVec S16 32) : Prop :=
  (∀ a x, ((![v737] : Fin 1 → IVec S16 32) a x).toNat < S10000.size a)
instance k1_chk92.dec : ∀ (v737 : IVec S16 32), Decidable (k1_chk92 v737) := fun v737 => decidable_of_iff' _ (Iff.of_eq (k1_chk92.eq_1 v737))
theorem k1_idx92_inb : ∀ (v737 : IVec S16 32) (k1_hw92 : k1_chk92 v737), ∀ a x, ((![v737] : Fin 1 → IVec S16 32) a x).toNat < S10000.size a := fun v737 k1_hw92 => k1_hw92
def k1_off95 (k1_t12 : Fin k1_t12_loop.trips) : Fin 2 → Nat :=
  let c0_i32_46 : BitVec 32 := 0#32
  let c1_i32_48 : BitVec 32 := 1#32
  let arg11 : BitVec 32 := Scf.iv c0_i32_46 c1_i32_48 k1_t12
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c176_334 : Index := 176#32
  ![v742.toNat, 176]

def k1_chk93 (v743 : IVec S16 32) : Prop :=
  (∀ a x, ((![v743] : Fin 1 → IVec S16 32) a x).toNat < S10000.size a)
instance k1_chk93.dec : ∀ (v743 : IVec S16 32), Decidable (k1_chk93 v743) := fun v743 => decidable_of_iff' _ (Iff.of_eq (k1_chk93.eq_1 v743))
theorem k1_idx93_inb : ∀ (v743 : IVec S16 32) (k1_hw93 : k1_chk93 v743), ∀ a x, ((![v743] : Fin 1 → IVec S16 32) a x).toNat < S10000.size a := fun v743 k1_hw93 => k1_hw93
def k1_off96 (k1_t12 : Fin k1_t12_loop.trips) : Fin 2 → Nat :=
  let c0_i32_46 : BitVec 32 := 0#32
  let c1_i32_48 : BitVec 32 := 1#32
  let arg11 : BitVec 32 := Scf.iv c0_i32_46 c1_i32_48 k1_t12
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c176_336 : Index := 176#32
  ![v748.toNat, 176]

def k1_chk94 (v749 : IVec S16 32) : Prop :=
  (∀ a x, ((![v749] : Fin 1 → IVec S16 32) a x).toNat < S10000.size a)
instance k1_chk94.dec : ∀ (v749 : IVec S16 32), Decidable (k1_chk94 v749) := fun v749 => decidable_of_iff' _ (Iff.of_eq (k1_chk94.eq_1 v749))
theorem k1_idx94_inb : ∀ (v749 : IVec S16 32) (k1_hw94 : k1_chk94 v749), ∀ a x, ((![v749] : Fin 1 → IVec S16 32) a x).toNat < S10000.size a := fun v749 k1_hw94 => k1_hw94
def k1_off97 (k1_t12 : Fin k1_t12_loop.trips) : Fin 2 → Nat :=
  let c0_i32_46 : BitVec 32 := 0#32
  let c1_i32_48 : BitVec 32 := 1#32
  let arg11 : BitVec 32 := Scf.iv c0_i32_46 c1_i32_48 k1_t12
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c176_338 : Index := 176#32
  ![v754.toNat, 176]

def k1_chk95 (v755 : IVec S16 32) : Prop :=
  (∀ a x, ((![v755] : Fin 1 → IVec S16 32) a x).toNat < S10000.size a)
instance k1_chk95.dec : ∀ (v755 : IVec S16 32), Decidable (k1_chk95 v755) := fun v755 => decidable_of_iff' _ (Iff.of_eq (k1_chk95.eq_1 v755))
theorem k1_idx95_inb : ∀ (v755 : IVec S16 32) (k1_hw95 : k1_chk95 v755), ∀ a x, ((![v755] : Fin 1 → IVec S16 32) a x).toNat < S10000.size a := fun v755 k1_hw95 => k1_hw95
def k1_off98 (k1_t12 : Fin k1_t12_loop.trips) : Fin 2 → Nat :=
  let c0_i32_46 : BitVec 32 := 0#32
  let c1_i32_48 : BitVec 32 := 1#32
  let arg11 : BitVec 32 := Scf.iv c0_i32_46 c1_i32_48 k1_t12
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c176_340 : Index := 176#32
  ![v760.toNat, 176]

def k1_chk96 (v761 : IVec S16 32) : Prop :=
  (∀ a x, ((![v761] : Fin 1 → IVec S16 32) a x).toNat < S10000.size a)
instance k1_chk96.dec : ∀ (v761 : IVec S16 32), Decidable (k1_chk96 v761) := fun v761 => decidable_of_iff' _ (Iff.of_eq (k1_chk96.eq_1 v761))
theorem k1_idx96_inb : ∀ (v761 : IVec S16 32) (k1_hw96 : k1_chk96 v761), ∀ a x, ((![v761] : Fin 1 → IVec S16 32) a x).toNat < S10000.size a := fun v761 k1_hw96 => k1_hw96
@[reducible] def k1_t13_loop : Scf.Loop 32 :=
  let c0_i32_50 : BitVec 32 := 0#32
  let c13_i32_51 : BitVec 32 := 13#32
  let v130 : BitVec 32 := Scalar.addi c0_i32_50 c13_i32_51
  let c1_i32_52 : BitVec 32 := 1#32
  ⟨c0_i32_50, v130, c1_i32_52⟩
def k1_off99 (k1_t13 : Fin k1_t13_loop.trips) : Fin 2 → Nat :=
  let c0_i32_50 : BitVec 32 := 0#32
  let c1_i32_52 : BitVec 32 := 1#32
  let arg11 : BitVec 32 := Scf.iv c0_i32_50 c1_i32_52 k1_t13
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c192_324 : Index := 192#32
  ![v718.toNat, 192]

def k1_chk97 (v719 : IVec S16 32) : Prop :=
  (∀ a x, ((![v719] : Fin 1 → IVec S16 32) a x).toNat < S10000.size a)
instance k1_chk97.dec : ∀ (v719 : IVec S16 32), Decidable (k1_chk97 v719) := fun v719 => decidable_of_iff' _ (Iff.of_eq (k1_chk97.eq_1 v719))
theorem k1_idx97_inb : ∀ (v719 : IVec S16 32) (k1_hw97 : k1_chk97 v719), ∀ a x, ((![v719] : Fin 1 → IVec S16 32) a x).toNat < S10000.size a := fun v719 k1_hw97 => k1_hw97
def k1_off100 (k1_t13 : Fin k1_t13_loop.trips) : Fin 2 → Nat :=
  let c0_i32_50 : BitVec 32 := 0#32
  let c1_i32_52 : BitVec 32 := 1#32
  let arg11 : BitVec 32 := Scf.iv c0_i32_50 c1_i32_52 k1_t13
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c192_327 : Index := 192#32
  ![v724.toNat, 192]

def k1_chk98 (v725 : IVec S16 32) : Prop :=
  (∀ a x, ((![v725] : Fin 1 → IVec S16 32) a x).toNat < S10000.size a)
instance k1_chk98.dec : ∀ (v725 : IVec S16 32), Decidable (k1_chk98 v725) := fun v725 => decidable_of_iff' _ (Iff.of_eq (k1_chk98.eq_1 v725))
theorem k1_idx98_inb : ∀ (v725 : IVec S16 32) (k1_hw98 : k1_chk98 v725), ∀ a x, ((![v725] : Fin 1 → IVec S16 32) a x).toNat < S10000.size a := fun v725 k1_hw98 => k1_hw98
def k1_off101 (k1_t13 : Fin k1_t13_loop.trips) : Fin 2 → Nat :=
  let c0_i32_50 : BitVec 32 := 0#32
  let c1_i32_52 : BitVec 32 := 1#32
  let arg11 : BitVec 32 := Scf.iv c0_i32_50 c1_i32_52 k1_t13
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c192_330 : Index := 192#32
  ![v730.toNat, 192]

def k1_chk99 (v731 : IVec S16 32) : Prop :=
  (∀ a x, ((![v731] : Fin 1 → IVec S16 32) a x).toNat < S10000.size a)
instance k1_chk99.dec : ∀ (v731 : IVec S16 32), Decidable (k1_chk99 v731) := fun v731 => decidable_of_iff' _ (Iff.of_eq (k1_chk99.eq_1 v731))
theorem k1_idx99_inb : ∀ (v731 : IVec S16 32) (k1_hw99 : k1_chk99 v731), ∀ a x, ((![v731] : Fin 1 → IVec S16 32) a x).toNat < S10000.size a := fun v731 k1_hw99 => k1_hw99
def k1_off102 (k1_t13 : Fin k1_t13_loop.trips) : Fin 2 → Nat :=
  let c0_i32_50 : BitVec 32 := 0#32
  let c1_i32_52 : BitVec 32 := 1#32
  let arg11 : BitVec 32 := Scf.iv c0_i32_50 c1_i32_52 k1_t13
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c192_332 : Index := 192#32
  ![v736.toNat, 192]

def k1_chk100 (v737 : IVec S16 32) : Prop :=
  (∀ a x, ((![v737] : Fin 1 → IVec S16 32) a x).toNat < S10000.size a)
instance k1_chk100.dec : ∀ (v737 : IVec S16 32), Decidable (k1_chk100 v737) := fun v737 => decidable_of_iff' _ (Iff.of_eq (k1_chk100.eq_1 v737))
theorem k1_idx100_inb : ∀ (v737 : IVec S16 32) (k1_hw100 : k1_chk100 v737), ∀ a x, ((![v737] : Fin 1 → IVec S16 32) a x).toNat < S10000.size a := fun v737 k1_hw100 => k1_hw100
def k1_off103 (k1_t13 : Fin k1_t13_loop.trips) : Fin 2 → Nat :=
  let c0_i32_50 : BitVec 32 := 0#32
  let c1_i32_52 : BitVec 32 := 1#32
  let arg11 : BitVec 32 := Scf.iv c0_i32_50 c1_i32_52 k1_t13
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c192_334 : Index := 192#32
  ![v742.toNat, 192]

def k1_chk101 (v743 : IVec S16 32) : Prop :=
  (∀ a x, ((![v743] : Fin 1 → IVec S16 32) a x).toNat < S10000.size a)
instance k1_chk101.dec : ∀ (v743 : IVec S16 32), Decidable (k1_chk101 v743) := fun v743 => decidable_of_iff' _ (Iff.of_eq (k1_chk101.eq_1 v743))
theorem k1_idx101_inb : ∀ (v743 : IVec S16 32) (k1_hw101 : k1_chk101 v743), ∀ a x, ((![v743] : Fin 1 → IVec S16 32) a x).toNat < S10000.size a := fun v743 k1_hw101 => k1_hw101
def k1_off104 (k1_t13 : Fin k1_t13_loop.trips) : Fin 2 → Nat :=
  let c0_i32_50 : BitVec 32 := 0#32
  let c1_i32_52 : BitVec 32 := 1#32
  let arg11 : BitVec 32 := Scf.iv c0_i32_50 c1_i32_52 k1_t13
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c192_336 : Index := 192#32
  ![v748.toNat, 192]

def k1_chk102 (v749 : IVec S16 32) : Prop :=
  (∀ a x, ((![v749] : Fin 1 → IVec S16 32) a x).toNat < S10000.size a)
instance k1_chk102.dec : ∀ (v749 : IVec S16 32), Decidable (k1_chk102 v749) := fun v749 => decidable_of_iff' _ (Iff.of_eq (k1_chk102.eq_1 v749))
theorem k1_idx102_inb : ∀ (v749 : IVec S16 32) (k1_hw102 : k1_chk102 v749), ∀ a x, ((![v749] : Fin 1 → IVec S16 32) a x).toNat < S10000.size a := fun v749 k1_hw102 => k1_hw102
def k1_off105 (k1_t13 : Fin k1_t13_loop.trips) : Fin 2 → Nat :=
  let c0_i32_50 : BitVec 32 := 0#32
  let c1_i32_52 : BitVec 32 := 1#32
  let arg11 : BitVec 32 := Scf.iv c0_i32_50 c1_i32_52 k1_t13
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c192_338 : Index := 192#32
  ![v754.toNat, 192]

def k1_chk103 (v755 : IVec S16 32) : Prop :=
  (∀ a x, ((![v755] : Fin 1 → IVec S16 32) a x).toNat < S10000.size a)
instance k1_chk103.dec : ∀ (v755 : IVec S16 32), Decidable (k1_chk103 v755) := fun v755 => decidable_of_iff' _ (Iff.of_eq (k1_chk103.eq_1 v755))
theorem k1_idx103_inb : ∀ (v755 : IVec S16 32) (k1_hw103 : k1_chk103 v755), ∀ a x, ((![v755] : Fin 1 → IVec S16 32) a x).toNat < S10000.size a := fun v755 k1_hw103 => k1_hw103
def k1_off106 (k1_t13 : Fin k1_t13_loop.trips) : Fin 2 → Nat :=
  let c0_i32_50 : BitVec 32 := 0#32
  let c1_i32_52 : BitVec 32 := 1#32
  let arg11 : BitVec 32 := Scf.iv c0_i32_50 c1_i32_52 k1_t13
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c192_340 : Index := 192#32
  ![v760.toNat, 192]

def k1_chk104 (v761 : IVec S16 32) : Prop :=
  (∀ a x, ((![v761] : Fin 1 → IVec S16 32) a x).toNat < S10000.size a)
instance k1_chk104.dec : ∀ (v761 : IVec S16 32), Decidable (k1_chk104 v761) := fun v761 => decidable_of_iff' _ (Iff.of_eq (k1_chk104.eq_1 v761))
theorem k1_idx104_inb : ∀ (v761 : IVec S16 32) (k1_hw104 : k1_chk104 v761), ∀ a x, ((![v761] : Fin 1 → IVec S16 32) a x).toNat < S10000.size a := fun v761 k1_hw104 => k1_hw104
@[reducible] def k1_t14_loop : Scf.Loop 32 :=
  let c0_i32_54 : BitVec 32 := 0#32
  let c13_i32_55 : BitVec 32 := 13#32
  let v140 : BitVec 32 := Scalar.addi c0_i32_54 c13_i32_55
  let c1_i32_56 : BitVec 32 := 1#32
  ⟨c0_i32_54, v140, c1_i32_56⟩
def k1_off107 (k1_t14 : Fin k1_t14_loop.trips) : Fin 2 → Nat :=
  let c0_i32_54 : BitVec 32 := 0#32
  let c1_i32_56 : BitVec 32 := 1#32
  let arg11 : BitVec 32 := Scf.iv c0_i32_54 c1_i32_56 k1_t14
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c208_324 : Index := 208#32
  ![v718.toNat, 208]

def k1_chk105 (v719 : IVec S16 32) : Prop :=
  (∀ a x, ((![v719] : Fin 1 → IVec S16 32) a x).toNat < S10000.size a)
instance k1_chk105.dec : ∀ (v719 : IVec S16 32), Decidable (k1_chk105 v719) := fun v719 => decidable_of_iff' _ (Iff.of_eq (k1_chk105.eq_1 v719))
theorem k1_idx105_inb : ∀ (v719 : IVec S16 32) (k1_hw105 : k1_chk105 v719), ∀ a x, ((![v719] : Fin 1 → IVec S16 32) a x).toNat < S10000.size a := fun v719 k1_hw105 => k1_hw105
def k1_off108 (k1_t14 : Fin k1_t14_loop.trips) : Fin 2 → Nat :=
  let c0_i32_54 : BitVec 32 := 0#32
  let c1_i32_56 : BitVec 32 := 1#32
  let arg11 : BitVec 32 := Scf.iv c0_i32_54 c1_i32_56 k1_t14
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c208_327 : Index := 208#32
  ![v724.toNat, 208]

def k1_chk106 (v725 : IVec S16 32) : Prop :=
  (∀ a x, ((![v725] : Fin 1 → IVec S16 32) a x).toNat < S10000.size a)
instance k1_chk106.dec : ∀ (v725 : IVec S16 32), Decidable (k1_chk106 v725) := fun v725 => decidable_of_iff' _ (Iff.of_eq (k1_chk106.eq_1 v725))
theorem k1_idx106_inb : ∀ (v725 : IVec S16 32) (k1_hw106 : k1_chk106 v725), ∀ a x, ((![v725] : Fin 1 → IVec S16 32) a x).toNat < S10000.size a := fun v725 k1_hw106 => k1_hw106
def k1_off109 (k1_t14 : Fin k1_t14_loop.trips) : Fin 2 → Nat :=
  let c0_i32_54 : BitVec 32 := 0#32
  let c1_i32_56 : BitVec 32 := 1#32
  let arg11 : BitVec 32 := Scf.iv c0_i32_54 c1_i32_56 k1_t14
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c208_330 : Index := 208#32
  ![v730.toNat, 208]

def k1_chk107 (v731 : IVec S16 32) : Prop :=
  (∀ a x, ((![v731] : Fin 1 → IVec S16 32) a x).toNat < S10000.size a)
instance k1_chk107.dec : ∀ (v731 : IVec S16 32), Decidable (k1_chk107 v731) := fun v731 => decidable_of_iff' _ (Iff.of_eq (k1_chk107.eq_1 v731))
theorem k1_idx107_inb : ∀ (v731 : IVec S16 32) (k1_hw107 : k1_chk107 v731), ∀ a x, ((![v731] : Fin 1 → IVec S16 32) a x).toNat < S10000.size a := fun v731 k1_hw107 => k1_hw107
def k1_off110 (k1_t14 : Fin k1_t14_loop.trips) : Fin 2 → Nat :=
  let c0_i32_54 : BitVec 32 := 0#32
  let c1_i32_56 : BitVec 32 := 1#32
  let arg11 : BitVec 32 := Scf.iv c0_i32_54 c1_i32_56 k1_t14
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c208_332 : Index := 208#32
  ![v736.toNat, 208]

def k1_chk108 (v737 : IVec S16 32) : Prop :=
  (∀ a x, ((![v737] : Fin 1 → IVec S16 32) a x).toNat < S10000.size a)
instance k1_chk108.dec : ∀ (v737 : IVec S16 32), Decidable (k1_chk108 v737) := fun v737 => decidable_of_iff' _ (Iff.of_eq (k1_chk108.eq_1 v737))
theorem k1_idx108_inb : ∀ (v737 : IVec S16 32) (k1_hw108 : k1_chk108 v737), ∀ a x, ((![v737] : Fin 1 → IVec S16 32) a x).toNat < S10000.size a := fun v737 k1_hw108 => k1_hw108
def k1_off111 (k1_t14 : Fin k1_t14_loop.trips) : Fin 2 → Nat :=
  let c0_i32_54 : BitVec 32 := 0#32
  let c1_i32_56 : BitVec 32 := 1#32
  let arg11 : BitVec 32 := Scf.iv c0_i32_54 c1_i32_56 k1_t14
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c208_334 : Index := 208#32
  ![v742.toNat, 208]

def k1_chk109 (v743 : IVec S16 32) : Prop :=
  (∀ a x, ((![v743] : Fin 1 → IVec S16 32) a x).toNat < S10000.size a)
instance k1_chk109.dec : ∀ (v743 : IVec S16 32), Decidable (k1_chk109 v743) := fun v743 => decidable_of_iff' _ (Iff.of_eq (k1_chk109.eq_1 v743))
theorem k1_idx109_inb : ∀ (v743 : IVec S16 32) (k1_hw109 : k1_chk109 v743), ∀ a x, ((![v743] : Fin 1 → IVec S16 32) a x).toNat < S10000.size a := fun v743 k1_hw109 => k1_hw109
def k1_off112 (k1_t14 : Fin k1_t14_loop.trips) : Fin 2 → Nat :=
  let c0_i32_54 : BitVec 32 := 0#32
  let c1_i32_56 : BitVec 32 := 1#32
  let arg11 : BitVec 32 := Scf.iv c0_i32_54 c1_i32_56 k1_t14
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c208_336 : Index := 208#32
  ![v748.toNat, 208]

def k1_chk110 (v749 : IVec S16 32) : Prop :=
  (∀ a x, ((![v749] : Fin 1 → IVec S16 32) a x).toNat < S10000.size a)
instance k1_chk110.dec : ∀ (v749 : IVec S16 32), Decidable (k1_chk110 v749) := fun v749 => decidable_of_iff' _ (Iff.of_eq (k1_chk110.eq_1 v749))
theorem k1_idx110_inb : ∀ (v749 : IVec S16 32) (k1_hw110 : k1_chk110 v749), ∀ a x, ((![v749] : Fin 1 → IVec S16 32) a x).toNat < S10000.size a := fun v749 k1_hw110 => k1_hw110
def k1_off113 (k1_t14 : Fin k1_t14_loop.trips) : Fin 2 → Nat :=
  let c0_i32_54 : BitVec 32 := 0#32
  let c1_i32_56 : BitVec 32 := 1#32
  let arg11 : BitVec 32 := Scf.iv c0_i32_54 c1_i32_56 k1_t14
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c208_338 : Index := 208#32
  ![v754.toNat, 208]

def k1_chk111 (v755 : IVec S16 32) : Prop :=
  (∀ a x, ((![v755] : Fin 1 → IVec S16 32) a x).toNat < S10000.size a)
instance k1_chk111.dec : ∀ (v755 : IVec S16 32), Decidable (k1_chk111 v755) := fun v755 => decidable_of_iff' _ (Iff.of_eq (k1_chk111.eq_1 v755))
theorem k1_idx111_inb : ∀ (v755 : IVec S16 32) (k1_hw111 : k1_chk111 v755), ∀ a x, ((![v755] : Fin 1 → IVec S16 32) a x).toNat < S10000.size a := fun v755 k1_hw111 => k1_hw111
def k1_off114 (k1_t14 : Fin k1_t14_loop.trips) : Fin 2 → Nat :=
  let c0_i32_54 : BitVec 32 := 0#32
  let c1_i32_56 : BitVec 32 := 1#32
  let arg11 : BitVec 32 := Scf.iv c0_i32_54 c1_i32_56 k1_t14
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c208_340 : Index := 208#32
  ![v760.toNat, 208]

def k1_chk112 (v761 : IVec S16 32) : Prop :=
  (∀ a x, ((![v761] : Fin 1 → IVec S16 32) a x).toNat < S10000.size a)
instance k1_chk112.dec : ∀ (v761 : IVec S16 32), Decidable (k1_chk112 v761) := fun v761 => decidable_of_iff' _ (Iff.of_eq (k1_chk112.eq_1 v761))
theorem k1_idx112_inb : ∀ (v761 : IVec S16 32) (k1_hw112 : k1_chk112 v761), ∀ a x, ((![v761] : Fin 1 → IVec S16 32) a x).toNat < S10000.size a := fun v761 k1_hw112 => k1_hw112
@[reducible] def k1_t15_loop : Scf.Loop 32 :=
  let c0_i32_58 : BitVec 32 := 0#32
  let c13_i32_59 : BitVec 32 := 13#32
  let v150 : BitVec 32 := Scalar.addi c0_i32_58 c13_i32_59
  let c1_i32_60 : BitVec 32 := 1#32
  ⟨c0_i32_58, v150, c1_i32_60⟩
def k1_off115 (k1_t15 : Fin k1_t15_loop.trips) : Fin 2 → Nat :=
  let c0_i32_58 : BitVec 32 := 0#32
  let c1_i32_60 : BitVec 32 := 1#32
  let arg11 : BitVec 32 := Scf.iv c0_i32_58 c1_i32_60 k1_t15
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c224_324 : Index := 224#32
  ![v718.toNat, 224]

def k1_chk113 (v719 : IVec S16 32) : Prop :=
  (∀ a x, ((![v719] : Fin 1 → IVec S16 32) a x).toNat < S10000.size a)
instance k1_chk113.dec : ∀ (v719 : IVec S16 32), Decidable (k1_chk113 v719) := fun v719 => decidable_of_iff' _ (Iff.of_eq (k1_chk113.eq_1 v719))
theorem k1_idx113_inb : ∀ (v719 : IVec S16 32) (k1_hw113 : k1_chk113 v719), ∀ a x, ((![v719] : Fin 1 → IVec S16 32) a x).toNat < S10000.size a := fun v719 k1_hw113 => k1_hw113
def k1_off116 (k1_t15 : Fin k1_t15_loop.trips) : Fin 2 → Nat :=
  let c0_i32_58 : BitVec 32 := 0#32
  let c1_i32_60 : BitVec 32 := 1#32
  let arg11 : BitVec 32 := Scf.iv c0_i32_58 c1_i32_60 k1_t15
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c224_327 : Index := 224#32
  ![v724.toNat, 224]

def k1_chk114 (v725 : IVec S16 32) : Prop :=
  (∀ a x, ((![v725] : Fin 1 → IVec S16 32) a x).toNat < S10000.size a)
instance k1_chk114.dec : ∀ (v725 : IVec S16 32), Decidable (k1_chk114 v725) := fun v725 => decidable_of_iff' _ (Iff.of_eq (k1_chk114.eq_1 v725))
theorem k1_idx114_inb : ∀ (v725 : IVec S16 32) (k1_hw114 : k1_chk114 v725), ∀ a x, ((![v725] : Fin 1 → IVec S16 32) a x).toNat < S10000.size a := fun v725 k1_hw114 => k1_hw114
def k1_off117 (k1_t15 : Fin k1_t15_loop.trips) : Fin 2 → Nat :=
  let c0_i32_58 : BitVec 32 := 0#32
  let c1_i32_60 : BitVec 32 := 1#32
  let arg11 : BitVec 32 := Scf.iv c0_i32_58 c1_i32_60 k1_t15
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c224_330 : Index := 224#32
  ![v730.toNat, 224]

def k1_chk115 (v731 : IVec S16 32) : Prop :=
  (∀ a x, ((![v731] : Fin 1 → IVec S16 32) a x).toNat < S10000.size a)
instance k1_chk115.dec : ∀ (v731 : IVec S16 32), Decidable (k1_chk115 v731) := fun v731 => decidable_of_iff' _ (Iff.of_eq (k1_chk115.eq_1 v731))
theorem k1_idx115_inb : ∀ (v731 : IVec S16 32) (k1_hw115 : k1_chk115 v731), ∀ a x, ((![v731] : Fin 1 → IVec S16 32) a x).toNat < S10000.size a := fun v731 k1_hw115 => k1_hw115
def k1_off118 (k1_t15 : Fin k1_t15_loop.trips) : Fin 2 → Nat :=
  let c0_i32_58 : BitVec 32 := 0#32
  let c1_i32_60 : BitVec 32 := 1#32
  let arg11 : BitVec 32 := Scf.iv c0_i32_58 c1_i32_60 k1_t15
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c224_332 : Index := 224#32
  ![v736.toNat, 224]

def k1_chk116 (v737 : IVec S16 32) : Prop :=
  (∀ a x, ((![v737] : Fin 1 → IVec S16 32) a x).toNat < S10000.size a)
instance k1_chk116.dec : ∀ (v737 : IVec S16 32), Decidable (k1_chk116 v737) := fun v737 => decidable_of_iff' _ (Iff.of_eq (k1_chk116.eq_1 v737))
theorem k1_idx116_inb : ∀ (v737 : IVec S16 32) (k1_hw116 : k1_chk116 v737), ∀ a x, ((![v737] : Fin 1 → IVec S16 32) a x).toNat < S10000.size a := fun v737 k1_hw116 => k1_hw116
def k1_off119 (k1_t15 : Fin k1_t15_loop.trips) : Fin 2 → Nat :=
  let c0_i32_58 : BitVec 32 := 0#32
  let c1_i32_60 : BitVec 32 := 1#32
  let arg11 : BitVec 32 := Scf.iv c0_i32_58 c1_i32_60 k1_t15
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c224_334 : Index := 224#32
  ![v742.toNat, 224]

def k1_chk117 (v743 : IVec S16 32) : Prop :=
  (∀ a x, ((![v743] : Fin 1 → IVec S16 32) a x).toNat < S10000.size a)
instance k1_chk117.dec : ∀ (v743 : IVec S16 32), Decidable (k1_chk117 v743) := fun v743 => decidable_of_iff' _ (Iff.of_eq (k1_chk117.eq_1 v743))
theorem k1_idx117_inb : ∀ (v743 : IVec S16 32) (k1_hw117 : k1_chk117 v743), ∀ a x, ((![v743] : Fin 1 → IVec S16 32) a x).toNat < S10000.size a := fun v743 k1_hw117 => k1_hw117
def k1_off120 (k1_t15 : Fin k1_t15_loop.trips) : Fin 2 → Nat :=
  let c0_i32_58 : BitVec 32 := 0#32
  let c1_i32_60 : BitVec 32 := 1#32
  let arg11 : BitVec 32 := Scf.iv c0_i32_58 c1_i32_60 k1_t15
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c224_336 : Index := 224#32
  ![v748.toNat, 224]

def k1_chk118 (v749 : IVec S16 32) : Prop :=
  (∀ a x, ((![v749] : Fin 1 → IVec S16 32) a x).toNat < S10000.size a)
instance k1_chk118.dec : ∀ (v749 : IVec S16 32), Decidable (k1_chk118 v749) := fun v749 => decidable_of_iff' _ (Iff.of_eq (k1_chk118.eq_1 v749))
theorem k1_idx118_inb : ∀ (v749 : IVec S16 32) (k1_hw118 : k1_chk118 v749), ∀ a x, ((![v749] : Fin 1 → IVec S16 32) a x).toNat < S10000.size a := fun v749 k1_hw118 => k1_hw118
def k1_off121 (k1_t15 : Fin k1_t15_loop.trips) : Fin 2 → Nat :=
  let c0_i32_58 : BitVec 32 := 0#32
  let c1_i32_60 : BitVec 32 := 1#32
  let arg11 : BitVec 32 := Scf.iv c0_i32_58 c1_i32_60 k1_t15
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c224_338 : Index := 224#32
  ![v754.toNat, 224]

def k1_chk119 (v755 : IVec S16 32) : Prop :=
  (∀ a x, ((![v755] : Fin 1 → IVec S16 32) a x).toNat < S10000.size a)
instance k1_chk119.dec : ∀ (v755 : IVec S16 32), Decidable (k1_chk119 v755) := fun v755 => decidable_of_iff' _ (Iff.of_eq (k1_chk119.eq_1 v755))
theorem k1_idx119_inb : ∀ (v755 : IVec S16 32) (k1_hw119 : k1_chk119 v755), ∀ a x, ((![v755] : Fin 1 → IVec S16 32) a x).toNat < S10000.size a := fun v755 k1_hw119 => k1_hw119
def k1_off122 (k1_t15 : Fin k1_t15_loop.trips) : Fin 2 → Nat :=
  let c0_i32_58 : BitVec 32 := 0#32
  let c1_i32_60 : BitVec 32 := 1#32
  let arg11 : BitVec 32 := Scf.iv c0_i32_58 c1_i32_60 k1_t15
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c224_340 : Index := 224#32
  ![v760.toNat, 224]

def k1_chk120 (v761 : IVec S16 32) : Prop :=
  (∀ a x, ((![v761] : Fin 1 → IVec S16 32) a x).toNat < S10000.size a)
instance k1_chk120.dec : ∀ (v761 : IVec S16 32), Decidable (k1_chk120 v761) := fun v761 => decidable_of_iff' _ (Iff.of_eq (k1_chk120.eq_1 v761))
theorem k1_idx120_inb : ∀ (v761 : IVec S16 32) (k1_hw120 : k1_chk120 v761), ∀ a x, ((![v761] : Fin 1 → IVec S16 32) a x).toNat < S10000.size a := fun v761 k1_hw120 => k1_hw120
@[reducible] def k1_t16_loop : Scf.Loop 32 :=
  let c0_i32_62 : BitVec 32 := 0#32
  let c13_i32_63 : BitVec 32 := 13#32
  let v160 : BitVec 32 := Scalar.addi c0_i32_62 c13_i32_63
  let c1_i32_64 : BitVec 32 := 1#32
  ⟨c0_i32_62, v160, c1_i32_64⟩
def k1_off123 (k1_t16 : Fin k1_t16_loop.trips) : Fin 2 → Nat :=
  let c0_i32_62 : BitVec 32 := 0#32
  let c1_i32_64 : BitVec 32 := 1#32
  let arg11 : BitVec 32 := Scf.iv c0_i32_62 c1_i32_64 k1_t16
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c240_324 : Index := 240#32
  ![v718.toNat, 240]

def k1_chk121 (v719 : IVec S16 32) : Prop :=
  (∀ a x, ((![v719] : Fin 1 → IVec S16 32) a x).toNat < S10000.size a)
instance k1_chk121.dec : ∀ (v719 : IVec S16 32), Decidable (k1_chk121 v719) := fun v719 => decidable_of_iff' _ (Iff.of_eq (k1_chk121.eq_1 v719))
theorem k1_idx121_inb : ∀ (v719 : IVec S16 32) (k1_hw121 : k1_chk121 v719), ∀ a x, ((![v719] : Fin 1 → IVec S16 32) a x).toNat < S10000.size a := fun v719 k1_hw121 => k1_hw121
def k1_off124 (k1_t16 : Fin k1_t16_loop.trips) : Fin 2 → Nat :=
  let c0_i32_62 : BitVec 32 := 0#32
  let c1_i32_64 : BitVec 32 := 1#32
  let arg11 : BitVec 32 := Scf.iv c0_i32_62 c1_i32_64 k1_t16
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c240_327 : Index := 240#32
  ![v724.toNat, 240]

def k1_chk122 (v725 : IVec S16 32) : Prop :=
  (∀ a x, ((![v725] : Fin 1 → IVec S16 32) a x).toNat < S10000.size a)
instance k1_chk122.dec : ∀ (v725 : IVec S16 32), Decidable (k1_chk122 v725) := fun v725 => decidable_of_iff' _ (Iff.of_eq (k1_chk122.eq_1 v725))
theorem k1_idx122_inb : ∀ (v725 : IVec S16 32) (k1_hw122 : k1_chk122 v725), ∀ a x, ((![v725] : Fin 1 → IVec S16 32) a x).toNat < S10000.size a := fun v725 k1_hw122 => k1_hw122
def k1_off125 (k1_t16 : Fin k1_t16_loop.trips) : Fin 2 → Nat :=
  let c0_i32_62 : BitVec 32 := 0#32
  let c1_i32_64 : BitVec 32 := 1#32
  let arg11 : BitVec 32 := Scf.iv c0_i32_62 c1_i32_64 k1_t16
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c240_330 : Index := 240#32
  ![v730.toNat, 240]

def k1_chk123 (v731 : IVec S16 32) : Prop :=
  (∀ a x, ((![v731] : Fin 1 → IVec S16 32) a x).toNat < S10000.size a)
instance k1_chk123.dec : ∀ (v731 : IVec S16 32), Decidable (k1_chk123 v731) := fun v731 => decidable_of_iff' _ (Iff.of_eq (k1_chk123.eq_1 v731))
theorem k1_idx123_inb : ∀ (v731 : IVec S16 32) (k1_hw123 : k1_chk123 v731), ∀ a x, ((![v731] : Fin 1 → IVec S16 32) a x).toNat < S10000.size a := fun v731 k1_hw123 => k1_hw123
def k1_off126 (k1_t16 : Fin k1_t16_loop.trips) : Fin 2 → Nat :=
  let c0_i32_62 : BitVec 32 := 0#32
  let c1_i32_64 : BitVec 32 := 1#32
  let arg11 : BitVec 32 := Scf.iv c0_i32_62 c1_i32_64 k1_t16
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c240_332 : Index := 240#32
  ![v736.toNat, 240]

def k1_chk124 (v737 : IVec S16 32) : Prop :=
  (∀ a x, ((![v737] : Fin 1 → IVec S16 32) a x).toNat < S10000.size a)
instance k1_chk124.dec : ∀ (v737 : IVec S16 32), Decidable (k1_chk124 v737) := fun v737 => decidable_of_iff' _ (Iff.of_eq (k1_chk124.eq_1 v737))
theorem k1_idx124_inb : ∀ (v737 : IVec S16 32) (k1_hw124 : k1_chk124 v737), ∀ a x, ((![v737] : Fin 1 → IVec S16 32) a x).toNat < S10000.size a := fun v737 k1_hw124 => k1_hw124
def k1_off127 (k1_t16 : Fin k1_t16_loop.trips) : Fin 2 → Nat :=
  let c0_i32_62 : BitVec 32 := 0#32
  let c1_i32_64 : BitVec 32 := 1#32
  let arg11 : BitVec 32 := Scf.iv c0_i32_62 c1_i32_64 k1_t16
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c240_334 : Index := 240#32
  ![v742.toNat, 240]

def k1_chk125 (v743 : IVec S16 32) : Prop :=
  (∀ a x, ((![v743] : Fin 1 → IVec S16 32) a x).toNat < S10000.size a)
instance k1_chk125.dec : ∀ (v743 : IVec S16 32), Decidable (k1_chk125 v743) := fun v743 => decidable_of_iff' _ (Iff.of_eq (k1_chk125.eq_1 v743))
theorem k1_idx125_inb : ∀ (v743 : IVec S16 32) (k1_hw125 : k1_chk125 v743), ∀ a x, ((![v743] : Fin 1 → IVec S16 32) a x).toNat < S10000.size a := fun v743 k1_hw125 => k1_hw125
def k1_off128 (k1_t16 : Fin k1_t16_loop.trips) : Fin 2 → Nat :=
  let c0_i32_62 : BitVec 32 := 0#32
  let c1_i32_64 : BitVec 32 := 1#32
  let arg11 : BitVec 32 := Scf.iv c0_i32_62 c1_i32_64 k1_t16
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c240_336 : Index := 240#32
  ![v748.toNat, 240]

def k1_chk126 (v749 : IVec S16 32) : Prop :=
  (∀ a x, ((![v749] : Fin 1 → IVec S16 32) a x).toNat < S10000.size a)
instance k1_chk126.dec : ∀ (v749 : IVec S16 32), Decidable (k1_chk126 v749) := fun v749 => decidable_of_iff' _ (Iff.of_eq (k1_chk126.eq_1 v749))
theorem k1_idx126_inb : ∀ (v749 : IVec S16 32) (k1_hw126 : k1_chk126 v749), ∀ a x, ((![v749] : Fin 1 → IVec S16 32) a x).toNat < S10000.size a := fun v749 k1_hw126 => k1_hw126
def k1_off129 (k1_t16 : Fin k1_t16_loop.trips) : Fin 2 → Nat :=
  let c0_i32_62 : BitVec 32 := 0#32
  let c1_i32_64 : BitVec 32 := 1#32
  let arg11 : BitVec 32 := Scf.iv c0_i32_62 c1_i32_64 k1_t16
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c240_338 : Index := 240#32
  ![v754.toNat, 240]

def k1_chk127 (v755 : IVec S16 32) : Prop :=
  (∀ a x, ((![v755] : Fin 1 → IVec S16 32) a x).toNat < S10000.size a)
instance k1_chk127.dec : ∀ (v755 : IVec S16 32), Decidable (k1_chk127 v755) := fun v755 => decidable_of_iff' _ (Iff.of_eq (k1_chk127.eq_1 v755))
theorem k1_idx127_inb : ∀ (v755 : IVec S16 32) (k1_hw127 : k1_chk127 v755), ∀ a x, ((![v755] : Fin 1 → IVec S16 32) a x).toNat < S10000.size a := fun v755 k1_hw127 => k1_hw127
def k1_off130 (k1_t16 : Fin k1_t16_loop.trips) : Fin 2 → Nat :=
  let c0_i32_62 : BitVec 32 := 0#32
  let c1_i32_64 : BitVec 32 := 1#32
  let arg11 : BitVec 32 := Scf.iv c0_i32_62 c1_i32_64 k1_t16
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c240_340 : Index := 240#32
  ![v760.toNat, 240]

def k1_chk128 (v761 : IVec S16 32) : Prop :=
  (∀ a x, ((![v761] : Fin 1 → IVec S16 32) a x).toNat < S10000.size a)
instance k1_chk128.dec : ∀ (v761 : IVec S16 32), Decidable (k1_chk128 v761) := fun v761 => decidable_of_iff' _ (Iff.of_eq (k1_chk128.eq_1 v761))
theorem k1_idx128_inb : ∀ (v761 : IVec S16 32) (k1_hw128 : k1_chk128 v761), ∀ a x, ((![v761] : Fin 1 → IVec S16 32) a x).toNat < S10000.size a := fun v761 k1_hw128 => k1_hw128
@[reducible] def k1_t17_loop : Scf.Loop 32 :=
  let c0_i32_66 : BitVec 32 := 0#32
  let c13_i32_67 : BitVec 32 := 13#32
  let v170 : BitVec 32 := Scalar.addi c0_i32_66 c13_i32_67
  let c1_i32_68 : BitVec 32 := 1#32
  ⟨c0_i32_66, v170, c1_i32_68⟩
def k1_off131 (k1_t17 : Fin k1_t17_loop.trips) : Fin 2 → Nat :=
  let c0_i32_66 : BitVec 32 := 0#32
  let c1_i32_68 : BitVec 32 := 1#32
  let arg11 : BitVec 32 := Scf.iv c0_i32_66 c1_i32_68 k1_t17
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c256_324 : Index := 256#32
  ![v718.toNat, 256]

def k1_chk129 (v719 : IVec S16 32) : Prop :=
  (∀ a x, ((![v719] : Fin 1 → IVec S16 32) a x).toNat < S10000.size a)
instance k1_chk129.dec : ∀ (v719 : IVec S16 32), Decidable (k1_chk129 v719) := fun v719 => decidable_of_iff' _ (Iff.of_eq (k1_chk129.eq_1 v719))
theorem k1_idx129_inb : ∀ (v719 : IVec S16 32) (k1_hw129 : k1_chk129 v719), ∀ a x, ((![v719] : Fin 1 → IVec S16 32) a x).toNat < S10000.size a := fun v719 k1_hw129 => k1_hw129
def k1_off132 (k1_t17 : Fin k1_t17_loop.trips) : Fin 2 → Nat :=
  let c0_i32_66 : BitVec 32 := 0#32
  let c1_i32_68 : BitVec 32 := 1#32
  let arg11 : BitVec 32 := Scf.iv c0_i32_66 c1_i32_68 k1_t17
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c256_327 : Index := 256#32
  ![v724.toNat, 256]

def k1_chk130 (v725 : IVec S16 32) : Prop :=
  (∀ a x, ((![v725] : Fin 1 → IVec S16 32) a x).toNat < S10000.size a)
instance k1_chk130.dec : ∀ (v725 : IVec S16 32), Decidable (k1_chk130 v725) := fun v725 => decidable_of_iff' _ (Iff.of_eq (k1_chk130.eq_1 v725))
theorem k1_idx130_inb : ∀ (v725 : IVec S16 32) (k1_hw130 : k1_chk130 v725), ∀ a x, ((![v725] : Fin 1 → IVec S16 32) a x).toNat < S10000.size a := fun v725 k1_hw130 => k1_hw130
def k1_off133 (k1_t17 : Fin k1_t17_loop.trips) : Fin 2 → Nat :=
  let c0_i32_66 : BitVec 32 := 0#32
  let c1_i32_68 : BitVec 32 := 1#32
  let arg11 : BitVec 32 := Scf.iv c0_i32_66 c1_i32_68 k1_t17
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c256_330 : Index := 256#32
  ![v730.toNat, 256]

def k1_chk131 (v731 : IVec S16 32) : Prop :=
  (∀ a x, ((![v731] : Fin 1 → IVec S16 32) a x).toNat < S10000.size a)
instance k1_chk131.dec : ∀ (v731 : IVec S16 32), Decidable (k1_chk131 v731) := fun v731 => decidable_of_iff' _ (Iff.of_eq (k1_chk131.eq_1 v731))
theorem k1_idx131_inb : ∀ (v731 : IVec S16 32) (k1_hw131 : k1_chk131 v731), ∀ a x, ((![v731] : Fin 1 → IVec S16 32) a x).toNat < S10000.size a := fun v731 k1_hw131 => k1_hw131
def k1_off134 (k1_t17 : Fin k1_t17_loop.trips) : Fin 2 → Nat :=
  let c0_i32_66 : BitVec 32 := 0#32
  let c1_i32_68 : BitVec 32 := 1#32
  let arg11 : BitVec 32 := Scf.iv c0_i32_66 c1_i32_68 k1_t17
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c256_332 : Index := 256#32
  ![v736.toNat, 256]

def k1_chk132 (v737 : IVec S16 32) : Prop :=
  (∀ a x, ((![v737] : Fin 1 → IVec S16 32) a x).toNat < S10000.size a)
instance k1_chk132.dec : ∀ (v737 : IVec S16 32), Decidable (k1_chk132 v737) := fun v737 => decidable_of_iff' _ (Iff.of_eq (k1_chk132.eq_1 v737))
theorem k1_idx132_inb : ∀ (v737 : IVec S16 32) (k1_hw132 : k1_chk132 v737), ∀ a x, ((![v737] : Fin 1 → IVec S16 32) a x).toNat < S10000.size a := fun v737 k1_hw132 => k1_hw132
def k1_off135 (k1_t17 : Fin k1_t17_loop.trips) : Fin 2 → Nat :=
  let c0_i32_66 : BitVec 32 := 0#32
  let c1_i32_68 : BitVec 32 := 1#32
  let arg11 : BitVec 32 := Scf.iv c0_i32_66 c1_i32_68 k1_t17
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c256_334 : Index := 256#32
  ![v742.toNat, 256]

def k1_chk133 (v743 : IVec S16 32) : Prop :=
  (∀ a x, ((![v743] : Fin 1 → IVec S16 32) a x).toNat < S10000.size a)
instance k1_chk133.dec : ∀ (v743 : IVec S16 32), Decidable (k1_chk133 v743) := fun v743 => decidable_of_iff' _ (Iff.of_eq (k1_chk133.eq_1 v743))
theorem k1_idx133_inb : ∀ (v743 : IVec S16 32) (k1_hw133 : k1_chk133 v743), ∀ a x, ((![v743] : Fin 1 → IVec S16 32) a x).toNat < S10000.size a := fun v743 k1_hw133 => k1_hw133
def k1_off136 (k1_t17 : Fin k1_t17_loop.trips) : Fin 2 → Nat :=
  let c0_i32_66 : BitVec 32 := 0#32
  let c1_i32_68 : BitVec 32 := 1#32
  let arg11 : BitVec 32 := Scf.iv c0_i32_66 c1_i32_68 k1_t17
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c256_336 : Index := 256#32
  ![v748.toNat, 256]

def k1_chk134 (v749 : IVec S16 32) : Prop :=
  (∀ a x, ((![v749] : Fin 1 → IVec S16 32) a x).toNat < S10000.size a)
instance k1_chk134.dec : ∀ (v749 : IVec S16 32), Decidable (k1_chk134 v749) := fun v749 => decidable_of_iff' _ (Iff.of_eq (k1_chk134.eq_1 v749))
theorem k1_idx134_inb : ∀ (v749 : IVec S16 32) (k1_hw134 : k1_chk134 v749), ∀ a x, ((![v749] : Fin 1 → IVec S16 32) a x).toNat < S10000.size a := fun v749 k1_hw134 => k1_hw134
def k1_off137 (k1_t17 : Fin k1_t17_loop.trips) : Fin 2 → Nat :=
  let c0_i32_66 : BitVec 32 := 0#32
  let c1_i32_68 : BitVec 32 := 1#32
  let arg11 : BitVec 32 := Scf.iv c0_i32_66 c1_i32_68 k1_t17
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c256_338 : Index := 256#32
  ![v754.toNat, 256]

def k1_chk135 (v755 : IVec S16 32) : Prop :=
  (∀ a x, ((![v755] : Fin 1 → IVec S16 32) a x).toNat < S10000.size a)
instance k1_chk135.dec : ∀ (v755 : IVec S16 32), Decidable (k1_chk135 v755) := fun v755 => decidable_of_iff' _ (Iff.of_eq (k1_chk135.eq_1 v755))
theorem k1_idx135_inb : ∀ (v755 : IVec S16 32) (k1_hw135 : k1_chk135 v755), ∀ a x, ((![v755] : Fin 1 → IVec S16 32) a x).toNat < S10000.size a := fun v755 k1_hw135 => k1_hw135
def k1_off138 (k1_t17 : Fin k1_t17_loop.trips) : Fin 2 → Nat :=
  let c0_i32_66 : BitVec 32 := 0#32
  let c1_i32_68 : BitVec 32 := 1#32
  let arg11 : BitVec 32 := Scf.iv c0_i32_66 c1_i32_68 k1_t17
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c256_340 : Index := 256#32
  ![v760.toNat, 256]

def k1_chk136 (v761 : IVec S16 32) : Prop :=
  (∀ a x, ((![v761] : Fin 1 → IVec S16 32) a x).toNat < S10000.size a)
instance k1_chk136.dec : ∀ (v761 : IVec S16 32), Decidable (k1_chk136 v761) := fun v761 => decidable_of_iff' _ (Iff.of_eq (k1_chk136.eq_1 v761))
theorem k1_idx136_inb : ∀ (v761 : IVec S16 32) (k1_hw136 : k1_chk136 v761), ∀ a x, ((![v761] : Fin 1 → IVec S16 32) a x).toNat < S10000.size a := fun v761 k1_hw136 => k1_hw136
@[reducible] def k1_t18_loop : Scf.Loop 32 :=
  let c0_i32_70 : BitVec 32 := 0#32
  let c13_i32_71 : BitVec 32 := 13#32
  let v180 : BitVec 32 := Scalar.addi c0_i32_70 c13_i32_71
  let c1_i32_72 : BitVec 32 := 1#32
  ⟨c0_i32_70, v180, c1_i32_72⟩
def k1_off139 (k1_t18 : Fin k1_t18_loop.trips) : Fin 2 → Nat :=
  let c0_i32_70 : BitVec 32 := 0#32
  let c1_i32_72 : BitVec 32 := 1#32
  let arg11 : BitVec 32 := Scf.iv c0_i32_70 c1_i32_72 k1_t18
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c272_324 : Index := 272#32
  ![v718.toNat, 272]

def k1_chk137 (v719 : IVec S16 32) : Prop :=
  (∀ a x, ((![v719] : Fin 1 → IVec S16 32) a x).toNat < S10000.size a)
instance k1_chk137.dec : ∀ (v719 : IVec S16 32), Decidable (k1_chk137 v719) := fun v719 => decidable_of_iff' _ (Iff.of_eq (k1_chk137.eq_1 v719))
theorem k1_idx137_inb : ∀ (v719 : IVec S16 32) (k1_hw137 : k1_chk137 v719), ∀ a x, ((![v719] : Fin 1 → IVec S16 32) a x).toNat < S10000.size a := fun v719 k1_hw137 => k1_hw137
def k1_off140 (k1_t18 : Fin k1_t18_loop.trips) : Fin 2 → Nat :=
  let c0_i32_70 : BitVec 32 := 0#32
  let c1_i32_72 : BitVec 32 := 1#32
  let arg11 : BitVec 32 := Scf.iv c0_i32_70 c1_i32_72 k1_t18
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c272_327 : Index := 272#32
  ![v724.toNat, 272]

def k1_chk138 (v725 : IVec S16 32) : Prop :=
  (∀ a x, ((![v725] : Fin 1 → IVec S16 32) a x).toNat < S10000.size a)
instance k1_chk138.dec : ∀ (v725 : IVec S16 32), Decidable (k1_chk138 v725) := fun v725 => decidable_of_iff' _ (Iff.of_eq (k1_chk138.eq_1 v725))
theorem k1_idx138_inb : ∀ (v725 : IVec S16 32) (k1_hw138 : k1_chk138 v725), ∀ a x, ((![v725] : Fin 1 → IVec S16 32) a x).toNat < S10000.size a := fun v725 k1_hw138 => k1_hw138
def k1_off141 (k1_t18 : Fin k1_t18_loop.trips) : Fin 2 → Nat :=
  let c0_i32_70 : BitVec 32 := 0#32
  let c1_i32_72 : BitVec 32 := 1#32
  let arg11 : BitVec 32 := Scf.iv c0_i32_70 c1_i32_72 k1_t18
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c272_330 : Index := 272#32
  ![v730.toNat, 272]

def k1_chk139 (v731 : IVec S16 32) : Prop :=
  (∀ a x, ((![v731] : Fin 1 → IVec S16 32) a x).toNat < S10000.size a)
instance k1_chk139.dec : ∀ (v731 : IVec S16 32), Decidable (k1_chk139 v731) := fun v731 => decidable_of_iff' _ (Iff.of_eq (k1_chk139.eq_1 v731))
theorem k1_idx139_inb : ∀ (v731 : IVec S16 32) (k1_hw139 : k1_chk139 v731), ∀ a x, ((![v731] : Fin 1 → IVec S16 32) a x).toNat < S10000.size a := fun v731 k1_hw139 => k1_hw139
def k1_off142 (k1_t18 : Fin k1_t18_loop.trips) : Fin 2 → Nat :=
  let c0_i32_70 : BitVec 32 := 0#32
  let c1_i32_72 : BitVec 32 := 1#32
  let arg11 : BitVec 32 := Scf.iv c0_i32_70 c1_i32_72 k1_t18
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c272_332 : Index := 272#32
  ![v736.toNat, 272]

def k1_chk140 (v737 : IVec S16 32) : Prop :=
  (∀ a x, ((![v737] : Fin 1 → IVec S16 32) a x).toNat < S10000.size a)
instance k1_chk140.dec : ∀ (v737 : IVec S16 32), Decidable (k1_chk140 v737) := fun v737 => decidable_of_iff' _ (Iff.of_eq (k1_chk140.eq_1 v737))
theorem k1_idx140_inb : ∀ (v737 : IVec S16 32) (k1_hw140 : k1_chk140 v737), ∀ a x, ((![v737] : Fin 1 → IVec S16 32) a x).toNat < S10000.size a := fun v737 k1_hw140 => k1_hw140
def k1_off143 (k1_t18 : Fin k1_t18_loop.trips) : Fin 2 → Nat :=
  let c0_i32_70 : BitVec 32 := 0#32
  let c1_i32_72 : BitVec 32 := 1#32
  let arg11 : BitVec 32 := Scf.iv c0_i32_70 c1_i32_72 k1_t18
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c272_334 : Index := 272#32
  ![v742.toNat, 272]

def k1_chk141 (v743 : IVec S16 32) : Prop :=
  (∀ a x, ((![v743] : Fin 1 → IVec S16 32) a x).toNat < S10000.size a)
instance k1_chk141.dec : ∀ (v743 : IVec S16 32), Decidable (k1_chk141 v743) := fun v743 => decidable_of_iff' _ (Iff.of_eq (k1_chk141.eq_1 v743))
theorem k1_idx141_inb : ∀ (v743 : IVec S16 32) (k1_hw141 : k1_chk141 v743), ∀ a x, ((![v743] : Fin 1 → IVec S16 32) a x).toNat < S10000.size a := fun v743 k1_hw141 => k1_hw141
def k1_off144 (k1_t18 : Fin k1_t18_loop.trips) : Fin 2 → Nat :=
  let c0_i32_70 : BitVec 32 := 0#32
  let c1_i32_72 : BitVec 32 := 1#32
  let arg11 : BitVec 32 := Scf.iv c0_i32_70 c1_i32_72 k1_t18
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c272_336 : Index := 272#32
  ![v748.toNat, 272]

def k1_chk142 (v749 : IVec S16 32) : Prop :=
  (∀ a x, ((![v749] : Fin 1 → IVec S16 32) a x).toNat < S10000.size a)
instance k1_chk142.dec : ∀ (v749 : IVec S16 32), Decidable (k1_chk142 v749) := fun v749 => decidable_of_iff' _ (Iff.of_eq (k1_chk142.eq_1 v749))
theorem k1_idx142_inb : ∀ (v749 : IVec S16 32) (k1_hw142 : k1_chk142 v749), ∀ a x, ((![v749] : Fin 1 → IVec S16 32) a x).toNat < S10000.size a := fun v749 k1_hw142 => k1_hw142
def k1_off145 (k1_t18 : Fin k1_t18_loop.trips) : Fin 2 → Nat :=
  let c0_i32_70 : BitVec 32 := 0#32
  let c1_i32_72 : BitVec 32 := 1#32
  let arg11 : BitVec 32 := Scf.iv c0_i32_70 c1_i32_72 k1_t18
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c272_338 : Index := 272#32
  ![v754.toNat, 272]

def k1_chk143 (v755 : IVec S16 32) : Prop :=
  (∀ a x, ((![v755] : Fin 1 → IVec S16 32) a x).toNat < S10000.size a)
instance k1_chk143.dec : ∀ (v755 : IVec S16 32), Decidable (k1_chk143 v755) := fun v755 => decidable_of_iff' _ (Iff.of_eq (k1_chk143.eq_1 v755))
theorem k1_idx143_inb : ∀ (v755 : IVec S16 32) (k1_hw143 : k1_chk143 v755), ∀ a x, ((![v755] : Fin 1 → IVec S16 32) a x).toNat < S10000.size a := fun v755 k1_hw143 => k1_hw143
def k1_off146 (k1_t18 : Fin k1_t18_loop.trips) : Fin 2 → Nat :=
  let c0_i32_70 : BitVec 32 := 0#32
  let c1_i32_72 : BitVec 32 := 1#32
  let arg11 : BitVec 32 := Scf.iv c0_i32_70 c1_i32_72 k1_t18
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c272_340 : Index := 272#32
  ![v760.toNat, 272]

def k1_chk144 (v761 : IVec S16 32) : Prop :=
  (∀ a x, ((![v761] : Fin 1 → IVec S16 32) a x).toNat < S10000.size a)
instance k1_chk144.dec : ∀ (v761 : IVec S16 32), Decidable (k1_chk144 v761) := fun v761 => decidable_of_iff' _ (Iff.of_eq (k1_chk144.eq_1 v761))
theorem k1_idx144_inb : ∀ (v761 : IVec S16 32) (k1_hw144 : k1_chk144 v761), ∀ a x, ((![v761] : Fin 1 → IVec S16 32) a x).toNat < S10000.size a := fun v761 k1_hw144 => k1_hw144
@[reducible] def k1_t19_loop : Scf.Loop 32 :=
  let c0_i32_74 : BitVec 32 := 0#32
  let c13_i32_75 : BitVec 32 := 13#32
  let v190 : BitVec 32 := Scalar.addi c0_i32_74 c13_i32_75
  let c1_i32_76 : BitVec 32 := 1#32
  ⟨c0_i32_74, v190, c1_i32_76⟩
def k1_off147 (k1_t19 : Fin k1_t19_loop.trips) : Fin 2 → Nat :=
  let c0_i32_74 : BitVec 32 := 0#32
  let c1_i32_76 : BitVec 32 := 1#32
  let arg11 : BitVec 32 := Scf.iv c0_i32_74 c1_i32_76 k1_t19
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c288_324 : Index := 288#32
  ![v718.toNat, 288]

def k1_chk145 (v719 : IVec S16 32) : Prop :=
  (∀ a x, ((![v719] : Fin 1 → IVec S16 32) a x).toNat < S10000.size a)
instance k1_chk145.dec : ∀ (v719 : IVec S16 32), Decidable (k1_chk145 v719) := fun v719 => decidable_of_iff' _ (Iff.of_eq (k1_chk145.eq_1 v719))
theorem k1_idx145_inb : ∀ (v719 : IVec S16 32) (k1_hw145 : k1_chk145 v719), ∀ a x, ((![v719] : Fin 1 → IVec S16 32) a x).toNat < S10000.size a := fun v719 k1_hw145 => k1_hw145
def k1_off148 (k1_t19 : Fin k1_t19_loop.trips) : Fin 2 → Nat :=
  let c0_i32_74 : BitVec 32 := 0#32
  let c1_i32_76 : BitVec 32 := 1#32
  let arg11 : BitVec 32 := Scf.iv c0_i32_74 c1_i32_76 k1_t19
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c288_327 : Index := 288#32
  ![v724.toNat, 288]

def k1_chk146 (v725 : IVec S16 32) : Prop :=
  (∀ a x, ((![v725] : Fin 1 → IVec S16 32) a x).toNat < S10000.size a)
instance k1_chk146.dec : ∀ (v725 : IVec S16 32), Decidable (k1_chk146 v725) := fun v725 => decidable_of_iff' _ (Iff.of_eq (k1_chk146.eq_1 v725))
theorem k1_idx146_inb : ∀ (v725 : IVec S16 32) (k1_hw146 : k1_chk146 v725), ∀ a x, ((![v725] : Fin 1 → IVec S16 32) a x).toNat < S10000.size a := fun v725 k1_hw146 => k1_hw146
def k1_off149 (k1_t19 : Fin k1_t19_loop.trips) : Fin 2 → Nat :=
  let c0_i32_74 : BitVec 32 := 0#32
  let c1_i32_76 : BitVec 32 := 1#32
  let arg11 : BitVec 32 := Scf.iv c0_i32_74 c1_i32_76 k1_t19
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c288_330 : Index := 288#32
  ![v730.toNat, 288]

def k1_chk147 (v731 : IVec S16 32) : Prop :=
  (∀ a x, ((![v731] : Fin 1 → IVec S16 32) a x).toNat < S10000.size a)
instance k1_chk147.dec : ∀ (v731 : IVec S16 32), Decidable (k1_chk147 v731) := fun v731 => decidable_of_iff' _ (Iff.of_eq (k1_chk147.eq_1 v731))
theorem k1_idx147_inb : ∀ (v731 : IVec S16 32) (k1_hw147 : k1_chk147 v731), ∀ a x, ((![v731] : Fin 1 → IVec S16 32) a x).toNat < S10000.size a := fun v731 k1_hw147 => k1_hw147
def k1_off150 (k1_t19 : Fin k1_t19_loop.trips) : Fin 2 → Nat :=
  let c0_i32_74 : BitVec 32 := 0#32
  let c1_i32_76 : BitVec 32 := 1#32
  let arg11 : BitVec 32 := Scf.iv c0_i32_74 c1_i32_76 k1_t19
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c288_332 : Index := 288#32
  ![v736.toNat, 288]

def k1_chk148 (v737 : IVec S16 32) : Prop :=
  (∀ a x, ((![v737] : Fin 1 → IVec S16 32) a x).toNat < S10000.size a)
instance k1_chk148.dec : ∀ (v737 : IVec S16 32), Decidable (k1_chk148 v737) := fun v737 => decidable_of_iff' _ (Iff.of_eq (k1_chk148.eq_1 v737))
theorem k1_idx148_inb : ∀ (v737 : IVec S16 32) (k1_hw148 : k1_chk148 v737), ∀ a x, ((![v737] : Fin 1 → IVec S16 32) a x).toNat < S10000.size a := fun v737 k1_hw148 => k1_hw148
def k1_off151 (k1_t19 : Fin k1_t19_loop.trips) : Fin 2 → Nat :=
  let c0_i32_74 : BitVec 32 := 0#32
  let c1_i32_76 : BitVec 32 := 1#32
  let arg11 : BitVec 32 := Scf.iv c0_i32_74 c1_i32_76 k1_t19
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c288_334 : Index := 288#32
  ![v742.toNat, 288]

def k1_chk149 (v743 : IVec S16 32) : Prop :=
  (∀ a x, ((![v743] : Fin 1 → IVec S16 32) a x).toNat < S10000.size a)
instance k1_chk149.dec : ∀ (v743 : IVec S16 32), Decidable (k1_chk149 v743) := fun v743 => decidable_of_iff' _ (Iff.of_eq (k1_chk149.eq_1 v743))
theorem k1_idx149_inb : ∀ (v743 : IVec S16 32) (k1_hw149 : k1_chk149 v743), ∀ a x, ((![v743] : Fin 1 → IVec S16 32) a x).toNat < S10000.size a := fun v743 k1_hw149 => k1_hw149
def k1_off152 (k1_t19 : Fin k1_t19_loop.trips) : Fin 2 → Nat :=
  let c0_i32_74 : BitVec 32 := 0#32
  let c1_i32_76 : BitVec 32 := 1#32
  let arg11 : BitVec 32 := Scf.iv c0_i32_74 c1_i32_76 k1_t19
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c288_336 : Index := 288#32
  ![v748.toNat, 288]

def k1_chk150 (v749 : IVec S16 32) : Prop :=
  (∀ a x, ((![v749] : Fin 1 → IVec S16 32) a x).toNat < S10000.size a)
instance k1_chk150.dec : ∀ (v749 : IVec S16 32), Decidable (k1_chk150 v749) := fun v749 => decidable_of_iff' _ (Iff.of_eq (k1_chk150.eq_1 v749))
theorem k1_idx150_inb : ∀ (v749 : IVec S16 32) (k1_hw150 : k1_chk150 v749), ∀ a x, ((![v749] : Fin 1 → IVec S16 32) a x).toNat < S10000.size a := fun v749 k1_hw150 => k1_hw150
def k1_off153 (k1_t19 : Fin k1_t19_loop.trips) : Fin 2 → Nat :=
  let c0_i32_74 : BitVec 32 := 0#32
  let c1_i32_76 : BitVec 32 := 1#32
  let arg11 : BitVec 32 := Scf.iv c0_i32_74 c1_i32_76 k1_t19
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c288_338 : Index := 288#32
  ![v754.toNat, 288]

def k1_chk151 (v755 : IVec S16 32) : Prop :=
  (∀ a x, ((![v755] : Fin 1 → IVec S16 32) a x).toNat < S10000.size a)
instance k1_chk151.dec : ∀ (v755 : IVec S16 32), Decidable (k1_chk151 v755) := fun v755 => decidable_of_iff' _ (Iff.of_eq (k1_chk151.eq_1 v755))
theorem k1_idx151_inb : ∀ (v755 : IVec S16 32) (k1_hw151 : k1_chk151 v755), ∀ a x, ((![v755] : Fin 1 → IVec S16 32) a x).toNat < S10000.size a := fun v755 k1_hw151 => k1_hw151
def k1_off154 (k1_t19 : Fin k1_t19_loop.trips) : Fin 2 → Nat :=
  let c0_i32_74 : BitVec 32 := 0#32
  let c1_i32_76 : BitVec 32 := 1#32
  let arg11 : BitVec 32 := Scf.iv c0_i32_74 c1_i32_76 k1_t19
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c288_340 : Index := 288#32
  ![v760.toNat, 288]

def k1_chk152 (v761 : IVec S16 32) : Prop :=
  (∀ a x, ((![v761] : Fin 1 → IVec S16 32) a x).toNat < S10000.size a)
instance k1_chk152.dec : ∀ (v761 : IVec S16 32), Decidable (k1_chk152 v761) := fun v761 => decidable_of_iff' _ (Iff.of_eq (k1_chk152.eq_1 v761))
theorem k1_idx152_inb : ∀ (v761 : IVec S16 32) (k1_hw152 : k1_chk152 v761), ∀ a x, ((![v761] : Fin 1 → IVec S16 32) a x).toNat < S10000.size a := fun v761 k1_hw152 => k1_hw152
@[reducible] def k1_t20_loop : Scf.Loop 32 :=
  let c0_i32_78 : BitVec 32 := 0#32
  let c13_i32_79 : BitVec 32 := 13#32
  let v200 : BitVec 32 := Scalar.addi c0_i32_78 c13_i32_79
  let c1_i32_80 : BitVec 32 := 1#32
  ⟨c0_i32_78, v200, c1_i32_80⟩
def k1_off155 (k1_t20 : Fin k1_t20_loop.trips) : Fin 2 → Nat :=
  let c0_i32_78 : BitVec 32 := 0#32
  let c1_i32_80 : BitVec 32 := 1#32
  let arg11 : BitVec 32 := Scf.iv c0_i32_78 c1_i32_80 k1_t20
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c304_324 : Index := 304#32
  ![v718.toNat, 304]

def k1_chk153 (v719 : IVec S16 32) : Prop :=
  (∀ a x, ((![v719] : Fin 1 → IVec S16 32) a x).toNat < S10000.size a)
instance k1_chk153.dec : ∀ (v719 : IVec S16 32), Decidable (k1_chk153 v719) := fun v719 => decidable_of_iff' _ (Iff.of_eq (k1_chk153.eq_1 v719))
theorem k1_idx153_inb : ∀ (v719 : IVec S16 32) (k1_hw153 : k1_chk153 v719), ∀ a x, ((![v719] : Fin 1 → IVec S16 32) a x).toNat < S10000.size a := fun v719 k1_hw153 => k1_hw153
def k1_off156 (k1_t20 : Fin k1_t20_loop.trips) : Fin 2 → Nat :=
  let c0_i32_78 : BitVec 32 := 0#32
  let c1_i32_80 : BitVec 32 := 1#32
  let arg11 : BitVec 32 := Scf.iv c0_i32_78 c1_i32_80 k1_t20
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c304_327 : Index := 304#32
  ![v724.toNat, 304]

def k1_chk154 (v725 : IVec S16 32) : Prop :=
  (∀ a x, ((![v725] : Fin 1 → IVec S16 32) a x).toNat < S10000.size a)
instance k1_chk154.dec : ∀ (v725 : IVec S16 32), Decidable (k1_chk154 v725) := fun v725 => decidable_of_iff' _ (Iff.of_eq (k1_chk154.eq_1 v725))
theorem k1_idx154_inb : ∀ (v725 : IVec S16 32) (k1_hw154 : k1_chk154 v725), ∀ a x, ((![v725] : Fin 1 → IVec S16 32) a x).toNat < S10000.size a := fun v725 k1_hw154 => k1_hw154
def k1_off157 (k1_t20 : Fin k1_t20_loop.trips) : Fin 2 → Nat :=
  let c0_i32_78 : BitVec 32 := 0#32
  let c1_i32_80 : BitVec 32 := 1#32
  let arg11 : BitVec 32 := Scf.iv c0_i32_78 c1_i32_80 k1_t20
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c304_330 : Index := 304#32
  ![v730.toNat, 304]

def k1_chk155 (v731 : IVec S16 32) : Prop :=
  (∀ a x, ((![v731] : Fin 1 → IVec S16 32) a x).toNat < S10000.size a)
instance k1_chk155.dec : ∀ (v731 : IVec S16 32), Decidable (k1_chk155 v731) := fun v731 => decidable_of_iff' _ (Iff.of_eq (k1_chk155.eq_1 v731))
theorem k1_idx155_inb : ∀ (v731 : IVec S16 32) (k1_hw155 : k1_chk155 v731), ∀ a x, ((![v731] : Fin 1 → IVec S16 32) a x).toNat < S10000.size a := fun v731 k1_hw155 => k1_hw155
def k1_off158 (k1_t20 : Fin k1_t20_loop.trips) : Fin 2 → Nat :=
  let c0_i32_78 : BitVec 32 := 0#32
  let c1_i32_80 : BitVec 32 := 1#32
  let arg11 : BitVec 32 := Scf.iv c0_i32_78 c1_i32_80 k1_t20
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c304_332 : Index := 304#32
  ![v736.toNat, 304]

def k1_chk156 (v737 : IVec S16 32) : Prop :=
  (∀ a x, ((![v737] : Fin 1 → IVec S16 32) a x).toNat < S10000.size a)
instance k1_chk156.dec : ∀ (v737 : IVec S16 32), Decidable (k1_chk156 v737) := fun v737 => decidable_of_iff' _ (Iff.of_eq (k1_chk156.eq_1 v737))
theorem k1_idx156_inb : ∀ (v737 : IVec S16 32) (k1_hw156 : k1_chk156 v737), ∀ a x, ((![v737] : Fin 1 → IVec S16 32) a x).toNat < S10000.size a := fun v737 k1_hw156 => k1_hw156
def k1_off159 (k1_t20 : Fin k1_t20_loop.trips) : Fin 2 → Nat :=
  let c0_i32_78 : BitVec 32 := 0#32
  let c1_i32_80 : BitVec 32 := 1#32
  let arg11 : BitVec 32 := Scf.iv c0_i32_78 c1_i32_80 k1_t20
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c304_334 : Index := 304#32
  ![v742.toNat, 304]

def k1_chk157 (v743 : IVec S16 32) : Prop :=
  (∀ a x, ((![v743] : Fin 1 → IVec S16 32) a x).toNat < S10000.size a)
instance k1_chk157.dec : ∀ (v743 : IVec S16 32), Decidable (k1_chk157 v743) := fun v743 => decidable_of_iff' _ (Iff.of_eq (k1_chk157.eq_1 v743))
theorem k1_idx157_inb : ∀ (v743 : IVec S16 32) (k1_hw157 : k1_chk157 v743), ∀ a x, ((![v743] : Fin 1 → IVec S16 32) a x).toNat < S10000.size a := fun v743 k1_hw157 => k1_hw157
def k1_off160 (k1_t20 : Fin k1_t20_loop.trips) : Fin 2 → Nat :=
  let c0_i32_78 : BitVec 32 := 0#32
  let c1_i32_80 : BitVec 32 := 1#32
  let arg11 : BitVec 32 := Scf.iv c0_i32_78 c1_i32_80 k1_t20
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c304_336 : Index := 304#32
  ![v748.toNat, 304]

def k1_chk158 (v749 : IVec S16 32) : Prop :=
  (∀ a x, ((![v749] : Fin 1 → IVec S16 32) a x).toNat < S10000.size a)
instance k1_chk158.dec : ∀ (v749 : IVec S16 32), Decidable (k1_chk158 v749) := fun v749 => decidable_of_iff' _ (Iff.of_eq (k1_chk158.eq_1 v749))
theorem k1_idx158_inb : ∀ (v749 : IVec S16 32) (k1_hw158 : k1_chk158 v749), ∀ a x, ((![v749] : Fin 1 → IVec S16 32) a x).toNat < S10000.size a := fun v749 k1_hw158 => k1_hw158
def k1_off161 (k1_t20 : Fin k1_t20_loop.trips) : Fin 2 → Nat :=
  let c0_i32_78 : BitVec 32 := 0#32
  let c1_i32_80 : BitVec 32 := 1#32
  let arg11 : BitVec 32 := Scf.iv c0_i32_78 c1_i32_80 k1_t20
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c304_338 : Index := 304#32
  ![v754.toNat, 304]

def k1_chk159 (v755 : IVec S16 32) : Prop :=
  (∀ a x, ((![v755] : Fin 1 → IVec S16 32) a x).toNat < S10000.size a)
instance k1_chk159.dec : ∀ (v755 : IVec S16 32), Decidable (k1_chk159 v755) := fun v755 => decidable_of_iff' _ (Iff.of_eq (k1_chk159.eq_1 v755))
theorem k1_idx159_inb : ∀ (v755 : IVec S16 32) (k1_hw159 : k1_chk159 v755), ∀ a x, ((![v755] : Fin 1 → IVec S16 32) a x).toNat < S10000.size a := fun v755 k1_hw159 => k1_hw159
def k1_off162 (k1_t20 : Fin k1_t20_loop.trips) : Fin 2 → Nat :=
  let c0_i32_78 : BitVec 32 := 0#32
  let c1_i32_80 : BitVec 32 := 1#32
  let arg11 : BitVec 32 := Scf.iv c0_i32_78 c1_i32_80 k1_t20
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c304_340 : Index := 304#32
  ![v760.toNat, 304]

def k1_chk160 (v761 : IVec S16 32) : Prop :=
  (∀ a x, ((![v761] : Fin 1 → IVec S16 32) a x).toNat < S10000.size a)
instance k1_chk160.dec : ∀ (v761 : IVec S16 32), Decidable (k1_chk160 v761) := fun v761 => decidable_of_iff' _ (Iff.of_eq (k1_chk160.eq_1 v761))
theorem k1_idx160_inb : ∀ (v761 : IVec S16 32) (k1_hw160 : k1_chk160 v761), ∀ a x, ((![v761] : Fin 1 → IVec S16 32) a x).toNat < S10000.size a := fun v761 k1_hw160 => k1_hw160
@[reducible] def k1_t21_loop : Scf.Loop 32 :=
  let c0_i32_82 : BitVec 32 := 0#32
  let c13_i32_83 : BitVec 32 := 13#32
  let v210 : BitVec 32 := Scalar.addi c0_i32_82 c13_i32_83
  let c1_i32_84 : BitVec 32 := 1#32
  ⟨c0_i32_82, v210, c1_i32_84⟩
def k1_off163 (k1_t21 : Fin k1_t21_loop.trips) : Fin 2 → Nat :=
  let c0_i32_82 : BitVec 32 := 0#32
  let c1_i32_84 : BitVec 32 := 1#32
  let arg11 : BitVec 32 := Scf.iv c0_i32_82 c1_i32_84 k1_t21
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c320_324 : Index := 320#32
  ![v718.toNat, 320]

def k1_chk161 (v719 : IVec S16 32) : Prop :=
  (∀ a x, ((![v719] : Fin 1 → IVec S16 32) a x).toNat < S10000.size a)
instance k1_chk161.dec : ∀ (v719 : IVec S16 32), Decidable (k1_chk161 v719) := fun v719 => decidable_of_iff' _ (Iff.of_eq (k1_chk161.eq_1 v719))
theorem k1_idx161_inb : ∀ (v719 : IVec S16 32) (k1_hw161 : k1_chk161 v719), ∀ a x, ((![v719] : Fin 1 → IVec S16 32) a x).toNat < S10000.size a := fun v719 k1_hw161 => k1_hw161
def k1_off164 (k1_t21 : Fin k1_t21_loop.trips) : Fin 2 → Nat :=
  let c0_i32_82 : BitVec 32 := 0#32
  let c1_i32_84 : BitVec 32 := 1#32
  let arg11 : BitVec 32 := Scf.iv c0_i32_82 c1_i32_84 k1_t21
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c320_327 : Index := 320#32
  ![v724.toNat, 320]

def k1_chk162 (v725 : IVec S16 32) : Prop :=
  (∀ a x, ((![v725] : Fin 1 → IVec S16 32) a x).toNat < S10000.size a)
instance k1_chk162.dec : ∀ (v725 : IVec S16 32), Decidable (k1_chk162 v725) := fun v725 => decidable_of_iff' _ (Iff.of_eq (k1_chk162.eq_1 v725))
theorem k1_idx162_inb : ∀ (v725 : IVec S16 32) (k1_hw162 : k1_chk162 v725), ∀ a x, ((![v725] : Fin 1 → IVec S16 32) a x).toNat < S10000.size a := fun v725 k1_hw162 => k1_hw162
def k1_off165 (k1_t21 : Fin k1_t21_loop.trips) : Fin 2 → Nat :=
  let c0_i32_82 : BitVec 32 := 0#32
  let c1_i32_84 : BitVec 32 := 1#32
  let arg11 : BitVec 32 := Scf.iv c0_i32_82 c1_i32_84 k1_t21
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c320_330 : Index := 320#32
  ![v730.toNat, 320]

def k1_chk163 (v731 : IVec S16 32) : Prop :=
  (∀ a x, ((![v731] : Fin 1 → IVec S16 32) a x).toNat < S10000.size a)
instance k1_chk163.dec : ∀ (v731 : IVec S16 32), Decidable (k1_chk163 v731) := fun v731 => decidable_of_iff' _ (Iff.of_eq (k1_chk163.eq_1 v731))
theorem k1_idx163_inb : ∀ (v731 : IVec S16 32) (k1_hw163 : k1_chk163 v731), ∀ a x, ((![v731] : Fin 1 → IVec S16 32) a x).toNat < S10000.size a := fun v731 k1_hw163 => k1_hw163
def k1_off166 (k1_t21 : Fin k1_t21_loop.trips) : Fin 2 → Nat :=
  let c0_i32_82 : BitVec 32 := 0#32
  let c1_i32_84 : BitVec 32 := 1#32
  let arg11 : BitVec 32 := Scf.iv c0_i32_82 c1_i32_84 k1_t21
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c320_332 : Index := 320#32
  ![v736.toNat, 320]

def k1_chk164 (v737 : IVec S16 32) : Prop :=
  (∀ a x, ((![v737] : Fin 1 → IVec S16 32) a x).toNat < S10000.size a)
instance k1_chk164.dec : ∀ (v737 : IVec S16 32), Decidable (k1_chk164 v737) := fun v737 => decidable_of_iff' _ (Iff.of_eq (k1_chk164.eq_1 v737))
theorem k1_idx164_inb : ∀ (v737 : IVec S16 32) (k1_hw164 : k1_chk164 v737), ∀ a x, ((![v737] : Fin 1 → IVec S16 32) a x).toNat < S10000.size a := fun v737 k1_hw164 => k1_hw164
def k1_off167 (k1_t21 : Fin k1_t21_loop.trips) : Fin 2 → Nat :=
  let c0_i32_82 : BitVec 32 := 0#32
  let c1_i32_84 : BitVec 32 := 1#32
  let arg11 : BitVec 32 := Scf.iv c0_i32_82 c1_i32_84 k1_t21
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c320_334 : Index := 320#32
  ![v742.toNat, 320]

def k1_chk165 (v743 : IVec S16 32) : Prop :=
  (∀ a x, ((![v743] : Fin 1 → IVec S16 32) a x).toNat < S10000.size a)
instance k1_chk165.dec : ∀ (v743 : IVec S16 32), Decidable (k1_chk165 v743) := fun v743 => decidable_of_iff' _ (Iff.of_eq (k1_chk165.eq_1 v743))
theorem k1_idx165_inb : ∀ (v743 : IVec S16 32) (k1_hw165 : k1_chk165 v743), ∀ a x, ((![v743] : Fin 1 → IVec S16 32) a x).toNat < S10000.size a := fun v743 k1_hw165 => k1_hw165
def k1_off168 (k1_t21 : Fin k1_t21_loop.trips) : Fin 2 → Nat :=
  let c0_i32_82 : BitVec 32 := 0#32
  let c1_i32_84 : BitVec 32 := 1#32
  let arg11 : BitVec 32 := Scf.iv c0_i32_82 c1_i32_84 k1_t21
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c320_336 : Index := 320#32
  ![v748.toNat, 320]

def k1_chk166 (v749 : IVec S16 32) : Prop :=
  (∀ a x, ((![v749] : Fin 1 → IVec S16 32) a x).toNat < S10000.size a)
instance k1_chk166.dec : ∀ (v749 : IVec S16 32), Decidable (k1_chk166 v749) := fun v749 => decidable_of_iff' _ (Iff.of_eq (k1_chk166.eq_1 v749))
theorem k1_idx166_inb : ∀ (v749 : IVec S16 32) (k1_hw166 : k1_chk166 v749), ∀ a x, ((![v749] : Fin 1 → IVec S16 32) a x).toNat < S10000.size a := fun v749 k1_hw166 => k1_hw166
def k1_off169 (k1_t21 : Fin k1_t21_loop.trips) : Fin 2 → Nat :=
  let c0_i32_82 : BitVec 32 := 0#32
  let c1_i32_84 : BitVec 32 := 1#32
  let arg11 : BitVec 32 := Scf.iv c0_i32_82 c1_i32_84 k1_t21
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c320_338 : Index := 320#32
  ![v754.toNat, 320]

def k1_chk167 (v755 : IVec S16 32) : Prop :=
  (∀ a x, ((![v755] : Fin 1 → IVec S16 32) a x).toNat < S10000.size a)
instance k1_chk167.dec : ∀ (v755 : IVec S16 32), Decidable (k1_chk167 v755) := fun v755 => decidable_of_iff' _ (Iff.of_eq (k1_chk167.eq_1 v755))
theorem k1_idx167_inb : ∀ (v755 : IVec S16 32) (k1_hw167 : k1_chk167 v755), ∀ a x, ((![v755] : Fin 1 → IVec S16 32) a x).toNat < S10000.size a := fun v755 k1_hw167 => k1_hw167
def k1_off170 (k1_t21 : Fin k1_t21_loop.trips) : Fin 2 → Nat :=
  let c0_i32_82 : BitVec 32 := 0#32
  let c1_i32_84 : BitVec 32 := 1#32
  let arg11 : BitVec 32 := Scf.iv c0_i32_82 c1_i32_84 k1_t21
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c320_340 : Index := 320#32
  ![v760.toNat, 320]

def k1_chk168 (v761 : IVec S16 32) : Prop :=
  (∀ a x, ((![v761] : Fin 1 → IVec S16 32) a x).toNat < S10000.size a)
instance k1_chk168.dec : ∀ (v761 : IVec S16 32), Decidable (k1_chk168 v761) := fun v761 => decidable_of_iff' _ (Iff.of_eq (k1_chk168.eq_1 v761))
theorem k1_idx168_inb : ∀ (v761 : IVec S16 32) (k1_hw168 : k1_chk168 v761), ∀ a x, ((![v761] : Fin 1 → IVec S16 32) a x).toNat < S10000.size a := fun v761 k1_hw168 => k1_hw168
@[reducible] def k1_t22_loop : Scf.Loop 32 :=
  let c0_i32_86 : BitVec 32 := 0#32
  let c13_i32_87 : BitVec 32 := 13#32
  let v220 : BitVec 32 := Scalar.addi c0_i32_86 c13_i32_87
  let c1_i32_88 : BitVec 32 := 1#32
  ⟨c0_i32_86, v220, c1_i32_88⟩
def k1_off171 (k1_t22 : Fin k1_t22_loop.trips) : Fin 2 → Nat :=
  let c0_i32_86 : BitVec 32 := 0#32
  let c1_i32_88 : BitVec 32 := 1#32
  let arg11 : BitVec 32 := Scf.iv c0_i32_86 c1_i32_88 k1_t22
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c336_324 : Index := 336#32
  ![v718.toNat, 336]

def k1_chk169 (v719 : IVec S16 32) : Prop :=
  (∀ a x, ((![v719] : Fin 1 → IVec S16 32) a x).toNat < S10000.size a)
instance k1_chk169.dec : ∀ (v719 : IVec S16 32), Decidable (k1_chk169 v719) := fun v719 => decidable_of_iff' _ (Iff.of_eq (k1_chk169.eq_1 v719))
theorem k1_idx169_inb : ∀ (v719 : IVec S16 32) (k1_hw169 : k1_chk169 v719), ∀ a x, ((![v719] : Fin 1 → IVec S16 32) a x).toNat < S10000.size a := fun v719 k1_hw169 => k1_hw169
def k1_off172 (k1_t22 : Fin k1_t22_loop.trips) : Fin 2 → Nat :=
  let c0_i32_86 : BitVec 32 := 0#32
  let c1_i32_88 : BitVec 32 := 1#32
  let arg11 : BitVec 32 := Scf.iv c0_i32_86 c1_i32_88 k1_t22
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c336_327 : Index := 336#32
  ![v724.toNat, 336]

def k1_chk170 (v725 : IVec S16 32) : Prop :=
  (∀ a x, ((![v725] : Fin 1 → IVec S16 32) a x).toNat < S10000.size a)
instance k1_chk170.dec : ∀ (v725 : IVec S16 32), Decidable (k1_chk170 v725) := fun v725 => decidable_of_iff' _ (Iff.of_eq (k1_chk170.eq_1 v725))
theorem k1_idx170_inb : ∀ (v725 : IVec S16 32) (k1_hw170 : k1_chk170 v725), ∀ a x, ((![v725] : Fin 1 → IVec S16 32) a x).toNat < S10000.size a := fun v725 k1_hw170 => k1_hw170
def k1_off173 (k1_t22 : Fin k1_t22_loop.trips) : Fin 2 → Nat :=
  let c0_i32_86 : BitVec 32 := 0#32
  let c1_i32_88 : BitVec 32 := 1#32
  let arg11 : BitVec 32 := Scf.iv c0_i32_86 c1_i32_88 k1_t22
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c336_330 : Index := 336#32
  ![v730.toNat, 336]

def k1_chk171 (v731 : IVec S16 32) : Prop :=
  (∀ a x, ((![v731] : Fin 1 → IVec S16 32) a x).toNat < S10000.size a)
instance k1_chk171.dec : ∀ (v731 : IVec S16 32), Decidable (k1_chk171 v731) := fun v731 => decidable_of_iff' _ (Iff.of_eq (k1_chk171.eq_1 v731))
theorem k1_idx171_inb : ∀ (v731 : IVec S16 32) (k1_hw171 : k1_chk171 v731), ∀ a x, ((![v731] : Fin 1 → IVec S16 32) a x).toNat < S10000.size a := fun v731 k1_hw171 => k1_hw171
def k1_off174 (k1_t22 : Fin k1_t22_loop.trips) : Fin 2 → Nat :=
  let c0_i32_86 : BitVec 32 := 0#32
  let c1_i32_88 : BitVec 32 := 1#32
  let arg11 : BitVec 32 := Scf.iv c0_i32_86 c1_i32_88 k1_t22
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c336_332 : Index := 336#32
  ![v736.toNat, 336]

def k1_chk172 (v737 : IVec S16 32) : Prop :=
  (∀ a x, ((![v737] : Fin 1 → IVec S16 32) a x).toNat < S10000.size a)
instance k1_chk172.dec : ∀ (v737 : IVec S16 32), Decidable (k1_chk172 v737) := fun v737 => decidable_of_iff' _ (Iff.of_eq (k1_chk172.eq_1 v737))
theorem k1_idx172_inb : ∀ (v737 : IVec S16 32) (k1_hw172 : k1_chk172 v737), ∀ a x, ((![v737] : Fin 1 → IVec S16 32) a x).toNat < S10000.size a := fun v737 k1_hw172 => k1_hw172
def k1_off175 (k1_t22 : Fin k1_t22_loop.trips) : Fin 2 → Nat :=
  let c0_i32_86 : BitVec 32 := 0#32
  let c1_i32_88 : BitVec 32 := 1#32
  let arg11 : BitVec 32 := Scf.iv c0_i32_86 c1_i32_88 k1_t22
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c336_334 : Index := 336#32
  ![v742.toNat, 336]

def k1_chk173 (v743 : IVec S16 32) : Prop :=
  (∀ a x, ((![v743] : Fin 1 → IVec S16 32) a x).toNat < S10000.size a)
instance k1_chk173.dec : ∀ (v743 : IVec S16 32), Decidable (k1_chk173 v743) := fun v743 => decidable_of_iff' _ (Iff.of_eq (k1_chk173.eq_1 v743))
theorem k1_idx173_inb : ∀ (v743 : IVec S16 32) (k1_hw173 : k1_chk173 v743), ∀ a x, ((![v743] : Fin 1 → IVec S16 32) a x).toNat < S10000.size a := fun v743 k1_hw173 => k1_hw173
def k1_off176 (k1_t22 : Fin k1_t22_loop.trips) : Fin 2 → Nat :=
  let c0_i32_86 : BitVec 32 := 0#32
  let c1_i32_88 : BitVec 32 := 1#32
  let arg11 : BitVec 32 := Scf.iv c0_i32_86 c1_i32_88 k1_t22
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c336_336 : Index := 336#32
  ![v748.toNat, 336]

def k1_chk174 (v749 : IVec S16 32) : Prop :=
  (∀ a x, ((![v749] : Fin 1 → IVec S16 32) a x).toNat < S10000.size a)
instance k1_chk174.dec : ∀ (v749 : IVec S16 32), Decidable (k1_chk174 v749) := fun v749 => decidable_of_iff' _ (Iff.of_eq (k1_chk174.eq_1 v749))
theorem k1_idx174_inb : ∀ (v749 : IVec S16 32) (k1_hw174 : k1_chk174 v749), ∀ a x, ((![v749] : Fin 1 → IVec S16 32) a x).toNat < S10000.size a := fun v749 k1_hw174 => k1_hw174
def k1_off177 (k1_t22 : Fin k1_t22_loop.trips) : Fin 2 → Nat :=
  let c0_i32_86 : BitVec 32 := 0#32
  let c1_i32_88 : BitVec 32 := 1#32
  let arg11 : BitVec 32 := Scf.iv c0_i32_86 c1_i32_88 k1_t22
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c336_338 : Index := 336#32
  ![v754.toNat, 336]

def k1_chk175 (v755 : IVec S16 32) : Prop :=
  (∀ a x, ((![v755] : Fin 1 → IVec S16 32) a x).toNat < S10000.size a)
instance k1_chk175.dec : ∀ (v755 : IVec S16 32), Decidable (k1_chk175 v755) := fun v755 => decidable_of_iff' _ (Iff.of_eq (k1_chk175.eq_1 v755))
theorem k1_idx175_inb : ∀ (v755 : IVec S16 32) (k1_hw175 : k1_chk175 v755), ∀ a x, ((![v755] : Fin 1 → IVec S16 32) a x).toNat < S10000.size a := fun v755 k1_hw175 => k1_hw175
def k1_off178 (k1_t22 : Fin k1_t22_loop.trips) : Fin 2 → Nat :=
  let c0_i32_86 : BitVec 32 := 0#32
  let c1_i32_88 : BitVec 32 := 1#32
  let arg11 : BitVec 32 := Scf.iv c0_i32_86 c1_i32_88 k1_t22
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c336_340 : Index := 336#32
  ![v760.toNat, 336]

def k1_chk176 (v761 : IVec S16 32) : Prop :=
  (∀ a x, ((![v761] : Fin 1 → IVec S16 32) a x).toNat < S10000.size a)
instance k1_chk176.dec : ∀ (v761 : IVec S16 32), Decidable (k1_chk176 v761) := fun v761 => decidable_of_iff' _ (Iff.of_eq (k1_chk176.eq_1 v761))
theorem k1_idx176_inb : ∀ (v761 : IVec S16 32) (k1_hw176 : k1_chk176 v761), ∀ a x, ((![v761] : Fin 1 → IVec S16 32) a x).toNat < S10000.size a := fun v761 k1_hw176 => k1_hw176
@[reducible] def k1_t23_loop : Scf.Loop 32 :=
  let c0_i32_90 : BitVec 32 := 0#32
  let c13_i32_91 : BitVec 32 := 13#32
  let v230 : BitVec 32 := Scalar.addi c0_i32_90 c13_i32_91
  let c1_i32_92 : BitVec 32 := 1#32
  ⟨c0_i32_90, v230, c1_i32_92⟩
def k1_off179 (k1_t23 : Fin k1_t23_loop.trips) : Fin 2 → Nat :=
  let c0_i32_90 : BitVec 32 := 0#32
  let c1_i32_92 : BitVec 32 := 1#32
  let arg11 : BitVec 32 := Scf.iv c0_i32_90 c1_i32_92 k1_t23
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c352_324 : Index := 352#32
  ![v718.toNat, 352]

def k1_chk177 (v719 : IVec S16 32) : Prop :=
  (∀ a x, ((![v719] : Fin 1 → IVec S16 32) a x).toNat < S10000.size a)
instance k1_chk177.dec : ∀ (v719 : IVec S16 32), Decidable (k1_chk177 v719) := fun v719 => decidable_of_iff' _ (Iff.of_eq (k1_chk177.eq_1 v719))
theorem k1_idx177_inb : ∀ (v719 : IVec S16 32) (k1_hw177 : k1_chk177 v719), ∀ a x, ((![v719] : Fin 1 → IVec S16 32) a x).toNat < S10000.size a := fun v719 k1_hw177 => k1_hw177
def k1_off180 (k1_t23 : Fin k1_t23_loop.trips) : Fin 2 → Nat :=
  let c0_i32_90 : BitVec 32 := 0#32
  let c1_i32_92 : BitVec 32 := 1#32
  let arg11 : BitVec 32 := Scf.iv c0_i32_90 c1_i32_92 k1_t23
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c352_327 : Index := 352#32
  ![v724.toNat, 352]

def k1_chk178 (v725 : IVec S16 32) : Prop :=
  (∀ a x, ((![v725] : Fin 1 → IVec S16 32) a x).toNat < S10000.size a)
instance k1_chk178.dec : ∀ (v725 : IVec S16 32), Decidable (k1_chk178 v725) := fun v725 => decidable_of_iff' _ (Iff.of_eq (k1_chk178.eq_1 v725))
theorem k1_idx178_inb : ∀ (v725 : IVec S16 32) (k1_hw178 : k1_chk178 v725), ∀ a x, ((![v725] : Fin 1 → IVec S16 32) a x).toNat < S10000.size a := fun v725 k1_hw178 => k1_hw178
def k1_off181 (k1_t23 : Fin k1_t23_loop.trips) : Fin 2 → Nat :=
  let c0_i32_90 : BitVec 32 := 0#32
  let c1_i32_92 : BitVec 32 := 1#32
  let arg11 : BitVec 32 := Scf.iv c0_i32_90 c1_i32_92 k1_t23
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c352_330 : Index := 352#32
  ![v730.toNat, 352]

def k1_chk179 (v731 : IVec S16 32) : Prop :=
  (∀ a x, ((![v731] : Fin 1 → IVec S16 32) a x).toNat < S10000.size a)
instance k1_chk179.dec : ∀ (v731 : IVec S16 32), Decidable (k1_chk179 v731) := fun v731 => decidable_of_iff' _ (Iff.of_eq (k1_chk179.eq_1 v731))
theorem k1_idx179_inb : ∀ (v731 : IVec S16 32) (k1_hw179 : k1_chk179 v731), ∀ a x, ((![v731] : Fin 1 → IVec S16 32) a x).toNat < S10000.size a := fun v731 k1_hw179 => k1_hw179
def k1_off182 (k1_t23 : Fin k1_t23_loop.trips) : Fin 2 → Nat :=
  let c0_i32_90 : BitVec 32 := 0#32
  let c1_i32_92 : BitVec 32 := 1#32
  let arg11 : BitVec 32 := Scf.iv c0_i32_90 c1_i32_92 k1_t23
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c352_332 : Index := 352#32
  ![v736.toNat, 352]

def k1_chk180 (v737 : IVec S16 32) : Prop :=
  (∀ a x, ((![v737] : Fin 1 → IVec S16 32) a x).toNat < S10000.size a)
instance k1_chk180.dec : ∀ (v737 : IVec S16 32), Decidable (k1_chk180 v737) := fun v737 => decidable_of_iff' _ (Iff.of_eq (k1_chk180.eq_1 v737))
theorem k1_idx180_inb : ∀ (v737 : IVec S16 32) (k1_hw180 : k1_chk180 v737), ∀ a x, ((![v737] : Fin 1 → IVec S16 32) a x).toNat < S10000.size a := fun v737 k1_hw180 => k1_hw180
def k1_off183 (k1_t23 : Fin k1_t23_loop.trips) : Fin 2 → Nat :=
  let c0_i32_90 : BitVec 32 := 0#32
  let c1_i32_92 : BitVec 32 := 1#32
  let arg11 : BitVec 32 := Scf.iv c0_i32_90 c1_i32_92 k1_t23
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c352_334 : Index := 352#32
  ![v742.toNat, 352]

def k1_chk181 (v743 : IVec S16 32) : Prop :=
  (∀ a x, ((![v743] : Fin 1 → IVec S16 32) a x).toNat < S10000.size a)
instance k1_chk181.dec : ∀ (v743 : IVec S16 32), Decidable (k1_chk181 v743) := fun v743 => decidable_of_iff' _ (Iff.of_eq (k1_chk181.eq_1 v743))
theorem k1_idx181_inb : ∀ (v743 : IVec S16 32) (k1_hw181 : k1_chk181 v743), ∀ a x, ((![v743] : Fin 1 → IVec S16 32) a x).toNat < S10000.size a := fun v743 k1_hw181 => k1_hw181
def k1_off184 (k1_t23 : Fin k1_t23_loop.trips) : Fin 2 → Nat :=
  let c0_i32_90 : BitVec 32 := 0#32
  let c1_i32_92 : BitVec 32 := 1#32
  let arg11 : BitVec 32 := Scf.iv c0_i32_90 c1_i32_92 k1_t23
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c352_336 : Index := 352#32
  ![v748.toNat, 352]

def k1_chk182 (v749 : IVec S16 32) : Prop :=
  (∀ a x, ((![v749] : Fin 1 → IVec S16 32) a x).toNat < S10000.size a)
instance k1_chk182.dec : ∀ (v749 : IVec S16 32), Decidable (k1_chk182 v749) := fun v749 => decidable_of_iff' _ (Iff.of_eq (k1_chk182.eq_1 v749))
theorem k1_idx182_inb : ∀ (v749 : IVec S16 32) (k1_hw182 : k1_chk182 v749), ∀ a x, ((![v749] : Fin 1 → IVec S16 32) a x).toNat < S10000.size a := fun v749 k1_hw182 => k1_hw182
def k1_off185 (k1_t23 : Fin k1_t23_loop.trips) : Fin 2 → Nat :=
  let c0_i32_90 : BitVec 32 := 0#32
  let c1_i32_92 : BitVec 32 := 1#32
  let arg11 : BitVec 32 := Scf.iv c0_i32_90 c1_i32_92 k1_t23
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c352_338 : Index := 352#32
  ![v754.toNat, 352]

def k1_chk183 (v755 : IVec S16 32) : Prop :=
  (∀ a x, ((![v755] : Fin 1 → IVec S16 32) a x).toNat < S10000.size a)
instance k1_chk183.dec : ∀ (v755 : IVec S16 32), Decidable (k1_chk183 v755) := fun v755 => decidable_of_iff' _ (Iff.of_eq (k1_chk183.eq_1 v755))
theorem k1_idx183_inb : ∀ (v755 : IVec S16 32) (k1_hw183 : k1_chk183 v755), ∀ a x, ((![v755] : Fin 1 → IVec S16 32) a x).toNat < S10000.size a := fun v755 k1_hw183 => k1_hw183
def k1_off186 (k1_t23 : Fin k1_t23_loop.trips) : Fin 2 → Nat :=
  let c0_i32_90 : BitVec 32 := 0#32
  let c1_i32_92 : BitVec 32 := 1#32
  let arg11 : BitVec 32 := Scf.iv c0_i32_90 c1_i32_92 k1_t23
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c352_340 : Index := 352#32
  ![v760.toNat, 352]

def k1_chk184 (v761 : IVec S16 32) : Prop :=
  (∀ a x, ((![v761] : Fin 1 → IVec S16 32) a x).toNat < S10000.size a)
instance k1_chk184.dec : ∀ (v761 : IVec S16 32), Decidable (k1_chk184 v761) := fun v761 => decidable_of_iff' _ (Iff.of_eq (k1_chk184.eq_1 v761))
theorem k1_idx184_inb : ∀ (v761 : IVec S16 32) (k1_hw184 : k1_chk184 v761), ∀ a x, ((![v761] : Fin 1 → IVec S16 32) a x).toNat < S10000.size a := fun v761 k1_hw184 => k1_hw184
@[reducible] def k1_t24_loop : Scf.Loop 32 :=
  let c0_i32_94 : BitVec 32 := 0#32
  let c13_i32_95 : BitVec 32 := 13#32
  let v240 : BitVec 32 := Scalar.addi c0_i32_94 c13_i32_95
  let c1_i32_96 : BitVec 32 := 1#32
  ⟨c0_i32_94, v240, c1_i32_96⟩
def k1_off187 (k1_t24 : Fin k1_t24_loop.trips) : Fin 2 → Nat :=
  let c0_i32_94 : BitVec 32 := 0#32
  let c1_i32_96 : BitVec 32 := 1#32
  let arg11 : BitVec 32 := Scf.iv c0_i32_94 c1_i32_96 k1_t24
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c368_324 : Index := 368#32
  ![v718.toNat, 368]

def k1_chk185 (v719 : IVec S16 32) : Prop :=
  (∀ a x, ((![v719] : Fin 1 → IVec S16 32) a x).toNat < S10000.size a)
instance k1_chk185.dec : ∀ (v719 : IVec S16 32), Decidable (k1_chk185 v719) := fun v719 => decidable_of_iff' _ (Iff.of_eq (k1_chk185.eq_1 v719))
theorem k1_idx185_inb : ∀ (v719 : IVec S16 32) (k1_hw185 : k1_chk185 v719), ∀ a x, ((![v719] : Fin 1 → IVec S16 32) a x).toNat < S10000.size a := fun v719 k1_hw185 => k1_hw185
def k1_off188 (k1_t24 : Fin k1_t24_loop.trips) : Fin 2 → Nat :=
  let c0_i32_94 : BitVec 32 := 0#32
  let c1_i32_96 : BitVec 32 := 1#32
  let arg11 : BitVec 32 := Scf.iv c0_i32_94 c1_i32_96 k1_t24
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c368_327 : Index := 368#32
  ![v724.toNat, 368]

def k1_chk186 (v725 : IVec S16 32) : Prop :=
  (∀ a x, ((![v725] : Fin 1 → IVec S16 32) a x).toNat < S10000.size a)
instance k1_chk186.dec : ∀ (v725 : IVec S16 32), Decidable (k1_chk186 v725) := fun v725 => decidable_of_iff' _ (Iff.of_eq (k1_chk186.eq_1 v725))
theorem k1_idx186_inb : ∀ (v725 : IVec S16 32) (k1_hw186 : k1_chk186 v725), ∀ a x, ((![v725] : Fin 1 → IVec S16 32) a x).toNat < S10000.size a := fun v725 k1_hw186 => k1_hw186
def k1_off189 (k1_t24 : Fin k1_t24_loop.trips) : Fin 2 → Nat :=
  let c0_i32_94 : BitVec 32 := 0#32
  let c1_i32_96 : BitVec 32 := 1#32
  let arg11 : BitVec 32 := Scf.iv c0_i32_94 c1_i32_96 k1_t24
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c368_330 : Index := 368#32
  ![v730.toNat, 368]

def k1_chk187 (v731 : IVec S16 32) : Prop :=
  (∀ a x, ((![v731] : Fin 1 → IVec S16 32) a x).toNat < S10000.size a)
instance k1_chk187.dec : ∀ (v731 : IVec S16 32), Decidable (k1_chk187 v731) := fun v731 => decidable_of_iff' _ (Iff.of_eq (k1_chk187.eq_1 v731))
theorem k1_idx187_inb : ∀ (v731 : IVec S16 32) (k1_hw187 : k1_chk187 v731), ∀ a x, ((![v731] : Fin 1 → IVec S16 32) a x).toNat < S10000.size a := fun v731 k1_hw187 => k1_hw187
def k1_off190 (k1_t24 : Fin k1_t24_loop.trips) : Fin 2 → Nat :=
  let c0_i32_94 : BitVec 32 := 0#32
  let c1_i32_96 : BitVec 32 := 1#32
  let arg11 : BitVec 32 := Scf.iv c0_i32_94 c1_i32_96 k1_t24
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c368_332 : Index := 368#32
  ![v736.toNat, 368]

def k1_chk188 (v737 : IVec S16 32) : Prop :=
  (∀ a x, ((![v737] : Fin 1 → IVec S16 32) a x).toNat < S10000.size a)
instance k1_chk188.dec : ∀ (v737 : IVec S16 32), Decidable (k1_chk188 v737) := fun v737 => decidable_of_iff' _ (Iff.of_eq (k1_chk188.eq_1 v737))
theorem k1_idx188_inb : ∀ (v737 : IVec S16 32) (k1_hw188 : k1_chk188 v737), ∀ a x, ((![v737] : Fin 1 → IVec S16 32) a x).toNat < S10000.size a := fun v737 k1_hw188 => k1_hw188
def k1_off191 (k1_t24 : Fin k1_t24_loop.trips) : Fin 2 → Nat :=
  let c0_i32_94 : BitVec 32 := 0#32
  let c1_i32_96 : BitVec 32 := 1#32
  let arg11 : BitVec 32 := Scf.iv c0_i32_94 c1_i32_96 k1_t24
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c368_334 : Index := 368#32
  ![v742.toNat, 368]

def k1_chk189 (v743 : IVec S16 32) : Prop :=
  (∀ a x, ((![v743] : Fin 1 → IVec S16 32) a x).toNat < S10000.size a)
instance k1_chk189.dec : ∀ (v743 : IVec S16 32), Decidable (k1_chk189 v743) := fun v743 => decidable_of_iff' _ (Iff.of_eq (k1_chk189.eq_1 v743))
theorem k1_idx189_inb : ∀ (v743 : IVec S16 32) (k1_hw189 : k1_chk189 v743), ∀ a x, ((![v743] : Fin 1 → IVec S16 32) a x).toNat < S10000.size a := fun v743 k1_hw189 => k1_hw189
def k1_off192 (k1_t24 : Fin k1_t24_loop.trips) : Fin 2 → Nat :=
  let c0_i32_94 : BitVec 32 := 0#32
  let c1_i32_96 : BitVec 32 := 1#32
  let arg11 : BitVec 32 := Scf.iv c0_i32_94 c1_i32_96 k1_t24
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c368_336 : Index := 368#32
  ![v748.toNat, 368]

def k1_chk190 (v749 : IVec S16 32) : Prop :=
  (∀ a x, ((![v749] : Fin 1 → IVec S16 32) a x).toNat < S10000.size a)
instance k1_chk190.dec : ∀ (v749 : IVec S16 32), Decidable (k1_chk190 v749) := fun v749 => decidable_of_iff' _ (Iff.of_eq (k1_chk190.eq_1 v749))
theorem k1_idx190_inb : ∀ (v749 : IVec S16 32) (k1_hw190 : k1_chk190 v749), ∀ a x, ((![v749] : Fin 1 → IVec S16 32) a x).toNat < S10000.size a := fun v749 k1_hw190 => k1_hw190
def k1_off193 (k1_t24 : Fin k1_t24_loop.trips) : Fin 2 → Nat :=
  let c0_i32_94 : BitVec 32 := 0#32
  let c1_i32_96 : BitVec 32 := 1#32
  let arg11 : BitVec 32 := Scf.iv c0_i32_94 c1_i32_96 k1_t24
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c368_338 : Index := 368#32
  ![v754.toNat, 368]

def k1_chk191 (v755 : IVec S16 32) : Prop :=
  (∀ a x, ((![v755] : Fin 1 → IVec S16 32) a x).toNat < S10000.size a)
instance k1_chk191.dec : ∀ (v755 : IVec S16 32), Decidable (k1_chk191 v755) := fun v755 => decidable_of_iff' _ (Iff.of_eq (k1_chk191.eq_1 v755))
theorem k1_idx191_inb : ∀ (v755 : IVec S16 32) (k1_hw191 : k1_chk191 v755), ∀ a x, ((![v755] : Fin 1 → IVec S16 32) a x).toNat < S10000.size a := fun v755 k1_hw191 => k1_hw191
def k1_off194 (k1_t24 : Fin k1_t24_loop.trips) : Fin 2 → Nat :=
  let c0_i32_94 : BitVec 32 := 0#32
  let c1_i32_96 : BitVec 32 := 1#32
  let arg11 : BitVec 32 := Scf.iv c0_i32_94 c1_i32_96 k1_t24
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c368_340 : Index := 368#32
  ![v760.toNat, 368]

def k1_chk192 (v761 : IVec S16 32) : Prop :=
  (∀ a x, ((![v761] : Fin 1 → IVec S16 32) a x).toNat < S10000.size a)
instance k1_chk192.dec : ∀ (v761 : IVec S16 32), Decidable (k1_chk192 v761) := fun v761 => decidable_of_iff' _ (Iff.of_eq (k1_chk192.eq_1 v761))
theorem k1_idx192_inb : ∀ (v761 : IVec S16 32) (k1_hw192 : k1_chk192 v761), ∀ a x, ((![v761] : Fin 1 → IVec S16 32) a x).toNat < S10000.size a := fun v761 k1_hw192 => k1_hw192
@[reducible] def k1_t25_loop : Scf.Loop 32 :=
  let c0_i32_98 : BitVec 32 := 0#32
  let c13_i32_99 : BitVec 32 := 13#32
  let v250 : BitVec 32 := Scalar.addi c0_i32_98 c13_i32_99
  let c1_i32_100 : BitVec 32 := 1#32
  ⟨c0_i32_98, v250, c1_i32_100⟩
def k1_off195 (k1_t25 : Fin k1_t25_loop.trips) : Fin 2 → Nat :=
  let c0_i32_98 : BitVec 32 := 0#32
  let c1_i32_100 : BitVec 32 := 1#32
  let arg11 : BitVec 32 := Scf.iv c0_i32_98 c1_i32_100 k1_t25
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c384_324 : Index := 384#32
  ![v718.toNat, 384]

def k1_chk193 (v719 : IVec S16 32) : Prop :=
  (∀ a x, ((![v719] : Fin 1 → IVec S16 32) a x).toNat < S10000.size a)
instance k1_chk193.dec : ∀ (v719 : IVec S16 32), Decidable (k1_chk193 v719) := fun v719 => decidable_of_iff' _ (Iff.of_eq (k1_chk193.eq_1 v719))
theorem k1_idx193_inb : ∀ (v719 : IVec S16 32) (k1_hw193 : k1_chk193 v719), ∀ a x, ((![v719] : Fin 1 → IVec S16 32) a x).toNat < S10000.size a := fun v719 k1_hw193 => k1_hw193
def k1_off196 (k1_t25 : Fin k1_t25_loop.trips) : Fin 2 → Nat :=
  let c0_i32_98 : BitVec 32 := 0#32
  let c1_i32_100 : BitVec 32 := 1#32
  let arg11 : BitVec 32 := Scf.iv c0_i32_98 c1_i32_100 k1_t25
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c384_327 : Index := 384#32
  ![v724.toNat, 384]

def k1_chk194 (v725 : IVec S16 32) : Prop :=
  (∀ a x, ((![v725] : Fin 1 → IVec S16 32) a x).toNat < S10000.size a)
instance k1_chk194.dec : ∀ (v725 : IVec S16 32), Decidable (k1_chk194 v725) := fun v725 => decidable_of_iff' _ (Iff.of_eq (k1_chk194.eq_1 v725))
theorem k1_idx194_inb : ∀ (v725 : IVec S16 32) (k1_hw194 : k1_chk194 v725), ∀ a x, ((![v725] : Fin 1 → IVec S16 32) a x).toNat < S10000.size a := fun v725 k1_hw194 => k1_hw194
def k1_off197 (k1_t25 : Fin k1_t25_loop.trips) : Fin 2 → Nat :=
  let c0_i32_98 : BitVec 32 := 0#32
  let c1_i32_100 : BitVec 32 := 1#32
  let arg11 : BitVec 32 := Scf.iv c0_i32_98 c1_i32_100 k1_t25
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c384_330 : Index := 384#32
  ![v730.toNat, 384]

def k1_chk195 (v731 : IVec S16 32) : Prop :=
  (∀ a x, ((![v731] : Fin 1 → IVec S16 32) a x).toNat < S10000.size a)
instance k1_chk195.dec : ∀ (v731 : IVec S16 32), Decidable (k1_chk195 v731) := fun v731 => decidable_of_iff' _ (Iff.of_eq (k1_chk195.eq_1 v731))
theorem k1_idx195_inb : ∀ (v731 : IVec S16 32) (k1_hw195 : k1_chk195 v731), ∀ a x, ((![v731] : Fin 1 → IVec S16 32) a x).toNat < S10000.size a := fun v731 k1_hw195 => k1_hw195
def k1_off198 (k1_t25 : Fin k1_t25_loop.trips) : Fin 2 → Nat :=
  let c0_i32_98 : BitVec 32 := 0#32
  let c1_i32_100 : BitVec 32 := 1#32
  let arg11 : BitVec 32 := Scf.iv c0_i32_98 c1_i32_100 k1_t25
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c384_332 : Index := 384#32
  ![v736.toNat, 384]

def k1_chk196 (v737 : IVec S16 32) : Prop :=
  (∀ a x, ((![v737] : Fin 1 → IVec S16 32) a x).toNat < S10000.size a)
instance k1_chk196.dec : ∀ (v737 : IVec S16 32), Decidable (k1_chk196 v737) := fun v737 => decidable_of_iff' _ (Iff.of_eq (k1_chk196.eq_1 v737))
theorem k1_idx196_inb : ∀ (v737 : IVec S16 32) (k1_hw196 : k1_chk196 v737), ∀ a x, ((![v737] : Fin 1 → IVec S16 32) a x).toNat < S10000.size a := fun v737 k1_hw196 => k1_hw196
def k1_off199 (k1_t25 : Fin k1_t25_loop.trips) : Fin 2 → Nat :=
  let c0_i32_98 : BitVec 32 := 0#32
  let c1_i32_100 : BitVec 32 := 1#32
  let arg11 : BitVec 32 := Scf.iv c0_i32_98 c1_i32_100 k1_t25
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c384_334 : Index := 384#32
  ![v742.toNat, 384]

def k1_chk197 (v743 : IVec S16 32) : Prop :=
  (∀ a x, ((![v743] : Fin 1 → IVec S16 32) a x).toNat < S10000.size a)
instance k1_chk197.dec : ∀ (v743 : IVec S16 32), Decidable (k1_chk197 v743) := fun v743 => decidable_of_iff' _ (Iff.of_eq (k1_chk197.eq_1 v743))
theorem k1_idx197_inb : ∀ (v743 : IVec S16 32) (k1_hw197 : k1_chk197 v743), ∀ a x, ((![v743] : Fin 1 → IVec S16 32) a x).toNat < S10000.size a := fun v743 k1_hw197 => k1_hw197
def k1_off200 (k1_t25 : Fin k1_t25_loop.trips) : Fin 2 → Nat :=
  let c0_i32_98 : BitVec 32 := 0#32
  let c1_i32_100 : BitVec 32 := 1#32
  let arg11 : BitVec 32 := Scf.iv c0_i32_98 c1_i32_100 k1_t25
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c384_336 : Index := 384#32
  ![v748.toNat, 384]

def k1_chk198 (v749 : IVec S16 32) : Prop :=
  (∀ a x, ((![v749] : Fin 1 → IVec S16 32) a x).toNat < S10000.size a)
instance k1_chk198.dec : ∀ (v749 : IVec S16 32), Decidable (k1_chk198 v749) := fun v749 => decidable_of_iff' _ (Iff.of_eq (k1_chk198.eq_1 v749))
theorem k1_idx198_inb : ∀ (v749 : IVec S16 32) (k1_hw198 : k1_chk198 v749), ∀ a x, ((![v749] : Fin 1 → IVec S16 32) a x).toNat < S10000.size a := fun v749 k1_hw198 => k1_hw198
def k1_off201 (k1_t25 : Fin k1_t25_loop.trips) : Fin 2 → Nat :=
  let c0_i32_98 : BitVec 32 := 0#32
  let c1_i32_100 : BitVec 32 := 1#32
  let arg11 : BitVec 32 := Scf.iv c0_i32_98 c1_i32_100 k1_t25
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c384_338 : Index := 384#32
  ![v754.toNat, 384]

def k1_chk199 (v755 : IVec S16 32) : Prop :=
  (∀ a x, ((![v755] : Fin 1 → IVec S16 32) a x).toNat < S10000.size a)
instance k1_chk199.dec : ∀ (v755 : IVec S16 32), Decidable (k1_chk199 v755) := fun v755 => decidable_of_iff' _ (Iff.of_eq (k1_chk199.eq_1 v755))
theorem k1_idx199_inb : ∀ (v755 : IVec S16 32) (k1_hw199 : k1_chk199 v755), ∀ a x, ((![v755] : Fin 1 → IVec S16 32) a x).toNat < S10000.size a := fun v755 k1_hw199 => k1_hw199
def k1_off202 (k1_t25 : Fin k1_t25_loop.trips) : Fin 2 → Nat :=
  let c0_i32_98 : BitVec 32 := 0#32
  let c1_i32_100 : BitVec 32 := 1#32
  let arg11 : BitVec 32 := Scf.iv c0_i32_98 c1_i32_100 k1_t25
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c384_340 : Index := 384#32
  ![v760.toNat, 384]

def k1_chk200 (v761 : IVec S16 32) : Prop :=
  (∀ a x, ((![v761] : Fin 1 → IVec S16 32) a x).toNat < S10000.size a)
instance k1_chk200.dec : ∀ (v761 : IVec S16 32), Decidable (k1_chk200 v761) := fun v761 => decidable_of_iff' _ (Iff.of_eq (k1_chk200.eq_1 v761))
theorem k1_idx200_inb : ∀ (v761 : IVec S16 32) (k1_hw200 : k1_chk200 v761), ∀ a x, ((![v761] : Fin 1 → IVec S16 32) a x).toNat < S10000.size a := fun v761 k1_hw200 => k1_hw200
@[reducible] def k1_t26_loop : Scf.Loop 32 :=
  let c0_i32_102 : BitVec 32 := 0#32
  let c13_i32_103 : BitVec 32 := 13#32
  let v260 : BitVec 32 := Scalar.addi c0_i32_102 c13_i32_103
  let c1_i32_104 : BitVec 32 := 1#32
  ⟨c0_i32_102, v260, c1_i32_104⟩
def k1_off203 (k1_t26 : Fin k1_t26_loop.trips) : Fin 2 → Nat :=
  let c0_i32_102 : BitVec 32 := 0#32
  let c1_i32_104 : BitVec 32 := 1#32
  let arg11 : BitVec 32 := Scf.iv c0_i32_102 c1_i32_104 k1_t26
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c400_324 : Index := 400#32
  ![v718.toNat, 400]

def k1_chk201 (v719 : IVec S16 32) : Prop :=
  (∀ a x, ((![v719] : Fin 1 → IVec S16 32) a x).toNat < S10000.size a)
instance k1_chk201.dec : ∀ (v719 : IVec S16 32), Decidable (k1_chk201 v719) := fun v719 => decidable_of_iff' _ (Iff.of_eq (k1_chk201.eq_1 v719))
theorem k1_idx201_inb : ∀ (v719 : IVec S16 32) (k1_hw201 : k1_chk201 v719), ∀ a x, ((![v719] : Fin 1 → IVec S16 32) a x).toNat < S10000.size a := fun v719 k1_hw201 => k1_hw201
def k1_off204 (k1_t26 : Fin k1_t26_loop.trips) : Fin 2 → Nat :=
  let c0_i32_102 : BitVec 32 := 0#32
  let c1_i32_104 : BitVec 32 := 1#32
  let arg11 : BitVec 32 := Scf.iv c0_i32_102 c1_i32_104 k1_t26
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c400_327 : Index := 400#32
  ![v724.toNat, 400]

def k1_chk202 (v725 : IVec S16 32) : Prop :=
  (∀ a x, ((![v725] : Fin 1 → IVec S16 32) a x).toNat < S10000.size a)
instance k1_chk202.dec : ∀ (v725 : IVec S16 32), Decidable (k1_chk202 v725) := fun v725 => decidable_of_iff' _ (Iff.of_eq (k1_chk202.eq_1 v725))
theorem k1_idx202_inb : ∀ (v725 : IVec S16 32) (k1_hw202 : k1_chk202 v725), ∀ a x, ((![v725] : Fin 1 → IVec S16 32) a x).toNat < S10000.size a := fun v725 k1_hw202 => k1_hw202
def k1_off205 (k1_t26 : Fin k1_t26_loop.trips) : Fin 2 → Nat :=
  let c0_i32_102 : BitVec 32 := 0#32
  let c1_i32_104 : BitVec 32 := 1#32
  let arg11 : BitVec 32 := Scf.iv c0_i32_102 c1_i32_104 k1_t26
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c400_330 : Index := 400#32
  ![v730.toNat, 400]

def k1_chk203 (v731 : IVec S16 32) : Prop :=
  (∀ a x, ((![v731] : Fin 1 → IVec S16 32) a x).toNat < S10000.size a)
instance k1_chk203.dec : ∀ (v731 : IVec S16 32), Decidable (k1_chk203 v731) := fun v731 => decidable_of_iff' _ (Iff.of_eq (k1_chk203.eq_1 v731))
theorem k1_idx203_inb : ∀ (v731 : IVec S16 32) (k1_hw203 : k1_chk203 v731), ∀ a x, ((![v731] : Fin 1 → IVec S16 32) a x).toNat < S10000.size a := fun v731 k1_hw203 => k1_hw203
def k1_off206 (k1_t26 : Fin k1_t26_loop.trips) : Fin 2 → Nat :=
  let c0_i32_102 : BitVec 32 := 0#32
  let c1_i32_104 : BitVec 32 := 1#32
  let arg11 : BitVec 32 := Scf.iv c0_i32_102 c1_i32_104 k1_t26
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c400_332 : Index := 400#32
  ![v736.toNat, 400]

def k1_chk204 (v737 : IVec S16 32) : Prop :=
  (∀ a x, ((![v737] : Fin 1 → IVec S16 32) a x).toNat < S10000.size a)
instance k1_chk204.dec : ∀ (v737 : IVec S16 32), Decidable (k1_chk204 v737) := fun v737 => decidable_of_iff' _ (Iff.of_eq (k1_chk204.eq_1 v737))
theorem k1_idx204_inb : ∀ (v737 : IVec S16 32) (k1_hw204 : k1_chk204 v737), ∀ a x, ((![v737] : Fin 1 → IVec S16 32) a x).toNat < S10000.size a := fun v737 k1_hw204 => k1_hw204
def k1_off207 (k1_t26 : Fin k1_t26_loop.trips) : Fin 2 → Nat :=
  let c0_i32_102 : BitVec 32 := 0#32
  let c1_i32_104 : BitVec 32 := 1#32
  let arg11 : BitVec 32 := Scf.iv c0_i32_102 c1_i32_104 k1_t26
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c400_334 : Index := 400#32
  ![v742.toNat, 400]

def k1_chk205 (v743 : IVec S16 32) : Prop :=
  (∀ a x, ((![v743] : Fin 1 → IVec S16 32) a x).toNat < S10000.size a)
instance k1_chk205.dec : ∀ (v743 : IVec S16 32), Decidable (k1_chk205 v743) := fun v743 => decidable_of_iff' _ (Iff.of_eq (k1_chk205.eq_1 v743))
theorem k1_idx205_inb : ∀ (v743 : IVec S16 32) (k1_hw205 : k1_chk205 v743), ∀ a x, ((![v743] : Fin 1 → IVec S16 32) a x).toNat < S10000.size a := fun v743 k1_hw205 => k1_hw205
def k1_off208 (k1_t26 : Fin k1_t26_loop.trips) : Fin 2 → Nat :=
  let c0_i32_102 : BitVec 32 := 0#32
  let c1_i32_104 : BitVec 32 := 1#32
  let arg11 : BitVec 32 := Scf.iv c0_i32_102 c1_i32_104 k1_t26
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c400_336 : Index := 400#32
  ![v748.toNat, 400]

def k1_chk206 (v749 : IVec S16 32) : Prop :=
  (∀ a x, ((![v749] : Fin 1 → IVec S16 32) a x).toNat < S10000.size a)
instance k1_chk206.dec : ∀ (v749 : IVec S16 32), Decidable (k1_chk206 v749) := fun v749 => decidable_of_iff' _ (Iff.of_eq (k1_chk206.eq_1 v749))
theorem k1_idx206_inb : ∀ (v749 : IVec S16 32) (k1_hw206 : k1_chk206 v749), ∀ a x, ((![v749] : Fin 1 → IVec S16 32) a x).toNat < S10000.size a := fun v749 k1_hw206 => k1_hw206
def k1_off209 (k1_t26 : Fin k1_t26_loop.trips) : Fin 2 → Nat :=
  let c0_i32_102 : BitVec 32 := 0#32
  let c1_i32_104 : BitVec 32 := 1#32
  let arg11 : BitVec 32 := Scf.iv c0_i32_102 c1_i32_104 k1_t26
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c400_338 : Index := 400#32
  ![v754.toNat, 400]

def k1_chk207 (v755 : IVec S16 32) : Prop :=
  (∀ a x, ((![v755] : Fin 1 → IVec S16 32) a x).toNat < S10000.size a)
instance k1_chk207.dec : ∀ (v755 : IVec S16 32), Decidable (k1_chk207 v755) := fun v755 => decidable_of_iff' _ (Iff.of_eq (k1_chk207.eq_1 v755))
theorem k1_idx207_inb : ∀ (v755 : IVec S16 32) (k1_hw207 : k1_chk207 v755), ∀ a x, ((![v755] : Fin 1 → IVec S16 32) a x).toNat < S10000.size a := fun v755 k1_hw207 => k1_hw207
def k1_off210 (k1_t26 : Fin k1_t26_loop.trips) : Fin 2 → Nat :=
  let c0_i32_102 : BitVec 32 := 0#32
  let c1_i32_104 : BitVec 32 := 1#32
  let arg11 : BitVec 32 := Scf.iv c0_i32_102 c1_i32_104 k1_t26
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c400_340 : Index := 400#32
  ![v760.toNat, 400]

def k1_chk208 (v761 : IVec S16 32) : Prop :=
  (∀ a x, ((![v761] : Fin 1 → IVec S16 32) a x).toNat < S10000.size a)
instance k1_chk208.dec : ∀ (v761 : IVec S16 32), Decidable (k1_chk208 v761) := fun v761 => decidable_of_iff' _ (Iff.of_eq (k1_chk208.eq_1 v761))
theorem k1_idx208_inb : ∀ (v761 : IVec S16 32) (k1_hw208 : k1_chk208 v761), ∀ a x, ((![v761] : Fin 1 → IVec S16 32) a x).toNat < S10000.size a := fun v761 k1_hw208 => k1_hw208
@[reducible] def k1_t27_loop : Scf.Loop 32 :=
  let c0_i32_106 : BitVec 32 := 0#32
  let c13_i32_107 : BitVec 32 := 13#32
  let v270 : BitVec 32 := Scalar.addi c0_i32_106 c13_i32_107
  let c1_i32_108 : BitVec 32 := 1#32
  ⟨c0_i32_106, v270, c1_i32_108⟩
def k1_off211 (k1_t27 : Fin k1_t27_loop.trips) : Fin 2 → Nat :=
  let c0_i32_106 : BitVec 32 := 0#32
  let c1_i32_108 : BitVec 32 := 1#32
  let arg11 : BitVec 32 := Scf.iv c0_i32_106 c1_i32_108 k1_t27
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c416_324 : Index := 416#32
  ![v718.toNat, 416]

def k1_chk209 (v719 : IVec S16 32) : Prop :=
  (∀ a x, ((![v719] : Fin 1 → IVec S16 32) a x).toNat < S10000.size a)
instance k1_chk209.dec : ∀ (v719 : IVec S16 32), Decidable (k1_chk209 v719) := fun v719 => decidable_of_iff' _ (Iff.of_eq (k1_chk209.eq_1 v719))
theorem k1_idx209_inb : ∀ (v719 : IVec S16 32) (k1_hw209 : k1_chk209 v719), ∀ a x, ((![v719] : Fin 1 → IVec S16 32) a x).toNat < S10000.size a := fun v719 k1_hw209 => k1_hw209
def k1_off212 (k1_t27 : Fin k1_t27_loop.trips) : Fin 2 → Nat :=
  let c0_i32_106 : BitVec 32 := 0#32
  let c1_i32_108 : BitVec 32 := 1#32
  let arg11 : BitVec 32 := Scf.iv c0_i32_106 c1_i32_108 k1_t27
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c416_327 : Index := 416#32
  ![v724.toNat, 416]

def k1_chk210 (v725 : IVec S16 32) : Prop :=
  (∀ a x, ((![v725] : Fin 1 → IVec S16 32) a x).toNat < S10000.size a)
instance k1_chk210.dec : ∀ (v725 : IVec S16 32), Decidable (k1_chk210 v725) := fun v725 => decidable_of_iff' _ (Iff.of_eq (k1_chk210.eq_1 v725))
theorem k1_idx210_inb : ∀ (v725 : IVec S16 32) (k1_hw210 : k1_chk210 v725), ∀ a x, ((![v725] : Fin 1 → IVec S16 32) a x).toNat < S10000.size a := fun v725 k1_hw210 => k1_hw210
def k1_off213 (k1_t27 : Fin k1_t27_loop.trips) : Fin 2 → Nat :=
  let c0_i32_106 : BitVec 32 := 0#32
  let c1_i32_108 : BitVec 32 := 1#32
  let arg11 : BitVec 32 := Scf.iv c0_i32_106 c1_i32_108 k1_t27
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c416_330 : Index := 416#32
  ![v730.toNat, 416]

def k1_chk211 (v731 : IVec S16 32) : Prop :=
  (∀ a x, ((![v731] : Fin 1 → IVec S16 32) a x).toNat < S10000.size a)
instance k1_chk211.dec : ∀ (v731 : IVec S16 32), Decidable (k1_chk211 v731) := fun v731 => decidable_of_iff' _ (Iff.of_eq (k1_chk211.eq_1 v731))
theorem k1_idx211_inb : ∀ (v731 : IVec S16 32) (k1_hw211 : k1_chk211 v731), ∀ a x, ((![v731] : Fin 1 → IVec S16 32) a x).toNat < S10000.size a := fun v731 k1_hw211 => k1_hw211
def k1_off214 (k1_t27 : Fin k1_t27_loop.trips) : Fin 2 → Nat :=
  let c0_i32_106 : BitVec 32 := 0#32
  let c1_i32_108 : BitVec 32 := 1#32
  let arg11 : BitVec 32 := Scf.iv c0_i32_106 c1_i32_108 k1_t27
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c416_332 : Index := 416#32
  ![v736.toNat, 416]

def k1_chk212 (v737 : IVec S16 32) : Prop :=
  (∀ a x, ((![v737] : Fin 1 → IVec S16 32) a x).toNat < S10000.size a)
instance k1_chk212.dec : ∀ (v737 : IVec S16 32), Decidable (k1_chk212 v737) := fun v737 => decidable_of_iff' _ (Iff.of_eq (k1_chk212.eq_1 v737))
theorem k1_idx212_inb : ∀ (v737 : IVec S16 32) (k1_hw212 : k1_chk212 v737), ∀ a x, ((![v737] : Fin 1 → IVec S16 32) a x).toNat < S10000.size a := fun v737 k1_hw212 => k1_hw212
def k1_off215 (k1_t27 : Fin k1_t27_loop.trips) : Fin 2 → Nat :=
  let c0_i32_106 : BitVec 32 := 0#32
  let c1_i32_108 : BitVec 32 := 1#32
  let arg11 : BitVec 32 := Scf.iv c0_i32_106 c1_i32_108 k1_t27
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c416_334 : Index := 416#32
  ![v742.toNat, 416]

def k1_chk213 (v743 : IVec S16 32) : Prop :=
  (∀ a x, ((![v743] : Fin 1 → IVec S16 32) a x).toNat < S10000.size a)
instance k1_chk213.dec : ∀ (v743 : IVec S16 32), Decidable (k1_chk213 v743) := fun v743 => decidable_of_iff' _ (Iff.of_eq (k1_chk213.eq_1 v743))
theorem k1_idx213_inb : ∀ (v743 : IVec S16 32) (k1_hw213 : k1_chk213 v743), ∀ a x, ((![v743] : Fin 1 → IVec S16 32) a x).toNat < S10000.size a := fun v743 k1_hw213 => k1_hw213
def k1_off216 (k1_t27 : Fin k1_t27_loop.trips) : Fin 2 → Nat :=
  let c0_i32_106 : BitVec 32 := 0#32
  let c1_i32_108 : BitVec 32 := 1#32
  let arg11 : BitVec 32 := Scf.iv c0_i32_106 c1_i32_108 k1_t27
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c416_336 : Index := 416#32
  ![v748.toNat, 416]

def k1_chk214 (v749 : IVec S16 32) : Prop :=
  (∀ a x, ((![v749] : Fin 1 → IVec S16 32) a x).toNat < S10000.size a)
instance k1_chk214.dec : ∀ (v749 : IVec S16 32), Decidable (k1_chk214 v749) := fun v749 => decidable_of_iff' _ (Iff.of_eq (k1_chk214.eq_1 v749))
theorem k1_idx214_inb : ∀ (v749 : IVec S16 32) (k1_hw214 : k1_chk214 v749), ∀ a x, ((![v749] : Fin 1 → IVec S16 32) a x).toNat < S10000.size a := fun v749 k1_hw214 => k1_hw214
def k1_off217 (k1_t27 : Fin k1_t27_loop.trips) : Fin 2 → Nat :=
  let c0_i32_106 : BitVec 32 := 0#32
  let c1_i32_108 : BitVec 32 := 1#32
  let arg11 : BitVec 32 := Scf.iv c0_i32_106 c1_i32_108 k1_t27
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c416_338 : Index := 416#32
  ![v754.toNat, 416]

def k1_chk215 (v755 : IVec S16 32) : Prop :=
  (∀ a x, ((![v755] : Fin 1 → IVec S16 32) a x).toNat < S10000.size a)
instance k1_chk215.dec : ∀ (v755 : IVec S16 32), Decidable (k1_chk215 v755) := fun v755 => decidable_of_iff' _ (Iff.of_eq (k1_chk215.eq_1 v755))
theorem k1_idx215_inb : ∀ (v755 : IVec S16 32) (k1_hw215 : k1_chk215 v755), ∀ a x, ((![v755] : Fin 1 → IVec S16 32) a x).toNat < S10000.size a := fun v755 k1_hw215 => k1_hw215
def k1_off218 (k1_t27 : Fin k1_t27_loop.trips) : Fin 2 → Nat :=
  let c0_i32_106 : BitVec 32 := 0#32
  let c1_i32_108 : BitVec 32 := 1#32
  let arg11 : BitVec 32 := Scf.iv c0_i32_106 c1_i32_108 k1_t27
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c416_340 : Index := 416#32
  ![v760.toNat, 416]

def k1_chk216 (v761 : IVec S16 32) : Prop :=
  (∀ a x, ((![v761] : Fin 1 → IVec S16 32) a x).toNat < S10000.size a)
instance k1_chk216.dec : ∀ (v761 : IVec S16 32), Decidable (k1_chk216 v761) := fun v761 => decidable_of_iff' _ (Iff.of_eq (k1_chk216.eq_1 v761))
theorem k1_idx216_inb : ∀ (v761 : IVec S16 32) (k1_hw216 : k1_chk216 v761), ∀ a x, ((![v761] : Fin 1 → IVec S16 32) a x).toNat < S10000.size a := fun v761 k1_hw216 => k1_hw216
@[reducible] def k1_t28_loop : Scf.Loop 32 :=
  let c0_i32_110 : BitVec 32 := 0#32
  let c13_i32_111 : BitVec 32 := 13#32
  let v280 : BitVec 32 := Scalar.addi c0_i32_110 c13_i32_111
  let c1_i32_112 : BitVec 32 := 1#32
  ⟨c0_i32_110, v280, c1_i32_112⟩
def k1_off219 (k1_t28 : Fin k1_t28_loop.trips) : Fin 2 → Nat :=
  let c0_i32_110 : BitVec 32 := 0#32
  let c1_i32_112 : BitVec 32 := 1#32
  let arg11 : BitVec 32 := Scf.iv c0_i32_110 c1_i32_112 k1_t28
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c432_324 : Index := 432#32
  ![v718.toNat, 432]

def k1_chk217 (v719 : IVec S16 32) : Prop :=
  (∀ a x, ((![v719] : Fin 1 → IVec S16 32) a x).toNat < S10000.size a)
instance k1_chk217.dec : ∀ (v719 : IVec S16 32), Decidable (k1_chk217 v719) := fun v719 => decidable_of_iff' _ (Iff.of_eq (k1_chk217.eq_1 v719))
theorem k1_idx217_inb : ∀ (v719 : IVec S16 32) (k1_hw217 : k1_chk217 v719), ∀ a x, ((![v719] : Fin 1 → IVec S16 32) a x).toNat < S10000.size a := fun v719 k1_hw217 => k1_hw217
def k1_off220 (k1_t28 : Fin k1_t28_loop.trips) : Fin 2 → Nat :=
  let c0_i32_110 : BitVec 32 := 0#32
  let c1_i32_112 : BitVec 32 := 1#32
  let arg11 : BitVec 32 := Scf.iv c0_i32_110 c1_i32_112 k1_t28
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c432_327 : Index := 432#32
  ![v724.toNat, 432]

def k1_chk218 (v725 : IVec S16 32) : Prop :=
  (∀ a x, ((![v725] : Fin 1 → IVec S16 32) a x).toNat < S10000.size a)
instance k1_chk218.dec : ∀ (v725 : IVec S16 32), Decidable (k1_chk218 v725) := fun v725 => decidable_of_iff' _ (Iff.of_eq (k1_chk218.eq_1 v725))
theorem k1_idx218_inb : ∀ (v725 : IVec S16 32) (k1_hw218 : k1_chk218 v725), ∀ a x, ((![v725] : Fin 1 → IVec S16 32) a x).toNat < S10000.size a := fun v725 k1_hw218 => k1_hw218
def k1_off221 (k1_t28 : Fin k1_t28_loop.trips) : Fin 2 → Nat :=
  let c0_i32_110 : BitVec 32 := 0#32
  let c1_i32_112 : BitVec 32 := 1#32
  let arg11 : BitVec 32 := Scf.iv c0_i32_110 c1_i32_112 k1_t28
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c432_330 : Index := 432#32
  ![v730.toNat, 432]

def k1_chk219 (v731 : IVec S16 32) : Prop :=
  (∀ a x, ((![v731] : Fin 1 → IVec S16 32) a x).toNat < S10000.size a)
instance k1_chk219.dec : ∀ (v731 : IVec S16 32), Decidable (k1_chk219 v731) := fun v731 => decidable_of_iff' _ (Iff.of_eq (k1_chk219.eq_1 v731))
theorem k1_idx219_inb : ∀ (v731 : IVec S16 32) (k1_hw219 : k1_chk219 v731), ∀ a x, ((![v731] : Fin 1 → IVec S16 32) a x).toNat < S10000.size a := fun v731 k1_hw219 => k1_hw219
def k1_off222 (k1_t28 : Fin k1_t28_loop.trips) : Fin 2 → Nat :=
  let c0_i32_110 : BitVec 32 := 0#32
  let c1_i32_112 : BitVec 32 := 1#32
  let arg11 : BitVec 32 := Scf.iv c0_i32_110 c1_i32_112 k1_t28
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c432_332 : Index := 432#32
  ![v736.toNat, 432]

def k1_chk220 (v737 : IVec S16 32) : Prop :=
  (∀ a x, ((![v737] : Fin 1 → IVec S16 32) a x).toNat < S10000.size a)
instance k1_chk220.dec : ∀ (v737 : IVec S16 32), Decidable (k1_chk220 v737) := fun v737 => decidable_of_iff' _ (Iff.of_eq (k1_chk220.eq_1 v737))
theorem k1_idx220_inb : ∀ (v737 : IVec S16 32) (k1_hw220 : k1_chk220 v737), ∀ a x, ((![v737] : Fin 1 → IVec S16 32) a x).toNat < S10000.size a := fun v737 k1_hw220 => k1_hw220
def k1_off223 (k1_t28 : Fin k1_t28_loop.trips) : Fin 2 → Nat :=
  let c0_i32_110 : BitVec 32 := 0#32
  let c1_i32_112 : BitVec 32 := 1#32
  let arg11 : BitVec 32 := Scf.iv c0_i32_110 c1_i32_112 k1_t28
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c432_334 : Index := 432#32
  ![v742.toNat, 432]

def k1_chk221 (v743 : IVec S16 32) : Prop :=
  (∀ a x, ((![v743] : Fin 1 → IVec S16 32) a x).toNat < S10000.size a)
instance k1_chk221.dec : ∀ (v743 : IVec S16 32), Decidable (k1_chk221 v743) := fun v743 => decidable_of_iff' _ (Iff.of_eq (k1_chk221.eq_1 v743))
theorem k1_idx221_inb : ∀ (v743 : IVec S16 32) (k1_hw221 : k1_chk221 v743), ∀ a x, ((![v743] : Fin 1 → IVec S16 32) a x).toNat < S10000.size a := fun v743 k1_hw221 => k1_hw221
def k1_off224 (k1_t28 : Fin k1_t28_loop.trips) : Fin 2 → Nat :=
  let c0_i32_110 : BitVec 32 := 0#32
  let c1_i32_112 : BitVec 32 := 1#32
  let arg11 : BitVec 32 := Scf.iv c0_i32_110 c1_i32_112 k1_t28
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c432_336 : Index := 432#32
  ![v748.toNat, 432]

def k1_chk222 (v749 : IVec S16 32) : Prop :=
  (∀ a x, ((![v749] : Fin 1 → IVec S16 32) a x).toNat < S10000.size a)
instance k1_chk222.dec : ∀ (v749 : IVec S16 32), Decidable (k1_chk222 v749) := fun v749 => decidable_of_iff' _ (Iff.of_eq (k1_chk222.eq_1 v749))
theorem k1_idx222_inb : ∀ (v749 : IVec S16 32) (k1_hw222 : k1_chk222 v749), ∀ a x, ((![v749] : Fin 1 → IVec S16 32) a x).toNat < S10000.size a := fun v749 k1_hw222 => k1_hw222
def k1_off225 (k1_t28 : Fin k1_t28_loop.trips) : Fin 2 → Nat :=
  let c0_i32_110 : BitVec 32 := 0#32
  let c1_i32_112 : BitVec 32 := 1#32
  let arg11 : BitVec 32 := Scf.iv c0_i32_110 c1_i32_112 k1_t28
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c432_338 : Index := 432#32
  ![v754.toNat, 432]

def k1_chk223 (v755 : IVec S16 32) : Prop :=
  (∀ a x, ((![v755] : Fin 1 → IVec S16 32) a x).toNat < S10000.size a)
instance k1_chk223.dec : ∀ (v755 : IVec S16 32), Decidable (k1_chk223 v755) := fun v755 => decidable_of_iff' _ (Iff.of_eq (k1_chk223.eq_1 v755))
theorem k1_idx223_inb : ∀ (v755 : IVec S16 32) (k1_hw223 : k1_chk223 v755), ∀ a x, ((![v755] : Fin 1 → IVec S16 32) a x).toNat < S10000.size a := fun v755 k1_hw223 => k1_hw223
def k1_off226 (k1_t28 : Fin k1_t28_loop.trips) : Fin 2 → Nat :=
  let c0_i32_110 : BitVec 32 := 0#32
  let c1_i32_112 : BitVec 32 := 1#32
  let arg11 : BitVec 32 := Scf.iv c0_i32_110 c1_i32_112 k1_t28
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c432_340 : Index := 432#32
  ![v760.toNat, 432]

def k1_chk224 (v761 : IVec S16 32) : Prop :=
  (∀ a x, ((![v761] : Fin 1 → IVec S16 32) a x).toNat < S10000.size a)
instance k1_chk224.dec : ∀ (v761 : IVec S16 32), Decidable (k1_chk224 v761) := fun v761 => decidable_of_iff' _ (Iff.of_eq (k1_chk224.eq_1 v761))
theorem k1_idx224_inb : ∀ (v761 : IVec S16 32) (k1_hw224 : k1_chk224 v761), ∀ a x, ((![v761] : Fin 1 → IVec S16 32) a x).toNat < S10000.size a := fun v761 k1_hw224 => k1_hw224
@[reducible] def k1_t29_loop : Scf.Loop 32 :=
  let c0_i32_114 : BitVec 32 := 0#32
  let c13_i32_115 : BitVec 32 := 13#32
  let v290 : BitVec 32 := Scalar.addi c0_i32_114 c13_i32_115
  let c1_i32_116 : BitVec 32 := 1#32
  ⟨c0_i32_114, v290, c1_i32_116⟩
def k1_off227 (k1_t29 : Fin k1_t29_loop.trips) : Fin 2 → Nat :=
  let c0_i32_114 : BitVec 32 := 0#32
  let c1_i32_116 : BitVec 32 := 1#32
  let arg11 : BitVec 32 := Scf.iv c0_i32_114 c1_i32_116 k1_t29
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c448_324 : Index := 448#32
  ![v718.toNat, 448]

def k1_chk225 (v719 : IVec S16 32) : Prop :=
  (∀ a x, ((![v719] : Fin 1 → IVec S16 32) a x).toNat < S10000.size a)
instance k1_chk225.dec : ∀ (v719 : IVec S16 32), Decidable (k1_chk225 v719) := fun v719 => decidable_of_iff' _ (Iff.of_eq (k1_chk225.eq_1 v719))
theorem k1_idx225_inb : ∀ (v719 : IVec S16 32) (k1_hw225 : k1_chk225 v719), ∀ a x, ((![v719] : Fin 1 → IVec S16 32) a x).toNat < S10000.size a := fun v719 k1_hw225 => k1_hw225
def k1_off228 (k1_t29 : Fin k1_t29_loop.trips) : Fin 2 → Nat :=
  let c0_i32_114 : BitVec 32 := 0#32
  let c1_i32_116 : BitVec 32 := 1#32
  let arg11 : BitVec 32 := Scf.iv c0_i32_114 c1_i32_116 k1_t29
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c448_327 : Index := 448#32
  ![v724.toNat, 448]

def k1_chk226 (v725 : IVec S16 32) : Prop :=
  (∀ a x, ((![v725] : Fin 1 → IVec S16 32) a x).toNat < S10000.size a)
instance k1_chk226.dec : ∀ (v725 : IVec S16 32), Decidable (k1_chk226 v725) := fun v725 => decidable_of_iff' _ (Iff.of_eq (k1_chk226.eq_1 v725))
theorem k1_idx226_inb : ∀ (v725 : IVec S16 32) (k1_hw226 : k1_chk226 v725), ∀ a x, ((![v725] : Fin 1 → IVec S16 32) a x).toNat < S10000.size a := fun v725 k1_hw226 => k1_hw226
def k1_off229 (k1_t29 : Fin k1_t29_loop.trips) : Fin 2 → Nat :=
  let c0_i32_114 : BitVec 32 := 0#32
  let c1_i32_116 : BitVec 32 := 1#32
  let arg11 : BitVec 32 := Scf.iv c0_i32_114 c1_i32_116 k1_t29
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c448_330 : Index := 448#32
  ![v730.toNat, 448]

def k1_chk227 (v731 : IVec S16 32) : Prop :=
  (∀ a x, ((![v731] : Fin 1 → IVec S16 32) a x).toNat < S10000.size a)
instance k1_chk227.dec : ∀ (v731 : IVec S16 32), Decidable (k1_chk227 v731) := fun v731 => decidable_of_iff' _ (Iff.of_eq (k1_chk227.eq_1 v731))
theorem k1_idx227_inb : ∀ (v731 : IVec S16 32) (k1_hw227 : k1_chk227 v731), ∀ a x, ((![v731] : Fin 1 → IVec S16 32) a x).toNat < S10000.size a := fun v731 k1_hw227 => k1_hw227
def k1_off230 (k1_t29 : Fin k1_t29_loop.trips) : Fin 2 → Nat :=
  let c0_i32_114 : BitVec 32 := 0#32
  let c1_i32_116 : BitVec 32 := 1#32
  let arg11 : BitVec 32 := Scf.iv c0_i32_114 c1_i32_116 k1_t29
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c448_332 : Index := 448#32
  ![v736.toNat, 448]

def k1_chk228 (v737 : IVec S16 32) : Prop :=
  (∀ a x, ((![v737] : Fin 1 → IVec S16 32) a x).toNat < S10000.size a)
instance k1_chk228.dec : ∀ (v737 : IVec S16 32), Decidable (k1_chk228 v737) := fun v737 => decidable_of_iff' _ (Iff.of_eq (k1_chk228.eq_1 v737))
theorem k1_idx228_inb : ∀ (v737 : IVec S16 32) (k1_hw228 : k1_chk228 v737), ∀ a x, ((![v737] : Fin 1 → IVec S16 32) a x).toNat < S10000.size a := fun v737 k1_hw228 => k1_hw228
def k1_off231 (k1_t29 : Fin k1_t29_loop.trips) : Fin 2 → Nat :=
  let c0_i32_114 : BitVec 32 := 0#32
  let c1_i32_116 : BitVec 32 := 1#32
  let arg11 : BitVec 32 := Scf.iv c0_i32_114 c1_i32_116 k1_t29
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c448_334 : Index := 448#32
  ![v742.toNat, 448]

def k1_chk229 (v743 : IVec S16 32) : Prop :=
  (∀ a x, ((![v743] : Fin 1 → IVec S16 32) a x).toNat < S10000.size a)
instance k1_chk229.dec : ∀ (v743 : IVec S16 32), Decidable (k1_chk229 v743) := fun v743 => decidable_of_iff' _ (Iff.of_eq (k1_chk229.eq_1 v743))
theorem k1_idx229_inb : ∀ (v743 : IVec S16 32) (k1_hw229 : k1_chk229 v743), ∀ a x, ((![v743] : Fin 1 → IVec S16 32) a x).toNat < S10000.size a := fun v743 k1_hw229 => k1_hw229
def k1_off232 (k1_t29 : Fin k1_t29_loop.trips) : Fin 2 → Nat :=
  let c0_i32_114 : BitVec 32 := 0#32
  let c1_i32_116 : BitVec 32 := 1#32
  let arg11 : BitVec 32 := Scf.iv c0_i32_114 c1_i32_116 k1_t29
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c448_336 : Index := 448#32
  ![v748.toNat, 448]

def k1_chk230 (v749 : IVec S16 32) : Prop :=
  (∀ a x, ((![v749] : Fin 1 → IVec S16 32) a x).toNat < S10000.size a)
instance k1_chk230.dec : ∀ (v749 : IVec S16 32), Decidable (k1_chk230 v749) := fun v749 => decidable_of_iff' _ (Iff.of_eq (k1_chk230.eq_1 v749))
theorem k1_idx230_inb : ∀ (v749 : IVec S16 32) (k1_hw230 : k1_chk230 v749), ∀ a x, ((![v749] : Fin 1 → IVec S16 32) a x).toNat < S10000.size a := fun v749 k1_hw230 => k1_hw230
def k1_off233 (k1_t29 : Fin k1_t29_loop.trips) : Fin 2 → Nat :=
  let c0_i32_114 : BitVec 32 := 0#32
  let c1_i32_116 : BitVec 32 := 1#32
  let arg11 : BitVec 32 := Scf.iv c0_i32_114 c1_i32_116 k1_t29
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c448_338 : Index := 448#32
  ![v754.toNat, 448]

def k1_chk231 (v755 : IVec S16 32) : Prop :=
  (∀ a x, ((![v755] : Fin 1 → IVec S16 32) a x).toNat < S10000.size a)
instance k1_chk231.dec : ∀ (v755 : IVec S16 32), Decidable (k1_chk231 v755) := fun v755 => decidable_of_iff' _ (Iff.of_eq (k1_chk231.eq_1 v755))
theorem k1_idx231_inb : ∀ (v755 : IVec S16 32) (k1_hw231 : k1_chk231 v755), ∀ a x, ((![v755] : Fin 1 → IVec S16 32) a x).toNat < S10000.size a := fun v755 k1_hw231 => k1_hw231
def k1_off234 (k1_t29 : Fin k1_t29_loop.trips) : Fin 2 → Nat :=
  let c0_i32_114 : BitVec 32 := 0#32
  let c1_i32_116 : BitVec 32 := 1#32
  let arg11 : BitVec 32 := Scf.iv c0_i32_114 c1_i32_116 k1_t29
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c448_340 : Index := 448#32
  ![v760.toNat, 448]

def k1_chk232 (v761 : IVec S16 32) : Prop :=
  (∀ a x, ((![v761] : Fin 1 → IVec S16 32) a x).toNat < S10000.size a)
instance k1_chk232.dec : ∀ (v761 : IVec S16 32), Decidable (k1_chk232 v761) := fun v761 => decidable_of_iff' _ (Iff.of_eq (k1_chk232.eq_1 v761))
theorem k1_idx232_inb : ∀ (v761 : IVec S16 32) (k1_hw232 : k1_chk232 v761), ∀ a x, ((![v761] : Fin 1 → IVec S16 32) a x).toNat < S10000.size a := fun v761 k1_hw232 => k1_hw232
@[reducible] def k1_t30_loop : Scf.Loop 32 :=
  let c0_i32_118 : BitVec 32 := 0#32
  let c13_i32_119 : BitVec 32 := 13#32
  let v300 : BitVec 32 := Scalar.addi c0_i32_118 c13_i32_119
  let c1_i32_120 : BitVec 32 := 1#32
  ⟨c0_i32_118, v300, c1_i32_120⟩
def k1_off235 (k1_t30 : Fin k1_t30_loop.trips) : Fin 2 → Nat :=
  let c0_i32_118 : BitVec 32 := 0#32
  let c1_i32_120 : BitVec 32 := 1#32
  let arg11 : BitVec 32 := Scf.iv c0_i32_118 c1_i32_120 k1_t30
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c464_324 : Index := 464#32
  ![v718.toNat, 464]

def k1_chk233 (v719 : IVec S16 32) : Prop :=
  (∀ a x, ((![v719] : Fin 1 → IVec S16 32) a x).toNat < S10000.size a)
instance k1_chk233.dec : ∀ (v719 : IVec S16 32), Decidable (k1_chk233 v719) := fun v719 => decidable_of_iff' _ (Iff.of_eq (k1_chk233.eq_1 v719))
theorem k1_idx233_inb : ∀ (v719 : IVec S16 32) (k1_hw233 : k1_chk233 v719), ∀ a x, ((![v719] : Fin 1 → IVec S16 32) a x).toNat < S10000.size a := fun v719 k1_hw233 => k1_hw233
def k1_off236 (k1_t30 : Fin k1_t30_loop.trips) : Fin 2 → Nat :=
  let c0_i32_118 : BitVec 32 := 0#32
  let c1_i32_120 : BitVec 32 := 1#32
  let arg11 : BitVec 32 := Scf.iv c0_i32_118 c1_i32_120 k1_t30
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c464_327 : Index := 464#32
  ![v724.toNat, 464]

def k1_chk234 (v725 : IVec S16 32) : Prop :=
  (∀ a x, ((![v725] : Fin 1 → IVec S16 32) a x).toNat < S10000.size a)
instance k1_chk234.dec : ∀ (v725 : IVec S16 32), Decidable (k1_chk234 v725) := fun v725 => decidable_of_iff' _ (Iff.of_eq (k1_chk234.eq_1 v725))
theorem k1_idx234_inb : ∀ (v725 : IVec S16 32) (k1_hw234 : k1_chk234 v725), ∀ a x, ((![v725] : Fin 1 → IVec S16 32) a x).toNat < S10000.size a := fun v725 k1_hw234 => k1_hw234
def k1_off237 (k1_t30 : Fin k1_t30_loop.trips) : Fin 2 → Nat :=
  let c0_i32_118 : BitVec 32 := 0#32
  let c1_i32_120 : BitVec 32 := 1#32
  let arg11 : BitVec 32 := Scf.iv c0_i32_118 c1_i32_120 k1_t30
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c464_330 : Index := 464#32
  ![v730.toNat, 464]

def k1_chk235 (v731 : IVec S16 32) : Prop :=
  (∀ a x, ((![v731] : Fin 1 → IVec S16 32) a x).toNat < S10000.size a)
instance k1_chk235.dec : ∀ (v731 : IVec S16 32), Decidable (k1_chk235 v731) := fun v731 => decidable_of_iff' _ (Iff.of_eq (k1_chk235.eq_1 v731))
theorem k1_idx235_inb : ∀ (v731 : IVec S16 32) (k1_hw235 : k1_chk235 v731), ∀ a x, ((![v731] : Fin 1 → IVec S16 32) a x).toNat < S10000.size a := fun v731 k1_hw235 => k1_hw235
def k1_off238 (k1_t30 : Fin k1_t30_loop.trips) : Fin 2 → Nat :=
  let c0_i32_118 : BitVec 32 := 0#32
  let c1_i32_120 : BitVec 32 := 1#32
  let arg11 : BitVec 32 := Scf.iv c0_i32_118 c1_i32_120 k1_t30
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c464_332 : Index := 464#32
  ![v736.toNat, 464]

def k1_chk236 (v737 : IVec S16 32) : Prop :=
  (∀ a x, ((![v737] : Fin 1 → IVec S16 32) a x).toNat < S10000.size a)
instance k1_chk236.dec : ∀ (v737 : IVec S16 32), Decidable (k1_chk236 v737) := fun v737 => decidable_of_iff' _ (Iff.of_eq (k1_chk236.eq_1 v737))
theorem k1_idx236_inb : ∀ (v737 : IVec S16 32) (k1_hw236 : k1_chk236 v737), ∀ a x, ((![v737] : Fin 1 → IVec S16 32) a x).toNat < S10000.size a := fun v737 k1_hw236 => k1_hw236
def k1_off239 (k1_t30 : Fin k1_t30_loop.trips) : Fin 2 → Nat :=
  let c0_i32_118 : BitVec 32 := 0#32
  let c1_i32_120 : BitVec 32 := 1#32
  let arg11 : BitVec 32 := Scf.iv c0_i32_118 c1_i32_120 k1_t30
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c464_334 : Index := 464#32
  ![v742.toNat, 464]

def k1_chk237 (v743 : IVec S16 32) : Prop :=
  (∀ a x, ((![v743] : Fin 1 → IVec S16 32) a x).toNat < S10000.size a)
instance k1_chk237.dec : ∀ (v743 : IVec S16 32), Decidable (k1_chk237 v743) := fun v743 => decidable_of_iff' _ (Iff.of_eq (k1_chk237.eq_1 v743))
theorem k1_idx237_inb : ∀ (v743 : IVec S16 32) (k1_hw237 : k1_chk237 v743), ∀ a x, ((![v743] : Fin 1 → IVec S16 32) a x).toNat < S10000.size a := fun v743 k1_hw237 => k1_hw237
def k1_off240 (k1_t30 : Fin k1_t30_loop.trips) : Fin 2 → Nat :=
  let c0_i32_118 : BitVec 32 := 0#32
  let c1_i32_120 : BitVec 32 := 1#32
  let arg11 : BitVec 32 := Scf.iv c0_i32_118 c1_i32_120 k1_t30
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c464_336 : Index := 464#32
  ![v748.toNat, 464]

def k1_chk238 (v749 : IVec S16 32) : Prop :=
  (∀ a x, ((![v749] : Fin 1 → IVec S16 32) a x).toNat < S10000.size a)
instance k1_chk238.dec : ∀ (v749 : IVec S16 32), Decidable (k1_chk238 v749) := fun v749 => decidable_of_iff' _ (Iff.of_eq (k1_chk238.eq_1 v749))
theorem k1_idx238_inb : ∀ (v749 : IVec S16 32) (k1_hw238 : k1_chk238 v749), ∀ a x, ((![v749] : Fin 1 → IVec S16 32) a x).toNat < S10000.size a := fun v749 k1_hw238 => k1_hw238
def k1_off241 (k1_t30 : Fin k1_t30_loop.trips) : Fin 2 → Nat :=
  let c0_i32_118 : BitVec 32 := 0#32
  let c1_i32_120 : BitVec 32 := 1#32
  let arg11 : BitVec 32 := Scf.iv c0_i32_118 c1_i32_120 k1_t30
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c464_338 : Index := 464#32
  ![v754.toNat, 464]

def k1_chk239 (v755 : IVec S16 32) : Prop :=
  (∀ a x, ((![v755] : Fin 1 → IVec S16 32) a x).toNat < S10000.size a)
instance k1_chk239.dec : ∀ (v755 : IVec S16 32), Decidable (k1_chk239 v755) := fun v755 => decidable_of_iff' _ (Iff.of_eq (k1_chk239.eq_1 v755))
theorem k1_idx239_inb : ∀ (v755 : IVec S16 32) (k1_hw239 : k1_chk239 v755), ∀ a x, ((![v755] : Fin 1 → IVec S16 32) a x).toNat < S10000.size a := fun v755 k1_hw239 => k1_hw239
def k1_off242 (k1_t30 : Fin k1_t30_loop.trips) : Fin 2 → Nat :=
  let c0_i32_118 : BitVec 32 := 0#32
  let c1_i32_120 : BitVec 32 := 1#32
  let arg11 : BitVec 32 := Scf.iv c0_i32_118 c1_i32_120 k1_t30
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c464_340 : Index := 464#32
  ![v760.toNat, 464]

def k1_chk240 (v761 : IVec S16 32) : Prop :=
  (∀ a x, ((![v761] : Fin 1 → IVec S16 32) a x).toNat < S10000.size a)
instance k1_chk240.dec : ∀ (v761 : IVec S16 32), Decidable (k1_chk240 v761) := fun v761 => decidable_of_iff' _ (Iff.of_eq (k1_chk240.eq_1 v761))
theorem k1_idx240_inb : ∀ (v761 : IVec S16 32) (k1_hw240 : k1_chk240 v761), ∀ a x, ((![v761] : Fin 1 → IVec S16 32) a x).toNat < S10000.size a := fun v761 k1_hw240 => k1_hw240
@[reducible] def k1_t31_loop : Scf.Loop 32 :=
  let c0_i32_122 : BitVec 32 := 0#32
  let c13_i32_123 : BitVec 32 := 13#32
  let v310 : BitVec 32 := Scalar.addi c0_i32_122 c13_i32_123
  let c1_i32_124 : BitVec 32 := 1#32
  ⟨c0_i32_122, v310, c1_i32_124⟩
def k1_off243 (k1_t31 : Fin k1_t31_loop.trips) : Fin 2 → Nat :=
  let c0_i32_122 : BitVec 32 := 0#32
  let c1_i32_124 : BitVec 32 := 1#32
  let arg11 : BitVec 32 := Scf.iv c0_i32_122 c1_i32_124 k1_t31
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c480_324 : Index := 480#32
  ![v718.toNat, 480]

def k1_chk241 (v719 : IVec S16 32) : Prop :=
  (∀ a x, ((![v719] : Fin 1 → IVec S16 32) a x).toNat < S10000.size a)
instance k1_chk241.dec : ∀ (v719 : IVec S16 32), Decidable (k1_chk241 v719) := fun v719 => decidable_of_iff' _ (Iff.of_eq (k1_chk241.eq_1 v719))
theorem k1_idx241_inb : ∀ (v719 : IVec S16 32) (k1_hw241 : k1_chk241 v719), ∀ a x, ((![v719] : Fin 1 → IVec S16 32) a x).toNat < S10000.size a := fun v719 k1_hw241 => k1_hw241
def k1_off244 (k1_t31 : Fin k1_t31_loop.trips) : Fin 2 → Nat :=
  let c0_i32_122 : BitVec 32 := 0#32
  let c1_i32_124 : BitVec 32 := 1#32
  let arg11 : BitVec 32 := Scf.iv c0_i32_122 c1_i32_124 k1_t31
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c480_327 : Index := 480#32
  ![v724.toNat, 480]

def k1_chk242 (v725 : IVec S16 32) : Prop :=
  (∀ a x, ((![v725] : Fin 1 → IVec S16 32) a x).toNat < S10000.size a)
instance k1_chk242.dec : ∀ (v725 : IVec S16 32), Decidable (k1_chk242 v725) := fun v725 => decidable_of_iff' _ (Iff.of_eq (k1_chk242.eq_1 v725))
theorem k1_idx242_inb : ∀ (v725 : IVec S16 32) (k1_hw242 : k1_chk242 v725), ∀ a x, ((![v725] : Fin 1 → IVec S16 32) a x).toNat < S10000.size a := fun v725 k1_hw242 => k1_hw242
def k1_off245 (k1_t31 : Fin k1_t31_loop.trips) : Fin 2 → Nat :=
  let c0_i32_122 : BitVec 32 := 0#32
  let c1_i32_124 : BitVec 32 := 1#32
  let arg11 : BitVec 32 := Scf.iv c0_i32_122 c1_i32_124 k1_t31
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c480_330 : Index := 480#32
  ![v730.toNat, 480]

def k1_chk243 (v731 : IVec S16 32) : Prop :=
  (∀ a x, ((![v731] : Fin 1 → IVec S16 32) a x).toNat < S10000.size a)
instance k1_chk243.dec : ∀ (v731 : IVec S16 32), Decidable (k1_chk243 v731) := fun v731 => decidable_of_iff' _ (Iff.of_eq (k1_chk243.eq_1 v731))
theorem k1_idx243_inb : ∀ (v731 : IVec S16 32) (k1_hw243 : k1_chk243 v731), ∀ a x, ((![v731] : Fin 1 → IVec S16 32) a x).toNat < S10000.size a := fun v731 k1_hw243 => k1_hw243
def k1_off246 (k1_t31 : Fin k1_t31_loop.trips) : Fin 2 → Nat :=
  let c0_i32_122 : BitVec 32 := 0#32
  let c1_i32_124 : BitVec 32 := 1#32
  let arg11 : BitVec 32 := Scf.iv c0_i32_122 c1_i32_124 k1_t31
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c480_332 : Index := 480#32
  ![v736.toNat, 480]

def k1_chk244 (v737 : IVec S16 32) : Prop :=
  (∀ a x, ((![v737] : Fin 1 → IVec S16 32) a x).toNat < S10000.size a)
instance k1_chk244.dec : ∀ (v737 : IVec S16 32), Decidable (k1_chk244 v737) := fun v737 => decidable_of_iff' _ (Iff.of_eq (k1_chk244.eq_1 v737))
theorem k1_idx244_inb : ∀ (v737 : IVec S16 32) (k1_hw244 : k1_chk244 v737), ∀ a x, ((![v737] : Fin 1 → IVec S16 32) a x).toNat < S10000.size a := fun v737 k1_hw244 => k1_hw244
def k1_off247 (k1_t31 : Fin k1_t31_loop.trips) : Fin 2 → Nat :=
  let c0_i32_122 : BitVec 32 := 0#32
  let c1_i32_124 : BitVec 32 := 1#32
  let arg11 : BitVec 32 := Scf.iv c0_i32_122 c1_i32_124 k1_t31
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c480_334 : Index := 480#32
  ![v742.toNat, 480]

def k1_chk245 (v743 : IVec S16 32) : Prop :=
  (∀ a x, ((![v743] : Fin 1 → IVec S16 32) a x).toNat < S10000.size a)
instance k1_chk245.dec : ∀ (v743 : IVec S16 32), Decidable (k1_chk245 v743) := fun v743 => decidable_of_iff' _ (Iff.of_eq (k1_chk245.eq_1 v743))
theorem k1_idx245_inb : ∀ (v743 : IVec S16 32) (k1_hw245 : k1_chk245 v743), ∀ a x, ((![v743] : Fin 1 → IVec S16 32) a x).toNat < S10000.size a := fun v743 k1_hw245 => k1_hw245
def k1_off248 (k1_t31 : Fin k1_t31_loop.trips) : Fin 2 → Nat :=
  let c0_i32_122 : BitVec 32 := 0#32
  let c1_i32_124 : BitVec 32 := 1#32
  let arg11 : BitVec 32 := Scf.iv c0_i32_122 c1_i32_124 k1_t31
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c480_336 : Index := 480#32
  ![v748.toNat, 480]

def k1_chk246 (v749 : IVec S16 32) : Prop :=
  (∀ a x, ((![v749] : Fin 1 → IVec S16 32) a x).toNat < S10000.size a)
instance k1_chk246.dec : ∀ (v749 : IVec S16 32), Decidable (k1_chk246 v749) := fun v749 => decidable_of_iff' _ (Iff.of_eq (k1_chk246.eq_1 v749))
theorem k1_idx246_inb : ∀ (v749 : IVec S16 32) (k1_hw246 : k1_chk246 v749), ∀ a x, ((![v749] : Fin 1 → IVec S16 32) a x).toNat < S10000.size a := fun v749 k1_hw246 => k1_hw246
def k1_off249 (k1_t31 : Fin k1_t31_loop.trips) : Fin 2 → Nat :=
  let c0_i32_122 : BitVec 32 := 0#32
  let c1_i32_124 : BitVec 32 := 1#32
  let arg11 : BitVec 32 := Scf.iv c0_i32_122 c1_i32_124 k1_t31
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c480_338 : Index := 480#32
  ![v754.toNat, 480]

def k1_chk247 (v755 : IVec S16 32) : Prop :=
  (∀ a x, ((![v755] : Fin 1 → IVec S16 32) a x).toNat < S10000.size a)
instance k1_chk247.dec : ∀ (v755 : IVec S16 32), Decidable (k1_chk247 v755) := fun v755 => decidable_of_iff' _ (Iff.of_eq (k1_chk247.eq_1 v755))
theorem k1_idx247_inb : ∀ (v755 : IVec S16 32) (k1_hw247 : k1_chk247 v755), ∀ a x, ((![v755] : Fin 1 → IVec S16 32) a x).toNat < S10000.size a := fun v755 k1_hw247 => k1_hw247
def k1_off250 (k1_t31 : Fin k1_t31_loop.trips) : Fin 2 → Nat :=
  let c0_i32_122 : BitVec 32 := 0#32
  let c1_i32_124 : BitVec 32 := 1#32
  let arg11 : BitVec 32 := Scf.iv c0_i32_122 c1_i32_124 k1_t31
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c480_340 : Index := 480#32
  ![v760.toNat, 480]

def k1_chk248 (v761 : IVec S16 32) : Prop :=
  (∀ a x, ((![v761] : Fin 1 → IVec S16 32) a x).toNat < S10000.size a)
instance k1_chk248.dec : ∀ (v761 : IVec S16 32), Decidable (k1_chk248 v761) := fun v761 => decidable_of_iff' _ (Iff.of_eq (k1_chk248.eq_1 v761))
theorem k1_idx248_inb : ∀ (v761 : IVec S16 32) (k1_hw248 : k1_chk248 v761), ∀ a x, ((![v761] : Fin 1 → IVec S16 32) a x).toNat < S10000.size a := fun v761 k1_hw248 => k1_hw248
@[reducible] def k1_t32_loop : Scf.Loop 32 :=
  let c0_i32_126 : BitVec 32 := 0#32
  let c13_i32_127 : BitVec 32 := 13#32
  let v320 : BitVec 32 := Scalar.addi c0_i32_126 c13_i32_127
  let c1_i32_128 : BitVec 32 := 1#32
  ⟨c0_i32_126, v320, c1_i32_128⟩
def k1_off251 (k1_t32 : Fin k1_t32_loop.trips) : Fin 2 → Nat :=
  let c0_i32_126 : BitVec 32 := 0#32
  let c1_i32_128 : BitVec 32 := 1#32
  let arg11 : BitVec 32 := Scf.iv c0_i32_126 c1_i32_128 k1_t32
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c496_324 : Index := 496#32
  ![v718.toNat, 496]

def k1_chk249 (v719 : IVec S16 32) : Prop :=
  (∀ a x, ((![v719] : Fin 1 → IVec S16 32) a x).toNat < S10000.size a)
instance k1_chk249.dec : ∀ (v719 : IVec S16 32), Decidable (k1_chk249 v719) := fun v719 => decidable_of_iff' _ (Iff.of_eq (k1_chk249.eq_1 v719))
theorem k1_idx249_inb : ∀ (v719 : IVec S16 32) (k1_hw249 : k1_chk249 v719), ∀ a x, ((![v719] : Fin 1 → IVec S16 32) a x).toNat < S10000.size a := fun v719 k1_hw249 => k1_hw249
def k1_off252 (k1_t32 : Fin k1_t32_loop.trips) : Fin 2 → Nat :=
  let c0_i32_126 : BitVec 32 := 0#32
  let c1_i32_128 : BitVec 32 := 1#32
  let arg11 : BitVec 32 := Scf.iv c0_i32_126 c1_i32_128 k1_t32
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c496_327 : Index := 496#32
  ![v724.toNat, 496]

def k1_chk250 (v725 : IVec S16 32) : Prop :=
  (∀ a x, ((![v725] : Fin 1 → IVec S16 32) a x).toNat < S10000.size a)
instance k1_chk250.dec : ∀ (v725 : IVec S16 32), Decidable (k1_chk250 v725) := fun v725 => decidable_of_iff' _ (Iff.of_eq (k1_chk250.eq_1 v725))
theorem k1_idx250_inb : ∀ (v725 : IVec S16 32) (k1_hw250 : k1_chk250 v725), ∀ a x, ((![v725] : Fin 1 → IVec S16 32) a x).toNat < S10000.size a := fun v725 k1_hw250 => k1_hw250
def k1_off253 (k1_t32 : Fin k1_t32_loop.trips) : Fin 2 → Nat :=
  let c0_i32_126 : BitVec 32 := 0#32
  let c1_i32_128 : BitVec 32 := 1#32
  let arg11 : BitVec 32 := Scf.iv c0_i32_126 c1_i32_128 k1_t32
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c496_330 : Index := 496#32
  ![v730.toNat, 496]

def k1_chk251 (v731 : IVec S16 32) : Prop :=
  (∀ a x, ((![v731] : Fin 1 → IVec S16 32) a x).toNat < S10000.size a)
instance k1_chk251.dec : ∀ (v731 : IVec S16 32), Decidable (k1_chk251 v731) := fun v731 => decidable_of_iff' _ (Iff.of_eq (k1_chk251.eq_1 v731))
theorem k1_idx251_inb : ∀ (v731 : IVec S16 32) (k1_hw251 : k1_chk251 v731), ∀ a x, ((![v731] : Fin 1 → IVec S16 32) a x).toNat < S10000.size a := fun v731 k1_hw251 => k1_hw251
def k1_off254 (k1_t32 : Fin k1_t32_loop.trips) : Fin 2 → Nat :=
  let c0_i32_126 : BitVec 32 := 0#32
  let c1_i32_128 : BitVec 32 := 1#32
  let arg11 : BitVec 32 := Scf.iv c0_i32_126 c1_i32_128 k1_t32
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c496_332 : Index := 496#32
  ![v736.toNat, 496]

def k1_chk252 (v737 : IVec S16 32) : Prop :=
  (∀ a x, ((![v737] : Fin 1 → IVec S16 32) a x).toNat < S10000.size a)
instance k1_chk252.dec : ∀ (v737 : IVec S16 32), Decidable (k1_chk252 v737) := fun v737 => decidable_of_iff' _ (Iff.of_eq (k1_chk252.eq_1 v737))
theorem k1_idx252_inb : ∀ (v737 : IVec S16 32) (k1_hw252 : k1_chk252 v737), ∀ a x, ((![v737] : Fin 1 → IVec S16 32) a x).toNat < S10000.size a := fun v737 k1_hw252 => k1_hw252
def k1_off255 (k1_t32 : Fin k1_t32_loop.trips) : Fin 2 → Nat :=
  let c0_i32_126 : BitVec 32 := 0#32
  let c1_i32_128 : BitVec 32 := 1#32
  let arg11 : BitVec 32 := Scf.iv c0_i32_126 c1_i32_128 k1_t32
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c496_334 : Index := 496#32
  ![v742.toNat, 496]

def k1_chk253 (v743 : IVec S16 32) : Prop :=
  (∀ a x, ((![v743] : Fin 1 → IVec S16 32) a x).toNat < S10000.size a)
instance k1_chk253.dec : ∀ (v743 : IVec S16 32), Decidable (k1_chk253 v743) := fun v743 => decidable_of_iff' _ (Iff.of_eq (k1_chk253.eq_1 v743))
theorem k1_idx253_inb : ∀ (v743 : IVec S16 32) (k1_hw253 : k1_chk253 v743), ∀ a x, ((![v743] : Fin 1 → IVec S16 32) a x).toNat < S10000.size a := fun v743 k1_hw253 => k1_hw253
def k1_off256 (k1_t32 : Fin k1_t32_loop.trips) : Fin 2 → Nat :=
  let c0_i32_126 : BitVec 32 := 0#32
  let c1_i32_128 : BitVec 32 := 1#32
  let arg11 : BitVec 32 := Scf.iv c0_i32_126 c1_i32_128 k1_t32
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c496_336 : Index := 496#32
  ![v748.toNat, 496]

def k1_chk254 (v749 : IVec S16 32) : Prop :=
  (∀ a x, ((![v749] : Fin 1 → IVec S16 32) a x).toNat < S10000.size a)
instance k1_chk254.dec : ∀ (v749 : IVec S16 32), Decidable (k1_chk254 v749) := fun v749 => decidable_of_iff' _ (Iff.of_eq (k1_chk254.eq_1 v749))
theorem k1_idx254_inb : ∀ (v749 : IVec S16 32) (k1_hw254 : k1_chk254 v749), ∀ a x, ((![v749] : Fin 1 → IVec S16 32) a x).toNat < S10000.size a := fun v749 k1_hw254 => k1_hw254
def k1_off257 (k1_t32 : Fin k1_t32_loop.trips) : Fin 2 → Nat :=
  let c0_i32_126 : BitVec 32 := 0#32
  let c1_i32_128 : BitVec 32 := 1#32
  let arg11 : BitVec 32 := Scf.iv c0_i32_126 c1_i32_128 k1_t32
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c496_338 : Index := 496#32
  ![v754.toNat, 496]

def k1_chk255 (v755 : IVec S16 32) : Prop :=
  (∀ a x, ((![v755] : Fin 1 → IVec S16 32) a x).toNat < S10000.size a)
instance k1_chk255.dec : ∀ (v755 : IVec S16 32), Decidable (k1_chk255 v755) := fun v755 => decidable_of_iff' _ (Iff.of_eq (k1_chk255.eq_1 v755))
theorem k1_idx255_inb : ∀ (v755 : IVec S16 32) (k1_hw255 : k1_chk255 v755), ∀ a x, ((![v755] : Fin 1 → IVec S16 32) a x).toNat < S10000.size a := fun v755 k1_hw255 => k1_hw255
def k1_off258 (k1_t32 : Fin k1_t32_loop.trips) : Fin 2 → Nat :=
  let c0_i32_126 : BitVec 32 := 0#32
  let c1_i32_128 : BitVec 32 := 1#32
  let arg11 : BitVec 32 := Scf.iv c0_i32_126 c1_i32_128 k1_t32
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c496_340 : Index := 496#32
  ![v760.toNat, 496]

def k1_chk256 (v761 : IVec S16 32) : Prop :=
  (∀ a x, ((![v761] : Fin 1 → IVec S16 32) a x).toNat < S10000.size a)
instance k1_chk256.dec : ∀ (v761 : IVec S16 32), Decidable (k1_chk256 v761) := fun v761 => decidable_of_iff' _ (Iff.of_eq (k1_chk256.eq_1 v761))
theorem k1_idx256_inb : ∀ (v761 : IVec S16 32) (k1_hw256 : k1_chk256 v761), ∀ a x, ((![v761] : Fin 1 → IVec S16 32) a x).toNat < S10000.size a := fun v761 k1_hw256 => k1_hw256
@[reducible] def k1_t33_loop : Scf.Loop 32 :=
  let c0_i32_132 : BitVec 32 := 0#32
  let c12_i32 : BitVec 32 := 12#32
  let v332 : BitVec 32 := Scalar.addi c0_i32_132 c12_i32
  let c1_i32_133 : BitVec 32 := 1#32
  ⟨c0_i32_132, v332, c1_i32_133⟩
def k1_off259 (k1_t33 : Fin k1_t33_loop.trips) : Fin 2 → Nat :=
  let c0_i32_132 : BitVec 32 := 0#32
  let c1_i32_133 : BitVec 32 := 1#32
  let arg11 : BitVec 32 := Scf.iv c0_i32_132 c1_i32_133 k1_t33
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c0_324 : Index := 0#32
  ![v718.toNat, 0]

def k1_chk257 (v719 : IVec S16 32) : Prop :=
  (∀ a x, ((![v719] : Fin 1 → IVec S16 32) a x).toNat < S10000.size a)
instance k1_chk257.dec : ∀ (v719 : IVec S16 32), Decidable (k1_chk257 v719) := fun v719 => decidable_of_iff' _ (Iff.of_eq (k1_chk257.eq_1 v719))
theorem k1_idx257_inb : ∀ (v719 : IVec S16 32) (k1_hw257 : k1_chk257 v719), ∀ a x, ((![v719] : Fin 1 → IVec S16 32) a x).toNat < S10000.size a := fun v719 k1_hw257 => k1_hw257
def k1_off260 (k1_t33 : Fin k1_t33_loop.trips) : Fin 2 → Nat :=
  let c0_i32_132 : BitVec 32 := 0#32
  let c1_i32_133 : BitVec 32 := 1#32
  let arg11 : BitVec 32 := Scf.iv c0_i32_132 c1_i32_133 k1_t33
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c0_327 : Index := 0#32
  ![v724.toNat, 0]

def k1_chk258 (v725 : IVec S16 32) : Prop :=
  (∀ a x, ((![v725] : Fin 1 → IVec S16 32) a x).toNat < S10000.size a)
instance k1_chk258.dec : ∀ (v725 : IVec S16 32), Decidable (k1_chk258 v725) := fun v725 => decidable_of_iff' _ (Iff.of_eq (k1_chk258.eq_1 v725))
theorem k1_idx258_inb : ∀ (v725 : IVec S16 32) (k1_hw258 : k1_chk258 v725), ∀ a x, ((![v725] : Fin 1 → IVec S16 32) a x).toNat < S10000.size a := fun v725 k1_hw258 => k1_hw258
def k1_off261 (k1_t33 : Fin k1_t33_loop.trips) : Fin 2 → Nat :=
  let c0_i32_132 : BitVec 32 := 0#32
  let c1_i32_133 : BitVec 32 := 1#32
  let arg11 : BitVec 32 := Scf.iv c0_i32_132 c1_i32_133 k1_t33
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c0_330 : Index := 0#32
  ![v730.toNat, 0]

def k1_chk259 (v731 : IVec S16 32) : Prop :=
  (∀ a x, ((![v731] : Fin 1 → IVec S16 32) a x).toNat < S10000.size a)
instance k1_chk259.dec : ∀ (v731 : IVec S16 32), Decidable (k1_chk259 v731) := fun v731 => decidable_of_iff' _ (Iff.of_eq (k1_chk259.eq_1 v731))
theorem k1_idx259_inb : ∀ (v731 : IVec S16 32) (k1_hw259 : k1_chk259 v731), ∀ a x, ((![v731] : Fin 1 → IVec S16 32) a x).toNat < S10000.size a := fun v731 k1_hw259 => k1_hw259
def k1_off262 (k1_t33 : Fin k1_t33_loop.trips) : Fin 2 → Nat :=
  let c0_i32_132 : BitVec 32 := 0#32
  let c1_i32_133 : BitVec 32 := 1#32
  let arg11 : BitVec 32 := Scf.iv c0_i32_132 c1_i32_133 k1_t33
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c0_332 : Index := 0#32
  ![v736.toNat, 0]

def k1_chk260 (v737 : IVec S16 32) : Prop :=
  (∀ a x, ((![v737] : Fin 1 → IVec S16 32) a x).toNat < S10000.size a)
instance k1_chk260.dec : ∀ (v737 : IVec S16 32), Decidable (k1_chk260 v737) := fun v737 => decidable_of_iff' _ (Iff.of_eq (k1_chk260.eq_1 v737))
theorem k1_idx260_inb : ∀ (v737 : IVec S16 32) (k1_hw260 : k1_chk260 v737), ∀ a x, ((![v737] : Fin 1 → IVec S16 32) a x).toNat < S10000.size a := fun v737 k1_hw260 => k1_hw260
def k1_off263 (k1_t33 : Fin k1_t33_loop.trips) : Fin 2 → Nat :=
  let c0_i32_132 : BitVec 32 := 0#32
  let c1_i32_133 : BitVec 32 := 1#32
  let arg11 : BitVec 32 := Scf.iv c0_i32_132 c1_i32_133 k1_t33
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c0_334 : Index := 0#32
  ![v742.toNat, 0]

def k1_chk261 (v743 : IVec S16 32) : Prop :=
  (∀ a x, ((![v743] : Fin 1 → IVec S16 32) a x).toNat < S10000.size a)
instance k1_chk261.dec : ∀ (v743 : IVec S16 32), Decidable (k1_chk261 v743) := fun v743 => decidable_of_iff' _ (Iff.of_eq (k1_chk261.eq_1 v743))
theorem k1_idx261_inb : ∀ (v743 : IVec S16 32) (k1_hw261 : k1_chk261 v743), ∀ a x, ((![v743] : Fin 1 → IVec S16 32) a x).toNat < S10000.size a := fun v743 k1_hw261 => k1_hw261
def k1_off264 (k1_t33 : Fin k1_t33_loop.trips) : Fin 2 → Nat :=
  let c0_i32_132 : BitVec 32 := 0#32
  let c1_i32_133 : BitVec 32 := 1#32
  let arg11 : BitVec 32 := Scf.iv c0_i32_132 c1_i32_133 k1_t33
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c0_336 : Index := 0#32
  ![v748.toNat, 0]

def k1_chk262 (v749 : IVec S16 32) : Prop :=
  (∀ a x, ((![v749] : Fin 1 → IVec S16 32) a x).toNat < S10000.size a)
instance k1_chk262.dec : ∀ (v749 : IVec S16 32), Decidable (k1_chk262 v749) := fun v749 => decidable_of_iff' _ (Iff.of_eq (k1_chk262.eq_1 v749))
theorem k1_idx262_inb : ∀ (v749 : IVec S16 32) (k1_hw262 : k1_chk262 v749), ∀ a x, ((![v749] : Fin 1 → IVec S16 32) a x).toNat < S10000.size a := fun v749 k1_hw262 => k1_hw262
def k1_off265 (k1_t33 : Fin k1_t33_loop.trips) : Fin 2 → Nat :=
  let c0_i32_132 : BitVec 32 := 0#32
  let c1_i32_133 : BitVec 32 := 1#32
  let arg11 : BitVec 32 := Scf.iv c0_i32_132 c1_i32_133 k1_t33
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c0_338 : Index := 0#32
  ![v754.toNat, 0]

def k1_chk263 (v755 : IVec S16 32) : Prop :=
  (∀ a x, ((![v755] : Fin 1 → IVec S16 32) a x).toNat < S10000.size a)
instance k1_chk263.dec : ∀ (v755 : IVec S16 32), Decidable (k1_chk263 v755) := fun v755 => decidable_of_iff' _ (Iff.of_eq (k1_chk263.eq_1 v755))
theorem k1_idx263_inb : ∀ (v755 : IVec S16 32) (k1_hw263 : k1_chk263 v755), ∀ a x, ((![v755] : Fin 1 → IVec S16 32) a x).toNat < S10000.size a := fun v755 k1_hw263 => k1_hw263
def k1_off266 (k1_t33 : Fin k1_t33_loop.trips) : Fin 2 → Nat :=
  let c0_i32_132 : BitVec 32 := 0#32
  let c1_i32_133 : BitVec 32 := 1#32
  let arg11 : BitVec 32 := Scf.iv c0_i32_132 c1_i32_133 k1_t33
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c0_340 : Index := 0#32
  ![v760.toNat, 0]

def k1_chk264 (v761 : IVec S16 32) : Prop :=
  (∀ a x, ((![v761] : Fin 1 → IVec S16 32) a x).toNat < S10000.size a)
instance k1_chk264.dec : ∀ (v761 : IVec S16 32), Decidable (k1_chk264 v761) := fun v761 => decidable_of_iff' _ (Iff.of_eq (k1_chk264.eq_1 v761))
theorem k1_idx264_inb : ∀ (v761 : IVec S16 32) (k1_hw264 : k1_chk264 v761), ∀ a x, ((![v761] : Fin 1 → IVec S16 32) a x).toNat < S10000.size a := fun v761 k1_hw264 => k1_hw264
@[reducible] def k1_t34_loop : Scf.Loop 32 :=
  let c0_i32_137 : BitVec 32 := 0#32
  let c12_i32_138 : BitVec 32 := 12#32
  let v344 : BitVec 32 := Scalar.addi c0_i32_137 c12_i32_138
  let c1_i32_139 : BitVec 32 := 1#32
  ⟨c0_i32_137, v344, c1_i32_139⟩
def k1_off267 (k1_t34 : Fin k1_t34_loop.trips) : Fin 2 → Nat :=
  let c0_i32_137 : BitVec 32 := 0#32
  let c1_i32_139 : BitVec 32 := 1#32
  let arg11 : BitVec 32 := Scf.iv c0_i32_137 c1_i32_139 k1_t34
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c16_324 : Index := 16#32
  ![v718.toNat, 16]

def k1_chk265 (v719 : IVec S16 32) : Prop :=
  (∀ a x, ((![v719] : Fin 1 → IVec S16 32) a x).toNat < S10000.size a)
instance k1_chk265.dec : ∀ (v719 : IVec S16 32), Decidable (k1_chk265 v719) := fun v719 => decidable_of_iff' _ (Iff.of_eq (k1_chk265.eq_1 v719))
theorem k1_idx265_inb : ∀ (v719 : IVec S16 32) (k1_hw265 : k1_chk265 v719), ∀ a x, ((![v719] : Fin 1 → IVec S16 32) a x).toNat < S10000.size a := fun v719 k1_hw265 => k1_hw265
def k1_off268 (k1_t34 : Fin k1_t34_loop.trips) : Fin 2 → Nat :=
  let c0_i32_137 : BitVec 32 := 0#32
  let c1_i32_139 : BitVec 32 := 1#32
  let arg11 : BitVec 32 := Scf.iv c0_i32_137 c1_i32_139 k1_t34
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c16_327 : Index := 16#32
  ![v724.toNat, 16]

def k1_chk266 (v725 : IVec S16 32) : Prop :=
  (∀ a x, ((![v725] : Fin 1 → IVec S16 32) a x).toNat < S10000.size a)
instance k1_chk266.dec : ∀ (v725 : IVec S16 32), Decidable (k1_chk266 v725) := fun v725 => decidable_of_iff' _ (Iff.of_eq (k1_chk266.eq_1 v725))
theorem k1_idx266_inb : ∀ (v725 : IVec S16 32) (k1_hw266 : k1_chk266 v725), ∀ a x, ((![v725] : Fin 1 → IVec S16 32) a x).toNat < S10000.size a := fun v725 k1_hw266 => k1_hw266
def k1_off269 (k1_t34 : Fin k1_t34_loop.trips) : Fin 2 → Nat :=
  let c0_i32_137 : BitVec 32 := 0#32
  let c1_i32_139 : BitVec 32 := 1#32
  let arg11 : BitVec 32 := Scf.iv c0_i32_137 c1_i32_139 k1_t34
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c16_330 : Index := 16#32
  ![v730.toNat, 16]

def k1_chk267 (v731 : IVec S16 32) : Prop :=
  (∀ a x, ((![v731] : Fin 1 → IVec S16 32) a x).toNat < S10000.size a)
instance k1_chk267.dec : ∀ (v731 : IVec S16 32), Decidable (k1_chk267 v731) := fun v731 => decidable_of_iff' _ (Iff.of_eq (k1_chk267.eq_1 v731))
theorem k1_idx267_inb : ∀ (v731 : IVec S16 32) (k1_hw267 : k1_chk267 v731), ∀ a x, ((![v731] : Fin 1 → IVec S16 32) a x).toNat < S10000.size a := fun v731 k1_hw267 => k1_hw267
def k1_off270 (k1_t34 : Fin k1_t34_loop.trips) : Fin 2 → Nat :=
  let c0_i32_137 : BitVec 32 := 0#32
  let c1_i32_139 : BitVec 32 := 1#32
  let arg11 : BitVec 32 := Scf.iv c0_i32_137 c1_i32_139 k1_t34
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c16_332 : Index := 16#32
  ![v736.toNat, 16]

def k1_chk268 (v737 : IVec S16 32) : Prop :=
  (∀ a x, ((![v737] : Fin 1 → IVec S16 32) a x).toNat < S10000.size a)
instance k1_chk268.dec : ∀ (v737 : IVec S16 32), Decidable (k1_chk268 v737) := fun v737 => decidable_of_iff' _ (Iff.of_eq (k1_chk268.eq_1 v737))
theorem k1_idx268_inb : ∀ (v737 : IVec S16 32) (k1_hw268 : k1_chk268 v737), ∀ a x, ((![v737] : Fin 1 → IVec S16 32) a x).toNat < S10000.size a := fun v737 k1_hw268 => k1_hw268
def k1_off271 (k1_t34 : Fin k1_t34_loop.trips) : Fin 2 → Nat :=
  let c0_i32_137 : BitVec 32 := 0#32
  let c1_i32_139 : BitVec 32 := 1#32
  let arg11 : BitVec 32 := Scf.iv c0_i32_137 c1_i32_139 k1_t34
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c16_334 : Index := 16#32
  ![v742.toNat, 16]

def k1_chk269 (v743 : IVec S16 32) : Prop :=
  (∀ a x, ((![v743] : Fin 1 → IVec S16 32) a x).toNat < S10000.size a)
instance k1_chk269.dec : ∀ (v743 : IVec S16 32), Decidable (k1_chk269 v743) := fun v743 => decidable_of_iff' _ (Iff.of_eq (k1_chk269.eq_1 v743))
theorem k1_idx269_inb : ∀ (v743 : IVec S16 32) (k1_hw269 : k1_chk269 v743), ∀ a x, ((![v743] : Fin 1 → IVec S16 32) a x).toNat < S10000.size a := fun v743 k1_hw269 => k1_hw269
def k1_off272 (k1_t34 : Fin k1_t34_loop.trips) : Fin 2 → Nat :=
  let c0_i32_137 : BitVec 32 := 0#32
  let c1_i32_139 : BitVec 32 := 1#32
  let arg11 : BitVec 32 := Scf.iv c0_i32_137 c1_i32_139 k1_t34
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c16_336 : Index := 16#32
  ![v748.toNat, 16]

def k1_chk270 (v749 : IVec S16 32) : Prop :=
  (∀ a x, ((![v749] : Fin 1 → IVec S16 32) a x).toNat < S10000.size a)
instance k1_chk270.dec : ∀ (v749 : IVec S16 32), Decidable (k1_chk270 v749) := fun v749 => decidable_of_iff' _ (Iff.of_eq (k1_chk270.eq_1 v749))
theorem k1_idx270_inb : ∀ (v749 : IVec S16 32) (k1_hw270 : k1_chk270 v749), ∀ a x, ((![v749] : Fin 1 → IVec S16 32) a x).toNat < S10000.size a := fun v749 k1_hw270 => k1_hw270
def k1_off273 (k1_t34 : Fin k1_t34_loop.trips) : Fin 2 → Nat :=
  let c0_i32_137 : BitVec 32 := 0#32
  let c1_i32_139 : BitVec 32 := 1#32
  let arg11 : BitVec 32 := Scf.iv c0_i32_137 c1_i32_139 k1_t34
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c16_338 : Index := 16#32
  ![v754.toNat, 16]

def k1_chk271 (v755 : IVec S16 32) : Prop :=
  (∀ a x, ((![v755] : Fin 1 → IVec S16 32) a x).toNat < S10000.size a)
instance k1_chk271.dec : ∀ (v755 : IVec S16 32), Decidable (k1_chk271 v755) := fun v755 => decidable_of_iff' _ (Iff.of_eq (k1_chk271.eq_1 v755))
theorem k1_idx271_inb : ∀ (v755 : IVec S16 32) (k1_hw271 : k1_chk271 v755), ∀ a x, ((![v755] : Fin 1 → IVec S16 32) a x).toNat < S10000.size a := fun v755 k1_hw271 => k1_hw271
def k1_off274 (k1_t34 : Fin k1_t34_loop.trips) : Fin 2 → Nat :=
  let c0_i32_137 : BitVec 32 := 0#32
  let c1_i32_139 : BitVec 32 := 1#32
  let arg11 : BitVec 32 := Scf.iv c0_i32_137 c1_i32_139 k1_t34
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c16_340 : Index := 16#32
  ![v760.toNat, 16]

def k1_chk272 (v761 : IVec S16 32) : Prop :=
  (∀ a x, ((![v761] : Fin 1 → IVec S16 32) a x).toNat < S10000.size a)
instance k1_chk272.dec : ∀ (v761 : IVec S16 32), Decidable (k1_chk272 v761) := fun v761 => decidable_of_iff' _ (Iff.of_eq (k1_chk272.eq_1 v761))
theorem k1_idx272_inb : ∀ (v761 : IVec S16 32) (k1_hw272 : k1_chk272 v761), ∀ a x, ((![v761] : Fin 1 → IVec S16 32) a x).toNat < S10000.size a := fun v761 k1_hw272 => k1_hw272
@[reducible] def k1_t35_loop : Scf.Loop 32 :=
  let c0_i32_143 : BitVec 32 := 0#32
  let c12_i32_144 : BitVec 32 := 12#32
  let v356 : BitVec 32 := Scalar.addi c0_i32_143 c12_i32_144
  let c1_i32_145 : BitVec 32 := 1#32
  ⟨c0_i32_143, v356, c1_i32_145⟩
def k1_off275 (k1_t35 : Fin k1_t35_loop.trips) : Fin 2 → Nat :=
  let c0_i32_143 : BitVec 32 := 0#32
  let c1_i32_145 : BitVec 32 := 1#32
  let arg11 : BitVec 32 := Scf.iv c0_i32_143 c1_i32_145 k1_t35
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c32_324 : Index := 32#32
  ![v718.toNat, 32]

def k1_chk273 (v719 : IVec S16 32) : Prop :=
  (∀ a x, ((![v719] : Fin 1 → IVec S16 32) a x).toNat < S10000.size a)
instance k1_chk273.dec : ∀ (v719 : IVec S16 32), Decidable (k1_chk273 v719) := fun v719 => decidable_of_iff' _ (Iff.of_eq (k1_chk273.eq_1 v719))
theorem k1_idx273_inb : ∀ (v719 : IVec S16 32) (k1_hw273 : k1_chk273 v719), ∀ a x, ((![v719] : Fin 1 → IVec S16 32) a x).toNat < S10000.size a := fun v719 k1_hw273 => k1_hw273
def k1_off276 (k1_t35 : Fin k1_t35_loop.trips) : Fin 2 → Nat :=
  let c0_i32_143 : BitVec 32 := 0#32
  let c1_i32_145 : BitVec 32 := 1#32
  let arg11 : BitVec 32 := Scf.iv c0_i32_143 c1_i32_145 k1_t35
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c32_327 : Index := 32#32
  ![v724.toNat, 32]

def k1_chk274 (v725 : IVec S16 32) : Prop :=
  (∀ a x, ((![v725] : Fin 1 → IVec S16 32) a x).toNat < S10000.size a)
instance k1_chk274.dec : ∀ (v725 : IVec S16 32), Decidable (k1_chk274 v725) := fun v725 => decidable_of_iff' _ (Iff.of_eq (k1_chk274.eq_1 v725))
theorem k1_idx274_inb : ∀ (v725 : IVec S16 32) (k1_hw274 : k1_chk274 v725), ∀ a x, ((![v725] : Fin 1 → IVec S16 32) a x).toNat < S10000.size a := fun v725 k1_hw274 => k1_hw274
def k1_off277 (k1_t35 : Fin k1_t35_loop.trips) : Fin 2 → Nat :=
  let c0_i32_143 : BitVec 32 := 0#32
  let c1_i32_145 : BitVec 32 := 1#32
  let arg11 : BitVec 32 := Scf.iv c0_i32_143 c1_i32_145 k1_t35
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c32_330 : Index := 32#32
  ![v730.toNat, 32]

def k1_chk275 (v731 : IVec S16 32) : Prop :=
  (∀ a x, ((![v731] : Fin 1 → IVec S16 32) a x).toNat < S10000.size a)
instance k1_chk275.dec : ∀ (v731 : IVec S16 32), Decidable (k1_chk275 v731) := fun v731 => decidable_of_iff' _ (Iff.of_eq (k1_chk275.eq_1 v731))
theorem k1_idx275_inb : ∀ (v731 : IVec S16 32) (k1_hw275 : k1_chk275 v731), ∀ a x, ((![v731] : Fin 1 → IVec S16 32) a x).toNat < S10000.size a := fun v731 k1_hw275 => k1_hw275
def k1_off278 (k1_t35 : Fin k1_t35_loop.trips) : Fin 2 → Nat :=
  let c0_i32_143 : BitVec 32 := 0#32
  let c1_i32_145 : BitVec 32 := 1#32
  let arg11 : BitVec 32 := Scf.iv c0_i32_143 c1_i32_145 k1_t35
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c32_332 : Index := 32#32
  ![v736.toNat, 32]

def k1_chk276 (v737 : IVec S16 32) : Prop :=
  (∀ a x, ((![v737] : Fin 1 → IVec S16 32) a x).toNat < S10000.size a)
instance k1_chk276.dec : ∀ (v737 : IVec S16 32), Decidable (k1_chk276 v737) := fun v737 => decidable_of_iff' _ (Iff.of_eq (k1_chk276.eq_1 v737))
theorem k1_idx276_inb : ∀ (v737 : IVec S16 32) (k1_hw276 : k1_chk276 v737), ∀ a x, ((![v737] : Fin 1 → IVec S16 32) a x).toNat < S10000.size a := fun v737 k1_hw276 => k1_hw276
def k1_off279 (k1_t35 : Fin k1_t35_loop.trips) : Fin 2 → Nat :=
  let c0_i32_143 : BitVec 32 := 0#32
  let c1_i32_145 : BitVec 32 := 1#32
  let arg11 : BitVec 32 := Scf.iv c0_i32_143 c1_i32_145 k1_t35
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c32_334 : Index := 32#32
  ![v742.toNat, 32]

def k1_chk277 (v743 : IVec S16 32) : Prop :=
  (∀ a x, ((![v743] : Fin 1 → IVec S16 32) a x).toNat < S10000.size a)
instance k1_chk277.dec : ∀ (v743 : IVec S16 32), Decidable (k1_chk277 v743) := fun v743 => decidable_of_iff' _ (Iff.of_eq (k1_chk277.eq_1 v743))
theorem k1_idx277_inb : ∀ (v743 : IVec S16 32) (k1_hw277 : k1_chk277 v743), ∀ a x, ((![v743] : Fin 1 → IVec S16 32) a x).toNat < S10000.size a := fun v743 k1_hw277 => k1_hw277
def k1_off280 (k1_t35 : Fin k1_t35_loop.trips) : Fin 2 → Nat :=
  let c0_i32_143 : BitVec 32 := 0#32
  let c1_i32_145 : BitVec 32 := 1#32
  let arg11 : BitVec 32 := Scf.iv c0_i32_143 c1_i32_145 k1_t35
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c32_336 : Index := 32#32
  ![v748.toNat, 32]

def k1_chk278 (v749 : IVec S16 32) : Prop :=
  (∀ a x, ((![v749] : Fin 1 → IVec S16 32) a x).toNat < S10000.size a)
instance k1_chk278.dec : ∀ (v749 : IVec S16 32), Decidable (k1_chk278 v749) := fun v749 => decidable_of_iff' _ (Iff.of_eq (k1_chk278.eq_1 v749))
theorem k1_idx278_inb : ∀ (v749 : IVec S16 32) (k1_hw278 : k1_chk278 v749), ∀ a x, ((![v749] : Fin 1 → IVec S16 32) a x).toNat < S10000.size a := fun v749 k1_hw278 => k1_hw278
def k1_off281 (k1_t35 : Fin k1_t35_loop.trips) : Fin 2 → Nat :=
  let c0_i32_143 : BitVec 32 := 0#32
  let c1_i32_145 : BitVec 32 := 1#32
  let arg11 : BitVec 32 := Scf.iv c0_i32_143 c1_i32_145 k1_t35
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c32_338 : Index := 32#32
  ![v754.toNat, 32]

def k1_chk279 (v755 : IVec S16 32) : Prop :=
  (∀ a x, ((![v755] : Fin 1 → IVec S16 32) a x).toNat < S10000.size a)
instance k1_chk279.dec : ∀ (v755 : IVec S16 32), Decidable (k1_chk279 v755) := fun v755 => decidable_of_iff' _ (Iff.of_eq (k1_chk279.eq_1 v755))
theorem k1_idx279_inb : ∀ (v755 : IVec S16 32) (k1_hw279 : k1_chk279 v755), ∀ a x, ((![v755] : Fin 1 → IVec S16 32) a x).toNat < S10000.size a := fun v755 k1_hw279 => k1_hw279
def k1_off282 (k1_t35 : Fin k1_t35_loop.trips) : Fin 2 → Nat :=
  let c0_i32_143 : BitVec 32 := 0#32
  let c1_i32_145 : BitVec 32 := 1#32
  let arg11 : BitVec 32 := Scf.iv c0_i32_143 c1_i32_145 k1_t35
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c32_340 : Index := 32#32
  ![v760.toNat, 32]

def k1_chk280 (v761 : IVec S16 32) : Prop :=
  (∀ a x, ((![v761] : Fin 1 → IVec S16 32) a x).toNat < S10000.size a)
instance k1_chk280.dec : ∀ (v761 : IVec S16 32), Decidable (k1_chk280 v761) := fun v761 => decidable_of_iff' _ (Iff.of_eq (k1_chk280.eq_1 v761))
theorem k1_idx280_inb : ∀ (v761 : IVec S16 32) (k1_hw280 : k1_chk280 v761), ∀ a x, ((![v761] : Fin 1 → IVec S16 32) a x).toNat < S10000.size a := fun v761 k1_hw280 => k1_hw280
@[reducible] def k1_t36_loop : Scf.Loop 32 :=
  let c0_i32_149 : BitVec 32 := 0#32
  let c12_i32_150 : BitVec 32 := 12#32
  let v368 : BitVec 32 := Scalar.addi c0_i32_149 c12_i32_150
  let c1_i32_151 : BitVec 32 := 1#32
  ⟨c0_i32_149, v368, c1_i32_151⟩
def k1_off283 (k1_t36 : Fin k1_t36_loop.trips) : Fin 2 → Nat :=
  let c0_i32_149 : BitVec 32 := 0#32
  let c1_i32_151 : BitVec 32 := 1#32
  let arg11 : BitVec 32 := Scf.iv c0_i32_149 c1_i32_151 k1_t36
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c48_324 : Index := 48#32
  ![v718.toNat, 48]

def k1_chk281 (v719 : IVec S16 32) : Prop :=
  (∀ a x, ((![v719] : Fin 1 → IVec S16 32) a x).toNat < S10000.size a)
instance k1_chk281.dec : ∀ (v719 : IVec S16 32), Decidable (k1_chk281 v719) := fun v719 => decidable_of_iff' _ (Iff.of_eq (k1_chk281.eq_1 v719))
theorem k1_idx281_inb : ∀ (v719 : IVec S16 32) (k1_hw281 : k1_chk281 v719), ∀ a x, ((![v719] : Fin 1 → IVec S16 32) a x).toNat < S10000.size a := fun v719 k1_hw281 => k1_hw281
def k1_off284 (k1_t36 : Fin k1_t36_loop.trips) : Fin 2 → Nat :=
  let c0_i32_149 : BitVec 32 := 0#32
  let c1_i32_151 : BitVec 32 := 1#32
  let arg11 : BitVec 32 := Scf.iv c0_i32_149 c1_i32_151 k1_t36
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c48_327 : Index := 48#32
  ![v724.toNat, 48]

def k1_chk282 (v725 : IVec S16 32) : Prop :=
  (∀ a x, ((![v725] : Fin 1 → IVec S16 32) a x).toNat < S10000.size a)
instance k1_chk282.dec : ∀ (v725 : IVec S16 32), Decidable (k1_chk282 v725) := fun v725 => decidable_of_iff' _ (Iff.of_eq (k1_chk282.eq_1 v725))
theorem k1_idx282_inb : ∀ (v725 : IVec S16 32) (k1_hw282 : k1_chk282 v725), ∀ a x, ((![v725] : Fin 1 → IVec S16 32) a x).toNat < S10000.size a := fun v725 k1_hw282 => k1_hw282
def k1_off285 (k1_t36 : Fin k1_t36_loop.trips) : Fin 2 → Nat :=
  let c0_i32_149 : BitVec 32 := 0#32
  let c1_i32_151 : BitVec 32 := 1#32
  let arg11 : BitVec 32 := Scf.iv c0_i32_149 c1_i32_151 k1_t36
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c48_330 : Index := 48#32
  ![v730.toNat, 48]

def k1_chk283 (v731 : IVec S16 32) : Prop :=
  (∀ a x, ((![v731] : Fin 1 → IVec S16 32) a x).toNat < S10000.size a)
instance k1_chk283.dec : ∀ (v731 : IVec S16 32), Decidable (k1_chk283 v731) := fun v731 => decidable_of_iff' _ (Iff.of_eq (k1_chk283.eq_1 v731))
theorem k1_idx283_inb : ∀ (v731 : IVec S16 32) (k1_hw283 : k1_chk283 v731), ∀ a x, ((![v731] : Fin 1 → IVec S16 32) a x).toNat < S10000.size a := fun v731 k1_hw283 => k1_hw283
def k1_off286 (k1_t36 : Fin k1_t36_loop.trips) : Fin 2 → Nat :=
  let c0_i32_149 : BitVec 32 := 0#32
  let c1_i32_151 : BitVec 32 := 1#32
  let arg11 : BitVec 32 := Scf.iv c0_i32_149 c1_i32_151 k1_t36
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c48_332 : Index := 48#32
  ![v736.toNat, 48]

def k1_chk284 (v737 : IVec S16 32) : Prop :=
  (∀ a x, ((![v737] : Fin 1 → IVec S16 32) a x).toNat < S10000.size a)
instance k1_chk284.dec : ∀ (v737 : IVec S16 32), Decidable (k1_chk284 v737) := fun v737 => decidable_of_iff' _ (Iff.of_eq (k1_chk284.eq_1 v737))
theorem k1_idx284_inb : ∀ (v737 : IVec S16 32) (k1_hw284 : k1_chk284 v737), ∀ a x, ((![v737] : Fin 1 → IVec S16 32) a x).toNat < S10000.size a := fun v737 k1_hw284 => k1_hw284
def k1_off287 (k1_t36 : Fin k1_t36_loop.trips) : Fin 2 → Nat :=
  let c0_i32_149 : BitVec 32 := 0#32
  let c1_i32_151 : BitVec 32 := 1#32
  let arg11 : BitVec 32 := Scf.iv c0_i32_149 c1_i32_151 k1_t36
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c48_334 : Index := 48#32
  ![v742.toNat, 48]

def k1_chk285 (v743 : IVec S16 32) : Prop :=
  (∀ a x, ((![v743] : Fin 1 → IVec S16 32) a x).toNat < S10000.size a)
instance k1_chk285.dec : ∀ (v743 : IVec S16 32), Decidable (k1_chk285 v743) := fun v743 => decidable_of_iff' _ (Iff.of_eq (k1_chk285.eq_1 v743))
theorem k1_idx285_inb : ∀ (v743 : IVec S16 32) (k1_hw285 : k1_chk285 v743), ∀ a x, ((![v743] : Fin 1 → IVec S16 32) a x).toNat < S10000.size a := fun v743 k1_hw285 => k1_hw285
def k1_off288 (k1_t36 : Fin k1_t36_loop.trips) : Fin 2 → Nat :=
  let c0_i32_149 : BitVec 32 := 0#32
  let c1_i32_151 : BitVec 32 := 1#32
  let arg11 : BitVec 32 := Scf.iv c0_i32_149 c1_i32_151 k1_t36
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c48_336 : Index := 48#32
  ![v748.toNat, 48]

def k1_chk286 (v749 : IVec S16 32) : Prop :=
  (∀ a x, ((![v749] : Fin 1 → IVec S16 32) a x).toNat < S10000.size a)
instance k1_chk286.dec : ∀ (v749 : IVec S16 32), Decidable (k1_chk286 v749) := fun v749 => decidable_of_iff' _ (Iff.of_eq (k1_chk286.eq_1 v749))
theorem k1_idx286_inb : ∀ (v749 : IVec S16 32) (k1_hw286 : k1_chk286 v749), ∀ a x, ((![v749] : Fin 1 → IVec S16 32) a x).toNat < S10000.size a := fun v749 k1_hw286 => k1_hw286
def k1_off289 (k1_t36 : Fin k1_t36_loop.trips) : Fin 2 → Nat :=
  let c0_i32_149 : BitVec 32 := 0#32
  let c1_i32_151 : BitVec 32 := 1#32
  let arg11 : BitVec 32 := Scf.iv c0_i32_149 c1_i32_151 k1_t36
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c48_338 : Index := 48#32
  ![v754.toNat, 48]

def k1_chk287 (v755 : IVec S16 32) : Prop :=
  (∀ a x, ((![v755] : Fin 1 → IVec S16 32) a x).toNat < S10000.size a)
instance k1_chk287.dec : ∀ (v755 : IVec S16 32), Decidable (k1_chk287 v755) := fun v755 => decidable_of_iff' _ (Iff.of_eq (k1_chk287.eq_1 v755))
theorem k1_idx287_inb : ∀ (v755 : IVec S16 32) (k1_hw287 : k1_chk287 v755), ∀ a x, ((![v755] : Fin 1 → IVec S16 32) a x).toNat < S10000.size a := fun v755 k1_hw287 => k1_hw287
def k1_off290 (k1_t36 : Fin k1_t36_loop.trips) : Fin 2 → Nat :=
  let c0_i32_149 : BitVec 32 := 0#32
  let c1_i32_151 : BitVec 32 := 1#32
  let arg11 : BitVec 32 := Scf.iv c0_i32_149 c1_i32_151 k1_t36
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c48_340 : Index := 48#32
  ![v760.toNat, 48]

def k1_chk288 (v761 : IVec S16 32) : Prop :=
  (∀ a x, ((![v761] : Fin 1 → IVec S16 32) a x).toNat < S10000.size a)
instance k1_chk288.dec : ∀ (v761 : IVec S16 32), Decidable (k1_chk288 v761) := fun v761 => decidable_of_iff' _ (Iff.of_eq (k1_chk288.eq_1 v761))
theorem k1_idx288_inb : ∀ (v761 : IVec S16 32) (k1_hw288 : k1_chk288 v761), ∀ a x, ((![v761] : Fin 1 → IVec S16 32) a x).toNat < S10000.size a := fun v761 k1_hw288 => k1_hw288
@[reducible] def k1_t37_loop : Scf.Loop 32 :=
  let c0_i32_155 : BitVec 32 := 0#32
  let c12_i32_156 : BitVec 32 := 12#32
  let v380 : BitVec 32 := Scalar.addi c0_i32_155 c12_i32_156
  let c1_i32_157 : BitVec 32 := 1#32
  ⟨c0_i32_155, v380, c1_i32_157⟩
def k1_off291 (k1_t37 : Fin k1_t37_loop.trips) : Fin 2 → Nat :=
  let c0_i32_155 : BitVec 32 := 0#32
  let c1_i32_157 : BitVec 32 := 1#32
  let arg11 : BitVec 32 := Scf.iv c0_i32_155 c1_i32_157 k1_t37
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c64_324 : Index := 64#32
  ![v718.toNat, 64]

def k1_chk289 (v719 : IVec S16 32) : Prop :=
  (∀ a x, ((![v719] : Fin 1 → IVec S16 32) a x).toNat < S10000.size a)
instance k1_chk289.dec : ∀ (v719 : IVec S16 32), Decidable (k1_chk289 v719) := fun v719 => decidable_of_iff' _ (Iff.of_eq (k1_chk289.eq_1 v719))
theorem k1_idx289_inb : ∀ (v719 : IVec S16 32) (k1_hw289 : k1_chk289 v719), ∀ a x, ((![v719] : Fin 1 → IVec S16 32) a x).toNat < S10000.size a := fun v719 k1_hw289 => k1_hw289
def k1_off292 (k1_t37 : Fin k1_t37_loop.trips) : Fin 2 → Nat :=
  let c0_i32_155 : BitVec 32 := 0#32
  let c1_i32_157 : BitVec 32 := 1#32
  let arg11 : BitVec 32 := Scf.iv c0_i32_155 c1_i32_157 k1_t37
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c64_327 : Index := 64#32
  ![v724.toNat, 64]

def k1_chk290 (v725 : IVec S16 32) : Prop :=
  (∀ a x, ((![v725] : Fin 1 → IVec S16 32) a x).toNat < S10000.size a)
instance k1_chk290.dec : ∀ (v725 : IVec S16 32), Decidable (k1_chk290 v725) := fun v725 => decidable_of_iff' _ (Iff.of_eq (k1_chk290.eq_1 v725))
theorem k1_idx290_inb : ∀ (v725 : IVec S16 32) (k1_hw290 : k1_chk290 v725), ∀ a x, ((![v725] : Fin 1 → IVec S16 32) a x).toNat < S10000.size a := fun v725 k1_hw290 => k1_hw290
def k1_off293 (k1_t37 : Fin k1_t37_loop.trips) : Fin 2 → Nat :=
  let c0_i32_155 : BitVec 32 := 0#32
  let c1_i32_157 : BitVec 32 := 1#32
  let arg11 : BitVec 32 := Scf.iv c0_i32_155 c1_i32_157 k1_t37
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c64_330 : Index := 64#32
  ![v730.toNat, 64]

def k1_chk291 (v731 : IVec S16 32) : Prop :=
  (∀ a x, ((![v731] : Fin 1 → IVec S16 32) a x).toNat < S10000.size a)
instance k1_chk291.dec : ∀ (v731 : IVec S16 32), Decidable (k1_chk291 v731) := fun v731 => decidable_of_iff' _ (Iff.of_eq (k1_chk291.eq_1 v731))
theorem k1_idx291_inb : ∀ (v731 : IVec S16 32) (k1_hw291 : k1_chk291 v731), ∀ a x, ((![v731] : Fin 1 → IVec S16 32) a x).toNat < S10000.size a := fun v731 k1_hw291 => k1_hw291
def k1_off294 (k1_t37 : Fin k1_t37_loop.trips) : Fin 2 → Nat :=
  let c0_i32_155 : BitVec 32 := 0#32
  let c1_i32_157 : BitVec 32 := 1#32
  let arg11 : BitVec 32 := Scf.iv c0_i32_155 c1_i32_157 k1_t37
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c64_332 : Index := 64#32
  ![v736.toNat, 64]

def k1_chk292 (v737 : IVec S16 32) : Prop :=
  (∀ a x, ((![v737] : Fin 1 → IVec S16 32) a x).toNat < S10000.size a)
instance k1_chk292.dec : ∀ (v737 : IVec S16 32), Decidable (k1_chk292 v737) := fun v737 => decidable_of_iff' _ (Iff.of_eq (k1_chk292.eq_1 v737))
theorem k1_idx292_inb : ∀ (v737 : IVec S16 32) (k1_hw292 : k1_chk292 v737), ∀ a x, ((![v737] : Fin 1 → IVec S16 32) a x).toNat < S10000.size a := fun v737 k1_hw292 => k1_hw292
def k1_off295 (k1_t37 : Fin k1_t37_loop.trips) : Fin 2 → Nat :=
  let c0_i32_155 : BitVec 32 := 0#32
  let c1_i32_157 : BitVec 32 := 1#32
  let arg11 : BitVec 32 := Scf.iv c0_i32_155 c1_i32_157 k1_t37
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c64_334 : Index := 64#32
  ![v742.toNat, 64]

def k1_chk293 (v743 : IVec S16 32) : Prop :=
  (∀ a x, ((![v743] : Fin 1 → IVec S16 32) a x).toNat < S10000.size a)
instance k1_chk293.dec : ∀ (v743 : IVec S16 32), Decidable (k1_chk293 v743) := fun v743 => decidable_of_iff' _ (Iff.of_eq (k1_chk293.eq_1 v743))
theorem k1_idx293_inb : ∀ (v743 : IVec S16 32) (k1_hw293 : k1_chk293 v743), ∀ a x, ((![v743] : Fin 1 → IVec S16 32) a x).toNat < S10000.size a := fun v743 k1_hw293 => k1_hw293
def k1_off296 (k1_t37 : Fin k1_t37_loop.trips) : Fin 2 → Nat :=
  let c0_i32_155 : BitVec 32 := 0#32
  let c1_i32_157 : BitVec 32 := 1#32
  let arg11 : BitVec 32 := Scf.iv c0_i32_155 c1_i32_157 k1_t37
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c64_336 : Index := 64#32
  ![v748.toNat, 64]

def k1_chk294 (v749 : IVec S16 32) : Prop :=
  (∀ a x, ((![v749] : Fin 1 → IVec S16 32) a x).toNat < S10000.size a)
instance k1_chk294.dec : ∀ (v749 : IVec S16 32), Decidable (k1_chk294 v749) := fun v749 => decidable_of_iff' _ (Iff.of_eq (k1_chk294.eq_1 v749))
theorem k1_idx294_inb : ∀ (v749 : IVec S16 32) (k1_hw294 : k1_chk294 v749), ∀ a x, ((![v749] : Fin 1 → IVec S16 32) a x).toNat < S10000.size a := fun v749 k1_hw294 => k1_hw294
def k1_off297 (k1_t37 : Fin k1_t37_loop.trips) : Fin 2 → Nat :=
  let c0_i32_155 : BitVec 32 := 0#32
  let c1_i32_157 : BitVec 32 := 1#32
  let arg11 : BitVec 32 := Scf.iv c0_i32_155 c1_i32_157 k1_t37
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c64_338 : Index := 64#32
  ![v754.toNat, 64]

def k1_chk295 (v755 : IVec S16 32) : Prop :=
  (∀ a x, ((![v755] : Fin 1 → IVec S16 32) a x).toNat < S10000.size a)
instance k1_chk295.dec : ∀ (v755 : IVec S16 32), Decidable (k1_chk295 v755) := fun v755 => decidable_of_iff' _ (Iff.of_eq (k1_chk295.eq_1 v755))
theorem k1_idx295_inb : ∀ (v755 : IVec S16 32) (k1_hw295 : k1_chk295 v755), ∀ a x, ((![v755] : Fin 1 → IVec S16 32) a x).toNat < S10000.size a := fun v755 k1_hw295 => k1_hw295
def k1_off298 (k1_t37 : Fin k1_t37_loop.trips) : Fin 2 → Nat :=
  let c0_i32_155 : BitVec 32 := 0#32
  let c1_i32_157 : BitVec 32 := 1#32
  let arg11 : BitVec 32 := Scf.iv c0_i32_155 c1_i32_157 k1_t37
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c64_340 : Index := 64#32
  ![v760.toNat, 64]

def k1_chk296 (v761 : IVec S16 32) : Prop :=
  (∀ a x, ((![v761] : Fin 1 → IVec S16 32) a x).toNat < S10000.size a)
instance k1_chk296.dec : ∀ (v761 : IVec S16 32), Decidable (k1_chk296 v761) := fun v761 => decidable_of_iff' _ (Iff.of_eq (k1_chk296.eq_1 v761))
theorem k1_idx296_inb : ∀ (v761 : IVec S16 32) (k1_hw296 : k1_chk296 v761), ∀ a x, ((![v761] : Fin 1 → IVec S16 32) a x).toNat < S10000.size a := fun v761 k1_hw296 => k1_hw296
@[reducible] def k1_t38_loop : Scf.Loop 32 :=
  let c0_i32_161 : BitVec 32 := 0#32
  let c12_i32_162 : BitVec 32 := 12#32
  let v392 : BitVec 32 := Scalar.addi c0_i32_161 c12_i32_162
  let c1_i32_163 : BitVec 32 := 1#32
  ⟨c0_i32_161, v392, c1_i32_163⟩
def k1_off299 (k1_t38 : Fin k1_t38_loop.trips) : Fin 2 → Nat :=
  let c0_i32_161 : BitVec 32 := 0#32
  let c1_i32_163 : BitVec 32 := 1#32
  let arg11 : BitVec 32 := Scf.iv c0_i32_161 c1_i32_163 k1_t38
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c80_324 : Index := 80#32
  ![v718.toNat, 80]

def k1_chk297 (v719 : IVec S16 32) : Prop :=
  (∀ a x, ((![v719] : Fin 1 → IVec S16 32) a x).toNat < S10000.size a)
instance k1_chk297.dec : ∀ (v719 : IVec S16 32), Decidable (k1_chk297 v719) := fun v719 => decidable_of_iff' _ (Iff.of_eq (k1_chk297.eq_1 v719))
theorem k1_idx297_inb : ∀ (v719 : IVec S16 32) (k1_hw297 : k1_chk297 v719), ∀ a x, ((![v719] : Fin 1 → IVec S16 32) a x).toNat < S10000.size a := fun v719 k1_hw297 => k1_hw297
def k1_off300 (k1_t38 : Fin k1_t38_loop.trips) : Fin 2 → Nat :=
  let c0_i32_161 : BitVec 32 := 0#32
  let c1_i32_163 : BitVec 32 := 1#32
  let arg11 : BitVec 32 := Scf.iv c0_i32_161 c1_i32_163 k1_t38
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c80_327 : Index := 80#32
  ![v724.toNat, 80]

def k1_chk298 (v725 : IVec S16 32) : Prop :=
  (∀ a x, ((![v725] : Fin 1 → IVec S16 32) a x).toNat < S10000.size a)
instance k1_chk298.dec : ∀ (v725 : IVec S16 32), Decidable (k1_chk298 v725) := fun v725 => decidable_of_iff' _ (Iff.of_eq (k1_chk298.eq_1 v725))
theorem k1_idx298_inb : ∀ (v725 : IVec S16 32) (k1_hw298 : k1_chk298 v725), ∀ a x, ((![v725] : Fin 1 → IVec S16 32) a x).toNat < S10000.size a := fun v725 k1_hw298 => k1_hw298
def k1_off301 (k1_t38 : Fin k1_t38_loop.trips) : Fin 2 → Nat :=
  let c0_i32_161 : BitVec 32 := 0#32
  let c1_i32_163 : BitVec 32 := 1#32
  let arg11 : BitVec 32 := Scf.iv c0_i32_161 c1_i32_163 k1_t38
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c80_330 : Index := 80#32
  ![v730.toNat, 80]

def k1_chk299 (v731 : IVec S16 32) : Prop :=
  (∀ a x, ((![v731] : Fin 1 → IVec S16 32) a x).toNat < S10000.size a)
instance k1_chk299.dec : ∀ (v731 : IVec S16 32), Decidable (k1_chk299 v731) := fun v731 => decidable_of_iff' _ (Iff.of_eq (k1_chk299.eq_1 v731))
theorem k1_idx299_inb : ∀ (v731 : IVec S16 32) (k1_hw299 : k1_chk299 v731), ∀ a x, ((![v731] : Fin 1 → IVec S16 32) a x).toNat < S10000.size a := fun v731 k1_hw299 => k1_hw299
def k1_off302 (k1_t38 : Fin k1_t38_loop.trips) : Fin 2 → Nat :=
  let c0_i32_161 : BitVec 32 := 0#32
  let c1_i32_163 : BitVec 32 := 1#32
  let arg11 : BitVec 32 := Scf.iv c0_i32_161 c1_i32_163 k1_t38
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c80_332 : Index := 80#32
  ![v736.toNat, 80]

def k1_chk300 (v737 : IVec S16 32) : Prop :=
  (∀ a x, ((![v737] : Fin 1 → IVec S16 32) a x).toNat < S10000.size a)
instance k1_chk300.dec : ∀ (v737 : IVec S16 32), Decidable (k1_chk300 v737) := fun v737 => decidable_of_iff' _ (Iff.of_eq (k1_chk300.eq_1 v737))
theorem k1_idx300_inb : ∀ (v737 : IVec S16 32) (k1_hw300 : k1_chk300 v737), ∀ a x, ((![v737] : Fin 1 → IVec S16 32) a x).toNat < S10000.size a := fun v737 k1_hw300 => k1_hw300
def k1_off303 (k1_t38 : Fin k1_t38_loop.trips) : Fin 2 → Nat :=
  let c0_i32_161 : BitVec 32 := 0#32
  let c1_i32_163 : BitVec 32 := 1#32
  let arg11 : BitVec 32 := Scf.iv c0_i32_161 c1_i32_163 k1_t38
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c80_334 : Index := 80#32
  ![v742.toNat, 80]

def k1_chk301 (v743 : IVec S16 32) : Prop :=
  (∀ a x, ((![v743] : Fin 1 → IVec S16 32) a x).toNat < S10000.size a)
instance k1_chk301.dec : ∀ (v743 : IVec S16 32), Decidable (k1_chk301 v743) := fun v743 => decidable_of_iff' _ (Iff.of_eq (k1_chk301.eq_1 v743))
theorem k1_idx301_inb : ∀ (v743 : IVec S16 32) (k1_hw301 : k1_chk301 v743), ∀ a x, ((![v743] : Fin 1 → IVec S16 32) a x).toNat < S10000.size a := fun v743 k1_hw301 => k1_hw301
def k1_off304 (k1_t38 : Fin k1_t38_loop.trips) : Fin 2 → Nat :=
  let c0_i32_161 : BitVec 32 := 0#32
  let c1_i32_163 : BitVec 32 := 1#32
  let arg11 : BitVec 32 := Scf.iv c0_i32_161 c1_i32_163 k1_t38
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c80_336 : Index := 80#32
  ![v748.toNat, 80]

def k1_chk302 (v749 : IVec S16 32) : Prop :=
  (∀ a x, ((![v749] : Fin 1 → IVec S16 32) a x).toNat < S10000.size a)
instance k1_chk302.dec : ∀ (v749 : IVec S16 32), Decidable (k1_chk302 v749) := fun v749 => decidable_of_iff' _ (Iff.of_eq (k1_chk302.eq_1 v749))
theorem k1_idx302_inb : ∀ (v749 : IVec S16 32) (k1_hw302 : k1_chk302 v749), ∀ a x, ((![v749] : Fin 1 → IVec S16 32) a x).toNat < S10000.size a := fun v749 k1_hw302 => k1_hw302
def k1_off305 (k1_t38 : Fin k1_t38_loop.trips) : Fin 2 → Nat :=
  let c0_i32_161 : BitVec 32 := 0#32
  let c1_i32_163 : BitVec 32 := 1#32
  let arg11 : BitVec 32 := Scf.iv c0_i32_161 c1_i32_163 k1_t38
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c80_338 : Index := 80#32
  ![v754.toNat, 80]

def k1_chk303 (v755 : IVec S16 32) : Prop :=
  (∀ a x, ((![v755] : Fin 1 → IVec S16 32) a x).toNat < S10000.size a)
instance k1_chk303.dec : ∀ (v755 : IVec S16 32), Decidable (k1_chk303 v755) := fun v755 => decidable_of_iff' _ (Iff.of_eq (k1_chk303.eq_1 v755))
theorem k1_idx303_inb : ∀ (v755 : IVec S16 32) (k1_hw303 : k1_chk303 v755), ∀ a x, ((![v755] : Fin 1 → IVec S16 32) a x).toNat < S10000.size a := fun v755 k1_hw303 => k1_hw303
def k1_off306 (k1_t38 : Fin k1_t38_loop.trips) : Fin 2 → Nat :=
  let c0_i32_161 : BitVec 32 := 0#32
  let c1_i32_163 : BitVec 32 := 1#32
  let arg11 : BitVec 32 := Scf.iv c0_i32_161 c1_i32_163 k1_t38
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c80_340 : Index := 80#32
  ![v760.toNat, 80]

def k1_chk304 (v761 : IVec S16 32) : Prop :=
  (∀ a x, ((![v761] : Fin 1 → IVec S16 32) a x).toNat < S10000.size a)
instance k1_chk304.dec : ∀ (v761 : IVec S16 32), Decidable (k1_chk304 v761) := fun v761 => decidable_of_iff' _ (Iff.of_eq (k1_chk304.eq_1 v761))
theorem k1_idx304_inb : ∀ (v761 : IVec S16 32) (k1_hw304 : k1_chk304 v761), ∀ a x, ((![v761] : Fin 1 → IVec S16 32) a x).toNat < S10000.size a := fun v761 k1_hw304 => k1_hw304
@[reducible] def k1_t39_loop : Scf.Loop 32 :=
  let c0_i32_167 : BitVec 32 := 0#32
  let c12_i32_168 : BitVec 32 := 12#32
  let v404 : BitVec 32 := Scalar.addi c0_i32_167 c12_i32_168
  let c1_i32_169 : BitVec 32 := 1#32
  ⟨c0_i32_167, v404, c1_i32_169⟩
def k1_off307 (k1_t39 : Fin k1_t39_loop.trips) : Fin 2 → Nat :=
  let c0_i32_167 : BitVec 32 := 0#32
  let c1_i32_169 : BitVec 32 := 1#32
  let arg11 : BitVec 32 := Scf.iv c0_i32_167 c1_i32_169 k1_t39
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c96_324 : Index := 96#32
  ![v718.toNat, 96]

def k1_chk305 (v719 : IVec S16 32) : Prop :=
  (∀ a x, ((![v719] : Fin 1 → IVec S16 32) a x).toNat < S10000.size a)
instance k1_chk305.dec : ∀ (v719 : IVec S16 32), Decidable (k1_chk305 v719) := fun v719 => decidable_of_iff' _ (Iff.of_eq (k1_chk305.eq_1 v719))
theorem k1_idx305_inb : ∀ (v719 : IVec S16 32) (k1_hw305 : k1_chk305 v719), ∀ a x, ((![v719] : Fin 1 → IVec S16 32) a x).toNat < S10000.size a := fun v719 k1_hw305 => k1_hw305
def k1_off308 (k1_t39 : Fin k1_t39_loop.trips) : Fin 2 → Nat :=
  let c0_i32_167 : BitVec 32 := 0#32
  let c1_i32_169 : BitVec 32 := 1#32
  let arg11 : BitVec 32 := Scf.iv c0_i32_167 c1_i32_169 k1_t39
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c96_327 : Index := 96#32
  ![v724.toNat, 96]

def k1_chk306 (v725 : IVec S16 32) : Prop :=
  (∀ a x, ((![v725] : Fin 1 → IVec S16 32) a x).toNat < S10000.size a)
instance k1_chk306.dec : ∀ (v725 : IVec S16 32), Decidable (k1_chk306 v725) := fun v725 => decidable_of_iff' _ (Iff.of_eq (k1_chk306.eq_1 v725))
theorem k1_idx306_inb : ∀ (v725 : IVec S16 32) (k1_hw306 : k1_chk306 v725), ∀ a x, ((![v725] : Fin 1 → IVec S16 32) a x).toNat < S10000.size a := fun v725 k1_hw306 => k1_hw306
def k1_off309 (k1_t39 : Fin k1_t39_loop.trips) : Fin 2 → Nat :=
  let c0_i32_167 : BitVec 32 := 0#32
  let c1_i32_169 : BitVec 32 := 1#32
  let arg11 : BitVec 32 := Scf.iv c0_i32_167 c1_i32_169 k1_t39
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c96_330 : Index := 96#32
  ![v730.toNat, 96]

def k1_chk307 (v731 : IVec S16 32) : Prop :=
  (∀ a x, ((![v731] : Fin 1 → IVec S16 32) a x).toNat < S10000.size a)
instance k1_chk307.dec : ∀ (v731 : IVec S16 32), Decidable (k1_chk307 v731) := fun v731 => decidable_of_iff' _ (Iff.of_eq (k1_chk307.eq_1 v731))
theorem k1_idx307_inb : ∀ (v731 : IVec S16 32) (k1_hw307 : k1_chk307 v731), ∀ a x, ((![v731] : Fin 1 → IVec S16 32) a x).toNat < S10000.size a := fun v731 k1_hw307 => k1_hw307
def k1_off310 (k1_t39 : Fin k1_t39_loop.trips) : Fin 2 → Nat :=
  let c0_i32_167 : BitVec 32 := 0#32
  let c1_i32_169 : BitVec 32 := 1#32
  let arg11 : BitVec 32 := Scf.iv c0_i32_167 c1_i32_169 k1_t39
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c96_332 : Index := 96#32
  ![v736.toNat, 96]

def k1_chk308 (v737 : IVec S16 32) : Prop :=
  (∀ a x, ((![v737] : Fin 1 → IVec S16 32) a x).toNat < S10000.size a)
instance k1_chk308.dec : ∀ (v737 : IVec S16 32), Decidable (k1_chk308 v737) := fun v737 => decidable_of_iff' _ (Iff.of_eq (k1_chk308.eq_1 v737))
theorem k1_idx308_inb : ∀ (v737 : IVec S16 32) (k1_hw308 : k1_chk308 v737), ∀ a x, ((![v737] : Fin 1 → IVec S16 32) a x).toNat < S10000.size a := fun v737 k1_hw308 => k1_hw308
def k1_off311 (k1_t39 : Fin k1_t39_loop.trips) : Fin 2 → Nat :=
  let c0_i32_167 : BitVec 32 := 0#32
  let c1_i32_169 : BitVec 32 := 1#32
  let arg11 : BitVec 32 := Scf.iv c0_i32_167 c1_i32_169 k1_t39
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c96_334 : Index := 96#32
  ![v742.toNat, 96]

def k1_chk309 (v743 : IVec S16 32) : Prop :=
  (∀ a x, ((![v743] : Fin 1 → IVec S16 32) a x).toNat < S10000.size a)
instance k1_chk309.dec : ∀ (v743 : IVec S16 32), Decidable (k1_chk309 v743) := fun v743 => decidable_of_iff' _ (Iff.of_eq (k1_chk309.eq_1 v743))
theorem k1_idx309_inb : ∀ (v743 : IVec S16 32) (k1_hw309 : k1_chk309 v743), ∀ a x, ((![v743] : Fin 1 → IVec S16 32) a x).toNat < S10000.size a := fun v743 k1_hw309 => k1_hw309
def k1_off312 (k1_t39 : Fin k1_t39_loop.trips) : Fin 2 → Nat :=
  let c0_i32_167 : BitVec 32 := 0#32
  let c1_i32_169 : BitVec 32 := 1#32
  let arg11 : BitVec 32 := Scf.iv c0_i32_167 c1_i32_169 k1_t39
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c96_336 : Index := 96#32
  ![v748.toNat, 96]

def k1_chk310 (v749 : IVec S16 32) : Prop :=
  (∀ a x, ((![v749] : Fin 1 → IVec S16 32) a x).toNat < S10000.size a)
instance k1_chk310.dec : ∀ (v749 : IVec S16 32), Decidable (k1_chk310 v749) := fun v749 => decidable_of_iff' _ (Iff.of_eq (k1_chk310.eq_1 v749))
theorem k1_idx310_inb : ∀ (v749 : IVec S16 32) (k1_hw310 : k1_chk310 v749), ∀ a x, ((![v749] : Fin 1 → IVec S16 32) a x).toNat < S10000.size a := fun v749 k1_hw310 => k1_hw310
def k1_off313 (k1_t39 : Fin k1_t39_loop.trips) : Fin 2 → Nat :=
  let c0_i32_167 : BitVec 32 := 0#32
  let c1_i32_169 : BitVec 32 := 1#32
  let arg11 : BitVec 32 := Scf.iv c0_i32_167 c1_i32_169 k1_t39
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c96_338 : Index := 96#32
  ![v754.toNat, 96]

def k1_chk311 (v755 : IVec S16 32) : Prop :=
  (∀ a x, ((![v755] : Fin 1 → IVec S16 32) a x).toNat < S10000.size a)
instance k1_chk311.dec : ∀ (v755 : IVec S16 32), Decidable (k1_chk311 v755) := fun v755 => decidable_of_iff' _ (Iff.of_eq (k1_chk311.eq_1 v755))
theorem k1_idx311_inb : ∀ (v755 : IVec S16 32) (k1_hw311 : k1_chk311 v755), ∀ a x, ((![v755] : Fin 1 → IVec S16 32) a x).toNat < S10000.size a := fun v755 k1_hw311 => k1_hw311
def k1_off314 (k1_t39 : Fin k1_t39_loop.trips) : Fin 2 → Nat :=
  let c0_i32_167 : BitVec 32 := 0#32
  let c1_i32_169 : BitVec 32 := 1#32
  let arg11 : BitVec 32 := Scf.iv c0_i32_167 c1_i32_169 k1_t39
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c96_340 : Index := 96#32
  ![v760.toNat, 96]

def k1_chk312 (v761 : IVec S16 32) : Prop :=
  (∀ a x, ((![v761] : Fin 1 → IVec S16 32) a x).toNat < S10000.size a)
instance k1_chk312.dec : ∀ (v761 : IVec S16 32), Decidable (k1_chk312 v761) := fun v761 => decidable_of_iff' _ (Iff.of_eq (k1_chk312.eq_1 v761))
theorem k1_idx312_inb : ∀ (v761 : IVec S16 32) (k1_hw312 : k1_chk312 v761), ∀ a x, ((![v761] : Fin 1 → IVec S16 32) a x).toNat < S10000.size a := fun v761 k1_hw312 => k1_hw312
@[reducible] def k1_t40_loop : Scf.Loop 32 :=
  let c0_i32_173 : BitVec 32 := 0#32
  let c12_i32_174 : BitVec 32 := 12#32
  let v416 : BitVec 32 := Scalar.addi c0_i32_173 c12_i32_174
  let c1_i32_175 : BitVec 32 := 1#32
  ⟨c0_i32_173, v416, c1_i32_175⟩
def k1_off315 (k1_t40 : Fin k1_t40_loop.trips) : Fin 2 → Nat :=
  let c0_i32_173 : BitVec 32 := 0#32
  let c1_i32_175 : BitVec 32 := 1#32
  let arg11 : BitVec 32 := Scf.iv c0_i32_173 c1_i32_175 k1_t40
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c112_324 : Index := 112#32
  ![v718.toNat, 112]

def k1_chk313 (v719 : IVec S16 32) : Prop :=
  (∀ a x, ((![v719] : Fin 1 → IVec S16 32) a x).toNat < S10000.size a)
instance k1_chk313.dec : ∀ (v719 : IVec S16 32), Decidable (k1_chk313 v719) := fun v719 => decidable_of_iff' _ (Iff.of_eq (k1_chk313.eq_1 v719))
theorem k1_idx313_inb : ∀ (v719 : IVec S16 32) (k1_hw313 : k1_chk313 v719), ∀ a x, ((![v719] : Fin 1 → IVec S16 32) a x).toNat < S10000.size a := fun v719 k1_hw313 => k1_hw313
def k1_off316 (k1_t40 : Fin k1_t40_loop.trips) : Fin 2 → Nat :=
  let c0_i32_173 : BitVec 32 := 0#32
  let c1_i32_175 : BitVec 32 := 1#32
  let arg11 : BitVec 32 := Scf.iv c0_i32_173 c1_i32_175 k1_t40
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c112_327 : Index := 112#32
  ![v724.toNat, 112]

def k1_chk314 (v725 : IVec S16 32) : Prop :=
  (∀ a x, ((![v725] : Fin 1 → IVec S16 32) a x).toNat < S10000.size a)
instance k1_chk314.dec : ∀ (v725 : IVec S16 32), Decidable (k1_chk314 v725) := fun v725 => decidable_of_iff' _ (Iff.of_eq (k1_chk314.eq_1 v725))
theorem k1_idx314_inb : ∀ (v725 : IVec S16 32) (k1_hw314 : k1_chk314 v725), ∀ a x, ((![v725] : Fin 1 → IVec S16 32) a x).toNat < S10000.size a := fun v725 k1_hw314 => k1_hw314
def k1_off317 (k1_t40 : Fin k1_t40_loop.trips) : Fin 2 → Nat :=
  let c0_i32_173 : BitVec 32 := 0#32
  let c1_i32_175 : BitVec 32 := 1#32
  let arg11 : BitVec 32 := Scf.iv c0_i32_173 c1_i32_175 k1_t40
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c112_330 : Index := 112#32
  ![v730.toNat, 112]

def k1_chk315 (v731 : IVec S16 32) : Prop :=
  (∀ a x, ((![v731] : Fin 1 → IVec S16 32) a x).toNat < S10000.size a)
instance k1_chk315.dec : ∀ (v731 : IVec S16 32), Decidable (k1_chk315 v731) := fun v731 => decidable_of_iff' _ (Iff.of_eq (k1_chk315.eq_1 v731))
theorem k1_idx315_inb : ∀ (v731 : IVec S16 32) (k1_hw315 : k1_chk315 v731), ∀ a x, ((![v731] : Fin 1 → IVec S16 32) a x).toNat < S10000.size a := fun v731 k1_hw315 => k1_hw315
def k1_off318 (k1_t40 : Fin k1_t40_loop.trips) : Fin 2 → Nat :=
  let c0_i32_173 : BitVec 32 := 0#32
  let c1_i32_175 : BitVec 32 := 1#32
  let arg11 : BitVec 32 := Scf.iv c0_i32_173 c1_i32_175 k1_t40
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c112_332 : Index := 112#32
  ![v736.toNat, 112]

def k1_chk316 (v737 : IVec S16 32) : Prop :=
  (∀ a x, ((![v737] : Fin 1 → IVec S16 32) a x).toNat < S10000.size a)
instance k1_chk316.dec : ∀ (v737 : IVec S16 32), Decidable (k1_chk316 v737) := fun v737 => decidable_of_iff' _ (Iff.of_eq (k1_chk316.eq_1 v737))
theorem k1_idx316_inb : ∀ (v737 : IVec S16 32) (k1_hw316 : k1_chk316 v737), ∀ a x, ((![v737] : Fin 1 → IVec S16 32) a x).toNat < S10000.size a := fun v737 k1_hw316 => k1_hw316
def k1_off319 (k1_t40 : Fin k1_t40_loop.trips) : Fin 2 → Nat :=
  let c0_i32_173 : BitVec 32 := 0#32
  let c1_i32_175 : BitVec 32 := 1#32
  let arg11 : BitVec 32 := Scf.iv c0_i32_173 c1_i32_175 k1_t40
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c112_334 : Index := 112#32
  ![v742.toNat, 112]

def k1_chk317 (v743 : IVec S16 32) : Prop :=
  (∀ a x, ((![v743] : Fin 1 → IVec S16 32) a x).toNat < S10000.size a)
instance k1_chk317.dec : ∀ (v743 : IVec S16 32), Decidable (k1_chk317 v743) := fun v743 => decidable_of_iff' _ (Iff.of_eq (k1_chk317.eq_1 v743))
theorem k1_idx317_inb : ∀ (v743 : IVec S16 32) (k1_hw317 : k1_chk317 v743), ∀ a x, ((![v743] : Fin 1 → IVec S16 32) a x).toNat < S10000.size a := fun v743 k1_hw317 => k1_hw317
def k1_off320 (k1_t40 : Fin k1_t40_loop.trips) : Fin 2 → Nat :=
  let c0_i32_173 : BitVec 32 := 0#32
  let c1_i32_175 : BitVec 32 := 1#32
  let arg11 : BitVec 32 := Scf.iv c0_i32_173 c1_i32_175 k1_t40
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c112_336 : Index := 112#32
  ![v748.toNat, 112]

def k1_chk318 (v749 : IVec S16 32) : Prop :=
  (∀ a x, ((![v749] : Fin 1 → IVec S16 32) a x).toNat < S10000.size a)
instance k1_chk318.dec : ∀ (v749 : IVec S16 32), Decidable (k1_chk318 v749) := fun v749 => decidable_of_iff' _ (Iff.of_eq (k1_chk318.eq_1 v749))
theorem k1_idx318_inb : ∀ (v749 : IVec S16 32) (k1_hw318 : k1_chk318 v749), ∀ a x, ((![v749] : Fin 1 → IVec S16 32) a x).toNat < S10000.size a := fun v749 k1_hw318 => k1_hw318
def k1_off321 (k1_t40 : Fin k1_t40_loop.trips) : Fin 2 → Nat :=
  let c0_i32_173 : BitVec 32 := 0#32
  let c1_i32_175 : BitVec 32 := 1#32
  let arg11 : BitVec 32 := Scf.iv c0_i32_173 c1_i32_175 k1_t40
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c112_338 : Index := 112#32
  ![v754.toNat, 112]

def k1_chk319 (v755 : IVec S16 32) : Prop :=
  (∀ a x, ((![v755] : Fin 1 → IVec S16 32) a x).toNat < S10000.size a)
instance k1_chk319.dec : ∀ (v755 : IVec S16 32), Decidable (k1_chk319 v755) := fun v755 => decidable_of_iff' _ (Iff.of_eq (k1_chk319.eq_1 v755))
theorem k1_idx319_inb : ∀ (v755 : IVec S16 32) (k1_hw319 : k1_chk319 v755), ∀ a x, ((![v755] : Fin 1 → IVec S16 32) a x).toNat < S10000.size a := fun v755 k1_hw319 => k1_hw319
def k1_off322 (k1_t40 : Fin k1_t40_loop.trips) : Fin 2 → Nat :=
  let c0_i32_173 : BitVec 32 := 0#32
  let c1_i32_175 : BitVec 32 := 1#32
  let arg11 : BitVec 32 := Scf.iv c0_i32_173 c1_i32_175 k1_t40
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c112_340 : Index := 112#32
  ![v760.toNat, 112]

def k1_chk320 (v761 : IVec S16 32) : Prop :=
  (∀ a x, ((![v761] : Fin 1 → IVec S16 32) a x).toNat < S10000.size a)
instance k1_chk320.dec : ∀ (v761 : IVec S16 32), Decidable (k1_chk320 v761) := fun v761 => decidable_of_iff' _ (Iff.of_eq (k1_chk320.eq_1 v761))
theorem k1_idx320_inb : ∀ (v761 : IVec S16 32) (k1_hw320 : k1_chk320 v761), ∀ a x, ((![v761] : Fin 1 → IVec S16 32) a x).toNat < S10000.size a := fun v761 k1_hw320 => k1_hw320
@[reducible] def k1_t41_loop : Scf.Loop 32 :=
  let c0_i32_179 : BitVec 32 := 0#32
  let c12_i32_180 : BitVec 32 := 12#32
  let v428 : BitVec 32 := Scalar.addi c0_i32_179 c12_i32_180
  let c1_i32_181 : BitVec 32 := 1#32
  ⟨c0_i32_179, v428, c1_i32_181⟩
def k1_off323 (k1_t41 : Fin k1_t41_loop.trips) : Fin 2 → Nat :=
  let c0_i32_179 : BitVec 32 := 0#32
  let c1_i32_181 : BitVec 32 := 1#32
  let arg11 : BitVec 32 := Scf.iv c0_i32_179 c1_i32_181 k1_t41
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c128_324 : Index := 128#32
  ![v718.toNat, 128]

def k1_chk321 (v719 : IVec S16 32) : Prop :=
  (∀ a x, ((![v719] : Fin 1 → IVec S16 32) a x).toNat < S10000.size a)
instance k1_chk321.dec : ∀ (v719 : IVec S16 32), Decidable (k1_chk321 v719) := fun v719 => decidable_of_iff' _ (Iff.of_eq (k1_chk321.eq_1 v719))
theorem k1_idx321_inb : ∀ (v719 : IVec S16 32) (k1_hw321 : k1_chk321 v719), ∀ a x, ((![v719] : Fin 1 → IVec S16 32) a x).toNat < S10000.size a := fun v719 k1_hw321 => k1_hw321
def k1_off324 (k1_t41 : Fin k1_t41_loop.trips) : Fin 2 → Nat :=
  let c0_i32_179 : BitVec 32 := 0#32
  let c1_i32_181 : BitVec 32 := 1#32
  let arg11 : BitVec 32 := Scf.iv c0_i32_179 c1_i32_181 k1_t41
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c128_327 : Index := 128#32
  ![v724.toNat, 128]

def k1_chk322 (v725 : IVec S16 32) : Prop :=
  (∀ a x, ((![v725] : Fin 1 → IVec S16 32) a x).toNat < S10000.size a)
instance k1_chk322.dec : ∀ (v725 : IVec S16 32), Decidable (k1_chk322 v725) := fun v725 => decidable_of_iff' _ (Iff.of_eq (k1_chk322.eq_1 v725))
theorem k1_idx322_inb : ∀ (v725 : IVec S16 32) (k1_hw322 : k1_chk322 v725), ∀ a x, ((![v725] : Fin 1 → IVec S16 32) a x).toNat < S10000.size a := fun v725 k1_hw322 => k1_hw322
def k1_off325 (k1_t41 : Fin k1_t41_loop.trips) : Fin 2 → Nat :=
  let c0_i32_179 : BitVec 32 := 0#32
  let c1_i32_181 : BitVec 32 := 1#32
  let arg11 : BitVec 32 := Scf.iv c0_i32_179 c1_i32_181 k1_t41
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c128_330 : Index := 128#32
  ![v730.toNat, 128]

def k1_chk323 (v731 : IVec S16 32) : Prop :=
  (∀ a x, ((![v731] : Fin 1 → IVec S16 32) a x).toNat < S10000.size a)
instance k1_chk323.dec : ∀ (v731 : IVec S16 32), Decidable (k1_chk323 v731) := fun v731 => decidable_of_iff' _ (Iff.of_eq (k1_chk323.eq_1 v731))
theorem k1_idx323_inb : ∀ (v731 : IVec S16 32) (k1_hw323 : k1_chk323 v731), ∀ a x, ((![v731] : Fin 1 → IVec S16 32) a x).toNat < S10000.size a := fun v731 k1_hw323 => k1_hw323
def k1_off326 (k1_t41 : Fin k1_t41_loop.trips) : Fin 2 → Nat :=
  let c0_i32_179 : BitVec 32 := 0#32
  let c1_i32_181 : BitVec 32 := 1#32
  let arg11 : BitVec 32 := Scf.iv c0_i32_179 c1_i32_181 k1_t41
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c128_332 : Index := 128#32
  ![v736.toNat, 128]

def k1_chk324 (v737 : IVec S16 32) : Prop :=
  (∀ a x, ((![v737] : Fin 1 → IVec S16 32) a x).toNat < S10000.size a)
instance k1_chk324.dec : ∀ (v737 : IVec S16 32), Decidable (k1_chk324 v737) := fun v737 => decidable_of_iff' _ (Iff.of_eq (k1_chk324.eq_1 v737))
theorem k1_idx324_inb : ∀ (v737 : IVec S16 32) (k1_hw324 : k1_chk324 v737), ∀ a x, ((![v737] : Fin 1 → IVec S16 32) a x).toNat < S10000.size a := fun v737 k1_hw324 => k1_hw324
def k1_off327 (k1_t41 : Fin k1_t41_loop.trips) : Fin 2 → Nat :=
  let c0_i32_179 : BitVec 32 := 0#32
  let c1_i32_181 : BitVec 32 := 1#32
  let arg11 : BitVec 32 := Scf.iv c0_i32_179 c1_i32_181 k1_t41
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c128_334 : Index := 128#32
  ![v742.toNat, 128]

def k1_chk325 (v743 : IVec S16 32) : Prop :=
  (∀ a x, ((![v743] : Fin 1 → IVec S16 32) a x).toNat < S10000.size a)
instance k1_chk325.dec : ∀ (v743 : IVec S16 32), Decidable (k1_chk325 v743) := fun v743 => decidable_of_iff' _ (Iff.of_eq (k1_chk325.eq_1 v743))
theorem k1_idx325_inb : ∀ (v743 : IVec S16 32) (k1_hw325 : k1_chk325 v743), ∀ a x, ((![v743] : Fin 1 → IVec S16 32) a x).toNat < S10000.size a := fun v743 k1_hw325 => k1_hw325
def k1_off328 (k1_t41 : Fin k1_t41_loop.trips) : Fin 2 → Nat :=
  let c0_i32_179 : BitVec 32 := 0#32
  let c1_i32_181 : BitVec 32 := 1#32
  let arg11 : BitVec 32 := Scf.iv c0_i32_179 c1_i32_181 k1_t41
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c128_336 : Index := 128#32
  ![v748.toNat, 128]

def k1_chk326 (v749 : IVec S16 32) : Prop :=
  (∀ a x, ((![v749] : Fin 1 → IVec S16 32) a x).toNat < S10000.size a)
instance k1_chk326.dec : ∀ (v749 : IVec S16 32), Decidable (k1_chk326 v749) := fun v749 => decidable_of_iff' _ (Iff.of_eq (k1_chk326.eq_1 v749))
theorem k1_idx326_inb : ∀ (v749 : IVec S16 32) (k1_hw326 : k1_chk326 v749), ∀ a x, ((![v749] : Fin 1 → IVec S16 32) a x).toNat < S10000.size a := fun v749 k1_hw326 => k1_hw326
def k1_off329 (k1_t41 : Fin k1_t41_loop.trips) : Fin 2 → Nat :=
  let c0_i32_179 : BitVec 32 := 0#32
  let c1_i32_181 : BitVec 32 := 1#32
  let arg11 : BitVec 32 := Scf.iv c0_i32_179 c1_i32_181 k1_t41
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c128_338 : Index := 128#32
  ![v754.toNat, 128]

def k1_chk327 (v755 : IVec S16 32) : Prop :=
  (∀ a x, ((![v755] : Fin 1 → IVec S16 32) a x).toNat < S10000.size a)
instance k1_chk327.dec : ∀ (v755 : IVec S16 32), Decidable (k1_chk327 v755) := fun v755 => decidable_of_iff' _ (Iff.of_eq (k1_chk327.eq_1 v755))
theorem k1_idx327_inb : ∀ (v755 : IVec S16 32) (k1_hw327 : k1_chk327 v755), ∀ a x, ((![v755] : Fin 1 → IVec S16 32) a x).toNat < S10000.size a := fun v755 k1_hw327 => k1_hw327
def k1_off330 (k1_t41 : Fin k1_t41_loop.trips) : Fin 2 → Nat :=
  let c0_i32_179 : BitVec 32 := 0#32
  let c1_i32_181 : BitVec 32 := 1#32
  let arg11 : BitVec 32 := Scf.iv c0_i32_179 c1_i32_181 k1_t41
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c128_340 : Index := 128#32
  ![v760.toNat, 128]

def k1_chk328 (v761 : IVec S16 32) : Prop :=
  (∀ a x, ((![v761] : Fin 1 → IVec S16 32) a x).toNat < S10000.size a)
instance k1_chk328.dec : ∀ (v761 : IVec S16 32), Decidable (k1_chk328 v761) := fun v761 => decidable_of_iff' _ (Iff.of_eq (k1_chk328.eq_1 v761))
theorem k1_idx328_inb : ∀ (v761 : IVec S16 32) (k1_hw328 : k1_chk328 v761), ∀ a x, ((![v761] : Fin 1 → IVec S16 32) a x).toNat < S10000.size a := fun v761 k1_hw328 => k1_hw328
@[reducible] def k1_t42_loop : Scf.Loop 32 :=
  let c0_i32_185 : BitVec 32 := 0#32
  let c12_i32_186 : BitVec 32 := 12#32
  let v440 : BitVec 32 := Scalar.addi c0_i32_185 c12_i32_186
  let c1_i32_187 : BitVec 32 := 1#32
  ⟨c0_i32_185, v440, c1_i32_187⟩
def k1_off331 (k1_t42 : Fin k1_t42_loop.trips) : Fin 2 → Nat :=
  let c0_i32_185 : BitVec 32 := 0#32
  let c1_i32_187 : BitVec 32 := 1#32
  let arg11 : BitVec 32 := Scf.iv c0_i32_185 c1_i32_187 k1_t42
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c144_324 : Index := 144#32
  ![v718.toNat, 144]

def k1_chk329 (v719 : IVec S16 32) : Prop :=
  (∀ a x, ((![v719] : Fin 1 → IVec S16 32) a x).toNat < S10000.size a)
instance k1_chk329.dec : ∀ (v719 : IVec S16 32), Decidable (k1_chk329 v719) := fun v719 => decidable_of_iff' _ (Iff.of_eq (k1_chk329.eq_1 v719))
theorem k1_idx329_inb : ∀ (v719 : IVec S16 32) (k1_hw329 : k1_chk329 v719), ∀ a x, ((![v719] : Fin 1 → IVec S16 32) a x).toNat < S10000.size a := fun v719 k1_hw329 => k1_hw329
def k1_off332 (k1_t42 : Fin k1_t42_loop.trips) : Fin 2 → Nat :=
  let c0_i32_185 : BitVec 32 := 0#32
  let c1_i32_187 : BitVec 32 := 1#32
  let arg11 : BitVec 32 := Scf.iv c0_i32_185 c1_i32_187 k1_t42
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c144_327 : Index := 144#32
  ![v724.toNat, 144]

def k1_chk330 (v725 : IVec S16 32) : Prop :=
  (∀ a x, ((![v725] : Fin 1 → IVec S16 32) a x).toNat < S10000.size a)
instance k1_chk330.dec : ∀ (v725 : IVec S16 32), Decidable (k1_chk330 v725) := fun v725 => decidable_of_iff' _ (Iff.of_eq (k1_chk330.eq_1 v725))
theorem k1_idx330_inb : ∀ (v725 : IVec S16 32) (k1_hw330 : k1_chk330 v725), ∀ a x, ((![v725] : Fin 1 → IVec S16 32) a x).toNat < S10000.size a := fun v725 k1_hw330 => k1_hw330
def k1_off333 (k1_t42 : Fin k1_t42_loop.trips) : Fin 2 → Nat :=
  let c0_i32_185 : BitVec 32 := 0#32
  let c1_i32_187 : BitVec 32 := 1#32
  let arg11 : BitVec 32 := Scf.iv c0_i32_185 c1_i32_187 k1_t42
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c144_330 : Index := 144#32
  ![v730.toNat, 144]

def k1_chk331 (v731 : IVec S16 32) : Prop :=
  (∀ a x, ((![v731] : Fin 1 → IVec S16 32) a x).toNat < S10000.size a)
instance k1_chk331.dec : ∀ (v731 : IVec S16 32), Decidable (k1_chk331 v731) := fun v731 => decidable_of_iff' _ (Iff.of_eq (k1_chk331.eq_1 v731))
theorem k1_idx331_inb : ∀ (v731 : IVec S16 32) (k1_hw331 : k1_chk331 v731), ∀ a x, ((![v731] : Fin 1 → IVec S16 32) a x).toNat < S10000.size a := fun v731 k1_hw331 => k1_hw331
def k1_off334 (k1_t42 : Fin k1_t42_loop.trips) : Fin 2 → Nat :=
  let c0_i32_185 : BitVec 32 := 0#32
  let c1_i32_187 : BitVec 32 := 1#32
  let arg11 : BitVec 32 := Scf.iv c0_i32_185 c1_i32_187 k1_t42
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c144_332 : Index := 144#32
  ![v736.toNat, 144]

def k1_chk332 (v737 : IVec S16 32) : Prop :=
  (∀ a x, ((![v737] : Fin 1 → IVec S16 32) a x).toNat < S10000.size a)
instance k1_chk332.dec : ∀ (v737 : IVec S16 32), Decidable (k1_chk332 v737) := fun v737 => decidable_of_iff' _ (Iff.of_eq (k1_chk332.eq_1 v737))
theorem k1_idx332_inb : ∀ (v737 : IVec S16 32) (k1_hw332 : k1_chk332 v737), ∀ a x, ((![v737] : Fin 1 → IVec S16 32) a x).toNat < S10000.size a := fun v737 k1_hw332 => k1_hw332
def k1_off335 (k1_t42 : Fin k1_t42_loop.trips) : Fin 2 → Nat :=
  let c0_i32_185 : BitVec 32 := 0#32
  let c1_i32_187 : BitVec 32 := 1#32
  let arg11 : BitVec 32 := Scf.iv c0_i32_185 c1_i32_187 k1_t42
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c144_334 : Index := 144#32
  ![v742.toNat, 144]

def k1_chk333 (v743 : IVec S16 32) : Prop :=
  (∀ a x, ((![v743] : Fin 1 → IVec S16 32) a x).toNat < S10000.size a)
instance k1_chk333.dec : ∀ (v743 : IVec S16 32), Decidable (k1_chk333 v743) := fun v743 => decidable_of_iff' _ (Iff.of_eq (k1_chk333.eq_1 v743))
theorem k1_idx333_inb : ∀ (v743 : IVec S16 32) (k1_hw333 : k1_chk333 v743), ∀ a x, ((![v743] : Fin 1 → IVec S16 32) a x).toNat < S10000.size a := fun v743 k1_hw333 => k1_hw333
def k1_off336 (k1_t42 : Fin k1_t42_loop.trips) : Fin 2 → Nat :=
  let c0_i32_185 : BitVec 32 := 0#32
  let c1_i32_187 : BitVec 32 := 1#32
  let arg11 : BitVec 32 := Scf.iv c0_i32_185 c1_i32_187 k1_t42
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c144_336 : Index := 144#32
  ![v748.toNat, 144]

def k1_chk334 (v749 : IVec S16 32) : Prop :=
  (∀ a x, ((![v749] : Fin 1 → IVec S16 32) a x).toNat < S10000.size a)
instance k1_chk334.dec : ∀ (v749 : IVec S16 32), Decidable (k1_chk334 v749) := fun v749 => decidable_of_iff' _ (Iff.of_eq (k1_chk334.eq_1 v749))
theorem k1_idx334_inb : ∀ (v749 : IVec S16 32) (k1_hw334 : k1_chk334 v749), ∀ a x, ((![v749] : Fin 1 → IVec S16 32) a x).toNat < S10000.size a := fun v749 k1_hw334 => k1_hw334
def k1_off337 (k1_t42 : Fin k1_t42_loop.trips) : Fin 2 → Nat :=
  let c0_i32_185 : BitVec 32 := 0#32
  let c1_i32_187 : BitVec 32 := 1#32
  let arg11 : BitVec 32 := Scf.iv c0_i32_185 c1_i32_187 k1_t42
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c144_338 : Index := 144#32
  ![v754.toNat, 144]

def k1_chk335 (v755 : IVec S16 32) : Prop :=
  (∀ a x, ((![v755] : Fin 1 → IVec S16 32) a x).toNat < S10000.size a)
instance k1_chk335.dec : ∀ (v755 : IVec S16 32), Decidable (k1_chk335 v755) := fun v755 => decidable_of_iff' _ (Iff.of_eq (k1_chk335.eq_1 v755))
theorem k1_idx335_inb : ∀ (v755 : IVec S16 32) (k1_hw335 : k1_chk335 v755), ∀ a x, ((![v755] : Fin 1 → IVec S16 32) a x).toNat < S10000.size a := fun v755 k1_hw335 => k1_hw335
def k1_off338 (k1_t42 : Fin k1_t42_loop.trips) : Fin 2 → Nat :=
  let c0_i32_185 : BitVec 32 := 0#32
  let c1_i32_187 : BitVec 32 := 1#32
  let arg11 : BitVec 32 := Scf.iv c0_i32_185 c1_i32_187 k1_t42
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c144_340 : Index := 144#32
  ![v760.toNat, 144]

def k1_chk336 (v761 : IVec S16 32) : Prop :=
  (∀ a x, ((![v761] : Fin 1 → IVec S16 32) a x).toNat < S10000.size a)
instance k1_chk336.dec : ∀ (v761 : IVec S16 32), Decidable (k1_chk336 v761) := fun v761 => decidable_of_iff' _ (Iff.of_eq (k1_chk336.eq_1 v761))
theorem k1_idx336_inb : ∀ (v761 : IVec S16 32) (k1_hw336 : k1_chk336 v761), ∀ a x, ((![v761] : Fin 1 → IVec S16 32) a x).toNat < S10000.size a := fun v761 k1_hw336 => k1_hw336
@[reducible] def k1_t43_loop : Scf.Loop 32 :=
  let c0_i32_191 : BitVec 32 := 0#32
  let c12_i32_192 : BitVec 32 := 12#32
  let v452 : BitVec 32 := Scalar.addi c0_i32_191 c12_i32_192
  let c1_i32_193 : BitVec 32 := 1#32
  ⟨c0_i32_191, v452, c1_i32_193⟩
def k1_off339 (k1_t43 : Fin k1_t43_loop.trips) : Fin 2 → Nat :=
  let c0_i32_191 : BitVec 32 := 0#32
  let c1_i32_193 : BitVec 32 := 1#32
  let arg11 : BitVec 32 := Scf.iv c0_i32_191 c1_i32_193 k1_t43
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c160_324 : Index := 160#32
  ![v718.toNat, 160]

def k1_chk337 (v719 : IVec S16 32) : Prop :=
  (∀ a x, ((![v719] : Fin 1 → IVec S16 32) a x).toNat < S10000.size a)
instance k1_chk337.dec : ∀ (v719 : IVec S16 32), Decidable (k1_chk337 v719) := fun v719 => decidable_of_iff' _ (Iff.of_eq (k1_chk337.eq_1 v719))
theorem k1_idx337_inb : ∀ (v719 : IVec S16 32) (k1_hw337 : k1_chk337 v719), ∀ a x, ((![v719] : Fin 1 → IVec S16 32) a x).toNat < S10000.size a := fun v719 k1_hw337 => k1_hw337
def k1_off340 (k1_t43 : Fin k1_t43_loop.trips) : Fin 2 → Nat :=
  let c0_i32_191 : BitVec 32 := 0#32
  let c1_i32_193 : BitVec 32 := 1#32
  let arg11 : BitVec 32 := Scf.iv c0_i32_191 c1_i32_193 k1_t43
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c160_327 : Index := 160#32
  ![v724.toNat, 160]

def k1_chk338 (v725 : IVec S16 32) : Prop :=
  (∀ a x, ((![v725] : Fin 1 → IVec S16 32) a x).toNat < S10000.size a)
instance k1_chk338.dec : ∀ (v725 : IVec S16 32), Decidable (k1_chk338 v725) := fun v725 => decidable_of_iff' _ (Iff.of_eq (k1_chk338.eq_1 v725))
theorem k1_idx338_inb : ∀ (v725 : IVec S16 32) (k1_hw338 : k1_chk338 v725), ∀ a x, ((![v725] : Fin 1 → IVec S16 32) a x).toNat < S10000.size a := fun v725 k1_hw338 => k1_hw338
def k1_off341 (k1_t43 : Fin k1_t43_loop.trips) : Fin 2 → Nat :=
  let c0_i32_191 : BitVec 32 := 0#32
  let c1_i32_193 : BitVec 32 := 1#32
  let arg11 : BitVec 32 := Scf.iv c0_i32_191 c1_i32_193 k1_t43
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c160_330 : Index := 160#32
  ![v730.toNat, 160]

def k1_chk339 (v731 : IVec S16 32) : Prop :=
  (∀ a x, ((![v731] : Fin 1 → IVec S16 32) a x).toNat < S10000.size a)
instance k1_chk339.dec : ∀ (v731 : IVec S16 32), Decidable (k1_chk339 v731) := fun v731 => decidable_of_iff' _ (Iff.of_eq (k1_chk339.eq_1 v731))
theorem k1_idx339_inb : ∀ (v731 : IVec S16 32) (k1_hw339 : k1_chk339 v731), ∀ a x, ((![v731] : Fin 1 → IVec S16 32) a x).toNat < S10000.size a := fun v731 k1_hw339 => k1_hw339
def k1_off342 (k1_t43 : Fin k1_t43_loop.trips) : Fin 2 → Nat :=
  let c0_i32_191 : BitVec 32 := 0#32
  let c1_i32_193 : BitVec 32 := 1#32
  let arg11 : BitVec 32 := Scf.iv c0_i32_191 c1_i32_193 k1_t43
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c160_332 : Index := 160#32
  ![v736.toNat, 160]

def k1_chk340 (v737 : IVec S16 32) : Prop :=
  (∀ a x, ((![v737] : Fin 1 → IVec S16 32) a x).toNat < S10000.size a)
instance k1_chk340.dec : ∀ (v737 : IVec S16 32), Decidable (k1_chk340 v737) := fun v737 => decidable_of_iff' _ (Iff.of_eq (k1_chk340.eq_1 v737))
theorem k1_idx340_inb : ∀ (v737 : IVec S16 32) (k1_hw340 : k1_chk340 v737), ∀ a x, ((![v737] : Fin 1 → IVec S16 32) a x).toNat < S10000.size a := fun v737 k1_hw340 => k1_hw340
def k1_off343 (k1_t43 : Fin k1_t43_loop.trips) : Fin 2 → Nat :=
  let c0_i32_191 : BitVec 32 := 0#32
  let c1_i32_193 : BitVec 32 := 1#32
  let arg11 : BitVec 32 := Scf.iv c0_i32_191 c1_i32_193 k1_t43
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c160_334 : Index := 160#32
  ![v742.toNat, 160]

def k1_chk341 (v743 : IVec S16 32) : Prop :=
  (∀ a x, ((![v743] : Fin 1 → IVec S16 32) a x).toNat < S10000.size a)
instance k1_chk341.dec : ∀ (v743 : IVec S16 32), Decidable (k1_chk341 v743) := fun v743 => decidable_of_iff' _ (Iff.of_eq (k1_chk341.eq_1 v743))
theorem k1_idx341_inb : ∀ (v743 : IVec S16 32) (k1_hw341 : k1_chk341 v743), ∀ a x, ((![v743] : Fin 1 → IVec S16 32) a x).toNat < S10000.size a := fun v743 k1_hw341 => k1_hw341
def k1_off344 (k1_t43 : Fin k1_t43_loop.trips) : Fin 2 → Nat :=
  let c0_i32_191 : BitVec 32 := 0#32
  let c1_i32_193 : BitVec 32 := 1#32
  let arg11 : BitVec 32 := Scf.iv c0_i32_191 c1_i32_193 k1_t43
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c160_336 : Index := 160#32
  ![v748.toNat, 160]

def k1_chk342 (v749 : IVec S16 32) : Prop :=
  (∀ a x, ((![v749] : Fin 1 → IVec S16 32) a x).toNat < S10000.size a)
instance k1_chk342.dec : ∀ (v749 : IVec S16 32), Decidable (k1_chk342 v749) := fun v749 => decidable_of_iff' _ (Iff.of_eq (k1_chk342.eq_1 v749))
theorem k1_idx342_inb : ∀ (v749 : IVec S16 32) (k1_hw342 : k1_chk342 v749), ∀ a x, ((![v749] : Fin 1 → IVec S16 32) a x).toNat < S10000.size a := fun v749 k1_hw342 => k1_hw342
def k1_off345 (k1_t43 : Fin k1_t43_loop.trips) : Fin 2 → Nat :=
  let c0_i32_191 : BitVec 32 := 0#32
  let c1_i32_193 : BitVec 32 := 1#32
  let arg11 : BitVec 32 := Scf.iv c0_i32_191 c1_i32_193 k1_t43
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c160_338 : Index := 160#32
  ![v754.toNat, 160]

def k1_chk343 (v755 : IVec S16 32) : Prop :=
  (∀ a x, ((![v755] : Fin 1 → IVec S16 32) a x).toNat < S10000.size a)
instance k1_chk343.dec : ∀ (v755 : IVec S16 32), Decidable (k1_chk343 v755) := fun v755 => decidable_of_iff' _ (Iff.of_eq (k1_chk343.eq_1 v755))
theorem k1_idx343_inb : ∀ (v755 : IVec S16 32) (k1_hw343 : k1_chk343 v755), ∀ a x, ((![v755] : Fin 1 → IVec S16 32) a x).toNat < S10000.size a := fun v755 k1_hw343 => k1_hw343
def k1_off346 (k1_t43 : Fin k1_t43_loop.trips) : Fin 2 → Nat :=
  let c0_i32_191 : BitVec 32 := 0#32
  let c1_i32_193 : BitVec 32 := 1#32
  let arg11 : BitVec 32 := Scf.iv c0_i32_191 c1_i32_193 k1_t43
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c160_340 : Index := 160#32
  ![v760.toNat, 160]

def k1_chk344 (v761 : IVec S16 32) : Prop :=
  (∀ a x, ((![v761] : Fin 1 → IVec S16 32) a x).toNat < S10000.size a)
instance k1_chk344.dec : ∀ (v761 : IVec S16 32), Decidable (k1_chk344 v761) := fun v761 => decidable_of_iff' _ (Iff.of_eq (k1_chk344.eq_1 v761))
theorem k1_idx344_inb : ∀ (v761 : IVec S16 32) (k1_hw344 : k1_chk344 v761), ∀ a x, ((![v761] : Fin 1 → IVec S16 32) a x).toNat < S10000.size a := fun v761 k1_hw344 => k1_hw344
@[reducible] def k1_t44_loop : Scf.Loop 32 :=
  let c0_i32_197 : BitVec 32 := 0#32
  let c12_i32_198 : BitVec 32 := 12#32
  let v464 : BitVec 32 := Scalar.addi c0_i32_197 c12_i32_198
  let c1_i32_199 : BitVec 32 := 1#32
  ⟨c0_i32_197, v464, c1_i32_199⟩
def k1_off347 (k1_t44 : Fin k1_t44_loop.trips) : Fin 2 → Nat :=
  let c0_i32_197 : BitVec 32 := 0#32
  let c1_i32_199 : BitVec 32 := 1#32
  let arg11 : BitVec 32 := Scf.iv c0_i32_197 c1_i32_199 k1_t44
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c176_324 : Index := 176#32
  ![v718.toNat, 176]

def k1_chk345 (v719 : IVec S16 32) : Prop :=
  (∀ a x, ((![v719] : Fin 1 → IVec S16 32) a x).toNat < S10000.size a)
instance k1_chk345.dec : ∀ (v719 : IVec S16 32), Decidable (k1_chk345 v719) := fun v719 => decidable_of_iff' _ (Iff.of_eq (k1_chk345.eq_1 v719))
theorem k1_idx345_inb : ∀ (v719 : IVec S16 32) (k1_hw345 : k1_chk345 v719), ∀ a x, ((![v719] : Fin 1 → IVec S16 32) a x).toNat < S10000.size a := fun v719 k1_hw345 => k1_hw345
def k1_off348 (k1_t44 : Fin k1_t44_loop.trips) : Fin 2 → Nat :=
  let c0_i32_197 : BitVec 32 := 0#32
  let c1_i32_199 : BitVec 32 := 1#32
  let arg11 : BitVec 32 := Scf.iv c0_i32_197 c1_i32_199 k1_t44
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c176_327 : Index := 176#32
  ![v724.toNat, 176]

def k1_chk346 (v725 : IVec S16 32) : Prop :=
  (∀ a x, ((![v725] : Fin 1 → IVec S16 32) a x).toNat < S10000.size a)
instance k1_chk346.dec : ∀ (v725 : IVec S16 32), Decidable (k1_chk346 v725) := fun v725 => decidable_of_iff' _ (Iff.of_eq (k1_chk346.eq_1 v725))
theorem k1_idx346_inb : ∀ (v725 : IVec S16 32) (k1_hw346 : k1_chk346 v725), ∀ a x, ((![v725] : Fin 1 → IVec S16 32) a x).toNat < S10000.size a := fun v725 k1_hw346 => k1_hw346
def k1_off349 (k1_t44 : Fin k1_t44_loop.trips) : Fin 2 → Nat :=
  let c0_i32_197 : BitVec 32 := 0#32
  let c1_i32_199 : BitVec 32 := 1#32
  let arg11 : BitVec 32 := Scf.iv c0_i32_197 c1_i32_199 k1_t44
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c176_330 : Index := 176#32
  ![v730.toNat, 176]

def k1_chk347 (v731 : IVec S16 32) : Prop :=
  (∀ a x, ((![v731] : Fin 1 → IVec S16 32) a x).toNat < S10000.size a)
instance k1_chk347.dec : ∀ (v731 : IVec S16 32), Decidable (k1_chk347 v731) := fun v731 => decidable_of_iff' _ (Iff.of_eq (k1_chk347.eq_1 v731))
theorem k1_idx347_inb : ∀ (v731 : IVec S16 32) (k1_hw347 : k1_chk347 v731), ∀ a x, ((![v731] : Fin 1 → IVec S16 32) a x).toNat < S10000.size a := fun v731 k1_hw347 => k1_hw347
def k1_off350 (k1_t44 : Fin k1_t44_loop.trips) : Fin 2 → Nat :=
  let c0_i32_197 : BitVec 32 := 0#32
  let c1_i32_199 : BitVec 32 := 1#32
  let arg11 : BitVec 32 := Scf.iv c0_i32_197 c1_i32_199 k1_t44
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c176_332 : Index := 176#32
  ![v736.toNat, 176]

def k1_chk348 (v737 : IVec S16 32) : Prop :=
  (∀ a x, ((![v737] : Fin 1 → IVec S16 32) a x).toNat < S10000.size a)
instance k1_chk348.dec : ∀ (v737 : IVec S16 32), Decidable (k1_chk348 v737) := fun v737 => decidable_of_iff' _ (Iff.of_eq (k1_chk348.eq_1 v737))
theorem k1_idx348_inb : ∀ (v737 : IVec S16 32) (k1_hw348 : k1_chk348 v737), ∀ a x, ((![v737] : Fin 1 → IVec S16 32) a x).toNat < S10000.size a := fun v737 k1_hw348 => k1_hw348
def k1_off351 (k1_t44 : Fin k1_t44_loop.trips) : Fin 2 → Nat :=
  let c0_i32_197 : BitVec 32 := 0#32
  let c1_i32_199 : BitVec 32 := 1#32
  let arg11 : BitVec 32 := Scf.iv c0_i32_197 c1_i32_199 k1_t44
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c176_334 : Index := 176#32
  ![v742.toNat, 176]

def k1_chk349 (v743 : IVec S16 32) : Prop :=
  (∀ a x, ((![v743] : Fin 1 → IVec S16 32) a x).toNat < S10000.size a)
instance k1_chk349.dec : ∀ (v743 : IVec S16 32), Decidable (k1_chk349 v743) := fun v743 => decidable_of_iff' _ (Iff.of_eq (k1_chk349.eq_1 v743))
theorem k1_idx349_inb : ∀ (v743 : IVec S16 32) (k1_hw349 : k1_chk349 v743), ∀ a x, ((![v743] : Fin 1 → IVec S16 32) a x).toNat < S10000.size a := fun v743 k1_hw349 => k1_hw349
def k1_off352 (k1_t44 : Fin k1_t44_loop.trips) : Fin 2 → Nat :=
  let c0_i32_197 : BitVec 32 := 0#32
  let c1_i32_199 : BitVec 32 := 1#32
  let arg11 : BitVec 32 := Scf.iv c0_i32_197 c1_i32_199 k1_t44
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c176_336 : Index := 176#32
  ![v748.toNat, 176]

def k1_chk350 (v749 : IVec S16 32) : Prop :=
  (∀ a x, ((![v749] : Fin 1 → IVec S16 32) a x).toNat < S10000.size a)
instance k1_chk350.dec : ∀ (v749 : IVec S16 32), Decidable (k1_chk350 v749) := fun v749 => decidable_of_iff' _ (Iff.of_eq (k1_chk350.eq_1 v749))
theorem k1_idx350_inb : ∀ (v749 : IVec S16 32) (k1_hw350 : k1_chk350 v749), ∀ a x, ((![v749] : Fin 1 → IVec S16 32) a x).toNat < S10000.size a := fun v749 k1_hw350 => k1_hw350
def k1_off353 (k1_t44 : Fin k1_t44_loop.trips) : Fin 2 → Nat :=
  let c0_i32_197 : BitVec 32 := 0#32
  let c1_i32_199 : BitVec 32 := 1#32
  let arg11 : BitVec 32 := Scf.iv c0_i32_197 c1_i32_199 k1_t44
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c176_338 : Index := 176#32
  ![v754.toNat, 176]

def k1_chk351 (v755 : IVec S16 32) : Prop :=
  (∀ a x, ((![v755] : Fin 1 → IVec S16 32) a x).toNat < S10000.size a)
instance k1_chk351.dec : ∀ (v755 : IVec S16 32), Decidable (k1_chk351 v755) := fun v755 => decidable_of_iff' _ (Iff.of_eq (k1_chk351.eq_1 v755))
theorem k1_idx351_inb : ∀ (v755 : IVec S16 32) (k1_hw351 : k1_chk351 v755), ∀ a x, ((![v755] : Fin 1 → IVec S16 32) a x).toNat < S10000.size a := fun v755 k1_hw351 => k1_hw351
def k1_off354 (k1_t44 : Fin k1_t44_loop.trips) : Fin 2 → Nat :=
  let c0_i32_197 : BitVec 32 := 0#32
  let c1_i32_199 : BitVec 32 := 1#32
  let arg11 : BitVec 32 := Scf.iv c0_i32_197 c1_i32_199 k1_t44
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c176_340 : Index := 176#32
  ![v760.toNat, 176]

def k1_chk352 (v761 : IVec S16 32) : Prop :=
  (∀ a x, ((![v761] : Fin 1 → IVec S16 32) a x).toNat < S10000.size a)
instance k1_chk352.dec : ∀ (v761 : IVec S16 32), Decidable (k1_chk352 v761) := fun v761 => decidable_of_iff' _ (Iff.of_eq (k1_chk352.eq_1 v761))
theorem k1_idx352_inb : ∀ (v761 : IVec S16 32) (k1_hw352 : k1_chk352 v761), ∀ a x, ((![v761] : Fin 1 → IVec S16 32) a x).toNat < S10000.size a := fun v761 k1_hw352 => k1_hw352
@[reducible] def k1_t45_loop : Scf.Loop 32 :=
  let c0_i32_203 : BitVec 32 := 0#32
  let c12_i32_204 : BitVec 32 := 12#32
  let v476 : BitVec 32 := Scalar.addi c0_i32_203 c12_i32_204
  let c1_i32_205 : BitVec 32 := 1#32
  ⟨c0_i32_203, v476, c1_i32_205⟩
def k1_off355 (k1_t45 : Fin k1_t45_loop.trips) : Fin 2 → Nat :=
  let c0_i32_203 : BitVec 32 := 0#32
  let c1_i32_205 : BitVec 32 := 1#32
  let arg11 : BitVec 32 := Scf.iv c0_i32_203 c1_i32_205 k1_t45
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c192_324 : Index := 192#32
  ![v718.toNat, 192]

def k1_chk353 (v719 : IVec S16 32) : Prop :=
  (∀ a x, ((![v719] : Fin 1 → IVec S16 32) a x).toNat < S10000.size a)
instance k1_chk353.dec : ∀ (v719 : IVec S16 32), Decidable (k1_chk353 v719) := fun v719 => decidable_of_iff' _ (Iff.of_eq (k1_chk353.eq_1 v719))
theorem k1_idx353_inb : ∀ (v719 : IVec S16 32) (k1_hw353 : k1_chk353 v719), ∀ a x, ((![v719] : Fin 1 → IVec S16 32) a x).toNat < S10000.size a := fun v719 k1_hw353 => k1_hw353
def k1_off356 (k1_t45 : Fin k1_t45_loop.trips) : Fin 2 → Nat :=
  let c0_i32_203 : BitVec 32 := 0#32
  let c1_i32_205 : BitVec 32 := 1#32
  let arg11 : BitVec 32 := Scf.iv c0_i32_203 c1_i32_205 k1_t45
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c192_327 : Index := 192#32
  ![v724.toNat, 192]

def k1_chk354 (v725 : IVec S16 32) : Prop :=
  (∀ a x, ((![v725] : Fin 1 → IVec S16 32) a x).toNat < S10000.size a)
instance k1_chk354.dec : ∀ (v725 : IVec S16 32), Decidable (k1_chk354 v725) := fun v725 => decidable_of_iff' _ (Iff.of_eq (k1_chk354.eq_1 v725))
theorem k1_idx354_inb : ∀ (v725 : IVec S16 32) (k1_hw354 : k1_chk354 v725), ∀ a x, ((![v725] : Fin 1 → IVec S16 32) a x).toNat < S10000.size a := fun v725 k1_hw354 => k1_hw354
def k1_off357 (k1_t45 : Fin k1_t45_loop.trips) : Fin 2 → Nat :=
  let c0_i32_203 : BitVec 32 := 0#32
  let c1_i32_205 : BitVec 32 := 1#32
  let arg11 : BitVec 32 := Scf.iv c0_i32_203 c1_i32_205 k1_t45
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c192_330 : Index := 192#32
  ![v730.toNat, 192]

def k1_chk355 (v731 : IVec S16 32) : Prop :=
  (∀ a x, ((![v731] : Fin 1 → IVec S16 32) a x).toNat < S10000.size a)
instance k1_chk355.dec : ∀ (v731 : IVec S16 32), Decidable (k1_chk355 v731) := fun v731 => decidable_of_iff' _ (Iff.of_eq (k1_chk355.eq_1 v731))
theorem k1_idx355_inb : ∀ (v731 : IVec S16 32) (k1_hw355 : k1_chk355 v731), ∀ a x, ((![v731] : Fin 1 → IVec S16 32) a x).toNat < S10000.size a := fun v731 k1_hw355 => k1_hw355
def k1_off358 (k1_t45 : Fin k1_t45_loop.trips) : Fin 2 → Nat :=
  let c0_i32_203 : BitVec 32 := 0#32
  let c1_i32_205 : BitVec 32 := 1#32
  let arg11 : BitVec 32 := Scf.iv c0_i32_203 c1_i32_205 k1_t45
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c192_332 : Index := 192#32
  ![v736.toNat, 192]

def k1_chk356 (v737 : IVec S16 32) : Prop :=
  (∀ a x, ((![v737] : Fin 1 → IVec S16 32) a x).toNat < S10000.size a)
instance k1_chk356.dec : ∀ (v737 : IVec S16 32), Decidable (k1_chk356 v737) := fun v737 => decidable_of_iff' _ (Iff.of_eq (k1_chk356.eq_1 v737))
theorem k1_idx356_inb : ∀ (v737 : IVec S16 32) (k1_hw356 : k1_chk356 v737), ∀ a x, ((![v737] : Fin 1 → IVec S16 32) a x).toNat < S10000.size a := fun v737 k1_hw356 => k1_hw356
def k1_off359 (k1_t45 : Fin k1_t45_loop.trips) : Fin 2 → Nat :=
  let c0_i32_203 : BitVec 32 := 0#32
  let c1_i32_205 : BitVec 32 := 1#32
  let arg11 : BitVec 32 := Scf.iv c0_i32_203 c1_i32_205 k1_t45
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c192_334 : Index := 192#32
  ![v742.toNat, 192]

def k1_chk357 (v743 : IVec S16 32) : Prop :=
  (∀ a x, ((![v743] : Fin 1 → IVec S16 32) a x).toNat < S10000.size a)
instance k1_chk357.dec : ∀ (v743 : IVec S16 32), Decidable (k1_chk357 v743) := fun v743 => decidable_of_iff' _ (Iff.of_eq (k1_chk357.eq_1 v743))
theorem k1_idx357_inb : ∀ (v743 : IVec S16 32) (k1_hw357 : k1_chk357 v743), ∀ a x, ((![v743] : Fin 1 → IVec S16 32) a x).toNat < S10000.size a := fun v743 k1_hw357 => k1_hw357
def k1_off360 (k1_t45 : Fin k1_t45_loop.trips) : Fin 2 → Nat :=
  let c0_i32_203 : BitVec 32 := 0#32
  let c1_i32_205 : BitVec 32 := 1#32
  let arg11 : BitVec 32 := Scf.iv c0_i32_203 c1_i32_205 k1_t45
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c192_336 : Index := 192#32
  ![v748.toNat, 192]

def k1_chk358 (v749 : IVec S16 32) : Prop :=
  (∀ a x, ((![v749] : Fin 1 → IVec S16 32) a x).toNat < S10000.size a)
instance k1_chk358.dec : ∀ (v749 : IVec S16 32), Decidable (k1_chk358 v749) := fun v749 => decidable_of_iff' _ (Iff.of_eq (k1_chk358.eq_1 v749))
theorem k1_idx358_inb : ∀ (v749 : IVec S16 32) (k1_hw358 : k1_chk358 v749), ∀ a x, ((![v749] : Fin 1 → IVec S16 32) a x).toNat < S10000.size a := fun v749 k1_hw358 => k1_hw358
def k1_off361 (k1_t45 : Fin k1_t45_loop.trips) : Fin 2 → Nat :=
  let c0_i32_203 : BitVec 32 := 0#32
  let c1_i32_205 : BitVec 32 := 1#32
  let arg11 : BitVec 32 := Scf.iv c0_i32_203 c1_i32_205 k1_t45
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c192_338 : Index := 192#32
  ![v754.toNat, 192]

def k1_chk359 (v755 : IVec S16 32) : Prop :=
  (∀ a x, ((![v755] : Fin 1 → IVec S16 32) a x).toNat < S10000.size a)
instance k1_chk359.dec : ∀ (v755 : IVec S16 32), Decidable (k1_chk359 v755) := fun v755 => decidable_of_iff' _ (Iff.of_eq (k1_chk359.eq_1 v755))
theorem k1_idx359_inb : ∀ (v755 : IVec S16 32) (k1_hw359 : k1_chk359 v755), ∀ a x, ((![v755] : Fin 1 → IVec S16 32) a x).toNat < S10000.size a := fun v755 k1_hw359 => k1_hw359
def k1_off362 (k1_t45 : Fin k1_t45_loop.trips) : Fin 2 → Nat :=
  let c0_i32_203 : BitVec 32 := 0#32
  let c1_i32_205 : BitVec 32 := 1#32
  let arg11 : BitVec 32 := Scf.iv c0_i32_203 c1_i32_205 k1_t45
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c192_340 : Index := 192#32
  ![v760.toNat, 192]

def k1_chk360 (v761 : IVec S16 32) : Prop :=
  (∀ a x, ((![v761] : Fin 1 → IVec S16 32) a x).toNat < S10000.size a)
instance k1_chk360.dec : ∀ (v761 : IVec S16 32), Decidable (k1_chk360 v761) := fun v761 => decidable_of_iff' _ (Iff.of_eq (k1_chk360.eq_1 v761))
theorem k1_idx360_inb : ∀ (v761 : IVec S16 32) (k1_hw360 : k1_chk360 v761), ∀ a x, ((![v761] : Fin 1 → IVec S16 32) a x).toNat < S10000.size a := fun v761 k1_hw360 => k1_hw360
@[reducible] def k1_t46_loop : Scf.Loop 32 :=
  let c0_i32_209 : BitVec 32 := 0#32
  let c12_i32_210 : BitVec 32 := 12#32
  let v488 : BitVec 32 := Scalar.addi c0_i32_209 c12_i32_210
  let c1_i32_211 : BitVec 32 := 1#32
  ⟨c0_i32_209, v488, c1_i32_211⟩
def k1_off363 (k1_t46 : Fin k1_t46_loop.trips) : Fin 2 → Nat :=
  let c0_i32_209 : BitVec 32 := 0#32
  let c1_i32_211 : BitVec 32 := 1#32
  let arg11 : BitVec 32 := Scf.iv c0_i32_209 c1_i32_211 k1_t46
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c208_324 : Index := 208#32
  ![v718.toNat, 208]

def k1_chk361 (v719 : IVec S16 32) : Prop :=
  (∀ a x, ((![v719] : Fin 1 → IVec S16 32) a x).toNat < S10000.size a)
instance k1_chk361.dec : ∀ (v719 : IVec S16 32), Decidable (k1_chk361 v719) := fun v719 => decidable_of_iff' _ (Iff.of_eq (k1_chk361.eq_1 v719))
theorem k1_idx361_inb : ∀ (v719 : IVec S16 32) (k1_hw361 : k1_chk361 v719), ∀ a x, ((![v719] : Fin 1 → IVec S16 32) a x).toNat < S10000.size a := fun v719 k1_hw361 => k1_hw361
def k1_off364 (k1_t46 : Fin k1_t46_loop.trips) : Fin 2 → Nat :=
  let c0_i32_209 : BitVec 32 := 0#32
  let c1_i32_211 : BitVec 32 := 1#32
  let arg11 : BitVec 32 := Scf.iv c0_i32_209 c1_i32_211 k1_t46
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c208_327 : Index := 208#32
  ![v724.toNat, 208]

def k1_chk362 (v725 : IVec S16 32) : Prop :=
  (∀ a x, ((![v725] : Fin 1 → IVec S16 32) a x).toNat < S10000.size a)
instance k1_chk362.dec : ∀ (v725 : IVec S16 32), Decidable (k1_chk362 v725) := fun v725 => decidable_of_iff' _ (Iff.of_eq (k1_chk362.eq_1 v725))
theorem k1_idx362_inb : ∀ (v725 : IVec S16 32) (k1_hw362 : k1_chk362 v725), ∀ a x, ((![v725] : Fin 1 → IVec S16 32) a x).toNat < S10000.size a := fun v725 k1_hw362 => k1_hw362
def k1_off365 (k1_t46 : Fin k1_t46_loop.trips) : Fin 2 → Nat :=
  let c0_i32_209 : BitVec 32 := 0#32
  let c1_i32_211 : BitVec 32 := 1#32
  let arg11 : BitVec 32 := Scf.iv c0_i32_209 c1_i32_211 k1_t46
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c208_330 : Index := 208#32
  ![v730.toNat, 208]

def k1_chk363 (v731 : IVec S16 32) : Prop :=
  (∀ a x, ((![v731] : Fin 1 → IVec S16 32) a x).toNat < S10000.size a)
instance k1_chk363.dec : ∀ (v731 : IVec S16 32), Decidable (k1_chk363 v731) := fun v731 => decidable_of_iff' _ (Iff.of_eq (k1_chk363.eq_1 v731))
theorem k1_idx363_inb : ∀ (v731 : IVec S16 32) (k1_hw363 : k1_chk363 v731), ∀ a x, ((![v731] : Fin 1 → IVec S16 32) a x).toNat < S10000.size a := fun v731 k1_hw363 => k1_hw363
def k1_off366 (k1_t46 : Fin k1_t46_loop.trips) : Fin 2 → Nat :=
  let c0_i32_209 : BitVec 32 := 0#32
  let c1_i32_211 : BitVec 32 := 1#32
  let arg11 : BitVec 32 := Scf.iv c0_i32_209 c1_i32_211 k1_t46
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c208_332 : Index := 208#32
  ![v736.toNat, 208]

def k1_chk364 (v737 : IVec S16 32) : Prop :=
  (∀ a x, ((![v737] : Fin 1 → IVec S16 32) a x).toNat < S10000.size a)
instance k1_chk364.dec : ∀ (v737 : IVec S16 32), Decidable (k1_chk364 v737) := fun v737 => decidable_of_iff' _ (Iff.of_eq (k1_chk364.eq_1 v737))
theorem k1_idx364_inb : ∀ (v737 : IVec S16 32) (k1_hw364 : k1_chk364 v737), ∀ a x, ((![v737] : Fin 1 → IVec S16 32) a x).toNat < S10000.size a := fun v737 k1_hw364 => k1_hw364
def k1_off367 (k1_t46 : Fin k1_t46_loop.trips) : Fin 2 → Nat :=
  let c0_i32_209 : BitVec 32 := 0#32
  let c1_i32_211 : BitVec 32 := 1#32
  let arg11 : BitVec 32 := Scf.iv c0_i32_209 c1_i32_211 k1_t46
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c208_334 : Index := 208#32
  ![v742.toNat, 208]

def k1_chk365 (v743 : IVec S16 32) : Prop :=
  (∀ a x, ((![v743] : Fin 1 → IVec S16 32) a x).toNat < S10000.size a)
instance k1_chk365.dec : ∀ (v743 : IVec S16 32), Decidable (k1_chk365 v743) := fun v743 => decidable_of_iff' _ (Iff.of_eq (k1_chk365.eq_1 v743))
theorem k1_idx365_inb : ∀ (v743 : IVec S16 32) (k1_hw365 : k1_chk365 v743), ∀ a x, ((![v743] : Fin 1 → IVec S16 32) a x).toNat < S10000.size a := fun v743 k1_hw365 => k1_hw365
def k1_off368 (k1_t46 : Fin k1_t46_loop.trips) : Fin 2 → Nat :=
  let c0_i32_209 : BitVec 32 := 0#32
  let c1_i32_211 : BitVec 32 := 1#32
  let arg11 : BitVec 32 := Scf.iv c0_i32_209 c1_i32_211 k1_t46
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c208_336 : Index := 208#32
  ![v748.toNat, 208]

def k1_chk366 (v749 : IVec S16 32) : Prop :=
  (∀ a x, ((![v749] : Fin 1 → IVec S16 32) a x).toNat < S10000.size a)
instance k1_chk366.dec : ∀ (v749 : IVec S16 32), Decidable (k1_chk366 v749) := fun v749 => decidable_of_iff' _ (Iff.of_eq (k1_chk366.eq_1 v749))
theorem k1_idx366_inb : ∀ (v749 : IVec S16 32) (k1_hw366 : k1_chk366 v749), ∀ a x, ((![v749] : Fin 1 → IVec S16 32) a x).toNat < S10000.size a := fun v749 k1_hw366 => k1_hw366
def k1_off369 (k1_t46 : Fin k1_t46_loop.trips) : Fin 2 → Nat :=
  let c0_i32_209 : BitVec 32 := 0#32
  let c1_i32_211 : BitVec 32 := 1#32
  let arg11 : BitVec 32 := Scf.iv c0_i32_209 c1_i32_211 k1_t46
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c208_338 : Index := 208#32
  ![v754.toNat, 208]

def k1_chk367 (v755 : IVec S16 32) : Prop :=
  (∀ a x, ((![v755] : Fin 1 → IVec S16 32) a x).toNat < S10000.size a)
instance k1_chk367.dec : ∀ (v755 : IVec S16 32), Decidable (k1_chk367 v755) := fun v755 => decidable_of_iff' _ (Iff.of_eq (k1_chk367.eq_1 v755))
theorem k1_idx367_inb : ∀ (v755 : IVec S16 32) (k1_hw367 : k1_chk367 v755), ∀ a x, ((![v755] : Fin 1 → IVec S16 32) a x).toNat < S10000.size a := fun v755 k1_hw367 => k1_hw367
def k1_off370 (k1_t46 : Fin k1_t46_loop.trips) : Fin 2 → Nat :=
  let c0_i32_209 : BitVec 32 := 0#32
  let c1_i32_211 : BitVec 32 := 1#32
  let arg11 : BitVec 32 := Scf.iv c0_i32_209 c1_i32_211 k1_t46
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c208_340 : Index := 208#32
  ![v760.toNat, 208]

def k1_chk368 (v761 : IVec S16 32) : Prop :=
  (∀ a x, ((![v761] : Fin 1 → IVec S16 32) a x).toNat < S10000.size a)
instance k1_chk368.dec : ∀ (v761 : IVec S16 32), Decidable (k1_chk368 v761) := fun v761 => decidable_of_iff' _ (Iff.of_eq (k1_chk368.eq_1 v761))
theorem k1_idx368_inb : ∀ (v761 : IVec S16 32) (k1_hw368 : k1_chk368 v761), ∀ a x, ((![v761] : Fin 1 → IVec S16 32) a x).toNat < S10000.size a := fun v761 k1_hw368 => k1_hw368
@[reducible] def k1_t47_loop : Scf.Loop 32 :=
  let c0_i32_215 : BitVec 32 := 0#32
  let c12_i32_216 : BitVec 32 := 12#32
  let v500 : BitVec 32 := Scalar.addi c0_i32_215 c12_i32_216
  let c1_i32_217 : BitVec 32 := 1#32
  ⟨c0_i32_215, v500, c1_i32_217⟩
def k1_off371 (k1_t47 : Fin k1_t47_loop.trips) : Fin 2 → Nat :=
  let c0_i32_215 : BitVec 32 := 0#32
  let c1_i32_217 : BitVec 32 := 1#32
  let arg11 : BitVec 32 := Scf.iv c0_i32_215 c1_i32_217 k1_t47
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c224_324 : Index := 224#32
  ![v718.toNat, 224]

def k1_chk369 (v719 : IVec S16 32) : Prop :=
  (∀ a x, ((![v719] : Fin 1 → IVec S16 32) a x).toNat < S10000.size a)
instance k1_chk369.dec : ∀ (v719 : IVec S16 32), Decidable (k1_chk369 v719) := fun v719 => decidable_of_iff' _ (Iff.of_eq (k1_chk369.eq_1 v719))
theorem k1_idx369_inb : ∀ (v719 : IVec S16 32) (k1_hw369 : k1_chk369 v719), ∀ a x, ((![v719] : Fin 1 → IVec S16 32) a x).toNat < S10000.size a := fun v719 k1_hw369 => k1_hw369
def k1_off372 (k1_t47 : Fin k1_t47_loop.trips) : Fin 2 → Nat :=
  let c0_i32_215 : BitVec 32 := 0#32
  let c1_i32_217 : BitVec 32 := 1#32
  let arg11 : BitVec 32 := Scf.iv c0_i32_215 c1_i32_217 k1_t47
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c224_327 : Index := 224#32
  ![v724.toNat, 224]

def k1_chk370 (v725 : IVec S16 32) : Prop :=
  (∀ a x, ((![v725] : Fin 1 → IVec S16 32) a x).toNat < S10000.size a)
instance k1_chk370.dec : ∀ (v725 : IVec S16 32), Decidable (k1_chk370 v725) := fun v725 => decidable_of_iff' _ (Iff.of_eq (k1_chk370.eq_1 v725))
theorem k1_idx370_inb : ∀ (v725 : IVec S16 32) (k1_hw370 : k1_chk370 v725), ∀ a x, ((![v725] : Fin 1 → IVec S16 32) a x).toNat < S10000.size a := fun v725 k1_hw370 => k1_hw370
def k1_off373 (k1_t47 : Fin k1_t47_loop.trips) : Fin 2 → Nat :=
  let c0_i32_215 : BitVec 32 := 0#32
  let c1_i32_217 : BitVec 32 := 1#32
  let arg11 : BitVec 32 := Scf.iv c0_i32_215 c1_i32_217 k1_t47
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c224_330 : Index := 224#32
  ![v730.toNat, 224]

def k1_chk371 (v731 : IVec S16 32) : Prop :=
  (∀ a x, ((![v731] : Fin 1 → IVec S16 32) a x).toNat < S10000.size a)
instance k1_chk371.dec : ∀ (v731 : IVec S16 32), Decidable (k1_chk371 v731) := fun v731 => decidable_of_iff' _ (Iff.of_eq (k1_chk371.eq_1 v731))
theorem k1_idx371_inb : ∀ (v731 : IVec S16 32) (k1_hw371 : k1_chk371 v731), ∀ a x, ((![v731] : Fin 1 → IVec S16 32) a x).toNat < S10000.size a := fun v731 k1_hw371 => k1_hw371
def k1_off374 (k1_t47 : Fin k1_t47_loop.trips) : Fin 2 → Nat :=
  let c0_i32_215 : BitVec 32 := 0#32
  let c1_i32_217 : BitVec 32 := 1#32
  let arg11 : BitVec 32 := Scf.iv c0_i32_215 c1_i32_217 k1_t47
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c224_332 : Index := 224#32
  ![v736.toNat, 224]

def k1_chk372 (v737 : IVec S16 32) : Prop :=
  (∀ a x, ((![v737] : Fin 1 → IVec S16 32) a x).toNat < S10000.size a)
instance k1_chk372.dec : ∀ (v737 : IVec S16 32), Decidable (k1_chk372 v737) := fun v737 => decidable_of_iff' _ (Iff.of_eq (k1_chk372.eq_1 v737))
theorem k1_idx372_inb : ∀ (v737 : IVec S16 32) (k1_hw372 : k1_chk372 v737), ∀ a x, ((![v737] : Fin 1 → IVec S16 32) a x).toNat < S10000.size a := fun v737 k1_hw372 => k1_hw372
def k1_off375 (k1_t47 : Fin k1_t47_loop.trips) : Fin 2 → Nat :=
  let c0_i32_215 : BitVec 32 := 0#32
  let c1_i32_217 : BitVec 32 := 1#32
  let arg11 : BitVec 32 := Scf.iv c0_i32_215 c1_i32_217 k1_t47
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c224_334 : Index := 224#32
  ![v742.toNat, 224]

def k1_chk373 (v743 : IVec S16 32) : Prop :=
  (∀ a x, ((![v743] : Fin 1 → IVec S16 32) a x).toNat < S10000.size a)
instance k1_chk373.dec : ∀ (v743 : IVec S16 32), Decidable (k1_chk373 v743) := fun v743 => decidable_of_iff' _ (Iff.of_eq (k1_chk373.eq_1 v743))
theorem k1_idx373_inb : ∀ (v743 : IVec S16 32) (k1_hw373 : k1_chk373 v743), ∀ a x, ((![v743] : Fin 1 → IVec S16 32) a x).toNat < S10000.size a := fun v743 k1_hw373 => k1_hw373
def k1_off376 (k1_t47 : Fin k1_t47_loop.trips) : Fin 2 → Nat :=
  let c0_i32_215 : BitVec 32 := 0#32
  let c1_i32_217 : BitVec 32 := 1#32
  let arg11 : BitVec 32 := Scf.iv c0_i32_215 c1_i32_217 k1_t47
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c224_336 : Index := 224#32
  ![v748.toNat, 224]

def k1_chk374 (v749 : IVec S16 32) : Prop :=
  (∀ a x, ((![v749] : Fin 1 → IVec S16 32) a x).toNat < S10000.size a)
instance k1_chk374.dec : ∀ (v749 : IVec S16 32), Decidable (k1_chk374 v749) := fun v749 => decidable_of_iff' _ (Iff.of_eq (k1_chk374.eq_1 v749))
theorem k1_idx374_inb : ∀ (v749 : IVec S16 32) (k1_hw374 : k1_chk374 v749), ∀ a x, ((![v749] : Fin 1 → IVec S16 32) a x).toNat < S10000.size a := fun v749 k1_hw374 => k1_hw374
def k1_off377 (k1_t47 : Fin k1_t47_loop.trips) : Fin 2 → Nat :=
  let c0_i32_215 : BitVec 32 := 0#32
  let c1_i32_217 : BitVec 32 := 1#32
  let arg11 : BitVec 32 := Scf.iv c0_i32_215 c1_i32_217 k1_t47
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c224_338 : Index := 224#32
  ![v754.toNat, 224]

def k1_chk375 (v755 : IVec S16 32) : Prop :=
  (∀ a x, ((![v755] : Fin 1 → IVec S16 32) a x).toNat < S10000.size a)
instance k1_chk375.dec : ∀ (v755 : IVec S16 32), Decidable (k1_chk375 v755) := fun v755 => decidable_of_iff' _ (Iff.of_eq (k1_chk375.eq_1 v755))
theorem k1_idx375_inb : ∀ (v755 : IVec S16 32) (k1_hw375 : k1_chk375 v755), ∀ a x, ((![v755] : Fin 1 → IVec S16 32) a x).toNat < S10000.size a := fun v755 k1_hw375 => k1_hw375
def k1_off378 (k1_t47 : Fin k1_t47_loop.trips) : Fin 2 → Nat :=
  let c0_i32_215 : BitVec 32 := 0#32
  let c1_i32_217 : BitVec 32 := 1#32
  let arg11 : BitVec 32 := Scf.iv c0_i32_215 c1_i32_217 k1_t47
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c224_340 : Index := 224#32
  ![v760.toNat, 224]

def k1_chk376 (v761 : IVec S16 32) : Prop :=
  (∀ a x, ((![v761] : Fin 1 → IVec S16 32) a x).toNat < S10000.size a)
instance k1_chk376.dec : ∀ (v761 : IVec S16 32), Decidable (k1_chk376 v761) := fun v761 => decidable_of_iff' _ (Iff.of_eq (k1_chk376.eq_1 v761))
theorem k1_idx376_inb : ∀ (v761 : IVec S16 32) (k1_hw376 : k1_chk376 v761), ∀ a x, ((![v761] : Fin 1 → IVec S16 32) a x).toNat < S10000.size a := fun v761 k1_hw376 => k1_hw376
@[reducible] def k1_t48_loop : Scf.Loop 32 :=
  let c0_i32_221 : BitVec 32 := 0#32
  let c12_i32_222 : BitVec 32 := 12#32
  let v512 : BitVec 32 := Scalar.addi c0_i32_221 c12_i32_222
  let c1_i32_223 : BitVec 32 := 1#32
  ⟨c0_i32_221, v512, c1_i32_223⟩
def k1_off379 (k1_t48 : Fin k1_t48_loop.trips) : Fin 2 → Nat :=
  let c0_i32_221 : BitVec 32 := 0#32
  let c1_i32_223 : BitVec 32 := 1#32
  let arg11 : BitVec 32 := Scf.iv c0_i32_221 c1_i32_223 k1_t48
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c240_324 : Index := 240#32
  ![v718.toNat, 240]

def k1_chk377 (v719 : IVec S16 32) : Prop :=
  (∀ a x, ((![v719] : Fin 1 → IVec S16 32) a x).toNat < S10000.size a)
instance k1_chk377.dec : ∀ (v719 : IVec S16 32), Decidable (k1_chk377 v719) := fun v719 => decidable_of_iff' _ (Iff.of_eq (k1_chk377.eq_1 v719))
theorem k1_idx377_inb : ∀ (v719 : IVec S16 32) (k1_hw377 : k1_chk377 v719), ∀ a x, ((![v719] : Fin 1 → IVec S16 32) a x).toNat < S10000.size a := fun v719 k1_hw377 => k1_hw377
def k1_off380 (k1_t48 : Fin k1_t48_loop.trips) : Fin 2 → Nat :=
  let c0_i32_221 : BitVec 32 := 0#32
  let c1_i32_223 : BitVec 32 := 1#32
  let arg11 : BitVec 32 := Scf.iv c0_i32_221 c1_i32_223 k1_t48
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c240_327 : Index := 240#32
  ![v724.toNat, 240]

def k1_chk378 (v725 : IVec S16 32) : Prop :=
  (∀ a x, ((![v725] : Fin 1 → IVec S16 32) a x).toNat < S10000.size a)
instance k1_chk378.dec : ∀ (v725 : IVec S16 32), Decidable (k1_chk378 v725) := fun v725 => decidable_of_iff' _ (Iff.of_eq (k1_chk378.eq_1 v725))
theorem k1_idx378_inb : ∀ (v725 : IVec S16 32) (k1_hw378 : k1_chk378 v725), ∀ a x, ((![v725] : Fin 1 → IVec S16 32) a x).toNat < S10000.size a := fun v725 k1_hw378 => k1_hw378
def k1_off381 (k1_t48 : Fin k1_t48_loop.trips) : Fin 2 → Nat :=
  let c0_i32_221 : BitVec 32 := 0#32
  let c1_i32_223 : BitVec 32 := 1#32
  let arg11 : BitVec 32 := Scf.iv c0_i32_221 c1_i32_223 k1_t48
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c240_330 : Index := 240#32
  ![v730.toNat, 240]

def k1_chk379 (v731 : IVec S16 32) : Prop :=
  (∀ a x, ((![v731] : Fin 1 → IVec S16 32) a x).toNat < S10000.size a)
instance k1_chk379.dec : ∀ (v731 : IVec S16 32), Decidable (k1_chk379 v731) := fun v731 => decidable_of_iff' _ (Iff.of_eq (k1_chk379.eq_1 v731))
theorem k1_idx379_inb : ∀ (v731 : IVec S16 32) (k1_hw379 : k1_chk379 v731), ∀ a x, ((![v731] : Fin 1 → IVec S16 32) a x).toNat < S10000.size a := fun v731 k1_hw379 => k1_hw379
def k1_off382 (k1_t48 : Fin k1_t48_loop.trips) : Fin 2 → Nat :=
  let c0_i32_221 : BitVec 32 := 0#32
  let c1_i32_223 : BitVec 32 := 1#32
  let arg11 : BitVec 32 := Scf.iv c0_i32_221 c1_i32_223 k1_t48
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c240_332 : Index := 240#32
  ![v736.toNat, 240]

def k1_chk380 (v737 : IVec S16 32) : Prop :=
  (∀ a x, ((![v737] : Fin 1 → IVec S16 32) a x).toNat < S10000.size a)
instance k1_chk380.dec : ∀ (v737 : IVec S16 32), Decidable (k1_chk380 v737) := fun v737 => decidable_of_iff' _ (Iff.of_eq (k1_chk380.eq_1 v737))
theorem k1_idx380_inb : ∀ (v737 : IVec S16 32) (k1_hw380 : k1_chk380 v737), ∀ a x, ((![v737] : Fin 1 → IVec S16 32) a x).toNat < S10000.size a := fun v737 k1_hw380 => k1_hw380
def k1_off383 (k1_t48 : Fin k1_t48_loop.trips) : Fin 2 → Nat :=
  let c0_i32_221 : BitVec 32 := 0#32
  let c1_i32_223 : BitVec 32 := 1#32
  let arg11 : BitVec 32 := Scf.iv c0_i32_221 c1_i32_223 k1_t48
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c240_334 : Index := 240#32
  ![v742.toNat, 240]

def k1_chk381 (v743 : IVec S16 32) : Prop :=
  (∀ a x, ((![v743] : Fin 1 → IVec S16 32) a x).toNat < S10000.size a)
instance k1_chk381.dec : ∀ (v743 : IVec S16 32), Decidable (k1_chk381 v743) := fun v743 => decidable_of_iff' _ (Iff.of_eq (k1_chk381.eq_1 v743))
theorem k1_idx381_inb : ∀ (v743 : IVec S16 32) (k1_hw381 : k1_chk381 v743), ∀ a x, ((![v743] : Fin 1 → IVec S16 32) a x).toNat < S10000.size a := fun v743 k1_hw381 => k1_hw381
def k1_off384 (k1_t48 : Fin k1_t48_loop.trips) : Fin 2 → Nat :=
  let c0_i32_221 : BitVec 32 := 0#32
  let c1_i32_223 : BitVec 32 := 1#32
  let arg11 : BitVec 32 := Scf.iv c0_i32_221 c1_i32_223 k1_t48
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c240_336 : Index := 240#32
  ![v748.toNat, 240]

def k1_chk382 (v749 : IVec S16 32) : Prop :=
  (∀ a x, ((![v749] : Fin 1 → IVec S16 32) a x).toNat < S10000.size a)
instance k1_chk382.dec : ∀ (v749 : IVec S16 32), Decidable (k1_chk382 v749) := fun v749 => decidable_of_iff' _ (Iff.of_eq (k1_chk382.eq_1 v749))
theorem k1_idx382_inb : ∀ (v749 : IVec S16 32) (k1_hw382 : k1_chk382 v749), ∀ a x, ((![v749] : Fin 1 → IVec S16 32) a x).toNat < S10000.size a := fun v749 k1_hw382 => k1_hw382
def k1_off385 (k1_t48 : Fin k1_t48_loop.trips) : Fin 2 → Nat :=
  let c0_i32_221 : BitVec 32 := 0#32
  let c1_i32_223 : BitVec 32 := 1#32
  let arg11 : BitVec 32 := Scf.iv c0_i32_221 c1_i32_223 k1_t48
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c240_338 : Index := 240#32
  ![v754.toNat, 240]

def k1_chk383 (v755 : IVec S16 32) : Prop :=
  (∀ a x, ((![v755] : Fin 1 → IVec S16 32) a x).toNat < S10000.size a)
instance k1_chk383.dec : ∀ (v755 : IVec S16 32), Decidable (k1_chk383 v755) := fun v755 => decidable_of_iff' _ (Iff.of_eq (k1_chk383.eq_1 v755))
theorem k1_idx383_inb : ∀ (v755 : IVec S16 32) (k1_hw383 : k1_chk383 v755), ∀ a x, ((![v755] : Fin 1 → IVec S16 32) a x).toNat < S10000.size a := fun v755 k1_hw383 => k1_hw383
def k1_off386 (k1_t48 : Fin k1_t48_loop.trips) : Fin 2 → Nat :=
  let c0_i32_221 : BitVec 32 := 0#32
  let c1_i32_223 : BitVec 32 := 1#32
  let arg11 : BitVec 32 := Scf.iv c0_i32_221 c1_i32_223 k1_t48
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c240_340 : Index := 240#32
  ![v760.toNat, 240]

def k1_chk384 (v761 : IVec S16 32) : Prop :=
  (∀ a x, ((![v761] : Fin 1 → IVec S16 32) a x).toNat < S10000.size a)
instance k1_chk384.dec : ∀ (v761 : IVec S16 32), Decidable (k1_chk384 v761) := fun v761 => decidable_of_iff' _ (Iff.of_eq (k1_chk384.eq_1 v761))
theorem k1_idx384_inb : ∀ (v761 : IVec S16 32) (k1_hw384 : k1_chk384 v761), ∀ a x, ((![v761] : Fin 1 → IVec S16 32) a x).toNat < S10000.size a := fun v761 k1_hw384 => k1_hw384
@[reducible] def k1_t49_loop : Scf.Loop 32 :=
  let c0_i32_227 : BitVec 32 := 0#32
  let c12_i32_228 : BitVec 32 := 12#32
  let v524 : BitVec 32 := Scalar.addi c0_i32_227 c12_i32_228
  let c1_i32_229 : BitVec 32 := 1#32
  ⟨c0_i32_227, v524, c1_i32_229⟩
def k1_off387 (k1_t49 : Fin k1_t49_loop.trips) : Fin 2 → Nat :=
  let c0_i32_227 : BitVec 32 := 0#32
  let c1_i32_229 : BitVec 32 := 1#32
  let arg11 : BitVec 32 := Scf.iv c0_i32_227 c1_i32_229 k1_t49
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c256_324 : Index := 256#32
  ![v718.toNat, 256]

def k1_chk385 (v719 : IVec S16 32) : Prop :=
  (∀ a x, ((![v719] : Fin 1 → IVec S16 32) a x).toNat < S10000.size a)
instance k1_chk385.dec : ∀ (v719 : IVec S16 32), Decidable (k1_chk385 v719) := fun v719 => decidable_of_iff' _ (Iff.of_eq (k1_chk385.eq_1 v719))
theorem k1_idx385_inb : ∀ (v719 : IVec S16 32) (k1_hw385 : k1_chk385 v719), ∀ a x, ((![v719] : Fin 1 → IVec S16 32) a x).toNat < S10000.size a := fun v719 k1_hw385 => k1_hw385
def k1_off388 (k1_t49 : Fin k1_t49_loop.trips) : Fin 2 → Nat :=
  let c0_i32_227 : BitVec 32 := 0#32
  let c1_i32_229 : BitVec 32 := 1#32
  let arg11 : BitVec 32 := Scf.iv c0_i32_227 c1_i32_229 k1_t49
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c256_327 : Index := 256#32
  ![v724.toNat, 256]

def k1_chk386 (v725 : IVec S16 32) : Prop :=
  (∀ a x, ((![v725] : Fin 1 → IVec S16 32) a x).toNat < S10000.size a)
instance k1_chk386.dec : ∀ (v725 : IVec S16 32), Decidable (k1_chk386 v725) := fun v725 => decidable_of_iff' _ (Iff.of_eq (k1_chk386.eq_1 v725))
theorem k1_idx386_inb : ∀ (v725 : IVec S16 32) (k1_hw386 : k1_chk386 v725), ∀ a x, ((![v725] : Fin 1 → IVec S16 32) a x).toNat < S10000.size a := fun v725 k1_hw386 => k1_hw386
def k1_off389 (k1_t49 : Fin k1_t49_loop.trips) : Fin 2 → Nat :=
  let c0_i32_227 : BitVec 32 := 0#32
  let c1_i32_229 : BitVec 32 := 1#32
  let arg11 : BitVec 32 := Scf.iv c0_i32_227 c1_i32_229 k1_t49
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c256_330 : Index := 256#32
  ![v730.toNat, 256]

def k1_chk387 (v731 : IVec S16 32) : Prop :=
  (∀ a x, ((![v731] : Fin 1 → IVec S16 32) a x).toNat < S10000.size a)
instance k1_chk387.dec : ∀ (v731 : IVec S16 32), Decidable (k1_chk387 v731) := fun v731 => decidable_of_iff' _ (Iff.of_eq (k1_chk387.eq_1 v731))
theorem k1_idx387_inb : ∀ (v731 : IVec S16 32) (k1_hw387 : k1_chk387 v731), ∀ a x, ((![v731] : Fin 1 → IVec S16 32) a x).toNat < S10000.size a := fun v731 k1_hw387 => k1_hw387
def k1_off390 (k1_t49 : Fin k1_t49_loop.trips) : Fin 2 → Nat :=
  let c0_i32_227 : BitVec 32 := 0#32
  let c1_i32_229 : BitVec 32 := 1#32
  let arg11 : BitVec 32 := Scf.iv c0_i32_227 c1_i32_229 k1_t49
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c256_332 : Index := 256#32
  ![v736.toNat, 256]

def k1_chk388 (v737 : IVec S16 32) : Prop :=
  (∀ a x, ((![v737] : Fin 1 → IVec S16 32) a x).toNat < S10000.size a)
instance k1_chk388.dec : ∀ (v737 : IVec S16 32), Decidable (k1_chk388 v737) := fun v737 => decidable_of_iff' _ (Iff.of_eq (k1_chk388.eq_1 v737))
theorem k1_idx388_inb : ∀ (v737 : IVec S16 32) (k1_hw388 : k1_chk388 v737), ∀ a x, ((![v737] : Fin 1 → IVec S16 32) a x).toNat < S10000.size a := fun v737 k1_hw388 => k1_hw388
def k1_off391 (k1_t49 : Fin k1_t49_loop.trips) : Fin 2 → Nat :=
  let c0_i32_227 : BitVec 32 := 0#32
  let c1_i32_229 : BitVec 32 := 1#32
  let arg11 : BitVec 32 := Scf.iv c0_i32_227 c1_i32_229 k1_t49
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c256_334 : Index := 256#32
  ![v742.toNat, 256]

def k1_chk389 (v743 : IVec S16 32) : Prop :=
  (∀ a x, ((![v743] : Fin 1 → IVec S16 32) a x).toNat < S10000.size a)
instance k1_chk389.dec : ∀ (v743 : IVec S16 32), Decidable (k1_chk389 v743) := fun v743 => decidable_of_iff' _ (Iff.of_eq (k1_chk389.eq_1 v743))
theorem k1_idx389_inb : ∀ (v743 : IVec S16 32) (k1_hw389 : k1_chk389 v743), ∀ a x, ((![v743] : Fin 1 → IVec S16 32) a x).toNat < S10000.size a := fun v743 k1_hw389 => k1_hw389
def k1_off392 (k1_t49 : Fin k1_t49_loop.trips) : Fin 2 → Nat :=
  let c0_i32_227 : BitVec 32 := 0#32
  let c1_i32_229 : BitVec 32 := 1#32
  let arg11 : BitVec 32 := Scf.iv c0_i32_227 c1_i32_229 k1_t49
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c256_336 : Index := 256#32
  ![v748.toNat, 256]

def k1_chk390 (v749 : IVec S16 32) : Prop :=
  (∀ a x, ((![v749] : Fin 1 → IVec S16 32) a x).toNat < S10000.size a)
instance k1_chk390.dec : ∀ (v749 : IVec S16 32), Decidable (k1_chk390 v749) := fun v749 => decidable_of_iff' _ (Iff.of_eq (k1_chk390.eq_1 v749))
theorem k1_idx390_inb : ∀ (v749 : IVec S16 32) (k1_hw390 : k1_chk390 v749), ∀ a x, ((![v749] : Fin 1 → IVec S16 32) a x).toNat < S10000.size a := fun v749 k1_hw390 => k1_hw390
def k1_off393 (k1_t49 : Fin k1_t49_loop.trips) : Fin 2 → Nat :=
  let c0_i32_227 : BitVec 32 := 0#32
  let c1_i32_229 : BitVec 32 := 1#32
  let arg11 : BitVec 32 := Scf.iv c0_i32_227 c1_i32_229 k1_t49
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c256_338 : Index := 256#32
  ![v754.toNat, 256]

def k1_chk391 (v755 : IVec S16 32) : Prop :=
  (∀ a x, ((![v755] : Fin 1 → IVec S16 32) a x).toNat < S10000.size a)
instance k1_chk391.dec : ∀ (v755 : IVec S16 32), Decidable (k1_chk391 v755) := fun v755 => decidable_of_iff' _ (Iff.of_eq (k1_chk391.eq_1 v755))
theorem k1_idx391_inb : ∀ (v755 : IVec S16 32) (k1_hw391 : k1_chk391 v755), ∀ a x, ((![v755] : Fin 1 → IVec S16 32) a x).toNat < S10000.size a := fun v755 k1_hw391 => k1_hw391
def k1_off394 (k1_t49 : Fin k1_t49_loop.trips) : Fin 2 → Nat :=
  let c0_i32_227 : BitVec 32 := 0#32
  let c1_i32_229 : BitVec 32 := 1#32
  let arg11 : BitVec 32 := Scf.iv c0_i32_227 c1_i32_229 k1_t49
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c256_340 : Index := 256#32
  ![v760.toNat, 256]

def k1_chk392 (v761 : IVec S16 32) : Prop :=
  (∀ a x, ((![v761] : Fin 1 → IVec S16 32) a x).toNat < S10000.size a)
instance k1_chk392.dec : ∀ (v761 : IVec S16 32), Decidable (k1_chk392 v761) := fun v761 => decidable_of_iff' _ (Iff.of_eq (k1_chk392.eq_1 v761))
theorem k1_idx392_inb : ∀ (v761 : IVec S16 32) (k1_hw392 : k1_chk392 v761), ∀ a x, ((![v761] : Fin 1 → IVec S16 32) a x).toNat < S10000.size a := fun v761 k1_hw392 => k1_hw392
@[reducible] def k1_t50_loop : Scf.Loop 32 :=
  let c0_i32_233 : BitVec 32 := 0#32
  let c12_i32_234 : BitVec 32 := 12#32
  let v536 : BitVec 32 := Scalar.addi c0_i32_233 c12_i32_234
  let c1_i32_235 : BitVec 32 := 1#32
  ⟨c0_i32_233, v536, c1_i32_235⟩
def k1_off395 (k1_t50 : Fin k1_t50_loop.trips) : Fin 2 → Nat :=
  let c0_i32_233 : BitVec 32 := 0#32
  let c1_i32_235 : BitVec 32 := 1#32
  let arg11 : BitVec 32 := Scf.iv c0_i32_233 c1_i32_235 k1_t50
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c272_324 : Index := 272#32
  ![v718.toNat, 272]

def k1_chk393 (v719 : IVec S16 32) : Prop :=
  (∀ a x, ((![v719] : Fin 1 → IVec S16 32) a x).toNat < S10000.size a)
instance k1_chk393.dec : ∀ (v719 : IVec S16 32), Decidable (k1_chk393 v719) := fun v719 => decidable_of_iff' _ (Iff.of_eq (k1_chk393.eq_1 v719))
theorem k1_idx393_inb : ∀ (v719 : IVec S16 32) (k1_hw393 : k1_chk393 v719), ∀ a x, ((![v719] : Fin 1 → IVec S16 32) a x).toNat < S10000.size a := fun v719 k1_hw393 => k1_hw393
def k1_off396 (k1_t50 : Fin k1_t50_loop.trips) : Fin 2 → Nat :=
  let c0_i32_233 : BitVec 32 := 0#32
  let c1_i32_235 : BitVec 32 := 1#32
  let arg11 : BitVec 32 := Scf.iv c0_i32_233 c1_i32_235 k1_t50
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c272_327 : Index := 272#32
  ![v724.toNat, 272]

def k1_chk394 (v725 : IVec S16 32) : Prop :=
  (∀ a x, ((![v725] : Fin 1 → IVec S16 32) a x).toNat < S10000.size a)
instance k1_chk394.dec : ∀ (v725 : IVec S16 32), Decidable (k1_chk394 v725) := fun v725 => decidable_of_iff' _ (Iff.of_eq (k1_chk394.eq_1 v725))
theorem k1_idx394_inb : ∀ (v725 : IVec S16 32) (k1_hw394 : k1_chk394 v725), ∀ a x, ((![v725] : Fin 1 → IVec S16 32) a x).toNat < S10000.size a := fun v725 k1_hw394 => k1_hw394
def k1_off397 (k1_t50 : Fin k1_t50_loop.trips) : Fin 2 → Nat :=
  let c0_i32_233 : BitVec 32 := 0#32
  let c1_i32_235 : BitVec 32 := 1#32
  let arg11 : BitVec 32 := Scf.iv c0_i32_233 c1_i32_235 k1_t50
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c272_330 : Index := 272#32
  ![v730.toNat, 272]

def k1_chk395 (v731 : IVec S16 32) : Prop :=
  (∀ a x, ((![v731] : Fin 1 → IVec S16 32) a x).toNat < S10000.size a)
instance k1_chk395.dec : ∀ (v731 : IVec S16 32), Decidable (k1_chk395 v731) := fun v731 => decidable_of_iff' _ (Iff.of_eq (k1_chk395.eq_1 v731))
theorem k1_idx395_inb : ∀ (v731 : IVec S16 32) (k1_hw395 : k1_chk395 v731), ∀ a x, ((![v731] : Fin 1 → IVec S16 32) a x).toNat < S10000.size a := fun v731 k1_hw395 => k1_hw395
def k1_off398 (k1_t50 : Fin k1_t50_loop.trips) : Fin 2 → Nat :=
  let c0_i32_233 : BitVec 32 := 0#32
  let c1_i32_235 : BitVec 32 := 1#32
  let arg11 : BitVec 32 := Scf.iv c0_i32_233 c1_i32_235 k1_t50
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c272_332 : Index := 272#32
  ![v736.toNat, 272]

def k1_chk396 (v737 : IVec S16 32) : Prop :=
  (∀ a x, ((![v737] : Fin 1 → IVec S16 32) a x).toNat < S10000.size a)
instance k1_chk396.dec : ∀ (v737 : IVec S16 32), Decidable (k1_chk396 v737) := fun v737 => decidable_of_iff' _ (Iff.of_eq (k1_chk396.eq_1 v737))
theorem k1_idx396_inb : ∀ (v737 : IVec S16 32) (k1_hw396 : k1_chk396 v737), ∀ a x, ((![v737] : Fin 1 → IVec S16 32) a x).toNat < S10000.size a := fun v737 k1_hw396 => k1_hw396
def k1_off399 (k1_t50 : Fin k1_t50_loop.trips) : Fin 2 → Nat :=
  let c0_i32_233 : BitVec 32 := 0#32
  let c1_i32_235 : BitVec 32 := 1#32
  let arg11 : BitVec 32 := Scf.iv c0_i32_233 c1_i32_235 k1_t50
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c272_334 : Index := 272#32
  ![v742.toNat, 272]

def k1_chk397 (v743 : IVec S16 32) : Prop :=
  (∀ a x, ((![v743] : Fin 1 → IVec S16 32) a x).toNat < S10000.size a)
instance k1_chk397.dec : ∀ (v743 : IVec S16 32), Decidable (k1_chk397 v743) := fun v743 => decidable_of_iff' _ (Iff.of_eq (k1_chk397.eq_1 v743))
theorem k1_idx397_inb : ∀ (v743 : IVec S16 32) (k1_hw397 : k1_chk397 v743), ∀ a x, ((![v743] : Fin 1 → IVec S16 32) a x).toNat < S10000.size a := fun v743 k1_hw397 => k1_hw397
def k1_off400 (k1_t50 : Fin k1_t50_loop.trips) : Fin 2 → Nat :=
  let c0_i32_233 : BitVec 32 := 0#32
  let c1_i32_235 : BitVec 32 := 1#32
  let arg11 : BitVec 32 := Scf.iv c0_i32_233 c1_i32_235 k1_t50
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c272_336 : Index := 272#32
  ![v748.toNat, 272]

def k1_chk398 (v749 : IVec S16 32) : Prop :=
  (∀ a x, ((![v749] : Fin 1 → IVec S16 32) a x).toNat < S10000.size a)
instance k1_chk398.dec : ∀ (v749 : IVec S16 32), Decidable (k1_chk398 v749) := fun v749 => decidable_of_iff' _ (Iff.of_eq (k1_chk398.eq_1 v749))
theorem k1_idx398_inb : ∀ (v749 : IVec S16 32) (k1_hw398 : k1_chk398 v749), ∀ a x, ((![v749] : Fin 1 → IVec S16 32) a x).toNat < S10000.size a := fun v749 k1_hw398 => k1_hw398
def k1_off401 (k1_t50 : Fin k1_t50_loop.trips) : Fin 2 → Nat :=
  let c0_i32_233 : BitVec 32 := 0#32
  let c1_i32_235 : BitVec 32 := 1#32
  let arg11 : BitVec 32 := Scf.iv c0_i32_233 c1_i32_235 k1_t50
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c272_338 : Index := 272#32
  ![v754.toNat, 272]

def k1_chk399 (v755 : IVec S16 32) : Prop :=
  (∀ a x, ((![v755] : Fin 1 → IVec S16 32) a x).toNat < S10000.size a)
instance k1_chk399.dec : ∀ (v755 : IVec S16 32), Decidable (k1_chk399 v755) := fun v755 => decidable_of_iff' _ (Iff.of_eq (k1_chk399.eq_1 v755))
theorem k1_idx399_inb : ∀ (v755 : IVec S16 32) (k1_hw399 : k1_chk399 v755), ∀ a x, ((![v755] : Fin 1 → IVec S16 32) a x).toNat < S10000.size a := fun v755 k1_hw399 => k1_hw399
def k1_off402 (k1_t50 : Fin k1_t50_loop.trips) : Fin 2 → Nat :=
  let c0_i32_233 : BitVec 32 := 0#32
  let c1_i32_235 : BitVec 32 := 1#32
  let arg11 : BitVec 32 := Scf.iv c0_i32_233 c1_i32_235 k1_t50
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c272_340 : Index := 272#32
  ![v760.toNat, 272]

def k1_chk400 (v761 : IVec S16 32) : Prop :=
  (∀ a x, ((![v761] : Fin 1 → IVec S16 32) a x).toNat < S10000.size a)
instance k1_chk400.dec : ∀ (v761 : IVec S16 32), Decidable (k1_chk400 v761) := fun v761 => decidable_of_iff' _ (Iff.of_eq (k1_chk400.eq_1 v761))
theorem k1_idx400_inb : ∀ (v761 : IVec S16 32) (k1_hw400 : k1_chk400 v761), ∀ a x, ((![v761] : Fin 1 → IVec S16 32) a x).toNat < S10000.size a := fun v761 k1_hw400 => k1_hw400
@[reducible] def k1_t51_loop : Scf.Loop 32 :=
  let c0_i32_239 : BitVec 32 := 0#32
  let c12_i32_240 : BitVec 32 := 12#32
  let v548 : BitVec 32 := Scalar.addi c0_i32_239 c12_i32_240
  let c1_i32_241 : BitVec 32 := 1#32
  ⟨c0_i32_239, v548, c1_i32_241⟩
def k1_off403 (k1_t51 : Fin k1_t51_loop.trips) : Fin 2 → Nat :=
  let c0_i32_239 : BitVec 32 := 0#32
  let c1_i32_241 : BitVec 32 := 1#32
  let arg11 : BitVec 32 := Scf.iv c0_i32_239 c1_i32_241 k1_t51
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c288_324 : Index := 288#32
  ![v718.toNat, 288]

def k1_chk401 (v719 : IVec S16 32) : Prop :=
  (∀ a x, ((![v719] : Fin 1 → IVec S16 32) a x).toNat < S10000.size a)
instance k1_chk401.dec : ∀ (v719 : IVec S16 32), Decidable (k1_chk401 v719) := fun v719 => decidable_of_iff' _ (Iff.of_eq (k1_chk401.eq_1 v719))
theorem k1_idx401_inb : ∀ (v719 : IVec S16 32) (k1_hw401 : k1_chk401 v719), ∀ a x, ((![v719] : Fin 1 → IVec S16 32) a x).toNat < S10000.size a := fun v719 k1_hw401 => k1_hw401
def k1_off404 (k1_t51 : Fin k1_t51_loop.trips) : Fin 2 → Nat :=
  let c0_i32_239 : BitVec 32 := 0#32
  let c1_i32_241 : BitVec 32 := 1#32
  let arg11 : BitVec 32 := Scf.iv c0_i32_239 c1_i32_241 k1_t51
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c288_327 : Index := 288#32
  ![v724.toNat, 288]

def k1_chk402 (v725 : IVec S16 32) : Prop :=
  (∀ a x, ((![v725] : Fin 1 → IVec S16 32) a x).toNat < S10000.size a)
instance k1_chk402.dec : ∀ (v725 : IVec S16 32), Decidable (k1_chk402 v725) := fun v725 => decidable_of_iff' _ (Iff.of_eq (k1_chk402.eq_1 v725))
theorem k1_idx402_inb : ∀ (v725 : IVec S16 32) (k1_hw402 : k1_chk402 v725), ∀ a x, ((![v725] : Fin 1 → IVec S16 32) a x).toNat < S10000.size a := fun v725 k1_hw402 => k1_hw402
def k1_off405 (k1_t51 : Fin k1_t51_loop.trips) : Fin 2 → Nat :=
  let c0_i32_239 : BitVec 32 := 0#32
  let c1_i32_241 : BitVec 32 := 1#32
  let arg11 : BitVec 32 := Scf.iv c0_i32_239 c1_i32_241 k1_t51
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c288_330 : Index := 288#32
  ![v730.toNat, 288]

def k1_chk403 (v731 : IVec S16 32) : Prop :=
  (∀ a x, ((![v731] : Fin 1 → IVec S16 32) a x).toNat < S10000.size a)
instance k1_chk403.dec : ∀ (v731 : IVec S16 32), Decidable (k1_chk403 v731) := fun v731 => decidable_of_iff' _ (Iff.of_eq (k1_chk403.eq_1 v731))
theorem k1_idx403_inb : ∀ (v731 : IVec S16 32) (k1_hw403 : k1_chk403 v731), ∀ a x, ((![v731] : Fin 1 → IVec S16 32) a x).toNat < S10000.size a := fun v731 k1_hw403 => k1_hw403
def k1_off406 (k1_t51 : Fin k1_t51_loop.trips) : Fin 2 → Nat :=
  let c0_i32_239 : BitVec 32 := 0#32
  let c1_i32_241 : BitVec 32 := 1#32
  let arg11 : BitVec 32 := Scf.iv c0_i32_239 c1_i32_241 k1_t51
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c288_332 : Index := 288#32
  ![v736.toNat, 288]

def k1_chk404 (v737 : IVec S16 32) : Prop :=
  (∀ a x, ((![v737] : Fin 1 → IVec S16 32) a x).toNat < S10000.size a)
instance k1_chk404.dec : ∀ (v737 : IVec S16 32), Decidable (k1_chk404 v737) := fun v737 => decidable_of_iff' _ (Iff.of_eq (k1_chk404.eq_1 v737))
theorem k1_idx404_inb : ∀ (v737 : IVec S16 32) (k1_hw404 : k1_chk404 v737), ∀ a x, ((![v737] : Fin 1 → IVec S16 32) a x).toNat < S10000.size a := fun v737 k1_hw404 => k1_hw404
def k1_off407 (k1_t51 : Fin k1_t51_loop.trips) : Fin 2 → Nat :=
  let c0_i32_239 : BitVec 32 := 0#32
  let c1_i32_241 : BitVec 32 := 1#32
  let arg11 : BitVec 32 := Scf.iv c0_i32_239 c1_i32_241 k1_t51
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c288_334 : Index := 288#32
  ![v742.toNat, 288]

def k1_chk405 (v743 : IVec S16 32) : Prop :=
  (∀ a x, ((![v743] : Fin 1 → IVec S16 32) a x).toNat < S10000.size a)
instance k1_chk405.dec : ∀ (v743 : IVec S16 32), Decidable (k1_chk405 v743) := fun v743 => decidable_of_iff' _ (Iff.of_eq (k1_chk405.eq_1 v743))
theorem k1_idx405_inb : ∀ (v743 : IVec S16 32) (k1_hw405 : k1_chk405 v743), ∀ a x, ((![v743] : Fin 1 → IVec S16 32) a x).toNat < S10000.size a := fun v743 k1_hw405 => k1_hw405
def k1_off408 (k1_t51 : Fin k1_t51_loop.trips) : Fin 2 → Nat :=
  let c0_i32_239 : BitVec 32 := 0#32
  let c1_i32_241 : BitVec 32 := 1#32
  let arg11 : BitVec 32 := Scf.iv c0_i32_239 c1_i32_241 k1_t51
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c288_336 : Index := 288#32
  ![v748.toNat, 288]

def k1_chk406 (v749 : IVec S16 32) : Prop :=
  (∀ a x, ((![v749] : Fin 1 → IVec S16 32) a x).toNat < S10000.size a)
instance k1_chk406.dec : ∀ (v749 : IVec S16 32), Decidable (k1_chk406 v749) := fun v749 => decidable_of_iff' _ (Iff.of_eq (k1_chk406.eq_1 v749))
theorem k1_idx406_inb : ∀ (v749 : IVec S16 32) (k1_hw406 : k1_chk406 v749), ∀ a x, ((![v749] : Fin 1 → IVec S16 32) a x).toNat < S10000.size a := fun v749 k1_hw406 => k1_hw406
def k1_off409 (k1_t51 : Fin k1_t51_loop.trips) : Fin 2 → Nat :=
  let c0_i32_239 : BitVec 32 := 0#32
  let c1_i32_241 : BitVec 32 := 1#32
  let arg11 : BitVec 32 := Scf.iv c0_i32_239 c1_i32_241 k1_t51
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c288_338 : Index := 288#32
  ![v754.toNat, 288]

def k1_chk407 (v755 : IVec S16 32) : Prop :=
  (∀ a x, ((![v755] : Fin 1 → IVec S16 32) a x).toNat < S10000.size a)
instance k1_chk407.dec : ∀ (v755 : IVec S16 32), Decidable (k1_chk407 v755) := fun v755 => decidable_of_iff' _ (Iff.of_eq (k1_chk407.eq_1 v755))
theorem k1_idx407_inb : ∀ (v755 : IVec S16 32) (k1_hw407 : k1_chk407 v755), ∀ a x, ((![v755] : Fin 1 → IVec S16 32) a x).toNat < S10000.size a := fun v755 k1_hw407 => k1_hw407
def k1_off410 (k1_t51 : Fin k1_t51_loop.trips) : Fin 2 → Nat :=
  let c0_i32_239 : BitVec 32 := 0#32
  let c1_i32_241 : BitVec 32 := 1#32
  let arg11 : BitVec 32 := Scf.iv c0_i32_239 c1_i32_241 k1_t51
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c288_340 : Index := 288#32
  ![v760.toNat, 288]

def k1_chk408 (v761 : IVec S16 32) : Prop :=
  (∀ a x, ((![v761] : Fin 1 → IVec S16 32) a x).toNat < S10000.size a)
instance k1_chk408.dec : ∀ (v761 : IVec S16 32), Decidable (k1_chk408 v761) := fun v761 => decidable_of_iff' _ (Iff.of_eq (k1_chk408.eq_1 v761))
theorem k1_idx408_inb : ∀ (v761 : IVec S16 32) (k1_hw408 : k1_chk408 v761), ∀ a x, ((![v761] : Fin 1 → IVec S16 32) a x).toNat < S10000.size a := fun v761 k1_hw408 => k1_hw408
@[reducible] def k1_t52_loop : Scf.Loop 32 :=
  let c0_i32_245 : BitVec 32 := 0#32
  let c12_i32_246 : BitVec 32 := 12#32
  let v560 : BitVec 32 := Scalar.addi c0_i32_245 c12_i32_246
  let c1_i32_247 : BitVec 32 := 1#32
  ⟨c0_i32_245, v560, c1_i32_247⟩
def k1_off411 (k1_t52 : Fin k1_t52_loop.trips) : Fin 2 → Nat :=
  let c0_i32_245 : BitVec 32 := 0#32
  let c1_i32_247 : BitVec 32 := 1#32
  let arg11 : BitVec 32 := Scf.iv c0_i32_245 c1_i32_247 k1_t52
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c304_324 : Index := 304#32
  ![v718.toNat, 304]

def k1_chk409 (v719 : IVec S16 32) : Prop :=
  (∀ a x, ((![v719] : Fin 1 → IVec S16 32) a x).toNat < S10000.size a)
instance k1_chk409.dec : ∀ (v719 : IVec S16 32), Decidable (k1_chk409 v719) := fun v719 => decidable_of_iff' _ (Iff.of_eq (k1_chk409.eq_1 v719))
theorem k1_idx409_inb : ∀ (v719 : IVec S16 32) (k1_hw409 : k1_chk409 v719), ∀ a x, ((![v719] : Fin 1 → IVec S16 32) a x).toNat < S10000.size a := fun v719 k1_hw409 => k1_hw409
def k1_off412 (k1_t52 : Fin k1_t52_loop.trips) : Fin 2 → Nat :=
  let c0_i32_245 : BitVec 32 := 0#32
  let c1_i32_247 : BitVec 32 := 1#32
  let arg11 : BitVec 32 := Scf.iv c0_i32_245 c1_i32_247 k1_t52
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c304_327 : Index := 304#32
  ![v724.toNat, 304]

def k1_chk410 (v725 : IVec S16 32) : Prop :=
  (∀ a x, ((![v725] : Fin 1 → IVec S16 32) a x).toNat < S10000.size a)
instance k1_chk410.dec : ∀ (v725 : IVec S16 32), Decidable (k1_chk410 v725) := fun v725 => decidable_of_iff' _ (Iff.of_eq (k1_chk410.eq_1 v725))
theorem k1_idx410_inb : ∀ (v725 : IVec S16 32) (k1_hw410 : k1_chk410 v725), ∀ a x, ((![v725] : Fin 1 → IVec S16 32) a x).toNat < S10000.size a := fun v725 k1_hw410 => k1_hw410
def k1_off413 (k1_t52 : Fin k1_t52_loop.trips) : Fin 2 → Nat :=
  let c0_i32_245 : BitVec 32 := 0#32
  let c1_i32_247 : BitVec 32 := 1#32
  let arg11 : BitVec 32 := Scf.iv c0_i32_245 c1_i32_247 k1_t52
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c304_330 : Index := 304#32
  ![v730.toNat, 304]

def k1_chk411 (v731 : IVec S16 32) : Prop :=
  (∀ a x, ((![v731] : Fin 1 → IVec S16 32) a x).toNat < S10000.size a)
instance k1_chk411.dec : ∀ (v731 : IVec S16 32), Decidable (k1_chk411 v731) := fun v731 => decidable_of_iff' _ (Iff.of_eq (k1_chk411.eq_1 v731))
theorem k1_idx411_inb : ∀ (v731 : IVec S16 32) (k1_hw411 : k1_chk411 v731), ∀ a x, ((![v731] : Fin 1 → IVec S16 32) a x).toNat < S10000.size a := fun v731 k1_hw411 => k1_hw411
def k1_off414 (k1_t52 : Fin k1_t52_loop.trips) : Fin 2 → Nat :=
  let c0_i32_245 : BitVec 32 := 0#32
  let c1_i32_247 : BitVec 32 := 1#32
  let arg11 : BitVec 32 := Scf.iv c0_i32_245 c1_i32_247 k1_t52
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c304_332 : Index := 304#32
  ![v736.toNat, 304]

def k1_chk412 (v737 : IVec S16 32) : Prop :=
  (∀ a x, ((![v737] : Fin 1 → IVec S16 32) a x).toNat < S10000.size a)
instance k1_chk412.dec : ∀ (v737 : IVec S16 32), Decidable (k1_chk412 v737) := fun v737 => decidable_of_iff' _ (Iff.of_eq (k1_chk412.eq_1 v737))
theorem k1_idx412_inb : ∀ (v737 : IVec S16 32) (k1_hw412 : k1_chk412 v737), ∀ a x, ((![v737] : Fin 1 → IVec S16 32) a x).toNat < S10000.size a := fun v737 k1_hw412 => k1_hw412
def k1_off415 (k1_t52 : Fin k1_t52_loop.trips) : Fin 2 → Nat :=
  let c0_i32_245 : BitVec 32 := 0#32
  let c1_i32_247 : BitVec 32 := 1#32
  let arg11 : BitVec 32 := Scf.iv c0_i32_245 c1_i32_247 k1_t52
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c304_334 : Index := 304#32
  ![v742.toNat, 304]

def k1_chk413 (v743 : IVec S16 32) : Prop :=
  (∀ a x, ((![v743] : Fin 1 → IVec S16 32) a x).toNat < S10000.size a)
instance k1_chk413.dec : ∀ (v743 : IVec S16 32), Decidable (k1_chk413 v743) := fun v743 => decidable_of_iff' _ (Iff.of_eq (k1_chk413.eq_1 v743))
theorem k1_idx413_inb : ∀ (v743 : IVec S16 32) (k1_hw413 : k1_chk413 v743), ∀ a x, ((![v743] : Fin 1 → IVec S16 32) a x).toNat < S10000.size a := fun v743 k1_hw413 => k1_hw413
def k1_off416 (k1_t52 : Fin k1_t52_loop.trips) : Fin 2 → Nat :=
  let c0_i32_245 : BitVec 32 := 0#32
  let c1_i32_247 : BitVec 32 := 1#32
  let arg11 : BitVec 32 := Scf.iv c0_i32_245 c1_i32_247 k1_t52
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c304_336 : Index := 304#32
  ![v748.toNat, 304]

def k1_chk414 (v749 : IVec S16 32) : Prop :=
  (∀ a x, ((![v749] : Fin 1 → IVec S16 32) a x).toNat < S10000.size a)
instance k1_chk414.dec : ∀ (v749 : IVec S16 32), Decidable (k1_chk414 v749) := fun v749 => decidable_of_iff' _ (Iff.of_eq (k1_chk414.eq_1 v749))
theorem k1_idx414_inb : ∀ (v749 : IVec S16 32) (k1_hw414 : k1_chk414 v749), ∀ a x, ((![v749] : Fin 1 → IVec S16 32) a x).toNat < S10000.size a := fun v749 k1_hw414 => k1_hw414
def k1_off417 (k1_t52 : Fin k1_t52_loop.trips) : Fin 2 → Nat :=
  let c0_i32_245 : BitVec 32 := 0#32
  let c1_i32_247 : BitVec 32 := 1#32
  let arg11 : BitVec 32 := Scf.iv c0_i32_245 c1_i32_247 k1_t52
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c304_338 : Index := 304#32
  ![v754.toNat, 304]

def k1_chk415 (v755 : IVec S16 32) : Prop :=
  (∀ a x, ((![v755] : Fin 1 → IVec S16 32) a x).toNat < S10000.size a)
instance k1_chk415.dec : ∀ (v755 : IVec S16 32), Decidable (k1_chk415 v755) := fun v755 => decidable_of_iff' _ (Iff.of_eq (k1_chk415.eq_1 v755))
theorem k1_idx415_inb : ∀ (v755 : IVec S16 32) (k1_hw415 : k1_chk415 v755), ∀ a x, ((![v755] : Fin 1 → IVec S16 32) a x).toNat < S10000.size a := fun v755 k1_hw415 => k1_hw415
def k1_off418 (k1_t52 : Fin k1_t52_loop.trips) : Fin 2 → Nat :=
  let c0_i32_245 : BitVec 32 := 0#32
  let c1_i32_247 : BitVec 32 := 1#32
  let arg11 : BitVec 32 := Scf.iv c0_i32_245 c1_i32_247 k1_t52
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c304_340 : Index := 304#32
  ![v760.toNat, 304]

def k1_chk416 (v761 : IVec S16 32) : Prop :=
  (∀ a x, ((![v761] : Fin 1 → IVec S16 32) a x).toNat < S10000.size a)
instance k1_chk416.dec : ∀ (v761 : IVec S16 32), Decidable (k1_chk416 v761) := fun v761 => decidable_of_iff' _ (Iff.of_eq (k1_chk416.eq_1 v761))
theorem k1_idx416_inb : ∀ (v761 : IVec S16 32) (k1_hw416 : k1_chk416 v761), ∀ a x, ((![v761] : Fin 1 → IVec S16 32) a x).toNat < S10000.size a := fun v761 k1_hw416 => k1_hw416
@[reducible] def k1_t53_loop : Scf.Loop 32 :=
  let c0_i32_251 : BitVec 32 := 0#32
  let c12_i32_252 : BitVec 32 := 12#32
  let v572 : BitVec 32 := Scalar.addi c0_i32_251 c12_i32_252
  let c1_i32_253 : BitVec 32 := 1#32
  ⟨c0_i32_251, v572, c1_i32_253⟩
def k1_off419 (k1_t53 : Fin k1_t53_loop.trips) : Fin 2 → Nat :=
  let c0_i32_251 : BitVec 32 := 0#32
  let c1_i32_253 : BitVec 32 := 1#32
  let arg11 : BitVec 32 := Scf.iv c0_i32_251 c1_i32_253 k1_t53
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c320_324 : Index := 320#32
  ![v718.toNat, 320]

def k1_chk417 (v719 : IVec S16 32) : Prop :=
  (∀ a x, ((![v719] : Fin 1 → IVec S16 32) a x).toNat < S10000.size a)
instance k1_chk417.dec : ∀ (v719 : IVec S16 32), Decidable (k1_chk417 v719) := fun v719 => decidable_of_iff' _ (Iff.of_eq (k1_chk417.eq_1 v719))
theorem k1_idx417_inb : ∀ (v719 : IVec S16 32) (k1_hw417 : k1_chk417 v719), ∀ a x, ((![v719] : Fin 1 → IVec S16 32) a x).toNat < S10000.size a := fun v719 k1_hw417 => k1_hw417
def k1_off420 (k1_t53 : Fin k1_t53_loop.trips) : Fin 2 → Nat :=
  let c0_i32_251 : BitVec 32 := 0#32
  let c1_i32_253 : BitVec 32 := 1#32
  let arg11 : BitVec 32 := Scf.iv c0_i32_251 c1_i32_253 k1_t53
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c320_327 : Index := 320#32
  ![v724.toNat, 320]

def k1_chk418 (v725 : IVec S16 32) : Prop :=
  (∀ a x, ((![v725] : Fin 1 → IVec S16 32) a x).toNat < S10000.size a)
instance k1_chk418.dec : ∀ (v725 : IVec S16 32), Decidable (k1_chk418 v725) := fun v725 => decidable_of_iff' _ (Iff.of_eq (k1_chk418.eq_1 v725))
theorem k1_idx418_inb : ∀ (v725 : IVec S16 32) (k1_hw418 : k1_chk418 v725), ∀ a x, ((![v725] : Fin 1 → IVec S16 32) a x).toNat < S10000.size a := fun v725 k1_hw418 => k1_hw418
def k1_off421 (k1_t53 : Fin k1_t53_loop.trips) : Fin 2 → Nat :=
  let c0_i32_251 : BitVec 32 := 0#32
  let c1_i32_253 : BitVec 32 := 1#32
  let arg11 : BitVec 32 := Scf.iv c0_i32_251 c1_i32_253 k1_t53
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c320_330 : Index := 320#32
  ![v730.toNat, 320]

def k1_chk419 (v731 : IVec S16 32) : Prop :=
  (∀ a x, ((![v731] : Fin 1 → IVec S16 32) a x).toNat < S10000.size a)
instance k1_chk419.dec : ∀ (v731 : IVec S16 32), Decidable (k1_chk419 v731) := fun v731 => decidable_of_iff' _ (Iff.of_eq (k1_chk419.eq_1 v731))
theorem k1_idx419_inb : ∀ (v731 : IVec S16 32) (k1_hw419 : k1_chk419 v731), ∀ a x, ((![v731] : Fin 1 → IVec S16 32) a x).toNat < S10000.size a := fun v731 k1_hw419 => k1_hw419
def k1_off422 (k1_t53 : Fin k1_t53_loop.trips) : Fin 2 → Nat :=
  let c0_i32_251 : BitVec 32 := 0#32
  let c1_i32_253 : BitVec 32 := 1#32
  let arg11 : BitVec 32 := Scf.iv c0_i32_251 c1_i32_253 k1_t53
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c320_332 : Index := 320#32
  ![v736.toNat, 320]

def k1_chk420 (v737 : IVec S16 32) : Prop :=
  (∀ a x, ((![v737] : Fin 1 → IVec S16 32) a x).toNat < S10000.size a)
instance k1_chk420.dec : ∀ (v737 : IVec S16 32), Decidable (k1_chk420 v737) := fun v737 => decidable_of_iff' _ (Iff.of_eq (k1_chk420.eq_1 v737))
theorem k1_idx420_inb : ∀ (v737 : IVec S16 32) (k1_hw420 : k1_chk420 v737), ∀ a x, ((![v737] : Fin 1 → IVec S16 32) a x).toNat < S10000.size a := fun v737 k1_hw420 => k1_hw420
def k1_off423 (k1_t53 : Fin k1_t53_loop.trips) : Fin 2 → Nat :=
  let c0_i32_251 : BitVec 32 := 0#32
  let c1_i32_253 : BitVec 32 := 1#32
  let arg11 : BitVec 32 := Scf.iv c0_i32_251 c1_i32_253 k1_t53
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c320_334 : Index := 320#32
  ![v742.toNat, 320]

def k1_chk421 (v743 : IVec S16 32) : Prop :=
  (∀ a x, ((![v743] : Fin 1 → IVec S16 32) a x).toNat < S10000.size a)
instance k1_chk421.dec : ∀ (v743 : IVec S16 32), Decidable (k1_chk421 v743) := fun v743 => decidable_of_iff' _ (Iff.of_eq (k1_chk421.eq_1 v743))
theorem k1_idx421_inb : ∀ (v743 : IVec S16 32) (k1_hw421 : k1_chk421 v743), ∀ a x, ((![v743] : Fin 1 → IVec S16 32) a x).toNat < S10000.size a := fun v743 k1_hw421 => k1_hw421
def k1_off424 (k1_t53 : Fin k1_t53_loop.trips) : Fin 2 → Nat :=
  let c0_i32_251 : BitVec 32 := 0#32
  let c1_i32_253 : BitVec 32 := 1#32
  let arg11 : BitVec 32 := Scf.iv c0_i32_251 c1_i32_253 k1_t53
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c320_336 : Index := 320#32
  ![v748.toNat, 320]

def k1_chk422 (v749 : IVec S16 32) : Prop :=
  (∀ a x, ((![v749] : Fin 1 → IVec S16 32) a x).toNat < S10000.size a)
instance k1_chk422.dec : ∀ (v749 : IVec S16 32), Decidable (k1_chk422 v749) := fun v749 => decidable_of_iff' _ (Iff.of_eq (k1_chk422.eq_1 v749))
theorem k1_idx422_inb : ∀ (v749 : IVec S16 32) (k1_hw422 : k1_chk422 v749), ∀ a x, ((![v749] : Fin 1 → IVec S16 32) a x).toNat < S10000.size a := fun v749 k1_hw422 => k1_hw422
def k1_off425 (k1_t53 : Fin k1_t53_loop.trips) : Fin 2 → Nat :=
  let c0_i32_251 : BitVec 32 := 0#32
  let c1_i32_253 : BitVec 32 := 1#32
  let arg11 : BitVec 32 := Scf.iv c0_i32_251 c1_i32_253 k1_t53
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c320_338 : Index := 320#32
  ![v754.toNat, 320]

def k1_chk423 (v755 : IVec S16 32) : Prop :=
  (∀ a x, ((![v755] : Fin 1 → IVec S16 32) a x).toNat < S10000.size a)
instance k1_chk423.dec : ∀ (v755 : IVec S16 32), Decidable (k1_chk423 v755) := fun v755 => decidable_of_iff' _ (Iff.of_eq (k1_chk423.eq_1 v755))
theorem k1_idx423_inb : ∀ (v755 : IVec S16 32) (k1_hw423 : k1_chk423 v755), ∀ a x, ((![v755] : Fin 1 → IVec S16 32) a x).toNat < S10000.size a := fun v755 k1_hw423 => k1_hw423
def k1_off426 (k1_t53 : Fin k1_t53_loop.trips) : Fin 2 → Nat :=
  let c0_i32_251 : BitVec 32 := 0#32
  let c1_i32_253 : BitVec 32 := 1#32
  let arg11 : BitVec 32 := Scf.iv c0_i32_251 c1_i32_253 k1_t53
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c320_340 : Index := 320#32
  ![v760.toNat, 320]

def k1_chk424 (v761 : IVec S16 32) : Prop :=
  (∀ a x, ((![v761] : Fin 1 → IVec S16 32) a x).toNat < S10000.size a)
instance k1_chk424.dec : ∀ (v761 : IVec S16 32), Decidable (k1_chk424 v761) := fun v761 => decidable_of_iff' _ (Iff.of_eq (k1_chk424.eq_1 v761))
theorem k1_idx424_inb : ∀ (v761 : IVec S16 32) (k1_hw424 : k1_chk424 v761), ∀ a x, ((![v761] : Fin 1 → IVec S16 32) a x).toNat < S10000.size a := fun v761 k1_hw424 => k1_hw424
@[reducible] def k1_t54_loop : Scf.Loop 32 :=
  let c0_i32_257 : BitVec 32 := 0#32
  let c12_i32_258 : BitVec 32 := 12#32
  let v584 : BitVec 32 := Scalar.addi c0_i32_257 c12_i32_258
  let c1_i32_259 : BitVec 32 := 1#32
  ⟨c0_i32_257, v584, c1_i32_259⟩
def k1_off427 (k1_t54 : Fin k1_t54_loop.trips) : Fin 2 → Nat :=
  let c0_i32_257 : BitVec 32 := 0#32
  let c1_i32_259 : BitVec 32 := 1#32
  let arg11 : BitVec 32 := Scf.iv c0_i32_257 c1_i32_259 k1_t54
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c336_324 : Index := 336#32
  ![v718.toNat, 336]

def k1_chk425 (v719 : IVec S16 32) : Prop :=
  (∀ a x, ((![v719] : Fin 1 → IVec S16 32) a x).toNat < S10000.size a)
instance k1_chk425.dec : ∀ (v719 : IVec S16 32), Decidable (k1_chk425 v719) := fun v719 => decidable_of_iff' _ (Iff.of_eq (k1_chk425.eq_1 v719))
theorem k1_idx425_inb : ∀ (v719 : IVec S16 32) (k1_hw425 : k1_chk425 v719), ∀ a x, ((![v719] : Fin 1 → IVec S16 32) a x).toNat < S10000.size a := fun v719 k1_hw425 => k1_hw425
def k1_off428 (k1_t54 : Fin k1_t54_loop.trips) : Fin 2 → Nat :=
  let c0_i32_257 : BitVec 32 := 0#32
  let c1_i32_259 : BitVec 32 := 1#32
  let arg11 : BitVec 32 := Scf.iv c0_i32_257 c1_i32_259 k1_t54
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c336_327 : Index := 336#32
  ![v724.toNat, 336]

def k1_chk426 (v725 : IVec S16 32) : Prop :=
  (∀ a x, ((![v725] : Fin 1 → IVec S16 32) a x).toNat < S10000.size a)
instance k1_chk426.dec : ∀ (v725 : IVec S16 32), Decidable (k1_chk426 v725) := fun v725 => decidable_of_iff' _ (Iff.of_eq (k1_chk426.eq_1 v725))
theorem k1_idx426_inb : ∀ (v725 : IVec S16 32) (k1_hw426 : k1_chk426 v725), ∀ a x, ((![v725] : Fin 1 → IVec S16 32) a x).toNat < S10000.size a := fun v725 k1_hw426 => k1_hw426
def k1_off429 (k1_t54 : Fin k1_t54_loop.trips) : Fin 2 → Nat :=
  let c0_i32_257 : BitVec 32 := 0#32
  let c1_i32_259 : BitVec 32 := 1#32
  let arg11 : BitVec 32 := Scf.iv c0_i32_257 c1_i32_259 k1_t54
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c336_330 : Index := 336#32
  ![v730.toNat, 336]

def k1_chk427 (v731 : IVec S16 32) : Prop :=
  (∀ a x, ((![v731] : Fin 1 → IVec S16 32) a x).toNat < S10000.size a)
instance k1_chk427.dec : ∀ (v731 : IVec S16 32), Decidable (k1_chk427 v731) := fun v731 => decidable_of_iff' _ (Iff.of_eq (k1_chk427.eq_1 v731))
theorem k1_idx427_inb : ∀ (v731 : IVec S16 32) (k1_hw427 : k1_chk427 v731), ∀ a x, ((![v731] : Fin 1 → IVec S16 32) a x).toNat < S10000.size a := fun v731 k1_hw427 => k1_hw427
def k1_off430 (k1_t54 : Fin k1_t54_loop.trips) : Fin 2 → Nat :=
  let c0_i32_257 : BitVec 32 := 0#32
  let c1_i32_259 : BitVec 32 := 1#32
  let arg11 : BitVec 32 := Scf.iv c0_i32_257 c1_i32_259 k1_t54
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c336_332 : Index := 336#32
  ![v736.toNat, 336]

def k1_chk428 (v737 : IVec S16 32) : Prop :=
  (∀ a x, ((![v737] : Fin 1 → IVec S16 32) a x).toNat < S10000.size a)
instance k1_chk428.dec : ∀ (v737 : IVec S16 32), Decidable (k1_chk428 v737) := fun v737 => decidable_of_iff' _ (Iff.of_eq (k1_chk428.eq_1 v737))
theorem k1_idx428_inb : ∀ (v737 : IVec S16 32) (k1_hw428 : k1_chk428 v737), ∀ a x, ((![v737] : Fin 1 → IVec S16 32) a x).toNat < S10000.size a := fun v737 k1_hw428 => k1_hw428
def k1_off431 (k1_t54 : Fin k1_t54_loop.trips) : Fin 2 → Nat :=
  let c0_i32_257 : BitVec 32 := 0#32
  let c1_i32_259 : BitVec 32 := 1#32
  let arg11 : BitVec 32 := Scf.iv c0_i32_257 c1_i32_259 k1_t54
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c336_334 : Index := 336#32
  ![v742.toNat, 336]

def k1_chk429 (v743 : IVec S16 32) : Prop :=
  (∀ a x, ((![v743] : Fin 1 → IVec S16 32) a x).toNat < S10000.size a)
instance k1_chk429.dec : ∀ (v743 : IVec S16 32), Decidable (k1_chk429 v743) := fun v743 => decidable_of_iff' _ (Iff.of_eq (k1_chk429.eq_1 v743))
theorem k1_idx429_inb : ∀ (v743 : IVec S16 32) (k1_hw429 : k1_chk429 v743), ∀ a x, ((![v743] : Fin 1 → IVec S16 32) a x).toNat < S10000.size a := fun v743 k1_hw429 => k1_hw429
def k1_off432 (k1_t54 : Fin k1_t54_loop.trips) : Fin 2 → Nat :=
  let c0_i32_257 : BitVec 32 := 0#32
  let c1_i32_259 : BitVec 32 := 1#32
  let arg11 : BitVec 32 := Scf.iv c0_i32_257 c1_i32_259 k1_t54
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c336_336 : Index := 336#32
  ![v748.toNat, 336]

def k1_chk430 (v749 : IVec S16 32) : Prop :=
  (∀ a x, ((![v749] : Fin 1 → IVec S16 32) a x).toNat < S10000.size a)
instance k1_chk430.dec : ∀ (v749 : IVec S16 32), Decidable (k1_chk430 v749) := fun v749 => decidable_of_iff' _ (Iff.of_eq (k1_chk430.eq_1 v749))
theorem k1_idx430_inb : ∀ (v749 : IVec S16 32) (k1_hw430 : k1_chk430 v749), ∀ a x, ((![v749] : Fin 1 → IVec S16 32) a x).toNat < S10000.size a := fun v749 k1_hw430 => k1_hw430
def k1_off433 (k1_t54 : Fin k1_t54_loop.trips) : Fin 2 → Nat :=
  let c0_i32_257 : BitVec 32 := 0#32
  let c1_i32_259 : BitVec 32 := 1#32
  let arg11 : BitVec 32 := Scf.iv c0_i32_257 c1_i32_259 k1_t54
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c336_338 : Index := 336#32
  ![v754.toNat, 336]

def k1_chk431 (v755 : IVec S16 32) : Prop :=
  (∀ a x, ((![v755] : Fin 1 → IVec S16 32) a x).toNat < S10000.size a)
instance k1_chk431.dec : ∀ (v755 : IVec S16 32), Decidable (k1_chk431 v755) := fun v755 => decidable_of_iff' _ (Iff.of_eq (k1_chk431.eq_1 v755))
theorem k1_idx431_inb : ∀ (v755 : IVec S16 32) (k1_hw431 : k1_chk431 v755), ∀ a x, ((![v755] : Fin 1 → IVec S16 32) a x).toNat < S10000.size a := fun v755 k1_hw431 => k1_hw431
def k1_off434 (k1_t54 : Fin k1_t54_loop.trips) : Fin 2 → Nat :=
  let c0_i32_257 : BitVec 32 := 0#32
  let c1_i32_259 : BitVec 32 := 1#32
  let arg11 : BitVec 32 := Scf.iv c0_i32_257 c1_i32_259 k1_t54
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c336_340 : Index := 336#32
  ![v760.toNat, 336]

def k1_chk432 (v761 : IVec S16 32) : Prop :=
  (∀ a x, ((![v761] : Fin 1 → IVec S16 32) a x).toNat < S10000.size a)
instance k1_chk432.dec : ∀ (v761 : IVec S16 32), Decidable (k1_chk432 v761) := fun v761 => decidable_of_iff' _ (Iff.of_eq (k1_chk432.eq_1 v761))
theorem k1_idx432_inb : ∀ (v761 : IVec S16 32) (k1_hw432 : k1_chk432 v761), ∀ a x, ((![v761] : Fin 1 → IVec S16 32) a x).toNat < S10000.size a := fun v761 k1_hw432 => k1_hw432
@[reducible] def k1_t55_loop : Scf.Loop 32 :=
  let c0_i32_263 : BitVec 32 := 0#32
  let c12_i32_264 : BitVec 32 := 12#32
  let v596 : BitVec 32 := Scalar.addi c0_i32_263 c12_i32_264
  let c1_i32_265 : BitVec 32 := 1#32
  ⟨c0_i32_263, v596, c1_i32_265⟩
def k1_off435 (k1_t55 : Fin k1_t55_loop.trips) : Fin 2 → Nat :=
  let c0_i32_263 : BitVec 32 := 0#32
  let c1_i32_265 : BitVec 32 := 1#32
  let arg11 : BitVec 32 := Scf.iv c0_i32_263 c1_i32_265 k1_t55
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c352_324 : Index := 352#32
  ![v718.toNat, 352]

def k1_chk433 (v719 : IVec S16 32) : Prop :=
  (∀ a x, ((![v719] : Fin 1 → IVec S16 32) a x).toNat < S10000.size a)
instance k1_chk433.dec : ∀ (v719 : IVec S16 32), Decidable (k1_chk433 v719) := fun v719 => decidable_of_iff' _ (Iff.of_eq (k1_chk433.eq_1 v719))
theorem k1_idx433_inb : ∀ (v719 : IVec S16 32) (k1_hw433 : k1_chk433 v719), ∀ a x, ((![v719] : Fin 1 → IVec S16 32) a x).toNat < S10000.size a := fun v719 k1_hw433 => k1_hw433
def k1_off436 (k1_t55 : Fin k1_t55_loop.trips) : Fin 2 → Nat :=
  let c0_i32_263 : BitVec 32 := 0#32
  let c1_i32_265 : BitVec 32 := 1#32
  let arg11 : BitVec 32 := Scf.iv c0_i32_263 c1_i32_265 k1_t55
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c352_327 : Index := 352#32
  ![v724.toNat, 352]

def k1_chk434 (v725 : IVec S16 32) : Prop :=
  (∀ a x, ((![v725] : Fin 1 → IVec S16 32) a x).toNat < S10000.size a)
instance k1_chk434.dec : ∀ (v725 : IVec S16 32), Decidable (k1_chk434 v725) := fun v725 => decidable_of_iff' _ (Iff.of_eq (k1_chk434.eq_1 v725))
theorem k1_idx434_inb : ∀ (v725 : IVec S16 32) (k1_hw434 : k1_chk434 v725), ∀ a x, ((![v725] : Fin 1 → IVec S16 32) a x).toNat < S10000.size a := fun v725 k1_hw434 => k1_hw434
def k1_off437 (k1_t55 : Fin k1_t55_loop.trips) : Fin 2 → Nat :=
  let c0_i32_263 : BitVec 32 := 0#32
  let c1_i32_265 : BitVec 32 := 1#32
  let arg11 : BitVec 32 := Scf.iv c0_i32_263 c1_i32_265 k1_t55
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c352_330 : Index := 352#32
  ![v730.toNat, 352]

def k1_chk435 (v731 : IVec S16 32) : Prop :=
  (∀ a x, ((![v731] : Fin 1 → IVec S16 32) a x).toNat < S10000.size a)
instance k1_chk435.dec : ∀ (v731 : IVec S16 32), Decidable (k1_chk435 v731) := fun v731 => decidable_of_iff' _ (Iff.of_eq (k1_chk435.eq_1 v731))
theorem k1_idx435_inb : ∀ (v731 : IVec S16 32) (k1_hw435 : k1_chk435 v731), ∀ a x, ((![v731] : Fin 1 → IVec S16 32) a x).toNat < S10000.size a := fun v731 k1_hw435 => k1_hw435
def k1_off438 (k1_t55 : Fin k1_t55_loop.trips) : Fin 2 → Nat :=
  let c0_i32_263 : BitVec 32 := 0#32
  let c1_i32_265 : BitVec 32 := 1#32
  let arg11 : BitVec 32 := Scf.iv c0_i32_263 c1_i32_265 k1_t55
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c352_332 : Index := 352#32
  ![v736.toNat, 352]

def k1_chk436 (v737 : IVec S16 32) : Prop :=
  (∀ a x, ((![v737] : Fin 1 → IVec S16 32) a x).toNat < S10000.size a)
instance k1_chk436.dec : ∀ (v737 : IVec S16 32), Decidable (k1_chk436 v737) := fun v737 => decidable_of_iff' _ (Iff.of_eq (k1_chk436.eq_1 v737))
theorem k1_idx436_inb : ∀ (v737 : IVec S16 32) (k1_hw436 : k1_chk436 v737), ∀ a x, ((![v737] : Fin 1 → IVec S16 32) a x).toNat < S10000.size a := fun v737 k1_hw436 => k1_hw436
def k1_off439 (k1_t55 : Fin k1_t55_loop.trips) : Fin 2 → Nat :=
  let c0_i32_263 : BitVec 32 := 0#32
  let c1_i32_265 : BitVec 32 := 1#32
  let arg11 : BitVec 32 := Scf.iv c0_i32_263 c1_i32_265 k1_t55
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c352_334 : Index := 352#32
  ![v742.toNat, 352]

def k1_chk437 (v743 : IVec S16 32) : Prop :=
  (∀ a x, ((![v743] : Fin 1 → IVec S16 32) a x).toNat < S10000.size a)
instance k1_chk437.dec : ∀ (v743 : IVec S16 32), Decidable (k1_chk437 v743) := fun v743 => decidable_of_iff' _ (Iff.of_eq (k1_chk437.eq_1 v743))
theorem k1_idx437_inb : ∀ (v743 : IVec S16 32) (k1_hw437 : k1_chk437 v743), ∀ a x, ((![v743] : Fin 1 → IVec S16 32) a x).toNat < S10000.size a := fun v743 k1_hw437 => k1_hw437
def k1_off440 (k1_t55 : Fin k1_t55_loop.trips) : Fin 2 → Nat :=
  let c0_i32_263 : BitVec 32 := 0#32
  let c1_i32_265 : BitVec 32 := 1#32
  let arg11 : BitVec 32 := Scf.iv c0_i32_263 c1_i32_265 k1_t55
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c352_336 : Index := 352#32
  ![v748.toNat, 352]

def k1_chk438 (v749 : IVec S16 32) : Prop :=
  (∀ a x, ((![v749] : Fin 1 → IVec S16 32) a x).toNat < S10000.size a)
instance k1_chk438.dec : ∀ (v749 : IVec S16 32), Decidable (k1_chk438 v749) := fun v749 => decidable_of_iff' _ (Iff.of_eq (k1_chk438.eq_1 v749))
theorem k1_idx438_inb : ∀ (v749 : IVec S16 32) (k1_hw438 : k1_chk438 v749), ∀ a x, ((![v749] : Fin 1 → IVec S16 32) a x).toNat < S10000.size a := fun v749 k1_hw438 => k1_hw438
def k1_off441 (k1_t55 : Fin k1_t55_loop.trips) : Fin 2 → Nat :=
  let c0_i32_263 : BitVec 32 := 0#32
  let c1_i32_265 : BitVec 32 := 1#32
  let arg11 : BitVec 32 := Scf.iv c0_i32_263 c1_i32_265 k1_t55
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c352_338 : Index := 352#32
  ![v754.toNat, 352]

def k1_chk439 (v755 : IVec S16 32) : Prop :=
  (∀ a x, ((![v755] : Fin 1 → IVec S16 32) a x).toNat < S10000.size a)
instance k1_chk439.dec : ∀ (v755 : IVec S16 32), Decidable (k1_chk439 v755) := fun v755 => decidable_of_iff' _ (Iff.of_eq (k1_chk439.eq_1 v755))
theorem k1_idx439_inb : ∀ (v755 : IVec S16 32) (k1_hw439 : k1_chk439 v755), ∀ a x, ((![v755] : Fin 1 → IVec S16 32) a x).toNat < S10000.size a := fun v755 k1_hw439 => k1_hw439
def k1_off442 (k1_t55 : Fin k1_t55_loop.trips) : Fin 2 → Nat :=
  let c0_i32_263 : BitVec 32 := 0#32
  let c1_i32_265 : BitVec 32 := 1#32
  let arg11 : BitVec 32 := Scf.iv c0_i32_263 c1_i32_265 k1_t55
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c352_340 : Index := 352#32
  ![v760.toNat, 352]

def k1_chk440 (v761 : IVec S16 32) : Prop :=
  (∀ a x, ((![v761] : Fin 1 → IVec S16 32) a x).toNat < S10000.size a)
instance k1_chk440.dec : ∀ (v761 : IVec S16 32), Decidable (k1_chk440 v761) := fun v761 => decidable_of_iff' _ (Iff.of_eq (k1_chk440.eq_1 v761))
theorem k1_idx440_inb : ∀ (v761 : IVec S16 32) (k1_hw440 : k1_chk440 v761), ∀ a x, ((![v761] : Fin 1 → IVec S16 32) a x).toNat < S10000.size a := fun v761 k1_hw440 => k1_hw440
@[reducible] def k1_t56_loop : Scf.Loop 32 :=
  let c0_i32_269 : BitVec 32 := 0#32
  let c12_i32_270 : BitVec 32 := 12#32
  let v608 : BitVec 32 := Scalar.addi c0_i32_269 c12_i32_270
  let c1_i32_271 : BitVec 32 := 1#32
  ⟨c0_i32_269, v608, c1_i32_271⟩
def k1_off443 (k1_t56 : Fin k1_t56_loop.trips) : Fin 2 → Nat :=
  let c0_i32_269 : BitVec 32 := 0#32
  let c1_i32_271 : BitVec 32 := 1#32
  let arg11 : BitVec 32 := Scf.iv c0_i32_269 c1_i32_271 k1_t56
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c368_324 : Index := 368#32
  ![v718.toNat, 368]

def k1_chk441 (v719 : IVec S16 32) : Prop :=
  (∀ a x, ((![v719] : Fin 1 → IVec S16 32) a x).toNat < S10000.size a)
instance k1_chk441.dec : ∀ (v719 : IVec S16 32), Decidable (k1_chk441 v719) := fun v719 => decidable_of_iff' _ (Iff.of_eq (k1_chk441.eq_1 v719))
theorem k1_idx441_inb : ∀ (v719 : IVec S16 32) (k1_hw441 : k1_chk441 v719), ∀ a x, ((![v719] : Fin 1 → IVec S16 32) a x).toNat < S10000.size a := fun v719 k1_hw441 => k1_hw441
def k1_off444 (k1_t56 : Fin k1_t56_loop.trips) : Fin 2 → Nat :=
  let c0_i32_269 : BitVec 32 := 0#32
  let c1_i32_271 : BitVec 32 := 1#32
  let arg11 : BitVec 32 := Scf.iv c0_i32_269 c1_i32_271 k1_t56
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c368_327 : Index := 368#32
  ![v724.toNat, 368]

def k1_chk442 (v725 : IVec S16 32) : Prop :=
  (∀ a x, ((![v725] : Fin 1 → IVec S16 32) a x).toNat < S10000.size a)
instance k1_chk442.dec : ∀ (v725 : IVec S16 32), Decidable (k1_chk442 v725) := fun v725 => decidable_of_iff' _ (Iff.of_eq (k1_chk442.eq_1 v725))
theorem k1_idx442_inb : ∀ (v725 : IVec S16 32) (k1_hw442 : k1_chk442 v725), ∀ a x, ((![v725] : Fin 1 → IVec S16 32) a x).toNat < S10000.size a := fun v725 k1_hw442 => k1_hw442
def k1_off445 (k1_t56 : Fin k1_t56_loop.trips) : Fin 2 → Nat :=
  let c0_i32_269 : BitVec 32 := 0#32
  let c1_i32_271 : BitVec 32 := 1#32
  let arg11 : BitVec 32 := Scf.iv c0_i32_269 c1_i32_271 k1_t56
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c368_330 : Index := 368#32
  ![v730.toNat, 368]

def k1_chk443 (v731 : IVec S16 32) : Prop :=
  (∀ a x, ((![v731] : Fin 1 → IVec S16 32) a x).toNat < S10000.size a)
instance k1_chk443.dec : ∀ (v731 : IVec S16 32), Decidable (k1_chk443 v731) := fun v731 => decidable_of_iff' _ (Iff.of_eq (k1_chk443.eq_1 v731))
theorem k1_idx443_inb : ∀ (v731 : IVec S16 32) (k1_hw443 : k1_chk443 v731), ∀ a x, ((![v731] : Fin 1 → IVec S16 32) a x).toNat < S10000.size a := fun v731 k1_hw443 => k1_hw443
def k1_off446 (k1_t56 : Fin k1_t56_loop.trips) : Fin 2 → Nat :=
  let c0_i32_269 : BitVec 32 := 0#32
  let c1_i32_271 : BitVec 32 := 1#32
  let arg11 : BitVec 32 := Scf.iv c0_i32_269 c1_i32_271 k1_t56
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c368_332 : Index := 368#32
  ![v736.toNat, 368]

def k1_chk444 (v737 : IVec S16 32) : Prop :=
  (∀ a x, ((![v737] : Fin 1 → IVec S16 32) a x).toNat < S10000.size a)
instance k1_chk444.dec : ∀ (v737 : IVec S16 32), Decidable (k1_chk444 v737) := fun v737 => decidable_of_iff' _ (Iff.of_eq (k1_chk444.eq_1 v737))
theorem k1_idx444_inb : ∀ (v737 : IVec S16 32) (k1_hw444 : k1_chk444 v737), ∀ a x, ((![v737] : Fin 1 → IVec S16 32) a x).toNat < S10000.size a := fun v737 k1_hw444 => k1_hw444
def k1_off447 (k1_t56 : Fin k1_t56_loop.trips) : Fin 2 → Nat :=
  let c0_i32_269 : BitVec 32 := 0#32
  let c1_i32_271 : BitVec 32 := 1#32
  let arg11 : BitVec 32 := Scf.iv c0_i32_269 c1_i32_271 k1_t56
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c368_334 : Index := 368#32
  ![v742.toNat, 368]

def k1_chk445 (v743 : IVec S16 32) : Prop :=
  (∀ a x, ((![v743] : Fin 1 → IVec S16 32) a x).toNat < S10000.size a)
instance k1_chk445.dec : ∀ (v743 : IVec S16 32), Decidable (k1_chk445 v743) := fun v743 => decidable_of_iff' _ (Iff.of_eq (k1_chk445.eq_1 v743))
theorem k1_idx445_inb : ∀ (v743 : IVec S16 32) (k1_hw445 : k1_chk445 v743), ∀ a x, ((![v743] : Fin 1 → IVec S16 32) a x).toNat < S10000.size a := fun v743 k1_hw445 => k1_hw445
def k1_off448 (k1_t56 : Fin k1_t56_loop.trips) : Fin 2 → Nat :=
  let c0_i32_269 : BitVec 32 := 0#32
  let c1_i32_271 : BitVec 32 := 1#32
  let arg11 : BitVec 32 := Scf.iv c0_i32_269 c1_i32_271 k1_t56
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c368_336 : Index := 368#32
  ![v748.toNat, 368]

def k1_chk446 (v749 : IVec S16 32) : Prop :=
  (∀ a x, ((![v749] : Fin 1 → IVec S16 32) a x).toNat < S10000.size a)
instance k1_chk446.dec : ∀ (v749 : IVec S16 32), Decidable (k1_chk446 v749) := fun v749 => decidable_of_iff' _ (Iff.of_eq (k1_chk446.eq_1 v749))
theorem k1_idx446_inb : ∀ (v749 : IVec S16 32) (k1_hw446 : k1_chk446 v749), ∀ a x, ((![v749] : Fin 1 → IVec S16 32) a x).toNat < S10000.size a := fun v749 k1_hw446 => k1_hw446
def k1_off449 (k1_t56 : Fin k1_t56_loop.trips) : Fin 2 → Nat :=
  let c0_i32_269 : BitVec 32 := 0#32
  let c1_i32_271 : BitVec 32 := 1#32
  let arg11 : BitVec 32 := Scf.iv c0_i32_269 c1_i32_271 k1_t56
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c368_338 : Index := 368#32
  ![v754.toNat, 368]

def k1_chk447 (v755 : IVec S16 32) : Prop :=
  (∀ a x, ((![v755] : Fin 1 → IVec S16 32) a x).toNat < S10000.size a)
instance k1_chk447.dec : ∀ (v755 : IVec S16 32), Decidable (k1_chk447 v755) := fun v755 => decidable_of_iff' _ (Iff.of_eq (k1_chk447.eq_1 v755))
theorem k1_idx447_inb : ∀ (v755 : IVec S16 32) (k1_hw447 : k1_chk447 v755), ∀ a x, ((![v755] : Fin 1 → IVec S16 32) a x).toNat < S10000.size a := fun v755 k1_hw447 => k1_hw447
def k1_off450 (k1_t56 : Fin k1_t56_loop.trips) : Fin 2 → Nat :=
  let c0_i32_269 : BitVec 32 := 0#32
  let c1_i32_271 : BitVec 32 := 1#32
  let arg11 : BitVec 32 := Scf.iv c0_i32_269 c1_i32_271 k1_t56
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c368_340 : Index := 368#32
  ![v760.toNat, 368]

def k1_chk448 (v761 : IVec S16 32) : Prop :=
  (∀ a x, ((![v761] : Fin 1 → IVec S16 32) a x).toNat < S10000.size a)
instance k1_chk448.dec : ∀ (v761 : IVec S16 32), Decidable (k1_chk448 v761) := fun v761 => decidable_of_iff' _ (Iff.of_eq (k1_chk448.eq_1 v761))
theorem k1_idx448_inb : ∀ (v761 : IVec S16 32) (k1_hw448 : k1_chk448 v761), ∀ a x, ((![v761] : Fin 1 → IVec S16 32) a x).toNat < S10000.size a := fun v761 k1_hw448 => k1_hw448
@[reducible] def k1_t57_loop : Scf.Loop 32 :=
  let c0_i32_275 : BitVec 32 := 0#32
  let c12_i32_276 : BitVec 32 := 12#32
  let v620 : BitVec 32 := Scalar.addi c0_i32_275 c12_i32_276
  let c1_i32_277 : BitVec 32 := 1#32
  ⟨c0_i32_275, v620, c1_i32_277⟩
def k1_off451 (k1_t57 : Fin k1_t57_loop.trips) : Fin 2 → Nat :=
  let c0_i32_275 : BitVec 32 := 0#32
  let c1_i32_277 : BitVec 32 := 1#32
  let arg11 : BitVec 32 := Scf.iv c0_i32_275 c1_i32_277 k1_t57
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c384_324 : Index := 384#32
  ![v718.toNat, 384]

def k1_chk449 (v719 : IVec S16 32) : Prop :=
  (∀ a x, ((![v719] : Fin 1 → IVec S16 32) a x).toNat < S10000.size a)
instance k1_chk449.dec : ∀ (v719 : IVec S16 32), Decidable (k1_chk449 v719) := fun v719 => decidable_of_iff' _ (Iff.of_eq (k1_chk449.eq_1 v719))
theorem k1_idx449_inb : ∀ (v719 : IVec S16 32) (k1_hw449 : k1_chk449 v719), ∀ a x, ((![v719] : Fin 1 → IVec S16 32) a x).toNat < S10000.size a := fun v719 k1_hw449 => k1_hw449
def k1_off452 (k1_t57 : Fin k1_t57_loop.trips) : Fin 2 → Nat :=
  let c0_i32_275 : BitVec 32 := 0#32
  let c1_i32_277 : BitVec 32 := 1#32
  let arg11 : BitVec 32 := Scf.iv c0_i32_275 c1_i32_277 k1_t57
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c384_327 : Index := 384#32
  ![v724.toNat, 384]

def k1_chk450 (v725 : IVec S16 32) : Prop :=
  (∀ a x, ((![v725] : Fin 1 → IVec S16 32) a x).toNat < S10000.size a)
instance k1_chk450.dec : ∀ (v725 : IVec S16 32), Decidable (k1_chk450 v725) := fun v725 => decidable_of_iff' _ (Iff.of_eq (k1_chk450.eq_1 v725))
theorem k1_idx450_inb : ∀ (v725 : IVec S16 32) (k1_hw450 : k1_chk450 v725), ∀ a x, ((![v725] : Fin 1 → IVec S16 32) a x).toNat < S10000.size a := fun v725 k1_hw450 => k1_hw450
def k1_off453 (k1_t57 : Fin k1_t57_loop.trips) : Fin 2 → Nat :=
  let c0_i32_275 : BitVec 32 := 0#32
  let c1_i32_277 : BitVec 32 := 1#32
  let arg11 : BitVec 32 := Scf.iv c0_i32_275 c1_i32_277 k1_t57
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c384_330 : Index := 384#32
  ![v730.toNat, 384]

def k1_chk451 (v731 : IVec S16 32) : Prop :=
  (∀ a x, ((![v731] : Fin 1 → IVec S16 32) a x).toNat < S10000.size a)
instance k1_chk451.dec : ∀ (v731 : IVec S16 32), Decidable (k1_chk451 v731) := fun v731 => decidable_of_iff' _ (Iff.of_eq (k1_chk451.eq_1 v731))
theorem k1_idx451_inb : ∀ (v731 : IVec S16 32) (k1_hw451 : k1_chk451 v731), ∀ a x, ((![v731] : Fin 1 → IVec S16 32) a x).toNat < S10000.size a := fun v731 k1_hw451 => k1_hw451
def k1_off454 (k1_t57 : Fin k1_t57_loop.trips) : Fin 2 → Nat :=
  let c0_i32_275 : BitVec 32 := 0#32
  let c1_i32_277 : BitVec 32 := 1#32
  let arg11 : BitVec 32 := Scf.iv c0_i32_275 c1_i32_277 k1_t57
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c384_332 : Index := 384#32
  ![v736.toNat, 384]

def k1_chk452 (v737 : IVec S16 32) : Prop :=
  (∀ a x, ((![v737] : Fin 1 → IVec S16 32) a x).toNat < S10000.size a)
instance k1_chk452.dec : ∀ (v737 : IVec S16 32), Decidable (k1_chk452 v737) := fun v737 => decidable_of_iff' _ (Iff.of_eq (k1_chk452.eq_1 v737))
theorem k1_idx452_inb : ∀ (v737 : IVec S16 32) (k1_hw452 : k1_chk452 v737), ∀ a x, ((![v737] : Fin 1 → IVec S16 32) a x).toNat < S10000.size a := fun v737 k1_hw452 => k1_hw452
def k1_off455 (k1_t57 : Fin k1_t57_loop.trips) : Fin 2 → Nat :=
  let c0_i32_275 : BitVec 32 := 0#32
  let c1_i32_277 : BitVec 32 := 1#32
  let arg11 : BitVec 32 := Scf.iv c0_i32_275 c1_i32_277 k1_t57
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c384_334 : Index := 384#32
  ![v742.toNat, 384]

def k1_chk453 (v743 : IVec S16 32) : Prop :=
  (∀ a x, ((![v743] : Fin 1 → IVec S16 32) a x).toNat < S10000.size a)
instance k1_chk453.dec : ∀ (v743 : IVec S16 32), Decidable (k1_chk453 v743) := fun v743 => decidable_of_iff' _ (Iff.of_eq (k1_chk453.eq_1 v743))
theorem k1_idx453_inb : ∀ (v743 : IVec S16 32) (k1_hw453 : k1_chk453 v743), ∀ a x, ((![v743] : Fin 1 → IVec S16 32) a x).toNat < S10000.size a := fun v743 k1_hw453 => k1_hw453
def k1_off456 (k1_t57 : Fin k1_t57_loop.trips) : Fin 2 → Nat :=
  let c0_i32_275 : BitVec 32 := 0#32
  let c1_i32_277 : BitVec 32 := 1#32
  let arg11 : BitVec 32 := Scf.iv c0_i32_275 c1_i32_277 k1_t57
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c384_336 : Index := 384#32
  ![v748.toNat, 384]

def k1_chk454 (v749 : IVec S16 32) : Prop :=
  (∀ a x, ((![v749] : Fin 1 → IVec S16 32) a x).toNat < S10000.size a)
instance k1_chk454.dec : ∀ (v749 : IVec S16 32), Decidable (k1_chk454 v749) := fun v749 => decidable_of_iff' _ (Iff.of_eq (k1_chk454.eq_1 v749))
theorem k1_idx454_inb : ∀ (v749 : IVec S16 32) (k1_hw454 : k1_chk454 v749), ∀ a x, ((![v749] : Fin 1 → IVec S16 32) a x).toNat < S10000.size a := fun v749 k1_hw454 => k1_hw454
def k1_off457 (k1_t57 : Fin k1_t57_loop.trips) : Fin 2 → Nat :=
  let c0_i32_275 : BitVec 32 := 0#32
  let c1_i32_277 : BitVec 32 := 1#32
  let arg11 : BitVec 32 := Scf.iv c0_i32_275 c1_i32_277 k1_t57
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c384_338 : Index := 384#32
  ![v754.toNat, 384]

def k1_chk455 (v755 : IVec S16 32) : Prop :=
  (∀ a x, ((![v755] : Fin 1 → IVec S16 32) a x).toNat < S10000.size a)
instance k1_chk455.dec : ∀ (v755 : IVec S16 32), Decidable (k1_chk455 v755) := fun v755 => decidable_of_iff' _ (Iff.of_eq (k1_chk455.eq_1 v755))
theorem k1_idx455_inb : ∀ (v755 : IVec S16 32) (k1_hw455 : k1_chk455 v755), ∀ a x, ((![v755] : Fin 1 → IVec S16 32) a x).toNat < S10000.size a := fun v755 k1_hw455 => k1_hw455
def k1_off458 (k1_t57 : Fin k1_t57_loop.trips) : Fin 2 → Nat :=
  let c0_i32_275 : BitVec 32 := 0#32
  let c1_i32_277 : BitVec 32 := 1#32
  let arg11 : BitVec 32 := Scf.iv c0_i32_275 c1_i32_277 k1_t57
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c384_340 : Index := 384#32
  ![v760.toNat, 384]

def k1_chk456 (v761 : IVec S16 32) : Prop :=
  (∀ a x, ((![v761] : Fin 1 → IVec S16 32) a x).toNat < S10000.size a)
instance k1_chk456.dec : ∀ (v761 : IVec S16 32), Decidable (k1_chk456 v761) := fun v761 => decidable_of_iff' _ (Iff.of_eq (k1_chk456.eq_1 v761))
theorem k1_idx456_inb : ∀ (v761 : IVec S16 32) (k1_hw456 : k1_chk456 v761), ∀ a x, ((![v761] : Fin 1 → IVec S16 32) a x).toNat < S10000.size a := fun v761 k1_hw456 => k1_hw456
@[reducible] def k1_t58_loop : Scf.Loop 32 :=
  let c0_i32_281 : BitVec 32 := 0#32
  let c12_i32_282 : BitVec 32 := 12#32
  let v632 : BitVec 32 := Scalar.addi c0_i32_281 c12_i32_282
  let c1_i32_283 : BitVec 32 := 1#32
  ⟨c0_i32_281, v632, c1_i32_283⟩
def k1_off459 (k1_t58 : Fin k1_t58_loop.trips) : Fin 2 → Nat :=
  let c0_i32_281 : BitVec 32 := 0#32
  let c1_i32_283 : BitVec 32 := 1#32
  let arg11 : BitVec 32 := Scf.iv c0_i32_281 c1_i32_283 k1_t58
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c400_324 : Index := 400#32
  ![v718.toNat, 400]

def k1_chk457 (v719 : IVec S16 32) : Prop :=
  (∀ a x, ((![v719] : Fin 1 → IVec S16 32) a x).toNat < S10000.size a)
instance k1_chk457.dec : ∀ (v719 : IVec S16 32), Decidable (k1_chk457 v719) := fun v719 => decidable_of_iff' _ (Iff.of_eq (k1_chk457.eq_1 v719))
theorem k1_idx457_inb : ∀ (v719 : IVec S16 32) (k1_hw457 : k1_chk457 v719), ∀ a x, ((![v719] : Fin 1 → IVec S16 32) a x).toNat < S10000.size a := fun v719 k1_hw457 => k1_hw457
def k1_off460 (k1_t58 : Fin k1_t58_loop.trips) : Fin 2 → Nat :=
  let c0_i32_281 : BitVec 32 := 0#32
  let c1_i32_283 : BitVec 32 := 1#32
  let arg11 : BitVec 32 := Scf.iv c0_i32_281 c1_i32_283 k1_t58
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c400_327 : Index := 400#32
  ![v724.toNat, 400]

def k1_chk458 (v725 : IVec S16 32) : Prop :=
  (∀ a x, ((![v725] : Fin 1 → IVec S16 32) a x).toNat < S10000.size a)
instance k1_chk458.dec : ∀ (v725 : IVec S16 32), Decidable (k1_chk458 v725) := fun v725 => decidable_of_iff' _ (Iff.of_eq (k1_chk458.eq_1 v725))
theorem k1_idx458_inb : ∀ (v725 : IVec S16 32) (k1_hw458 : k1_chk458 v725), ∀ a x, ((![v725] : Fin 1 → IVec S16 32) a x).toNat < S10000.size a := fun v725 k1_hw458 => k1_hw458
def k1_off461 (k1_t58 : Fin k1_t58_loop.trips) : Fin 2 → Nat :=
  let c0_i32_281 : BitVec 32 := 0#32
  let c1_i32_283 : BitVec 32 := 1#32
  let arg11 : BitVec 32 := Scf.iv c0_i32_281 c1_i32_283 k1_t58
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c400_330 : Index := 400#32
  ![v730.toNat, 400]

def k1_chk459 (v731 : IVec S16 32) : Prop :=
  (∀ a x, ((![v731] : Fin 1 → IVec S16 32) a x).toNat < S10000.size a)
instance k1_chk459.dec : ∀ (v731 : IVec S16 32), Decidable (k1_chk459 v731) := fun v731 => decidable_of_iff' _ (Iff.of_eq (k1_chk459.eq_1 v731))
theorem k1_idx459_inb : ∀ (v731 : IVec S16 32) (k1_hw459 : k1_chk459 v731), ∀ a x, ((![v731] : Fin 1 → IVec S16 32) a x).toNat < S10000.size a := fun v731 k1_hw459 => k1_hw459
def k1_off462 (k1_t58 : Fin k1_t58_loop.trips) : Fin 2 → Nat :=
  let c0_i32_281 : BitVec 32 := 0#32
  let c1_i32_283 : BitVec 32 := 1#32
  let arg11 : BitVec 32 := Scf.iv c0_i32_281 c1_i32_283 k1_t58
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c400_332 : Index := 400#32
  ![v736.toNat, 400]

def k1_chk460 (v737 : IVec S16 32) : Prop :=
  (∀ a x, ((![v737] : Fin 1 → IVec S16 32) a x).toNat < S10000.size a)
instance k1_chk460.dec : ∀ (v737 : IVec S16 32), Decidable (k1_chk460 v737) := fun v737 => decidable_of_iff' _ (Iff.of_eq (k1_chk460.eq_1 v737))
theorem k1_idx460_inb : ∀ (v737 : IVec S16 32) (k1_hw460 : k1_chk460 v737), ∀ a x, ((![v737] : Fin 1 → IVec S16 32) a x).toNat < S10000.size a := fun v737 k1_hw460 => k1_hw460
def k1_off463 (k1_t58 : Fin k1_t58_loop.trips) : Fin 2 → Nat :=
  let c0_i32_281 : BitVec 32 := 0#32
  let c1_i32_283 : BitVec 32 := 1#32
  let arg11 : BitVec 32 := Scf.iv c0_i32_281 c1_i32_283 k1_t58
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c400_334 : Index := 400#32
  ![v742.toNat, 400]

def k1_chk461 (v743 : IVec S16 32) : Prop :=
  (∀ a x, ((![v743] : Fin 1 → IVec S16 32) a x).toNat < S10000.size a)
instance k1_chk461.dec : ∀ (v743 : IVec S16 32), Decidable (k1_chk461 v743) := fun v743 => decidable_of_iff' _ (Iff.of_eq (k1_chk461.eq_1 v743))
theorem k1_idx461_inb : ∀ (v743 : IVec S16 32) (k1_hw461 : k1_chk461 v743), ∀ a x, ((![v743] : Fin 1 → IVec S16 32) a x).toNat < S10000.size a := fun v743 k1_hw461 => k1_hw461
def k1_off464 (k1_t58 : Fin k1_t58_loop.trips) : Fin 2 → Nat :=
  let c0_i32_281 : BitVec 32 := 0#32
  let c1_i32_283 : BitVec 32 := 1#32
  let arg11 : BitVec 32 := Scf.iv c0_i32_281 c1_i32_283 k1_t58
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c400_336 : Index := 400#32
  ![v748.toNat, 400]

def k1_chk462 (v749 : IVec S16 32) : Prop :=
  (∀ a x, ((![v749] : Fin 1 → IVec S16 32) a x).toNat < S10000.size a)
instance k1_chk462.dec : ∀ (v749 : IVec S16 32), Decidable (k1_chk462 v749) := fun v749 => decidable_of_iff' _ (Iff.of_eq (k1_chk462.eq_1 v749))
theorem k1_idx462_inb : ∀ (v749 : IVec S16 32) (k1_hw462 : k1_chk462 v749), ∀ a x, ((![v749] : Fin 1 → IVec S16 32) a x).toNat < S10000.size a := fun v749 k1_hw462 => k1_hw462
def k1_off465 (k1_t58 : Fin k1_t58_loop.trips) : Fin 2 → Nat :=
  let c0_i32_281 : BitVec 32 := 0#32
  let c1_i32_283 : BitVec 32 := 1#32
  let arg11 : BitVec 32 := Scf.iv c0_i32_281 c1_i32_283 k1_t58
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c400_338 : Index := 400#32
  ![v754.toNat, 400]

def k1_chk463 (v755 : IVec S16 32) : Prop :=
  (∀ a x, ((![v755] : Fin 1 → IVec S16 32) a x).toNat < S10000.size a)
instance k1_chk463.dec : ∀ (v755 : IVec S16 32), Decidable (k1_chk463 v755) := fun v755 => decidable_of_iff' _ (Iff.of_eq (k1_chk463.eq_1 v755))
theorem k1_idx463_inb : ∀ (v755 : IVec S16 32) (k1_hw463 : k1_chk463 v755), ∀ a x, ((![v755] : Fin 1 → IVec S16 32) a x).toNat < S10000.size a := fun v755 k1_hw463 => k1_hw463
def k1_off466 (k1_t58 : Fin k1_t58_loop.trips) : Fin 2 → Nat :=
  let c0_i32_281 : BitVec 32 := 0#32
  let c1_i32_283 : BitVec 32 := 1#32
  let arg11 : BitVec 32 := Scf.iv c0_i32_281 c1_i32_283 k1_t58
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c400_340 : Index := 400#32
  ![v760.toNat, 400]

def k1_chk464 (v761 : IVec S16 32) : Prop :=
  (∀ a x, ((![v761] : Fin 1 → IVec S16 32) a x).toNat < S10000.size a)
instance k1_chk464.dec : ∀ (v761 : IVec S16 32), Decidable (k1_chk464 v761) := fun v761 => decidable_of_iff' _ (Iff.of_eq (k1_chk464.eq_1 v761))
theorem k1_idx464_inb : ∀ (v761 : IVec S16 32) (k1_hw464 : k1_chk464 v761), ∀ a x, ((![v761] : Fin 1 → IVec S16 32) a x).toNat < S10000.size a := fun v761 k1_hw464 => k1_hw464
@[reducible] def k1_t59_loop : Scf.Loop 32 :=
  let c0_i32_287 : BitVec 32 := 0#32
  let c12_i32_288 : BitVec 32 := 12#32
  let v644 : BitVec 32 := Scalar.addi c0_i32_287 c12_i32_288
  let c1_i32_289 : BitVec 32 := 1#32
  ⟨c0_i32_287, v644, c1_i32_289⟩
def k1_off467 (k1_t59 : Fin k1_t59_loop.trips) : Fin 2 → Nat :=
  let c0_i32_287 : BitVec 32 := 0#32
  let c1_i32_289 : BitVec 32 := 1#32
  let arg11 : BitVec 32 := Scf.iv c0_i32_287 c1_i32_289 k1_t59
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c416_324 : Index := 416#32
  ![v718.toNat, 416]

def k1_chk465 (v719 : IVec S16 32) : Prop :=
  (∀ a x, ((![v719] : Fin 1 → IVec S16 32) a x).toNat < S10000.size a)
instance k1_chk465.dec : ∀ (v719 : IVec S16 32), Decidable (k1_chk465 v719) := fun v719 => decidable_of_iff' _ (Iff.of_eq (k1_chk465.eq_1 v719))
theorem k1_idx465_inb : ∀ (v719 : IVec S16 32) (k1_hw465 : k1_chk465 v719), ∀ a x, ((![v719] : Fin 1 → IVec S16 32) a x).toNat < S10000.size a := fun v719 k1_hw465 => k1_hw465
def k1_off468 (k1_t59 : Fin k1_t59_loop.trips) : Fin 2 → Nat :=
  let c0_i32_287 : BitVec 32 := 0#32
  let c1_i32_289 : BitVec 32 := 1#32
  let arg11 : BitVec 32 := Scf.iv c0_i32_287 c1_i32_289 k1_t59
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c416_327 : Index := 416#32
  ![v724.toNat, 416]

def k1_chk466 (v725 : IVec S16 32) : Prop :=
  (∀ a x, ((![v725] : Fin 1 → IVec S16 32) a x).toNat < S10000.size a)
instance k1_chk466.dec : ∀ (v725 : IVec S16 32), Decidable (k1_chk466 v725) := fun v725 => decidable_of_iff' _ (Iff.of_eq (k1_chk466.eq_1 v725))
theorem k1_idx466_inb : ∀ (v725 : IVec S16 32) (k1_hw466 : k1_chk466 v725), ∀ a x, ((![v725] : Fin 1 → IVec S16 32) a x).toNat < S10000.size a := fun v725 k1_hw466 => k1_hw466
def k1_off469 (k1_t59 : Fin k1_t59_loop.trips) : Fin 2 → Nat :=
  let c0_i32_287 : BitVec 32 := 0#32
  let c1_i32_289 : BitVec 32 := 1#32
  let arg11 : BitVec 32 := Scf.iv c0_i32_287 c1_i32_289 k1_t59
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c416_330 : Index := 416#32
  ![v730.toNat, 416]

def k1_chk467 (v731 : IVec S16 32) : Prop :=
  (∀ a x, ((![v731] : Fin 1 → IVec S16 32) a x).toNat < S10000.size a)
instance k1_chk467.dec : ∀ (v731 : IVec S16 32), Decidable (k1_chk467 v731) := fun v731 => decidable_of_iff' _ (Iff.of_eq (k1_chk467.eq_1 v731))
theorem k1_idx467_inb : ∀ (v731 : IVec S16 32) (k1_hw467 : k1_chk467 v731), ∀ a x, ((![v731] : Fin 1 → IVec S16 32) a x).toNat < S10000.size a := fun v731 k1_hw467 => k1_hw467
def k1_off470 (k1_t59 : Fin k1_t59_loop.trips) : Fin 2 → Nat :=
  let c0_i32_287 : BitVec 32 := 0#32
  let c1_i32_289 : BitVec 32 := 1#32
  let arg11 : BitVec 32 := Scf.iv c0_i32_287 c1_i32_289 k1_t59
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c416_332 : Index := 416#32
  ![v736.toNat, 416]

def k1_chk468 (v737 : IVec S16 32) : Prop :=
  (∀ a x, ((![v737] : Fin 1 → IVec S16 32) a x).toNat < S10000.size a)
instance k1_chk468.dec : ∀ (v737 : IVec S16 32), Decidable (k1_chk468 v737) := fun v737 => decidable_of_iff' _ (Iff.of_eq (k1_chk468.eq_1 v737))
theorem k1_idx468_inb : ∀ (v737 : IVec S16 32) (k1_hw468 : k1_chk468 v737), ∀ a x, ((![v737] : Fin 1 → IVec S16 32) a x).toNat < S10000.size a := fun v737 k1_hw468 => k1_hw468
def k1_off471 (k1_t59 : Fin k1_t59_loop.trips) : Fin 2 → Nat :=
  let c0_i32_287 : BitVec 32 := 0#32
  let c1_i32_289 : BitVec 32 := 1#32
  let arg11 : BitVec 32 := Scf.iv c0_i32_287 c1_i32_289 k1_t59
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c416_334 : Index := 416#32
  ![v742.toNat, 416]

def k1_chk469 (v743 : IVec S16 32) : Prop :=
  (∀ a x, ((![v743] : Fin 1 → IVec S16 32) a x).toNat < S10000.size a)
instance k1_chk469.dec : ∀ (v743 : IVec S16 32), Decidable (k1_chk469 v743) := fun v743 => decidable_of_iff' _ (Iff.of_eq (k1_chk469.eq_1 v743))
theorem k1_idx469_inb : ∀ (v743 : IVec S16 32) (k1_hw469 : k1_chk469 v743), ∀ a x, ((![v743] : Fin 1 → IVec S16 32) a x).toNat < S10000.size a := fun v743 k1_hw469 => k1_hw469
def k1_off472 (k1_t59 : Fin k1_t59_loop.trips) : Fin 2 → Nat :=
  let c0_i32_287 : BitVec 32 := 0#32
  let c1_i32_289 : BitVec 32 := 1#32
  let arg11 : BitVec 32 := Scf.iv c0_i32_287 c1_i32_289 k1_t59
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c416_336 : Index := 416#32
  ![v748.toNat, 416]

def k1_chk470 (v749 : IVec S16 32) : Prop :=
  (∀ a x, ((![v749] : Fin 1 → IVec S16 32) a x).toNat < S10000.size a)
instance k1_chk470.dec : ∀ (v749 : IVec S16 32), Decidable (k1_chk470 v749) := fun v749 => decidable_of_iff' _ (Iff.of_eq (k1_chk470.eq_1 v749))
theorem k1_idx470_inb : ∀ (v749 : IVec S16 32) (k1_hw470 : k1_chk470 v749), ∀ a x, ((![v749] : Fin 1 → IVec S16 32) a x).toNat < S10000.size a := fun v749 k1_hw470 => k1_hw470
def k1_off473 (k1_t59 : Fin k1_t59_loop.trips) : Fin 2 → Nat :=
  let c0_i32_287 : BitVec 32 := 0#32
  let c1_i32_289 : BitVec 32 := 1#32
  let arg11 : BitVec 32 := Scf.iv c0_i32_287 c1_i32_289 k1_t59
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c416_338 : Index := 416#32
  ![v754.toNat, 416]

def k1_chk471 (v755 : IVec S16 32) : Prop :=
  (∀ a x, ((![v755] : Fin 1 → IVec S16 32) a x).toNat < S10000.size a)
instance k1_chk471.dec : ∀ (v755 : IVec S16 32), Decidable (k1_chk471 v755) := fun v755 => decidable_of_iff' _ (Iff.of_eq (k1_chk471.eq_1 v755))
theorem k1_idx471_inb : ∀ (v755 : IVec S16 32) (k1_hw471 : k1_chk471 v755), ∀ a x, ((![v755] : Fin 1 → IVec S16 32) a x).toNat < S10000.size a := fun v755 k1_hw471 => k1_hw471
def k1_off474 (k1_t59 : Fin k1_t59_loop.trips) : Fin 2 → Nat :=
  let c0_i32_287 : BitVec 32 := 0#32
  let c1_i32_289 : BitVec 32 := 1#32
  let arg11 : BitVec 32 := Scf.iv c0_i32_287 c1_i32_289 k1_t59
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c416_340 : Index := 416#32
  ![v760.toNat, 416]

def k1_chk472 (v761 : IVec S16 32) : Prop :=
  (∀ a x, ((![v761] : Fin 1 → IVec S16 32) a x).toNat < S10000.size a)
instance k1_chk472.dec : ∀ (v761 : IVec S16 32), Decidable (k1_chk472 v761) := fun v761 => decidable_of_iff' _ (Iff.of_eq (k1_chk472.eq_1 v761))
theorem k1_idx472_inb : ∀ (v761 : IVec S16 32) (k1_hw472 : k1_chk472 v761), ∀ a x, ((![v761] : Fin 1 → IVec S16 32) a x).toNat < S10000.size a := fun v761 k1_hw472 => k1_hw472
@[reducible] def k1_t60_loop : Scf.Loop 32 :=
  let c0_i32_293 : BitVec 32 := 0#32
  let c12_i32_294 : BitVec 32 := 12#32
  let v656 : BitVec 32 := Scalar.addi c0_i32_293 c12_i32_294
  let c1_i32_295 : BitVec 32 := 1#32
  ⟨c0_i32_293, v656, c1_i32_295⟩
def k1_off475 (k1_t60 : Fin k1_t60_loop.trips) : Fin 2 → Nat :=
  let c0_i32_293 : BitVec 32 := 0#32
  let c1_i32_295 : BitVec 32 := 1#32
  let arg11 : BitVec 32 := Scf.iv c0_i32_293 c1_i32_295 k1_t60
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c432_324 : Index := 432#32
  ![v718.toNat, 432]

def k1_chk473 (v719 : IVec S16 32) : Prop :=
  (∀ a x, ((![v719] : Fin 1 → IVec S16 32) a x).toNat < S10000.size a)
instance k1_chk473.dec : ∀ (v719 : IVec S16 32), Decidable (k1_chk473 v719) := fun v719 => decidable_of_iff' _ (Iff.of_eq (k1_chk473.eq_1 v719))
theorem k1_idx473_inb : ∀ (v719 : IVec S16 32) (k1_hw473 : k1_chk473 v719), ∀ a x, ((![v719] : Fin 1 → IVec S16 32) a x).toNat < S10000.size a := fun v719 k1_hw473 => k1_hw473
def k1_off476 (k1_t60 : Fin k1_t60_loop.trips) : Fin 2 → Nat :=
  let c0_i32_293 : BitVec 32 := 0#32
  let c1_i32_295 : BitVec 32 := 1#32
  let arg11 : BitVec 32 := Scf.iv c0_i32_293 c1_i32_295 k1_t60
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c432_327 : Index := 432#32
  ![v724.toNat, 432]

def k1_chk474 (v725 : IVec S16 32) : Prop :=
  (∀ a x, ((![v725] : Fin 1 → IVec S16 32) a x).toNat < S10000.size a)
instance k1_chk474.dec : ∀ (v725 : IVec S16 32), Decidable (k1_chk474 v725) := fun v725 => decidable_of_iff' _ (Iff.of_eq (k1_chk474.eq_1 v725))
theorem k1_idx474_inb : ∀ (v725 : IVec S16 32) (k1_hw474 : k1_chk474 v725), ∀ a x, ((![v725] : Fin 1 → IVec S16 32) a x).toNat < S10000.size a := fun v725 k1_hw474 => k1_hw474
def k1_off477 (k1_t60 : Fin k1_t60_loop.trips) : Fin 2 → Nat :=
  let c0_i32_293 : BitVec 32 := 0#32
  let c1_i32_295 : BitVec 32 := 1#32
  let arg11 : BitVec 32 := Scf.iv c0_i32_293 c1_i32_295 k1_t60
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c432_330 : Index := 432#32
  ![v730.toNat, 432]

def k1_chk475 (v731 : IVec S16 32) : Prop :=
  (∀ a x, ((![v731] : Fin 1 → IVec S16 32) a x).toNat < S10000.size a)
instance k1_chk475.dec : ∀ (v731 : IVec S16 32), Decidable (k1_chk475 v731) := fun v731 => decidable_of_iff' _ (Iff.of_eq (k1_chk475.eq_1 v731))
theorem k1_idx475_inb : ∀ (v731 : IVec S16 32) (k1_hw475 : k1_chk475 v731), ∀ a x, ((![v731] : Fin 1 → IVec S16 32) a x).toNat < S10000.size a := fun v731 k1_hw475 => k1_hw475
def k1_off478 (k1_t60 : Fin k1_t60_loop.trips) : Fin 2 → Nat :=
  let c0_i32_293 : BitVec 32 := 0#32
  let c1_i32_295 : BitVec 32 := 1#32
  let arg11 : BitVec 32 := Scf.iv c0_i32_293 c1_i32_295 k1_t60
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c432_332 : Index := 432#32
  ![v736.toNat, 432]

def k1_chk476 (v737 : IVec S16 32) : Prop :=
  (∀ a x, ((![v737] : Fin 1 → IVec S16 32) a x).toNat < S10000.size a)
instance k1_chk476.dec : ∀ (v737 : IVec S16 32), Decidable (k1_chk476 v737) := fun v737 => decidable_of_iff' _ (Iff.of_eq (k1_chk476.eq_1 v737))
theorem k1_idx476_inb : ∀ (v737 : IVec S16 32) (k1_hw476 : k1_chk476 v737), ∀ a x, ((![v737] : Fin 1 → IVec S16 32) a x).toNat < S10000.size a := fun v737 k1_hw476 => k1_hw476
def k1_off479 (k1_t60 : Fin k1_t60_loop.trips) : Fin 2 → Nat :=
  let c0_i32_293 : BitVec 32 := 0#32
  let c1_i32_295 : BitVec 32 := 1#32
  let arg11 : BitVec 32 := Scf.iv c0_i32_293 c1_i32_295 k1_t60
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c432_334 : Index := 432#32
  ![v742.toNat, 432]

def k1_chk477 (v743 : IVec S16 32) : Prop :=
  (∀ a x, ((![v743] : Fin 1 → IVec S16 32) a x).toNat < S10000.size a)
instance k1_chk477.dec : ∀ (v743 : IVec S16 32), Decidable (k1_chk477 v743) := fun v743 => decidable_of_iff' _ (Iff.of_eq (k1_chk477.eq_1 v743))
theorem k1_idx477_inb : ∀ (v743 : IVec S16 32) (k1_hw477 : k1_chk477 v743), ∀ a x, ((![v743] : Fin 1 → IVec S16 32) a x).toNat < S10000.size a := fun v743 k1_hw477 => k1_hw477
def k1_off480 (k1_t60 : Fin k1_t60_loop.trips) : Fin 2 → Nat :=
  let c0_i32_293 : BitVec 32 := 0#32
  let c1_i32_295 : BitVec 32 := 1#32
  let arg11 : BitVec 32 := Scf.iv c0_i32_293 c1_i32_295 k1_t60
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c432_336 : Index := 432#32
  ![v748.toNat, 432]

def k1_chk478 (v749 : IVec S16 32) : Prop :=
  (∀ a x, ((![v749] : Fin 1 → IVec S16 32) a x).toNat < S10000.size a)
instance k1_chk478.dec : ∀ (v749 : IVec S16 32), Decidable (k1_chk478 v749) := fun v749 => decidable_of_iff' _ (Iff.of_eq (k1_chk478.eq_1 v749))
theorem k1_idx478_inb : ∀ (v749 : IVec S16 32) (k1_hw478 : k1_chk478 v749), ∀ a x, ((![v749] : Fin 1 → IVec S16 32) a x).toNat < S10000.size a := fun v749 k1_hw478 => k1_hw478
def k1_off481 (k1_t60 : Fin k1_t60_loop.trips) : Fin 2 → Nat :=
  let c0_i32_293 : BitVec 32 := 0#32
  let c1_i32_295 : BitVec 32 := 1#32
  let arg11 : BitVec 32 := Scf.iv c0_i32_293 c1_i32_295 k1_t60
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c432_338 : Index := 432#32
  ![v754.toNat, 432]

def k1_chk479 (v755 : IVec S16 32) : Prop :=
  (∀ a x, ((![v755] : Fin 1 → IVec S16 32) a x).toNat < S10000.size a)
instance k1_chk479.dec : ∀ (v755 : IVec S16 32), Decidable (k1_chk479 v755) := fun v755 => decidable_of_iff' _ (Iff.of_eq (k1_chk479.eq_1 v755))
theorem k1_idx479_inb : ∀ (v755 : IVec S16 32) (k1_hw479 : k1_chk479 v755), ∀ a x, ((![v755] : Fin 1 → IVec S16 32) a x).toNat < S10000.size a := fun v755 k1_hw479 => k1_hw479
def k1_off482 (k1_t60 : Fin k1_t60_loop.trips) : Fin 2 → Nat :=
  let c0_i32_293 : BitVec 32 := 0#32
  let c1_i32_295 : BitVec 32 := 1#32
  let arg11 : BitVec 32 := Scf.iv c0_i32_293 c1_i32_295 k1_t60
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c432_340 : Index := 432#32
  ![v760.toNat, 432]

def k1_chk480 (v761 : IVec S16 32) : Prop :=
  (∀ a x, ((![v761] : Fin 1 → IVec S16 32) a x).toNat < S10000.size a)
instance k1_chk480.dec : ∀ (v761 : IVec S16 32), Decidable (k1_chk480 v761) := fun v761 => decidable_of_iff' _ (Iff.of_eq (k1_chk480.eq_1 v761))
theorem k1_idx480_inb : ∀ (v761 : IVec S16 32) (k1_hw480 : k1_chk480 v761), ∀ a x, ((![v761] : Fin 1 → IVec S16 32) a x).toNat < S10000.size a := fun v761 k1_hw480 => k1_hw480
@[reducible] def k1_t61_loop : Scf.Loop 32 :=
  let c0_i32_299 : BitVec 32 := 0#32
  let c12_i32_300 : BitVec 32 := 12#32
  let v668 : BitVec 32 := Scalar.addi c0_i32_299 c12_i32_300
  let c1_i32_301 : BitVec 32 := 1#32
  ⟨c0_i32_299, v668, c1_i32_301⟩
def k1_off483 (k1_t61 : Fin k1_t61_loop.trips) : Fin 2 → Nat :=
  let c0_i32_299 : BitVec 32 := 0#32
  let c1_i32_301 : BitVec 32 := 1#32
  let arg11 : BitVec 32 := Scf.iv c0_i32_299 c1_i32_301 k1_t61
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c448_324 : Index := 448#32
  ![v718.toNat, 448]

def k1_chk481 (v719 : IVec S16 32) : Prop :=
  (∀ a x, ((![v719] : Fin 1 → IVec S16 32) a x).toNat < S10000.size a)
instance k1_chk481.dec : ∀ (v719 : IVec S16 32), Decidable (k1_chk481 v719) := fun v719 => decidable_of_iff' _ (Iff.of_eq (k1_chk481.eq_1 v719))
theorem k1_idx481_inb : ∀ (v719 : IVec S16 32) (k1_hw481 : k1_chk481 v719), ∀ a x, ((![v719] : Fin 1 → IVec S16 32) a x).toNat < S10000.size a := fun v719 k1_hw481 => k1_hw481
def k1_off484 (k1_t61 : Fin k1_t61_loop.trips) : Fin 2 → Nat :=
  let c0_i32_299 : BitVec 32 := 0#32
  let c1_i32_301 : BitVec 32 := 1#32
  let arg11 : BitVec 32 := Scf.iv c0_i32_299 c1_i32_301 k1_t61
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c448_327 : Index := 448#32
  ![v724.toNat, 448]

def k1_chk482 (v725 : IVec S16 32) : Prop :=
  (∀ a x, ((![v725] : Fin 1 → IVec S16 32) a x).toNat < S10000.size a)
instance k1_chk482.dec : ∀ (v725 : IVec S16 32), Decidable (k1_chk482 v725) := fun v725 => decidable_of_iff' _ (Iff.of_eq (k1_chk482.eq_1 v725))
theorem k1_idx482_inb : ∀ (v725 : IVec S16 32) (k1_hw482 : k1_chk482 v725), ∀ a x, ((![v725] : Fin 1 → IVec S16 32) a x).toNat < S10000.size a := fun v725 k1_hw482 => k1_hw482
def k1_off485 (k1_t61 : Fin k1_t61_loop.trips) : Fin 2 → Nat :=
  let c0_i32_299 : BitVec 32 := 0#32
  let c1_i32_301 : BitVec 32 := 1#32
  let arg11 : BitVec 32 := Scf.iv c0_i32_299 c1_i32_301 k1_t61
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c448_330 : Index := 448#32
  ![v730.toNat, 448]

def k1_chk483 (v731 : IVec S16 32) : Prop :=
  (∀ a x, ((![v731] : Fin 1 → IVec S16 32) a x).toNat < S10000.size a)
instance k1_chk483.dec : ∀ (v731 : IVec S16 32), Decidable (k1_chk483 v731) := fun v731 => decidable_of_iff' _ (Iff.of_eq (k1_chk483.eq_1 v731))
theorem k1_idx483_inb : ∀ (v731 : IVec S16 32) (k1_hw483 : k1_chk483 v731), ∀ a x, ((![v731] : Fin 1 → IVec S16 32) a x).toNat < S10000.size a := fun v731 k1_hw483 => k1_hw483
def k1_off486 (k1_t61 : Fin k1_t61_loop.trips) : Fin 2 → Nat :=
  let c0_i32_299 : BitVec 32 := 0#32
  let c1_i32_301 : BitVec 32 := 1#32
  let arg11 : BitVec 32 := Scf.iv c0_i32_299 c1_i32_301 k1_t61
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c448_332 : Index := 448#32
  ![v736.toNat, 448]

def k1_chk484 (v737 : IVec S16 32) : Prop :=
  (∀ a x, ((![v737] : Fin 1 → IVec S16 32) a x).toNat < S10000.size a)
instance k1_chk484.dec : ∀ (v737 : IVec S16 32), Decidable (k1_chk484 v737) := fun v737 => decidable_of_iff' _ (Iff.of_eq (k1_chk484.eq_1 v737))
theorem k1_idx484_inb : ∀ (v737 : IVec S16 32) (k1_hw484 : k1_chk484 v737), ∀ a x, ((![v737] : Fin 1 → IVec S16 32) a x).toNat < S10000.size a := fun v737 k1_hw484 => k1_hw484
def k1_off487 (k1_t61 : Fin k1_t61_loop.trips) : Fin 2 → Nat :=
  let c0_i32_299 : BitVec 32 := 0#32
  let c1_i32_301 : BitVec 32 := 1#32
  let arg11 : BitVec 32 := Scf.iv c0_i32_299 c1_i32_301 k1_t61
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c448_334 : Index := 448#32
  ![v742.toNat, 448]

def k1_chk485 (v743 : IVec S16 32) : Prop :=
  (∀ a x, ((![v743] : Fin 1 → IVec S16 32) a x).toNat < S10000.size a)
instance k1_chk485.dec : ∀ (v743 : IVec S16 32), Decidable (k1_chk485 v743) := fun v743 => decidable_of_iff' _ (Iff.of_eq (k1_chk485.eq_1 v743))
theorem k1_idx485_inb : ∀ (v743 : IVec S16 32) (k1_hw485 : k1_chk485 v743), ∀ a x, ((![v743] : Fin 1 → IVec S16 32) a x).toNat < S10000.size a := fun v743 k1_hw485 => k1_hw485
def k1_off488 (k1_t61 : Fin k1_t61_loop.trips) : Fin 2 → Nat :=
  let c0_i32_299 : BitVec 32 := 0#32
  let c1_i32_301 : BitVec 32 := 1#32
  let arg11 : BitVec 32 := Scf.iv c0_i32_299 c1_i32_301 k1_t61
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c448_336 : Index := 448#32
  ![v748.toNat, 448]

def k1_chk486 (v749 : IVec S16 32) : Prop :=
  (∀ a x, ((![v749] : Fin 1 → IVec S16 32) a x).toNat < S10000.size a)
instance k1_chk486.dec : ∀ (v749 : IVec S16 32), Decidable (k1_chk486 v749) := fun v749 => decidable_of_iff' _ (Iff.of_eq (k1_chk486.eq_1 v749))
theorem k1_idx486_inb : ∀ (v749 : IVec S16 32) (k1_hw486 : k1_chk486 v749), ∀ a x, ((![v749] : Fin 1 → IVec S16 32) a x).toNat < S10000.size a := fun v749 k1_hw486 => k1_hw486
def k1_off489 (k1_t61 : Fin k1_t61_loop.trips) : Fin 2 → Nat :=
  let c0_i32_299 : BitVec 32 := 0#32
  let c1_i32_301 : BitVec 32 := 1#32
  let arg11 : BitVec 32 := Scf.iv c0_i32_299 c1_i32_301 k1_t61
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c448_338 : Index := 448#32
  ![v754.toNat, 448]

def k1_chk487 (v755 : IVec S16 32) : Prop :=
  (∀ a x, ((![v755] : Fin 1 → IVec S16 32) a x).toNat < S10000.size a)
instance k1_chk487.dec : ∀ (v755 : IVec S16 32), Decidable (k1_chk487 v755) := fun v755 => decidable_of_iff' _ (Iff.of_eq (k1_chk487.eq_1 v755))
theorem k1_idx487_inb : ∀ (v755 : IVec S16 32) (k1_hw487 : k1_chk487 v755), ∀ a x, ((![v755] : Fin 1 → IVec S16 32) a x).toNat < S10000.size a := fun v755 k1_hw487 => k1_hw487
def k1_off490 (k1_t61 : Fin k1_t61_loop.trips) : Fin 2 → Nat :=
  let c0_i32_299 : BitVec 32 := 0#32
  let c1_i32_301 : BitVec 32 := 1#32
  let arg11 : BitVec 32 := Scf.iv c0_i32_299 c1_i32_301 k1_t61
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c448_340 : Index := 448#32
  ![v760.toNat, 448]

def k1_chk488 (v761 : IVec S16 32) : Prop :=
  (∀ a x, ((![v761] : Fin 1 → IVec S16 32) a x).toNat < S10000.size a)
instance k1_chk488.dec : ∀ (v761 : IVec S16 32), Decidable (k1_chk488 v761) := fun v761 => decidable_of_iff' _ (Iff.of_eq (k1_chk488.eq_1 v761))
theorem k1_idx488_inb : ∀ (v761 : IVec S16 32) (k1_hw488 : k1_chk488 v761), ∀ a x, ((![v761] : Fin 1 → IVec S16 32) a x).toNat < S10000.size a := fun v761 k1_hw488 => k1_hw488
@[reducible] def k1_t62_loop : Scf.Loop 32 :=
  let c0_i32_305 : BitVec 32 := 0#32
  let c12_i32_306 : BitVec 32 := 12#32
  let v680 : BitVec 32 := Scalar.addi c0_i32_305 c12_i32_306
  let c1_i32_307 : BitVec 32 := 1#32
  ⟨c0_i32_305, v680, c1_i32_307⟩
def k1_off491 (k1_t62 : Fin k1_t62_loop.trips) : Fin 2 → Nat :=
  let c0_i32_305 : BitVec 32 := 0#32
  let c1_i32_307 : BitVec 32 := 1#32
  let arg11 : BitVec 32 := Scf.iv c0_i32_305 c1_i32_307 k1_t62
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c464_324 : Index := 464#32
  ![v718.toNat, 464]

def k1_chk489 (v719 : IVec S16 32) : Prop :=
  (∀ a x, ((![v719] : Fin 1 → IVec S16 32) a x).toNat < S10000.size a)
instance k1_chk489.dec : ∀ (v719 : IVec S16 32), Decidable (k1_chk489 v719) := fun v719 => decidable_of_iff' _ (Iff.of_eq (k1_chk489.eq_1 v719))
theorem k1_idx489_inb : ∀ (v719 : IVec S16 32) (k1_hw489 : k1_chk489 v719), ∀ a x, ((![v719] : Fin 1 → IVec S16 32) a x).toNat < S10000.size a := fun v719 k1_hw489 => k1_hw489
def k1_off492 (k1_t62 : Fin k1_t62_loop.trips) : Fin 2 → Nat :=
  let c0_i32_305 : BitVec 32 := 0#32
  let c1_i32_307 : BitVec 32 := 1#32
  let arg11 : BitVec 32 := Scf.iv c0_i32_305 c1_i32_307 k1_t62
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c464_327 : Index := 464#32
  ![v724.toNat, 464]

def k1_chk490 (v725 : IVec S16 32) : Prop :=
  (∀ a x, ((![v725] : Fin 1 → IVec S16 32) a x).toNat < S10000.size a)
instance k1_chk490.dec : ∀ (v725 : IVec S16 32), Decidable (k1_chk490 v725) := fun v725 => decidable_of_iff' _ (Iff.of_eq (k1_chk490.eq_1 v725))
theorem k1_idx490_inb : ∀ (v725 : IVec S16 32) (k1_hw490 : k1_chk490 v725), ∀ a x, ((![v725] : Fin 1 → IVec S16 32) a x).toNat < S10000.size a := fun v725 k1_hw490 => k1_hw490
def k1_off493 (k1_t62 : Fin k1_t62_loop.trips) : Fin 2 → Nat :=
  let c0_i32_305 : BitVec 32 := 0#32
  let c1_i32_307 : BitVec 32 := 1#32
  let arg11 : BitVec 32 := Scf.iv c0_i32_305 c1_i32_307 k1_t62
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c464_330 : Index := 464#32
  ![v730.toNat, 464]

def k1_chk491 (v731 : IVec S16 32) : Prop :=
  (∀ a x, ((![v731] : Fin 1 → IVec S16 32) a x).toNat < S10000.size a)
instance k1_chk491.dec : ∀ (v731 : IVec S16 32), Decidable (k1_chk491 v731) := fun v731 => decidable_of_iff' _ (Iff.of_eq (k1_chk491.eq_1 v731))
theorem k1_idx491_inb : ∀ (v731 : IVec S16 32) (k1_hw491 : k1_chk491 v731), ∀ a x, ((![v731] : Fin 1 → IVec S16 32) a x).toNat < S10000.size a := fun v731 k1_hw491 => k1_hw491
def k1_off494 (k1_t62 : Fin k1_t62_loop.trips) : Fin 2 → Nat :=
  let c0_i32_305 : BitVec 32 := 0#32
  let c1_i32_307 : BitVec 32 := 1#32
  let arg11 : BitVec 32 := Scf.iv c0_i32_305 c1_i32_307 k1_t62
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c464_332 : Index := 464#32
  ![v736.toNat, 464]

def k1_chk492 (v737 : IVec S16 32) : Prop :=
  (∀ a x, ((![v737] : Fin 1 → IVec S16 32) a x).toNat < S10000.size a)
instance k1_chk492.dec : ∀ (v737 : IVec S16 32), Decidable (k1_chk492 v737) := fun v737 => decidable_of_iff' _ (Iff.of_eq (k1_chk492.eq_1 v737))
theorem k1_idx492_inb : ∀ (v737 : IVec S16 32) (k1_hw492 : k1_chk492 v737), ∀ a x, ((![v737] : Fin 1 → IVec S16 32) a x).toNat < S10000.size a := fun v737 k1_hw492 => k1_hw492
def k1_off495 (k1_t62 : Fin k1_t62_loop.trips) : Fin 2 → Nat :=
  let c0_i32_305 : BitVec 32 := 0#32
  let c1_i32_307 : BitVec 32 := 1#32
  let arg11 : BitVec 32 := Scf.iv c0_i32_305 c1_i32_307 k1_t62
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c464_334 : Index := 464#32
  ![v742.toNat, 464]

def k1_chk493 (v743 : IVec S16 32) : Prop :=
  (∀ a x, ((![v743] : Fin 1 → IVec S16 32) a x).toNat < S10000.size a)
instance k1_chk493.dec : ∀ (v743 : IVec S16 32), Decidable (k1_chk493 v743) := fun v743 => decidable_of_iff' _ (Iff.of_eq (k1_chk493.eq_1 v743))
theorem k1_idx493_inb : ∀ (v743 : IVec S16 32) (k1_hw493 : k1_chk493 v743), ∀ a x, ((![v743] : Fin 1 → IVec S16 32) a x).toNat < S10000.size a := fun v743 k1_hw493 => k1_hw493
def k1_off496 (k1_t62 : Fin k1_t62_loop.trips) : Fin 2 → Nat :=
  let c0_i32_305 : BitVec 32 := 0#32
  let c1_i32_307 : BitVec 32 := 1#32
  let arg11 : BitVec 32 := Scf.iv c0_i32_305 c1_i32_307 k1_t62
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c464_336 : Index := 464#32
  ![v748.toNat, 464]

def k1_chk494 (v749 : IVec S16 32) : Prop :=
  (∀ a x, ((![v749] : Fin 1 → IVec S16 32) a x).toNat < S10000.size a)
instance k1_chk494.dec : ∀ (v749 : IVec S16 32), Decidable (k1_chk494 v749) := fun v749 => decidable_of_iff' _ (Iff.of_eq (k1_chk494.eq_1 v749))
theorem k1_idx494_inb : ∀ (v749 : IVec S16 32) (k1_hw494 : k1_chk494 v749), ∀ a x, ((![v749] : Fin 1 → IVec S16 32) a x).toNat < S10000.size a := fun v749 k1_hw494 => k1_hw494
def k1_off497 (k1_t62 : Fin k1_t62_loop.trips) : Fin 2 → Nat :=
  let c0_i32_305 : BitVec 32 := 0#32
  let c1_i32_307 : BitVec 32 := 1#32
  let arg11 : BitVec 32 := Scf.iv c0_i32_305 c1_i32_307 k1_t62
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c464_338 : Index := 464#32
  ![v754.toNat, 464]

def k1_chk495 (v755 : IVec S16 32) : Prop :=
  (∀ a x, ((![v755] : Fin 1 → IVec S16 32) a x).toNat < S10000.size a)
instance k1_chk495.dec : ∀ (v755 : IVec S16 32), Decidable (k1_chk495 v755) := fun v755 => decidable_of_iff' _ (Iff.of_eq (k1_chk495.eq_1 v755))
theorem k1_idx495_inb : ∀ (v755 : IVec S16 32) (k1_hw495 : k1_chk495 v755), ∀ a x, ((![v755] : Fin 1 → IVec S16 32) a x).toNat < S10000.size a := fun v755 k1_hw495 => k1_hw495
def k1_off498 (k1_t62 : Fin k1_t62_loop.trips) : Fin 2 → Nat :=
  let c0_i32_305 : BitVec 32 := 0#32
  let c1_i32_307 : BitVec 32 := 1#32
  let arg11 : BitVec 32 := Scf.iv c0_i32_305 c1_i32_307 k1_t62
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c464_340 : Index := 464#32
  ![v760.toNat, 464]

def k1_chk496 (v761 : IVec S16 32) : Prop :=
  (∀ a x, ((![v761] : Fin 1 → IVec S16 32) a x).toNat < S10000.size a)
instance k1_chk496.dec : ∀ (v761 : IVec S16 32), Decidable (k1_chk496 v761) := fun v761 => decidable_of_iff' _ (Iff.of_eq (k1_chk496.eq_1 v761))
theorem k1_idx496_inb : ∀ (v761 : IVec S16 32) (k1_hw496 : k1_chk496 v761), ∀ a x, ((![v761] : Fin 1 → IVec S16 32) a x).toNat < S10000.size a := fun v761 k1_hw496 => k1_hw496
@[reducible] def k1_t63_loop : Scf.Loop 32 :=
  let c0_i32_311 : BitVec 32 := 0#32
  let c12_i32_312 : BitVec 32 := 12#32
  let v692 : BitVec 32 := Scalar.addi c0_i32_311 c12_i32_312
  let c1_i32_313 : BitVec 32 := 1#32
  ⟨c0_i32_311, v692, c1_i32_313⟩
def k1_off499 (k1_t63 : Fin k1_t63_loop.trips) : Fin 2 → Nat :=
  let c0_i32_311 : BitVec 32 := 0#32
  let c1_i32_313 : BitVec 32 := 1#32
  let arg11 : BitVec 32 := Scf.iv c0_i32_311 c1_i32_313 k1_t63
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c480_324 : Index := 480#32
  ![v718.toNat, 480]

def k1_chk497 (v719 : IVec S16 32) : Prop :=
  (∀ a x, ((![v719] : Fin 1 → IVec S16 32) a x).toNat < S10000.size a)
instance k1_chk497.dec : ∀ (v719 : IVec S16 32), Decidable (k1_chk497 v719) := fun v719 => decidable_of_iff' _ (Iff.of_eq (k1_chk497.eq_1 v719))
theorem k1_idx497_inb : ∀ (v719 : IVec S16 32) (k1_hw497 : k1_chk497 v719), ∀ a x, ((![v719] : Fin 1 → IVec S16 32) a x).toNat < S10000.size a := fun v719 k1_hw497 => k1_hw497
def k1_off500 (k1_t63 : Fin k1_t63_loop.trips) : Fin 2 → Nat :=
  let c0_i32_311 : BitVec 32 := 0#32
  let c1_i32_313 : BitVec 32 := 1#32
  let arg11 : BitVec 32 := Scf.iv c0_i32_311 c1_i32_313 k1_t63
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c480_327 : Index := 480#32
  ![v724.toNat, 480]

def k1_chk498 (v725 : IVec S16 32) : Prop :=
  (∀ a x, ((![v725] : Fin 1 → IVec S16 32) a x).toNat < S10000.size a)
instance k1_chk498.dec : ∀ (v725 : IVec S16 32), Decidable (k1_chk498 v725) := fun v725 => decidable_of_iff' _ (Iff.of_eq (k1_chk498.eq_1 v725))
theorem k1_idx498_inb : ∀ (v725 : IVec S16 32) (k1_hw498 : k1_chk498 v725), ∀ a x, ((![v725] : Fin 1 → IVec S16 32) a x).toNat < S10000.size a := fun v725 k1_hw498 => k1_hw498
def k1_off501 (k1_t63 : Fin k1_t63_loop.trips) : Fin 2 → Nat :=
  let c0_i32_311 : BitVec 32 := 0#32
  let c1_i32_313 : BitVec 32 := 1#32
  let arg11 : BitVec 32 := Scf.iv c0_i32_311 c1_i32_313 k1_t63
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c480_330 : Index := 480#32
  ![v730.toNat, 480]

def k1_chk499 (v731 : IVec S16 32) : Prop :=
  (∀ a x, ((![v731] : Fin 1 → IVec S16 32) a x).toNat < S10000.size a)
instance k1_chk499.dec : ∀ (v731 : IVec S16 32), Decidable (k1_chk499 v731) := fun v731 => decidable_of_iff' _ (Iff.of_eq (k1_chk499.eq_1 v731))
theorem k1_idx499_inb : ∀ (v731 : IVec S16 32) (k1_hw499 : k1_chk499 v731), ∀ a x, ((![v731] : Fin 1 → IVec S16 32) a x).toNat < S10000.size a := fun v731 k1_hw499 => k1_hw499
def k1_off502 (k1_t63 : Fin k1_t63_loop.trips) : Fin 2 → Nat :=
  let c0_i32_311 : BitVec 32 := 0#32
  let c1_i32_313 : BitVec 32 := 1#32
  let arg11 : BitVec 32 := Scf.iv c0_i32_311 c1_i32_313 k1_t63
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c480_332 : Index := 480#32
  ![v736.toNat, 480]

def k1_chk500 (v737 : IVec S16 32) : Prop :=
  (∀ a x, ((![v737] : Fin 1 → IVec S16 32) a x).toNat < S10000.size a)
instance k1_chk500.dec : ∀ (v737 : IVec S16 32), Decidable (k1_chk500 v737) := fun v737 => decidable_of_iff' _ (Iff.of_eq (k1_chk500.eq_1 v737))
theorem k1_idx500_inb : ∀ (v737 : IVec S16 32) (k1_hw500 : k1_chk500 v737), ∀ a x, ((![v737] : Fin 1 → IVec S16 32) a x).toNat < S10000.size a := fun v737 k1_hw500 => k1_hw500
def k1_off503 (k1_t63 : Fin k1_t63_loop.trips) : Fin 2 → Nat :=
  let c0_i32_311 : BitVec 32 := 0#32
  let c1_i32_313 : BitVec 32 := 1#32
  let arg11 : BitVec 32 := Scf.iv c0_i32_311 c1_i32_313 k1_t63
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c480_334 : Index := 480#32
  ![v742.toNat, 480]

def k1_chk501 (v743 : IVec S16 32) : Prop :=
  (∀ a x, ((![v743] : Fin 1 → IVec S16 32) a x).toNat < S10000.size a)
instance k1_chk501.dec : ∀ (v743 : IVec S16 32), Decidable (k1_chk501 v743) := fun v743 => decidable_of_iff' _ (Iff.of_eq (k1_chk501.eq_1 v743))
theorem k1_idx501_inb : ∀ (v743 : IVec S16 32) (k1_hw501 : k1_chk501 v743), ∀ a x, ((![v743] : Fin 1 → IVec S16 32) a x).toNat < S10000.size a := fun v743 k1_hw501 => k1_hw501
def k1_off504 (k1_t63 : Fin k1_t63_loop.trips) : Fin 2 → Nat :=
  let c0_i32_311 : BitVec 32 := 0#32
  let c1_i32_313 : BitVec 32 := 1#32
  let arg11 : BitVec 32 := Scf.iv c0_i32_311 c1_i32_313 k1_t63
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c480_336 : Index := 480#32
  ![v748.toNat, 480]

def k1_chk502 (v749 : IVec S16 32) : Prop :=
  (∀ a x, ((![v749] : Fin 1 → IVec S16 32) a x).toNat < S10000.size a)
instance k1_chk502.dec : ∀ (v749 : IVec S16 32), Decidable (k1_chk502 v749) := fun v749 => decidable_of_iff' _ (Iff.of_eq (k1_chk502.eq_1 v749))
theorem k1_idx502_inb : ∀ (v749 : IVec S16 32) (k1_hw502 : k1_chk502 v749), ∀ a x, ((![v749] : Fin 1 → IVec S16 32) a x).toNat < S10000.size a := fun v749 k1_hw502 => k1_hw502
def k1_off505 (k1_t63 : Fin k1_t63_loop.trips) : Fin 2 → Nat :=
  let c0_i32_311 : BitVec 32 := 0#32
  let c1_i32_313 : BitVec 32 := 1#32
  let arg11 : BitVec 32 := Scf.iv c0_i32_311 c1_i32_313 k1_t63
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c480_338 : Index := 480#32
  ![v754.toNat, 480]

def k1_chk503 (v755 : IVec S16 32) : Prop :=
  (∀ a x, ((![v755] : Fin 1 → IVec S16 32) a x).toNat < S10000.size a)
instance k1_chk503.dec : ∀ (v755 : IVec S16 32), Decidable (k1_chk503 v755) := fun v755 => decidable_of_iff' _ (Iff.of_eq (k1_chk503.eq_1 v755))
theorem k1_idx503_inb : ∀ (v755 : IVec S16 32) (k1_hw503 : k1_chk503 v755), ∀ a x, ((![v755] : Fin 1 → IVec S16 32) a x).toNat < S10000.size a := fun v755 k1_hw503 => k1_hw503
def k1_off506 (k1_t63 : Fin k1_t63_loop.trips) : Fin 2 → Nat :=
  let c0_i32_311 : BitVec 32 := 0#32
  let c1_i32_313 : BitVec 32 := 1#32
  let arg11 : BitVec 32 := Scf.iv c0_i32_311 c1_i32_313 k1_t63
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c480_340 : Index := 480#32
  ![v760.toNat, 480]

def k1_chk504 (v761 : IVec S16 32) : Prop :=
  (∀ a x, ((![v761] : Fin 1 → IVec S16 32) a x).toNat < S10000.size a)
instance k1_chk504.dec : ∀ (v761 : IVec S16 32), Decidable (k1_chk504 v761) := fun v761 => decidable_of_iff' _ (Iff.of_eq (k1_chk504.eq_1 v761))
theorem k1_idx504_inb : ∀ (v761 : IVec S16 32) (k1_hw504 : k1_chk504 v761), ∀ a x, ((![v761] : Fin 1 → IVec S16 32) a x).toNat < S10000.size a := fun v761 k1_hw504 => k1_hw504
@[reducible] def k1_t64_loop : Scf.Loop 32 :=
  let c0_i32_317 : BitVec 32 := 0#32
  let c12_i32_318 : BitVec 32 := 12#32
  let v704 : BitVec 32 := Scalar.addi c0_i32_317 c12_i32_318
  let c1_i32_319 : BitVec 32 := 1#32
  ⟨c0_i32_317, v704, c1_i32_319⟩
def k1_off507 (k1_t64 : Fin k1_t64_loop.trips) : Fin 2 → Nat :=
  let c0_i32_317 : BitVec 32 := 0#32
  let c1_i32_319 : BitVec 32 := 1#32
  let arg11 : BitVec 32 := Scf.iv c0_i32_317 c1_i32_319 k1_t64
  let c8_i32 : BitVec 32 := 8#32
  let v716 : BitVec 32 := Scalar.muli arg11 c8_i32
  let c0_i32_323 : BitVec 32 := 0#32
  let v717 : BitVec 32 := Scalar.addi v716 c0_i32_323
  let v718 : Index := Scalar.indexCast v717
  let c496_324 : Index := 496#32
  ![v718.toNat, 496]

def k1_chk505 (v719 : IVec S16 32) : Prop :=
  (∀ a x, ((![v719] : Fin 1 → IVec S16 32) a x).toNat < S10000.size a)
instance k1_chk505.dec : ∀ (v719 : IVec S16 32), Decidable (k1_chk505 v719) := fun v719 => decidable_of_iff' _ (Iff.of_eq (k1_chk505.eq_1 v719))
theorem k1_idx505_inb : ∀ (v719 : IVec S16 32) (k1_hw505 : k1_chk505 v719), ∀ a x, ((![v719] : Fin 1 → IVec S16 32) a x).toNat < S10000.size a := fun v719 k1_hw505 => k1_hw505
def k1_off508 (k1_t64 : Fin k1_t64_loop.trips) : Fin 2 → Nat :=
  let c0_i32_317 : BitVec 32 := 0#32
  let c1_i32_319 : BitVec 32 := 1#32
  let arg11 : BitVec 32 := Scf.iv c0_i32_317 c1_i32_319 k1_t64
  let c8_i32_325 : BitVec 32 := 8#32
  let v722 : BitVec 32 := Scalar.muli arg11 c8_i32_325
  let c1_i32_326 : BitVec 32 := 1#32
  let v723 : BitVec 32 := Scalar.addi v722 c1_i32_326
  let v724 : Index := Scalar.indexCast v723
  let c496_327 : Index := 496#32
  ![v724.toNat, 496]

def k1_chk506 (v725 : IVec S16 32) : Prop :=
  (∀ a x, ((![v725] : Fin 1 → IVec S16 32) a x).toNat < S10000.size a)
instance k1_chk506.dec : ∀ (v725 : IVec S16 32), Decidable (k1_chk506 v725) := fun v725 => decidable_of_iff' _ (Iff.of_eq (k1_chk506.eq_1 v725))
theorem k1_idx506_inb : ∀ (v725 : IVec S16 32) (k1_hw506 : k1_chk506 v725), ∀ a x, ((![v725] : Fin 1 → IVec S16 32) a x).toNat < S10000.size a := fun v725 k1_hw506 => k1_hw506
def k1_off509 (k1_t64 : Fin k1_t64_loop.trips) : Fin 2 → Nat :=
  let c0_i32_317 : BitVec 32 := 0#32
  let c1_i32_319 : BitVec 32 := 1#32
  let arg11 : BitVec 32 := Scf.iv c0_i32_317 c1_i32_319 k1_t64
  let c8_i32_328 : BitVec 32 := 8#32
  let v728 : BitVec 32 := Scalar.muli arg11 c8_i32_328
  let c2_i32_329 : BitVec 32 := 2#32
  let v729 : BitVec 32 := Scalar.addi v728 c2_i32_329
  let v730 : Index := Scalar.indexCast v729
  let c496_330 : Index := 496#32
  ![v730.toNat, 496]

def k1_chk507 (v731 : IVec S16 32) : Prop :=
  (∀ a x, ((![v731] : Fin 1 → IVec S16 32) a x).toNat < S10000.size a)
instance k1_chk507.dec : ∀ (v731 : IVec S16 32), Decidable (k1_chk507 v731) := fun v731 => decidable_of_iff' _ (Iff.of_eq (k1_chk507.eq_1 v731))
theorem k1_idx507_inb : ∀ (v731 : IVec S16 32) (k1_hw507 : k1_chk507 v731), ∀ a x, ((![v731] : Fin 1 → IVec S16 32) a x).toNat < S10000.size a := fun v731 k1_hw507 => k1_hw507
def k1_off510 (k1_t64 : Fin k1_t64_loop.trips) : Fin 2 → Nat :=
  let c0_i32_317 : BitVec 32 := 0#32
  let c1_i32_319 : BitVec 32 := 1#32
  let arg11 : BitVec 32 := Scf.iv c0_i32_317 c1_i32_319 k1_t64
  let c8_i32_331 : BitVec 32 := 8#32
  let v734 : BitVec 32 := Scalar.muli arg11 c8_i32_331
  let c3_i32 : BitVec 32 := 3#32
  let v735 : BitVec 32 := Scalar.addi v734 c3_i32
  let v736 : Index := Scalar.indexCast v735
  let c496_332 : Index := 496#32
  ![v736.toNat, 496]

def k1_chk508 (v737 : IVec S16 32) : Prop :=
  (∀ a x, ((![v737] : Fin 1 → IVec S16 32) a x).toNat < S10000.size a)
instance k1_chk508.dec : ∀ (v737 : IVec S16 32), Decidable (k1_chk508 v737) := fun v737 => decidable_of_iff' _ (Iff.of_eq (k1_chk508.eq_1 v737))
theorem k1_idx508_inb : ∀ (v737 : IVec S16 32) (k1_hw508 : k1_chk508 v737), ∀ a x, ((![v737] : Fin 1 → IVec S16 32) a x).toNat < S10000.size a := fun v737 k1_hw508 => k1_hw508
def k1_off511 (k1_t64 : Fin k1_t64_loop.trips) : Fin 2 → Nat :=
  let c0_i32_317 : BitVec 32 := 0#32
  let c1_i32_319 : BitVec 32 := 1#32
  let arg11 : BitVec 32 := Scf.iv c0_i32_317 c1_i32_319 k1_t64
  let c8_i32_333 : BitVec 32 := 8#32
  let v740 : BitVec 32 := Scalar.muli arg11 c8_i32_333
  let c4_i32 : BitVec 32 := 4#32
  let v741 : BitVec 32 := Scalar.addi v740 c4_i32
  let v742 : Index := Scalar.indexCast v741
  let c496_334 : Index := 496#32
  ![v742.toNat, 496]

def k1_chk509 (v743 : IVec S16 32) : Prop :=
  (∀ a x, ((![v743] : Fin 1 → IVec S16 32) a x).toNat < S10000.size a)
instance k1_chk509.dec : ∀ (v743 : IVec S16 32), Decidable (k1_chk509 v743) := fun v743 => decidable_of_iff' _ (Iff.of_eq (k1_chk509.eq_1 v743))
theorem k1_idx509_inb : ∀ (v743 : IVec S16 32) (k1_hw509 : k1_chk509 v743), ∀ a x, ((![v743] : Fin 1 → IVec S16 32) a x).toNat < S10000.size a := fun v743 k1_hw509 => k1_hw509
def k1_off512 (k1_t64 : Fin k1_t64_loop.trips) : Fin 2 → Nat :=
  let c0_i32_317 : BitVec 32 := 0#32
  let c1_i32_319 : BitVec 32 := 1#32
  let arg11 : BitVec 32 := Scf.iv c0_i32_317 c1_i32_319 k1_t64
  let c8_i32_335 : BitVec 32 := 8#32
  let v746 : BitVec 32 := Scalar.muli arg11 c8_i32_335
  let c5_i32 : BitVec 32 := 5#32
  let v747 : BitVec 32 := Scalar.addi v746 c5_i32
  let v748 : Index := Scalar.indexCast v747
  let c496_336 : Index := 496#32
  ![v748.toNat, 496]

def k1_chk510 (v749 : IVec S16 32) : Prop :=
  (∀ a x, ((![v749] : Fin 1 → IVec S16 32) a x).toNat < S10000.size a)
instance k1_chk510.dec : ∀ (v749 : IVec S16 32), Decidable (k1_chk510 v749) := fun v749 => decidable_of_iff' _ (Iff.of_eq (k1_chk510.eq_1 v749))
theorem k1_idx510_inb : ∀ (v749 : IVec S16 32) (k1_hw510 : k1_chk510 v749), ∀ a x, ((![v749] : Fin 1 → IVec S16 32) a x).toNat < S10000.size a := fun v749 k1_hw510 => k1_hw510
def k1_off513 (k1_t64 : Fin k1_t64_loop.trips) : Fin 2 → Nat :=
  let c0_i32_317 : BitVec 32 := 0#32
  let c1_i32_319 : BitVec 32 := 1#32
  let arg11 : BitVec 32 := Scf.iv c0_i32_317 c1_i32_319 k1_t64
  let c8_i32_337 : BitVec 32 := 8#32
  let v752 : BitVec 32 := Scalar.muli arg11 c8_i32_337
  let c6_i32 : BitVec 32 := 6#32
  let v753 : BitVec 32 := Scalar.addi v752 c6_i32
  let v754 : Index := Scalar.indexCast v753
  let c496_338 : Index := 496#32
  ![v754.toNat, 496]

def k1_chk511 (v755 : IVec S16 32) : Prop :=
  (∀ a x, ((![v755] : Fin 1 → IVec S16 32) a x).toNat < S10000.size a)
instance k1_chk511.dec : ∀ (v755 : IVec S16 32), Decidable (k1_chk511 v755) := fun v755 => decidable_of_iff' _ (Iff.of_eq (k1_chk511.eq_1 v755))
theorem k1_idx511_inb : ∀ (v755 : IVec S16 32) (k1_hw511 : k1_chk511 v755), ∀ a x, ((![v755] : Fin 1 → IVec S16 32) a x).toNat < S10000.size a := fun v755 k1_hw511 => k1_hw511
def k1_off514 (k1_t64 : Fin k1_t64_loop.trips) : Fin 2 → Nat :=
  let c0_i32_317 : BitVec 32 := 0#32
  let c1_i32_319 : BitVec 32 := 1#32
  let arg11 : BitVec 32 := Scf.iv c0_i32_317 c1_i32_319 k1_t64
  let c8_i32_339 : BitVec 32 := 8#32
  let v758 : BitVec 32 := Scalar.muli arg11 c8_i32_339
  let c7_i32 : BitVec 32 := 7#32
  let v759 : BitVec 32 := Scalar.addi v758 c7_i32
  let v760 : Index := Scalar.indexCast v759
  let c496_340 : Index := 496#32
  ![v760.toNat, 496]

def k1_chk512 (v761 : IVec S16 32) : Prop :=
  (∀ a x, ((![v761] : Fin 1 → IVec S16 32) a x).toNat < S10000.size a)
instance k1_chk512.dec : ∀ (v761 : IVec S16 32), Decidable (k1_chk512 v761) := fun v761 => decidable_of_iff' _ (Iff.of_eq (k1_chk512.eq_1 v761))
theorem k1_idx512_inb : ∀ (v761 : IVec S16 32) (k1_hw512 : k1_chk512 v761), ∀ a x, ((![v761] : Fin 1 → IVec S16 32) a x).toNat < S10000.size a := fun v761 k1_hw512 => k1_hw512
def k1_off515 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16384x200_S200x16384_1_0 : S16384x200.Transposes [1, 0] S200x16384
  bcast_S_S8x64 : S_.BroadcastsInDim S8x64 (![] : Fin 0 → Fin S8x64.rank)
  shapeCasts_S1x64_S64 : S1x64.ShapeCasts S64
  bcast_S_S1 : S_.BroadcastsInDim S1 (![] : Fin 0 → Fin S1.rank)
  transposes_S10000x64_S64x10000_1_0 : S10000x64.Transposes [1, 0] S64x10000
  shapeCasts_S64_S1x64 : S64.ShapeCasts S1x64
  shapeCasts_S1_S1x1 : S1.ShapeCasts S1x1
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S64x64_S64x64_0_0 : ∀ a, (![0, 0] : Fin 2 → Nat) a + S64x64.size a ≤ S64x64.size a
  h_S64x64 : 0 < S64x64.numel
  slices_S8x64_o0_0_S1x64 : S8x64.Slices ![0, 0] S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  reduces_S1x1x64_S1 : S1x1x64.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S64x10000_S64x10000_0_0 : ∀ a, (![0, 0] : Fin 2 → Nat) a + S64x10000.size a ≤ S64x10000.size a
  h_S64x10000 : 0 < S64x10000.numel
  shapeCasts_S64x10000_S64x10000 : S64x10000.ShapeCasts S64x10000
  slices_S8x10000_o0_0_S1x10000 : S8x10000.Slices ![0, 0] S1x10000
  shapeCasts_S1x10000_S10000 : S1x10000.ShapeCasts S10000
  inb_S10000_S10000_0 : ∀ a, (![0] : Fin 1 → Nat) a + S10000.size a ≤ S10000.size a
  h_S10000 : 0 < S10000.numel
  h_S1x16 : 0 < S1x16.numel
  shapeCasts_S1x16_S16 : S1x16.ShapeCasts S16
  inb_S512_S16_0 : ∀ a, (![0] : Fin 1 → Nat) a + S16.size a ≤ S512.size a
  h_S16 : 0 < S16.numel
  inb_S512_S16_16 : ∀ a, (![16] : Fin 1 → Nat) a + S16.size a ≤ S512.size a
  inb_S512_S16_32 : ∀ a, (![32] : Fin 1 → Nat) a + S16.size a ≤ S512.size a
  inb_S512_S16_48 : ∀ a, (![48] : Fin 1 → Nat) a + S16.size a ≤ S512.size a
  inb_S512_S16_64 : ∀ a, (![64] : Fin 1 → Nat) a + S16.size a ≤ S512.size a
  inb_S512_S16_80 : ∀ a, (![80] : Fin 1 → Nat) a + S16.size a ≤ S512.size a
  inb_S512_S16_96 : ∀ a, (![96] : Fin 1 → Nat) a + S16.size a ≤ S512.size a
  inb_S512_S16_112 : ∀ a, (![112] : Fin 1 → Nat) a + S16.size a ≤ S512.size a
  inb_S512_S16_128 : ∀ a, (![128] : Fin 1 → Nat) a + S16.size a ≤ S512.size a
  inb_S512_S16_144 : ∀ a, (![144] : Fin 1 → Nat) a + S16.size a ≤ S512.size a
  inb_S512_S16_160 : ∀ a, (![160] : Fin 1 → Nat) a + S16.size a ≤ S512.size a
  inb_S512_S16_176 : ∀ a, (![176] : Fin 1 → Nat) a + S16.size a ≤ S512.size a
  inb_S512_S16_192 : ∀ a, (![192] : Fin 1 → Nat) a + S16.size a ≤ S512.size a
  inb_S512_S16_208 : ∀ a, (![208] : Fin 1 → Nat) a + S16.size a ≤ S512.size a
  inb_S512_S16_224 : ∀ a, (![224] : Fin 1 → Nat) a + S16.size a ≤ S512.size a
  inb_S512_S16_240 : ∀ a, (![240] : Fin 1 → Nat) a + S16.size a ≤ S512.size a
  inb_S512_S16_256 : ∀ a, (![256] : Fin 1 → Nat) a + S16.size a ≤ S512.size a
  inb_S512_S16_272 : ∀ a, (![272] : Fin 1 → Nat) a + S16.size a ≤ S512.size a
  inb_S512_S16_288 : ∀ a, (![288] : Fin 1 → Nat) a + S16.size a ≤ S512.size a
  inb_S512_S16_304 : ∀ a, (![304] : Fin 1 → Nat) a + S16.size a ≤ S512.size a
  inb_S512_S16_320 : ∀ a, (![320] : Fin 1 → Nat) a + S16.size a ≤ S512.size a
  inb_S512_S16_336 : ∀ a, (![336] : Fin 1 → Nat) a + S16.size a ≤ S512.size a
  inb_S512_S16_352 : ∀ a, (![352] : Fin 1 → Nat) a + S16.size a ≤ S512.size a
  inb_S512_S16_368 : ∀ a, (![368] : Fin 1 → Nat) a + S16.size a ≤ S512.size a
  inb_S512_S16_384 : ∀ a, (![384] : Fin 1 → Nat) a + S16.size a ≤ S512.size a
  inb_S512_S16_400 : ∀ a, (![400] : Fin 1 → Nat) a + S16.size a ≤ S512.size a
  inb_S512_S16_416 : ∀ a, (![416] : Fin 1 → Nat) a + S16.size a ≤ S512.size a
  inb_S512_S16_432 : ∀ a, (![432] : Fin 1 → Nat) a + S16.size a ≤ S512.size a
  inb_S512_S16_448 : ∀ a, (![448] : Fin 1 → Nat) a + S16.size a ≤ S512.size a
  inb_S512_S16_464 : ∀ a, (![464] : Fin 1 → Nat) a + S16.size a ≤ S512.size a
  inb_S512_S16_480 : ∀ a, (![480] : Fin 1 → Nat) a + S16.size a ≤ S512.size a
  inb_S512_S16_496 : ∀ a, (![496] : Fin 1 → Nat) a + S16.size a ≤ S512.size a
  shapeCasts_S16384_S16384x1 : S16384.ShapeCasts S16384x1
  scatter_S8x64_S1_S64_0_0_0_0_wf : ScatterDims.WF S8x64 S1 S64 [0] [0] [0] 0
  dot_S8x64_S64x64_S8x64_1_0_0_1_n_n_wf : DotDims.WF S8x64 S64x64 S8x64 [1] [0] [0] [1] [] []
  dot_S8x64_S64x10000_S8x10000_1_0_0_1_n_n_wf : DotDims.WF S8x64 S64x10000 S8x10000 [1] [0] [0] [1] [] []
  hcc1_scratch4 : 6 + S_.numel ≤ 10
  hcc1_scratch5 : 7 + S_.numel ≤ 10
  hcc1_scoped0 : 8 + S_.numel ≤ 10
  hcc1_scoped1 : 9 + S_.numel ≤ 10
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hcore1 : grid1.bound 0 ≤ τ.nSC
  hsub1 : grid1.bound 1 ≤ τ.nSub
  k1_off1_inb : ∀ i : grid1.Coords, ∀ a, (k1_off1 i) a + S104x512.size a ≤ S200x16384.size a
  k1_off2_inb : ∀ i : grid1.Coords, ∀ a, (k1_off2 i) a + S96x512.size a ≤ S200x16384.size a
  k1_t1_ok : k1_t1_loop.OK
  k1_off3_inb : ∀ k1_t1 : Fin k1_t1_loop.trips, ∀ a, (k1_off3 k1_t1) a + S1x16.size a ≤ S104x512.size a
  k1_off4_inb : ∀ k1_t1 : Fin k1_t1_loop.trips, ∀ a, (k1_off4 k1_t1) a + S1x16.size a ≤ S104x512.size a
  k1_off5_inb : ∀ k1_t1 : Fin k1_t1_loop.trips, ∀ a, (k1_off5 k1_t1) a + S1x16.size a ≤ S104x512.size a
  k1_off6_inb : ∀ k1_t1 : Fin k1_t1_loop.trips, ∀ a, (k1_off6 k1_t1) a + S1x16.size a ≤ S104x512.size a
  k1_off7_inb : ∀ k1_t1 : Fin k1_t1_loop.trips, ∀ a, (k1_off7 k1_t1) a + S1x16.size a ≤ S104x512.size a
  k1_off8_inb : ∀ k1_t1 : Fin k1_t1_loop.trips, ∀ a, (k1_off8 k1_t1) a + S1x16.size a ≤ S104x512.size a
  k1_off9_inb : ∀ k1_t1 : Fin k1_t1_loop.trips, ∀ a, (k1_off9 k1_t1) a + S1x16.size a ≤ S104x512.size a
  k1_off10_inb : ∀ k1_t1 : Fin k1_t1_loop.trips, ∀ a, (k1_off10 k1_t1) a + S1x16.size a ≤ S104x512.size a
  k1_t2_ok : k1_t2_loop.OK
  k1_off11_inb : ∀ k1_t2 : Fin k1_t2_loop.trips, ∀ a, (k1_off11 k1_t2) a + S1x16.size a ≤ S104x512.size a
  k1_off12_inb : ∀ k1_t2 : Fin k1_t2_loop.trips, ∀ a, (k1_off12 k1_t2) a + S1x16.size a ≤ S104x512.size a
  k1_off13_inb : ∀ k1_t2 : Fin k1_t2_loop.trips, ∀ a, (k1_off13 k1_t2) a + S1x16.size a ≤ S104x512.size a
  k1_off14_inb : ∀ k1_t2 : Fin k1_t2_loop.trips, ∀ a, (k1_off14 k1_t2) a + S1x16.size a ≤ S104x512.size a
  k1_off15_inb : ∀ k1_t2 : Fin k1_t2_loop.trips, ∀ a, (k1_off15 k1_t2) a + S1x16.size a ≤ S104x512.size a
  k1_off16_inb : ∀ k1_t2 : Fin k1_t2_loop.trips, ∀ a, (k1_off16 k1_t2) a + S1x16.size a ≤ S104x512.size a
  k1_off17_inb : ∀ k1_t2 : Fin k1_t2_loop.trips, ∀ a, (k1_off17 k1_t2) a + S1x16.size a ≤ S104x512.size a
  k1_off18_inb : ∀ k1_t2 : Fin k1_t2_loop.trips, ∀ a, (k1_off18 k1_t2) a + S1x16.size a ≤ S104x512.size a
  k1_t3_ok : k1_t3_loop.OK
  k1_off19_inb : ∀ k1_t3 : Fin k1_t3_loop.trips, ∀ a, (k1_off19 k1_t3) a + S1x16.size a ≤ S104x512.size a
  k1_off20_inb : ∀ k1_t3 : Fin k1_t3_loop.trips, ∀ a, (k1_off20 k1_t3) a + S1x16.size a ≤ S104x512.size a
  k1_off21_inb : ∀ k1_t3 : Fin k1_t3_loop.trips, ∀ a, (k1_off21 k1_t3) a + S1x16.size a ≤ S104x512.size a
  k1_off22_inb : ∀ k1_t3 : Fin k1_t3_loop.trips, ∀ a, (k1_off22 k1_t3) a + S1x16.size a ≤ S104x512.size a
  k1_off23_inb : ∀ k1_t3 : Fin k1_t3_loop.trips, ∀ a, (k1_off23 k1_t3) a + S1x16.size a ≤ S104x512.size a
  k1_off24_inb : ∀ k1_t3 : Fin k1_t3_loop.trips, ∀ a, (k1_off24 k1_t3) a + S1x16.size a ≤ S104x512.size a
  k1_off25_inb : ∀ k1_t3 : Fin k1_t3_loop.trips, ∀ a, (k1_off25 k1_t3) a + S1x16.size a ≤ S104x512.size a
  k1_off26_inb : ∀ k1_t3 : Fin k1_t3_loop.trips, ∀ a, (k1_off26 k1_t3) a + S1x16.size a ≤ S104x512.size a
  k1_t4_ok : k1_t4_loop.OK
  k1_off27_inb : ∀ k1_t4 : Fin k1_t4_loop.trips, ∀ a, (k1_off27 k1_t4) a + S1x16.size a ≤ S104x512.size a
  k1_off28_inb : ∀ k1_t4 : Fin k1_t4_loop.trips, ∀ a, (k1_off28 k1_t4) a + S1x16.size a ≤ S104x512.size a
  k1_off29_inb : ∀ k1_t4 : Fin k1_t4_loop.trips, ∀ a, (k1_off29 k1_t4) a + S1x16.size a ≤ S104x512.size a
  k1_off30_inb : ∀ k1_t4 : Fin k1_t4_loop.trips, ∀ a, (k1_off30 k1_t4) a + S1x16.size a ≤ S104x512.size a
  k1_off31_inb : ∀ k1_t4 : Fin k1_t4_loop.trips, ∀ a, (k1_off31 k1_t4) a + S1x16.size a ≤ S104x512.size a
  k1_off32_inb : ∀ k1_t4 : Fin k1_t4_loop.trips, ∀ a, (k1_off32 k1_t4) a + S1x16.size a ≤ S104x512.size a
  k1_off33_inb : ∀ k1_t4 : Fin k1_t4_loop.trips, ∀ a, (k1_off33 k1_t4) a + S1x16.size a ≤ S104x512.size a
  k1_off34_inb : ∀ k1_t4 : Fin k1_t4_loop.trips, ∀ a, (k1_off34 k1_t4) a + S1x16.size a ≤ S104x512.size a
  k1_t5_ok : k1_t5_loop.OK
  k1_off35_inb : ∀ k1_t5 : Fin k1_t5_loop.trips, ∀ a, (k1_off35 k1_t5) a + S1x16.size a ≤ S104x512.size a
  k1_off36_inb : ∀ k1_t5 : Fin k1_t5_loop.trips, ∀ a, (k1_off36 k1_t5) a + S1x16.size a ≤ S104x512.size a
  k1_off37_inb : ∀ k1_t5 : Fin k1_t5_loop.trips, ∀ a, (k1_off37 k1_t5) a + S1x16.size a ≤ S104x512.size a
  k1_off38_inb : ∀ k1_t5 : Fin k1_t5_loop.trips, ∀ a, (k1_off38 k1_t5) a + S1x16.size a ≤ S104x512.size a
  k1_off39_inb : ∀ k1_t5 : Fin k1_t5_loop.trips, ∀ a, (k1_off39 k1_t5) a + S1x16.size a ≤ S104x512.size a
  k1_off40_inb : ∀ k1_t5 : Fin k1_t5_loop.trips, ∀ a, (k1_off40 k1_t5) a + S1x16.size a ≤ S104x512.size a
  k1_off41_inb : ∀ k1_t5 : Fin k1_t5_loop.trips, ∀ a, (k1_off41 k1_t5) a + S1x16.size a ≤ S104x512.size a
  k1_off42_inb : ∀ k1_t5 : Fin k1_t5_loop.trips, ∀ a, (k1_off42 k1_t5) a + S1x16.size a ≤ S104x512.size a
  k1_t6_ok : k1_t6_loop.OK
  k1_off43_inb : ∀ k1_t6 : Fin k1_t6_loop.trips, ∀ a, (k1_off43 k1_t6) a + S1x16.size a ≤ S104x512.size a
  k1_off44_inb : ∀ k1_t6 : Fin k1_t6_loop.trips, ∀ a, (k1_off44 k1_t6) a + S1x16.size a ≤ S104x512.size a
  k1_off45_inb : ∀ k1_t6 : Fin k1_t6_loop.trips, ∀ a, (k1_off45 k1_t6) a + S1x16.size a ≤ S104x512.size a
  k1_off46_inb : ∀ k1_t6 : Fin k1_t6_loop.trips, ∀ a, (k1_off46 k1_t6) a + S1x16.size a ≤ S104x512.size a
  k1_off47_inb : ∀ k1_t6 : Fin k1_t6_loop.trips, ∀ a, (k1_off47 k1_t6) a + S1x16.size a ≤ S104x512.size a
  k1_off48_inb : ∀ k1_t6 : Fin k1_t6_loop.trips, ∀ a, (k1_off48 k1_t6) a + S1x16.size a ≤ S104x512.size a
  k1_off49_inb : ∀ k1_t6 : Fin k1_t6_loop.trips, ∀ a, (k1_off49 k1_t6) a + S1x16.size a ≤ S104x512.size a
  k1_off50_inb : ∀ k1_t6 : Fin k1_t6_loop.trips, ∀ a, (k1_off50 k1_t6) a + S1x16.size a ≤ S104x512.size a
  k1_t7_ok : k1_t7_loop.OK
  k1_off51_inb : ∀ k1_t7 : Fin k1_t7_loop.trips, ∀ a, (k1_off51 k1_t7) a + S1x16.size a ≤ S104x512.size a
  k1_off52_inb : ∀ k1_t7 : Fin k1_t7_loop.trips, ∀ a, (k1_off52 k1_t7) a + S1x16.size a ≤ S104x512.size a
  k1_off53_inb : ∀ k1_t7 : Fin k1_t7_loop.trips, ∀ a, (k1_off53 k1_t7) a + S1x16.size a ≤ S104x512.size a
  k1_off54_inb : ∀ k1_t7 : Fin k1_t7_loop.trips, ∀ a, (k1_off54 k1_t7) a + S1x16.size a ≤ S104x512.size a
  k1_off55_inb : ∀ k1_t7 : Fin k1_t7_loop.trips, ∀ a, (k1_off55 k1_t7) a + S1x16.size a ≤ S104x512.size a
  k1_off56_inb : ∀ k1_t7 : Fin k1_t7_loop.trips, ∀ a, (k1_off56 k1_t7) a + S1x16.size a ≤ S104x512.size a
  k1_off57_inb : ∀ k1_t7 : Fin k1_t7_loop.trips, ∀ a, (k1_off57 k1_t7) a + S1x16.size a ≤ S104x512.size a
  k1_off58_inb : ∀ k1_t7 : Fin k1_t7_loop.trips, ∀ a, (k1_off58 k1_t7) a + S1x16.size a ≤ S104x512.size a
  k1_t8_ok : k1_t8_loop.OK
  k1_off59_inb : ∀ k1_t8 : Fin k1_t8_loop.trips, ∀ a, (k1_off59 k1_t8) a + S1x16.size a ≤ S104x512.size a
  k1_off60_inb : ∀ k1_t8 : Fin k1_t8_loop.trips, ∀ a, (k1_off60 k1_t8) a + S1x16.size a ≤ S104x512.size a
  k1_off61_inb : ∀ k1_t8 : Fin k1_t8_loop.trips, ∀ a, (k1_off61 k1_t8) a + S1x16.size a ≤ S104x512.size a
  k1_off62_inb : ∀ k1_t8 : Fin k1_t8_loop.trips, ∀ a, (k1_off62 k1_t8) a + S1x16.size a ≤ S104x512.size a
  k1_off63_inb : ∀ k1_t8 : Fin k1_t8_loop.trips, ∀ a, (k1_off63 k1_t8) a + S1x16.size a ≤ S104x512.size a
  k1_off64_inb : ∀ k1_t8 : Fin k1_t8_loop.trips, ∀ a, (k1_off64 k1_t8) a + S1x16.size a ≤ S104x512.size a
  k1_off65_inb : ∀ k1_t8 : Fin k1_t8_loop.trips, ∀ a, (k1_off65 k1_t8) a + S1x16.size a ≤ S104x512.size a
  k1_off66_inb : ∀ k1_t8 : Fin k1_t8_loop.trips, ∀ a, (k1_off66 k1_t8) a + S1x16.size a ≤ S104x512.size a
  k1_t9_ok : k1_t9_loop.OK
  k1_off67_inb : ∀ k1_t9 : Fin k1_t9_loop.trips, ∀ a, (k1_off67 k1_t9) a + S1x16.size a ≤ S104x512.size a
  k1_off68_inb : ∀ k1_t9 : Fin k1_t9_loop.trips, ∀ a, (k1_off68 k1_t9) a + S1x16.size a ≤ S104x512.size a
  k1_off69_inb : ∀ k1_t9 : Fin k1_t9_loop.trips, ∀ a, (k1_off69 k1_t9) a + S1x16.size a ≤ S104x512.size a
  k1_off70_inb : ∀ k1_t9 : Fin k1_t9_loop.trips, ∀ a, (k1_off70 k1_t9) a + S1x16.size a ≤ S104x512.size a
  k1_off71_inb : ∀ k1_t9 : Fin k1_t9_loop.trips, ∀ a, (k1_off71 k1_t9) a + S1x16.size a ≤ S104x512.size a
  k1_off72_inb : ∀ k1_t9 : Fin k1_t9_loop.trips, ∀ a, (k1_off72 k1_t9) a + S1x16.size a ≤ S104x512.size a
  k1_off73_inb : ∀ k1_t9 : Fin k1_t9_loop.trips, ∀ a, (k1_off73 k1_t9) a + S1x16.size a ≤ S104x512.size a
  k1_off74_inb : ∀ k1_t9 : Fin k1_t9_loop.trips, ∀ a, (k1_off74 k1_t9) a + S1x16.size a ≤ S104x512.size a
  k1_t10_ok : k1_t10_loop.OK
  k1_off75_inb : ∀ k1_t10 : Fin k1_t10_loop.trips, ∀ a, (k1_off75 k1_t10) a + S1x16.size a ≤ S104x512.size a
  k1_off76_inb : ∀ k1_t10 : Fin k1_t10_loop.trips, ∀ a, (k1_off76 k1_t10) a + S1x16.size a ≤ S104x512.size a
  k1_off77_inb : ∀ k1_t10 : Fin k1_t10_loop.trips, ∀ a, (k1_off77 k1_t10) a + S1x16.size a ≤ S104x512.size a
  k1_off78_inb : ∀ k1_t10 : Fin k1_t10_loop.trips, ∀ a, (k1_off78 k1_t10) a + S1x16.size a ≤ S104x512.size a
  k1_off79_inb : ∀ k1_t10 : Fin k1_t10_loop.trips, ∀ a, (k1_off79 k1_t10) a + S1x16.size a ≤ S104x512.size a
  k1_off80_inb : ∀ k1_t10 : Fin k1_t10_loop.trips, ∀ a, (k1_off80 k1_t10) a + S1x16.size a ≤ S104x512.size a
  k1_off81_inb : ∀ k1_t10 : Fin k1_t10_loop.trips, ∀ a, (k1_off81 k1_t10) a + S1x16.size a ≤ S104x512.size a
  k1_off82_inb : ∀ k1_t10 : Fin k1_t10_loop.trips, ∀ a, (k1_off82 k1_t10) a + S1x16.size a ≤ S104x512.size a
  k1_t11_ok : k1_t11_loop.OK
  k1_off83_inb : ∀ k1_t11 : Fin k1_t11_loop.trips, ∀ a, (k1_off83 k1_t11) a + S1x16.size a ≤ S104x512.size a
  k1_off84_inb : ∀ k1_t11 : Fin k1_t11_loop.trips, ∀ a, (k1_off84 k1_t11) a + S1x16.size a ≤ S104x512.size a
  k1_off85_inb : ∀ k1_t11 : Fin k1_t11_loop.trips, ∀ a, (k1_off85 k1_t11) a + S1x16.size a ≤ S104x512.size a
  k1_off86_inb : ∀ k1_t11 : Fin k1_t11_loop.trips, ∀ a, (k1_off86 k1_t11) a + S1x16.size a ≤ S104x512.size a
  k1_off87_inb : ∀ k1_t11 : Fin k1_t11_loop.trips, ∀ a, (k1_off87 k1_t11) a + S1x16.size a ≤ S104x512.size a
  k1_off88_inb : ∀ k1_t11 : Fin k1_t11_loop.trips, ∀ a, (k1_off88 k1_t11) a + S1x16.size a ≤ S104x512.size a
  k1_off89_inb : ∀ k1_t11 : Fin k1_t11_loop.trips, ∀ a, (k1_off89 k1_t11) a + S1x16.size a ≤ S104x512.size a
  k1_off90_inb : ∀ k1_t11 : Fin k1_t11_loop.trips, ∀ a, (k1_off90 k1_t11) a + S1x16.size a ≤ S104x512.size a
  k1_t12_ok : k1_t12_loop.OK
  k1_off91_inb : ∀ k1_t12 : Fin k1_t12_loop.trips, ∀ a, (k1_off91 k1_t12) a + S1x16.size a ≤ S104x512.size a
  k1_off92_inb : ∀ k1_t12 : Fin k1_t12_loop.trips, ∀ a, (k1_off92 k1_t12) a + S1x16.size a ≤ S104x512.size a
  k1_off93_inb : ∀ k1_t12 : Fin k1_t12_loop.trips, ∀ a, (k1_off93 k1_t12) a + S1x16.size a ≤ S104x512.size a
  k1_off94_inb : ∀ k1_t12 : Fin k1_t12_loop.trips, ∀ a, (k1_off94 k1_t12) a + S1x16.size a ≤ S104x512.size a
  k1_off95_inb : ∀ k1_t12 : Fin k1_t12_loop.trips, ∀ a, (k1_off95 k1_t12) a + S1x16.size a ≤ S104x512.size a
  k1_off96_inb : ∀ k1_t12 : Fin k1_t12_loop.trips, ∀ a, (k1_off96 k1_t12) a + S1x16.size a ≤ S104x512.size a
  k1_off97_inb : ∀ k1_t12 : Fin k1_t12_loop.trips, ∀ a, (k1_off97 k1_t12) a + S1x16.size a ≤ S104x512.size a
  k1_off98_inb : ∀ k1_t12 : Fin k1_t12_loop.trips, ∀ a, (k1_off98 k1_t12) a + S1x16.size a ≤ S104x512.size a
  k1_t13_ok : k1_t13_loop.OK
  k1_off99_inb : ∀ k1_t13 : Fin k1_t13_loop.trips, ∀ a, (k1_off99 k1_t13) a + S1x16.size a ≤ S104x512.size a
  k1_off100_inb : ∀ k1_t13 : Fin k1_t13_loop.trips, ∀ a, (k1_off100 k1_t13) a + S1x16.size a ≤ S104x512.size a
  k1_off101_inb : ∀ k1_t13 : Fin k1_t13_loop.trips, ∀ a, (k1_off101 k1_t13) a + S1x16.size a ≤ S104x512.size a
  k1_off102_inb : ∀ k1_t13 : Fin k1_t13_loop.trips, ∀ a, (k1_off102 k1_t13) a + S1x16.size a ≤ S104x512.size a
  k1_off103_inb : ∀ k1_t13 : Fin k1_t13_loop.trips, ∀ a, (k1_off103 k1_t13) a + S1x16.size a ≤ S104x512.size a
  k1_off104_inb : ∀ k1_t13 : Fin k1_t13_loop.trips, ∀ a, (k1_off104 k1_t13) a + S1x16.size a ≤ S104x512.size a
  k1_off105_inb : ∀ k1_t13 : Fin k1_t13_loop.trips, ∀ a, (k1_off105 k1_t13) a + S1x16.size a ≤ S104x512.size a
  k1_off106_inb : ∀ k1_t13 : Fin k1_t13_loop.trips, ∀ a, (k1_off106 k1_t13) a + S1x16.size a ≤ S104x512.size a
  k1_t14_ok : k1_t14_loop.OK
  k1_off107_inb : ∀ k1_t14 : Fin k1_t14_loop.trips, ∀ a, (k1_off107 k1_t14) a + S1x16.size a ≤ S104x512.size a
  k1_off108_inb : ∀ k1_t14 : Fin k1_t14_loop.trips, ∀ a, (k1_off108 k1_t14) a + S1x16.size a ≤ S104x512.size a
  k1_off109_inb : ∀ k1_t14 : Fin k1_t14_loop.trips, ∀ a, (k1_off109 k1_t14) a + S1x16.size a ≤ S104x512.size a
  k1_off110_inb : ∀ k1_t14 : Fin k1_t14_loop.trips, ∀ a, (k1_off110 k1_t14) a + S1x16.size a ≤ S104x512.size a
  k1_off111_inb : ∀ k1_t14 : Fin k1_t14_loop.trips, ∀ a, (k1_off111 k1_t14) a + S1x16.size a ≤ S104x512.size a
  k1_off112_inb : ∀ k1_t14 : Fin k1_t14_loop.trips, ∀ a, (k1_off112 k1_t14) a + S1x16.size a ≤ S104x512.size a
  k1_off113_inb : ∀ k1_t14 : Fin k1_t14_loop.trips, ∀ a, (k1_off113 k1_t14) a + S1x16.size a ≤ S104x512.size a
  k1_off114_inb : ∀ k1_t14 : Fin k1_t14_loop.trips, ∀ a, (k1_off114 k1_t14) a + S1x16.size a ≤ S104x512.size a
  k1_t15_ok : k1_t15_loop.OK
  k1_off115_inb : ∀ k1_t15 : Fin k1_t15_loop.trips, ∀ a, (k1_off115 k1_t15) a + S1x16.size a ≤ S104x512.size a
  k1_off116_inb : ∀ k1_t15 : Fin k1_t15_loop.trips, ∀ a, (k1_off116 k1_t15) a + S1x16.size a ≤ S104x512.size a
  k1_off117_inb : ∀ k1_t15 : Fin k1_t15_loop.trips, ∀ a, (k1_off117 k1_t15) a + S1x16.size a ≤ S104x512.size a
  k1_off118_inb : ∀ k1_t15 : Fin k1_t15_loop.trips, ∀ a, (k1_off118 k1_t15) a + S1x16.size a ≤ S104x512.size a
  k1_off119_inb : ∀ k1_t15 : Fin k1_t15_loop.trips, ∀ a, (k1_off119 k1_t15) a + S1x16.size a ≤ S104x512.size a
  k1_off120_inb : ∀ k1_t15 : Fin k1_t15_loop.trips, ∀ a, (k1_off120 k1_t15) a + S1x16.size a ≤ S104x512.size a
  k1_off121_inb : ∀ k1_t15 : Fin k1_t15_loop.trips, ∀ a, (k1_off121 k1_t15) a + S1x16.size a ≤ S104x512.size a
  k1_off122_inb : ∀ k1_t15 : Fin k1_t15_loop.trips, ∀ a, (k1_off122 k1_t15) a + S1x16.size a ≤ S104x512.size a
  k1_t16_ok : k1_t16_loop.OK
  k1_off123_inb : ∀ k1_t16 : Fin k1_t16_loop.trips, ∀ a, (k1_off123 k1_t16) a + S1x16.size a ≤ S104x512.size a
  k1_off124_inb : ∀ k1_t16 : Fin k1_t16_loop.trips, ∀ a, (k1_off124 k1_t16) a + S1x16.size a ≤ S104x512.size a
  k1_off125_inb : ∀ k1_t16 : Fin k1_t16_loop.trips, ∀ a, (k1_off125 k1_t16) a + S1x16.size a ≤ S104x512.size a
  k1_off126_inb : ∀ k1_t16 : Fin k1_t16_loop.trips, ∀ a, (k1_off126 k1_t16) a + S1x16.size a ≤ S104x512.size a
  k1_off127_inb : ∀ k1_t16 : Fin k1_t16_loop.trips, ∀ a, (k1_off127 k1_t16) a + S1x16.size a ≤ S104x512.size a
  k1_off128_inb : ∀ k1_t16 : Fin k1_t16_loop.trips, ∀ a, (k1_off128 k1_t16) a + S1x16.size a ≤ S104x512.size a
  k1_off129_inb : ∀ k1_t16 : Fin k1_t16_loop.trips, ∀ a, (k1_off129 k1_t16) a + S1x16.size a ≤ S104x512.size a
  k1_off130_inb : ∀ k1_t16 : Fin k1_t16_loop.trips, ∀ a, (k1_off130 k1_t16) a + S1x16.size a ≤ S104x512.size a
  k1_t17_ok : k1_t17_loop.OK
  k1_off131_inb : ∀ k1_t17 : Fin k1_t17_loop.trips, ∀ a, (k1_off131 k1_t17) a + S1x16.size a ≤ S104x512.size a
  k1_off132_inb : ∀ k1_t17 : Fin k1_t17_loop.trips, ∀ a, (k1_off132 k1_t17) a + S1x16.size a ≤ S104x512.size a
  k1_off133_inb : ∀ k1_t17 : Fin k1_t17_loop.trips, ∀ a, (k1_off133 k1_t17) a + S1x16.size a ≤ S104x512.size a
  k1_off134_inb : ∀ k1_t17 : Fin k1_t17_loop.trips, ∀ a, (k1_off134 k1_t17) a + S1x16.size a ≤ S104x512.size a
  k1_off135_inb : ∀ k1_t17 : Fin k1_t17_loop.trips, ∀ a, (k1_off135 k1_t17) a + S1x16.size a ≤ S104x512.size a
  k1_off136_inb : ∀ k1_t17 : Fin k1_t17_loop.trips, ∀ a, (k1_off136 k1_t17) a + S1x16.size a ≤ S104x512.size a
  k1_off137_inb : ∀ k1_t17 : Fin k1_t17_loop.trips, ∀ a, (k1_off137 k1_t17) a + S1x16.size a ≤ S104x512.size a
  k1_off138_inb : ∀ k1_t17 : Fin k1_t17_loop.trips, ∀ a, (k1_off138 k1_t17) a + S1x16.size a ≤ S104x512.size a
  k1_t18_ok : k1_t18_loop.OK
  k1_off139_inb : ∀ k1_t18 : Fin k1_t18_loop.trips, ∀ a, (k1_off139 k1_t18) a + S1x16.size a ≤ S104x512.size a
  k1_off140_inb : ∀ k1_t18 : Fin k1_t18_loop.trips, ∀ a, (k1_off140 k1_t18) a + S1x16.size a ≤ S104x512.size a
  k1_off141_inb : ∀ k1_t18 : Fin k1_t18_loop.trips, ∀ a, (k1_off141 k1_t18) a + S1x16.size a ≤ S104x512.size a
  k1_off142_inb : ∀ k1_t18 : Fin k1_t18_loop.trips, ∀ a, (k1_off142 k1_t18) a + S1x16.size a ≤ S104x512.size a
  k1_off143_inb : ∀ k1_t18 : Fin k1_t18_loop.trips, ∀ a, (k1_off143 k1_t18) a + S1x16.size a ≤ S104x512.size a
  k1_off144_inb : ∀ k1_t18 : Fin k1_t18_loop.trips, ∀ a, (k1_off144 k1_t18) a + S1x16.size a ≤ S104x512.size a
  k1_off145_inb : ∀ k1_t18 : Fin k1_t18_loop.trips, ∀ a, (k1_off145 k1_t18) a + S1x16.size a ≤ S104x512.size a
  k1_off146_inb : ∀ k1_t18 : Fin k1_t18_loop.trips, ∀ a, (k1_off146 k1_t18) a + S1x16.size a ≤ S104x512.size a
  k1_t19_ok : k1_t19_loop.OK
  k1_off147_inb : ∀ k1_t19 : Fin k1_t19_loop.trips, ∀ a, (k1_off147 k1_t19) a + S1x16.size a ≤ S104x512.size a
  k1_off148_inb : ∀ k1_t19 : Fin k1_t19_loop.trips, ∀ a, (k1_off148 k1_t19) a + S1x16.size a ≤ S104x512.size a
  k1_off149_inb : ∀ k1_t19 : Fin k1_t19_loop.trips, ∀ a, (k1_off149 k1_t19) a + S1x16.size a ≤ S104x512.size a
  k1_off150_inb : ∀ k1_t19 : Fin k1_t19_loop.trips, ∀ a, (k1_off150 k1_t19) a + S1x16.size a ≤ S104x512.size a
  k1_off151_inb : ∀ k1_t19 : Fin k1_t19_loop.trips, ∀ a, (k1_off151 k1_t19) a + S1x16.size a ≤ S104x512.size a
  k1_off152_inb : ∀ k1_t19 : Fin k1_t19_loop.trips, ∀ a, (k1_off152 k1_t19) a + S1x16.size a ≤ S104x512.size a
  k1_off153_inb : ∀ k1_t19 : Fin k1_t19_loop.trips, ∀ a, (k1_off153 k1_t19) a + S1x16.size a ≤ S104x512.size a
  k1_off154_inb : ∀ k1_t19 : Fin k1_t19_loop.trips, ∀ a, (k1_off154 k1_t19) a + S1x16.size a ≤ S104x512.size a
  k1_t20_ok : k1_t20_loop.OK
  k1_off155_inb : ∀ k1_t20 : Fin k1_t20_loop.trips, ∀ a, (k1_off155 k1_t20) a + S1x16.size a ≤ S104x512.size a
  k1_off156_inb : ∀ k1_t20 : Fin k1_t20_loop.trips, ∀ a, (k1_off156 k1_t20) a + S1x16.size a ≤ S104x512.size a
  k1_off157_inb : ∀ k1_t20 : Fin k1_t20_loop.trips, ∀ a, (k1_off157 k1_t20) a + S1x16.size a ≤ S104x512.size a
  k1_off158_inb : ∀ k1_t20 : Fin k1_t20_loop.trips, ∀ a, (k1_off158 k1_t20) a + S1x16.size a ≤ S104x512.size a
  k1_off159_inb : ∀ k1_t20 : Fin k1_t20_loop.trips, ∀ a, (k1_off159 k1_t20) a + S1x16.size a ≤ S104x512.size a
  k1_off160_inb : ∀ k1_t20 : Fin k1_t20_loop.trips, ∀ a, (k1_off160 k1_t20) a + S1x16.size a ≤ S104x512.size a
  k1_off161_inb : ∀ k1_t20 : Fin k1_t20_loop.trips, ∀ a, (k1_off161 k1_t20) a + S1x16.size a ≤ S104x512.size a
  k1_off162_inb : ∀ k1_t20 : Fin k1_t20_loop.trips, ∀ a, (k1_off162 k1_t20) a + S1x16.size a ≤ S104x512.size a
  k1_t21_ok : k1_t21_loop.OK
  k1_off163_inb : ∀ k1_t21 : Fin k1_t21_loop.trips, ∀ a, (k1_off163 k1_t21) a + S1x16.size a ≤ S104x512.size a
  k1_off164_inb : ∀ k1_t21 : Fin k1_t21_loop.trips, ∀ a, (k1_off164 k1_t21) a + S1x16.size a ≤ S104x512.size a
  k1_off165_inb : ∀ k1_t21 : Fin k1_t21_loop.trips, ∀ a, (k1_off165 k1_t21) a + S1x16.size a ≤ S104x512.size a
  k1_off166_inb : ∀ k1_t21 : Fin k1_t21_loop.trips, ∀ a, (k1_off166 k1_t21) a + S1x16.size a ≤ S104x512.size a
  k1_off167_inb : ∀ k1_t21 : Fin k1_t21_loop.trips, ∀ a, (k1_off167 k1_t21) a + S1x16.size a ≤ S104x512.size a
  k1_off168_inb : ∀ k1_t21 : Fin k1_t21_loop.trips, ∀ a, (k1_off168 k1_t21) a + S1x16.size a ≤ S104x512.size a
  k1_off169_inb : ∀ k1_t21 : Fin k1_t21_loop.trips, ∀ a, (k1_off169 k1_t21) a + S1x16.size a ≤ S104x512.size a
  k1_off170_inb : ∀ k1_t21 : Fin k1_t21_loop.trips, ∀ a, (k1_off170 k1_t21) a + S1x16.size a ≤ S104x512.size a
  k1_t22_ok : k1_t22_loop.OK
  k1_off171_inb : ∀ k1_t22 : Fin k1_t22_loop.trips, ∀ a, (k1_off171 k1_t22) a + S1x16.size a ≤ S104x512.size a
  k1_off172_inb : ∀ k1_t22 : Fin k1_t22_loop.trips, ∀ a, (k1_off172 k1_t22) a + S1x16.size a ≤ S104x512.size a
  k1_off173_inb : ∀ k1_t22 : Fin k1_t22_loop.trips, ∀ a, (k1_off173 k1_t22) a + S1x16.size a ≤ S104x512.size a
  k1_off174_inb : ∀ k1_t22 : Fin k1_t22_loop.trips, ∀ a, (k1_off174 k1_t22) a + S1x16.size a ≤ S104x512.size a
  k1_off175_inb : ∀ k1_t22 : Fin k1_t22_loop.trips, ∀ a, (k1_off175 k1_t22) a + S1x16.size a ≤ S104x512.size a
  k1_off176_inb : ∀ k1_t22 : Fin k1_t22_loop.trips, ∀ a, (k1_off176 k1_t22) a + S1x16.size a ≤ S104x512.size a
  k1_off177_inb : ∀ k1_t22 : Fin k1_t22_loop.trips, ∀ a, (k1_off177 k1_t22) a + S1x16.size a ≤ S104x512.size a
  k1_off178_inb : ∀ k1_t22 : Fin k1_t22_loop.trips, ∀ a, (k1_off178 k1_t22) a + S1x16.size a ≤ S104x512.size a
  k1_t23_ok : k1_t23_loop.OK
  k1_off179_inb : ∀ k1_t23 : Fin k1_t23_loop.trips, ∀ a, (k1_off179 k1_t23) a + S1x16.size a ≤ S104x512.size a
  k1_off180_inb : ∀ k1_t23 : Fin k1_t23_loop.trips, ∀ a, (k1_off180 k1_t23) a + S1x16.size a ≤ S104x512.size a
  k1_off181_inb : ∀ k1_t23 : Fin k1_t23_loop.trips, ∀ a, (k1_off181 k1_t23) a + S1x16.size a ≤ S104x512.size a
  k1_off182_inb : ∀ k1_t23 : Fin k1_t23_loop.trips, ∀ a, (k1_off182 k1_t23) a + S1x16.size a ≤ S104x512.size a
  k1_off183_inb : ∀ k1_t23 : Fin k1_t23_loop.trips, ∀ a, (k1_off183 k1_t23) a + S1x16.size a ≤ S104x512.size a
  k1_off184_inb : ∀ k1_t23 : Fin k1_t23_loop.trips, ∀ a, (k1_off184 k1_t23) a + S1x16.size a ≤ S104x512.size a
  k1_off185_inb : ∀ k1_t23 : Fin k1_t23_loop.trips, ∀ a, (k1_off185 k1_t23) a + S1x16.size a ≤ S104x512.size a
  k1_off186_inb : ∀ k1_t23 : Fin k1_t23_loop.trips, ∀ a, (k1_off186 k1_t23) a + S1x16.size a ≤ S104x512.size a
  k1_t24_ok : k1_t24_loop.OK
  k1_off187_inb : ∀ k1_t24 : Fin k1_t24_loop.trips, ∀ a, (k1_off187 k1_t24) a + S1x16.size a ≤ S104x512.size a
  k1_off188_inb : ∀ k1_t24 : Fin k1_t24_loop.trips, ∀ a, (k1_off188 k1_t24) a + S1x16.size a ≤ S104x512.size a
  k1_off189_inb : ∀ k1_t24 : Fin k1_t24_loop.trips, ∀ a, (k1_off189 k1_t24) a + S1x16.size a ≤ S104x512.size a
  k1_off190_inb : ∀ k1_t24 : Fin k1_t24_loop.trips, ∀ a, (k1_off190 k1_t24) a + S1x16.size a ≤ S104x512.size a
  k1_off191_inb : ∀ k1_t24 : Fin k1_t24_loop.trips, ∀ a, (k1_off191 k1_t24) a + S1x16.size a ≤ S104x512.size a
  k1_off192_inb : ∀ k1_t24 : Fin k1_t24_loop.trips, ∀ a, (k1_off192 k1_t24) a + S1x16.size a ≤ S104x512.size a
  k1_off193_inb : ∀ k1_t24 : Fin k1_t24_loop.trips, ∀ a, (k1_off193 k1_t24) a + S1x16.size a ≤ S104x512.size a
  k1_off194_inb : ∀ k1_t24 : Fin k1_t24_loop.trips, ∀ a, (k1_off194 k1_t24) a + S1x16.size a ≤ S104x512.size a
  k1_t25_ok : k1_t25_loop.OK
  k1_off195_inb : ∀ k1_t25 : Fin k1_t25_loop.trips, ∀ a, (k1_off195 k1_t25) a + S1x16.size a ≤ S104x512.size a
  k1_off196_inb : ∀ k1_t25 : Fin k1_t25_loop.trips, ∀ a, (k1_off196 k1_t25) a + S1x16.size a ≤ S104x512.size a
  k1_off197_inb : ∀ k1_t25 : Fin k1_t25_loop.trips, ∀ a, (k1_off197 k1_t25) a + S1x16.size a ≤ S104x512.size a
  k1_off198_inb : ∀ k1_t25 : Fin k1_t25_loop.trips, ∀ a, (k1_off198 k1_t25) a + S1x16.size a ≤ S104x512.size a
  k1_off199_inb : ∀ k1_t25 : Fin k1_t25_loop.trips, ∀ a, (k1_off199 k1_t25) a + S1x16.size a ≤ S104x512.size a
  k1_off200_inb : ∀ k1_t25 : Fin k1_t25_loop.trips, ∀ a, (k1_off200 k1_t25) a + S1x16.size a ≤ S104x512.size a
  k1_off201_inb : ∀ k1_t25 : Fin k1_t25_loop.trips, ∀ a, (k1_off201 k1_t25) a + S1x16.size a ≤ S104x512.size a
  k1_off202_inb : ∀ k1_t25 : Fin k1_t25_loop.trips, ∀ a, (k1_off202 k1_t25) a + S1x16.size a ≤ S104x512.size a
  k1_t26_ok : k1_t26_loop.OK
  k1_off203_inb : ∀ k1_t26 : Fin k1_t26_loop.trips, ∀ a, (k1_off203 k1_t26) a + S1x16.size a ≤ S104x512.size a
  k1_off204_inb : ∀ k1_t26 : Fin k1_t26_loop.trips, ∀ a, (k1_off204 k1_t26) a + S1x16.size a ≤ S104x512.size a
  k1_off205_inb : ∀ k1_t26 : Fin k1_t26_loop.trips, ∀ a, (k1_off205 k1_t26) a + S1x16.size a ≤ S104x512.size a
  k1_off206_inb : ∀ k1_t26 : Fin k1_t26_loop.trips, ∀ a, (k1_off206 k1_t26) a + S1x16.size a ≤ S104x512.size a
  k1_off207_inb : ∀ k1_t26 : Fin k1_t26_loop.trips, ∀ a, (k1_off207 k1_t26) a + S1x16.size a ≤ S104x512.size a
  k1_off208_inb : ∀ k1_t26 : Fin k1_t26_loop.trips, ∀ a, (k1_off208 k1_t26) a + S1x16.size a ≤ S104x512.size a
  k1_off209_inb : ∀ k1_t26 : Fin k1_t26_loop.trips, ∀ a, (k1_off209 k1_t26) a + S1x16.size a ≤ S104x512.size a
  k1_off210_inb : ∀ k1_t26 : Fin k1_t26_loop.trips, ∀ a, (k1_off210 k1_t26) a + S1x16.size a ≤ S104x512.size a
  k1_t27_ok : k1_t27_loop.OK
  k1_off211_inb : ∀ k1_t27 : Fin k1_t27_loop.trips, ∀ a, (k1_off211 k1_t27) a + S1x16.size a ≤ S104x512.size a
  k1_off212_inb : ∀ k1_t27 : Fin k1_t27_loop.trips, ∀ a, (k1_off212 k1_t27) a + S1x16.size a ≤ S104x512.size a
  k1_off213_inb : ∀ k1_t27 : Fin k1_t27_loop.trips, ∀ a, (k1_off213 k1_t27) a + S1x16.size a ≤ S104x512.size a
  k1_off214_inb : ∀ k1_t27 : Fin k1_t27_loop.trips, ∀ a, (k1_off214 k1_t27) a + S1x16.size a ≤ S104x512.size a
  k1_off215_inb : ∀ k1_t27 : Fin k1_t27_loop.trips, ∀ a, (k1_off215 k1_t27) a + S1x16.size a ≤ S104x512.size a
  k1_off216_inb : ∀ k1_t27 : Fin k1_t27_loop.trips, ∀ a, (k1_off216 k1_t27) a + S1x16.size a ≤ S104x512.size a
  k1_off217_inb : ∀ k1_t27 : Fin k1_t27_loop.trips, ∀ a, (k1_off217 k1_t27) a + S1x16.size a ≤ S104x512.size a
  k1_off218_inb : ∀ k1_t27 : Fin k1_t27_loop.trips, ∀ a, (k1_off218 k1_t27) a + S1x16.size a ≤ S104x512.size a
  k1_t28_ok : k1_t28_loop.OK
  k1_off219_inb : ∀ k1_t28 : Fin k1_t28_loop.trips, ∀ a, (k1_off219 k1_t28) a + S1x16.size a ≤ S104x512.size a
  k1_off220_inb : ∀ k1_t28 : Fin k1_t28_loop.trips, ∀ a, (k1_off220 k1_t28) a + S1x16.size a ≤ S104x512.size a
  k1_off221_inb : ∀ k1_t28 : Fin k1_t28_loop.trips, ∀ a, (k1_off221 k1_t28) a + S1x16.size a ≤ S104x512.size a
  k1_off222_inb : ∀ k1_t28 : Fin k1_t28_loop.trips, ∀ a, (k1_off222 k1_t28) a + S1x16.size a ≤ S104x512.size a
  k1_off223_inb : ∀ k1_t28 : Fin k1_t28_loop.trips, ∀ a, (k1_off223 k1_t28) a + S1x16.size a ≤ S104x512.size a
  k1_off224_inb : ∀ k1_t28 : Fin k1_t28_loop.trips, ∀ a, (k1_off224 k1_t28) a + S1x16.size a ≤ S104x512.size a
  k1_off225_inb : ∀ k1_t28 : Fin k1_t28_loop.trips, ∀ a, (k1_off225 k1_t28) a + S1x16.size a ≤ S104x512.size a
  k1_off226_inb : ∀ k1_t28 : Fin k1_t28_loop.trips, ∀ a, (k1_off226 k1_t28) a + S1x16.size a ≤ S104x512.size a
  k1_t29_ok : k1_t29_loop.OK
  k1_off227_inb : ∀ k1_t29 : Fin k1_t29_loop.trips, ∀ a, (k1_off227 k1_t29) a + S1x16.size a ≤ S104x512.size a
  k1_off228_inb : ∀ k1_t29 : Fin k1_t29_loop.trips, ∀ a, (k1_off228 k1_t29) a + S1x16.size a ≤ S104x512.size a
  k1_off229_inb : ∀ k1_t29 : Fin k1_t29_loop.trips, ∀ a, (k1_off229 k1_t29) a + S1x16.size a ≤ S104x512.size a
  k1_off230_inb : ∀ k1_t29 : Fin k1_t29_loop.trips, ∀ a, (k1_off230 k1_t29) a + S1x16.size a ≤ S104x512.size a
  k1_off231_inb : ∀ k1_t29 : Fin k1_t29_loop.trips, ∀ a, (k1_off231 k1_t29) a + S1x16.size a ≤ S104x512.size a
  k1_off232_inb : ∀ k1_t29 : Fin k1_t29_loop.trips, ∀ a, (k1_off232 k1_t29) a + S1x16.size a ≤ S104x512.size a
  k1_off233_inb : ∀ k1_t29 : Fin k1_t29_loop.trips, ∀ a, (k1_off233 k1_t29) a + S1x16.size a ≤ S104x512.size a
  k1_off234_inb : ∀ k1_t29 : Fin k1_t29_loop.trips, ∀ a, (k1_off234 k1_t29) a + S1x16.size a ≤ S104x512.size a
  k1_t30_ok : k1_t30_loop.OK
  k1_off235_inb : ∀ k1_t30 : Fin k1_t30_loop.trips, ∀ a, (k1_off235 k1_t30) a + S1x16.size a ≤ S104x512.size a
  k1_off236_inb : ∀ k1_t30 : Fin k1_t30_loop.trips, ∀ a, (k1_off236 k1_t30) a + S1x16.size a ≤ S104x512.size a
  k1_off237_inb : ∀ k1_t30 : Fin k1_t30_loop.trips, ∀ a, (k1_off237 k1_t30) a + S1x16.size a ≤ S104x512.size a
  k1_off238_inb : ∀ k1_t30 : Fin k1_t30_loop.trips, ∀ a, (k1_off238 k1_t30) a + S1x16.size a ≤ S104x512.size a
  k1_off239_inb : ∀ k1_t30 : Fin k1_t30_loop.trips, ∀ a, (k1_off239 k1_t30) a + S1x16.size a ≤ S104x512.size a
  k1_off240_inb : ∀ k1_t30 : Fin k1_t30_loop.trips, ∀ a, (k1_off240 k1_t30) a + S1x16.size a ≤ S104x512.size a
  k1_off241_inb : ∀ k1_t30 : Fin k1_t30_loop.trips, ∀ a, (k1_off241 k1_t30) a + S1x16.size a ≤ S104x512.size a
  k1_off242_inb : ∀ k1_t30 : Fin k1_t30_loop.trips, ∀ a, (k1_off242 k1_t30) a + S1x16.size a ≤ S104x512.size a
  k1_t31_ok : k1_t31_loop.OK
  k1_off243_inb : ∀ k1_t31 : Fin k1_t31_loop.trips, ∀ a, (k1_off243 k1_t31) a + S1x16.size a ≤ S104x512.size a
  k1_off244_inb : ∀ k1_t31 : Fin k1_t31_loop.trips, ∀ a, (k1_off244 k1_t31) a + S1x16.size a ≤ S104x512.size a
  k1_off245_inb : ∀ k1_t31 : Fin k1_t31_loop.trips, ∀ a, (k1_off245 k1_t31) a + S1x16.size a ≤ S104x512.size a
  k1_off246_inb : ∀ k1_t31 : Fin k1_t31_loop.trips, ∀ a, (k1_off246 k1_t31) a + S1x16.size a ≤ S104x512.size a
  k1_off247_inb : ∀ k1_t31 : Fin k1_t31_loop.trips, ∀ a, (k1_off247 k1_t31) a + S1x16.size a ≤ S104x512.size a
  k1_off248_inb : ∀ k1_t31 : Fin k1_t31_loop.trips, ∀ a, (k1_off248 k1_t31) a + S1x16.size a ≤ S104x512.size a
  k1_off249_inb : ∀ k1_t31 : Fin k1_t31_loop.trips, ∀ a, (k1_off249 k1_t31) a + S1x16.size a ≤ S104x512.size a
  k1_off250_inb : ∀ k1_t31 : Fin k1_t31_loop.trips, ∀ a, (k1_off250 k1_t31) a + S1x16.size a ≤ S104x512.size a
  k1_t32_ok : k1_t32_loop.OK
  k1_off251_inb : ∀ k1_t32 : Fin k1_t32_loop.trips, ∀ a, (k1_off251 k1_t32) a + S1x16.size a ≤ S104x512.size a
  k1_off252_inb : ∀ k1_t32 : Fin k1_t32_loop.trips, ∀ a, (k1_off252 k1_t32) a + S1x16.size a ≤ S104x512.size a
  k1_off253_inb : ∀ k1_t32 : Fin k1_t32_loop.trips, ∀ a, (k1_off253 k1_t32) a + S1x16.size a ≤ S104x512.size a
  k1_off254_inb : ∀ k1_t32 : Fin k1_t32_loop.trips, ∀ a, (k1_off254 k1_t32) a + S1x16.size a ≤ S104x512.size a
  k1_off255_inb : ∀ k1_t32 : Fin k1_t32_loop.trips, ∀ a, (k1_off255 k1_t32) a + S1x16.size a ≤ S104x512.size a
  k1_off256_inb : ∀ k1_t32 : Fin k1_t32_loop.trips, ∀ a, (k1_off256 k1_t32) a + S1x16.size a ≤ S104x512.size a
  k1_off257_inb : ∀ k1_t32 : Fin k1_t32_loop.trips, ∀ a, (k1_off257 k1_t32) a + S1x16.size a ≤ S104x512.size a
  k1_off258_inb : ∀ k1_t32 : Fin k1_t32_loop.trips, ∀ a, (k1_off258 k1_t32) a + S1x16.size a ≤ S104x512.size a
  k1_t33_ok : k1_t33_loop.OK
  k1_off259_inb : ∀ k1_t33 : Fin k1_t33_loop.trips, ∀ a, (k1_off259 k1_t33) a + S1x16.size a ≤ S96x512.size a
  k1_off260_inb : ∀ k1_t33 : Fin k1_t33_loop.trips, ∀ a, (k1_off260 k1_t33) a + S1x16.size a ≤ S96x512.size a
  k1_off261_inb : ∀ k1_t33 : Fin k1_t33_loop.trips, ∀ a, (k1_off261 k1_t33) a + S1x16.size a ≤ S96x512.size a
  k1_off262_inb : ∀ k1_t33 : Fin k1_t33_loop.trips, ∀ a, (k1_off262 k1_t33) a + S1x16.size a ≤ S96x512.size a
  k1_off263_inb : ∀ k1_t33 : Fin k1_t33_loop.trips, ∀ a, (k1_off263 k1_t33) a + S1x16.size a ≤ S96x512.size a
  k1_off264_inb : ∀ k1_t33 : Fin k1_t33_loop.trips, ∀ a, (k1_off264 k1_t33) a + S1x16.size a ≤ S96x512.size a
  k1_off265_inb : ∀ k1_t33 : Fin k1_t33_loop.trips, ∀ a, (k1_off265 k1_t33) a + S1x16.size a ≤ S96x512.size a
  k1_off266_inb : ∀ k1_t33 : Fin k1_t33_loop.trips, ∀ a, (k1_off266 k1_t33) a + S1x16.size a ≤ S96x512.size a
  k1_t34_ok : k1_t34_loop.OK
  k1_off267_inb : ∀ k1_t34 : Fin k1_t34_loop.trips, ∀ a, (k1_off267 k1_t34) a + S1x16.size a ≤ S96x512.size a
  k1_off268_inb : ∀ k1_t34 : Fin k1_t34_loop.trips, ∀ a, (k1_off268 k1_t34) a + S1x16.size a ≤ S96x512.size a
  k1_off269_inb : ∀ k1_t34 : Fin k1_t34_loop.trips, ∀ a, (k1_off269 k1_t34) a + S1x16.size a ≤ S96x512.size a
  k1_off270_inb : ∀ k1_t34 : Fin k1_t34_loop.trips, ∀ a, (k1_off270 k1_t34) a + S1x16.size a ≤ S96x512.size a
  k1_off271_inb : ∀ k1_t34 : Fin k1_t34_loop.trips, ∀ a, (k1_off271 k1_t34) a + S1x16.size a ≤ S96x512.size a
  k1_off272_inb : ∀ k1_t34 : Fin k1_t34_loop.trips, ∀ a, (k1_off272 k1_t34) a + S1x16.size a ≤ S96x512.size a
  k1_off273_inb : ∀ k1_t34 : Fin k1_t34_loop.trips, ∀ a, (k1_off273 k1_t34) a + S1x16.size a ≤ S96x512.size a
  k1_off274_inb : ∀ k1_t34 : Fin k1_t34_loop.trips, ∀ a, (k1_off274 k1_t34) a + S1x16.size a ≤ S96x512.size a
  k1_t35_ok : k1_t35_loop.OK
  k1_off275_inb : ∀ k1_t35 : Fin k1_t35_loop.trips, ∀ a, (k1_off275 k1_t35) a + S1x16.size a ≤ S96x512.size a
  k1_off276_inb : ∀ k1_t35 : Fin k1_t35_loop.trips, ∀ a, (k1_off276 k1_t35) a + S1x16.size a ≤ S96x512.size a
  k1_off277_inb : ∀ k1_t35 : Fin k1_t35_loop.trips, ∀ a, (k1_off277 k1_t35) a + S1x16.size a ≤ S96x512.size a
  k1_off278_inb : ∀ k1_t35 : Fin k1_t35_loop.trips, ∀ a, (k1_off278 k1_t35) a + S1x16.size a ≤ S96x512.size a
  k1_off279_inb : ∀ k1_t35 : Fin k1_t35_loop.trips, ∀ a, (k1_off279 k1_t35) a + S1x16.size a ≤ S96x512.size a
  k1_off280_inb : ∀ k1_t35 : Fin k1_t35_loop.trips, ∀ a, (k1_off280 k1_t35) a + S1x16.size a ≤ S96x512.size a
  k1_off281_inb : ∀ k1_t35 : Fin k1_t35_loop.trips, ∀ a, (k1_off281 k1_t35) a + S1x16.size a ≤ S96x512.size a
  k1_off282_inb : ∀ k1_t35 : Fin k1_t35_loop.trips, ∀ a, (k1_off282 k1_t35) a + S1x16.size a ≤ S96x512.size a
  k1_t36_ok : k1_t36_loop.OK
  k1_off283_inb : ∀ k1_t36 : Fin k1_t36_loop.trips, ∀ a, (k1_off283 k1_t36) a + S1x16.size a ≤ S96x512.size a
  k1_off284_inb : ∀ k1_t36 : Fin k1_t36_loop.trips, ∀ a, (k1_off284 k1_t36) a + S1x16.size a ≤ S96x512.size a
  k1_off285_inb : ∀ k1_t36 : Fin k1_t36_loop.trips, ∀ a, (k1_off285 k1_t36) a + S1x16.size a ≤ S96x512.size a
  k1_off286_inb : ∀ k1_t36 : Fin k1_t36_loop.trips, ∀ a, (k1_off286 k1_t36) a + S1x16.size a ≤ S96x512.size a
  k1_off287_inb : ∀ k1_t36 : Fin k1_t36_loop.trips, ∀ a, (k1_off287 k1_t36) a + S1x16.size a ≤ S96x512.size a
  k1_off288_inb : ∀ k1_t36 : Fin k1_t36_loop.trips, ∀ a, (k1_off288 k1_t36) a + S1x16.size a ≤ S96x512.size a
  k1_off289_inb : ∀ k1_t36 : Fin k1_t36_loop.trips, ∀ a, (k1_off289 k1_t36) a + S1x16.size a ≤ S96x512.size a
  k1_off290_inb : ∀ k1_t36 : Fin k1_t36_loop.trips, ∀ a, (k1_off290 k1_t36) a + S1x16.size a ≤ S96x512.size a
  k1_t37_ok : k1_t37_loop.OK
  k1_off291_inb : ∀ k1_t37 : Fin k1_t37_loop.trips, ∀ a, (k1_off291 k1_t37) a + S1x16.size a ≤ S96x512.size a
  k1_off292_inb : ∀ k1_t37 : Fin k1_t37_loop.trips, ∀ a, (k1_off292 k1_t37) a + S1x16.size a ≤ S96x512.size a
  k1_off293_inb : ∀ k1_t37 : Fin k1_t37_loop.trips, ∀ a, (k1_off293 k1_t37) a + S1x16.size a ≤ S96x512.size a
  k1_off294_inb : ∀ k1_t37 : Fin k1_t37_loop.trips, ∀ a, (k1_off294 k1_t37) a + S1x16.size a ≤ S96x512.size a
  k1_off295_inb : ∀ k1_t37 : Fin k1_t37_loop.trips, ∀ a, (k1_off295 k1_t37) a + S1x16.size a ≤ S96x512.size a
  k1_off296_inb : ∀ k1_t37 : Fin k1_t37_loop.trips, ∀ a, (k1_off296 k1_t37) a + S1x16.size a ≤ S96x512.size a
  k1_off297_inb : ∀ k1_t37 : Fin k1_t37_loop.trips, ∀ a, (k1_off297 k1_t37) a + S1x16.size a ≤ S96x512.size a
  k1_off298_inb : ∀ k1_t37 : Fin k1_t37_loop.trips, ∀ a, (k1_off298 k1_t37) a + S1x16.size a ≤ S96x512.size a
  k1_t38_ok : k1_t38_loop.OK
  k1_off299_inb : ∀ k1_t38 : Fin k1_t38_loop.trips, ∀ a, (k1_off299 k1_t38) a + S1x16.size a ≤ S96x512.size a
  k1_off300_inb : ∀ k1_t38 : Fin k1_t38_loop.trips, ∀ a, (k1_off300 k1_t38) a + S1x16.size a ≤ S96x512.size a
  k1_off301_inb : ∀ k1_t38 : Fin k1_t38_loop.trips, ∀ a, (k1_off301 k1_t38) a + S1x16.size a ≤ S96x512.size a
  k1_off302_inb : ∀ k1_t38 : Fin k1_t38_loop.trips, ∀ a, (k1_off302 k1_t38) a + S1x16.size a ≤ S96x512.size a
  k1_off303_inb : ∀ k1_t38 : Fin k1_t38_loop.trips, ∀ a, (k1_off303 k1_t38) a + S1x16.size a ≤ S96x512.size a
  k1_off304_inb : ∀ k1_t38 : Fin k1_t38_loop.trips, ∀ a, (k1_off304 k1_t38) a + S1x16.size a ≤ S96x512.size a
  k1_off305_inb : ∀ k1_t38 : Fin k1_t38_loop.trips, ∀ a, (k1_off305 k1_t38) a + S1x16.size a ≤ S96x512.size a
  k1_off306_inb : ∀ k1_t38 : Fin k1_t38_loop.trips, ∀ a, (k1_off306 k1_t38) a + S1x16.size a ≤ S96x512.size a
  k1_t39_ok : k1_t39_loop.OK
  k1_off307_inb : ∀ k1_t39 : Fin k1_t39_loop.trips, ∀ a, (k1_off307 k1_t39) a + S1x16.size a ≤ S96x512.size a
  k1_off308_inb : ∀ k1_t39 : Fin k1_t39_loop.trips, ∀ a, (k1_off308 k1_t39) a + S1x16.size a ≤ S96x512.size a
  k1_off309_inb : ∀ k1_t39 : Fin k1_t39_loop.trips, ∀ a, (k1_off309 k1_t39) a + S1x16.size a ≤ S96x512.size a
  k1_off310_inb : ∀ k1_t39 : Fin k1_t39_loop.trips, ∀ a, (k1_off310 k1_t39) a + S1x16.size a ≤ S96x512.size a
  k1_off311_inb : ∀ k1_t39 : Fin k1_t39_loop.trips, ∀ a, (k1_off311 k1_t39) a + S1x16.size a ≤ S96x512.size a
  k1_off312_inb : ∀ k1_t39 : Fin k1_t39_loop.trips, ∀ a, (k1_off312 k1_t39) a + S1x16.size a ≤ S96x512.size a
  k1_off313_inb : ∀ k1_t39 : Fin k1_t39_loop.trips, ∀ a, (k1_off313 k1_t39) a + S1x16.size a ≤ S96x512.size a
  k1_off314_inb : ∀ k1_t39 : Fin k1_t39_loop.trips, ∀ a, (k1_off314 k1_t39) a + S1x16.size a ≤ S96x512.size a
  k1_t40_ok : k1_t40_loop.OK
  k1_off315_inb : ∀ k1_t40 : Fin k1_t40_loop.trips, ∀ a, (k1_off315 k1_t40) a + S1x16.size a ≤ S96x512.size a
  k1_off316_inb : ∀ k1_t40 : Fin k1_t40_loop.trips, ∀ a, (k1_off316 k1_t40) a + S1x16.size a ≤ S96x512.size a
  k1_off317_inb : ∀ k1_t40 : Fin k1_t40_loop.trips, ∀ a, (k1_off317 k1_t40) a + S1x16.size a ≤ S96x512.size a
  k1_off318_inb : ∀ k1_t40 : Fin k1_t40_loop.trips, ∀ a, (k1_off318 k1_t40) a + S1x16.size a ≤ S96x512.size a
  k1_off319_inb : ∀ k1_t40 : Fin k1_t40_loop.trips, ∀ a, (k1_off319 k1_t40) a + S1x16.size a ≤ S96x512.size a
  k1_off320_inb : ∀ k1_t40 : Fin k1_t40_loop.trips, ∀ a, (k1_off320 k1_t40) a + S1x16.size a ≤ S96x512.size a
  k1_off321_inb : ∀ k1_t40 : Fin k1_t40_loop.trips, ∀ a, (k1_off321 k1_t40) a + S1x16.size a ≤ S96x512.size a
  k1_off322_inb : ∀ k1_t40 : Fin k1_t40_loop.trips, ∀ a, (k1_off322 k1_t40) a + S1x16.size a ≤ S96x512.size a
  k1_t41_ok : k1_t41_loop.OK
  k1_off323_inb : ∀ k1_t41 : Fin k1_t41_loop.trips, ∀ a, (k1_off323 k1_t41) a + S1x16.size a ≤ S96x512.size a
  k1_off324_inb : ∀ k1_t41 : Fin k1_t41_loop.trips, ∀ a, (k1_off324 k1_t41) a + S1x16.size a ≤ S96x512.size a
  k1_off325_inb : ∀ k1_t41 : Fin k1_t41_loop.trips, ∀ a, (k1_off325 k1_t41) a + S1x16.size a ≤ S96x512.size a
  k1_off326_inb : ∀ k1_t41 : Fin k1_t41_loop.trips, ∀ a, (k1_off326 k1_t41) a + S1x16.size a ≤ S96x512.size a
  k1_off327_inb : ∀ k1_t41 : Fin k1_t41_loop.trips, ∀ a, (k1_off327 k1_t41) a + S1x16.size a ≤ S96x512.size a
  k1_off328_inb : ∀ k1_t41 : Fin k1_t41_loop.trips, ∀ a, (k1_off328 k1_t41) a + S1x16.size a ≤ S96x512.size a
  k1_off329_inb : ∀ k1_t41 : Fin k1_t41_loop.trips, ∀ a, (k1_off329 k1_t41) a + S1x16.size a ≤ S96x512.size a
  k1_off330_inb : ∀ k1_t41 : Fin k1_t41_loop.trips, ∀ a, (k1_off330 k1_t41) a + S1x16.size a ≤ S96x512.size a
  k1_t42_ok : k1_t42_loop.OK
  k1_off331_inb : ∀ k1_t42 : Fin k1_t42_loop.trips, ∀ a, (k1_off331 k1_t42) a + S1x16.size a ≤ S96x512.size a
  k1_off332_inb : ∀ k1_t42 : Fin k1_t42_loop.trips, ∀ a, (k1_off332 k1_t42) a + S1x16.size a ≤ S96x512.size a
  k1_off333_inb : ∀ k1_t42 : Fin k1_t42_loop.trips, ∀ a, (k1_off333 k1_t42) a + S1x16.size a ≤ S96x512.size a
  k1_off334_inb : ∀ k1_t42 : Fin k1_t42_loop.trips, ∀ a, (k1_off334 k1_t42) a + S1x16.size a ≤ S96x512.size a
  k1_off335_inb : ∀ k1_t42 : Fin k1_t42_loop.trips, ∀ a, (k1_off335 k1_t42) a + S1x16.size a ≤ S96x512.size a
  k1_off336_inb : ∀ k1_t42 : Fin k1_t42_loop.trips, ∀ a, (k1_off336 k1_t42) a + S1x16.size a ≤ S96x512.size a
  k1_off337_inb : ∀ k1_t42 : Fin k1_t42_loop.trips, ∀ a, (k1_off337 k1_t42) a + S1x16.size a ≤ S96x512.size a
  k1_off338_inb : ∀ k1_t42 : Fin k1_t42_loop.trips, ∀ a, (k1_off338 k1_t42) a + S1x16.size a ≤ S96x512.size a
  k1_t43_ok : k1_t43_loop.OK
  k1_off339_inb : ∀ k1_t43 : Fin k1_t43_loop.trips, ∀ a, (k1_off339 k1_t43) a + S1x16.size a ≤ S96x512.size a
  k1_off340_inb : ∀ k1_t43 : Fin k1_t43_loop.trips, ∀ a, (k1_off340 k1_t43) a + S1x16.size a ≤ S96x512.size a
  k1_off341_inb : ∀ k1_t43 : Fin k1_t43_loop.trips, ∀ a, (k1_off341 k1_t43) a + S1x16.size a ≤ S96x512.size a
  k1_off342_inb : ∀ k1_t43 : Fin k1_t43_loop.trips, ∀ a, (k1_off342 k1_t43) a + S1x16.size a ≤ S96x512.size a
  k1_off343_inb : ∀ k1_t43 : Fin k1_t43_loop.trips, ∀ a, (k1_off343 k1_t43) a + S1x16.size a ≤ S96x512.size a
  k1_off344_inb : ∀ k1_t43 : Fin k1_t43_loop.trips, ∀ a, (k1_off344 k1_t43) a + S1x16.size a ≤ S96x512.size a
  k1_off345_inb : ∀ k1_t43 : Fin k1_t43_loop.trips, ∀ a, (k1_off345 k1_t43) a + S1x16.size a ≤ S96x512.size a
  k1_off346_inb : ∀ k1_t43 : Fin k1_t43_loop.trips, ∀ a, (k1_off346 k1_t43) a + S1x16.size a ≤ S96x512.size a
  k1_t44_ok : k1_t44_loop.OK
  k1_off347_inb : ∀ k1_t44 : Fin k1_t44_loop.trips, ∀ a, (k1_off347 k1_t44) a + S1x16.size a ≤ S96x512.size a
  k1_off348_inb : ∀ k1_t44 : Fin k1_t44_loop.trips, ∀ a, (k1_off348 k1_t44) a + S1x16.size a ≤ S96x512.size a
  k1_off349_inb : ∀ k1_t44 : Fin k1_t44_loop.trips, ∀ a, (k1_off349 k1_t44) a + S1x16.size a ≤ S96x512.size a
  k1_off350_inb : ∀ k1_t44 : Fin k1_t44_loop.trips, ∀ a, (k1_off350 k1_t44) a + S1x16.size a ≤ S96x512.size a
  k1_off351_inb : ∀ k1_t44 : Fin k1_t44_loop.trips, ∀ a, (k1_off351 k1_t44) a + S1x16.size a ≤ S96x512.size a
  k1_off352_inb : ∀ k1_t44 : Fin k1_t44_loop.trips, ∀ a, (k1_off352 k1_t44) a + S1x16.size a ≤ S96x512.size a
  k1_off353_inb : ∀ k1_t44 : Fin k1_t44_loop.trips, ∀ a, (k1_off353 k1_t44) a + S1x16.size a ≤ S96x512.size a
  k1_off354_inb : ∀ k1_t44 : Fin k1_t44_loop.trips, ∀ a, (k1_off354 k1_t44) a + S1x16.size a ≤ S96x512.size a
  k1_t45_ok : k1_t45_loop.OK
  k1_off355_inb : ∀ k1_t45 : Fin k1_t45_loop.trips, ∀ a, (k1_off355 k1_t45) a + S1x16.size a ≤ S96x512.size a
  k1_off356_inb : ∀ k1_t45 : Fin k1_t45_loop.trips, ∀ a, (k1_off356 k1_t45) a + S1x16.size a ≤ S96x512.size a
  k1_off357_inb : ∀ k1_t45 : Fin k1_t45_loop.trips, ∀ a, (k1_off357 k1_t45) a + S1x16.size a ≤ S96x512.size a
  k1_off358_inb : ∀ k1_t45 : Fin k1_t45_loop.trips, ∀ a, (k1_off358 k1_t45) a + S1x16.size a ≤ S96x512.size a
  k1_off359_inb : ∀ k1_t45 : Fin k1_t45_loop.trips, ∀ a, (k1_off359 k1_t45) a + S1x16.size a ≤ S96x512.size a
  k1_off360_inb : ∀ k1_t45 : Fin k1_t45_loop.trips, ∀ a, (k1_off360 k1_t45) a + S1x16.size a ≤ S96x512.size a
  k1_off361_inb : ∀ k1_t45 : Fin k1_t45_loop.trips, ∀ a, (k1_off361 k1_t45) a + S1x16.size a ≤ S96x512.size a
  k1_off362_inb : ∀ k1_t45 : Fin k1_t45_loop.trips, ∀ a, (k1_off362 k1_t45) a + S1x16.size a ≤ S96x512.size a
  k1_t46_ok : k1_t46_loop.OK
  k1_off363_inb : ∀ k1_t46 : Fin k1_t46_loop.trips, ∀ a, (k1_off363 k1_t46) a + S1x16.size a ≤ S96x512.size a
  k1_off364_inb : ∀ k1_t46 : Fin k1_t46_loop.trips, ∀ a, (k1_off364 k1_t46) a + S1x16.size a ≤ S96x512.size a
  k1_off365_inb : ∀ k1_t46 : Fin k1_t46_loop.trips, ∀ a, (k1_off365 k1_t46) a + S1x16.size a ≤ S96x512.size a
  k1_off366_inb : ∀ k1_t46 : Fin k1_t46_loop.trips, ∀ a, (k1_off366 k1_t46) a + S1x16.size a ≤ S96x512.size a
  k1_off367_inb : ∀ k1_t46 : Fin k1_t46_loop.trips, ∀ a, (k1_off367 k1_t46) a + S1x16.size a ≤ S96x512.size a
  k1_off368_inb : ∀ k1_t46 : Fin k1_t46_loop.trips, ∀ a, (k1_off368 k1_t46) a + S1x16.size a ≤ S96x512.size a
  k1_off369_inb : ∀ k1_t46 : Fin k1_t46_loop.trips, ∀ a, (k1_off369 k1_t46) a + S1x16.size a ≤ S96x512.size a
  k1_off370_inb : ∀ k1_t46 : Fin k1_t46_loop.trips, ∀ a, (k1_off370 k1_t46) a + S1x16.size a ≤ S96x512.size a
  k1_t47_ok : k1_t47_loop.OK
  k1_off371_inb : ∀ k1_t47 : Fin k1_t47_loop.trips, ∀ a, (k1_off371 k1_t47) a + S1x16.size a ≤ S96x512.size a
  k1_off372_inb : ∀ k1_t47 : Fin k1_t47_loop.trips, ∀ a, (k1_off372 k1_t47) a + S1x16.size a ≤ S96x512.size a
  k1_off373_inb : ∀ k1_t47 : Fin k1_t47_loop.trips, ∀ a, (k1_off373 k1_t47) a + S1x16.size a ≤ S96x512.size a
  k1_off374_inb : ∀ k1_t47 : Fin k1_t47_loop.trips, ∀ a, (k1_off374 k1_t47) a + S1x16.size a ≤ S96x512.size a
  k1_off375_inb : ∀ k1_t47 : Fin k1_t47_loop.trips, ∀ a, (k1_off375 k1_t47) a + S1x16.size a ≤ S96x512.size a
  k1_off376_inb : ∀ k1_t47 : Fin k1_t47_loop.trips, ∀ a, (k1_off376 k1_t47) a + S1x16.size a ≤ S96x512.size a
  k1_off377_inb : ∀ k1_t47 : Fin k1_t47_loop.trips, ∀ a, (k1_off377 k1_t47) a + S1x16.size a ≤ S96x512.size a
  k1_off378_inb : ∀ k1_t47 : Fin k1_t47_loop.trips, ∀ a, (k1_off378 k1_t47) a + S1x16.size a ≤ S96x512.size a
  k1_t48_ok : k1_t48_loop.OK
  k1_off379_inb : ∀ k1_t48 : Fin k1_t48_loop.trips, ∀ a, (k1_off379 k1_t48) a + S1x16.size a ≤ S96x512.size a
  k1_off380_inb : ∀ k1_t48 : Fin k1_t48_loop.trips, ∀ a, (k1_off380 k1_t48) a + S1x16.size a ≤ S96x512.size a
  k1_off381_inb : ∀ k1_t48 : Fin k1_t48_loop.trips, ∀ a, (k1_off381 k1_t48) a + S1x16.size a ≤ S96x512.size a
  k1_off382_inb : ∀ k1_t48 : Fin k1_t48_loop.trips, ∀ a, (k1_off382 k1_t48) a + S1x16.size a ≤ S96x512.size a
  k1_off383_inb : ∀ k1_t48 : Fin k1_t48_loop.trips, ∀ a, (k1_off383 k1_t48) a + S1x16.size a ≤ S96x512.size a
  k1_off384_inb : ∀ k1_t48 : Fin k1_t48_loop.trips, ∀ a, (k1_off384 k1_t48) a + S1x16.size a ≤ S96x512.size a
  k1_off385_inb : ∀ k1_t48 : Fin k1_t48_loop.trips, ∀ a, (k1_off385 k1_t48) a + S1x16.size a ≤ S96x512.size a
  k1_off386_inb : ∀ k1_t48 : Fin k1_t48_loop.trips, ∀ a, (k1_off386 k1_t48) a + S1x16.size a ≤ S96x512.size a
  k1_t49_ok : k1_t49_loop.OK
  k1_off387_inb : ∀ k1_t49 : Fin k1_t49_loop.trips, ∀ a, (k1_off387 k1_t49) a + S1x16.size a ≤ S96x512.size a
  k1_off388_inb : ∀ k1_t49 : Fin k1_t49_loop.trips, ∀ a, (k1_off388 k1_t49) a + S1x16.size a ≤ S96x512.size a
  k1_off389_inb : ∀ k1_t49 : Fin k1_t49_loop.trips, ∀ a, (k1_off389 k1_t49) a + S1x16.size a ≤ S96x512.size a
  k1_off390_inb : ∀ k1_t49 : Fin k1_t49_loop.trips, ∀ a, (k1_off390 k1_t49) a + S1x16.size a ≤ S96x512.size a
  k1_off391_inb : ∀ k1_t49 : Fin k1_t49_loop.trips, ∀ a, (k1_off391 k1_t49) a + S1x16.size a ≤ S96x512.size a
  k1_off392_inb : ∀ k1_t49 : Fin k1_t49_loop.trips, ∀ a, (k1_off392 k1_t49) a + S1x16.size a ≤ S96x512.size a
  k1_off393_inb : ∀ k1_t49 : Fin k1_t49_loop.trips, ∀ a, (k1_off393 k1_t49) a + S1x16.size a ≤ S96x512.size a
  k1_off394_inb : ∀ k1_t49 : Fin k1_t49_loop.trips, ∀ a, (k1_off394 k1_t49) a + S1x16.size a ≤ S96x512.size a
  k1_t50_ok : k1_t50_loop.OK
  k1_off395_inb : ∀ k1_t50 : Fin k1_t50_loop.trips, ∀ a, (k1_off395 k1_t50) a + S1x16.size a ≤ S96x512.size a
  k1_off396_inb : ∀ k1_t50 : Fin k1_t50_loop.trips, ∀ a, (k1_off396 k1_t50) a + S1x16.size a ≤ S96x512.size a
  k1_off397_inb : ∀ k1_t50 : Fin k1_t50_loop.trips, ∀ a, (k1_off397 k1_t50) a + S1x16.size a ≤ S96x512.size a
  k1_off398_inb : ∀ k1_t50 : Fin k1_t50_loop.trips, ∀ a, (k1_off398 k1_t50) a + S1x16.size a ≤ S96x512.size a
  k1_off399_inb : ∀ k1_t50 : Fin k1_t50_loop.trips, ∀ a, (k1_off399 k1_t50) a + S1x16.size a ≤ S96x512.size a
  k1_off400_inb : ∀ k1_t50 : Fin k1_t50_loop.trips, ∀ a, (k1_off400 k1_t50) a + S1x16.size a ≤ S96x512.size a
  k1_off401_inb : ∀ k1_t50 : Fin k1_t50_loop.trips, ∀ a, (k1_off401 k1_t50) a + S1x16.size a ≤ S96x512.size a
  k1_off402_inb : ∀ k1_t50 : Fin k1_t50_loop.trips, ∀ a, (k1_off402 k1_t50) a + S1x16.size a ≤ S96x512.size a
  k1_t51_ok : k1_t51_loop.OK
  k1_off403_inb : ∀ k1_t51 : Fin k1_t51_loop.trips, ∀ a, (k1_off403 k1_t51) a + S1x16.size a ≤ S96x512.size a
  k1_off404_inb : ∀ k1_t51 : Fin k1_t51_loop.trips, ∀ a, (k1_off404 k1_t51) a + S1x16.size a ≤ S96x512.size a
  k1_off405_inb : ∀ k1_t51 : Fin k1_t51_loop.trips, ∀ a, (k1_off405 k1_t51) a + S1x16.size a ≤ S96x512.size a
  k1_off406_inb : ∀ k1_t51 : Fin k1_t51_loop.trips, ∀ a, (k1_off406 k1_t51) a + S1x16.size a ≤ S96x512.size a
  k1_off407_inb : ∀ k1_t51 : Fin k1_t51_loop.trips, ∀ a, (k1_off407 k1_t51) a + S1x16.size a ≤ S96x512.size a
  k1_off408_inb : ∀ k1_t51 : Fin k1_t51_loop.trips, ∀ a, (k1_off408 k1_t51) a + S1x16.size a ≤ S96x512.size a
  k1_off409_inb : ∀ k1_t51 : Fin k1_t51_loop.trips, ∀ a, (k1_off409 k1_t51) a + S1x16.size a ≤ S96x512.size a
  k1_off410_inb : ∀ k1_t51 : Fin k1_t51_loop.trips, ∀ a, (k1_off410 k1_t51) a + S1x16.size a ≤ S96x512.size a
  k1_t52_ok : k1_t52_loop.OK
  k1_off411_inb : ∀ k1_t52 : Fin k1_t52_loop.trips, ∀ a, (k1_off411 k1_t52) a + S1x16.size a ≤ S96x512.size a
  k1_off412_inb : ∀ k1_t52 : Fin k1_t52_loop.trips, ∀ a, (k1_off412 k1_t52) a + S1x16.size a ≤ S96x512.size a
  k1_off413_inb : ∀ k1_t52 : Fin k1_t52_loop.trips, ∀ a, (k1_off413 k1_t52) a + S1x16.size a ≤ S96x512.size a
  k1_off414_inb : ∀ k1_t52 : Fin k1_t52_loop.trips, ∀ a, (k1_off414 k1_t52) a + S1x16.size a ≤ S96x512.size a
  k1_off415_inb : ∀ k1_t52 : Fin k1_t52_loop.trips, ∀ a, (k1_off415 k1_t52) a + S1x16.size a ≤ S96x512.size a
  k1_off416_inb : ∀ k1_t52 : Fin k1_t52_loop.trips, ∀ a, (k1_off416 k1_t52) a + S1x16.size a ≤ S96x512.size a
  k1_off417_inb : ∀ k1_t52 : Fin k1_t52_loop.trips, ∀ a, (k1_off417 k1_t52) a + S1x16.size a ≤ S96x512.size a
  k1_off418_inb : ∀ k1_t52 : Fin k1_t52_loop.trips, ∀ a, (k1_off418 k1_t52) a + S1x16.size a ≤ S96x512.size a
  k1_t53_ok : k1_t53_loop.OK
  k1_off419_inb : ∀ k1_t53 : Fin k1_t53_loop.trips, ∀ a, (k1_off419 k1_t53) a + S1x16.size a ≤ S96x512.size a
  k1_off420_inb : ∀ k1_t53 : Fin k1_t53_loop.trips, ∀ a, (k1_off420 k1_t53) a + S1x16.size a ≤ S96x512.size a
  k1_off421_inb : ∀ k1_t53 : Fin k1_t53_loop.trips, ∀ a, (k1_off421 k1_t53) a + S1x16.size a ≤ S96x512.size a
  k1_off422_inb : ∀ k1_t53 : Fin k1_t53_loop.trips, ∀ a, (k1_off422 k1_t53) a + S1x16.size a ≤ S96x512.size a
  k1_off423_inb : ∀ k1_t53 : Fin k1_t53_loop.trips, ∀ a, (k1_off423 k1_t53) a + S1x16.size a ≤ S96x512.size a
  k1_off424_inb : ∀ k1_t53 : Fin k1_t53_loop.trips, ∀ a, (k1_off424 k1_t53) a + S1x16.size a ≤ S96x512.size a
  k1_off425_inb : ∀ k1_t53 : Fin k1_t53_loop.trips, ∀ a, (k1_off425 k1_t53) a + S1x16.size a ≤ S96x512.size a
  k1_off426_inb : ∀ k1_t53 : Fin k1_t53_loop.trips, ∀ a, (k1_off426 k1_t53) a + S1x16.size a ≤ S96x512.size a
  k1_t54_ok : k1_t54_loop.OK
  k1_off427_inb : ∀ k1_t54 : Fin k1_t54_loop.trips, ∀ a, (k1_off427 k1_t54) a + S1x16.size a ≤ S96x512.size a
  k1_off428_inb : ∀ k1_t54 : Fin k1_t54_loop.trips, ∀ a, (k1_off428 k1_t54) a + S1x16.size a ≤ S96x512.size a
  k1_off429_inb : ∀ k1_t54 : Fin k1_t54_loop.trips, ∀ a, (k1_off429 k1_t54) a + S1x16.size a ≤ S96x512.size a
  k1_off430_inb : ∀ k1_t54 : Fin k1_t54_loop.trips, ∀ a, (k1_off430 k1_t54) a + S1x16.size a ≤ S96x512.size a
  k1_off431_inb : ∀ k1_t54 : Fin k1_t54_loop.trips, ∀ a, (k1_off431 k1_t54) a + S1x16.size a ≤ S96x512.size a
  k1_off432_inb : ∀ k1_t54 : Fin k1_t54_loop.trips, ∀ a, (k1_off432 k1_t54) a + S1x16.size a ≤ S96x512.size a
  k1_off433_inb : ∀ k1_t54 : Fin k1_t54_loop.trips, ∀ a, (k1_off433 k1_t54) a + S1x16.size a ≤ S96x512.size a
  k1_off434_inb : ∀ k1_t54 : Fin k1_t54_loop.trips, ∀ a, (k1_off434 k1_t54) a + S1x16.size a ≤ S96x512.size a
  k1_t55_ok : k1_t55_loop.OK
  k1_off435_inb : ∀ k1_t55 : Fin k1_t55_loop.trips, ∀ a, (k1_off435 k1_t55) a + S1x16.size a ≤ S96x512.size a
  k1_off436_inb : ∀ k1_t55 : Fin k1_t55_loop.trips, ∀ a, (k1_off436 k1_t55) a + S1x16.size a ≤ S96x512.size a
  k1_off437_inb : ∀ k1_t55 : Fin k1_t55_loop.trips, ∀ a, (k1_off437 k1_t55) a + S1x16.size a ≤ S96x512.size a
  k1_off438_inb : ∀ k1_t55 : Fin k1_t55_loop.trips, ∀ a, (k1_off438 k1_t55) a + S1x16.size a ≤ S96x512.size a
  k1_off439_inb : ∀ k1_t55 : Fin k1_t55_loop.trips, ∀ a, (k1_off439 k1_t55) a + S1x16.size a ≤ S96x512.size a
  k1_off440_inb : ∀ k1_t55 : Fin k1_t55_loop.trips, ∀ a, (k1_off440 k1_t55) a + S1x16.size a ≤ S96x512.size a
  k1_off441_inb : ∀ k1_t55 : Fin k1_t55_loop.trips, ∀ a, (k1_off441 k1_t55) a + S1x16.size a ≤ S96x512.size a
  k1_off442_inb : ∀ k1_t55 : Fin k1_t55_loop.trips, ∀ a, (k1_off442 k1_t55) a + S1x16.size a ≤ S96x512.size a
  k1_t56_ok : k1_t56_loop.OK
  k1_off443_inb : ∀ k1_t56 : Fin k1_t56_loop.trips, ∀ a, (k1_off443 k1_t56) a + S1x16.size a ≤ S96x512.size a
  k1_off444_inb : ∀ k1_t56 : Fin k1_t56_loop.trips, ∀ a, (k1_off444 k1_t56) a + S1x16.size a ≤ S96x512.size a
  k1_off445_inb : ∀ k1_t56 : Fin k1_t56_loop.trips, ∀ a, (k1_off445 k1_t56) a + S1x16.size a ≤ S96x512.size a
  k1_off446_inb : ∀ k1_t56 : Fin k1_t56_loop.trips, ∀ a, (k1_off446 k1_t56) a + S1x16.size a ≤ S96x512.size a
  k1_off447_inb : ∀ k1_t56 : Fin k1_t56_loop.trips, ∀ a, (k1_off447 k1_t56) a + S1x16.size a ≤ S96x512.size a
  k1_off448_inb : ∀ k1_t56 : Fin k1_t56_loop.trips, ∀ a, (k1_off448 k1_t56) a + S1x16.size a ≤ S96x512.size a
  k1_off449_inb : ∀ k1_t56 : Fin k1_t56_loop.trips, ∀ a, (k1_off449 k1_t56) a + S1x16.size a ≤ S96x512.size a
  k1_off450_inb : ∀ k1_t56 : Fin k1_t56_loop.trips, ∀ a, (k1_off450 k1_t56) a + S1x16.size a ≤ S96x512.size a
  k1_t57_ok : k1_t57_loop.OK
  k1_off451_inb : ∀ k1_t57 : Fin k1_t57_loop.trips, ∀ a, (k1_off451 k1_t57) a + S1x16.size a ≤ S96x512.size a
  k1_off452_inb : ∀ k1_t57 : Fin k1_t57_loop.trips, ∀ a, (k1_off452 k1_t57) a + S1x16.size a ≤ S96x512.size a
  k1_off453_inb : ∀ k1_t57 : Fin k1_t57_loop.trips, ∀ a, (k1_off453 k1_t57) a + S1x16.size a ≤ S96x512.size a
  k1_off454_inb : ∀ k1_t57 : Fin k1_t57_loop.trips, ∀ a, (k1_off454 k1_t57) a + S1x16.size a ≤ S96x512.size a
  k1_off455_inb : ∀ k1_t57 : Fin k1_t57_loop.trips, ∀ a, (k1_off455 k1_t57) a + S1x16.size a ≤ S96x512.size a
  k1_off456_inb : ∀ k1_t57 : Fin k1_t57_loop.trips, ∀ a, (k1_off456 k1_t57) a + S1x16.size a ≤ S96x512.size a
  k1_off457_inb : ∀ k1_t57 : Fin k1_t57_loop.trips, ∀ a, (k1_off457 k1_t57) a + S1x16.size a ≤ S96x512.size a
  k1_off458_inb : ∀ k1_t57 : Fin k1_t57_loop.trips, ∀ a, (k1_off458 k1_t57) a + S1x16.size a ≤ S96x512.size a
  k1_t58_ok : k1_t58_loop.OK
  k1_off459_inb : ∀ k1_t58 : Fin k1_t58_loop.trips, ∀ a, (k1_off459 k1_t58) a + S1x16.size a ≤ S96x512.size a
  k1_off460_inb : ∀ k1_t58 : Fin k1_t58_loop.trips, ∀ a, (k1_off460 k1_t58) a + S1x16.size a ≤ S96x512.size a
  k1_off461_inb : ∀ k1_t58 : Fin k1_t58_loop.trips, ∀ a, (k1_off461 k1_t58) a + S1x16.size a ≤ S96x512.size a
  k1_off462_inb : ∀ k1_t58 : Fin k1_t58_loop.trips, ∀ a, (k1_off462 k1_t58) a + S1x16.size a ≤ S96x512.size a
  k1_off463_inb : ∀ k1_t58 : Fin k1_t58_loop.trips, ∀ a, (k1_off463 k1_t58) a + S1x16.size a ≤ S96x512.size a
  k1_off464_inb : ∀ k1_t58 : Fin k1_t58_loop.trips, ∀ a, (k1_off464 k1_t58) a + S1x16.size a ≤ S96x512.size a
  k1_off465_inb : ∀ k1_t58 : Fin k1_t58_loop.trips, ∀ a, (k1_off465 k1_t58) a + S1x16.size a ≤ S96x512.size a
  k1_off466_inb : ∀ k1_t58 : Fin k1_t58_loop.trips, ∀ a, (k1_off466 k1_t58) a + S1x16.size a ≤ S96x512.size a
  k1_t59_ok : k1_t59_loop.OK
  k1_off467_inb : ∀ k1_t59 : Fin k1_t59_loop.trips, ∀ a, (k1_off467 k1_t59) a + S1x16.size a ≤ S96x512.size a
  k1_off468_inb : ∀ k1_t59 : Fin k1_t59_loop.trips, ∀ a, (k1_off468 k1_t59) a + S1x16.size a ≤ S96x512.size a
  k1_off469_inb : ∀ k1_t59 : Fin k1_t59_loop.trips, ∀ a, (k1_off469 k1_t59) a + S1x16.size a ≤ S96x512.size a
  k1_off470_inb : ∀ k1_t59 : Fin k1_t59_loop.trips, ∀ a, (k1_off470 k1_t59) a + S1x16.size a ≤ S96x512.size a
  k1_off471_inb : ∀ k1_t59 : Fin k1_t59_loop.trips, ∀ a, (k1_off471 k1_t59) a + S1x16.size a ≤ S96x512.size a
  k1_off472_inb : ∀ k1_t59 : Fin k1_t59_loop.trips, ∀ a, (k1_off472 k1_t59) a + S1x16.size a ≤ S96x512.size a
  k1_off473_inb : ∀ k1_t59 : Fin k1_t59_loop.trips, ∀ a, (k1_off473 k1_t59) a + S1x16.size a ≤ S96x512.size a
  k1_off474_inb : ∀ k1_t59 : Fin k1_t59_loop.trips, ∀ a, (k1_off474 k1_t59) a + S1x16.size a ≤ S96x512.size a
  k1_t60_ok : k1_t60_loop.OK
  k1_off475_inb : ∀ k1_t60 : Fin k1_t60_loop.trips, ∀ a, (k1_off475 k1_t60) a + S1x16.size a ≤ S96x512.size a
  k1_off476_inb : ∀ k1_t60 : Fin k1_t60_loop.trips, ∀ a, (k1_off476 k1_t60) a + S1x16.size a ≤ S96x512.size a
  k1_off477_inb : ∀ k1_t60 : Fin k1_t60_loop.trips, ∀ a, (k1_off477 k1_t60) a + S1x16.size a ≤ S96x512.size a
  k1_off478_inb : ∀ k1_t60 : Fin k1_t60_loop.trips, ∀ a, (k1_off478 k1_t60) a + S1x16.size a ≤ S96x512.size a
  k1_off479_inb : ∀ k1_t60 : Fin k1_t60_loop.trips, ∀ a, (k1_off479 k1_t60) a + S1x16.size a ≤ S96x512.size a
  k1_off480_inb : ∀ k1_t60 : Fin k1_t60_loop.trips, ∀ a, (k1_off480 k1_t60) a + S1x16.size a ≤ S96x512.size a
  k1_off481_inb : ∀ k1_t60 : Fin k1_t60_loop.trips, ∀ a, (k1_off481 k1_t60) a + S1x16.size a ≤ S96x512.size a
  k1_off482_inb : ∀ k1_t60 : Fin k1_t60_loop.trips, ∀ a, (k1_off482 k1_t60) a + S1x16.size a ≤ S96x512.size a
  k1_t61_ok : k1_t61_loop.OK
  k1_off483_inb : ∀ k1_t61 : Fin k1_t61_loop.trips, ∀ a, (k1_off483 k1_t61) a + S1x16.size a ≤ S96x512.size a
  k1_off484_inb : ∀ k1_t61 : Fin k1_t61_loop.trips, ∀ a, (k1_off484 k1_t61) a + S1x16.size a ≤ S96x512.size a
  k1_off485_inb : ∀ k1_t61 : Fin k1_t61_loop.trips, ∀ a, (k1_off485 k1_t61) a + S1x16.size a ≤ S96x512.size a
  k1_off486_inb : ∀ k1_t61 : Fin k1_t61_loop.trips, ∀ a, (k1_off486 k1_t61) a + S1x16.size a ≤ S96x512.size a
  k1_off487_inb : ∀ k1_t61 : Fin k1_t61_loop.trips, ∀ a, (k1_off487 k1_t61) a + S1x16.size a ≤ S96x512.size a
  k1_off488_inb : ∀ k1_t61 : Fin k1_t61_loop.trips, ∀ a, (k1_off488 k1_t61) a + S1x16.size a ≤ S96x512.size a
  k1_off489_inb : ∀ k1_t61 : Fin k1_t61_loop.trips, ∀ a, (k1_off489 k1_t61) a + S1x16.size a ≤ S96x512.size a
  k1_off490_inb : ∀ k1_t61 : Fin k1_t61_loop.trips, ∀ a, (k1_off490 k1_t61) a + S1x16.size a ≤ S96x512.size a
  k1_t62_ok : k1_t62_loop.OK
  k1_off491_inb : ∀ k1_t62 : Fin k1_t62_loop.trips, ∀ a, (k1_off491 k1_t62) a + S1x16.size a ≤ S96x512.size a
  k1_off492_inb : ∀ k1_t62 : Fin k1_t62_loop.trips, ∀ a, (k1_off492 k1_t62) a + S1x16.size a ≤ S96x512.size a
  k1_off493_inb : ∀ k1_t62 : Fin k1_t62_loop.trips, ∀ a, (k1_off493 k1_t62) a + S1x16.size a ≤ S96x512.size a
  k1_off494_inb : ∀ k1_t62 : Fin k1_t62_loop.trips, ∀ a, (k1_off494 k1_t62) a + S1x16.size a ≤ S96x512.size a
  k1_off495_inb : ∀ k1_t62 : Fin k1_t62_loop.trips, ∀ a, (k1_off495 k1_t62) a + S1x16.size a ≤ S96x512.size a
  k1_off496_inb : ∀ k1_t62 : Fin k1_t62_loop.trips, ∀ a, (k1_off496 k1_t62) a + S1x16.size a ≤ S96x512.size a
  k1_off497_inb : ∀ k1_t62 : Fin k1_t62_loop.trips, ∀ a, (k1_off497 k1_t62) a + S1x16.size a ≤ S96x512.size a
  k1_off498_inb : ∀ k1_t62 : Fin k1_t62_loop.trips, ∀ a, (k1_off498 k1_t62) a + S1x16.size a ≤ S96x512.size a
  k1_t63_ok : k1_t63_loop.OK
  k1_off499_inb : ∀ k1_t63 : Fin k1_t63_loop.trips, ∀ a, (k1_off499 k1_t63) a + S1x16.size a ≤ S96x512.size a
  k1_off500_inb : ∀ k1_t63 : Fin k1_t63_loop.trips, ∀ a, (k1_off500 k1_t63) a + S1x16.size a ≤ S96x512.size a
  k1_off501_inb : ∀ k1_t63 : Fin k1_t63_loop.trips, ∀ a, (k1_off501 k1_t63) a + S1x16.size a ≤ S96x512.size a
  k1_off502_inb : ∀ k1_t63 : Fin k1_t63_loop.trips, ∀ a, (k1_off502 k1_t63) a + S1x16.size a ≤ S96x512.size a
  k1_off503_inb : ∀ k1_t63 : Fin k1_t63_loop.trips, ∀ a, (k1_off503 k1_t63) a + S1x16.size a ≤ S96x512.size a
  k1_off504_inb : ∀ k1_t63 : Fin k1_t63_loop.trips, ∀ a, (k1_off504 k1_t63) a + S1x16.size a ≤ S96x512.size a
  k1_off505_inb : ∀ k1_t63 : Fin k1_t63_loop.trips, ∀ a, (k1_off505 k1_t63) a + S1x16.size a ≤ S96x512.size a
  k1_off506_inb : ∀ k1_t63 : Fin k1_t63_loop.trips, ∀ a, (k1_off506 k1_t63) a + S1x16.size a ≤ S96x512.size a
  k1_t64_ok : k1_t64_loop.OK
  k1_off507_inb : ∀ k1_t64 : Fin k1_t64_loop.trips, ∀ a, (k1_off507 k1_t64) a + S1x16.size a ≤ S96x512.size a
  k1_off508_inb : ∀ k1_t64 : Fin k1_t64_loop.trips, ∀ a, (k1_off508 k1_t64) a + S1x16.size a ≤ S96x512.size a
  k1_off509_inb : ∀ k1_t64 : Fin k1_t64_loop.trips, ∀ a, (k1_off509 k1_t64) a + S1x16.size a ≤ S96x512.size a
  k1_off510_inb : ∀ k1_t64 : Fin k1_t64_loop.trips, ∀ a, (k1_off510 k1_t64) a + S1x16.size a ≤ S96x512.size a
  k1_off511_inb : ∀ k1_t64 : Fin k1_t64_loop.trips, ∀ a, (k1_off511 k1_t64) a + S1x16.size a ≤ S96x512.size a
  k1_off512_inb : ∀ k1_t64 : Fin k1_t64_loop.trips, ∀ a, (k1_off512 k1_t64) a + S1x16.size a ≤ S96x512.size a
  k1_off513_inb : ∀ k1_t64 : Fin k1_t64_loop.trips, ∀ a, (k1_off513 k1_t64) a + S1x16.size a ≤ S96x512.size a
  k1_off514_inb : ∀ k1_t64 : Fin k1_t64_loop.trips, ∀ a, (k1_off514 k1_t64) a + S1x16.size a ≤ S96x512.size a
  k1_off515_inb : ∀ i : grid1.Coords, ∀ a, (k1_off515 i) a + S512.size a ≤ S16384.size a

variable [Facts₀]

abbrev cc1_scratch4 : DmaSems sig S_ := SemArray.consecutive 6 S_ hcc1_scratch4
abbrev cc1_scratch5 : DmaSems sig S_ := SemArray.consecutive 7 S_ hcc1_scratch5
abbrev cc1_scoped0 : DmaSems sig S_ := SemArray.consecutive 8 S_ hcc1_scoped0
abbrev cc1_scoped1 : DmaSems sig S_ := SemArray.consecutive 9 S_ hcc1_scoped1
def scatter_S8x64_S1_S64_0_0_0_0 : ScatterDims S8x64 S1 S64 where
  updateWindowDims := [0]
  insertedWindowDims := [0]
  scatterDimsToOperandDims := [0]
  indexVectorDim := 0
  wf := scatter_S8x64_S1_S64_0_0_0_0_wf
def dot_S8x64_S64x64_S8x64_1_0_0_1_n_n : DotDims S8x64 S64x64 S8x64 where
  lhsContracting := [1]
  rhsContracting := [0]
  lhsNonContracting := [0]
  rhsNonContracting := [1]
  lhsBatch := []
  rhsBatch := []
  wf := dot_S8x64_S64x64_S8x64_1_0_0_1_n_n_wf
def dot_S8x64_S64x10000_S8x10000_1_0_0_1_n_n : DotDims S8x64 S64x10000 S8x10000 where
  lhsContracting := [1]
  rhsContracting := [0]
  lhsNonContracting := [0]
  rhsNonContracting := [1]
  lhsBatch := []
  rhsBatch := []
  wf := dot_S8x64_S64x10000_S8x10000_1_0_0_1_n_n_wf

abbrev win0_0 : Pipeline.Window sig grid0 :=
  Pipeline.Window.whole (Memref.whole main_v5) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v6) false false (stage0_2 0) (sem0_2 0) (Memref.isWhole_whole _) (hstage0_2 0)

abbrev win0_3 : Pipeline.Window sig grid0 :=
  Pipeline.Window.whole (Memref.whole main_v4) false false (stage0_3 0) (sem0_3 0) (Memref.isWhole_whole _) (hstage0_3 0)

abbrev win0_4 : Pipeline.Window sig grid0 :=
  Pipeline.Window.whole (Memref.whole main_v7) false false (stage0_4 0) (sem0_4 0) (Memref.isWhole_whole _) (hstage0_4 0)

abbrev win0_5 : Pipeline.Window sig grid0 :=
  Pipeline.Window.whole (Memref.whole main_v8) true false (stage0_5 0) (sem0_5 0) (Memref.isWhole_whole _) (hstage0_5 0)

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x200 : Shape := ⟨2, ![16384, 200]⟩
abbrev S10000x64 : Shape := ⟨2, ![10000, 64]⟩
abbrev S64x64 : Shape := ⟨2, ![64, 64]⟩
abbrev S64 : Shape := ⟨1, ![64]⟩
abbrev S1x64 : Shape := ⟨2, ![1, 64]⟩
abbrev S1 : Shape := ⟨1, ![1]⟩
abbrev S_ : Shape := ⟨0, ![]⟩
abbrev S16384x200x1 : Shape := ⟨3, ![16384, 200, 1]⟩
abbrev S1x1x1 : Shape := ⟨3, ![1, 1, 1]⟩
abbrev S16384x200x64 : Shape := ⟨3, ![16384, 200, 64]⟩
abbrev S16384x64 : Shape := ⟨2, ![16384, 64]⟩
abbrev S64x1 : Shape := ⟨2, ![64, 1]⟩
abbrev S16384x1 : Shape := ⟨2, ![16384, 1]⟩
abbrev S1x1 : Shape := ⟨2, ![1, 1]⟩

abbrev nBuf : Space → Nat
  | .hbm => 44
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S10000x64, .f32⟩
  | .hbm, ⟨2, _⟩ => ⟨S64x64, .f32⟩
  | .hbm, ⟨3, _⟩ => ⟨S64, .f32⟩
  | .hbm, ⟨4, _⟩ => ⟨S1x64, .f32⟩
  | .hbm, ⟨5, _⟩ => ⟨S1, .f32⟩
  | .hbm, ⟨6, _⟩ => ⟨S_, .i32⟩
  | .hbm, ⟨7, _⟩ => ⟨S16384x200, .i32⟩
  | .hbm, ⟨8, _⟩ => ⟨S16384x200, .i1⟩
  | .hbm, ⟨9, _⟩ => ⟨S_, .i32⟩
  | .hbm, ⟨10, _⟩ => ⟨S16384x200, .i32⟩
  | .hbm, ⟨11, _⟩ => ⟨S16384x200, .i32⟩
  | .hbm, ⟨12, _⟩ => ⟨S16384x200, .i32⟩
  | .hbm, ⟨13, _⟩ => ⟨S16384x200x1, .i32⟩
  | .hbm, ⟨14, _⟩ => ⟨S1, .i32⟩
  | .hbm, ⟨15, _⟩ => ⟨S_, .i32⟩
  | .hbm, ⟨16, _⟩ => ⟨S16384x200x1, .i32⟩
  | .hbm, ⟨17, _⟩ => ⟨S16384x200x1, .i1⟩
  | .hbm, ⟨18, _⟩ => ⟨S1x1x1, .i32⟩
  | .hbm, ⟨19, _⟩ => ⟨S16384x200x1, .i32⟩
  | .hbm, ⟨20, _⟩ => ⟨S16384x200x1, .i1⟩
  | .hbm, ⟨21, _⟩ => ⟨S16384x200x1, .i1⟩
  | .hbm, ⟨22, _⟩ => ⟨S_, .i1⟩
  | .hbm, ⟨23, _⟩ => ⟨S16384x200, .i1⟩
  | .hbm, ⟨24, _⟩ => ⟨S16384x200x64, .f32⟩
  | .hbm, ⟨25, _⟩ => ⟨S16384x200x64, .i1⟩
  | .hbm, ⟨26, _⟩ => ⟨S_, .f32⟩
  | .hbm, ⟨27, _⟩ => ⟨S16384x200x64, .f32⟩
  | .hbm, ⟨28, _⟩ => ⟨S16384x200x64, .f32⟩
  | .hbm, ⟨29, _⟩ => ⟨S_, .f32⟩
  | .hbm, ⟨30, _⟩ => ⟨S16384x64, .f32⟩
  | .hbm, ⟨31, _⟩ => ⟨S_, .f32⟩
  | .hbm, ⟨32, _⟩ => ⟨S16384x64, .f32⟩
  | .hbm, ⟨33, _⟩ => ⟨S16384x64, .f32⟩
  | .hbm, ⟨34, _⟩ => ⟨S64x64, .f32⟩
  | .hbm, ⟨35, _⟩ => ⟨S16384x64, .f32⟩
  | .hbm, ⟨36, _⟩ => ⟨S1x64, .f32⟩
  | .hbm, ⟨37, _⟩ => ⟨S16384x64, .f32⟩
  | .hbm, ⟨38, _⟩ => ⟨S16384x64, .f32⟩
  | .hbm, ⟨39, _⟩ => ⟨S64x1, .f32⟩
  | .hbm, ⟨40, _⟩ => ⟨S16384x1, .f32⟩
  | .hbm, ⟨41, _⟩ => ⟨S1x1, .f32⟩
  | .hbm, ⟨42, _⟩ => ⟨S16384x1, .f32⟩
  | .hbm, ⟨43, _⟩ => ⟨S16384x1, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_cst : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩

abbrev nD : Nat := 1
abbrev τ : Topo := Topo.v7x

variable {F : FTy → Type} [FloatOps F]

class Facts₀ : Prop where
  bcast_S_S16384x200 : S_.BroadcastsInDim S16384x200 (![] : Fin 0 → Fin S16384x200.rank)
  bcast_S16384x200_S16384x200x1_0_1 : S16384x200.BroadcastsInDim S16384x200x1 (![0, 1] : Fin 2 → Fin S16384x200x1.rank)
  bcast_S_S16384x200x1 : S_.BroadcastsInDim S16384x200x1 (![] : Fin 0 → Fin S16384x200x1.rank)
  bcast_S1_S1x1x1_2 : S1.BroadcastsInDim S1x1x1 (![2] : Fin 1 → Fin S1x1x1.rank)
  bcast_S1x1x1_S16384x200x1_0_1_2 : S1x1x1.BroadcastsInDim S16384x200x1 (![0, 1, 2] : Fin 3 → Fin S16384x200x1.rank)
  reducesTo_S16384x200x1_S16384x200_d2 : S16384x200x1.ReducesTo [2] S16384x200
  h_S_ : 0 < S_.numel
  bcast_S16384x200_S16384x200x64_0_1 : S16384x200.BroadcastsInDim S16384x200x64 (![0, 1] : Fin 2 → Fin S16384x200x64.rank)
  bcast_S_S16384x200x64 : S_.BroadcastsInDim S16384x200x64 (![] : Fin 0 → Fin S16384x200x64.rank)
  reducesTo_S16384x200x64_S16384x64_d1 : S16384x200x64.ReducesTo [1] S16384x64
  bcast_S_S16384x64 : S_.BroadcastsInDim S16384x64 (![] : Fin 0 → Fin S16384x64.rank)
  transposes_S64x64_S64x64_1_0 : S64x64.Transposes [1, 0] S64x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  transposes_S1x64_S64x1_1_0 : S1x64.Transposes [1, 0] S64x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  gather_S10000x64_S16384x200x1_S16384x200x64_2_0_n_n_0_2_164_wf : GatherDims.WF S10000x64 S16384x200x1 S16384x200x64 [2] [0] [] [0] [] 2 ![1, 64]
  dot_S16384x64_S64x64_S16384x64_1_0_0_1_n_n_wf : DotDims.WF S16384x64 S64x64 S16384x64 [1] [0] [0] [1] [] []
  dot_S16384x64_S64x1_S16384x1_1_0_0_1_n_n_wf : DotDims.WF S16384x64 S64x1 S16384x1 [1] [0] [0] [1] [] []

variable [Facts₀]

def gather_S10000x64_S16384x200x1_S16384x200x64_2_0_n_n_0_2_164 : GatherDims S10000x64 S16384x200x1 S16384x200x64 where
  offsetDims := [2]
  collapsedSliceDims := [0]
  operandBatchingDims := []
  startIndicesBatchingDims := []
  startIndexMap := [0]
  indexVectorDim := 2
  sliceSizes := ![1, 64]
  wf := gather_S10000x64_S16384x200x1_S16384x200x64_2_0_n_n_0_2_164_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.CommonKI.lean ====
/-
  Shared vocabulary of the idealized kernel's run: the program as the launch theorem for SparseCore meshes sees it
  (its SparseCore call table, its label table with the one TensorCore pipeline), and the ghost state every module
  of the run is stated over: the launch handshakes' rounds, the TensorCore pipeline's staging cells' rounds, and the
  counters of local transfers.
-/
import proofs.«205085_g3753801417095_cont_8to1_b_1540_27_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205085_g3753801417095_cont_8to1_b_1540_27_alg».proof.Proof.Gen.KernelIdeal
import proofs.«205085_g3753801417095_cont_8to1_b_1540_27_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The label table under the SparseCore calls: the kernels and the one TensorCore pipeline. -/
abbrev ΛP : Labels := Pipeline.Sig Λ₀ (Fin 1) fun p => (pcfgs (F := F) p).Adm
/-- The SparseCore call table. -/
abbrev K : SparseCore.Cfg τ sig (ΛP (F := F)) 1 := sc (F := F)
/-- The body table under the SparseCore calls. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds. -/
abbrev UH : Type := URounds (GSem nD τ sig) ℕ
/-- The pipeline's staging cells' rounds. -/
abbrev UK : Type := URounds (GSem nD τ sig) Unit
/-- The whole user algebra: handshakes, pipeline cells, local transfers' counters. -/
abbrev UU : Type := UH × (UK × Counters)

/-- The machine's algebra every assertion of the run lives in. -/
abbrev MM (F : FTy → Type) : Type := MT nD τ sig (HIx 1) (Elt F) ℕ UU ℕ

end Cert.Proof.KI

end
-- ==== Proof.TileDefsKI.lean ====
/-
  Names shared by the tile's body proof and the launch: a tile's thread, the three HBM arrays the summing kernel
  touches (the transposed index array, the folded table, the output) and the 512 output entries a tile writes.
-/
import proofs.«205085_g3753801417095_cont_8to1_b_1540_27_alg».proof.Proof.CommonKI

noncomputable section

namespace Cert.Proof.KI

open Cert.KernelIdeal Cert.KernelIdeal.Gen
open Idealize.ShloMosaic
open Idealize.ShloMosaic.SparseCore (S V T)

/-- The SparseCore and the vector subcore a grid point of the summing kernel names. -/
abbrev cV (L : grid1.Coords) : Fin τ.nSC := (L 0).castLE hcore1
abbrev jV (L : grid1.Coords) : Fin τ.nSub := (L 1).castLE hsub1

/-- A grid point from its two coordinates. -/
def coordsV (c : Fin (grid1.bound 0)) (s : Fin (grid1.bound 1)) : grid1.Coords :=
  fun | 0 => c | 1 => s | ⟨_ + 2, h⟩ => absurd h (Nat.not_lt.2 (Nat.le_add_left _ _))

/-- The transposed index array i32[200,16384], the folded table f32[10000], the output f32[16384]. -/
abbrev iLoc (d : Dev nD) : Loc nD τ sig := (SparseCore.T d).loc main_v0
abbrev tLoc (d : Dev nD) : Loc nD τ sig := (SparseCore.T d).loc main_v8
abbrev oLoc (d : Dev nD) : Loc nD τ sig := (SparseCore.T d).loc main_v9

/-- The output as the kernel addresses it, and the 512-entry stretch tile `L` copies its sums to. -/
abbrev oV : Memref sig .scVector .hbm S16384 .f32 := Memref.whole main_v9_scv
abbrev oSl (L : grid1.Coords) : Memref sig .scVector .hbm S512 .f32 :=
  (oV).slice (Rect.unit (s := S16384) (k1_off515 L) S512.size (k1_off515_inb L)) (fun _ => rfl)
abbrev oSet (L : grid1.Coords) : Finset S16384.Idx := (oSl L).view.set

end Cert.Proof.KI

end
-- ==== Proof.TileSpec.lean ====
/-
  What one output entry of the summing kernel is, as a pure function of the transposed index array `A` (200 × 16384:
  row = position in the bag, column = batch entry) and of the folded table `Tt` (one scalar per table row), written
  with the float instance's own addition so that it can be read at the word level and at the extended reals alike.
  For batch column `b` the bag's 200 scalars `x h = Tt[A[h, b]]` are added in two stretches (positions 0‥103, then
  104‥199); inside a stretch eight interleaved running sums (lane `u` takes positions `8·i + u`) start at zero, are
  then added up left to right, and the second stretch's total is added to the first's.
-/
import Idealize.ShloMosaic.PureOps
import Idealize.ShloMosaic.Lib.ValueIdx

noncomputable section

namespace Cert.TileSpec

open Idealize.ShloMosaic

variable {F : FTy → Type} [FloatOps F]

/-- The float word of zero. -/
def zero : F .f32 := FloatOps.ofBits .f32 0x00000000#32

/-- A running sum from `z`: `((z + x 0) + x 1) + … + x (n-1)`. -/
def acc (z : F .f32) (x : ℕ → F .f32) : ℕ → F .f32
  | 0 => z
  | n + 1 => FloatOps.addf (acc z x n) (x n)

/-- Eight running sums added up left to right. -/
def lanes8 (a : ℕ → F .f32) : F .f32 :=
  FloatOps.addf (FloatOps.addf (FloatOps.addf (FloatOps.addf (FloatOps.addf (FloatOps.addf (FloatOps.addf (a 0) (a 1)) (a 2)) (a 3)) (a 4)) (a 5)) (a 6)) (a 7)

/-- One stretch of `8·n` terms: lane `u` sums the terms `8·i + u`, `i < n`, from zero; then the lanes are added. -/
def stretch (x : ℕ → F .f32) (n : ℕ) : F .f32 := lanes8 fun u => acc zero (fun i => x (i * 8 + u)) n

/-- The whole bag: positions 0‥103 (13 rounds of 8), then positions 104‥199 (12 rounds of 8), the two totals added. -/
def bag (x : ℕ → F .f32) : F .f32 := FloatOps.addf (stretch x 13) (stretch (fun k => x (104 + k)) 12)

/-- The folded table read at a row number (reduced below the table's length, which an in-range index already is). -/
def tAt (Tt : (⟨1, ![10000]⟩ : Shape).Idx → F .f32) (n : ℕ) : F .f32 :=
  Tt (ValueIdx.ix1 (⟨n % 10000, Nat.mod_lt _ (by norm_num)⟩ : Fin 10000))

/-- Entry `(h, b)` of the transposed index array as a number (positions and columns reduced into range). -/
def idxAt (A : (⟨2, ![200, 16384]⟩ : Shape).Idx → BitVec 32) (h b : ℕ) : ℕ :=
  (A (ValueIdx.ix2 (⟨h % 200, Nat.mod_lt _ (by norm_num)⟩ : Fin 200) (⟨b % 16384, Nat.mod_lt _ (by norm_num)⟩ : Fin 16384))).toNat

/-- The output array as ONE function of the index array and the folded table: entry `b` is the bag of column `b`. -/
def out (A : (⟨2, ![200, 16384]⟩ : Shape).Idx → BitVec 32) (Tt : (⟨1, ![10000]⟩ : Shape).Idx → F .f32) :
    (⟨1, ![16384]⟩ : Shape).Idx → F .f32 :=
  fun i => bag fun h => tAt Tt (idxAt A h (i 0).val)

end Cert.TileSpec

end
-- ==== Proof.PayKI.lean ====
/-
  What the launch handshakes of the summing kernel carry.  The TensorCore hands each SparseCore, and a SparseCore
  each of its sixteen tiles, a read share of the transposed index array and of the folded table (both at contents
  fixed before the call) and the tile's own 512 output entries; a tile hands back the shares untouched and its
  output entries at the bag sums.
-/
import proofs.«205085_g3753801417095_cont_8to1_b_1540_27_alg».proof.Proof.TileDefsKI
import proofs.«205085_g3753801417095_cont_8to1_b_1540_27_alg».proof.Proof.TileSpec

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

theorem nCore_zero : (K (F := F)).nCore 0 = grid1.bound 0 := rfl
theorem nSub_zero : (K (F := F)).nSub 0 = grid1.bound 1 := rfl

section Pay

variable (sh : Fin (grid1.bound 0) → Fin (grid1.bound 1) → PosShare TreeShare)
  (A : (d : Dev nD) → Buf (Elt F) (iLoc d)) (Tt : (d : Dev nD) → Buf (Elt F) (tLoc d))
  (fo fo' : (d : Dev nD) → Buf (Elt F) (oLoc d))

/-- One tile's holdings: its two read shares and its output entries at `g`. -/
def tileRes (d : Dev nD) (c : Fin (grid1.bound 0)) (s : Fin (grid1.bound 1)) (g : Buf (Elt F) (oLoc d)) : sProp (MM F) :=
  iprop((iLoc d ↦{sh c s} A d) ∗ (tLoc d ↦{sh c s} Tt d) ∗ (oLoc d ↦[oSet (coordsV c s)]{fullShare} g))

instance tileRes_storable (d : Dev nD) (c : Fin (grid1.bound 0)) (s : Fin (grid1.bound 1)) (g : Buf (Elt F) (oLoc d)) :
    BI.Storable (upEmb : UEmb _ (MM F)) (tileRes sh A Tt d c s g) := by
  unfold tileRes; infer_instance

/-- The one SparseCore call: out at `fo`, back at `fo'`. -/
def P : (K (F := F)).Pay (nD := nD) (Val := Elt F) (Name := ℕ) (U := UU) where
  st := fun q d c => match q with
    | 0 => bigSep Finset.univ fun s : Fin (grid1.bound 1) => tileRes sh A Tt d (Fin.cast nCore_zero c) s (fo d)
  dn := fun q d c => match q with
    | 0 => bigSep Finset.univ fun s : Fin (grid1.bound 1) => tileRes sh A Tt d (Fin.cast nCore_zero c) s (fo' d)
  go := fun q d c i => match q with
    | 0 => tileRes sh A Tt d (Fin.cast nCore_zero c) (Fin.cast nSub_zero i) (fo d)
  td := fun q d c i => match q with
    | 0 => tileRes sh A Tt d (Fin.cast nCore_zero c) (Fin.cast nSub_zero i) (fo' d)
  x := fun _ _ => iprop(emp)

instance P_storable : (P (F := F) sh A Tt fo fo').IsStorable where
  st q d c := match q with
    | 0 => (inferInstance : BI.Storable (upEmb : UEmb _ (MM F))
        (bigSep Finset.univ fun s : Fin (grid1.bound 1) => tileRes sh A Tt d (Fin.cast nCore_zero c) s (fo d)))
  dn q d c := match q with
    | 0 => (inferInstance : BI.Storable (upEmb : UEmb _ (MM F))
        (bigSep Finset.univ fun s : Fin (grid1.bound 1) => tileRes sh A Tt d (Fin.cast nCore_zero c) s (fo' d)))
  go q d c i := match q with
    | 0 => (inferInstance : BI.Storable (upEmb : UEmb _ (MM F)) (tileRes sh A Tt d (Fin.cast nCore_zero c) (Fin.cast nSub_zero i) (fo d)))
  td q d c i := match q with
    | 0 => (inferInstance : BI.Storable (upEmb : UEmb _ (MM F)) (tileRes sh A Tt d (Fin.cast nCore_zero c) (Fin.cast nSub_zero i) (fo' d)))

theorem bigSep_tasks (Φ : Fin (grid1.bound 1) → sProp (MM F)) :
    (bigSep Finset.univ fun i : Fin ((K (F := F)).nSub 0) => Φ (Fin.cast nSub_zero i)) = bigSep Finset.univ Φ :=
  bigSep_congr fun _ _ => congrArg Φ (Fin.ext rfl)

/-- A SparseCore's holdings are its tiles', one by one, both ways. -/
theorem vecSplit : (K (F := F)).VecSplit' (P sh A Tt fo fo') 0 := by
  intro d c
  show (bigSep Finset.univ fun s : Fin (grid1.bound 1) => tileRes sh A Tt d (Fin.cast nCore_zero c) s (fo d)) ⊢ |={Set.univ}=> iprop(
      (bigSep Finset.univ fun i : Fin ((K (F := F)).nSub 0) => tileRes sh A Tt d (Fin.cast nCore_zero c) (Fin.cast nSub_zero i) (fo d))
      ∗ ((bigSep Finset.univ fun i : Fin ((K (F := F)).nSub 0) => tileRes sh A Tt d (Fin.cast nCore_zero c) (Fin.cast nSub_zero i) (fo' d))
          -∗ bigSep Finset.univ fun s : Fin (grid1.bound 1) => tileRes sh A Tt d (Fin.cast nCore_zero c) s (fo' d)))
  rw [bigSep_tasks (F := F) (fun s => tileRes sh A Tt d (Fin.cast nCore_zero c) s (fo d)),
    bigSep_tasks (F := F) (fun s => tileRes sh A Tt d (Fin.cast nCore_zero c) s (fo' d))]
  iintro H; imodintro
  isplitl [H]; · iexact H
  iintro H; iexact H

end Pay

end Cert.Proof.KI

end
-- ==== Proof.OblKI.lean ====
/-
  The launch theorem's obligation for the summing kernel's tiles, from the body's run at a symbolic tile.
-/
import proofs.«205085_g3753801417095_cont_8to1_b_1540_27_alg».proof.Proof.PayKI

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem defs₀_vector (c : Fin τ.nSC) (s : Fin τ.nSub) :
    defs₀ (F := F) (.scVector c s) 1 ()
      = SparseCore.onTile hcore1 hsub1 (fun c s => cc1__sc_sum (fun | 0 => c | 1 => s | ⟨_ + 2, h⟩ => absurd h (Nat.not_lt.2 (Nat.le_add_left _ _)))
          (Memref.whole main_v0_scv) (Memref.isWhole_whole _) (Memref.whole main_v8_scv) (Memref.isWhole_whole _) (Memref.whole main_v9_scv) (Memref.isWhole_whole _)
          (Memref.whole cc1_scratch0) (Memref.isWhole_whole _) (Memref.whole cc1_scratch1) (Memref.isWhole_whole _) (Memref.whole cc1_scratch2) (Memref.isWhole_whole _)
          (Memref.whole cc1_scratch3) (Memref.isWhole_whole _) cc1_scratch4 cc1_scratch5 cc1_scoped0 cc1_scoped1) ⟨⟩ c s := rfl

omit [FloatOps F] [Named F] in
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

section Obl

variable (sh : Fin (grid1.bound 0) → Fin (grid1.bound 1) → PosShare TreeShare)
  (A : (d : Dev nD) → Buf (Elt F) (iLoc d)) (Tt : (d : Dev nD) → Buf (Elt F) (tLoc d))
  (fo : (d : Dev nD) → Buf (Elt F) (oLoc d))

/-- The body's run at a symbolic tile, in the shape the body module proves it. -/
def TileBody : Prop :=
  ∀ (d : Dev nD) (L : grid1.Coords) (qi qt : PosShare TreeShare) (A : Buf (Elt F) (iLoc d)) (Tt : Buf (Elt F) (tLoc d)) (fo : Buf (Elt F) (oLoc d)),
    (∀ i, (A i).toNat < 10000) → ∀ (O : CellTallies nD τ sig (HIx 1)) (W : Waits sig (HIx 1)), (∀ g, O g none = 0) →
    iprop(levAts (K (F := F)).L (K (F := F)).lev ∗ (iLoc d ↦{qi} A) ∗ (tLoc d ↦{qt} Tt) ∗ (oLoc d ↦[oSet L]{fullShare} fo)
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc1__sc_sum L (Memref.whole main_v0_scv) (Memref.isWhole_whole _) (Memref.whole main_v8_scv) (Memref.isWhole_whole _) (Memref.whole main_v9_scv) (Memref.isWhole_whole _)
            (Memref.whole cc1_scratch0) (Memref.isWhole_whole _) (Memref.whole cc1_scratch1) (Memref.isWhole_whole _) (Memref.whole cc1_scratch2) (Memref.isWhole_whole _) (Memref.whole cc1_scratch3) (Memref.isWhole_whole _)
            cc1_scratch4 cc1_scratch5 cc1_scoped0 cc1_scoped1)
          fun _ => iprop((iLoc d ↦{qi} A) ∗ (tLoc d ↦{qt} Tt) ∗ (oLoc d ↦[oSet L]{fullShare} (Cert.TileSpec.out (F := F) A Tt))
            ∗ scopedBufs (V d (cV L) (jV L)) ∗ scopedSems0 (V d (cV L) (jV L)) ∗ ∃ W', ⌜∀ p ∈ W', p ∈ W ∨ p.2 = none⌝ ∗ owes (V d (cV L) (jV L)) O W') : sProp (MM F))

theorem tileObl (hbody : TileBody (F := F)) (hin : ∀ d i, (A d i).toNat < 10000) :
    (K (F := F)).TileObl (D (F := F)) 𝒱 (P sh A Tt fo (fun d => Cert.TileSpec.out (F := F) (A d) (Tt d))) v₀ 0 := by
  intro d c i O W hO _ _
  simp only [show (P sh A Tt fo (fun d => Cert.TileSpec.out (F := F) (A d) (Tt d))).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  have h := hbody d (coordsV ⟨_, hc.1⟩ ⟨_, hc.2⟩) (sh ⟨_, hc.1⟩ ⟨_, hc.2⟩) (sh ⟨_, hc.1⟩ ⟨_, hc.2⟩) (A d) (Tt d) (fo d) (hin d) O W hO
  refine BI.Entails.trans ?_ (h.trans (wp_mono frame _ _ fun _ => ?_))
  · show iprop(_ ∗ emp ∗ tileRes sh A Tt d _ _ (fo d) ∗ _) ⊢ _
    unfold tileRes
    iintro ⟨Hlv, -, ⟨Hi, Ht, Ho⟩, Hsb, Hss, HO⟩
    isplitl [Hlv]; · iexact Hlv
    isplitl [Hi]; · iexact Hi
    isplitl [Ht]; · iexact Ht
    isplitl [Ho]; · iexact Ho
    isplitl [Hsb]; · iexact Hsb
    isplitl [Hss]; · iexact Hss
    iexact HO
  · show _ ⊢ iprop(tileRes sh A Tt d _ _ _ ∗ _)
    unfold tileRes
    iintro ⟨Hi, Ht, Ho, Hsb, Hss, %W', %hW', HO⟩
    isplitl [Hi Ht Ho]
    · isplitl [Hi]; · iexact Hi
      isplitl [Ht]; · iexact Ht
      iexact Ho
    isplitl [Hsb]; · iexact Hsb
    isplitl [Hss]; · iexact Hss
    iexists W'; isplitr
    · ipureintro; exact fun p hp => (hW' p hp).imp_right Or.inl
    · iexact HO

end Obl

end Cert.Proof.KI

end
-- ==== Proof.FinKI.lean ====
/-
  What @main leaves for the claim, read off the final memory: the result array at its value and the six argument
  arrays at their launch contents.
-/
import proofs.«205085_g3753801417095_cont_8to1_b_1540_27_alg».proof.Proof.CommonKI

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

section Fin

variable (m : (ℓ : Loc nD τ sig) → Buf (Elt F) ℓ) (res : (d : Dev nD) → Buf (Elt F) ((SparseCore.T d).loc main_v10))

abbrev aLoc (d : Dev nD) (b : Ref sig .tc) : Loc nD τ sig := (SparseCore.T d).loc b

/-- The result and the arguments, whole. -/
def FIN (d : Dev nD) : sProp (MM F) :=
  iprop((aLoc d main_v10 ↦{fullShare} res d) ∗ (aLoc d main_arg0 ↦{fullShare} m (aLoc d main_arg0)) ∗ (aLoc d main_arg1 ↦{fullShare} m (aLoc d main_arg1))
    ∗ (aLoc d main_arg2 ↦{fullShare} m (aLoc d main_arg2)) ∗ (aLoc d main_arg3 ↦{fullShare} m (aLoc d main_arg3))
    ∗ (aLoc d main_arg4 ↦{fullShare} m (aLoc d main_arg4)) ∗ (aLoc d main_arg5 ↦{fullShare} m (aLoc d main_arg5)))

def fq (d : Dev nD) (s' : Phys nD τ sig (Elt F)) : Prop :=
  s'.mem.mem (aLoc d main_v10) = res d ∧ s'.mem.mem (aLoc d main_arg0) = m (aLoc d main_arg0) ∧ s'.mem.mem (aLoc d main_arg1) = m (aLoc d main_arg1)
    ∧ s'.mem.mem (aLoc d main_arg2) = m (aLoc d main_arg2) ∧ s'.mem.mem (aLoc d main_arg3) = m (aLoc d main_arg3)
    ∧ s'.mem.mem (aLoc d main_arg4) = m (aLoc d main_arg4) ∧ s'.mem.mem (aLoc d main_arg5) = m (aLoc d main_arg5)

omit [FloatOps F] [Named F] in
theorem hfin (d : Dev nD) (s' : Phys nD τ sig (Elt F)) : iprop(FIN m res d ∗ SI s') ⊢ (⌜fq m res d s'⌝ : sProp (MM F)) := by
  unfold FIN
  iintro ⟨⟨H10, H0, H1, H2, H3, H4, H5⟩, HSI⟩
  icombine HSI H10 gives %h10
  icombine HSI H0 gives %h0
  icombine HSI H1 gives %h1
  icombine HSI H2 gives %h2
  icombine HSI H3 gives %h3
  icombine HSI H4 gives %h4
  icombine HSI H5 gives %h5
  ipureintro
  exact ⟨funext fun i => h10 i (Finset.mem_univ i), funext fun i => h0 i (Finset.mem_univ i), funext fun i => h1 i (Finset.mem_univ i),
    funext fun i => h2 i (Finset.mem_univ i), funext fun i => h3 i (Finset.mem_univ i), funext fun i => h4 i (Finset.mem_univ i),
    funext fun i => h5 i (Finset.mem_univ i)⟩

end Fin

end Cert.Proof.KI

end
-- ==== Proof.HostKI.lean ====
/-
  The host operations around the two kernels, as pure functions of the arguments. Before the first kernel the host
  transposes the index array and the table, pads the one row of the second layer's weights to eight rows (a zero
  [8, 64] array with row 0 overwritten), and gives the two biases a leading unit axis; after the second kernel it
  gives the result a trailing unit axis. `foldArr` is the first kernel's stored value at those operands. The ten
  operations before the first kernel, run in order from any contents, leave each of these values in its buffer and
  the arguments and the later results' buffers as they were.
-/
import proofs.«205085_g3753801417095_cont_8to1_b_1540_27_alg».proof.Proof.Gen.KernelIdeal
import proofs.«205085_g3753801417095_cont_8to1_b_1540_27_alg».proof.Proof.Gen.KernelIdeal.Skeleton
import Idealize.ShloMosaic.Lib.StableHlo.Run

noncomputable section

namespace Cert.Proof.KI

open Cert.KernelIdeal Cert.KernelIdeal.Gen
open Idealize.ShloMosaic Idealize.ShloMosaic.TcCoe Idealize.SL.Sem Idealize.ShloMosaic.StableHlo

variable {F : FTy → Type} [FloatOps F] [Named F]

/-- The index array transposed: [16384, 200] to [200, 16384]. -/
def hIdxT (a0 : (⟨S16384x200, .i32⟩ : BufTy).Contents (Elt F)) : (⟨S200x16384, .i32⟩ : BufTy).Contents (Elt F) :=
  transpose S200x16384 [1, 0] a0 transposes_S16384x200_S200x16384_1_0

/-- The second layer's weight row padded to eight rows: a zero [8, 64] array whose row 0 is the row. -/
def hW2p (a4 : (⟨S1x64, .f32⟩ : BufTy).Contents (Elt F)) : (⟨S8x64, .f32⟩ : BufTy).Contents (Elt F) :=
  Host.scatter scatter_S8x64_S1_S64_0_0_0_0 (fun _ b => b)
    ((broadcastInDim S8x64 ![] bcast_S_S8x64 : (⟨S_, .f32⟩ : BufTy).Contents (Elt F) → (⟨S8x64, .f32⟩ : BufTy).Contents (Elt F))
      (constant S_ .f32 0x00000000#32))
    ((broadcastInDim S1 ![] bcast_S_S1 : (⟨S_, .i32⟩ : BufTy).Contents (Elt F) → (⟨S1, .i32⟩ : BufTy).Contents (Elt F))
      (constantI S_ 32 0#32))
    (shapeCast S64 a4 shapeCasts_S1x64_S64)

/-- The table transposed: [10000, 64] to [64, 10000]. -/
def hTabT (a1 : (⟨S10000x64, .f32⟩ : BufTy).Contents (Elt F)) : (⟨S64x10000, .f32⟩ : BufTy).Contents (Elt F) :=
  transpose S64x10000 [1, 0] a1 transposes_S10000x64_S64x10000_1_0

/-- The first layer's bias with a leading unit axis: [64] to [1, 64]. -/
def hB1 (a3 : (⟨S64, .f32⟩ : BufTy).Contents (Elt F)) : (⟨S1x64, .f32⟩ : BufTy).Contents (Elt F) :=
  shapeCast S1x64 a3 shapeCasts_S64_S1x64

/-- The second layer's bias with a leading unit axis: [1] to [1, 1]. -/
def hB2 (a5 : (⟨S1, .f32⟩ : BufTy).Contents (Elt F)) : (⟨S1x1, .f32⟩ : BufTy).Contents (Elt F) :=
  shapeCast S1x1 a5 shapeCasts_S1_S1x1

/-- The first kernel's stored value, one scalar per table row, at the host-prepared operands. -/
def foldArr (a1 : (⟨S10000x64, .f32⟩ : BufTy).Contents (Elt F)) (a2 : (⟨S64x64, .f32⟩ : BufTy).Contents (Elt F))
    (a3 : (⟨S64, .f32⟩ : BufTy).Contents (Elt F)) (a4 : (⟨S1x64, .f32⟩ : BufTy).Contents (Elt F))
    (a5 : (⟨S1, .f32⟩ : BufTy).Contents (Elt F)) : (⟨S10000, .f32⟩ : BufTy).Contents (Elt F) :=
  Gen.k0_pay1 (hW2p a4) a2 (hB1 a3) (hB2 a5) (hTabT a1)

/-- The result with a trailing unit axis: [16384] to [16384, 1]. -/
def hOut (o : (⟨S16384, .f32⟩ : BufTy).Contents (Elt F)) : (⟨S16384x1, .f32⟩ : BufTy).Contents (Elt F) :=
  shapeCast S16384x1 o shapeCasts_S16384_S16384x1

/-- The ten host operations before the first kernel, in order. -/
abbrev hostOps0 : List (HloOp τ sig (Elt F)) :=
  [ StableHlo.unary main_arg0 main_v0 ((transpose S200x16384 [1, 0] · transposes_S16384x200_S200x16384_1_0) : (⟨S16384x200, .i32⟩ : BufTy).Contents (Elt F) → (⟨S200x16384, .i32⟩ : BufTy).Contents (Elt F)),
    StableHlo.nullary main_cst (constant S_ .f32 0x00000000#32),
    StableHlo.unary main_cst main_v1 (broadcastInDim S8x64 ![] bcast_S_S8x64 : (⟨S_, .f32⟩ : BufTy).Contents (Elt F) → (⟨S8x64, .f32⟩ : BufTy).Contents (Elt F)),
    StableHlo.reshape main_arg4 main_v2 rfl shapeCasts_S1x64_S64,
    StableHlo.nullary main_c (constantI S_ 32 0#32),
    StableHlo.unary main_c main_v3 (broadcastInDim S1 ![] bcast_S_S1 : (⟨S_, .i32⟩ : BufTy).Contents (Elt F) → (⟨S1, .i32⟩ : BufTy).Contents (Elt F)),
    StableHlo.ternary main_v1 main_v3 main_v2 main_v4 ((fun x i u => Host.scatter scatter_S8x64_S1_S64_0_0_0_0 (fun _ b => b) x i u) : (⟨S8x64, .f32⟩ : BufTy).Contents (Elt F) → (⟨S1, .i32⟩ : BufTy).Contents (Elt F) → (⟨S64, .f32⟩ : BufTy).Contents (Elt F) → (⟨S8x64, .f32⟩ : BufTy).Contents (Elt F)),
    StableHlo.unary main_arg1 main_v5 ((transpose S64x10000 [1, 0] · transposes_S10000x64_S64x10000_1_0) : (⟨S10000x64, .f32⟩ : BufTy).Contents (Elt F) → (⟨S64x10000, .f32⟩ : BufTy).Contents (Elt F)),
    StableHlo.reshape main_arg3 main_v6 rfl shapeCasts_S64_S1x64,
    StableHlo.reshape main_arg5 main_v7 rfl shapeCasts_S1_S1x1 ]

variable (V : Valuation τ sig (Elt F))

theorem after_v0 : after (hostOps0 (F := F)) V (Proc.devRef .tc main_v0) = hIdxT (V (Proc.devRef .tc main_arg0)) := by
  after_results; rfl
theorem after_v4 : after (hostOps0 (F := F)) V (Proc.devRef .tc main_v4) = hW2p (V (Proc.devRef .tc main_arg4)) := by
  after_results; rfl
theorem after_v5 : after (hostOps0 (F := F)) V (Proc.devRef .tc main_v5) = hTabT (V (Proc.devRef .tc main_arg1)) := by
  after_results; rfl
theorem after_v6 : after (hostOps0 (F := F)) V (Proc.devRef .tc main_v6) = hB1 (V (Proc.devRef .tc main_arg3)) := by
  after_results; rfl
theorem after_v7 : after (hostOps0 (F := F)) V (Proc.devRef .tc main_v7) = hB2 (V (Proc.devRef .tc main_arg5)) := by
  after_results; rfl
theorem after_arg0 : after (hostOps0 (F := F)) V (Proc.devRef .tc main_arg0) = V (Proc.devRef .tc main_arg0) := by after_results
theorem after_arg1 : after (hostOps0 (F := F)) V (Proc.devRef .tc main_arg1) = V (Proc.devRef .tc main_arg1) := by after_results
theorem after_arg2 : after (hostOps0 (F := F)) V (Proc.devRef .tc main_arg2) = V (Proc.devRef .tc main_arg2) := by after_results
theorem after_arg3 : after (hostOps0 (F := F)) V (Proc.devRef .tc main_arg3) = V (Proc.devRef .tc main_arg3) := by after_results
theorem after_arg4 : after (hostOps0 (F := F)) V (Proc.devRef .tc main_arg4) = V (Proc.devRef .tc main_arg4) := by after_results
theorem after_arg5 : after (hostOps0 (F := F)) V (Proc.devRef .tc main_arg5) = V (Proc.devRef .tc main_arg5) := by after_results
theorem after_v8 : after (hostOps0 (F := F)) V (Proc.devRef .tc main_v8) = V (Proc.devRef .tc main_v8) := by after_results
theorem after_v9 : after (hostOps0 (F := F)) V (Proc.devRef .tc main_v9) = V (Proc.devRef .tc main_v9) := by after_results
theorem after_v10 : after (hostOps0 (F := F)) V (Proc.devRef .tc main_v10) = V (Proc.devRef .tc main_v10) := by after_results

end Cert.Proof.KI

end
-- ==== Proof.SplitKI.lean ====
/-
  How the launch hands the three arrays to the 32 tiles.  Tile (c, s) writes the 512 output entries from
  1024·s + 512·c on; these 32 stretches are pairwise disjoint and together are the whole output array, so the
  output's points-to splits into one points-to per tile.  The index array and the folded table are only read, by
  every tile: each is handed out as 32 read shares (two per SparseCore level, sixteen per subcore level below it),
  what is left over at the two levels being kept aside so that the whole can be put back together afterwards.
-/
import proofs.«205085_g3753801417095_cont_8to1_b_1540_27_alg».proof.Proof.TileDefsKI

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ### The 32 output stretches partition the output array -/

@[simp] theorem coordsV_zero (c : Fin (grid1.bound 0)) (s : Fin (grid1.bound 1)) : coordsV c s 0 = c := rfl
@[simp] theorem coordsV_one (c : Fin (grid1.bound 0)) (s : Fin (grid1.bound 1)) : coordsV c s 1 = s := rfl

/-- Entry i lies in tile L's stretch iff it is one of the 512 entries from 1024·s + 512·c on. -/
theorem mem_oSet (L : grid1.Coords) (i : S16384.Idx) :
    i ∈ oSet L ↔ 1024 * (L 1).val + 512 * (L 0).val ≤ (i 0).val
      ∧ (i 0).val < 1024 * (L 1).val + 512 * (L 0).val + 512 := by
  show i ∈ ((View.whole main_v9_scv).slice (Rect.unit (s := S16384) (k1_off515 L) S512.size (k1_off515_inb L))).set ↔ _
  rw [View.set_slice_whole, Rect.mem_set_unit, Gen.k1_off515_eq]
  exact Fin.forall_fin_one

theorem oSets_disjoint : ∀ p ∈ (Finset.univ : Finset (Fin (grid1.bound 0) × Fin (grid1.bound 1))),
    ∀ p' ∈ Finset.univ, p ≠ p' → Disjoint (oSet (coordsV p.1 p.2)) (oSet (coordsV p'.1 p'.2)) := by
  intro p _ p' _ hne
  rw [Finset.disjoint_left]
  intro i hi hi'
  rw [mem_oSet, coordsV_zero, coordsV_one] at hi hi'
  have h1 : p.1.val < 2 := p.1.isLt
  have h2 : p'.1.val < 2 := p'.1.isLt
  apply hne
  refine Prod.ext (Fin.ext ?_) (Fin.ext ?_) <;> omega

theorem oSets_cover : (Finset.univ : Finset (Fin (grid1.bound 0) × Fin (grid1.bound 1))).biUnion
    (fun p => oSet (coordsV p.1 p.2)) = Finset.univ := by
  ext i
  simp only [Finset.mem_biUnion, Finset.mem_univ, true_and, iff_true]
  have hi : (i 0).val < 16384 := (i 0).isLt
  refine ⟨(⟨((i 0).val / 512) % 2, Nat.mod_lt _ (by norm_num)⟩,
    ⟨(i 0).val / 1024, by show (i 0).val / 1024 < 16; omega⟩), ?_⟩
  rw [mem_oSet, coordsV_zero, coordsV_one]
  show 1024 * ((i 0).val / 1024) + 512 * (((i 0).val / 512) % 2) ≤ (i 0).val
    ∧ (i 0).val < 1024 * ((i 0).val / 1024) + 512 * (((i 0).val / 512) % 2) + 512
  omega

theorem out_split (d : Dev nD) (f : Buf (Elt F) (oLoc d)) :
    (oLoc d ↦{fullShare} f : sProp (MM F)) = bigSep Finset.univ fun c : Fin (grid1.bound 0) =>
      bigSep Finset.univ fun s : Fin (grid1.bound 1) => oLoc d ↦[oSet (coordsV c s)]{fullShare} f := by
  rw [← bigSep_univ_prod (fun p : Fin (grid1.bound 0) × Fin (grid1.bound 1) =>
      (oLoc d ↦[oSet (coordsV p.1 p.2)]{fullShare} f : sProp (MM F))),
    ← pointsTo_biUnion Finset.univ (ℓ := oLoc d) (fun p : Fin (grid1.bound 0) × Fin (grid1.bound 1) =>
      oSet (coordsV p.1 p.2)) oSets_disjoint, oSets_cover]; try rfl

/-! ### Read shares for the two read-only arrays -/

/-- Tile (c, s)'s read share: the s-th token of the c-th token of the whole. -/
abbrev tileShare (c : Fin (grid1.bound 0)) (s : Fin (grid1.bound 1)) : PosShare TreeShare :=
  Transfers.shareTok (Transfers.shareTok fullShare (grid1.bound 0) c) (grid1.bound 1) s

/-- What is left after the tokens are split off, at the two levels. -/
def restShares (ℓ : Loc nD τ sig) (f : Buf (Elt F) ℓ) : sProp (MM F) :=
  iprop((ℓ ↦{Transfers.shareDrop fullShare (grid1.bound 0)} f)
    ∗ bigSep Finset.univ fun c : Fin (grid1.bound 0) =>
        ℓ ↦{Transfers.shareDrop (Transfers.shareTok fullShare (grid1.bound 0) c) (grid1.bound 1)} f)

theorem shares_split (ℓ : Loc nD τ sig) (f : Buf (Elt F) ℓ) :
    (ℓ ↦{fullShare} f : sProp (MM F)) ⊢ iprop(restShares ℓ f
      ∗ bigSep Finset.univ fun c : Fin (grid1.bound 0) => bigSep Finset.univ fun s : Fin (grid1.bound 1) =>
          ℓ ↦{tileShare c s} f) := by
  refine (Transfers.pointsTo_toks_split fullShare (grid1.bound 0)).trans ?_
  refine (sep_mono_right (bigSep_mono fun c _ =>
    Transfers.pointsTo_toks_split (Transfers.shareTok fullShare (grid1.bound 0) c) (grid1.bound 1))).trans ?_
  rw [bigSep_sep']
  unfold restShares
  iintro ⟨Hd, Ha, Hb⟩
  isplitl [Hd Ha]
  · isplitl [Hd] <;> iassumption
  · iexact Hb

theorem shares_join (ℓ : Loc nD τ sig) (f : Buf (Elt F) ℓ) :
    iprop(restShares ℓ f
      ∗ bigSep Finset.univ fun c : Fin (grid1.bound 0) => bigSep Finset.univ fun s : Fin (grid1.bound 1) =>
          ℓ ↦{tileShare c s} f) ⊢ (ℓ ↦{fullShare} f : sProp (MM F)) := by
  -- regroup: per SparseCore, what is left of its token together with its sixteen subcore tokens
  have h1 : iprop(restShares ℓ f
      ∗ bigSep Finset.univ fun c : Fin (grid1.bound 0) => bigSep Finset.univ fun s : Fin (grid1.bound 1) =>
          ℓ ↦{tileShare c s} f)
      ⊢ (iprop((ℓ ↦{Transfers.shareDrop fullShare (grid1.bound 0)} f)
        ∗ bigSep Finset.univ fun c : Fin (grid1.bound 0) =>
            iprop((ℓ ↦{Transfers.shareDrop (Transfers.shareTok fullShare (grid1.bound 0) c) (grid1.bound 1)} f)
              ∗ bigSep Finset.univ fun s : Fin (grid1.bound 1) =>
                  ℓ ↦{Transfers.shareTok (Transfers.shareTok fullShare (grid1.bound 0) c) (grid1.bound 1) s} f)) :
          sProp (MM F)) := by
    rw [bigSep_sep']
    unfold restShares
    iintro ⟨⟨Hd, Ha⟩, Hb⟩
    isplitl [Hd]; · iexact Hd
    isplitl [Ha] <;> iassumption
  exact h1.trans ((sep_mono_right (bigSep_mono fun c _ =>
    Transfers.pointsTo_toks_join (Transfers.shareTok fullShare (grid1.bound 0) c) (grid1.bound 1))).trans
      (Transfers.pointsTo_toks_join fullShare (grid1.bound 0)))

end Cert.Proof.KI

end
-- ==== Proof.HeldKI.lean ====
/-
  The TensorCore's unscoped arrays are held together as one assertion over the set of all of them.  Here the three
  arrays the summing kernel touches (the transposed index array, the folded table, the output) are taken out of that
  set, the rest staying together; the rest reads the valuation only on itself; and at the end the result array and
  the six argument arrays are taken out, everything else being given up.
-/
import proofs.«205085_g3753801417095_cont_8to1_b_1540_27_alg».proof.Proof.TileDefsKI
import proofs.«205085_g3753801417095_cont_8to1_b_1540_27_alg».proof.Proof.FinKI
import Idealize.ShloMosaic.Lib.Pipeline.Frame
import Idealize.ShloMosaic.Lib.StableHlo.Run

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result)

variable {F : FTy → Type} [FloatOps F] [Named F]

/-- The transposed index array, the folded table, the output, as device buffers. -/
abbrev i' : DevRef τ sig := Proc.devRef .tc (main_v0 : Ref sig .tc)
abbrev t' : DevRef τ sig := Proc.devRef .tc (main_v8 : Ref sig .tc)
abbrev o' : DevRef τ sig := Proc.devRef .tc (main_v9 : Ref sig .tc)

/-- All the other unscoped arrays. -/
abbrev rest3 : Finset (DevRef τ sig) := Pipeline.ucRefs τ sig \ {i', t', o'}

/-- A TensorCore array that is not scoped is one of the unscoped arrays. -/
theorem mem_ucRefs (b : Ref sig .tc) (h : (Proc.devRef (τ := τ) .tc b).isScoped = false) :
    Proc.devRef .tc b ∈ Pipeline.ucRefs τ sig :=
  Finset.mem_filter.mpr ⟨StableHlo.devRef_mem_tcRefs b, by rw [h]; exact Bool.false_ne_true⟩

theorem sub3 : ({i', t', o'} : Finset (DevRef τ sig)) ⊆ Pipeline.ucRefs τ sig := by
  intro b hb
  simp only [Finset.mem_insert, Finset.mem_singleton] at hb
  rcases hb with rfl | rfl | rfl <;> exact mem_ucRefs _ (by decide)

/-- The three arrays held together are the three points-to. -/
theorem held3 (d : Dev nD) (V : Valuation τ sig (Elt F)) :
    (held (SparseCore.T d) {i', t', o'} V : sProp (MM F))
      = iprop((iLoc d ↦{fullShare} V i') ∗ (tLoc d ↦{fullShare} V t') ∗ (oLoc d ↦{fullShare} V o')) := by
  unfold held
  rw [SparseCore.bigSep_insert' (by decide), SparseCore.bigSep_insert' (by decide), bigSep_singleton]

theorem held_take (d : Dev nD) (V : Valuation τ sig (Elt F)) :
    (held (SparseCore.T d) (Pipeline.ucRefs τ sig) V : sProp (MM F))
      = iprop((iLoc d ↦{fullShare} V i') ∗ (tLoc d ↦{fullShare} V t') ∗ (oLoc d ↦{fullShare} V o')
          ∗ held (SparseCore.T d) rest3 V) := by
  rw [StableHlo.held_sub_split (SparseCore.T d) sub3 V, held3]
  refine BI.equiv_iff.mp ⟨?_, ?_⟩
  · show (_ : sProp (MM F)) ⊢ _
    iintro ⟨⟨Hi, Ht, Ho⟩, Hr⟩
    isplitl [Hi]; · iexact Hi
    isplitl [Ht]; · iexact Ht
    isplitl [Ho]; · iexact Ho
    iexact Hr
  · show (_ : sProp (MM F)) ⊢ _
    iintro ⟨Hi, Ht, Ho, Hr⟩
    isplitr [Hr]
    · isplitl [Hi]; · iexact Hi
      isplitl [Ht]; · iexact Ht
      iexact Ho
    · iexact Hr

theorem held_rest_congr (d : Dev nD) (V V' : Valuation τ sig (Elt F)) (h : ∀ b ∈ rest3, V b = V' b) :
    (held (SparseCore.T d) rest3 V : sProp (MM F)) = held (SparseCore.T d) rest3 V' :=
  StableHlo.held_congr (SparseCore.T d) h

/-- The result array and the six argument arrays. -/
abbrev fin7 : Finset (DevRef τ sig) :=
  {Proc.devRef .tc (main_v10 : Ref sig .tc), Proc.devRef .tc (main_arg0 : Ref sig .tc),
    Proc.devRef .tc (main_arg1 : Ref sig .tc), Proc.devRef .tc (main_arg2 : Ref sig .tc),
    Proc.devRef .tc (main_arg3 : Ref sig .tc), Proc.devRef .tc (main_arg4 : Ref sig .tc),
    Proc.devRef .tc (main_arg5 : Ref sig .tc)}

theorem sub7 : fin7 ⊆ Pipeline.ucRefs τ sig := by
  intro b hb
  simp only [Finset.mem_insert, Finset.mem_singleton] at hb
  rcases hb with rfl | rfl | rfl | rfl | rfl | rfl | rfl <;> exact mem_ucRefs _ (by decide)

theorem held7 (d : Dev nD) (V : Valuation τ sig (Elt F)) :
    (held (SparseCore.T d) fin7 V : sProp (MM F))
      = iprop((aLoc d main_v10 ↦{fullShare} V (Proc.devRef .tc main_v10))
        ∗ (aLoc d main_arg0 ↦{fullShare} V (Proc.devRef .tc main_arg0))
        ∗ (aLoc d main_arg1 ↦{fullShare} V (Proc.devRef .tc main_arg1))
        ∗ (aLoc d main_arg2 ↦{fullShare} V (Proc.devRef .tc main_arg2))
        ∗ (aLoc d main_arg3 ↦{fullShare} V (Proc.devRef .tc main_arg3))
        ∗ (aLoc d main_arg4 ↦{fullShare} V (Proc.devRef .tc main_arg4))
        ∗ (aLoc d main_arg5 ↦{fullShare} V (Proc.devRef .tc main_arg5))) := by
  unfold held
  rw [SparseCore.bigSep_insert' (by decide), SparseCore.bigSep_insert' (by decide),
    SparseCore.bigSep_insert' (by decide), SparseCore.bigSep_insert' (by decide),
    SparseCore.bigSep_insert' (by decide), SparseCore.bigSep_insert' (by decide), bigSep_singleton]

theorem held_fin (d : Dev nD) (V : Valuation τ sig (Elt F)) :
    (held (SparseCore.T d) (Pipeline.ucRefs τ sig) V : sProp (MM F))
      ⊢ iprop((aLoc d main_v10 ↦{fullShare} V (Proc.devRef .tc main_v10))
        ∗ (aLoc d main_arg0 ↦{fullShare} V (Proc.devRef .tc main_arg0))
        ∗ (aLoc d main_arg1 ↦{fullShare} V (Proc.devRef .tc main_arg1))
        ∗ (aLoc d main_arg2 ↦{fullShare} V (Proc.devRef .tc main_arg2))
        ∗ (aLoc d main_arg3 ↦{fullShare} V (Proc.devRef .tc main_arg3))
        ∗ (aLoc d main_arg4 ↦{fullShare} V (Proc.devRef .tc main_arg4))
        ∗ (aLoc d main_arg5 ↦{fullShare} V (Proc.devRef .tc main_arg5))) := by
  rw [StableHlo.held_sub_split (SparseCore.T d) sub7 V, held7]
  iintro ⟨H, -⟩
  iexact H

end Cert.Proof.KI

end
-- ==== Proof.GhostKI.lean ====
/-
  The launch element's three factors as embeddings into the machine's algebra: the handshakes' rounds on the left,
  the TensorCore pipeline's staging cells' rounds in the middle, the local transfers' counters on the right; and the
  split of an owned triple into its first two factors.
-/
import proofs.«205085_g3753801417095_cont_8to1_b_1540_27_alg».proof.Proof.CommonKI

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The handshakes' rounds: the left factor of the user algebra. -/
abbrev EH : Emb UH (MM F) := embL

/-- The pipeline's staging cells' rounds: the left factor of the right factor. -/
def ER : Emb UK (MM F) := (Emb.inl : Emb UK (UK × Counters)).trans embR

instance ER_landsIn : (ER (F := F)).LandsIn (upEmb : UEmb _ (MM F)) := by
  unfold ER; infer_instance

/-- An owned triple is its first factor owned through `EH` and its second through `ER` (the third, the counters'
    unit, is let go). -/
theorem ownU_split (a : UH) (b : UK) (c : Counters) :
    (ownU ((a, (b, c)) : UU) : sProp (MM F)) ⊢ iprop(BI.own (EH (F := F) a) ∗ BI.own (ER (F := F) b)) := by
  iintro Hu
  ihave H := (ownU_pair _ _) $$ Hu
  icases H with ⟨HH, HR⟩
  isplitl [HH]; · iexact HH
  ihave H2 := (own_pair_emb (embR : Emb (UK × Counters) (MM F)) b c) $$ HR
  icases H2 with ⟨HK, -⟩
  unfold ER
  iexact HK

end Cert.Proof.KI

end
-- ==== Proof.FoldKI.lean ====
/-
  The TensorCore pallas_call of the program (pipeline 0, one grid point): the proof data of its pipeline at any entry
  contents of the TensorCore's arrays and any tallies the core owes throughout, and the body obligation — the kernel
  body reads its five input blocks whole, computes one value of them and stores it over the whole output block.
-/
import proofs.«205085_g3753801417095_cont_8to1_b_1540_27_alg».proof.Proof.CommonKI
import proofs.«205085_g3753801417095_cont_8to1_b_1540_27_alg».proof.Proof.Gen.KernelIdeal.Launch
import proofs.«205085_g3753801417095_cont_8to1_b_1540_27_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MM F

section Fold

-- the device, the contents of the TensorCore's arrays when the call is entered, what the core owes throughout the call,
-- and a bound on the (cell, index) pairs its earlier waits recorded
variable (d : Dev nD) (A₀ : (b : Ref sig .tc) → Buf (Elt F) ((d : Thread nD τ).loc b))
  (O : CellTallies nD τ sig (HIx 1)) (B : Set (SemLoc sig × HIx 1))

/-! ## The windows' blocks -/

/-- Window `w`'s block at point `t`, read off its array as the call finds it. -/
def iblk0 (w : Fin cfg0.W) (t : Fin cfg0.N) : ((cfg0.win w).xblock (cfg0.grid.coords t)).Idx → Elt F (cfg0.win w).elt :=
  ((cfg0.win w).blk t).view.read (Elt F) (A₀ (Pipeline.arrRef spec0 w))

/-- Input window 0's staging buffer holds its block at the point, for any proof data whose array is the entry
    contents' and whose body leaves the block in place. -/
theorem before0_0_of (dat : Dat τ (Elt F) (HIx 1) ℕ UU ℕ cfg0 d) (hA : dat.A 0 = A₀ (Pipeline.arrRef spec0 0))
    (hafter : ∀ t, dat.after 0 t = iblk0 d A₀ 0 t) (t : Fin cfg0.N) (x) : dat.before 0 t x = iblk0 d A₀ 0 t :=
  (dat.before_in_eq_fetched 0 rfl (fun _ => rfl) (fun _ _ _ => rfl) (fun t => by rw [hafter]; unfold Dat.blockOf iblk0; rw [hA]; try rfl) t x).trans
    (by unfold Dat.fetched Dat.blockOf iblk0; rw [hA]; try rfl)
/-- Input window 1's staging buffer holds its block at the point, for any proof data whose array is the entry
    contents' and whose body leaves the block in place. -/
theorem before0_1_of (dat : Dat τ (Elt F) (HIx 1) ℕ UU ℕ cfg0 d) (hA : dat.A 1 = A₀ (Pipeline.arrRef spec0 1))
    (hafter : ∀ t, dat.after 1 t = iblk0 d A₀ 1 t) (t : Fin cfg0.N) (x) : dat.before 1 t x = iblk0 d A₀ 1 t :=
  (dat.before_in_eq_fetched 1 rfl (fun _ => rfl) (fun _ _ _ => rfl) (fun t => by rw [hafter]; unfold Dat.blockOf iblk0; rw [hA]; try rfl) t x).trans
    (by unfold Dat.fetched Dat.blockOf iblk0; rw [hA]; try rfl)
/-- Input window 2's staging buffer holds its block at the point, for any proof data whose array is the entry
    contents' and whose body leaves the block in place. -/
theorem before0_2_of (dat : Dat τ (Elt F) (HIx 1) ℕ UU ℕ cfg0 d) (hA : dat.A 2 = A₀ (Pipeline.arrRef spec0 2))
    (hafter : ∀ t, dat.after 2 t = iblk0 d A₀ 2 t) (t : Fin cfg0.N) (x) : dat.before 2 t x = iblk0 d A₀ 2 t :=
  (dat.before_in_eq_fetched 2 rfl (fun _ => rfl) (fun _ _ _ => rfl) (fun t => by rw [hafter]; unfold Dat.blockOf iblk0; rw [hA]; try rfl) t x).trans
    (by unfold Dat.fetched Dat.blockOf iblk0; rw [hA]; try rfl)
/-- Input window 3's staging buffer holds its block at the point, for any proof data whose array is the entry
    contents' and whose body leaves the block in place. -/
theorem before0_3_of (dat : Dat τ (Elt F) (HIx 1) ℕ UU ℕ cfg0 d) (hA : dat.A 3 = A₀ (Pipeline.arrRef spec0 3))
    (hafter : ∀ t, dat.after 3 t = iblk0 d A₀ 3 t) (t : Fin cfg0.N) (x) : dat.before 3 t x = iblk0 d A₀ 3 t :=
  (dat.before_in_eq_fetched 3 rfl (fun _ => rfl) (fun _ _ _ => rfl) (fun t => by rw [hafter]; unfold Dat.blockOf iblk0; rw [hA]; try rfl) t x).trans
    (by unfold Dat.fetched Dat.blockOf iblk0; rw [hA]; try rfl)
/-- Input window 4's staging buffer holds its block at the point, for any proof data whose array is the entry
    contents' and whose body leaves the block in place. -/
theorem before0_4_of (dat : Dat τ (Elt F) (HIx 1) ℕ UU ℕ cfg0 d) (hA : dat.A 4 = A₀ (Pipeline.arrRef spec0 4))
    (hafter : ∀ t, dat.after 4 t = iblk0 d A₀ 4 t) (t : Fin cfg0.N) (x) : dat.before 4 t x = iblk0 d A₀ 4 t :=
  (dat.before_in_eq_fetched 4 rfl (fun _ => rfl) (fun _ _ _ => rfl) (fun t => by rw [hafter]; unfold Dat.blockOf iblk0; rw [hA]; try rfl) t x).trans
    (by unfold Dat.fetched Dat.blockOf iblk0; rw [hA]; try rfl)

/-! ## The body's accesses: each the whole of its block -/

abbrev r0_0 : Rect S64x10000 := Rect.unit (s := S64x10000) ![0, 0] S64x10000.size inb_S64x10000_S64x10000_0_0
abbrev r0_1 : Rect S64x64 := Rect.unit (s := S64x64) ![0, 0] S64x64.size inb_S64x64_S64x64_0_0
abbrev r0_2 : Rect S1x64 := Rect.unit (s := S1x64) ![0, 0] S1x64.size inb_S1x64_S1x64_0_0
abbrev r0_3 : Rect S8x64 := Rect.unit (s := S8x64) ![0, 0] S8x64.size inb_S8x64_S8x64_0_0
abbrev r0_4 : Rect S1x1 := Rect.unit (s := S1x1) ![0, 0] S1x1.size inb_S1x1_S1x1_0_0
abbrev r0_5 : Rect S10000 := Rect.unit (s := S10000) ![0] S10000.size inb_S10000_S10000_0

/-! ## What the body leaves in the output window's buffer -/

/-- Window 5's staging buffer after the body, from the input windows' blocks: its one store as a piece. -/
def out0_5 (x0 : Vec F S64x10000 .f32) (x1 : Vec F S64x64 .f32) (x2 : Vec F S1x64 .f32) (x3 : Vec F S8x64 .f32) (x4 : Vec F S1x1 .f32) : Vec F S10000 .f32 :=
  View.canon [⟨r0_5, k0_pay1 (View.ld x3 r0_3) (View.ld x1 r0_1) (View.ld x2 r0_2) (View.ld x4 r0_4) (View.ld x0 r0_0)⟩]

/-- The store is of the whole block, so it covers it. -/
theorem cover0_5 (p0 : Vec F S10000 .f32) (y : S10000.Idx) :
    ∃ pc ∈ ([⟨r0_5, p0⟩] : List (View.Piece (Elt F) S10000 .f32)), y ∈ pc.1.set :=
  View.cover_of_tiled [⟨r0_5, p0⟩] S10000.size (by rfl) y

/-! ## The body's triple -/

set_option maxHeartbeats 1000000 in
/-- The kernel body on whole staging memrefs, the inputs' at contents `xW` and the output's at anything, runs to the
    continuation holding the inputs' as they were and the output's at `out0_5` of the inputs'. -/
theorem sound_kernel0 (E : Set ℕ) (arg0 : Memref sig .tc .vmem S64x10000 .f32) (harg0 : arg0.IsWhole) (arg1 : Memref sig .tc .vmem S64x64 .f32) (harg1 : arg1.IsWhole)
    (arg2 : Memref sig .tc .vmem S1x64 .f32) (harg2 : arg2.IsWhole) (arg3 : Memref sig .tc .vmem S8x64 .f32) (harg3 : arg3.IsWhole)
    (arg4 : Memref sig .tc .vmem S1x1 .f32) (harg4 : arg4.IsWhole) (arg5 : Memref sig .tc .vmem S10000 .f32) (harg5 : arg5.IsWhole)
    (x0 : Vec F S64x10000 .f32) (x1 : Vec F S64x64 .f32) (x2 : Vec F S1x64 .f32) (x3 : Vec F S8x64 .f32) (x4 : Vec F S1x1 .f32) (Kc : PUnit → sProp 𝕄) :
    iprop(owns (d : Thread nD τ) arg0 fullShare x0 ∗ owns (d : Thread nD τ) arg1 fullShare x1 ∗ owns (d : Thread nD τ) arg2 fullShare x2
        ∗ owns (d : Thread nD τ) arg3 fullShare x3 ∗ owns (d : Thread nD τ) arg4 fullShare x4 ∗ (∃ y, owns (d : Thread nD τ) arg5 fullShare y)
        ∗ (iprop(owns (d : Thread nD τ) arg0 fullShare x0 ∗ owns (d : Thread nD τ) arg1 fullShare x1 ∗ owns (d : Thread nD τ) arg2 fullShare x2
            ∗ owns (d : Thread nD τ) arg3 fullShare x3 ∗ owns (d : Thread nD τ) arg4 fullShare x4
            ∗ owns (d : Thread nD τ) arg5 fullShare (out0_5 x0 x1 x2 x3 x4)) -∗ Kc ⟨⟩))
      ⊢ wp frame (wpE (defs₀ (F := F)) Variants.none d none) E (cc0__fold_body arg0 harg0 arg1 harg1 arg2 harg2 arg3 harg3 arg4 harg4 arg5 harg5) Kc := by
  simp only [cc0__fold_body_eq_skeleton]; unfold cc0__fold_body_skel
  unfold owns
  iintro ⟨⟨%f0, %hf0, H0⟩, ⟨%f1, %hf1, H1⟩, ⟨%f2, %hf2, H2⟩, ⟨%f3, %hf3, H3⟩, ⟨%f4, %hf4, H4⟩, ⟨%y5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the pipeline on the device's TensorCore: the arrays as the call finds them; after the body each
    input's buffer at its block and the output's at `out0_5` of the input blocks; the invariant the scoped buffers no
    window stages; the core owing `O` throughout, its recorded pairs within `B`; full shares. -/
def dat0 : Dat τ (Elt F) (HIx 1) ℕ UU ℕ cfg0 d where
  A w := A₀ (Pipeline.arrRef spec0 w)
  after w t := match w with
    | ⟨0, _⟩ => iblk0 d A₀ 0 t
    | ⟨1, _⟩ => iblk0 d A₀ 1 t
    | ⟨2, _⟩ => iblk0 d A₀ 2 t
    | ⟨3, _⟩ => iblk0 d A₀ 3 t
    | ⟨4, _⟩ => iblk0 d A₀ 4 t
    | ⟨5, _⟩ => out0_5 (iblk0 d A₀ 0 t) (iblk0 d A₀ 1 t) (iblk0 d A₀ 2 t) (iblk0 d A₀ 3 t) (iblk0 d A₀ 4 t)
  Φ _ := Pipeline.scopedRest (Ix := HIx 1) (Name := ℕ) (U := UU) (Lvl := ℕ) (Val := Elt F) spec0 d
  q _ := fullShare
  owed _ := O
  recorded _ := B

theorem A_eq0 (w : Fin cfg0.W) : (dat0 d A₀ O B).A w = A₀ (Pipeline.arrRef spec0 w) := by
  dsimp only [dat0]

theorem after0_0 (t : Fin cfg0.N) : (dat0 d A₀ O B).after 0 t = iblk0 d A₀ 0 t := by dsimp only [dat0]
theorem after0_1 (t : Fin cfg0.N) : (dat0 d A₀ O B).after 1 t = iblk0 d A₀ 1 t := by dsimp only [dat0]
theorem after0_2 (t : Fin cfg0.N) : (dat0 d A₀ O B).after 2 t = iblk0 d A₀ 2 t := by dsimp only [dat0]
theorem after0_3 (t : Fin cfg0.N) : (dat0 d A₀ O B).after 3 t = iblk0 d A₀ 3 t := by dsimp only [dat0]
theorem after0_4 (t : Fin cfg0.N) : (dat0 d A₀ O B).after 4 t = iblk0 d A₀ 4 t := by dsimp only [dat0]
theorem after0_5 (t : Fin cfg0.N) : (dat0 d A₀ O B).after 5 t = out0_5 (iblk0 d A₀ 0 t) (iblk0 d A₀ 1 t) (iblk0 d A₀ 2 t) (iblk0 d A₀ 3 t) (iblk0 d A₀ 4 t) := by dsimp only [dat0]

theorem before0_0 (t : Fin cfg0.N) (x) : (dat0 d A₀ O B).before 0 t x = iblk0 d A₀ 0 t :=
  before0_0_of d A₀ (dat0 d A₀ O B) (A_eq0 d A₀ O B 0) (after0_0 d A₀ O B) t x
theorem before0_1 (t : Fin cfg0.N) (x) : (dat0 d A₀ O B).before 1 t x = iblk0 d A₀ 1 t :=
  before0_1_of d A₀ (dat0 d A₀ O B) (A_eq0 d A₀ O B 1) (after0_1 d A₀ O B) t x
theorem before0_2 (t : Fin cfg0.N) (x) : (dat0 d A₀ O B).before 2 t x = iblk0 d A₀ 2 t :=
  before0_2_of d A₀ (dat0 d A₀ O B) (A_eq0 d A₀ O B 2) (after0_2 d A₀ O B) t x
theorem before0_3 (t : Fin cfg0.N) (x) : (dat0 d A₀ O B).before 3 t x = iblk0 d A₀ 3 t :=
  before0_3_of d A₀ (dat0 d A₀ O B) (A_eq0 d A₀ O B 3) (after0_3 d A₀ O B) t x
theorem before0_4 (t : Fin cfg0.N) (x) : (dat0 d A₀ O B).before 4 t x = iblk0 d A₀ 4 t :=
  before0_4_of d A₀ (dat0 d A₀ O B) (A_eq0 d A₀ O B 4) (after0_4 d A₀ O B) t x

/-! ## The body obligation -/

/-- What the body is called with at point `t`, the windows one by one, -/
def bodyPre0 (t : Fin cfg0.N) : sProp 𝕄 :=
  iprop((dat0 d A₀ O B).Φ t.castSucc ∗ (dat0 d A₀ O B).owesAt none t.castSucc
    ∗ (∃ x, owns (d : Thread nD τ) (st0_0 t) fullShare ((dat0 d A₀ O B).before 0 t x))
    ∗ (∃ x, owns (d : Thread nD τ) (st0_1 t) fullShare ((dat0 d A₀ O B).before 1 t x))
    ∗ (∃ x, owns (d : Thread nD τ) (st0_2 t) fullShare ((dat0 d A₀ O B).before 2 t x))
    ∗ (∃ x, owns (d : Thread nD τ) (st0_3 t) fullShare ((dat0 d A₀ O B).before 3 t x))
    ∗ (∃ x, owns (d : Thread nD τ) (st0_4 t) fullShare ((dat0 d A₀ O B).before 4 t x))
    ∗ (∃ x, owns (d : Thread nD τ) (st0_5 t) fullShare ((dat0 d A₀ O B).before 5 t x)))

/-- and what it returns. -/
def bodyPost0 (t : Fin cfg0.N) : sProp 𝕄 :=
  iprop((dat0 d A₀ O B).Φ t.succ ∗ (dat0 d A₀ O B).owesAt none t.succ
    ∗ owns (d : Thread nD τ) (st0_0 t) fullShare ((dat0 d A₀ O B).after 0 t)
    ∗ owns (d : Thread nD τ) (st0_1 t) fullShare ((dat0 d A₀ O B).after 1 t)
    ∗ owns (d : Thread nD τ) (st0_2 t) fullShare ((dat0 d A₀ O B).after 2 t)
    ∗ owns (d : Thread nD τ) (st0_3 t) fullShare ((dat0 d A₀ O B).after 3 t)
    ∗ owns (d : Thread nD τ) (st0_4 t) fullShare ((dat0 d A₀ O B).after 4 t)
    ∗ owns (d : Thread nD τ) (st0_5 t) fullShare ((dat0 d A₀ O B).after 5 t))

/-- The body at the point: the inputs' memrefs hold their blocks, so `sound_kernel0` applies; the invariant and the
    core's `owes` pass through unread. -/
theorem sound_body0 (t : Fin cfg0.N) :
    bodyPre0 d A₀ O B t ⊢ wp frame (wpE (defs₀ (F := F)) Variants.none d none) Set.univ (bodyAt0 t) (fun _ => bodyPost0 d A₀ O B t) := by
  unfold bodyPre0 bodyPost0 bodyAt0
  simp only [before0_0, before0_1, before0_2, before0_3, before0_4]
  rw [show (dat0 d A₀ O B).Φ t.succ = (dat0 d A₀ O B).Φ t.castSucc from rfl,
    show (dat0 d A₀ O B).owesAt none t.succ = (dat0 d A₀ O B).owesAt none t.castSucc from rfl,
    after0_0, after0_1, after0_2, after0_3, after0_4, after0_5]
  iintro ⟨HΦ, Ho, ⟨%x0, H0⟩, ⟨%x1, H1⟩, ⟨%x2, H2⟩, ⟨%x3, H3⟩, ⟨%x4, H4⟩, ⟨%x5, H5⟩⟩
  iapply (sound_kernel0 d Set.univ _ _ _ _ _ _ _ _ _ _ _ _ (iblk0 d A₀ 0 t) (iblk0 d A₀ 1 t) (iblk0 d A₀ 2 t) (iblk0 d A₀ 3 t) (iblk0 d A₀ 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 : BodyObligation (dat0 (F := F) d A₀ O B) (defs₀ (F := F)) Variants.none none Set.univ := fun t => by
  rw [bigSep_W0, bigSep_W0]
  exact sound_body0 d A₀ O B t

end Fold

end Cert.Proof.KI

end
-- ==== Proof.RegionKI.lean ====
/-
  The TensorCore pallas_call as a step of @main on a device's TensorCore inside the SparseCore launch: from the
  region boundary, the TensorCore's unscoped arrays at any contents, the pipeline's staging cells' ghost state as the
  launch element funds it, and the TensorCore's state before SparseCore call 0 (it owes its start signals throughout),
  the call runs to the boundary, the arrays with the result array at the kernel's value of the five operand arrays, and
  the same state. The funding of the staging cells from the launch element.
-/
import proofs.«205085_g3753801417095_cont_8to1_b_1540_27_alg».proof.Proof.GhostKI
import proofs.«205085_g3753801417095_cont_8to1_b_1540_27_alg».proof.Proof.FoldKI
import Idealize.ShloMosaic.Lib.Pipeline.Value

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MM F

/-! ## The result array's value: the whole-block loads read the operands' arrays, the one whole-block store leaves the payload,
and the one write-back puts it over the whole array -/

section Value
variable (d : Dev nD) (A₀ : (b : Ref sig .tc) → Buf (Elt F) ((d : Thread nD τ).loc b))
  (O : CellTallies nD τ sig (HIx 1)) (B : Set (SemLoc sig × HIx 1))

/-- The result array after the run, read through its one block: what the body left at the one point, cut. -/
theorem final_out :
    ((cfg0.win (5 : Fin 6)).blk t0_0).view.read (Elt F) ((dat0 (F := F) d A₀ O B).arrAt (5 : Fin 6) cfg0.N)
      = (dat0 (F := F) d A₀ O B).flushed (5 : Fin 6) t0_0 := by
  rw [show cfg0.N = (t0_0 : Fin cfg0.N).val + 1 from rfl, (dat0 (F := F) d A₀ O B).arrAt_succ (5 : Fin 6) t0_0]
  rw [show (cfg0.win (5 : Fin 6)).flush t0_0 = true from flush0_5 _, if_pos rfl]
  exact View.read_write_univ _ _

theorem out_eq (x0 : Vec F S64x10000 .f32) (x1 : Vec F S64x64 .f32) (x2 : Vec F S1x64 .f32) (x3 : Vec F S8x64 .f32) (x4 : Vec F S1x1 .f32) :
    out0_5 (F := F) x0 x1 x2 x3 x4 = k0_pay1 x3 x1 x2 x4 x0 := by
  have hz5 : (![0] : Fin S10000.rank → Nat) = fun _ => 0 := funext fun a => by fin_cases a <;> rfl
  have hz0 : (![0, 0] : Fin S64x10000.rank → Nat) = fun _ => 0 := funext fun a => by fin_cases a <;> rfl
  have hz1 : (![0, 0] : Fin S64x64.rank → Nat) = fun _ => 0 := funext fun a => by fin_cases a <;> rfl
  have hz2 : (![0, 0] : Fin S1x64.rank → Nat) = fun _ => 0 := funext fun a => by fin_cases a <;> rfl
  have hz3 : (![0, 0] : Fin S8x64.rank → Nat) = fun _ => 0 := funext fun a => by fin_cases a <;> rfl
  have hz4 : (![0, 0] : Fin S1x1.rank → Nat) = fun _ => 0 := funext fun a => by fin_cases a <;> rfl
  unfold out0_5
  rw [View.canon_unit_zero hz5, View.ld_unit_zero hz0, View.ld_unit_zero hz1, View.ld_unit_zero hz2, View.ld_unit_zero hz3, View.ld_unit_zero hz4]

theorem final_value :
    (dat0 (F := F) d A₀ O B).arrAt (5 : Fin 6) cfg0.N = k0_pay1 (A₀ main_v4) (A₀ main_arg2) (A₀ main_v6) (A₀ main_v7) (A₀ main_v5) := by
  have ho := final_out (F := F) d A₀ O B
  have hz5 : (fun a => (win0_5.index t0_0) a * main_v8.ty.shape.size a) = fun _ => 0 := funext fun a => by fin_cases a <;> decide
  have hr5 := fun f => Memref.read_access_unit_zero (Elt F) main_v8 hz5 (fun a => by fin_cases a <;> decide) f
  have hz0 : (fun a => (win0_0.index t0_0) a * main_v5.ty.shape.size a) = fun _ => 0 := funext fun a => by fin_cases a <;> decide
  have hr0 := fun f => Memref.read_access_unit_zero (Elt F) main_v5 hz0 (fun a => by fin_cases a <;> decide) f
  have hz1 : (fun a => (win0_1.index t0_0) a * main_arg2.ty.shape.size a) = fun _ => 0 := funext fun a => by fin_cases a <;> decide
  have hr1 := fun f => Memref.read_access_unit_zero (Elt F) main_arg2 hz1 (fun a => by fin_cases a <;> decide) f
  have hz2 : (fun a => (win0_2.index t0_0) a * main_v6.ty.shape.size a) = fun _ => 0 := funext fun a => by fin_cases a <;> decide
  have hr2 := fun f => Memref.read_access_unit_zero (Elt F) main_v6 hz2 (fun a => by fin_cases a <;> decide) f
  have hz3 : (fun a => (win0_3.index t0_0) a * main_v4.ty.shape.size a) = fun _ => 0 := funext fun a => by fin_cases a <;> decide
  have hr3 := fun f => Memref.read_access_unit_zero (Elt F) main_v4 hz3 (fun a => by fin_cases a <;> decide) f
  have hz4 : (fun a => (win0_4.index t0_0) a * main_v7.ty.shape.size a) = fun _ => 0 := funext fun a => by fin_cases a <;> decide
  have hr4 := fun f => Memref.read_access_unit_zero (Elt F) main_v7 hz4 (fun a => by fin_cases a <;> decide) f
  rw [hr5] at ho
  rw [ho]
  show (cfg0.win (5 : Fin 6)).cut _ ((dat0 (F := F) d A₀ O B).after 5 t0_0) = _
  rw [after0_5, out_eq]
  unfold iblk0
  rw [hr0, hr1, hr2, hr3, hr4]
  rfl
end Value

/-! ## The pipeline's tables as the region rule reads them -/

/-- The prefetched tables' admissible contents: the pipeline has no table. -/
abbrev adm : (p : Fin 1) → (pcfgs (F := F) p).Adm := fun p => (cfgs p).toPCfg_adm

/-- The recorded pairs of a TensorCore that has not yet started a SparseCore call: at level 0. -/
def B₀ (c : Dev nD) : Set (SemLoc sig × HIx 1) := {p | (K (F := F)).lev (T c, p.1) p.2 ≤ 0}

/-- The TensorCore's arrays read at its own references. -/
abbrev atTc (c : Dev nD) (V₀ : Valuation τ sig (Elt F)) : (b : Ref sig .tc) → Buf (Elt F) ((c : Thread nD τ).loc b) := fun b => V₀ b

/-- The pipeline's proof data on every device, at the entry contents `V₀`, each TensorCore owing its start signals. -/
def pdats (V₀ : Valuation τ sig (Elt F)) : (p : Fin 1) → (c : Dev nD) → Dat τ (Elt F) (HIx 1) ℕ UU ℕ (Pipeline.pin (pcfgs (F := F)) adm p) c
  | ⟨0, _⟩ => fun c => dat0 c (atTc c V₀) ((K (F := F)).Otc c 0) (B₀ (F := F) c)

/-- The arrays after the call: the result array at the kernel's value, every other as entered. -/
def Vout (V₀ : Valuation τ sig (Elt F)) : Valuation τ sig (Elt F) :=
  Function.update V₀ (Proc.devRef .tc main_v8)
    (k0_pay1 (V₀ (Proc.devRef .tc main_v4)) (V₀ (Proc.devRef .tc main_arg2)) (V₀ (Proc.devRef .tc main_v6)) (V₀ (Proc.devRef .tc main_v7)) (V₀ (Proc.devRef .tc main_v5)))

/-- What the launch element funds each device for the call: its staging cells' ghost state and the duty tokens of
    the pipeline's transfers. -/
def foldGhost (c : Dev nD) : sProp 𝕄 :=
  iprop(Pipeline.cellsGhost (cfgs) (ER (F := F)) 0 c ∗ Pipeline.toksInit (cfgs) (ER (F := F)) 0 c)

/-- The TensorCore's duties before SparseCore call 0, its recorded pairs at level 0. -/
def tcOwes (c : Dev nD) : sProp 𝕄 :=
  iprop(∃ W, ⌜(K (F := F)).WBelow (T c) W 0⌝ ∗ owes (T c) ((K (F := F)).Otc c 0) W)

/-- The funding: the rounds library's launch element at the pipeline's staging cells and transfers is every device's
    `foldGhost`. -/
theorem fund_fold :
    BI.own (ER (F := F) (initOf (Pipeline.cells cfgs cellOf_inj) (Pipeline.launchToks cfgs cellOf_inj)))
      ⊢ iprop(|==> bigSep Finset.univ fun c : Dev nD => foldGhost (F := F) c) := by
  have h1 : ∀ (Φ : Fin 1 → sProp 𝕄), bigSep (Finset.univ : Finset (Fin 1)) Φ = Φ 0 := fun Φ => by
    rw [show (Finset.univ : Finset (Fin 1)) = {0} from rfl, bigSep_singleton]
  have hfund := Pipeline.fund_ghost cfgs (ER (F := F)) cellOf_inj
  rw [bigSep_congr (fun c _ => h1 (fun p => Pipeline.cellsGhost cfgs (ER (F := F)) p c)),
    bigSep_congr (fun c _ => h1 (fun p => Pipeline.toksInit cfgs (ER (F := F)) p c))] at hfund
  unfold foldGhost
  rw [bigSep_sep']
  exact hfund

/-! ## The arrays after the call -/

theorem Otc_none (c : Dev nD) (g : GSem nD τ sig) : (K (F := F)).Otc c 0 g none = 0 := by
  by_contra h
  have := (K (F := F)).lev_of_Otc_pos (Nat.pos_of_ne_zero h)
  rw [SparseCore.Cfg.lev_none] at this; omega

/-- At the call's exit each of its arrays holds what the pipeline leaves: an operand as entered, the result the kernel's
    value of the operands. -/
theorem hF0 (c : Dev nD) (V₀ : Valuation τ sig (Elt F)) (w : Fin cfg0.W) :
    (pdats (F := F) V₀ 0 c).arrAt w cfg0.N = atTc c (Vout V₀) (Pipeline.arrRef spec0 w) :=
  match w with
  | ⟨0, _⟩ => ((dat0 (F := F) c (atTc c V₀) _ _).arrAt_in 0 rfl _).trans ((A_eq0 c _ _ _ 0).trans (Function.update_of_ne (StableHlo.devRef_ne_of_ne (by decide)) _ _).symm)
  | ⟨1, _⟩ => ((dat0 (F := F) c (atTc c V₀) _ _).arrAt_in 1 rfl _).trans ((A_eq0 c _ _ _ 1).trans (Function.update_of_ne (StableHlo.devRef_ne_of_ne (by decide)) _ _).symm)
  | ⟨2, _⟩ => ((dat0 (F := F) c (atTc c V₀) _ _).arrAt_in 2 rfl _).trans ((A_eq0 c _ _ _ 2).trans (Function.update_of_ne (StableHlo.devRef_ne_of_ne (by decide)) _ _).symm)
  | ⟨3, _⟩ => ((dat0 (F := F) c (atTc c V₀) _ _).arrAt_in 3 rfl _).trans ((A_eq0 c _ _ _ 3).trans (Function.update_of_ne (StableHlo.devRef_ne_of_ne (by decide)) _ _).symm)
  | ⟨4, _⟩ => ((dat0 (F := F) c (atTc c V₀) _ _).arrAt_in 4 rfl _).trans ((A_eq0 c _ _ _ 4).trans (Function.update_of_ne (StableHlo.devRef_ne_of_ne (by decide)) _ _).symm)
  | ⟨5, _⟩ => by
    refine (final_value (F := F) c (atTc c V₀) _ _).trans ?_
    show _ = Function.update V₀ (Proc.devRef .tc main_v8) _ (Proc.devRef .tc main_v8)
    rw [Function.update_self]

/-- Every other buffer holds what it held. -/
theorem hrest0 (c : Dev nD) (V₀ : Valuation τ sig (Elt F)) :
    ∀ b, b ∉ Finset.univ.image (Pipeline.arrRef spec0) → atTc c (Vout V₀) b = atTc c V₀ b := fun b hb =>
  Function.update_of_ne (StableHlo.devRef_ne_of_ne fun e => hb (Finset.mem_image.mpr ⟨5, Finset.mem_univ _, e.symm⟩)) _ _

/-! ## The call as a region of @main -/

set_option backward.isDefEq.respectTransparency.types false in
/-- The call over the thread state "every unscoped array at the entry contents, the TensorCore's duties": its arrays
    split out of the unscoped arrays and put back at the exit contents; the duties ride through, the pipeline's own
    waits recorded at level 0; no semaphore of the kernel's own. -/
def reg0 (V₀ : Valuation τ sig (Elt F)) :
    Pipeline.RegionSeg (pcfgs (F := F)) adm (pdats V₀) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 c (atTc c V₀) ((K (F := F)).Otc c 0) (B₀ (F := F) c)).loose
  hwaits c := Pipeline.cellsWaits_intro (Pipeline.pin (pcfgs (F := F)) adm) (pdats V₀) none 0 c
    (fun w s t => (K (F := F)).mayWait_none _ (Otc_none c))
  pre c := iprop(StableHlo.held (c : Thread nD τ) (Pipeline.ucRefs τ sig) V₀ ∗ tcOwes (F := F) c)
  post c := iprop(StableHlo.held (c : Thread nD τ) (Pipeline.ucRefs τ sig) (Vout V₀) ∗ tcOwes (F := F) c)
  X c := iprop(emp)
  Y c := iprop(emp)
  Z c := Pipeline.unscopedRest (Ix := HIx 1) (Name := ℕ) (U := UU) (Lvl := ℕ) spec0 c (atTc c V₀)
  hentry c := by
    rw [Pipeline.ownSems0_none]
    have hsplit := Pipeline.arrays_of_unscopedBufs (p := 0) (pcfgs (F := F)) adm (pdats V₀) launch0.win launch0.arr_whole c
      ((pdats V₀ 0 c).share_full fun _ => rfl) (atTc c V₀) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin tcOwes
      icases HO with ⟨%W, %hW, HO⟩; iexists W; isplitr
      · ipureintro; exact fun p hp => Or.inl (hW p (Finset.mem_coe.mp hp))
      iexact HO
    isplitr; · iempintro
    iexact Hrest
  hin c := by
    rw [show (pdats V₀ 0 c).Φ 0 = Pipeline.scopedRest (Ix := HIx 1) (Name := ℕ) (U := UU) (Lvl := ℕ) (Val := Elt F) spec0 c from rfl]
    iintro ⟨-, -, Hr⟩
    iexact Hr
  hout c := by
    rw [Pipeline.ownSems0_none, show (pdats V₀ 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats V₀) ((pdats V₀ 0 c).share_full fun _ => rfl)
      (atTc c V₀) (atTc c (Vout V₀)) ((pdats V₀ 0 c).arrAt · cfg0.N) (hF0 c V₀) (hrest0 c V₀)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin tcOwes
    icases HO with ⟨%W, %hW, HO⟩; iexists W; isplitr
    · ipureintro; intro p hp
      rcases hW (Finset.mem_coe.mpr hp) with h | ⟨w, s, rfl⟩
      · exact h
      · exact le_rfl
    iexact HO

set_option backward.isDefEq.respectTransparency.types false in
/-- The call on device `d`'s TensorCore, inside the SparseCore launch. -/
theorem wp_fold [∀ e, Nonempty (Elt F e)] (d : Dev nD) (V₀ : Valuation τ sig (Elt F)) :
    iprop(levAts (K (F := F)).L (K (F := F)).lev ∗ foldGhost (F := F) d ∗ boundary (T d)
        ∗ StableHlo.held (T d) (Pipeline.ucRefs τ sig) V₀ ∗ tcOwes (F := F) d)
      ⊢ wp frame (wpE ((K (F := F)).defs (D (F := F))) 𝒱 (T d) none) Set.univ
          (Prog.lift (.customCall (SparseCore.inner (Pipeline.entry 0)) ())) fun _ =>
            iprop(boundary (T d) ∗ StableHlo.held (T d) (Pipeline.ucRefs τ sig) (Vout V₀) ∗ tcOwes (F := F) d) := by
  iintro ⟨Hlev, Hg, Hb, Hheld, HO⟩
  unfold foldGhost
  icases Hg with ⟨Hcg, Htk⟩
  iapply ((K (F := F)).wp_liftProg (D (F := F)) 𝒱 (T d) Set.univ none (Prog.lift (.customCall (Pipeline.entry 0) ())) _)
  iapply (Pipeline.RegionSeg.wp (pcfgs (F := F)) adm (pdats V₀) none cellOf_inj (ER (F := F)) defs₀ 𝒱₀ (K (F := F)).L (K (F := F)).lev
    (reg0 V₀) d none (fun _ h => nomatch h) (fun x => .ret x) _)
  rw [show (reg0 V₀).post d = iprop(StableHlo.held (d : Thread nD τ) (Pipeline.ucRefs τ sig) (Vout V₀) ∗ tcOwes (F := F) d) from rfl,
    show (reg0 V₀).pre d = iprop(StableHlo.held (d : Thread nD τ) (Pipeline.ucRefs τ sig) V₀ ∗ tcOwes (F := F) d) from rfl]
  isplitr [Hlev Hcg Htk Hb Hheld HO]
  · iintro ⟨Hb, Hheld, HO⟩
    rw [wp_ret]
    imodintro
    isplitl [Hb]; · iexact Hb
    isplitl [Hheld]; · iexact Hheld
    iexact HO
  isplitl [Hb]; · iexact Hb
  isplitl [Hheld HO]
  · isplitl [Hheld]; · iexact Hheld
    iexact HO
  isplitl [Hlev]; · iexact Hlev
  isplitl [Hcg]; · iexact Hcg
  iexact Htk

set_option backward.isDefEq.respectTransparency.types false in
/-- The same from the launch's context and the TensorCore's state before call 0, handed back unchanged. -/
theorem wp_fold_tcSt [∀ e, Nonempty (Elt F e)] (P : (K (F := F)).Pay (nD := nD) (Val := Elt F) (Name := ℕ) (U := UU)) (κ : GSem nD τ sig → ℕ)
    (d : Dev nD) (V₀ : Valuation τ sig (Elt F)) :
    iprop((K (F := F)).ctx EH P κ ∗ (K (F := F)).tcSt EH d 0 ∗ foldGhost (F := F) d ∗ boundary (T d)
        ∗ StableHlo.held (T d) (Pipeline.ucRefs τ sig) V₀)
      ⊢ wp frame (wpE ((K (F := F)).defs (D (F := F))) 𝒱 (T d) none) Set.univ
          (Prog.lift (.customCall (SparseCore.inner (Pipeline.entry 0)) ())) fun _ =>
            iprop((K (F := F)).tcSt EH d 0 ∗ boundary (T d) ∗ StableHlo.held (T d) (Pipeline.ucRefs τ sig) (Vout V₀)) := by
  unfold SparseCore.Cfg.tcSt
  iintro ⟨#Hctx, ⟨HO, Hrest⟩, Hg, Hb, Hheld⟩
  ihave Hlev := (SparseCore.Cfg.ctx_levAts κ) $$ Hctx
  iapply (wp_wand_r frame _ Set.univ)
  isplitl [Hlev Hg Hb Hheld HO]
  · iapply (wp_fold d V₀)
    isplitl [Hlev]; · iexact Hlev
    isplitl [Hg]; · iexact Hg
    isplitl [Hb]; · iexact Hb
    isplitl [Hheld]; · iexact Hheld
    unfold tcOwes
    iexact HO
  · iintro %_ ⟨Hb, Hheld, HO⟩
    isplitl [HO Hrest]
    · isplitl [HO]
      · unfold tcOwes; iexact HO
      iexact Hrest
    isplitl [Hb]; · iexact Hb
    iexact Hheld

end Cert.Proof.KI

end
-- ==== Proof.MainKI.lean ====
/-
  @main of the kernel program on a device's TensorCore: the host operations that lay the arguments out, the
  TensorCore kernel that folds both affine layers into one scalar per table row, the SparseCore call that sums each
  bag's scalars (the index array and the folded table going out as thirty-two read shares, the output array as
  thirty-two stretches), and the final reshape; the arguments are kept and the result is named.
-/
import proofs.«205085_g3753801417095_cont_8to1_b_1540_27_alg».proof.Proof.OblKI
import proofs.«205085_g3753801417095_cont_8to1_b_1540_27_alg».proof.Proof.FinKI
import proofs.«205085_g3753801417095_cont_8to1_b_1540_27_alg».proof.Proof.HostKI
import proofs.«205085_g3753801417095_cont_8to1_b_1540_27_alg».proof.Proof.SplitKI
import proofs.«205085_g3753801417095_cont_8to1_b_1540_27_alg».proof.Proof.HeldKI
import proofs.«205085_g3753801417095_cont_8to1_b_1540_27_alg».proof.Proof.RegionKI
import Idealize.ShloMosaic.Lib.Pipeline.Frame

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F] [Named F]

-- one host operation of @main over the arrays held whole
set_option hygiene false in
macro "hostop" : tactic => `(tactic| (
  iapply (wp_hlo_within 𝒱 (SparseCore.T _) none Set.univ (S := Pipeline.ucRefs τ sig) (Pipeline.sub_ucRefs _ (by simp))) $$ [Hb Hheld]
  · isplitl [Hb]; · iexact Hb
    iexact Hheld
  iintro ⟨Hb, Hheld⟩
  rw [wp_ret]; imodintro))

variable (m : (ℓ : Loc nD τ sig) → Buf (Elt F) ℓ) (ρ : Dev nD → PrngReg)

/-- The launch contents as a valuation of device `d`'s arrays. -/
def V0 (d : Dev nD) : Valuation τ sig (Elt F) := fun b => m (d, b)
/-- The arrays after the host operations before the kernels. -/
def V1 (d : Dev nD) : Valuation τ sig (Elt F) := StableHlo.after (hostOps0 (F := F)) (V0 m d)

/-- The transposed index array, the folded table and the output's launch contents, as the SparseCore call finds them. -/
def Aof (d : Dev nD) : Buf (Elt F) (iLoc d) := hIdxT (F := F) (m (aLoc d main_arg0))
def Tof (d : Dev nD) : Buf (Elt F) (tLoc d) :=
  foldArr (F := F) (m (aLoc d main_arg1)) (m (aLoc d main_arg2)) (m (aLoc d main_arg3)) (m (aLoc d main_arg4)) (m (aLoc d main_arg5))
def Oof (d : Dev nD) : Buf (Elt F) (oLoc d) := m (oLoc d)
/-- The bag sums. -/
def Gof (d : Dev nD) : Buf (Elt F) (oLoc d) := Cert.TileSpec.out (F := F) (Aof m d) (Tof m d)
/-- The program's result. -/
def Rof (d : Dev nD) : Buf (Elt F) (aLoc d main_v10) := hOut (F := F) (Gof m d)

abbrev PP : (K (F := F)).Pay (nD := nD) (Val := Elt F) (Name := ℕ) (U := UU) := P tileShare (Aof m) (Tof m) (Oof m) (Gof m)

theorem Vout_i (d : Dev nD) : Vout (V1 m d) i' = Aof m d := by
  unfold Vout V1 Aof
  rw [Function.update_of_ne (by decide)]
  exact after_v0 (V0 m d)

theorem Vout_t (d : Dev nD) : Vout (V1 m d) t' = Tof m d := by
  unfold Vout V1 Tof foldArr
  rw [Function.update_self, after_v4, after_v5, after_v6, after_v7, after_arg2]
  rfl

theorem Vout_o (d : Dev nD) : Vout (V1 m d) o' = Oof m d := by
  unfold Vout V1 Oof
  rw [Function.update_of_ne (by decide)]
  exact after_v9 (V0 m d)

theorem bigSep_cores (Φ : Fin (grid1.bound 0) → sProp (MM F)) :
    (bigSep Finset.univ fun c : Fin ((K (F := F)).nCore 0) => Φ (Fin.cast nCore_zero c)) = bigSep Finset.univ Φ :=
  bigSep_congr fun _ _ => congrArg Φ (Fin.ext rfl)

/-- All tiles' holdings are the thirty-two shares of the two read-only arrays and the thirty-two output stretches. -/
theorem tiles_eq (d : Dev nD) (g : Buf (Elt F) (oLoc d)) :
    (bigSep Finset.univ fun c : Fin (grid1.bound 0) => bigSep Finset.univ fun s : Fin (grid1.bound 1) => tileRes tileShare (Aof m) (Tof m) d c s g)
      = iprop((bigSep Finset.univ fun c : Fin (grid1.bound 0) => bigSep Finset.univ fun s : Fin (grid1.bound 1) => iLoc d ↦{tileShare c s} Aof m d)
          ∗ (bigSep Finset.univ fun c : Fin (grid1.bound 0) => bigSep Finset.univ fun s : Fin (grid1.bound 1) => tLoc d ↦{tileShare c s} Tof m d)
          ∗ (bigSep Finset.univ fun c : Fin (grid1.bound 0) => bigSep Finset.univ fun s : Fin (grid1.bound 1) => oLoc d ↦[oSet (coordsV c s)]{fullShare} g)) := by
  unfold tileRes
  simp only [bigSep_sep']

theorem st0_eq (d : Dev nD) :
    (bigSep Finset.univ fun c : Fin ((K (F := F)).nCore 0) => (PP m).st 0 d c)
      = bigSep Finset.univ fun c : Fin (grid1.bound 0) => bigSep Finset.univ fun s : Fin (grid1.bound 1) => tileRes tileShare (Aof m) (Tof m) d c s (Oof m d) :=
  bigSep_cores (F := F) (fun c => bigSep Finset.univ fun s : Fin (grid1.bound 1) => tileRes tileShare (Aof m) (Tof m) d c s (Oof m d))

theorem dn0_eq (d : Dev nD) :
    (bigSep Finset.univ fun c : Fin ((K (F := F)).nCore 0) => (PP m).dn 0 d c)
      = bigSep Finset.univ fun c : Fin (grid1.bound 0) => bigSep Finset.univ fun s : Fin (grid1.bound 1) => tileRes tileShare (Aof m) (Tof m) d c s (Gof m d) :=
  bigSep_cores (F := F) (fun c => bigSep Finset.univ fun s : Fin (grid1.bound 1) => tileRes tileShare (Aof m) (Tof m) d c s (Gof m d))

/-- The arrays after the SparseCore call: the output at the bag sums. -/
def V2 (d : Dev nD) : Valuation τ sig (Elt F) := Function.update (Vout (V1 m d)) o' (Gof m d)

abbrev opOut : HloOp τ sig (Elt F) := StableHlo.reshape main_v9 main_v10 rfl shapeCasts_S16384_S16384x1
abbrev V3 (d : Dev nD) : Valuation τ sig (Elt F) := (opOut (F := F)).result (V2 m d)

theorem V2_i (d : Dev nD) : V2 m d i' = Aof m d := by
  unfold V2; rw [Function.update_of_ne (by decide)]; exact Vout_i m d
theorem V2_t (d : Dev nD) : V2 m d t' = Tof m d := by
  unfold V2; rw [Function.update_of_ne (by decide)]; exact Vout_t m d
theorem V2_o (d : Dev nD) : V2 m d o' = Gof m d := by
  unfold V2; exact Function.update_self _ _ _
theorem V2_rest (d : Dev nD) : ∀ b ∈ rest3, V2 m d b = Vout (V1 m d) b := by
  intro b hb
  unfold V2
  refine Function.update_of_ne ?_ _ _
  rintro rfl
  exact absurd hb (by decide)

theorem V3_out (d : Dev nD) : V3 m d (Proc.devRef .tc main_v10) = Rof m d := by
  unfold V3 Rof hOut
  rw [← V2_o m d]
  show StableHlo.after [opOut (F := F)] (V2 m d) (Proc.devRef .tc main_v10) = _
  after_results; rfl

theorem V3_arg (d : Dev nD) (b : Ref sig .tc) (hb : (Proc.devRef (τ := τ) .tc b) ∉ ({Proc.devRef .tc main_v10, Proc.devRef .tc main_v8, Proc.devRef .tc main_v9} : Finset (DevRef τ sig)))
    (hV : V1 m d (Proc.devRef .tc b) = V0 m d (Proc.devRef .tc b)) : V3 m d (Proc.devRef .tc b) = m (aLoc d b) := by
  have h10 : Proc.devRef (τ := τ) .tc b ≠ Proc.devRef .tc main_v10 := fun e => hb (by rw [e]; simp)
  have h8 : Proc.devRef (τ := τ) .tc b ≠ Proc.devRef .tc main_v8 := fun e => hb (by rw [e]; simp)
  have h9 : Proc.devRef (τ := τ) .tc b ≠ Proc.devRef .tc main_v9 := fun e => hb (by rw [e]; simp)
  unfold V3
  rw [(opOut (F := F)).result_of_not_mem (V2 m d) (b := Proc.devRef .tc b) (by simpa using h10)]
  unfold V2 Vout
  rw [Function.update_of_ne h9, Function.update_of_ne h8, hV]
  rfl

/-- @main on device `d`'s TensorCore. -/
theorem hmain (κ : GSem nD τ sig → ℕ) (d : Dev nD) :
    iprop((K (F := F)).ctx EH (PP m) κ ∗ (K (F := F)).tcSt EH d 0 ∗ (K (F := F)).tcRes m ρ d ∗ foldGhost (F := F) d)
      ⊢ wp frame (wpE ((K (F := F)).defs (D (F := F))) 𝒱 (SparseCore.T d) none) Set.univ (main d)
          fun _ => iprop((K (F := F)).tcSt EH d 1 ∗ FIN m (Rof m) d) := by
  unfold SparseCore.Cfg.tcRes
  rw [show (unscopedBufs d (fun b => m ((SparseCore.T d).loc b)) : sProp (MM F)) = held (T d) (Pipeline.ucRefs τ sig) (V0 m d) from Pipeline.unscopedBufs_held d (V0 m d)]
  simp only [main, wp_bind, wp_pure]
  iintro ⟨#Hctx, Hst, ⟨Hb, Hheld, -, -⟩, HG⟩
  hostop; hostop; hostop; hostop; hostop; hostop; hostop; hostop; hostop; hostop
  -- the TensorCore kernel
  iapply (wp_wand_r frame _ _ (Q := fun _ => iprop((K (F := F)).tcSt EH d 0 ∗ boundary (T d) ∗ held (T d) (Pipeline.ucRefs τ sig) (Vout (V1 m d))))) $$ [Hst HG Hb Hheld]
  isplitl [Hst HG Hb Hheld]
  · iapply (wp_fold_tcSt (PP m) κ d (V1 m d))
    isplitr; · iexact Hctx
    isplitl [Hst]; · iexact Hst
    isplitl [HG]; · iexact HG
    isplitl [Hb]; · iexact Hb
    iexact Hheld
  iintro %_ ⟨Hst, Hb, Hheld⟩
  -- the SparseCore call: the two read-only arrays as shares, the output as stretches
  ihave H := (Entails.of_eq (held_take (F := F) d (Vout (V1 m d)))) $$ Hheld
  rw [Vout_i, Vout_t, Vout_o]
  icases H with ⟨Hi, Ht, Ho, Hrest⟩
  ihave Hi' := (shares_split (F := F) (iLoc d) (Aof m d)) $$ Hi
  icases Hi' with ⟨Hir, Hi⟩
  ihave Ht' := (shares_split (F := F) (tLoc d) (Tof m d)) $$ Ht
  icases Ht' with ⟨Htr, Ht⟩
  ihave Ho' := (Entails.of_eq (out_split (F := F) d (Oof m d))) $$ Ho
  iapply ((K (F := F)).wp_run (D (F := F)) 𝒱 (EH := EH) (P := PP m) κ d 0) $$ [Hst Hi Ht Ho' Hir Htr Hrest Hb]
  isplitr; · iexact Hctx
  isplitl [Hst]; · iexact Hst
  isplitl [Hi Ht Ho']
  · rw [st0_eq, tiles_eq]
    isplitl [Hi]; · iexact Hi
    isplitl [Ht]; · iexact Ht
    iexact Ho'
  iintro ⟨Hst, Hdn⟩
  ihave Hdn' := (Entails.of_eq ((dn0_eq m d).trans (tiles_eq m d (Gof m d)))) $$ Hdn
  icases Hdn' with ⟨Hi, Ht, Ho⟩
  ihave Hi' := (shares_join (F := F) (iLoc d) (Aof m d)) $$ [Hir Hi]
  · isplitl [Hir]; · iexact Hir
    iexact Hi
  ihave Ht' := (shares_join (F := F) (tLoc d) (Tof m d)) $$ [Htr Ht]
  · isplitl [Htr]; · iexact Htr
    iexact Ht
  ihave Ho' := (Entails.of_eq (out_split (F := F) d (Gof m d)).symm) $$ Ho
  ihave Hheld := (Entails.of_eq (held_take (F := F) d (V2 m d)).symm) $$ [Hi' Ht' Ho' Hrest]
  · rw [V2_i, V2_t, V2_o, held_rest_congr d (V2 m d) (Vout (V1 m d)) (V2_rest m d)]
    isplitl [Hi']; · iexact Hi'
    isplitl [Ht']; · iexact Ht'
    isplitl [Ho']; · iexact Ho'
    iexact Hrest
  -- the final reshape
  hostop
  imodintro
  isplitl [Hst]; · iexact Hst
  ihave H := (held_fin (F := F) d (V3 m d)) $$ Hheld
  unfold FIN
  rw [V3_out m d, V3_arg m d main_arg0 (by decide) (after_arg0 _), V3_arg m d main_arg1 (by decide) (after_arg1 _), V3_arg m d main_arg2 (by decide) (after_arg2 _),
    V3_arg m d main_arg3 (by decide) (after_arg3 _), V3_arg m d main_arg4 (by decide) (after_arg4 _), V3_arg m d main_arg5 (by decide) (after_arg5 _)]
  iexact H

end Cert.Proof.KI

end
-- ==== Proof.LaunchKI.lean ====
/-
  The kernel program's run: every weakly fair execution of the device's thirty-five threads terminates, nothing
  faulting, with the result array at its value — the reshape of the bag sums over the folded table — and the six
  arguments unchanged.  The launch element funds the launch handshakes and the TensorCore pipeline's staging cells;
  the tiles' obligations come from the body's run at a symbolic tile.
-/
import proofs.«205085_g3753801417095_cont_8to1_b_1540_27_alg».proof.Proof.MainKI

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (m : (ℓ : Loc nD τ sig) → Buf (Elt F) ℓ) (ρ : Dev nD → PrngReg)

/-- The launch element: the handshakes' rounds, the pipeline's staging cells' rounds, no counter. -/
def u₀ : UU := (initOf (K (F := F)).hsCells (K (F := F)).hsToks, (initOf (Pipeline.cells cfgs cellOf_inj) (Pipeline.launchToks cfgs cellOf_inj), 1))

omit [FloatOps F] [Named F] in
theorem bigSep_emp' {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (F := F) (initOf (K (F := F)).hsCells (K (F := F)).hsToks)) ∗ (bigSep Finset.univ fun d : Dev nD => foldGhost (F := F) d)
        ∗ bigSep Finset.univ fun thr : Thread nD τ => bigSep Finset.univ fun q : Fin 1 => (PP m).x q thr) := by
  unfold u₀
  iintro Hu
  ihave H := (ownU_split (F := F) _ _ _) $$ Hu
  icases H with ⟨HH, HK⟩
  imod (fund_fold (F := F)) $$ HK with HG
  imodintro
  isplitl [HH]; · iexact HH
  isplitl [HG]; · iexact HG
  unfold PP P; dsimp only
  rw [show (bigSep Finset.univ fun _ : Thread nD τ => bigSep Finset.univ fun _ : Fin 1 => (iprop(emp) : sProp (MM F))) = iprop(emp) from by
    rw [bigSep_congr fun _ _ => bigSep_emp' _, bigSep_emp']]
  iempintro

/-- The index words stay table row numbers through the transposition. -/
theorem Aof_range (h : ∀ (d : Dev nD) j, (m (aLoc d main_arg0) j).toNat < 10000) : ∀ d i, (Aof m d i).toNat < 10000 := by
  intro d i
  unfold Aof hIdxT transpose
  exact h d _

/-- What the claim reads of the final memory. -/
def QC : PUnit × MemSt nD τ sig (Elt F) → Prop := fun r => ∀ c : Dev nD,
  r.2.mem (aLoc c main_v10) = Rof m c ∧ r.2.mem (aLoc c main_arg0) = m (aLoc c main_arg0) ∧ r.2.mem (aLoc c main_arg1) = m (aLoc c main_arg1)
    ∧ r.2.mem (aLoc c main_arg2) = m (aLoc c main_arg2) ∧ r.2.mem (aLoc c main_arg3) = m (aLoc c main_arg3)
    ∧ r.2.mem (aLoc c main_arg4) = m (aLoc c main_arg4) ∧ r.2.mem (aLoc c main_arg5) = m (aLoc c main_arg5)

theorem run_main [∀ e, Nonempty (Elt F e)] (hbody : TileBody (F := F)) (h : ∀ (d : Dev nD) j, (m (aLoc d main_arg0) j).toNat < 10000) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl tileShare (Aof m) (Tof m) (Oof m) hbody (Aof_range m h))
    (fun q _ => match q with | 0 => SparseCore.Cfg.VecSplit.of_plain (vecSplit tileShare (Aof m) (Tof m) (Oof m) (Gof m)))
    m ρ main (fun d => foldGhost (F := F) d) (FIN m (Rof m)) (u₀ (F := F)) (sep_elim_left.trans (hu₀ m)) (hmain m ρ) (fq m (Rof m)) (hfin m (Rof m)) (QC m) (fun _ h => h)

end Cert.Proof.KI

end
-- ==== Proof.CommonKB.lean ====
/-
  Shared vocabulary of the idealized kernel's run: the program as the launch theorem for SparseCore meshes sees it
  (its SparseCore call table, its label table with the one TensorCore pipeline), and the ghost state every module
  of the run is stated over: the launch handshakes' rounds, the TensorCore pipeline's staging cells' rounds, and the
  counters of local transfers.
-/
import proofs.«205085_g3753801417095_cont_8to1_b_1540_27_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205085_g3753801417095_cont_8to1_b_1540_27_alg».proof.Proof.Gen.Kernel
import proofs.«205085_g3753801417095_cont_8to1_b_1540_27_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The label table under the SparseCore calls: the kernels and the one TensorCore pipeline. -/
abbrev ΛP : Labels := Pipeline.Sig Λ₀ (Fin 1) fun p => (pcfgs (F := F) p).Adm
/-- The SparseCore call table. -/
abbrev K : SparseCore.Cfg τ sig (ΛP (F := F)) 1 := sc (F := F)
/-- The body table under the SparseCore calls. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds. -/
abbrev UH : Type := URounds (GSem nD τ sig) ℕ
/-- The pipeline's staging cells' rounds. -/
abbrev UK : Type := URounds (GSem nD τ sig) Unit
/-- The whole user algebra: handshakes, pipeline cells, local transfers' counters. -/
abbrev UU : Type := UH × (UK × Counters)

/-- The machine's algebra every assertion of the run lives in. -/
abbrev MM (F : FTy → Type) : Type := MT nD τ sig (HIx 1) (Elt F) ℕ UU ℕ

end Cert.Proof.KB

end
-- ==== Proof.TileDefsKB.lean ====
/-
  Names shared by the tile's body proof and the launch: a tile's thread, the three HBM arrays the summing kernel
  touches (the transposed index array, the folded table, the output) and the 512 output entries a tile writes.
-/
import proofs.«205085_g3753801417095_cont_8to1_b_1540_27_alg».proof.Proof.CommonKB

noncomputable section

namespace Cert.Proof.KB

open Cert.Kernel Cert.Kernel.Gen
open Idealize.ShloMosaic
open Idealize.ShloMosaic.SparseCore (S V T)

/-- The SparseCore and the vector subcore a grid point of the summing kernel names. -/
abbrev cV (L : grid1.Coords) : Fin τ.nSC := (L 0).castLE hcore1
abbrev jV (L : grid1.Coords) : Fin τ.nSub := (L 1).castLE hsub1

/-- A grid point from its two coordinates. -/
def coordsV (c : Fin (grid1.bound 0)) (s : Fin (grid1.bound 1)) : grid1.Coords :=
  fun | 0 => c | 1 => s | ⟨_ + 2, h⟩ => absurd h (Nat.not_lt.2 (Nat.le_add_left _ _))

/-- The transposed index array i32[200,16384], the folded table f32[10000], the output f32[16384]. -/
abbrev iLoc (d : Dev nD) : Loc nD τ sig := (SparseCore.T d).loc main_v0
abbrev tLoc (d : Dev nD) : Loc nD τ sig := (SparseCore.T d).loc main_v8
abbrev oLoc (d : Dev nD) : Loc nD τ sig := (SparseCore.T d).loc main_v9

/-- The output as the kernel addresses it, and the 512-entry stretch tile `L` copies its sums to. -/
abbrev oV : Memref sig .scVector .hbm S16384 .f32 := Memref.whole main_v9_scv
abbrev oSl (L : grid1.Coords) : Memref sig .scVector .hbm S512 .f32 :=
  (oV).slice (Rect.unit (s := S16384) (k1_off515 L) S512.size (k1_off515_inb L)) (fun _ => rfl)
abbrev oSet (L : grid1.Coords) : Finset S16384.Idx := (oSl L).view.set

end Cert.Proof.KB

end
-- ==== Proof.PayKB.lean ====
/-
  What the launch handshakes of the summing kernel carry.  The TensorCore hands each SparseCore, and a SparseCore
  each of its sixteen tiles, a read share of the transposed index array and of the folded table (both at contents
  fixed before the call) and the tile's own 512 output entries; a tile hands back the shares untouched and its
  output entries at the bag sums.
-/
import proofs.«205085_g3753801417095_cont_8to1_b_1540_27_alg».proof.Proof.TileDefsKB
import proofs.«205085_g3753801417095_cont_8to1_b_1540_27_alg».proof.Proof.TileSpec

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem nCore_zero : (K (F := F)).nCore 0 = grid1.bound 0 := rfl
theorem nSub_zero : (K (F := F)).nSub 0 = grid1.bound 1 := rfl

section Pay

variable (sh : Fin (grid1.bound 0) → Fin (grid1.bound 1) → PosShare TreeShare)
  (A : (d : Dev nD) → Buf (Elt F) (iLoc d)) (Tt : (d : Dev nD) → Buf (Elt F) (tLoc d))
  (fo fo' : (d : Dev nD) → Buf (Elt F) (oLoc d))

/-- One tile's holdings: its two read shares and its output entries at `g`. -/
def tileRes (d : Dev nD) (c : Fin (grid1.bound 0)) (s : Fin (grid1.bound 1)) (g : Buf (Elt F) (oLoc d)) : sProp (MM F) :=
  iprop((iLoc d ↦{sh c s} A d) ∗ (tLoc d ↦{sh c s} Tt d) ∗ (oLoc d ↦[oSet (coordsV c s)]{fullShare} g))

instance tileRes_storable (d : Dev nD) (c : Fin (grid1.bound 0)) (s : Fin (grid1.bound 1)) (g : Buf (Elt F) (oLoc d)) :
    BI.Storable (upEmb : UEmb _ (MM F)) (tileRes sh A Tt d c s g) := by
  unfold tileRes; infer_instance

/-- The one SparseCore call: out at `fo`, back at `fo'`. -/
def P : (K (F := F)).Pay (nD := nD) (Val := Elt F) (Name := ℕ) (U := UU) where
  st := fun q d c => match q with
    | 0 => bigSep Finset.univ fun s : Fin (grid1.bound 1) => tileRes sh A Tt d (Fin.cast nCore_zero c) s (fo d)
  dn := fun q d c => match q with
    | 0 => bigSep Finset.univ fun s : Fin (grid1.bound 1) => tileRes sh A Tt d (Fin.cast nCore_zero c) s (fo' d)
  go := fun q d c i => match q with
    | 0 => tileRes sh A Tt d (Fin.cast nCore_zero c) (Fin.cast nSub_zero i) (fo d)
  td := fun q d c i => match q with
    | 0 => tileRes sh A Tt d (Fin.cast nCore_zero c) (Fin.cast nSub_zero i) (fo' d)
  x := fun _ _ => iprop(emp)

instance P_storable : (P (F := F) sh A Tt fo fo').IsStorable where
  st q d c := match q with
    | 0 => (inferInstance : BI.Storable (upEmb : UEmb _ (MM F))
        (bigSep Finset.univ fun s : Fin (grid1.bound 1) => tileRes sh A Tt d (Fin.cast nCore_zero c) s (fo d)))
  dn q d c := match q with
    | 0 => (inferInstance : BI.Storable (upEmb : UEmb _ (MM F))
        (bigSep Finset.univ fun s : Fin (grid1.bound 1) => tileRes sh A Tt d (Fin.cast nCore_zero c) s (fo' d)))
  go q d c i := match q with
    | 0 => (inferInstance : BI.Storable (upEmb : UEmb _ (MM F)) (tileRes sh A Tt d (Fin.cast nCore_zero c) (Fin.cast nSub_zero i) (fo d)))
  td q d c i := match q with
    | 0 => (inferInstance : BI.Storable (upEmb : UEmb _ (MM F)) (tileRes sh A Tt d (Fin.cast nCore_zero c) (Fin.cast nSub_zero i) (fo' d)))

theorem bigSep_tasks (Φ : Fin (grid1.bound 1) → sProp (MM F)) :
    (bigSep Finset.univ fun i : Fin ((K (F := F)).nSub 0) => Φ (Fin.cast nSub_zero i)) = bigSep Finset.univ Φ :=
  bigSep_congr fun _ _ => congrArg Φ (Fin.ext rfl)

/-- A SparseCore's holdings are its tiles', one by one, both ways. -/
theorem vecSplit : (K (F := F)).VecSplit' (P sh A Tt fo fo') 0 := by
  intro d c
  show (bigSep Finset.univ fun s : Fin (grid1.bound 1) => tileRes sh A Tt d (Fin.cast nCore_zero c) s (fo d)) ⊢ |={Set.univ}=> iprop(
      (bigSep Finset.univ fun i : Fin ((K (F := F)).nSub 0) => tileRes sh A Tt d (Fin.cast nCore_zero c) (Fin.cast nSub_zero i) (fo d))
      ∗ ((bigSep Finset.univ fun i : Fin ((K (F := F)).nSub 0) => tileRes sh A Tt d (Fin.cast nCore_zero c) (Fin.cast nSub_zero i) (fo' d))
          -∗ bigSep Finset.univ fun s : Fin (grid1.bound 1) => tileRes sh A Tt d (Fin.cast nCore_zero c) s (fo' d)))
  rw [bigSep_tasks (F := F) (fun s => tileRes sh A Tt d (Fin.cast nCore_zero c) s (fo d)),
    bigSep_tasks (F := F) (fun s => tileRes sh A Tt d (Fin.cast nCore_zero c) s (fo' d))]
  iintro H; imodintro
  isplitl [H]; · iexact H
  iintro H; iexact H

end Pay

end Cert.Proof.KB

end
-- ==== Proof.OblKB.lean ====
/-
  The launch theorem's obligation for the summing kernel's tiles, from the body's run at a symbolic tile.
-/
import proofs.«205085_g3753801417095_cont_8to1_b_1540_27_alg».proof.Proof.PayKB

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem defs₀_vector (c : Fin τ.nSC) (s : Fin τ.nSub) :
    defs₀ (F := F) (.scVector c s) 1 ()
      = SparseCore.onTile hcore1 hsub1 (fun c s => cc1__sc_sum (fun | 0 => c | 1 => s | ⟨_ + 2, h⟩ => absurd h (Nat.not_lt.2 (Nat.le_add_left _ _)))
          (Memref.whole main_v0_scv) (Memref.isWhole_whole _) (Memref.whole main_v8_scv) (Memref.isWhole_whole _) (Memref.whole main_v9_scv) (Memref.isWhole_whole _)
          (Memref.whole cc1_scratch0) (Memref.isWhole_whole _) (Memref.whole cc1_scratch1) (Memref.isWhole_whole _) (Memref.whole cc1_scratch2) (Memref.isWhole_whole _)
          (Memref.whole cc1_scratch3) (Memref.isWhole_whole _) cc1_scratch4 cc1_scratch5 cc1_scoped0 cc1_scoped1) ⟨⟩ c s := rfl

omit [FloatOps F] in
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

section Obl

variable (sh : Fin (grid1.bound 0) → Fin (grid1.bound 1) → PosShare TreeShare)
  (A : (d : Dev nD) → Buf (Elt F) (iLoc d)) (Tt : (d : Dev nD) → Buf (Elt F) (tLoc d))
  (fo : (d : Dev nD) → Buf (Elt F) (oLoc d))

/-- The body's run at a symbolic tile, in the shape the body module proves it. -/
def TileBody : Prop :=
  ∀ (d : Dev nD) (L : grid1.Coords) (qi qt : PosShare TreeShare) (A : Buf (Elt F) (iLoc d)) (Tt : Buf (Elt F) (tLoc d)) (fo : Buf (Elt F) (oLoc d)),
    (∀ i, (A i).toNat < 10000) → ∀ (O : CellTallies nD τ sig (HIx 1)) (W : Waits sig (HIx 1)), (∀ g, O g none = 0) →
    iprop(levAts (K (F := F)).L (K (F := F)).lev ∗ (iLoc d ↦{qi} A) ∗ (tLoc d ↦{qt} Tt) ∗ (oLoc d ↦[oSet L]{fullShare} fo)
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc1__sc_sum L (Memref.whole main_v0_scv) (Memref.isWhole_whole _) (Memref.whole main_v8_scv) (Memref.isWhole_whole _) (Memref.whole main_v9_scv) (Memref.isWhole_whole _)
            (Memref.whole cc1_scratch0) (Memref.isWhole_whole _) (Memref.whole cc1_scratch1) (Memref.isWhole_whole _) (Memref.whole cc1_scratch2) (Memref.isWhole_whole _) (Memref.whole cc1_scratch3) (Memref.isWhole_whole _)
            cc1_scratch4 cc1_scratch5 cc1_scoped0 cc1_scoped1)
          fun _ => iprop((iLoc d ↦{qi} A) ∗ (tLoc d ↦{qt} Tt) ∗ (oLoc d ↦[oSet L]{fullShare} (Cert.TileSpec.out (F := F) A Tt))
            ∗ scopedBufs (V d (cV L) (jV L)) ∗ scopedSems0 (V d (cV L) (jV L)) ∗ ∃ W', ⌜∀ p ∈ W', p ∈ W ∨ p.2 = none⌝ ∗ owes (V d (cV L) (jV L)) O W') : sProp (MM F))

theorem tileObl (hbody : TileBody (F := F)) (hin : ∀ d i, (A d i).toNat < 10000) :
    (K (F := F)).TileObl (D (F := F)) 𝒱 (P sh A Tt fo (fun d => Cert.TileSpec.out (F := F) (A d) (Tt d))) v₀ 0 := by
  intro d c i O W hO _ _
  simp only [show (P sh A Tt fo (fun d => Cert.TileSpec.out (F := F) (A d) (Tt d))).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  have h := hbody d (coordsV ⟨_, hc.1⟩ ⟨_, hc.2⟩) (sh ⟨_, hc.1⟩ ⟨_, hc.2⟩) (sh ⟨_, hc.1⟩ ⟨_, hc.2⟩) (A d) (Tt d) (fo d) (hin d) O W hO
  refine BI.Entails.trans ?_ (h.trans (wp_mono frame _ _ fun _ => ?_))
  · show iprop(_ ∗ emp ∗ tileRes sh A Tt d _ _ (fo d) ∗ _) ⊢ _
    unfold tileRes
    iintro ⟨Hlv, -, ⟨Hi, Ht, Ho⟩, Hsb, Hss, HO⟩
    isplitl [Hlv]; · iexact Hlv
    isplitl [Hi]; · iexact Hi
    isplitl [Ht]; · iexact Ht
    isplitl [Ho]; · iexact Ho
    isplitl [Hsb]; · iexact Hsb
    isplitl [Hss]; · iexact Hss
    iexact HO
  · show _ ⊢ iprop(tileRes sh A Tt d _ _ _ ∗ _)
    unfold tileRes
    iintro ⟨Hi, Ht, Ho, Hsb, Hss, %W', %hW', HO⟩
    isplitl [Hi Ht Ho]
    · isplitl [Hi]; · iexact Hi
      isplitl [Ht]; · iexact Ht
      iexact Ho
    isplitl [Hsb]; · iexact Hsb
    isplitl [Hss]; · iexact Hss
    iexists W'; isplitr
    · ipureintro; exact fun p hp => (hW' p hp).imp_right Or.inl
    · iexact HO

end Obl

end Cert.Proof.KB

end
-- ==== Proof.FinKB.lean ====
/-
  What @main leaves for the claim, read off the final memory: the result array at its value and the six argument
  arrays at their launch contents.
-/
import proofs.«205085_g3753801417095_cont_8to1_b_1540_27_alg».proof.Proof.CommonKB

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section Fin

variable (m : (ℓ : Loc nD τ sig) → Buf (Elt F) ℓ) (res : (d : Dev nD) → Buf (Elt F) ((SparseCore.T d).loc main_v10))

abbrev aLoc (d : Dev nD) (b : Ref sig .tc) : Loc nD τ sig := (SparseCore.T d).loc b

/-- The result and the arguments, whole. -/
def FIN (d : Dev nD) : sProp (MM F) :=
  iprop((aLoc d main_v10 ↦{fullShare} res d) ∗ (aLoc d main_arg0 ↦{fullShare} m (aLoc d main_arg0)) ∗ (aLoc d main_arg1 ↦{fullShare} m (aLoc d main_arg1))
    ∗ (aLoc d main_arg2 ↦{fullShare} m (aLoc d main_arg2)) ∗ (aLoc d main_arg3 ↦{fullShare} m (aLoc d main_arg3))
    ∗ (aLoc d main_arg4 ↦{fullShare} m (aLoc d main_arg4)) ∗ (aLoc d main_arg5 ↦{fullShare} m (aLoc d main_arg5)))

def fq (d : Dev nD) (s' : Phys nD τ sig (Elt F)) : Prop :=
  s'.mem.mem (aLoc d main_v10) = res d ∧ s'.mem.mem (aLoc d main_arg0) = m (aLoc d main_arg0) ∧ s'.mem.mem (aLoc d main_arg1) = m (aLoc d main_arg1)
    ∧ s'.mem.mem (aLoc d main_arg2) = m (aLoc d main_arg2) ∧ s'.mem.mem (aLoc d main_arg3) = m (aLoc d main_arg3)
    ∧ s'.mem.mem (aLoc d main_arg4) = m (aLoc d main_arg4) ∧ s'.mem.mem (aLoc d main_arg5) = m (aLoc d main_arg5)

omit [FloatOps F] in
theorem hfin (d : Dev nD) (s' : Phys nD τ sig (Elt F)) : iprop(FIN m res d ∗ SI s') ⊢ (⌜fq m res d s'⌝ : sProp (MM F)) := by
  unfold FIN
  iintro ⟨⟨H10, H0, H1, H2, H3, H4, H5⟩, HSI⟩
  icombine HSI H10 gives %h10
  icombine HSI H0 gives %h0
  icombine HSI H1 gives %h1
  icombine HSI H2 gives %h2
  icombine HSI H3 gives %h3
  icombine HSI H4 gives %h4
  icombine HSI H5 gives %h5
  ipureintro
  exact ⟨funext fun i => h10 i (Finset.mem_univ i), funext fun i => h0 i (Finset.mem_univ i), funext fun i => h1 i (Finset.mem_univ i),
    funext fun i => h2 i (Finset.mem_univ i), funext fun i => h3 i (Finset.mem_univ i), funext fun i => h4 i (Finset.mem_univ i),
    funext fun i => h5 i (Finset.mem_univ i)⟩

end Fin

end Cert.Proof.KB

end
-- ==== Proof.HostKB.lean ====
/-
  The host operations around the two kernels, as pure functions of the arguments. Before the first kernel the host
  transposes the index array and the table, pads the one row of the second layer's weights to eight rows (a zero
  [8, 64] array with row 0 overwritten), and gives the two biases a leading unit axis; after the second kernel it
  gives the result a trailing unit axis. `foldArr` is the first kernel's stored value at those operands. The ten
  operations before the first kernel, run in order from any contents, leave each of these values in its buffer and
  the arguments and the later results' buffers as they were.
-/
import proofs.«205085_g3753801417095_cont_8to1_b_1540_27_alg».proof.Proof.Gen.Kernel
import proofs.«205085_g3753801417095_cont_8to1_b_1540_27_alg».proof.Proof.Gen.Kernel.Skeleton
import Idealize.ShloMosaic.Lib.StableHlo.Run

noncomputable section

namespace Cert.Proof.KB

open Cert.Kernel Cert.Kernel.Gen
open Idealize.ShloMosaic Idealize.ShloMosaic.TcCoe Idealize.SL.Sem Idealize.ShloMosaic.StableHlo

variable {F : FTy → Type} [FloatOps F]

/-- The index array transposed: [16384, 200] to [200, 16384]. -/
def hIdxT (a0 : (⟨S16384x200, .i32⟩ : BufTy).Contents (Elt F)) : (⟨S200x16384, .i32⟩ : BufTy).Contents (Elt F) :=
  transpose S200x16384 [1, 0] a0 transposes_S16384x200_S200x16384_1_0

/-- The second layer's weight row padded to eight rows: a zero [8, 64] array whose row 0 is the row. -/
def hW2p (a4 : (⟨S1x64, .f32⟩ : BufTy).Contents (Elt F)) : (⟨S8x64, .f32⟩ : BufTy).Contents (Elt F) :=
  Host.scatter scatter_S8x64_S1_S64_0_0_0_0 (fun _ b => b)
    ((broadcastInDim S8x64 ![] bcast_S_S8x64 : (⟨S_, .f32⟩ : BufTy).Contents (Elt F) → (⟨S8x64, .f32⟩ : BufTy).Contents (Elt F))
      (constant S_ .f32 0x00000000#32))
    ((broadcastInDim S1 ![] bcast_S_S1 : (⟨S_, .i32⟩ : BufTy).Contents (Elt F) → (⟨S1, .i32⟩ : BufTy).Contents (Elt F))
      (constantI S_ 32 0#32))
    (shapeCast S64 a4 shapeCasts_S1x64_S64)

/-- The table transposed: [10000, 64] to [64, 10000]. -/
def hTabT (a1 : (⟨S10000x64, .f32⟩ : BufTy).Contents (Elt F)) : (⟨S64x10000, .f32⟩ : BufTy).Contents (Elt F) :=
  transpose S64x10000 [1, 0] a1 transposes_S10000x64_S64x10000_1_0

/-- The first layer's bias with a leading unit axis: [64] to [1, 64]. -/
def hB1 (a3 : (⟨S64, .f32⟩ : BufTy).Contents (Elt F)) : (⟨S1x64, .f32⟩ : BufTy).Contents (Elt F) :=
  shapeCast S1x64 a3 shapeCasts_S64_S1x64

/-- The second layer's bias with a leading unit axis: [1] to [1, 1]. -/
def hB2 (a5 : (⟨S1, .f32⟩ : BufTy).Contents (Elt F)) : (⟨S1x1, .f32⟩ : BufTy).Contents (Elt F) :=
  shapeCast S1x1 a5 shapeCasts_S1_S1x1

/-- The first kernel's stored value, one scalar per table row, at the host-prepared operands. -/
def foldArr (a1 : (⟨S10000x64, .f32⟩ : BufTy).Contents (Elt F)) (a2 : (⟨S64x64, .f32⟩ : BufTy).Contents (Elt F))
    (a3 : (⟨S64, .f32⟩ : BufTy).Contents (Elt F)) (a4 : (⟨S1x64, .f32⟩ : BufTy).Contents (Elt F))
    (a5 : (⟨S1, .f32⟩ : BufTy).Contents (Elt F)) : (⟨S10000, .f32⟩ : BufTy).Contents (Elt F) :=
  Gen.k0_pay1 (hW2p a4) a2 (hB1 a3) (hB2 a5) (hTabT a1)

/-- The result with a trailing unit axis: [16384] to [16384, 1]. -/
def hOut (o : (⟨S16384, .f32⟩ : BufTy).Contents (Elt F)) : (⟨S16384x1, .f32⟩ : BufTy).Contents (Elt F) :=
  shapeCast S16384x1 o shapeCasts_S16384_S16384x1

/-- The ten host operations before the first kernel, in order. -/
abbrev hostOps0 : List (HloOp τ sig (Elt F)) :=
  [ StableHlo.unary main_arg0 main_v0 ((transpose S200x16384 [1, 0] · transposes_S16384x200_S200x16384_1_0) : (⟨S16384x200, .i32⟩ : BufTy).Contents (Elt F) → (⟨S200x16384, .i32⟩ : BufTy).Contents (Elt F)),
    StableHlo.nullary main_cst (constant S_ .f32 0x00000000#32),
    StableHlo.unary main_cst main_v1 (broadcastInDim S8x64 ![] bcast_S_S8x64 : (⟨S_, .f32⟩ : BufTy).Contents (Elt F) → (⟨S8x64, .f32⟩ : BufTy).Contents (Elt F)),
    StableHlo.reshape main_arg4 main_v2 rfl shapeCasts_S1x64_S64,
    StableHlo.nullary main_c (constantI S_ 32 0#32),
    StableHlo.unary main_c main_v3 (broadcastInDim S1 ![] bcast_S_S1 : (⟨S_, .i32⟩ : BufTy).Contents (Elt F) → (⟨S1, .i32⟩ : BufTy).Contents (Elt F)),
    StableHlo.ternary main_v1 main_v3 main_v2 main_v4 ((fun x i u => Host.scatter scatter_S8x64_S1_S64_0_0_0_0 (fun _ b => b) x i u) : (⟨S8x64, .f32⟩ : BufTy).Contents (Elt F) → (⟨S1, .i32⟩ : BufTy).Contents (Elt F) → (⟨S64, .f32⟩ : BufTy).Contents (Elt F) → (⟨S8x64, .f32⟩ : BufTy).Contents (Elt F)),
    StableHlo.unary main_arg1 main_v5 ((transpose S64x10000 [1, 0] · transposes_S10000x64_S64x10000_1_0) : (⟨S10000x64, .f32⟩ : BufTy).Contents (Elt F) → (⟨S64x10000, .f32⟩ : BufTy).Contents (Elt F)),
    StableHlo.reshape main_arg3 main_v6 rfl shapeCasts_S64_S1x64,
    StableHlo.reshape main_arg5 main_v7 rfl shapeCasts_S1_S1x1 ]

variable (V : Valuation τ sig (Elt F))

theorem after_v0 : after (hostOps0 (F := F)) V (Proc.devRef .tc main_v0) = hIdxT (V (Proc.devRef .tc main_arg0)) := by
  after_results; rfl
theorem after_v4 : after (hostOps0 (F := F)) V (Proc.devRef .tc main_v4) = hW2p (V (Proc.devRef .tc main_arg4)) := by
  after_results; rfl
theorem after_v5 : after (hostOps0 (F := F)) V (Proc.devRef .tc main_v5) = hTabT (V (Proc.devRef .tc main_arg1)) := by
  after_results; rfl
theorem after_v6 : after (hostOps0 (F := F)) V (Proc.devRef .tc main_v6) = hB1 (V (Proc.devRef .tc main_arg3)) := by
  after_results; rfl
theorem after_v7 : after (hostOps0 (F := F)) V (Proc.devRef .tc main_v7) = hB2 (V (Proc.devRef .tc main_arg5)) := by
  after_results; rfl
theorem after_arg0 : after (hostOps0 (F := F)) V (Proc.devRef .tc main_arg0) = V (Proc.devRef .tc main_arg0) := by after_results
theorem after_arg1 : after (hostOps0 (F := F)) V (Proc.devRef .tc main_arg1) = V (Proc.devRef .tc main_arg1) := by after_results
theorem after_arg2 : after (hostOps0 (F := F)) V (Proc.devRef .tc main_arg2) = V (Proc.devRef .tc main_arg2) := by after_results
theorem after_arg3 : after (hostOps0 (F := F)) V (Proc.devRef .tc main_arg3) = V (Proc.devRef .tc main_arg3) := by after_results
theorem after_arg4 : after (hostOps0 (F := F)) V (Proc.devRef .tc main_arg4) = V (Proc.devRef .tc main_arg4) := by after_results
theorem after_arg5 : after (hostOps0 (F := F)) V (Proc.devRef .tc main_arg5) = V (Proc.devRef .tc main_arg5) := by after_results
theorem after_v8 : after (hostOps0 (F := F)) V (Proc.devRef .tc main_v8) = V (Proc.devRef .tc main_v8) := by after_results
theorem after_v9 : after (hostOps0 (F := F)) V (Proc.devRef .tc main_v9) = V (Proc.devRef .tc main_v9) := by after_results
theorem after_v10 : after (hostOps0 (F := F)) V (Proc.devRef .tc main_v10) = V (Proc.devRef .tc main_v10) := by after_results

end Cert.Proof.KB

end
-- ==== Proof.SplitKB.lean ====
/-
  How the launch hands the three arrays to the 32 tiles.  Tile (c, s) writes the 512 output entries from
  1024·s + 512·c on; these 32 stretches are pairwise disjoint and together are the whole output array, so the
  output's points-to splits into one points-to per tile.  The index array and the folded table are only read, by
  every tile: each is handed out as 32 read shares (two per SparseCore level, sixteen per subcore level below it),
  what is left over at the two levels being kept aside so that the whole can be put back together afterwards.
-/
import proofs.«205085_g3753801417095_cont_8to1_b_1540_27_alg».proof.Proof.TileDefsKB

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ### The 32 output stretches partition the output array -/

@[simp] theorem coordsV_zero (c : Fin (grid1.bound 0)) (s : Fin (grid1.bound 1)) : coordsV c s 0 = c := rfl
@[simp] theorem coordsV_one (c : Fin (grid1.bound 0)) (s : Fin (grid1.bound 1)) : coordsV c s 1 = s := rfl

/-- Entry i lies in tile L's stretch iff it is one of the 512 entries from 1024·s + 512·c on. -/
theorem mem_oSet (L : grid1.Coords) (i : S16384.Idx) :
    i ∈ oSet L ↔ 1024 * (L 1).val + 512 * (L 0).val ≤ (i 0).val
      ∧ (i 0).val < 1024 * (L 1).val + 512 * (L 0).val + 512 := by
  show i ∈ ((View.whole main_v9_scv).slice (Rect.unit (s := S16384) (k1_off515 L) S512.size (k1_off515_inb L))).set ↔ _
  rw [View.set_slice_whole, Rect.mem_set_unit, Gen.k1_off515_eq]
  exact Fin.forall_fin_one

theorem oSets_disjoint : ∀ p ∈ (Finset.univ : Finset (Fin (grid1.bound 0) × Fin (grid1.bound 1))),
    ∀ p' ∈ Finset.univ, p ≠ p' → Disjoint (oSet (coordsV p.1 p.2)) (oSet (coordsV p'.1 p'.2)) := by
  intro p _ p' _ hne
  rw [Finset.disjoint_left]
  intro i hi hi'
  rw [mem_oSet, coordsV_zero, coordsV_one] at hi hi'
  have h1 : p.1.val < 2 := p.1.isLt
  have h2 : p'.1.val < 2 := p'.1.isLt
  apply hne
  refine Prod.ext (Fin.ext ?_) (Fin.ext ?_) <;> omega

theorem oSets_cover : (Finset.univ : Finset (Fin (grid1.bound 0) × Fin (grid1.bound 1))).biUnion
    (fun p => oSet (coordsV p.1 p.2)) = Finset.univ := by
  ext i
  simp only [Finset.mem_biUnion, Finset.mem_univ, true_and, iff_true]
  have hi : (i 0).val < 16384 := (i 0).isLt
  refine ⟨(⟨((i 0).val / 512) % 2, Nat.mod_lt _ (by norm_num)⟩,
    ⟨(i 0).val / 1024, by show (i 0).val / 1024 < 16; omega⟩), ?_⟩
  rw [mem_oSet, coordsV_zero, coordsV_one]
  show 1024 * ((i 0).val / 1024) + 512 * (((i 0).val / 512) % 2) ≤ (i 0).val
    ∧ (i 0).val < 1024 * ((i 0).val / 1024) + 512 * (((i 0).val / 512) % 2) + 512
  omega

theorem out_split (d : Dev nD) (f : Buf (Elt F) (oLoc d)) :
    (oLoc d ↦{fullShare} f : sProp (MM F)) = bigSep Finset.univ fun c : Fin (grid1.bound 0) =>
      bigSep Finset.univ fun s : Fin (grid1.bound 1) => oLoc d ↦[oSet (coordsV c s)]{fullShare} f := by
  rw [← bigSep_univ_prod (fun p : Fin (grid1.bound 0) × Fin (grid1.bound 1) =>
      (oLoc d ↦[oSet (coordsV p.1 p.2)]{fullShare} f : sProp (MM F))),
    ← pointsTo_biUnion Finset.univ (ℓ := oLoc d) (fun p : Fin (grid1.bound 0) × Fin (grid1.bound 1) =>
      oSet (coordsV p.1 p.2)) oSets_disjoint, oSets_cover]; try rfl

/-! ### Read shares for the two read-only arrays -/

/-- Tile (c, s)'s read share: the s-th token of the c-th token of the whole. -/
abbrev tileShare (c : Fin (grid1.bound 0)) (s : Fin (grid1.bound 1)) : PosShare TreeShare :=
  Transfers.shareTok (Transfers.shareTok fullShare (grid1.bound 0) c) (grid1.bound 1) s

/-- What is left after the tokens are split off, at the two levels. -/
def restShares (ℓ : Loc nD τ sig) (f : Buf (Elt F) ℓ) : sProp (MM F) :=
  iprop((ℓ ↦{Transfers.shareDrop fullShare (grid1.bound 0)} f)
    ∗ bigSep Finset.univ fun c : Fin (grid1.bound 0) =>
        ℓ ↦{Transfers.shareDrop (Transfers.shareTok fullShare (grid1.bound 0) c) (grid1.bound 1)} f)

theorem shares_split (ℓ : Loc nD τ sig) (f : Buf (Elt F) ℓ) :
    (ℓ ↦{fullShare} f : sProp (MM F)) ⊢ iprop(restShares ℓ f
      ∗ bigSep Finset.univ fun c : Fin (grid1.bound 0) => bigSep Finset.univ fun s : Fin (grid1.bound 1) =>
          ℓ ↦{tileShare c s} f) := by
  refine (Transfers.pointsTo_toks_split fullShare (grid1.bound 0)).trans ?_
  refine (sep_mono_right (bigSep_mono fun c _ =>
    Transfers.pointsTo_toks_split (Transfers.shareTok fullShare (grid1.bound 0) c) (grid1.bound 1))).trans ?_
  rw [bigSep_sep']
  unfold restShares
  iintro ⟨Hd, Ha, Hb⟩
  isplitl [Hd Ha]
  · isplitl [Hd] <;> iassumption
  · iexact Hb

theorem shares_join (ℓ : Loc nD τ sig) (f : Buf (Elt F) ℓ) :
    iprop(restShares ℓ f
      ∗ bigSep Finset.univ fun c : Fin (grid1.bound 0) => bigSep Finset.univ fun s : Fin (grid1.bound 1) =>
          ℓ ↦{tileShare c s} f) ⊢ (ℓ ↦{fullShare} f : sProp (MM F)) := by
  -- regroup: per SparseCore, what is left of its token together with its sixteen subcore tokens
  have h1 : iprop(restShares ℓ f
      ∗ bigSep Finset.univ fun c : Fin (grid1.bound 0) => bigSep Finset.univ fun s : Fin (grid1.bound 1) =>
          ℓ ↦{tileShare c s} f)
      ⊢ (iprop((ℓ ↦{Transfers.shareDrop fullShare (grid1.bound 0)} f)
        ∗ bigSep Finset.univ fun c : Fin (grid1.bound 0) =>
            iprop((ℓ ↦{Transfers.shareDrop (Transfers.shareTok fullShare (grid1.bound 0) c) (grid1.bound 1)} f)
              ∗ bigSep Finset.univ fun s : Fin (grid1.bound 1) =>
                  ℓ ↦{Transfers.shareTok (Transfers.shareTok fullShare (grid1.bound 0) c) (grid1.bound 1) s} f)) :
          sProp (MM F)) := by
    rw [bigSep_sep']
    unfold restShares
    iintro ⟨⟨Hd, Ha⟩, Hb⟩
    isplitl [Hd]; · iexact Hd
    isplitl [Ha] <;> iassumption
  exact h1.trans ((sep_mono_right (bigSep_mono fun c _ =>
    Transfers.pointsTo_toks_join (Transfers.shareTok fullShare (grid1.bound 0) c) (grid1.bound 1))).trans
      (Transfers.pointsTo_toks_join fullShare (grid1.bound 0)))

end Cert.Proof.KB

end
-- ==== Proof.HeldKB.lean ====
/-
  The TensorCore's unscoped arrays are held together as one assertion over the set of all of them.  Here the three
  arrays the summing kernel touches (the transposed index array, the folded table, the output) are taken out of that
  set, the rest staying together; the rest reads the valuation only on itself; and at the end the result array and
  the six argument arrays are taken out, everything else being given up.
-/
import proofs.«205085_g3753801417095_cont_8to1_b_1540_27_alg».proof.Proof.TileDefsKB
import proofs.«205085_g3753801417095_cont_8to1_b_1540_27_alg».proof.Proof.FinKB
import Idealize.ShloMosaic.Lib.Pipeline.Frame
import Idealize.ShloMosaic.Lib.StableHlo.Run

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result)

variable {F : FTy → Type} [FloatOps F]

/-- The transposed index array, the folded table, the output, as device buffers. -/
abbrev i' : DevRef τ sig := Proc.devRef .tc (main_v0 : Ref sig .tc)
abbrev t' : DevRef τ sig := Proc.devRef .tc (main_v8 : Ref sig .tc)
abbrev o' : DevRef τ sig := Proc.devRef .tc (main_v9 : Ref sig .tc)

/-- All the other unscoped arrays. -/
abbrev rest3 : Finset (DevRef τ sig) := Pipeline.ucRefs τ sig \ {i', t', o'}

/-- A TensorCore array that is not scoped is one of the unscoped arrays. -/
theorem mem_ucRefs (b : Ref sig .tc) (h : (Proc.devRef (τ := τ) .tc b).isScoped = false) :
    Proc.devRef .tc b ∈ Pipeline.ucRefs τ sig :=
  Finset.mem_filter.mpr ⟨StableHlo.devRef_mem_tcRefs b, by rw [h]; exact Bool.false_ne_true⟩

theorem sub3 : ({i', t', o'} : Finset (DevRef τ sig)) ⊆ Pipeline.ucRefs τ sig := by
  intro b hb
  simp only [Finset.mem_insert, Finset.mem_singleton] at hb
  rcases hb with rfl | rfl | rfl <;> exact mem_ucRefs _ (by decide)

/-- The three arrays held together are the three points-to. -/
theorem held3 (d : Dev nD) (V : Valuation τ sig (Elt F)) :
    (held (SparseCore.T d) {i', t', o'} V : sProp (MM F))
      = iprop((iLoc d ↦{fullShare} V i') ∗ (tLoc d ↦{fullShare} V t') ∗ (oLoc d ↦{fullShare} V o')) := by
  unfold held
  rw [SparseCore.bigSep_insert' (by decide), SparseCore.bigSep_insert' (by decide), bigSep_singleton]

theorem held_take (d : Dev nD) (V : Valuation τ sig (Elt F)) :
    (held (SparseCore.T d) (Pipeline.ucRefs τ sig) V : sProp (MM F))
      = iprop((iLoc d ↦{fullShare} V i') ∗ (tLoc d ↦{fullShare} V t') ∗ (oLoc d ↦{fullShare} V o')
          ∗ held (SparseCore.T d) rest3 V) := by
  rw [StableHlo.held_sub_split (SparseCore.T d) sub3 V, held3]
  refine BI.equiv_iff.mp ⟨?_, ?_⟩
  · show (_ : sProp (MM F)) ⊢ _
    iintro ⟨⟨Hi, Ht, Ho⟩, Hr⟩
    isplitl [Hi]; · iexact Hi
    isplitl [Ht]; · iexact Ht
    isplitl [Ho]; · iexact Ho
    iexact Hr
  · show (_ : sProp (MM F)) ⊢ _
    iintro ⟨Hi, Ht, Ho, Hr⟩
    isplitr [Hr]
    · isplitl [Hi]; · iexact Hi
      isplitl [Ht]; · iexact Ht
      iexact Ho
    · iexact Hr

theorem held_rest_congr (d : Dev nD) (V V' : Valuation τ sig (Elt F)) (h : ∀ b ∈ rest3, V b = V' b) :
    (held (SparseCore.T d) rest3 V : sProp (MM F)) = held (SparseCore.T d) rest3 V' :=
  StableHlo.held_congr (SparseCore.T d) h

/-- The result array and the six argument arrays. -/
abbrev fin7 : Finset (DevRef τ sig) :=
  {Proc.devRef .tc (main_v10 : Ref sig .tc), Proc.devRef .tc (main_arg0 : Ref sig .tc),
    Proc.devRef .tc (main_arg1 : Ref sig .tc), Proc.devRef .tc (main_arg2 : Ref sig .tc),
    Proc.devRef .tc (main_arg3 : Ref sig .tc), Proc.devRef .tc (main_arg4 : Ref sig .tc),
    Proc.devRef .tc (main_arg5 : Ref sig .tc)}

theorem sub7 : fin7 ⊆ Pipeline.ucRefs τ sig := by
  intro b hb
  simp only [Finset.mem_insert, Finset.mem_singleton] at hb
  rcases hb with rfl | rfl | rfl | rfl | rfl | rfl | rfl <;> exact mem_ucRefs _ (by decide)

theorem held7 (d : Dev nD) (V : Valuation τ sig (Elt F)) :
    (held (SparseCore.T d) fin7 V : sProp (MM F))
      = iprop((aLoc d main_v10 ↦{fullShare} V (Proc.devRef .tc main_v10))
        ∗ (aLoc d main_arg0 ↦{fullShare} V (Proc.devRef .tc main_arg0))
        ∗ (aLoc d main_arg1 ↦{fullShare} V (Proc.devRef .tc main_arg1))
        ∗ (aLoc d main_arg2 ↦{fullShare} V (Proc.devRef .tc main_arg2))
        ∗ (aLoc d main_arg3 ↦{fullShare} V (Proc.devRef .tc main_arg3))
        ∗ (aLoc d main_arg4 ↦{fullShare} V (Proc.devRef .tc main_arg4))
        ∗ (aLoc d main_arg5 ↦{fullShare} V (Proc.devRef .tc main_arg5))) := by
  unfold held
  rw [SparseCore.bigSep_insert' (by decide), SparseCore.bigSep_insert' (by decide),
    SparseCore.bigSep_insert' (by decide), SparseCore.bigSep_insert' (by decide),
    SparseCore.bigSep_insert' (by decide), SparseCore.bigSep_insert' (by decide), bigSep_singleton]

theorem held_fin (d : Dev nD) (V : Valuation τ sig (Elt F)) :
    (held (SparseCore.T d) (Pipeline.ucRefs τ sig) V : sProp (MM F))
      ⊢ iprop((aLoc d main_v10 ↦{fullShare} V (Proc.devRef .tc main_v10))
        ∗ (aLoc d main_arg0 ↦{fullShare} V (Proc.devRef .tc main_arg0))
        ∗ (aLoc d main_arg1 ↦{fullShare} V (Proc.devRef .tc main_arg1))
        ∗ (aLoc d main_arg2 ↦{fullShare} V (Proc.devRef .tc main_arg2))
        ∗ (aLoc d main_arg3 ↦{fullShare} V (Proc.devRef .tc main_arg3))
        ∗ (aLoc d main_arg4 ↦{fullShare} V (Proc.devRef .tc main_arg4))
        ∗ (aLoc d main_arg5 ↦{fullShare} V (Proc.devRef .tc main_arg5))) := by
  rw [StableHlo.held_sub_split (SparseCore.T d) sub7 V, held7]
  iintro ⟨H, -⟩
  iexact H

end Cert.Proof.KB

end
-- ==== Proof.GhostKB.lean ====
/-
  The launch element's three factors as embeddings into the machine's algebra: the handshakes' rounds on the left,
  the TensorCore pipeline's staging cells' rounds in the middle, the local transfers' counters on the right; and the
  split of an owned triple into its first two factors.
-/
import proofs.«205085_g3753801417095_cont_8to1_b_1540_27_alg».proof.Proof.CommonKB

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The handshakes' rounds: the left factor of the user algebra. -/
abbrev EH : Emb UH (MM F) := embL

/-- The pipeline's staging cells' rounds: the left factor of the right factor. -/
def ER : Emb UK (MM F) := (Emb.inl : Emb UK (UK × Counters)).trans embR

instance ER_landsIn : (ER (F := F)).LandsIn (upEmb : UEmb _ (MM F)) := by
  unfold ER; infer_instance

/-- An owned triple is its first factor owned through `EH` and its second through `ER` (the third, the counters'
    unit, is let go). -/
theorem ownU_split (a : UH) (b : UK) (c : Counters) :
    (ownU ((a, (b, c)) : UU) : sProp (MM F)) ⊢ iprop(BI.own (EH (F := F) a) ∗ BI.own (ER (F := F) b)) := by
  iintro Hu
  ihave H := (ownU_pair _ _) $$ Hu
  icases H with ⟨HH, HR⟩
  isplitl [HH]; · iexact HH
  ihave H2 := (own_pair_emb (embR : Emb (UK × Counters) (MM F)) b c) $$ HR
  icases H2 with ⟨HK, -⟩
  unfold ER
  iexact HK

end Cert.Proof.KB

end
-- ==== Proof.FoldKB.lean ====
/-
  The TensorCore pallas_call of the program (pipeline 0, one grid point): the proof data of its pipeline at any entry
  contents of the TensorCore's arrays and any tallies the core owes throughout, and the body obligation — the kernel
  body reads its five input blocks whole, computes one value of them and stores it over the whole output block.
-/
import proofs.«205085_g3753801417095_cont_8to1_b_1540_27_alg».proof.Proof.CommonKB
import proofs.«205085_g3753801417095_cont_8to1_b_1540_27_alg».proof.Proof.Gen.Kernel.Launch
import proofs.«205085_g3753801417095_cont_8to1_b_1540_27_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

section Fold

-- the device, the contents of the TensorCore's arrays when the call is entered, what the core owes throughout the call,
-- and a bound on the (cell, index) pairs its earlier waits recorded
variable (d : Dev nD) (A₀ : (b : Ref sig .tc) → Buf (Elt F) ((d : Thread nD τ).loc b))
  (O : CellTallies nD τ sig (HIx 1)) (B : Set (SemLoc sig × HIx 1))

/-! ## The windows' blocks -/

/-- Window `w`'s block at point `t`, read off its array as the call finds it. -/
def iblk0 (w : Fin cfg0.W) (t : Fin cfg0.N) : ((cfg0.win w).xblock (cfg0.grid.coords t)).Idx → Elt F (cfg0.win w).elt :=
  ((cfg0.win w).blk t).view.read (Elt F) (A₀ (Pipeline.arrRef spec0 w))

/-- Input window 0's staging buffer holds its block at the point, for any proof data whose array is the entry
    contents' and whose body leaves the block in place. -/
theorem before0_0_of (dat : Dat τ (Elt F) (HIx 1) ℕ UU ℕ cfg0 d) (hA : dat.A 0 = A₀ (Pipeline.arrRef spec0 0))
    (hafter : ∀ t, dat.after 0 t = iblk0 d A₀ 0 t) (t : Fin cfg0.N) (x) : dat.before 0 t x = iblk0 d A₀ 0 t :=
  (dat.before_in_eq_fetched 0 rfl (fun _ => rfl) (fun _ _ _ => rfl) (fun t => by rw [hafter]; unfold Dat.blockOf iblk0; rw [hA]; try rfl) t x).trans
    (by unfold Dat.fetched Dat.blockOf iblk0; rw [hA]; try rfl)
/-- Input window 1's staging buffer holds its block at the point, for any proof data whose array is the entry
    contents' and whose body leaves the block in place. -/
theorem before0_1_of (dat : Dat τ (Elt F) (HIx 1) ℕ UU ℕ cfg0 d) (hA : dat.A 1 = A₀ (Pipeline.arrRef spec0 1))
    (hafter : ∀ t, dat.after 1 t = iblk0 d A₀ 1 t) (t : Fin cfg0.N) (x) : dat.before 1 t x = iblk0 d A₀ 1 t :=
  (dat.before_in_eq_fetched 1 rfl (fun _ => rfl) (fun _ _ _ => rfl) (fun t => by rw [hafter]; unfold Dat.blockOf iblk0; rw [hA]; try rfl) t x).trans
    (by unfold Dat.fetched Dat.blockOf iblk0; rw [hA]; try rfl)
/-- Input window 2's staging buffer holds its block at the point, for any proof data whose array is the entry
    contents' and whose body leaves the block in place. -/
theorem before0_2_of (dat : Dat τ (Elt F) (HIx 1) ℕ UU ℕ cfg0 d) (hA : dat.A 2 = A₀ (Pipeline.arrRef spec0 2))
    (hafter : ∀ t, dat.after 2 t = iblk0 d A₀ 2 t) (t : Fin cfg0.N) (x) : dat.before 2 t x = iblk0 d A₀ 2 t :=
  (dat.before_in_eq_fetched 2 rfl (fun _ => rfl) (fun _ _ _ => rfl) (fun t => by rw [hafter]; unfold Dat.blockOf iblk0; rw [hA]; try rfl) t x).trans
    (by unfold Dat.fetched Dat.blockOf iblk0; rw [hA]; try rfl)
/-- Input window 3's staging buffer holds its block at the point, for any proof data whose array is the entry
    contents' and whose body leaves the block in place. -/
theorem before0_3_of (dat : Dat τ (Elt F) (HIx 1) ℕ UU ℕ cfg0 d) (hA : dat.A 3 = A₀ (Pipeline.arrRef spec0 3))
    (hafter : ∀ t, dat.after 3 t = iblk0 d A₀ 3 t) (t : Fin cfg0.N) (x) : dat.before 3 t x = iblk0 d A₀ 3 t :=
  (dat.before_in_eq_fetched 3 rfl (fun _ => rfl) (fun _ _ _ => rfl) (fun t => by rw [hafter]; unfold Dat.blockOf iblk0; rw [hA]; try rfl) t x).trans
    (by unfold Dat.fetched Dat.blockOf iblk0; rw [hA]; try rfl)
/-- Input window 4's staging buffer holds its block at the point, for any proof data whose array is the entry
    contents' and whose body leaves the block in place. -/
theorem before0_4_of (dat : Dat τ (Elt F) (HIx 1) ℕ UU ℕ cfg0 d) (hA : dat.A 4 = A₀ (Pipeline.arrRef spec0 4))
    (hafter : ∀ t, dat.after 4 t = iblk0 d A₀ 4 t) (t : Fin cfg0.N) (x) : dat.before 4 t x = iblk0 d A₀ 4 t :=
  (dat.before_in_eq_fetched 4 rfl (fun _ => rfl) (fun _ _ _ => rfl) (fun t => by rw [hafter]; unfold Dat.blockOf iblk0; rw [hA]; try rfl) t x).trans
    (by unfold Dat.fetched Dat.blockOf iblk0; rw [hA]; try rfl)

/-! ## The body's accesses: each the whole of its block -/

abbrev r0_0 : Rect S64x10000 := Rect.unit (s := S64x10000) ![0, 0] S64x10000.size inb_S64x10000_S64x10000_0_0
abbrev r0_1 : Rect S64x64 := Rect.unit (s := S64x64) ![0, 0] S64x64.size inb_S64x64_S64x64_0_0
abbrev r0_2 : Rect S1x64 := Rect.unit (s := S1x64) ![0, 0] S1x64.size inb_S1x64_S1x64_0_0
abbrev r0_3 : Rect S8x64 := Rect.unit (s := S8x64) ![0, 0] S8x64.size inb_S8x64_S8x64_0_0
abbrev r0_4 : Rect S1x1 := Rect.unit (s := S1x1) ![0, 0] S1x1.size inb_S1x1_S1x1_0_0
abbrev r0_5 : Rect S10000 := Rect.unit (s := S10000) ![0] S10000.size inb_S10000_S10000_0

/-! ## What the body leaves in the output window's buffer -/

/-- Window 5's staging buffer after the body, from the input windows' blocks: its one store as a piece. -/
def out0_5 (x0 : Vec F S64x10000 .f32) (x1 : Vec F S64x64 .f32) (x2 : Vec F S1x64 .f32) (x3 : Vec F S8x64 .f32) (x4 : Vec F S1x1 .f32) : Vec F S10000 .f32 :=
  View.canon [⟨r0_5, k0_pay1 (View.ld x3 r0_3) (View.ld x1 r0_1) (View.ld x2 r0_2) (View.ld x4 r0_4) (View.ld x0 r0_0)⟩]

/-- The store is of the whole block, so it covers it. -/
theorem cover0_5 (p0 : Vec F S10000 .f32) (y : S10000.Idx) :
    ∃ pc ∈ ([⟨r0_5, p0⟩] : List (View.Piece (Elt F) S10000 .f32)), y ∈ pc.1.set :=
  View.cover_of_tiled [⟨r0_5, p0⟩] S10000.size (by rfl) y

/-! ## The body's triple -/

set_option maxHeartbeats 1000000 in
/-- The kernel body on whole staging memrefs, the inputs' at contents `xW` and the output's at anything, runs to the
    continuation holding the inputs' as they were and the output's at `out0_5` of the inputs'. -/
theorem sound_kernel0 (E : Set ℕ) (arg0 : Memref sig .tc .vmem S64x10000 .f32) (harg0 : arg0.IsWhole) (arg1 : Memref sig .tc .vmem S64x64 .f32) (harg1 : arg1.IsWhole)
    (arg2 : Memref sig .tc .vmem S1x64 .f32) (harg2 : arg2.IsWhole) (arg3 : Memref sig .tc .vmem S8x64 .f32) (harg3 : arg3.IsWhole)
    (arg4 : Memref sig .tc .vmem S1x1 .f32) (harg4 : arg4.IsWhole) (arg5 : Memref sig .tc .vmem S10000 .f32) (harg5 : arg5.IsWhole)
    (x0 : Vec F S64x10000 .f32) (x1 : Vec F S64x64 .f32) (x2 : Vec F S1x64 .f32) (x3 : Vec F S8x64 .f32) (x4 : Vec F S1x1 .f32) (Kc : PUnit → sProp 𝕄) :
    iprop(owns (d : Thread nD τ) arg0 fullShare x0 ∗ owns (d : Thread nD τ) arg1 fullShare x1 ∗ owns (d : Thread nD τ) arg2 fullShare x2
        ∗ owns (d : Thread nD τ) arg3 fullShare x3 ∗ owns (d : Thread nD τ) arg4 fullShare x4 ∗ (∃ y, owns (d : Thread nD τ) arg5 fullShare y)
        ∗ (iprop(owns (d : Thread nD τ) arg0 fullShare x0 ∗ owns (d : Thread nD τ) arg1 fullShare x1 ∗ owns (d : Thread nD τ) arg2 fullShare x2
            ∗ owns (d : Thread nD τ) arg3 fullShare x3 ∗ owns (d : Thread nD τ) arg4 fullShare x4
            ∗ owns (d : Thread nD τ) arg5 fullShare (out0_5 x0 x1 x2 x3 x4)) -∗ Kc ⟨⟩))
      ⊢ wp frame (wpE (defs₀ (F := F)) Variants.none d none) E (cc0__fold_body arg0 harg0 arg1 harg1 arg2 harg2 arg3 harg3 arg4 harg4 arg5 harg5) Kc := by
  simp only [cc0__fold_body_eq_skeleton]; unfold cc0__fold_body_skel
  unfold owns
  iintro ⟨⟨%f0, %hf0, H0⟩, ⟨%f1, %hf1, H1⟩, ⟨%f2, %hf2, H2⟩, ⟨%f3, %hf3, H3⟩, ⟨%f4, %hf4, H4⟩, ⟨%y5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the pipeline on the device's TensorCore: the arrays as the call finds them; after the body each
    input's buffer at its block and the output's at `out0_5` of the input blocks; the invariant the scoped buffers no
    window stages; the core owing `O` throughout, its recorded pairs within `B`; full shares. -/
def dat0 : Dat τ (Elt F) (HIx 1) ℕ UU ℕ cfg0 d where
  A w := A₀ (Pipeline.arrRef spec0 w)
  after w t := match w with
    | ⟨0, _⟩ => iblk0 d A₀ 0 t
    | ⟨1, _⟩ => iblk0 d A₀ 1 t
    | ⟨2, _⟩ => iblk0 d A₀ 2 t
    | ⟨3, _⟩ => iblk0 d A₀ 3 t
    | ⟨4, _⟩ => iblk0 d A₀ 4 t
    | ⟨5, _⟩ => out0_5 (iblk0 d A₀ 0 t) (iblk0 d A₀ 1 t) (iblk0 d A₀ 2 t) (iblk0 d A₀ 3 t) (iblk0 d A₀ 4 t)
  Φ _ := Pipeline.scopedRest (Ix := HIx 1) (Name := ℕ) (U := UU) (Lvl := ℕ) (Val := Elt F) spec0 d
  q _ := fullShare
  owed _ := O
  recorded _ := B

theorem A_eq0 (w : Fin cfg0.W) : (dat0 d A₀ O B).A w = A₀ (Pipeline.arrRef spec0 w) := by
  dsimp only [dat0]

theorem after0_0 (t : Fin cfg0.N) : (dat0 d A₀ O B).after 0 t = iblk0 d A₀ 0 t := by dsimp only [dat0]
theorem after0_1 (t : Fin cfg0.N) : (dat0 d A₀ O B).after 1 t = iblk0 d A₀ 1 t := by dsimp only [dat0]
theorem after0_2 (t : Fin cfg0.N) : (dat0 d A₀ O B).after 2 t = iblk0 d A₀ 2 t := by dsimp only [dat0]
theorem after0_3 (t : Fin cfg0.N) : (dat0 d A₀ O B).after 3 t = iblk0 d A₀ 3 t := by dsimp only [dat0]
theorem after0_4 (t : Fin cfg0.N) : (dat0 d A₀ O B).after 4 t = iblk0 d A₀ 4 t := by dsimp only [dat0]
theorem after0_5 (t : Fin cfg0.N) : (dat0 d A₀ O B).after 5 t = out0_5 (iblk0 d A₀ 0 t) (iblk0 d A₀ 1 t) (iblk0 d A₀ 2 t) (iblk0 d A₀ 3 t) (iblk0 d A₀ 4 t) := by dsimp only [dat0]

theorem before0_0 (t : Fin cfg0.N) (x) : (dat0 d A₀ O B).before 0 t x = iblk0 d A₀ 0 t :=
  before0_0_of d A₀ (dat0 d A₀ O B) (A_eq0 d A₀ O B 0) (after0_0 d A₀ O B) t x
theorem before0_1 (t : Fin cfg0.N) (x) : (dat0 d A₀ O B).before 1 t x = iblk0 d A₀ 1 t :=
  before0_1_of d A₀ (dat0 d A₀ O B) (A_eq0 d A₀ O B 1) (after0_1 d A₀ O B) t x
theorem before0_2 (t : Fin cfg0.N) (x) : (dat0 d A₀ O B).before 2 t x = iblk0 d A₀ 2 t :=
  before0_2_of d A₀ (dat0 d A₀ O B) (A_eq0 d A₀ O B 2) (after0_2 d A₀ O B) t x
theorem before0_3 (t : Fin cfg0.N) (x) : (dat0 d A₀ O B).before 3 t x = iblk0 d A₀ 3 t :=
  before0_3_of d A₀ (dat0 d A₀ O B) (A_eq0 d A₀ O B 3) (after0_3 d A₀ O B) t x
theorem before0_4 (t : Fin cfg0.N) (x) : (dat0 d A₀ O B).before 4 t x = iblk0 d A₀ 4 t :=
  before0_4_of d A₀ (dat0 d A₀ O B) (A_eq0 d A₀ O B 4) (after0_4 d A₀ O B) t x

/-! ## The body obligation -/

/-- What the body is called with at point `t`, the windows one by one, -/
def bodyPre0 (t : Fin cfg0.N) : sProp 𝕄 :=
  iprop((dat0 d A₀ O B).Φ t.castSucc ∗ (dat0 d A₀ O B).owesAt none t.castSucc
    ∗ (∃ x, owns (d : Thread nD τ) (st0_0 t) fullShare ((dat0 d A₀ O B).before 0 t x))
    ∗ (∃ x, owns (d : Thread nD τ) (st0_1 t) fullShare ((dat0 d A₀ O B).before 1 t x))
    ∗ (∃ x, owns (d : Thread nD τ) (st0_2 t) fullShare ((dat0 d A₀ O B).before 2 t x))
    ∗ (∃ x, owns (d : Thread nD τ) (st0_3 t) fullShare ((dat0 d A₀ O B).before 3 t x))
    ∗ (∃ x, owns (d : Thread nD τ) (st0_4 t) fullShare ((dat0 d A₀ O B).before 4 t x))
    ∗ (∃ x, owns (d : Thread nD τ) (st0_5 t) fullShare ((dat0 d A₀ O B).before 5 t x)))

/-- and what it returns. -/
def bodyPost0 (t : Fin cfg0.N) : sProp 𝕄 :=
  iprop((dat0 d A₀ O B).Φ t.succ ∗ (dat0 d A₀ O B).owesAt none t.succ
    ∗ owns (d : Thread nD τ) (st0_0 t) fullShare ((dat0 d A₀ O B).after 0 t)
    ∗ owns (d : Thread nD τ) (st0_1 t) fullShare ((dat0 d A₀ O B).after 1 t)
    ∗ owns (d : Thread nD τ) (st0_2 t) fullShare ((dat0 d A₀ O B).after 2 t)
    ∗ owns (d : Thread nD τ) (st0_3 t) fullShare ((dat0 d A₀ O B).after 3 t)
    ∗ owns (d : Thread nD τ) (st0_4 t) fullShare ((dat0 d A₀ O B).after 4 t)
    ∗ owns (d : Thread nD τ) (st0_5 t) fullShare ((dat0 d A₀ O B).after 5 t))

/-- The body at the point: the inputs' memrefs hold their blocks, so `sound_kernel0` applies; the invariant and the
    core's `owes` pass through unread. -/
theorem sound_body0 (t : Fin cfg0.N) :
    bodyPre0 d A₀ O B t ⊢ wp frame (wpE (defs₀ (F := F)) Variants.none d none) Set.univ (bodyAt0 t) (fun _ => bodyPost0 d A₀ O B t) := by
  unfold bodyPre0 bodyPost0 bodyAt0
  simp only [before0_0, before0_1, before0_2, before0_3, before0_4]
  rw [show (dat0 d A₀ O B).Φ t.succ = (dat0 d A₀ O B).Φ t.castSucc from rfl,
    show (dat0 d A₀ O B).owesAt none t.succ = (dat0 d A₀ O B).owesAt none t.castSucc from rfl,
    after0_0, after0_1, after0_2, after0_3, after0_4, after0_5]
  iintro ⟨HΦ, Ho, ⟨%x0, H0⟩, ⟨%x1, H1⟩, ⟨%x2, H2⟩, ⟨%x3, H3⟩, ⟨%x4, H4⟩, ⟨%x5, H5⟩⟩
  iapply (sound_kernel0 d Set.univ _ _ _ _ _ _ _ _ _ _ _ _ (iblk0 d A₀ 0 t) (iblk0 d A₀ 1 t) (iblk0 d A₀ 2 t) (iblk0 d A₀ 3 t) (iblk0 d A₀ 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 : BodyObligation (dat0 (F := F) d A₀ O B) (defs₀ (F := F)) Variants.none none Set.univ := fun t => by
  rw [bigSep_W0, bigSep_W0]
  exact sound_body0 d A₀ O B t

end Fold

end Cert.Proof.KB

end
-- ==== Proof.RegionKB.lean ====
/-
  The TensorCore pallas_call as a step of @main on a device's TensorCore inside the SparseCore launch: from the
  region boundary, the TensorCore's unscoped arrays at any contents, the pipeline's staging cells' ghost state as the
  launch element funds it, and the TensorCore's state before SparseCore call 0 (it owes its start signals throughout),
  the call runs to the boundary, the arrays with the result array at the kernel's value of the five operand arrays, and
  the same state. The funding of the staging cells from the launch element.
-/
import proofs.«205085_g3753801417095_cont_8to1_b_1540_27_alg».proof.Proof.GhostKB
import proofs.«205085_g3753801417095_cont_8to1_b_1540_27_alg».proof.Proof.FoldKB
import Idealize.ShloMosaic.Lib.Pipeline.Value

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## The result array's value: the whole-block loads read the operands' arrays, the one whole-block store leaves the payload,
and the one write-back puts it over the whole array -/

section Value
variable (d : Dev nD) (A₀ : (b : Ref sig .tc) → Buf (Elt F) ((d : Thread nD τ).loc b))
  (O : CellTallies nD τ sig (HIx 1)) (B : Set (SemLoc sig × HIx 1))

/-- The result array after the run, read through its one block: what the body left at the one point, cut. -/
theorem final_out :
    ((cfg0.win (5 : Fin 6)).blk t0_0).view.read (Elt F) ((dat0 (F := F) d A₀ O B).arrAt (5 : Fin 6) cfg0.N)
      = (dat0 (F := F) d A₀ O B).flushed (5 : Fin 6) t0_0 := by
  rw [show cfg0.N = (t0_0 : Fin cfg0.N).val + 1 from rfl, (dat0 (F := F) d A₀ O B).arrAt_succ (5 : Fin 6) t0_0]
  rw [show (cfg0.win (5 : Fin 6)).flush t0_0 = true from flush0_5 _, if_pos rfl]
  exact View.read_write_univ _ _

theorem out_eq (x0 : Vec F S64x10000 .f32) (x1 : Vec F S64x64 .f32) (x2 : Vec F S1x64 .f32) (x3 : Vec F S8x64 .f32) (x4 : Vec F S1x1 .f32) :
    out0_5 (F := F) x0 x1 x2 x3 x4 = k0_pay1 x3 x1 x2 x4 x0 := by
  have hz5 : (![0] : Fin S10000.rank → Nat) = fun _ => 0 := funext fun a => by fin_cases a <;> rfl
  have hz0 : (![0, 0] : Fin S64x10000.rank → Nat) = fun _ => 0 := funext fun a => by fin_cases a <;> rfl
  have hz1 : (![0, 0] : Fin S64x64.rank → Nat) = fun _ => 0 := funext fun a => by fin_cases a <;> rfl
  have hz2 : (![0, 0] : Fin S1x64.rank → Nat) = fun _ => 0 := funext fun a => by fin_cases a <;> rfl
  have hz3 : (![0, 0] : Fin S8x64.rank → Nat) = fun _ => 0 := funext fun a => by fin_cases a <;> rfl
  have hz4 : (![0, 0] : Fin S1x1.rank → Nat) = fun _ => 0 := funext fun a => by fin_cases a <;> rfl
  unfold out0_5
  rw [View.canon_unit_zero hz5, View.ld_unit_zero hz0, View.ld_unit_zero hz1, View.ld_unit_zero hz2, View.ld_unit_zero hz3, View.ld_unit_zero hz4]

theorem final_value :
    (dat0 (F := F) d A₀ O B).arrAt (5 : Fin 6) cfg0.N = k0_pay1 (A₀ main_v4) (A₀ main_arg2) (A₀ main_v6) (A₀ main_v7) (A₀ main_v5) := by
  have ho := final_out (F := F) d A₀ O B
  have hz5 : (fun a => (win0_5.index t0_0) a * main_v8.ty.shape.size a) = fun _ => 0 := funext fun a => by fin_cases a <;> decide
  have hr5 := fun f => Memref.read_access_unit_zero (Elt F) main_v8 hz5 (fun a => by fin_cases a <;> decide) f
  have hz0 : (fun a => (win0_0.index t0_0) a * main_v5.ty.shape.size a) = fun _ => 0 := funext fun a => by fin_cases a <;> decide
  have hr0 := fun f => Memref.read_access_unit_zero (Elt F) main_v5 hz0 (fun a => by fin_cases a <;> decide) f
  have hz1 : (fun a => (win0_1.index t0_0) a * main_arg2.ty.shape.size a) = fun _ => 0 := funext fun a => by fin_cases a <;> decide
  have hr1 := fun f => Memref.read_access_unit_zero (Elt F) main_arg2 hz1 (fun a => by fin_cases a <;> decide) f
  have hz2 : (fun a => (win0_2.index t0_0) a * main_v6.ty.shape.size a) = fun _ => 0 := funext fun a => by fin_cases a <;> decide
  have hr2 := fun f => Memref.read_access_unit_zero (Elt F) main_v6 hz2 (fun a => by fin_cases a <;> decide) f
  have hz3 : (fun a => (win0_3.index t0_0) a * main_v4.ty.shape.size a) = fun _ => 0 := funext fun a => by fin_cases a <;> decide
  have hr3 := fun f => Memref.read_access_unit_zero (Elt F) main_v4 hz3 (fun a => by fin_cases a <;> decide) f
  have hz4 : (fun a => (win0_4.index t0_0) a * main_v7.ty.shape.size a) = fun _ => 0 := funext fun a => by fin_cases a <;> decide
  have hr4 := fun f => Memref.read_access_unit_zero (Elt F) main_v7 hz4 (fun a => by fin_cases a <;> decide) f
  rw [hr5] at ho
  rw [ho]
  show (cfg0.win (5 : Fin 6)).cut _ ((dat0 (F := F) d A₀ O B).after 5 t0_0) = _
  rw [after0_5, out_eq]
  unfold iblk0
  rw [hr0, hr1, hr2, hr3, hr4]
  rfl
end Value

/-! ## The pipeline's tables as the region rule reads them -/

/-- The prefetched tables' admissible contents: the pipeline has no table. -/
abbrev adm : (p : Fin 1) → (pcfgs (F := F) p).Adm := fun p => (cfgs p).toPCfg_adm

/-- The recorded pairs of a TensorCore that has not yet started a SparseCore call: at level 0. -/
def B₀ (c : Dev nD) : Set (SemLoc sig × HIx 1) := {p | (K (F := F)).lev (T c, p.1) p.2 ≤ 0}

/-- The TensorCore's arrays read at its own references. -/
abbrev atTc (c : Dev nD) (V₀ : Valuation τ sig (Elt F)) : (b : Ref sig .tc) → Buf (Elt F) ((c : Thread nD τ).loc b) := fun b => V₀ b

/-- The pipeline's proof data on every device, at the entry contents `V₀`, each TensorCore owing its start signals. -/
def pdats (V₀ : Valuation τ sig (Elt F)) : (p : Fin 1) → (c : Dev nD) → Dat τ (Elt F) (HIx 1) ℕ UU ℕ (Pipeline.pin (pcfgs (F := F)) adm p) c
  | ⟨0, _⟩ => fun c => dat0 c (atTc c V₀) ((K (F := F)).Otc c 0) (B₀ (F := F) c)

/-- The arrays after the call: the result array at the kernel's value, every other as entered. -/
def Vout (V₀ : Valuation τ sig (Elt F)) : Valuation τ sig (Elt F) :=
  Function.update V₀ (Proc.devRef .tc main_v8)
    (k0_pay1 (V₀ (Proc.devRef .tc main_v4)) (V₀ (Proc.devRef .tc main_arg2)) (V₀ (Proc.devRef .tc main_v6)) (V₀ (Proc.devRef .tc main_v7)) (V₀ (Proc.devRef .tc main_v5)))

/-- What the launch element funds each device for the call: its staging cells' ghost state and the duty tokens of
    the pipeline's transfers. -/
def foldGhost (c : Dev nD) : sProp 𝕄 :=
  iprop(Pipeline.cellsGhost (cfgs) (ER (F := F)) 0 c ∗ Pipeline.toksInit (cfgs) (ER (F := F)) 0 c)

/-- The TensorCore's duties before SparseCore call 0, its recorded pairs at level 0. -/
def tcOwes (c : Dev nD) : sProp 𝕄 :=
  iprop(∃ W, ⌜(K (F := F)).WBelow (T c) W 0⌝ ∗ owes (T c) ((K (F := F)).Otc c 0) W)

/-- The funding: the rounds library's launch element at the pipeline's staging cells and transfers is every device's
    `foldGhost`. -/
theorem fund_fold :
    BI.own (ER (F := F) (initOf (Pipeline.cells cfgs cellOf_inj) (Pipeline.launchToks cfgs cellOf_inj)))
      ⊢ iprop(|==> bigSep Finset.univ fun c : Dev nD => foldGhost (F := F) c) := by
  have h1 : ∀ (Φ : Fin 1 → sProp 𝕄), bigSep (Finset.univ : Finset (Fin 1)) Φ = Φ 0 := fun Φ => by
    rw [show (Finset.univ : Finset (Fin 1)) = {0} from rfl, bigSep_singleton]
  have hfund := Pipeline.fund_ghost cfgs (ER (F := F)) cellOf_inj
  rw [bigSep_congr (fun c _ => h1 (fun p => Pipeline.cellsGhost cfgs (ER (F := F)) p c)),
    bigSep_congr (fun c _ => h1 (fun p => Pipeline.toksInit cfgs (ER (F := F)) p c))] at hfund
  unfold foldGhost
  rw [bigSep_sep']
  exact hfund

/-! ## The arrays after the call -/

theorem Otc_none (c : Dev nD) (g : GSem nD τ sig) : (K (F := F)).Otc c 0 g none = 0 := by
  by_contra h
  have := (K (F := F)).lev_of_Otc_pos (Nat.pos_of_ne_zero h)
  rw [SparseCore.Cfg.lev_none] at this; omega

/-- At the call's exit each of its arrays holds what the pipeline leaves: an operand as entered, the result the kernel's
    value of the operands. -/
theorem hF0 (c : Dev nD) (V₀ : Valuation τ sig (Elt F)) (w : Fin cfg0.W) :
    (pdats (F := F) V₀ 0 c).arrAt w cfg0.N = atTc c (Vout V₀) (Pipeline.arrRef spec0 w) :=
  match w with
  | ⟨0, _⟩ => ((dat0 (F := F) c (atTc c V₀) _ _).arrAt_in 0 rfl _).trans ((A_eq0 c _ _ _ 0).trans (Function.update_of_ne (StableHlo.devRef_ne_of_ne (by decide)) _ _).symm)
  | ⟨1, _⟩ => ((dat0 (F := F) c (atTc c V₀) _ _).arrAt_in 1 rfl _).trans ((A_eq0 c _ _ _ 1).trans (Function.update_of_ne (StableHlo.devRef_ne_of_ne (by decide)) _ _).symm)
  | ⟨2, _⟩ => ((dat0 (F := F) c (atTc c V₀) _ _).arrAt_in 2 rfl _).trans ((A_eq0 c _ _ _ 2).trans (Function.update_of_ne (StableHlo.devRef_ne_of_ne (by decide)) _ _).symm)
  | ⟨3, _⟩ => ((dat0 (F := F) c (atTc c V₀) _ _).arrAt_in 3 rfl _).trans ((A_eq0 c _ _ _ 3).trans (Function.update_of_ne (StableHlo.devRef_ne_of_ne (by decide)) _ _).symm)
  | ⟨4, _⟩ => ((dat0 (F := F) c (atTc c V₀) _ _).arrAt_in 4 rfl _).trans ((A_eq0 c _ _ _ 4).trans (Function.update_of_ne (StableHlo.devRef_ne_of_ne (by decide)) _ _).symm)
  | ⟨5, _⟩ => by
    refine (final_value (F := F) c (atTc c V₀) _ _).trans ?_
    show _ = Function.update V₀ (Proc.devRef .tc main_v8) _ (Proc.devRef .tc main_v8)
    rw [Function.update_self]

/-- Every other buffer holds what it held. -/
theorem hrest0 (c : Dev nD) (V₀ : Valuation τ sig (Elt F)) :
    ∀ b, b ∉ Finset.univ.image (Pipeline.arrRef spec0) → atTc c (Vout V₀) b = atTc c V₀ b := fun b hb =>
  Function.update_of_ne (StableHlo.devRef_ne_of_ne fun e => hb (Finset.mem_image.mpr ⟨5, Finset.mem_univ _, e.symm⟩)) _ _

/-! ## The call as a region of @main -/

set_option backward.isDefEq.respectTransparency.types false in
/-- The call over the thread state "every unscoped array at the entry contents, the TensorCore's duties": its arrays
    split out of the unscoped arrays and put back at the exit contents; the duties ride through, the pipeline's own
    waits recorded at level 0; no semaphore of the kernel's own. -/
def reg0 (V₀ : Valuation τ sig (Elt F)) :
    Pipeline.RegionSeg (pcfgs (F := F)) adm (pdats V₀) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 c (atTc c V₀) ((K (F := F)).Otc c 0) (B₀ (F := F) c)).loose
  hwaits c := Pipeline.cellsWaits_intro (Pipeline.pin (pcfgs (F := F)) adm) (pdats V₀) none 0 c
    (fun w s t => (K (F := F)).mayWait_none _ (Otc_none c))
  pre c := iprop(StableHlo.held (c : Thread nD τ) (Pipeline.ucRefs τ sig) V₀ ∗ tcOwes (F := F) c)
  post c := iprop(StableHlo.held (c : Thread nD τ) (Pipeline.ucRefs τ sig) (Vout V₀) ∗ tcOwes (F := F) c)
  X c := iprop(emp)
  Y c := iprop(emp)
  Z c := Pipeline.unscopedRest (Ix := HIx 1) (Name := ℕ) (U := UU) (Lvl := ℕ) spec0 c (atTc c V₀)
  hentry c := by
    rw [Pipeline.ownSems0_none]
    have hsplit := Pipeline.arrays_of_unscopedBufs (p := 0) (pcfgs (F := F)) adm (pdats V₀) launch0.win launch0.arr_whole c
      ((pdats V₀ 0 c).share_full fun _ => rfl) (atTc c V₀) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin tcOwes
      icases HO with ⟨%W, %hW, HO⟩; iexists W; isplitr
      · ipureintro; exact fun p hp => Or.inl (hW p (Finset.mem_coe.mp hp))
      iexact HO
    isplitr; · iempintro
    iexact Hrest
  hin c := by
    rw [show (pdats V₀ 0 c).Φ 0 = Pipeline.scopedRest (Ix := HIx 1) (Name := ℕ) (U := UU) (Lvl := ℕ) (Val := Elt F) spec0 c from rfl]
    iintro ⟨-, -, Hr⟩
    iexact Hr
  hout c := by
    rw [Pipeline.ownSems0_none, show (pdats V₀ 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats V₀) ((pdats V₀ 0 c).share_full fun _ => rfl)
      (atTc c V₀) (atTc c (Vout V₀)) ((pdats V₀ 0 c).arrAt · cfg0.N) (hF0 c V₀) (hrest0 c V₀)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin tcOwes
    icases HO with ⟨%W, %hW, HO⟩; iexists W; isplitr
    · ipureintro; intro p hp
      rcases hW (Finset.mem_coe.mpr hp) with h | ⟨w, s, rfl⟩
      · exact h
      · exact le_rfl
    iexact HO

set_option backward.isDefEq.respectTransparency.types false in
/-- The call on device `d`'s TensorCore, inside the SparseCore launch. -/
theorem wp_fold [∀ e, Nonempty (Elt F e)] (d : Dev nD) (V₀ : Valuation τ sig (Elt F)) :
    iprop(levAts (K (F := F)).L (K (F := F)).lev ∗ foldGhost (F := F) d ∗ boundary (T d)
        ∗ StableHlo.held (T d) (Pipeline.ucRefs τ sig) V₀ ∗ tcOwes (F := F) d)
      ⊢ wp frame (wpE ((K (F := F)).defs (D (F := F))) 𝒱 (T d) none) Set.univ
          (Prog.lift (.customCall (SparseCore.inner (Pipeline.entry 0)) ())) fun _ =>
            iprop(boundary (T d) ∗ StableHlo.held (T d) (Pipeline.ucRefs τ sig) (Vout V₀) ∗ tcOwes (F := F) d) := by
  iintro ⟨Hlev, Hg, Hb, Hheld, HO⟩
  unfold foldGhost
  icases Hg with ⟨Hcg, Htk⟩
  iapply ((K (F := F)).wp_liftProg (D (F := F)) 𝒱 (T d) Set.univ none (Prog.lift (.customCall (Pipeline.entry 0) ())) _)
  iapply (Pipeline.RegionSeg.wp (pcfgs (F := F)) adm (pdats V₀) none cellOf_inj (ER (F := F)) defs₀ 𝒱₀ (K (F := F)).L (K (F := F)).lev
    (reg0 V₀) d none (fun _ h => nomatch h) (fun x => .ret x) _)
  rw [show (reg0 V₀).post d = iprop(StableHlo.held (d : Thread nD τ) (Pipeline.ucRefs τ sig) (Vout V₀) ∗ tcOwes (F := F) d) from rfl,
    show (reg0 V₀).pre d = iprop(StableHlo.held (d : Thread nD τ) (Pipeline.ucRefs τ sig) V₀ ∗ tcOwes (F := F) d) from rfl]
  isplitr [Hlev Hcg Htk Hb Hheld HO]
  · iintro ⟨Hb, Hheld, HO⟩
    rw [wp_ret]
    imodintro
    isplitl [Hb]; · iexact Hb
    isplitl [Hheld]; · iexact Hheld
    iexact HO
  isplitl [Hb]; · iexact Hb
  isplitl [Hheld HO]
  · isplitl [Hheld]; · iexact Hheld
    iexact HO
  isplitl [Hlev]; · iexact Hlev
  isplitl [Hcg]; · iexact Hcg
  iexact Htk

set_option backward.isDefEq.respectTransparency.types false in
/-- The same from the launch's context and the TensorCore's state before call 0, handed back unchanged. -/
theorem wp_fold_tcSt [∀ e, Nonempty (Elt F e)] (P : (K (F := F)).Pay (nD := nD) (Val := Elt F) (Name := ℕ) (U := UU)) (κ : GSem nD τ sig → ℕ)
    (d : Dev nD) (V₀ : Valuation τ sig (Elt F)) :
    iprop((K (F := F)).ctx EH P κ ∗ (K (F := F)).tcSt EH d 0 ∗ foldGhost (F := F) d ∗ boundary (T d)
        ∗ StableHlo.held (T d) (Pipeline.ucRefs τ sig) V₀)
      ⊢ wp frame (wpE ((K (F := F)).defs (D (F := F))) 𝒱 (T d) none) Set.univ
          (Prog.lift (.customCall (SparseCore.inner (Pipeline.entry 0)) ())) fun _ =>
            iprop((K (F := F)).tcSt EH d 0 ∗ boundary (T d) ∗ StableHlo.held (T d) (Pipeline.ucRefs τ sig) (Vout V₀)) := by
  unfold SparseCore.Cfg.tcSt
  iintro ⟨#Hctx, ⟨HO, Hrest⟩, Hg, Hb, Hheld⟩
  ihave Hlev := (SparseCore.Cfg.ctx_levAts κ) $$ Hctx
  iapply (wp_wand_r frame _ Set.univ)
  isplitl [Hlev Hg Hb Hheld HO]
  · iapply (wp_fold d V₀)
    isplitl [Hlev]; · iexact Hlev
    isplitl [Hg]; · iexact Hg
    isplitl [Hb]; · iexact Hb
    isplitl [Hheld]; · iexact Hheld
    unfold tcOwes
    iexact HO
  · iintro %_ ⟨Hb, Hheld, HO⟩
    isplitl [HO Hrest]
    · isplitl [HO]
      · unfold tcOwes; iexact HO
      iexact Hrest
    isplitl [Hb]; · iexact Hb
    iexact Hheld

end Cert.Proof.KB

end
-- ==== Proof.MainKB.lean ====
/-
  @main of the kernel program on a device's TensorCore: the host operations that lay the arguments out, the
  TensorCore kernel that folds both affine layers into one scalar per table row, the SparseCore call that sums each
  bag's scalars (the index array and the folded table going out as thirty-two read shares, the output array as
  thirty-two stretches), and the final reshape; the arguments are kept and the result is named.
-/
import proofs.«205085_g3753801417095_cont_8to1_b_1540_27_alg».proof.Proof.OblKB
import proofs.«205085_g3753801417095_cont_8to1_b_1540_27_alg».proof.Proof.FinKB
import proofs.«205085_g3753801417095_cont_8to1_b_1540_27_alg».proof.Proof.HostKB
import proofs.«205085_g3753801417095_cont_8to1_b_1540_27_alg».proof.Proof.SplitKB
import proofs.«205085_g3753801417095_cont_8to1_b_1540_27_alg».proof.Proof.HeldKB
import proofs.«205085_g3753801417095_cont_8to1_b_1540_27_alg».proof.Proof.RegionKB
import Idealize.ShloMosaic.Lib.Pipeline.Frame

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

-- one host operation of @main over the arrays held whole
set_option hygiene false in
macro "hostop" : tactic => `(tactic| (
  iapply (wp_hlo_within 𝒱 (SparseCore.T _) none Set.univ (S := Pipeline.ucRefs τ sig) (Pipeline.sub_ucRefs _ (by simp))) $$ [Hb Hheld]
  · isplitl [Hb]; · iexact Hb
    iexact Hheld
  iintro ⟨Hb, Hheld⟩
  rw [wp_ret]; imodintro))

variable (m : (ℓ : Loc nD τ sig) → Buf (Elt F) ℓ) (ρ : Dev nD → PrngReg)

/-- The launch contents as a valuation of device `d`'s arrays. -/
def V0 (d : Dev nD) : Valuation τ sig (Elt F) := fun b => m (d, b)
/-- The arrays after the host operations before the kernels. -/
def V1 (d : Dev nD) : Valuation τ sig (Elt F) := StableHlo.after (hostOps0 (F := F)) (V0 m d)

/-- The transposed index array, the folded table and the output's launch contents, as the SparseCore call finds them. -/
def Aof (d : Dev nD) : Buf (Elt F) (iLoc d) := hIdxT (F := F) (m (aLoc d main_arg0))
def Tof (d : Dev nD) : Buf (Elt F) (tLoc d) :=
  foldArr (F := F) (m (aLoc d main_arg1)) (m (aLoc d main_arg2)) (m (aLoc d main_arg3)) (m (aLoc d main_arg4)) (m (aLoc d main_arg5))
def Oof (d : Dev nD) : Buf (Elt F) (oLoc d) := m (oLoc d)
/-- The bag sums. -/
def Gof (d : Dev nD) : Buf (Elt F) (oLoc d) := Cert.TileSpec.out (F := F) (Aof m d) (Tof m d)
/-- The program's result. -/
def Rof (d : Dev nD) : Buf (Elt F) (aLoc d main_v10) := hOut (F := F) (Gof m d)

abbrev PP : (K (F := F)).Pay (nD := nD) (Val := Elt F) (Name := ℕ) (U := UU) := P tileShare (Aof m) (Tof m) (Oof m) (Gof m)

theorem Vout_i (d : Dev nD) : Vout (V1 m d) i' = Aof m d := by
  unfold Vout V1 Aof
  rw [Function.update_of_ne (by decide)]
  exact after_v0 (V0 m d)

theorem Vout_t (d : Dev nD) : Vout (V1 m d) t' = Tof m d := by
  unfold Vout V1 Tof foldArr
  rw [Function.update_self, after_v4, after_v5, after_v6, after_v7, after_arg2]
  rfl

theorem Vout_o (d : Dev nD) : Vout (V1 m d) o' = Oof m d := by
  unfold Vout V1 Oof
  rw [Function.update_of_ne (by decide)]
  exact after_v9 (V0 m d)

theorem bigSep_cores (Φ : Fin (grid1.bound 0) → sProp (MM F)) :
    (bigSep Finset.univ fun c : Fin ((K (F := F)).nCore 0) => Φ (Fin.cast nCore_zero c)) = bigSep Finset.univ Φ :=
  bigSep_congr fun _ _ => congrArg Φ (Fin.ext rfl)

/-- All tiles' holdings are the thirty-two shares of the two read-only arrays and the thirty-two output stretches. -/
theorem tiles_eq (d : Dev nD) (g : Buf (Elt F) (oLoc d)) :
    (bigSep Finset.univ fun c : Fin (grid1.bound 0) => bigSep Finset.univ fun s : Fin (grid1.bound 1) => tileRes tileShare (Aof m) (Tof m) d c s g)
      = iprop((bigSep Finset.univ fun c : Fin (grid1.bound 0) => bigSep Finset.univ fun s : Fin (grid1.bound 1) => iLoc d ↦{tileShare c s} Aof m d)
          ∗ (bigSep Finset.univ fun c : Fin (grid1.bound 0) => bigSep Finset.univ fun s : Fin (grid1.bound 1) => tLoc d ↦{tileShare c s} Tof m d)
          ∗ (bigSep Finset.univ fun c : Fin (grid1.bound 0) => bigSep Finset.univ fun s : Fin (grid1.bound 1) => oLoc d ↦[oSet (coordsV c s)]{fullShare} g)) := by
  unfold tileRes
  simp only [bigSep_sep']

theorem st0_eq (d : Dev nD) :
    (bigSep Finset.univ fun c : Fin ((K (F := F)).nCore 0) => (PP m).st 0 d c)
      = bigSep Finset.univ fun c : Fin (grid1.bound 0) => bigSep Finset.univ fun s : Fin (grid1.bound 1) => tileRes tileShare (Aof m) (Tof m) d c s (Oof m d) :=
  bigSep_cores (F := F) (fun c => bigSep Finset.univ fun s : Fin (grid1.bound 1) => tileRes tileShare (Aof m) (Tof m) d c s (Oof m d))

theorem dn0_eq (d : Dev nD) :
    (bigSep Finset.univ fun c : Fin ((K (F := F)).nCore 0) => (PP m).dn 0 d c)
      = bigSep Finset.univ fun c : Fin (grid1.bound 0) => bigSep Finset.univ fun s : Fin (grid1.bound 1) => tileRes tileShare (Aof m) (Tof m) d c s (Gof m d) :=
  bigSep_cores (F := F) (fun c => bigSep Finset.univ fun s : Fin (grid1.bound 1) => tileRes tileShare (Aof m) (Tof m) d c s (Gof m d))

/-- The arrays after the SparseCore call: the output at the bag sums. -/
def V2 (d : Dev nD) : Valuation τ sig (Elt F) := Function.update (Vout (V1 m d)) o' (Gof m d)

abbrev opOut : HloOp τ sig (Elt F) := StableHlo.reshape main_v9 main_v10 rfl shapeCasts_S16384_S16384x1
abbrev V3 (d : Dev nD) : Valuation τ sig (Elt F) := (opOut (F := F)).result (V2 m d)

theorem V2_i (d : Dev nD) : V2 m d i' = Aof m d := by
  unfold V2; rw [Function.update_of_ne (by decide)]; exact Vout_i m d
theorem V2_t (d : Dev nD) : V2 m d t' = Tof m d := by
  unfold V2; rw [Function.update_of_ne (by decide)]; exact Vout_t m d
theorem V2_o (d : Dev nD) : V2 m d o' = Gof m d := by
  unfold V2; exact Function.update_self _ _ _
theorem V2_rest (d : Dev nD) : ∀ b ∈ rest3, V2 m d b = Vout (V1 m d) b := by
  intro b hb
  unfold V2
  refine Function.update_of_ne ?_ _ _
  rintro rfl
  exact absurd hb (by decide)

theorem V3_out (d : Dev nD) : V3 m d (Proc.devRef .tc main_v10) = Rof m d := by
  unfold V3 Rof hOut
  rw [← V2_o m d]
  show StableHlo.after [opOut (F := F)] (V2 m d) (Proc.devRef .tc main_v10) = _
  after_results; rfl

theorem V3_arg (d : Dev nD) (b : Ref sig .tc) (hb : (Proc.devRef (τ := τ) .tc b) ∉ ({Proc.devRef .tc main_v10, Proc.devRef .tc main_v8, Proc.devRef .tc main_v9} : Finset (DevRef τ sig)))
    (hV : V1 m d (Proc.devRef .tc b) = V0 m d (Proc.devRef .tc b)) : V3 m d (Proc.devRef .tc b) = m (aLoc d b) := by
  have h10 : Proc.devRef (τ := τ) .tc b ≠ Proc.devRef .tc main_v10 := fun e => hb (by rw [e]; simp)
  have h8 : Proc.devRef (τ := τ) .tc b ≠ Proc.devRef .tc main_v8 := fun e => hb (by rw [e]; simp)
  have h9 : Proc.devRef (τ := τ) .tc b ≠ Proc.devRef .tc main_v9 := fun e => hb (by rw [e]; simp)
  unfold V3
  rw [(opOut (F := F)).result_of_not_mem (V2 m d) (b := Proc.devRef .tc b) (by simpa using h10)]
  unfold V2 Vout
  rw [Function.update_of_ne h9, Function.update_of_ne h8, hV]
  rfl

/-- @main on device `d`'s TensorCore. -/
theorem hmain (κ : GSem nD τ sig → ℕ) (d : Dev nD) :
    iprop((K (F := F)).ctx EH (PP m) κ ∗ (K (F := F)).tcSt EH d 0 ∗ (K (F := F)).tcRes m ρ d ∗ foldGhost (F := F) d)
      ⊢ wp frame (wpE ((K (F := F)).defs (D (F := F))) 𝒱 (SparseCore.T d) none) Set.univ (main d)
          fun _ => iprop((K (F := F)).tcSt EH d 1 ∗ FIN m (Rof m) d) := by
  unfold SparseCore.Cfg.tcRes
  rw [show (unscopedBufs d (fun b => m ((SparseCore.T d).loc b)) : sProp (MM F)) = held (T d) (Pipeline.ucRefs τ sig) (V0 m d) from Pipeline.unscopedBufs_held d (V0 m d)]
  simp only [main, wp_bind, wp_pure]
  iintro ⟨#Hctx, Hst, ⟨Hb, Hheld, -, -⟩, HG⟩
  hostop; hostop; hostop; hostop; hostop; hostop; hostop; hostop; hostop; hostop
  -- the TensorCore kernel
  iapply (wp_wand_r frame _ _ (Q := fun _ => iprop((K (F := F)).tcSt EH d 0 ∗ boundary (T d) ∗ held (T d) (Pipeline.ucRefs τ sig) (Vout (V1 m d))))) $$ [Hst HG Hb Hheld]
  isplitl [Hst HG Hb Hheld]
  · iapply (wp_fold_tcSt (PP m) κ d (V1 m d))
    isplitr; · iexact Hctx
    isplitl [Hst]; · iexact Hst
    isplitl [HG]; · iexact HG
    isplitl [Hb]; · iexact Hb
    iexact Hheld
  iintro %_ ⟨Hst, Hb, Hheld⟩
  -- the SparseCore call: the two read-only arrays as shares, the output as stretches
  ihave H := (Entails.of_eq (held_take (F := F) d (Vout (V1 m d)))) $$ Hheld
  rw [Vout_i, Vout_t, Vout_o]
  icases H with ⟨Hi, Ht, Ho, Hrest⟩
  ihave Hi' := (shares_split (F := F) (iLoc d) (Aof m d)) $$ Hi
  icases Hi' with ⟨Hir, Hi⟩
  ihave Ht' := (shares_split (F := F) (tLoc d) (Tof m d)) $$ Ht
  icases Ht' with ⟨Htr, Ht⟩
  ihave Ho' := (Entails.of_eq (out_split (F := F) d (Oof m d))) $$ Ho
  iapply ((K (F := F)).wp_run (D (F := F)) 𝒱 (EH := EH) (P := PP m) κ d 0) $$ [Hst Hi Ht Ho' Hir Htr Hrest Hb]
  isplitr; · iexact Hctx
  isplitl [Hst]; · iexact Hst
  isplitl [Hi Ht Ho']
  · rw [st0_eq, tiles_eq]
    isplitl [Hi]; · iexact Hi
    isplitl [Ht]; · iexact Ht
    iexact Ho'
  iintro ⟨Hst, Hdn⟩
  ihave Hdn' := (Entails.of_eq ((dn0_eq m d).trans (tiles_eq m d (Gof m d)))) $$ Hdn
  icases Hdn' with ⟨Hi, Ht, Ho⟩
  ihave Hi' := (shares_join (F := F) (iLoc d) (Aof m d)) $$ [Hir Hi]
  · isplitl [Hir]; · iexact Hir
    iexact Hi
  ihave Ht' := (shares_join (F := F) (tLoc d) (Tof m d)) $$ [Htr Ht]
  · isplitl [Htr]; · iexact Htr
    iexact Ht
  ihave Ho' := (Entails.of_eq (out_split (F := F) d (Gof m d)).symm) $$ Ho
  ihave Hheld := (Entails.of_eq (held_take (F := F) d (V2 m d)).symm) $$ [Hi' Ht' Ho' Hrest]
  · rw [V2_i, V2_t, V2_o, held_rest_congr d (V2 m d) (Vout (V1 m d)) (V2_rest m d)]
    isplitl [Hi']; · iexact Hi'
    isplitl [Ht']; · iexact Ht'
    isplitl [Ho']; · iexact Ho'
    iexact Hrest
  -- the final reshape
  hostop
  imodintro
  isplitl [Hst]; · iexact Hst
  ihave H := (held_fin (F := F) d (V3 m d)) $$ Hheld
  unfold FIN
  rw [V3_out m d, V3_arg m d main_arg0 (by decide) (after_arg0 _), V3_arg m d main_arg1 (by decide) (after_arg1 _), V3_arg m d main_arg2 (by decide) (after_arg2 _),
    V3_arg m d main_arg3 (by decide) (after_arg3 _), V3_arg m d main_arg4 (by decide) (after_arg4 _), V3_arg m d main_arg5 (by decide) (after_arg5 _)]
  iexact H

end Cert.Proof.KB

end
-- ==== Proof.LaunchKB.lean ====
/-
  The kernel program's run: every weakly fair execution of the device's thirty-five threads terminates, nothing
  faulting, with the result array at its value — the reshape of the bag sums over the folded table — and the six
  arguments unchanged.  The launch element funds the launch handshakes and the TensorCore pipeline's staging cells;
  the tiles' obligations come from the body's run at a symbolic tile.
-/
import proofs.«205085_g3753801417095_cont_8to1_b_1540_27_alg».proof.Proof.MainKB

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

/-- The launch element: the handshakes' rounds, the pipeline's staging cells' rounds, no counter. -/
def u₀ : UU := (initOf (K (F := F)).hsCells (K (F := F)).hsToks, (initOf (Pipeline.cells cfgs cellOf_inj) (Pipeline.launchToks cfgs cellOf_inj), 1))

omit [FloatOps F] in
theorem bigSep_emp' {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (F := F) (initOf (K (F := F)).hsCells (K (F := F)).hsToks)) ∗ (bigSep Finset.univ fun d : Dev nD => foldGhost (F := F) d)
        ∗ bigSep Finset.univ fun thr : Thread nD τ => bigSep Finset.univ fun q : Fin 1 => (PP m).x q thr) := by
  unfold u₀
  iintro Hu
  ihave H := (ownU_split (F := F) _ _ _) $$ Hu
  icases H with ⟨HH, HK⟩
  imod (fund_fold (F := F)) $$ HK with HG
  imodintro
  isplitl [HH]; · iexact HH
  isplitl [HG]; · iexact HG
  unfold PP P; dsimp only
  rw [show (bigSep Finset.univ fun _ : Thread nD τ => bigSep Finset.univ fun _ : Fin 1 => (iprop(emp) : sProp (MM F))) = iprop(emp) from by
    rw [bigSep_congr fun _ _ => bigSep_emp' _, bigSep_emp']]
  iempintro

/-- The index words stay table row numbers through the transposition. -/
theorem Aof_range (h : ∀ (d : Dev nD) j, (m (aLoc d main_arg0) j).toNat < 10000) : ∀ d i, (Aof m d i).toNat < 10000 := by
  intro d i
  unfold Aof hIdxT transpose
  exact h d _

/-- What the claim reads of the final memory. -/
def QC : PUnit × MemSt nD τ sig (Elt F) → Prop := fun r => ∀ c : Dev nD,
  r.2.mem (aLoc c main_v10) = Rof m c ∧ r.2.mem (aLoc c main_arg0) = m (aLoc c main_arg0) ∧ r.2.mem (aLoc c main_arg1) = m (aLoc c main_arg1)
    ∧ r.2.mem (aLoc c main_arg2) = m (aLoc c main_arg2) ∧ r.2.mem (aLoc c main_arg3) = m (aLoc c main_arg3)
    ∧ r.2.mem (aLoc c main_arg4) = m (aLoc c main_arg4) ∧ r.2.mem (aLoc c main_arg5) = m (aLoc c main_arg5)

theorem run_main [∀ e, Nonempty (Elt F e)] (hbody : TileBody (F := F)) (h : ∀ (d : Dev nD) j, (m (aLoc d main_arg0) j).toNat < 10000) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl tileShare (Aof m) (Tof m) (Oof m) hbody (Aof_range m h))
    (fun q _ => match q with | 0 => SparseCore.Cfg.VecSplit.of_plain (vecSplit tileShare (Aof m) (Tof m) (Oof m) (Gof m)))
    m ρ main (fun d => foldGhost (F := F) d) (FIN m (Rof m)) (u₀ (F := F)) (sep_elim_left.trans (hu₀ m)) (hmain m ρ) (fq m (Rof m)) (hfin m (Rof m)) (QC m) (fun _ h => h)

end Cert.Proof.KB

end
-- ==== Proof.TileGenKI.lean ====
/-
  What one vector subcore's run of the summing kernel rests on, stated once for every tile and every float instance:
  the tile's own semaphores and scratch buffers among the subcore's; what the three inbound copies land (two row blocks
  of the transposed index array, the folded table); one round of a gather loop — eight gathers off the table at sixteen
  loaded indices each, every one added onto its running sum — as a generic program over the places it loads from, with
  its invariant (running sum `u` after `k` rounds is the spec's `acc` over positions `8·i + u`); and the sums scratch
  as ONE function of how many sixteen-column blocks have been stored (first stretch) or completed (second stretch),
  which the copy-out lands on the tile's 512 output entries as the spec's `out`.
-/
import proofs.«205085_g3753801417095_cont_8to1_b_1540_27_alg».proof.Proof.CommonKI
import proofs.«205085_g3753801417095_cont_8to1_b_1540_27_alg».proof.Proof.TileDefsKI
import proofs.«205085_g3753801417095_cont_8to1_b_1540_27_alg».proof.Proof.TileSpec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] (d : Dev nD) (L : grid1.Coords)

open Lean Elab Tactic Meta in
/-- The program's stored values (`k1_payN`: sums of running sums, spelt as chains of named intermediate sums) written out
    in the goal as the sums they are. -/
elab "unfold_pays" : tactic => do
  let g ← getMainGoal
  let t ← instantiateMVars (← g.getType)
  let isPay (n : Name) : Bool := match n with
    | .str _ s => s.startsWith "k1_pay"
    | _ => false
  let zeta (e : Expr) : MetaM Expr :=
    Core.transform e (pre := fun e => match e with
      | .letE _ _ v b _ => return .visit (b.instantiate1 v)
      | _ => return .continue)
  let t' ← Meta.transform t (pre := fun e => do
    match e.getAppFn with
    | .const n _ =>
      if isPay n then
        match ← Meta.unfoldDefinition? e with
        | some e' => return .visit (← zeta e'.headBeta)
        | none => return .continue
      else return .continue
    | _ => return .continue)
  replaceMainGoal [← g.replaceTargetDefEq t']

/-- The four DMA semaphores of a tile: the two scratch semaphores of the index copies, the two scoped ones. -/
abbrev cellA : GSem nD τ sig := (V d (cV L) (jV L), .dma cc1_scratch4.sem)
abbrev cellB : GSem nD τ sig := (V d (cV L) (jV L), .dma cc1_scratch5.sem)
abbrev cellC : GSem nD τ sig := (V d (cV L) (jV L), .dma cc1_scoped0.sem)
abbrev cellD : GSem nD τ sig := (V d (cV L) (jV L), .dma cc1_scoped1.sem)

omit [FloatOps F] [Named F] in
theorem ownSems0_V :
    (ownSems0 (V d (cV L) (jV L)) : sProp (MM F))
      = iprop(semVal (cellA d L) 0 ∗ semVal (cellB d L) 0 ∗ semVal (cellC d L) 0 ∗ semVal (cellD d L) 0
          ∗ bigSep (((((ownCells (V d (cV L) (jV L))).erase (cellA d L)).erase (cellB d L)).erase (cellC d L)).erase (cellD d L))
              fun g => semVal g 0) := by
  unfold SparseCore.Cfg.ownSems0
  rw [SparseCore.bigSep_erase' ((mem_ownCells (g := cellA d L)).mpr ⟨rfl, by
      show (SemLoc.dma cc1_scratch4.sem : SemLoc sig).isScoped .scVector = true; decide⟩),
    SparseCore.bigSep_erase' (Finset.mem_erase.mpr ⟨by simp [cellA, cellB]; decide, (mem_ownCells (g := cellB d L)).mpr ⟨rfl, by
      show (SemLoc.dma cc1_scratch5.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d L)).mpr ⟨rfl, by show (SemLoc.dma cc1_scoped0.sem : SemLoc sig).isScoped .scVector = true; decide⟩⟩⟩),
    SparseCore.bigSep_erase' (Finset.mem_erase.mpr ⟨by simp [cellC, cellD]; decide, Finset.mem_erase.mpr ⟨by simp [cellB, cellD]; decide, Finset.mem_erase.mpr ⟨by simp [cellA, cellD]; decide,
      (mem_ownCells (g := cellD d L)).mpr ⟨rfl, by show (SemLoc.dma cc1_scoped1.sem : SemLoc sig).isScoped .scVector = true; decide⟩⟩⟩⟩)]

omit [FloatOps F] [Named F] in
/-- The four scratch buffers are among the subcore's own. -/
theorem ownBufs_V :
    (ownBufs (V d (cV L) (jV L)) : sProp (MM F))
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase ((Proc.scVector (cV L) (jV L)).devRef cc1_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩),
    SparseCore.bigSep_erase' (Finset.mem_erase.mpr ⟨fun e => absurd (Proc.devRef_injective _ e) (show (cc1_scratch3 : Ref sig .scVector) ≠ cc1_scratch2 by decide),
      Finset.mem_erase.mpr ⟨fun e => absurd (Proc.devRef_injective _ e) (show (cc1_scratch3 : Ref sig .scVector) ≠ cc1_scratch1 by decide),
      Finset.mem_erase.mpr ⟨fun e => absurd (Proc.devRef_injective _ e) (show (cc1_scratch3 : Ref sig .scVector) ≠ cc1_scratch0 by decide),
    SparseCore.Cfg.mem_ownRefs_of_owner (p := Proc.scVector (cV L) (jV L)) (b := (Proc.scVector (cV L) (jV L)).devRef cc1_scratch3) rfl⟩⟩⟩)]

/-! ## The arrays as the tile's memrefs address them -/

omit [FloatOps F] [Named F] in
theorem pts_i (q : PosShare TreeShare) (f : Buf (Elt F) (iLoc d)) :
    ((Memref.whole main_v0_scv : Memref sig .scVector .hbm S200x16384 .i32).view.loc (V d (cV L) (jV L)) ↦{q} f : sProp (MM F)) = iLoc d ↦{q} f := by
  simp only [Memref.view_whole, View.set_whole]
omit [FloatOps F] [Named F] in
theorem pts_t (q : PosShare TreeShare) (f : Buf (Elt F) (tLoc d)) :
    ((Memref.whole main_v8_scv : Memref sig .scVector .hbm S10000 .f32).view.loc (V d (cV L) (jV L)) ↦{q} f : sProp (MM F)) = tLoc d ↦{q} f := by
  simp only [Memref.view_whole, View.set_whole]
omit [FloatOps F] [Named F] in
theorem pts_o (f : Buf (Elt F) (oLoc d)) :
    ((oSl L).view.loc (V d (cV L) (jV L)) ↦[(oSl L).view.set]{fullShare} f : sProp (MM F)) = oLoc d ↦[oSet L]{fullShare} f := rfl
omit [FloatOps F] [Named F] in
theorem pts_s0 (f : Buf (Elt F) ((V d (cV L) (jV L)).loc cc1_scratch0)) :
    ((Memref.whole cc1_scratch0 : Memref sig .scVector .vmem S104x512 .i32).view.loc (V d (cV L) (jV L)) ↦{fullShare} f : sProp (MM F)) = (V d (cV L) (jV L)).loc cc1_scratch0 ↦{fullShare} f := rfl
omit [FloatOps F] [Named F] in
theorem pts_s1 (f : Buf (Elt F) ((V d (cV L) (jV L)).loc cc1_scratch1)) :
    ((Memref.whole cc1_scratch1 : Memref sig .scVector .vmem S96x512 .i32).view.loc (V d (cV L) (jV L)) ↦{fullShare} f : sProp (MM F)) = (V d (cV L) (jV L)).loc cc1_scratch1 ↦{fullShare} f := rfl
omit [FloatOps F] [Named F] in
theorem pts_s2 (f : Buf (Elt F) ((V d (cV L) (jV L)).loc cc1_scratch2)) :
    ((Memref.whole cc1_scratch2 : Memref sig .scVector .vmem S10000 .f32).view.loc (V d (cV L) (jV L)) ↦{fullShare} f : sProp (MM F)) = (V d (cV L) (jV L)).loc cc1_scratch2 ↦{fullShare} f := rfl
omit [FloatOps F] [Named F] in
theorem pts_s3 (f : Buf (Elt F) ((V d (cV L) (jV L)).loc cc1_scratch3)) :
    ((Memref.whole cc1_scratch3 : Memref sig .scVector .vmem S512 .f32).view.loc (V d (cV L) (jV L)) ↦{fullShare} f : sProp (MM F)) = (V d (cV L) (jV L)).loc cc1_scratch3 ↦{fullShare} f := rfl

/-! ## What the loops compute -/

/-- The first of the 512 batch columns tile `L` sums. -/
def colBase (L : grid1.Coords) : ℕ := 1024 * (L 1).val + 512 * (L 0).val

/-- The table scalar of bag position `r0 + h` of the tile's column `b`. -/
def term (A : Buf (Elt F) (iLoc d)) (Tt : Buf (Elt F) (tLoc d)) (r0 b h : ℕ) : F .f32 :=
  Cert.TileSpec.tAt Tt (Cert.TileSpec.idxAt A (r0 + h) (colBase L + b))

/-- Running sum `u` of a stretch after `k` rounds, on the sixteen lanes of the column block at `c`. -/
def accV (A : Buf (Elt F) (iLoc d)) (Tt : Buf (Elt F) (tLoc d)) (r0 c u k : ℕ) : FVec F S16 .f32 :=
  fun x => Cert.TileSpec.acc Cert.TileSpec.zero (fun i => term d L A Tt r0 (c + (x 0).val) (i * 8 + u)) k

/-- The eight running sums after `k` rounds. -/
def accs8 (A : Buf (Elt F) (iLoc d)) (Tt : Buf (Elt F) (tLoc d)) (r0 c k : ℕ) :
    FVec F S16 .f32 × FVec F S16 .f32 × FVec F S16 .f32 × FVec F S16 .f32 × FVec F S16 .f32 × FVec F S16 .f32 × FVec F S16 .f32 × FVec F S16 .f32 :=
  (accV d L A Tt r0 c 0 k, accV d L A Tt r0 c 1 k, accV d L A Tt r0 c 2 k, accV d L A Tt r0 c 3 k, accV d L A Tt r0 c 4 k, accV d L A Tt r0 c 5 k, accV d L A Tt r0 c 6 k, accV d L A Tt r0 c 7 k)

omit [FloatOps F] [Named F] in
theorem pts_s2_access (f : Buf (Elt F) ((V d (cV L) (jV L)).loc cc1_scratch2)) :
    ((((Memref.whole cc1_scratch2 : Memref sig .scVector .vmem S10000 .f32).access (.whole S10000)).loc (V d (cV L) (jV L)) ↦{fullShare} f : sProp (MM F)))
      = ((Memref.whole cc1_scratch2 : Memref sig .scVector .vmem S10000 .f32).view.loc (V d (cV L) (jV L)) ↦{fullShare} f) := rfl

theorem chk_ok {v : IVec S16 32} (hv : ∀ x, (v x).toNat < 10000) : ∀ a x, ((![v] : Fin 1 → IVec S16 32) a x).toNat < S10000.size a := by
  intro a x
  obtain rfl : a = 0 := Subsingleton.elim _ _
  exact hv x

omit [Named F] in
theorem acc_step (A : Buf (Elt F) (iLoc d)) (Tt : Buf (Elt F) (tLoc d)) (r0 c u k : ℕ) (a : FVec F S16 .f32) (ha : a = accV d L A Tt r0 c u k)
    (G : FVec F S16 .f32) (hG : ∀ x, G x = term d L A Tt r0 (c + (x 0).val) (8 * k + u)) : addf a G = accV d L A Tt r0 c u (k + 1) := by
  subst ha
  funext x
  show FloatOps.addf _ (G x) = FloatOps.addf _ _
  rw [hG x, Nat.mul_comm 8 k]
  rfl

/-! ## What the copies land -/

/-- The two row blocks of the index array a tile copies in: rows 0‥103 and 104‥199 of its 512 columns. -/
abbrev iSl0 (L : grid1.Coords) : Memref sig .scVector .hbm S104x512 .i32 :=
  (Memref.whole main_v0_scv : Memref sig .scVector .hbm S200x16384 .i32).slice (Rect.unit (s := S200x16384) (k1_off1 L) S104x512.size (k1_off1_inb L)) (fun _ => rfl)
abbrev iSl1 (L : grid1.Coords) : Memref sig .scVector .hbm S96x512 .i32 :=
  (Memref.whole main_v0_scv : Memref sig .scVector .hbm S200x16384 .i32).slice (Rect.unit (s := S200x16384) (k1_off2 L) S96x512.size (k1_off2_inb L)) (fun _ => rfl)

/-- What the index scratches and the table scratch hold once their copies have landed. -/
def s0c (A : Buf (Elt F) (iLoc d)) : Buf (Elt F) ((V d (cV L) (jV L)).loc cc1_scratch0) := (iSl0 L).view.read (Elt F) A
def s1c (A : Buf (Elt F) (iLoc d)) : Buf (Elt F) ((V d (cV L) (jV L)).loc cc1_scratch1) := (iSl1 L).view.read (Elt F) A
def tvc (Tt : Buf (Elt F) (tLoc d)) : Buf (Elt F) ((V d (cV L) (jV L)).loc cc1_scratch2) := (Memref.whole main_v8_scv : Memref sig .scVector .hbm S10000 .f32).view.read (Elt F) Tt

omit [FloatOps F] [Named F] in
theorem land0 (A : Buf (Elt F) (iLoc d)) (f0 : Buf (Elt F) ((V d (cV L) (jV L)).loc cc1_scratch0)) :
    ((Memref.whole cc1_scratch0 : Memref sig .scVector .vmem S104x512 .i32).view.loc (V d (cV L) (jV L)) ↦{fullShare}
        View.write (Elt F) (Memref.whole cc1_scratch0 : Memref sig .scVector .vmem S104x512 .i32).view f0 (ReadAs.same.apply ((iSl0 L).view.read (Elt F) A)) Finset.univ : sProp (MM F))
      = ((Memref.whole cc1_scratch0 : Memref sig .scVector .vmem S104x512 .i32).view.loc (V d (cV L) (jV L)) ↦{fullShare} s0c d L A) := by
  congr 1; exact View.write_whole_univ _ _ _
omit [FloatOps F] [Named F] in
theorem land1 (A : Buf (Elt F) (iLoc d)) (f0 : Buf (Elt F) ((V d (cV L) (jV L)).loc cc1_scratch1)) :
    ((Memref.whole cc1_scratch1 : Memref sig .scVector .vmem S96x512 .i32).view.loc (V d (cV L) (jV L)) ↦{fullShare}
        View.write (Elt F) (Memref.whole cc1_scratch1 : Memref sig .scVector .vmem S96x512 .i32).view f0 (ReadAs.same.apply ((iSl1 L).view.read (Elt F) A)) Finset.univ : sProp (MM F))
      = ((Memref.whole cc1_scratch1 : Memref sig .scVector .vmem S96x512 .i32).view.loc (V d (cV L) (jV L)) ↦{fullShare} s1c d L A) := by
  congr 1; exact View.write_whole_univ _ _ _
omit [FloatOps F] [Named F] in
theorem land2 (Tt : Buf (Elt F) (tLoc d)) (f0 : Buf (Elt F) ((V d (cV L) (jV L)).loc cc1_scratch2)) :
    ((Memref.whole cc1_scratch2 : Memref sig .scVector .vmem S10000 .f32).view.loc (V d (cV L) (jV L)) ↦{fullShare}
        View.write (Elt F) (Memref.whole cc1_scratch2 : Memref sig .scVector .vmem S10000 .f32).view f0 (ReadAs.same.apply ((Memref.whole main_v8_scv : Memref sig .scVector .hbm S10000 .f32).view.read (Elt F) Tt)) Finset.univ : sProp (MM F))
      = ((Memref.whole cc1_scratch2 : Memref sig .scVector .vmem S10000 .f32).view.loc (V d (cV L) (jV L)) ↦{fullShare} tvc d L Tt) := by
  congr 1; exact View.write_whole_univ _ _ _

omit [FloatOps F] [Named F] in
theorem hs0c (A : Buf (Elt F) (iLoc d)) : ∀ y, (s0c d L A y).toNat = Cert.TileSpec.idxAt A (0 + (y 0).val) (colBase L + (y 1).val) := by
  intro y
  have hy0 : (y 0).val < 104 := (y 0).isLt
  have hy1 : (y 1).val < 512 := (y 1).isLt
  have hL0 : (L 0).val < 2 := (L 0).isLt
  have hL1 : (L 1).val < 16 := (L 1).isLt
  have q0 : k1_off1 L 0 = 0 := congrFun (k1_off1_eq L) 0
  have q1 : k1_off1 L 1 = 1024 * (L 1).val + 512 * (L 0).val := congrFun (k1_off1_eq L) 1
  unfold s0c Cert.TileSpec.idxAt
  rw [View.read_apply]
  simp only [cast_eq]
  have key : (iSl0 L).view.emb y = ValueIdx.ix2 ⟨(0 + (y 0).val) % 200, Nat.mod_lt _ (by norm_num)⟩ ⟨(colBase L + (y 1).val) % 16384, Nat.mod_lt _ (by norm_num)⟩ := by
    refine (ValueIdx.eq_ix2 _).trans ?_
    congr 1 <;> apply Fin.ext
    · show k1_off1 L 0 + 1 * (y 0).val = (0 + (y 0).val) % 200
      rw [q0]; omega
    · show k1_off1 L 1 + 1 * (y 1).val = (colBase L + (y 1).val) % 16384
      rw [q1]; unfold colBase; omega
  rw [key]

omit [FloatOps F] [Named F] in
theorem hs1c (A : Buf (Elt F) (iLoc d)) : ∀ y, (s1c d L A y).toNat = Cert.TileSpec.idxAt A (104 + (y 0).val) (colBase L + (y 1).val) := by
  intro y
  have hy0 : (y 0).val < 96 := (y 0).isLt
  have hy1 : (y 1).val < 512 := (y 1).isLt
  have hL0 : (L 0).val < 2 := (L 0).isLt
  have hL1 : (L 1).val < 16 := (L 1).isLt
  have q0 : k1_off2 L 0 = 104 := congrFun (k1_off2_eq L) 0
  have q1 : k1_off2 L 1 = 1024 * (L 1).val + 512 * (L 0).val := congrFun (k1_off2_eq L) 1
  unfold s1c Cert.TileSpec.idxAt
  rw [View.read_apply]
  simp only [cast_eq]
  have key : (iSl1 L).view.emb y = ValueIdx.ix2 ⟨(104 + (y 0).val) % 200, Nat.mod_lt _ (by norm_num)⟩ ⟨(colBase L + (y 1).val) % 16384, Nat.mod_lt _ (by norm_num)⟩ := by
    refine (ValueIdx.eq_ix2 _).trans ?_
    congr 1 <;> apply Fin.ext
    · show k1_off2 L 0 + 1 * (y 0).val = (104 + (y 0).val) % 200
      rw [q0]; omega
    · show k1_off2 L 1 + 1 * (y 1).val = (colBase L + (y 1).val) % 16384
      rw [q1]; unfold colBase; omega
  rw [key]

omit [Named F] in
theorem htvc (Tt : Buf (Elt F) (tLoc d)) : ∀ y, tvc d L Tt y = Cert.TileSpec.tAt Tt (y 0).val := by
  intro y
  unfold tvc Cert.TileSpec.tAt
  show Tt y = _
  have key : y = ValueIdx.ix1 ⟨(y 0).val % 10000, Nat.mod_lt _ (by norm_num)⟩ := by
    refine (ValueIdx.eq_ix1 (n := 10000) y).trans ?_
    congr 1; apply Fin.ext
    exact (Nat.mod_eq_of_lt (y 0).isLt).symm
  exact congrArg Tt key

omit [FloatOps F] [Named F] in
theorem idx_lt0 (A : Buf (Elt F) (iLoc d)) (hin : ∀ i, (A i).toNat < 10000) (s0 : Buf (Elt F) ((V d (cV L) (jV L)).loc cc1_scratch0))
    (hs0 : ∀ y, (s0 y).toNat = Cert.TileSpec.idxAt A (0 + (y 0).val) (colBase L + (y 1).val)) (y) : (s0 y).toNat < 10000 := by
  rw [hs0]; exact hin _

omit [Named F] in
/-- What one gather step reads: the table scalars of one bag position of the sixteen columns of a block. -/
theorem gather_val0 (A : Buf (Elt F) (iLoc d)) (Tt : Buf (Elt F) (tLoc d)) (s0 : Buf (Elt F) ((V d (cV L) (jV L)).loc cc1_scratch0)) (tv : Buf (Elt F) ((V d (cV L) (jV L)).loc cc1_scratch2))
    (hs0 : ∀ y, (s0 y).toNat = Cert.TileSpec.idxAt A (0 + (y 0).val) (colBase L + (y 1).val))
    (htv : ∀ y, tv y = Cert.TileSpec.tAt Tt (y 0).val)
    (o : Fin 2 → ℕ) (inb : ∀ a, o a + S1x16.size a ≤ S104x512.size a) (row c : ℕ) (ho0 : o 0 = row) (ho1 : o 1 = c)
    (hh : ∀ a x, ((![shapeCast S16 ((Memref.whole cc1_scratch0 : Memref sig .scVector .vmem S104x512 .i32).view.readAt (Elt F) (Rect.unit (s := S104x512) o S1x16.size inb).toLoadRect s0) shapeCasts_S1x16_S16] : Fin 1 → IVec S16 32) a x).toNat < S10000.size a)
    (x : S16.Idx) :
    loadIdx (((Memref.whole cc1_scratch2 : Memref sig .scVector .vmem S10000 .f32).access (.whole S10000)).read (Elt F) tv) ![shapeCast S16 ((Memref.whole cc1_scratch0 : Memref sig .scVector .vmem S104x512 .i32).view.readAt (Elt F) (Rect.unit (s := S104x512) o S1x16.size inb).toLoadRect s0) shapeCasts_S1x16_S16] hh x
      = term d L A Tt 0 (c + (x 0).val) row := by
  unfold loadIdx term
  rw [View.read_apply]
  simp only [cast_eq]
  rw [htv]
  congr 1
  have e2 : ∀ z, (((Memref.whole cc1_scratch2 : Memref sig .scVector .vmem S10000 .f32).access (Rect.whole S10000)).emb z) = z := fun z => Rect.emb_whole_apply _ z
  rw [e2]
  show (shapeCast S16 ((Memref.whole cc1_scratch0 : Memref sig .scVector .vmem S104x512 .i32).view.readAt (Elt F) (Rect.unit (s := S104x512) o S1x16.size inb).toLoadRect s0) shapeCasts_S1x16_S16 x).toNat = _
  unfold shapeCast
  rw [Shape.reshapeEquiv_cons_one]
  show (s0 ((Rect.unit (s := S104x512) o S1x16.size inb).toLoadRect.idx (Fin.cons ⟨0, Nat.one_pos⟩ x))).toNat = _
  rw [hs0]
  have i0 : (((Rect.unit (s := S104x512) o S1x16.size inb).toLoadRect.idx (Fin.cons ⟨0, Nat.one_pos⟩ x)) 0 : ℕ) = o 0 + 1 * 0 := rfl
  have i1 : (((Rect.unit (s := S104x512) o S1x16.size inb).toLoadRect.idx (Fin.cons ⟨0, Nat.one_pos⟩ x)) 1 : ℕ) = o 1 + 1 * (x 0).val := rfl
  rw [i0, i1, ho0, ho1, Nat.mul_zero, Nat.add_zero, Nat.one_mul]

omit [FloatOps F] [Named F] in
/-- The sixteen words a step loads off the index scratch are table rows: they are words of the index array. -/
theorem chk_rd0 (A : Buf (Elt F) (iLoc d)) (hin : ∀ i, (A i).toNat < 10000) (s0 : Buf (Elt F) ((V d (cV L) (jV L)).loc cc1_scratch0))
    (hs0 : ∀ y, (s0 y).toNat = Cert.TileSpec.idxAt A (0 + (y 0).val) (colBase L + (y 1).val))
    (o : Fin 2 → ℕ) (inb : ∀ a, o a + S1x16.size a ≤ S104x512.size a) :
    ∀ a x, ((![shapeCast S16 ((Memref.whole cc1_scratch0 : Memref sig .scVector .vmem S104x512 .i32).view.readAt (Elt F) (Rect.unit (s := S104x512) o S1x16.size inb).toLoadRect s0) shapeCasts_S1x16_S16] : Fin 1 → IVec S16 32) a x).toNat < S10000.size a :=
  chk_ok (fun x => idx_lt0 d L A hin s0 hs0 _)

/-- One gather step of a stretch-0 loop as printed: where it loads its sixteen indices and the check it assumes of them. -/
structure GStep0 (n : ℕ) where
  off : Fin n → Fin 2 → ℕ
  inb : ∀ k a, off k a + S1x16.size a ≤ S104x512.size a
  chk : IVec S16 32 → Prop
  dec : ∀ v, Decidable (chk v)
  idx : ∀ v, chk v → ∀ a x, ((![v] : Fin 1 → IVec S16 32) a x).toNat < S10000.size a
  ok : ∀ v, (∀ a x, ((![v] : Fin 1 → IVec S16 32) a x).toNat < S10000.size a) → chk v

/-- A stretch-0 loop's round: eight gather steps, each added onto its running sum. -/
def gBody0 (L : grid1.Coords) (n : ℕ) (t0 t1 t2 t3 t4 t5 t6 t7 : GStep0 n) :
    Fin n → (FVec F S16 .f32 × FVec F S16 .f32 × FVec F S16 .f32 × FVec F S16 .f32 × FVec F S16 .f32 × FVec F S16 .f32 × FVec F S16 .f32 × FVec F S16 .f32) → Prog (TpuEff nD τ sig (Elt F) Λ₀ (.scVector ((L 0).castLE hcore1) ((L 1).castLE hsub1))) (FVec F S16 .f32 × FVec F S16 .f32 × FVec F S16 .f32 × FVec F S16 .f32 × FVec F S16 .f32 × FVec F S16 .f32 × FVec F S16 .f32 × FVec F S16 .f32) :=
  fun k (a0, a1, a2, a3, a4, a5, a6, a7) => do
    let l0 ← Prog.lift (.load (Memref.whole cc1_scratch0 : Memref sig .scVector .vmem S104x512 .i32) (Rect.unit (s := S104x512) (t0.off k) S1x16.size (t0.inb k)).toLoadRect (View.loadsAt_vmem h_S1x16))
    let w0 ← Prog.lift (TpuEff.assume (t0.chk (shapeCast S16 l0 shapeCasts_S1x16_S16)) (t0.dec _))
    let g0 ← SparseCore.vectorLoadIdx (Memref.whole cc1_scratch2 : Memref sig .scVector .vmem S10000 .f32) ![shapeCast S16 l0 shapeCasts_S1x16_S16] (t0.idx _ w0.down) (View.loads_vmem h_S10000)
    let l1 ← Prog.lift (.load (Memref.whole cc1_scratch0 : Memref sig .scVector .vmem S104x512 .i32) (Rect.unit (s := S104x512) (t1.off k) S1x16.size (t1.inb k)).toLoadRect (View.loadsAt_vmem h_S1x16))
    let w1 ← Prog.lift (TpuEff.assume (t1.chk (shapeCast S16 l1 shapeCasts_S1x16_S16)) (t1.dec _))
    let g1 ← SparseCore.vectorLoadIdx (Memref.whole cc1_scratch2 : Memref sig .scVector .vmem S10000 .f32) ![shapeCast S16 l1 shapeCasts_S1x16_S16] (t1.idx _ w1.down) (View.loads_vmem h_S10000)
    let l2 ← Prog.lift (.load (Memref.whole cc1_scratch0 : Memref sig .scVector .vmem S104x512 .i32) (Rect.unit (s := S104x512) (t2.off k) S1x16.size (t2.inb k)).toLoadRect (View.loadsAt_vmem h_S1x16))
    let w2 ← Prog.lift (TpuEff.assume (t2.chk (shapeCast S16 l2 shapeCasts_S1x16_S16)) (t2.dec _))
    let g2 ← SparseCore.vectorLoadIdx (Memref.whole cc1_scratch2 : Memref sig .scVector .vmem S10000 .f32) ![shapeCast S16 l2 shapeCasts_S1x16_S16] (t2.idx _ w2.down) (View.loads_vmem h_S10000)
    let l3 ← Prog.lift (.load (Memref.whole cc1_scratch0 : Memref sig .scVector .vmem S104x512 .i32) (Rect.unit (s := S104x512) (t3.off k) S1x16.size (t3.inb k)).toLoadRect (View.loadsAt_vmem h_S1x16))
    let w3 ← Prog.lift (TpuEff.assume (t3.chk (shapeCast S16 l3 shapeCasts_S1x16_S16)) (t3.dec _))
    let g3 ← SparseCore.vectorLoadIdx (Memref.whole cc1_scratch2 : Memref sig .scVector .vmem S10000 .f32) ![shapeCast S16 l3 shapeCasts_S1x16_S16] (t3.idx _ w3.down) (View.loads_vmem h_S10000)
    let l4 ← Prog.lift (.load (Memref.whole cc1_scratch0 : Memref sig .scVector .vmem S104x512 .i32) (Rect.unit (s := S104x512) (t4.off k) S1x16.size (t4.inb k)).toLoadRect (View.loadsAt_vmem h_S1x16))
    let w4 ← Prog.lift (TpuEff.assume (t4.chk (shapeCast S16 l4 shapeCasts_S1x16_S16)) (t4.dec _))
    let g4 ← SparseCore.vectorLoadIdx (Memref.whole cc1_scratch2 : Memref sig .scVector .vmem S10000 .f32) ![shapeCast S16 l4 shapeCasts_S1x16_S16] (t4.idx _ w4.down) (View.loads_vmem h_S10000)
    let l5 ← Prog.lift (.load (Memref.whole cc1_scratch0 : Memref sig .scVector .vmem S104x512 .i32) (Rect.unit (s := S104x512) (t5.off k) S1x16.size (t5.inb k)).toLoadRect (View.loadsAt_vmem h_S1x16))
    let w5 ← Prog.lift (TpuEff.assume (t5.chk (shapeCast S16 l5 shapeCasts_S1x16_S16)) (t5.dec _))
    let g5 ← SparseCore.vectorLoadIdx (Memref.whole cc1_scratch2 : Memref sig .scVector .vmem S10000 .f32) ![shapeCast S16 l5 shapeCasts_S1x16_S16] (t5.idx _ w5.down) (View.loads_vmem h_S10000)
    let l6 ← Prog.lift (.load (Memref.whole cc1_scratch0 : Memref sig .scVector .vmem S104x512 .i32) (Rect.unit (s := S104x512) (t6.off k) S1x16.size (t6.inb k)).toLoadRect (View.loadsAt_vmem h_S1x16))
    let w6 ← Prog.lift (TpuEff.assume (t6.chk (shapeCast S16 l6 shapeCasts_S1x16_S16)) (t6.dec _))
    let g6 ← SparseCore.vectorLoadIdx (Memref.whole cc1_scratch2 : Memref sig .scVector .vmem S10000 .f32) ![shapeCast S16 l6 shapeCasts_S1x16_S16] (t6.idx _ w6.down) (View.loads_vmem h_S10000)
    let l7 ← Prog.lift (.load (Memref.whole cc1_scratch0 : Memref sig .scVector .vmem S104x512 .i32) (Rect.unit (s := S104x512) (t7.off k) S1x16.size (t7.inb k)).toLoadRect (View.loadsAt_vmem h_S1x16))
    let w7 ← Prog.lift (TpuEff.assume (t7.chk (shapeCast S16 l7 shapeCasts_S1x16_S16)) (t7.dec _))
    let g7 ← SparseCore.vectorLoadIdx (Memref.whole cc1_scratch2 : Memref sig .scVector .vmem S10000 .f32) ![shapeCast S16 l7 shapeCasts_S1x16_S16] (t7.idx _ w7.down) (View.loads_vmem h_S10000)
    pure (addf a0 g0, addf a1 g1, addf a2 g2, addf a3 g3, addf a4 g4, addf a5 g5, addf a6 g6, addf a7 g7)

/-- A stretch-0 loop's invariant: the running sums are the spec's; the index scratch and the table scratch as they stand. -/
def inv0 (A : Buf (Elt F) (iLoc d)) (Tt : Buf (Elt F) (tLoc d)) (s0 : Buf (Elt F) ((V d (cV L) (jV L)).loc cc1_scratch0)) (tv : Buf (Elt F) ((V d (cV L) (jV L)).loc cc1_scratch2))
    (c : ℕ) (k : ℕ) (acc : FVec F S16 .f32 × FVec F S16 .f32 × FVec F S16 .f32 × FVec F S16 .f32 × FVec F S16 .f32 × FVec F S16 .f32 × FVec F S16 .f32 × FVec F S16 .f32) : sProp (MM F) :=
  iprop(⌜acc = accs8 d L A Tt 0 c k⌝
    ∗ ((Memref.whole cc1_scratch0 : Memref sig .scVector .vmem S104x512 .i32).view.loc (V d (cV L) (jV L)) ↦{fullShare} s0)
    ∗ ((Memref.whole cc1_scratch2 : Memref sig .scVector .vmem S10000 .f32).view.loc (V d (cV L) (jV L)) ↦{fullShare} tv))

theorem region0 (A : Buf (Elt F) (iLoc d)) (Tt : Buf (Elt F) (tLoc d)) (s0 : Buf (Elt F) ((V d (cV L) (jV L)).loc cc1_scratch0)) (tv : Buf (Elt F) ((V d (cV L) (jV L)).loc cc1_scratch2))
    (hin : ∀ i, (A i).toNat < 10000)
    (hs0 : ∀ y, (s0 y).toNat = Cert.TileSpec.idxAt A (0 + (y 0).val) (colBase L + (y 1).val))
    (htv : ∀ y, tv y = Cert.TileSpec.tAt Tt (y 0).val)
    (c : ℕ) (n : ℕ) (t0 t1 t2 t3 t4 t5 t6 t7 : GStep0 n)
    (h0 : ∀ k, (t0.off k) 0 = 8 * k.val + 0 ∧ (t0.off k) 1 = c)
    (h1 : ∀ k, (t1.off k) 0 = 8 * k.val + 1 ∧ (t1.off k) 1 = c)
    (h2 : ∀ k, (t2.off k) 0 = 8 * k.val + 2 ∧ (t2.off k) 1 = c)
    (h3 : ∀ k, (t3.off k) 0 = 8 * k.val + 3 ∧ (t3.off k) 1 = c)
    (h4 : ∀ k, (t4.off k) 0 = 8 * k.val + 4 ∧ (t4.off k) 1 = c)
    (h5 : ∀ k, (t5.off k) 0 = 8 * k.val + 5 ∧ (t5.off k) 1 = c)
    (h6 : ∀ k, (t6.off k) 0 = 8 * k.val + 6 ∧ (t6.off k) 1 = c)
    (h7 : ∀ k, (t7.off k) 0 = 8 * k.val + 7 ∧ (t7.off k) 1 = c)
    (k : Fin n) (acc : FVec F S16 .f32 × FVec F S16 .f32 × FVec F S16 .f32 × FVec F S16 .f32 × FVec F S16 .f32 × FVec F S16 .f32 × FVec F S16 .f32 × FVec F S16 .f32) :
    inv0 d L A Tt s0 tv c k acc
      ⊢ wp frame (wpE (defs₀ (F := F)) 𝒱₀ (V d (cV L) (jV L)) none) Set.univ (gBody0 L n t0 t1 t2 t3 t4 t5 t6 t7 k acc) (inv0 d L A Tt s0 tv c (k.val + 1)) := by
  obtain ⟨a0, a1, a2, a3, a4, a5, a6, a7⟩ := acc
  unfold gBody0
  simp only [Prog.lift, Prog.bind_op, Prog.bind_ret, Prog.pure_eq_ret]
  unfold inv0
  iintro ⟨%hacc, Hs0, Hs2⟩
  ihave Hs2 := (Entails.of_eq (pts_s2_access (F := F) d L _).symm) $$ Hs2
  iapply (wp_load 𝒱₀ (V d (cV L) (jV L)) none Set.univ (m := (Memref.whole cc1_scratch0 : Memref sig .scVector .vmem S104x512 .i32)) (S := Finset.univ) (Finset.subset_univ _)) $$ Hs0; iintro Hs0
  rw [wp_assume_of _ _ _ _ (t0.ok _ (chk_rd0 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  iapply (wp_load 𝒱₀ (V d (cV L) (jV L)) none Set.univ (m := (Memref.whole cc1_scratch0 : Memref sig .scVector .vmem S104x512 .i32)) (S := Finset.univ) (Finset.subset_univ _)) $$ Hs0; iintro Hs0
  rw [wp_assume_of _ _ _ _ (t1.ok _ (chk_rd0 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  iapply (wp_load 𝒱₀ (V d (cV L) (jV L)) none Set.univ (m := (Memref.whole cc1_scratch0 : Memref sig .scVector .vmem S104x512 .i32)) (S := Finset.univ) (Finset.subset_univ _)) $$ Hs0; iintro Hs0
  rw [wp_assume_of _ _ _ _ (t2.ok _ (chk_rd0 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  iapply (wp_load 𝒱₀ (V d (cV L) (jV L)) none Set.univ (m := (Memref.whole cc1_scratch0 : Memref sig .scVector .vmem S104x512 .i32)) (S := Finset.univ) (Finset.subset_univ _)) $$ Hs0; iintro Hs0
  rw [wp_assume_of _ _ _ _ (t3.ok _ (chk_rd0 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  iapply (wp_load 𝒱₀ (V d (cV L) (jV L)) none Set.univ (m := (Memref.whole cc1_scratch0 : Memref sig .scVector .vmem S104x512 .i32)) (S := Finset.univ) (Finset.subset_univ _)) $$ Hs0; iintro Hs0
  rw [wp_assume_of _ _ _ _ (t4.ok _ (chk_rd0 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  iapply (wp_load 𝒱₀ (V d (cV L) (jV L)) none Set.univ (m := (Memref.whole cc1_scratch0 : Memref sig .scVector .vmem S104x512 .i32)) (S := Finset.univ) (Finset.subset_univ _)) $$ Hs0; iintro Hs0
  rw [wp_assume_of _ _ _ _ (t5.ok _ (chk_rd0 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  iapply (wp_load 𝒱₀ (V d (cV L) (jV L)) none Set.univ (m := (Memref.whole cc1_scratch0 : Memref sig .scVector .vmem S104x512 .i32)) (S := Finset.univ) (Finset.subset_univ _)) $$ Hs0; iintro Hs0
  rw [wp_assume_of _ _ _ _ (t6.ok _ (chk_rd0 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  iapply (wp_load 𝒱₀ (V d (cV L) (jV L)) none Set.univ (m := (Memref.whole cc1_scratch0 : Memref sig .scVector .vmem S104x512 .i32)) (S := Finset.univ) (Finset.subset_univ _)) $$ Hs0; iintro Hs0
  rw [wp_assume_of _ _ _ _ (t7.ok _ (chk_rd0 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  rw [wp_ret]; imodintro
  isplitr
  · ipureintro
    unfold accs8 at hacc ⊢
    obtain ⟨e0, e1, e2, e3, e4, e5, e6, e7⟩ : a0 = accV d L A Tt 0 c 0 k.val ∧ a1 = accV d L A Tt 0 c 1 k.val ∧ a2 = accV d L A Tt 0 c 2 k.val ∧ a3 = accV d L A Tt 0 c 3 k.val ∧ a4 = accV d L A Tt 0 c 4 k.val ∧ a5 = accV d L A Tt 0 c 5 k.val ∧ a6 = accV d L A Tt 0 c 6 k.val ∧ a7 = accV d L A Tt 0 c 7 k.val := by
      simp only [Prod.mk.injEq] at hacc; exact hacc
    refine Prod.ext ?_ (Prod.ext ?_ (Prod.ext ?_ (Prod.ext ?_ (Prod.ext ?_ (Prod.ext ?_ (Prod.ext ?_ ?_))))))
    · exact acc_step d L A Tt 0 c 0 k.val _ e0 _ (fun x => gather_val0 d L A Tt s0 tv hs0 htv _ _ _ _ (h0 k).1 (h0 k).2 _ x)
    · exact acc_step d L A Tt 0 c 1 k.val _ e1 _ (fun x => gather_val0 d L A Tt s0 tv hs0 htv _ _ _ _ (h1 k).1 (h1 k).2 _ x)
    · exact acc_step d L A Tt 0 c 2 k.val _ e2 _ (fun x => gather_val0 d L A Tt s0 tv hs0 htv _ _ _ _ (h2 k).1 (h2 k).2 _ x)
    · exact acc_step d L A Tt 0 c 3 k.val _ e3 _ (fun x => gather_val0 d L A Tt s0 tv hs0 htv _ _ _ _ (h3 k).1 (h3 k).2 _ x)
    · exact acc_step d L A Tt 0 c 4 k.val _ e4 _ (fun x => gather_val0 d L A Tt s0 tv hs0 htv _ _ _ _ (h4 k).1 (h4 k).2 _ x)
    · exact acc_step d L A Tt 0 c 5 k.val _ e5 _ (fun x => gather_val0 d L A Tt s0 tv hs0 htv _ _ _ _ (h5 k).1 (h5 k).2 _ x)
    · exact acc_step d L A Tt 0 c 6 k.val _ e6 _ (fun x => gather_val0 d L A Tt s0 tv hs0 htv _ _ _ _ (h6 k).1 (h6 k).2 _ x)
    · exact acc_step d L A Tt 0 c 7 k.val _ e7 _ (fun x => gather_val0 d L A Tt s0 tv hs0 htv _ _ _ _ (h7 k).1 (h7 k).2 _ x)
  isplitl [Hs0]
  · iexact Hs0
  · iapply (Entails.of_eq (pts_s2_access (F := F) d L _)); iexact Hs2

omit [FloatOps F] [Named F] in
theorem idx_lt1 (A : Buf (Elt F) (iLoc d)) (hin : ∀ i, (A i).toNat < 10000) (s0 : Buf (Elt F) ((V d (cV L) (jV L)).loc cc1_scratch1))
    (hs0 : ∀ y, (s0 y).toNat = Cert.TileSpec.idxAt A (104 + (y 0).val) (colBase L + (y 1).val)) (y) : (s0 y).toNat < 10000 := by
  rw [hs0]; exact hin _

omit [Named F] in
/-- What one gather step reads: the table scalars of one bag position of the sixteen columns of a block. -/
theorem gather_val1 (A : Buf (Elt F) (iLoc d)) (Tt : Buf (Elt F) (tLoc d)) (s0 : Buf (Elt F) ((V d (cV L) (jV L)).loc cc1_scratch1)) (tv : Buf (Elt F) ((V d (cV L) (jV L)).loc cc1_scratch2))
    (hs0 : ∀ y, (s0 y).toNat = Cert.TileSpec.idxAt A (104 + (y 0).val) (colBase L + (y 1).val))
    (htv : ∀ y, tv y = Cert.TileSpec.tAt Tt (y 0).val)
    (o : Fin 2 → ℕ) (inb : ∀ a, o a + S1x16.size a ≤ S96x512.size a) (row c : ℕ) (ho0 : o 0 = row) (ho1 : o 1 = c)
    (hh : ∀ a x, ((![shapeCast S16 ((Memref.whole cc1_scratch1 : Memref sig .scVector .vmem S96x512 .i32).view.readAt (Elt F) (Rect.unit (s := S96x512) o S1x16.size inb).toLoadRect s0) shapeCasts_S1x16_S16] : Fin 1 → IVec S16 32) a x).toNat < S10000.size a)
    (x : S16.Idx) :
    loadIdx (((Memref.whole cc1_scratch2 : Memref sig .scVector .vmem S10000 .f32).access (.whole S10000)).read (Elt F) tv) ![shapeCast S16 ((Memref.whole cc1_scratch1 : Memref sig .scVector .vmem S96x512 .i32).view.readAt (Elt F) (Rect.unit (s := S96x512) o S1x16.size inb).toLoadRect s0) shapeCasts_S1x16_S16] hh x
      = term d L A Tt 104 (c + (x 0).val) row := by
  unfold loadIdx term
  rw [View.read_apply]
  simp only [cast_eq]
  rw [htv]
  congr 1
  have e2 : ∀ z, (((Memref.whole cc1_scratch2 : Memref sig .scVector .vmem S10000 .f32).access (Rect.whole S10000)).emb z) = z := fun z => Rect.emb_whole_apply _ z
  rw [e2]
  show (shapeCast S16 ((Memref.whole cc1_scratch1 : Memref sig .scVector .vmem S96x512 .i32).view.readAt (Elt F) (Rect.unit (s := S96x512) o S1x16.size inb).toLoadRect s0) shapeCasts_S1x16_S16 x).toNat = _
  unfold shapeCast
  rw [Shape.reshapeEquiv_cons_one]
  show (s0 ((Rect.unit (s := S96x512) o S1x16.size inb).toLoadRect.idx (Fin.cons ⟨0, Nat.one_pos⟩ x))).toNat = _
  rw [hs0]
  have i0 : (((Rect.unit (s := S96x512) o S1x16.size inb).toLoadRect.idx (Fin.cons ⟨0, Nat.one_pos⟩ x)) 0 : ℕ) = o 0 + 1 * 0 := rfl
  have i1 : (((Rect.unit (s := S96x512) o S1x16.size inb).toLoadRect.idx (Fin.cons ⟨0, Nat.one_pos⟩ x)) 1 : ℕ) = o 1 + 1 * (x 0).val := rfl
  rw [i0, i1, ho0, ho1, Nat.mul_zero, Nat.add_zero, Nat.one_mul]

omit [FloatOps F] [Named F] in
/-- The sixteen words a step loads off the index scratch are table rows: they are words of the index array. -/
theorem chk_rd1 (A : Buf (Elt F) (iLoc d)) (hin : ∀ i, (A i).toNat < 10000) (s0 : Buf (Elt F) ((V d (cV L) (jV L)).loc cc1_scratch1))
    (hs0 : ∀ y, (s0 y).toNat = Cert.TileSpec.idxAt A (104 + (y 0).val) (colBase L + (y 1).val))
    (o : Fin 2 → ℕ) (inb : ∀ a, o a + S1x16.size a ≤ S96x512.size a) :
    ∀ a x, ((![shapeCast S16 ((Memref.whole cc1_scratch1 : Memref sig .scVector .vmem S96x512 .i32).view.readAt (Elt F) (Rect.unit (s := S96x512) o S1x16.size inb).toLoadRect s0) shapeCasts_S1x16_S16] : Fin 1 → IVec S16 32) a x).toNat < S10000.size a :=
  chk_ok (fun x => idx_lt1 d L A hin s0 hs0 _)

/-- One gather step of a stretch-1 loop as printed: where it loads its sixteen indices and the check it assumes of them. -/
structure GStep1 (n : ℕ) where
  off : Fin n → Fin 2 → ℕ
  inb : ∀ k a, off k a + S1x16.size a ≤ S96x512.size a
  chk : IVec S16 32 → Prop
  dec : ∀ v, Decidable (chk v)
  idx : ∀ v, chk v → ∀ a x, ((![v] : Fin 1 → IVec S16 32) a x).toNat < S10000.size a
  ok : ∀ v, (∀ a x, ((![v] : Fin 1 → IVec S16 32) a x).toNat < S10000.size a) → chk v

/-- A stretch-1 loop's round: eight gather steps, each added onto its running sum. -/
def gBody1 (L : grid1.Coords) (n : ℕ) (t0 t1 t2 t3 t4 t5 t6 t7 : GStep1 n) :
    Fin n → (FVec F S16 .f32 × FVec F S16 .f32 × FVec F S16 .f32 × FVec F S16 .f32 × FVec F S16 .f32 × FVec F S16 .f32 × FVec F S16 .f32 × FVec F S16 .f32) → Prog (TpuEff nD τ sig (Elt F) Λ₀ (.scVector ((L 0).castLE hcore1) ((L 1).castLE hsub1))) (FVec F S16 .f32 × FVec F S16 .f32 × FVec F S16 .f32 × FVec F S16 .f32 × FVec F S16 .f32 × FVec F S16 .f32 × FVec F S16 .f32 × FVec F S16 .f32) :=
  fun k (a0, a1, a2, a3, a4, a5, a6, a7) => do
    let l0 ← Prog.lift (.load (Memref.whole cc1_scratch1 : Memref sig .scVector .vmem S96x512 .i32) (Rect.unit (s := S96x512) (t0.off k) S1x16.size (t0.inb k)).toLoadRect (View.loadsAt_vmem h_S1x16))
    let w0 ← Prog.lift (TpuEff.assume (t0.chk (shapeCast S16 l0 shapeCasts_S1x16_S16)) (t0.dec _))
    let g0 ← SparseCore.vectorLoadIdx (Memref.whole cc1_scratch2 : Memref sig .scVector .vmem S10000 .f32) ![shapeCast S16 l0 shapeCasts_S1x16_S16] (t0.idx _ w0.down) (View.loads_vmem h_S10000)
    let l1 ← Prog.lift (.load (Memref.whole cc1_scratch1 : Memref sig .scVector .vmem S96x512 .i32) (Rect.unit (s := S96x512) (t1.off k) S1x16.size (t1.inb k)).toLoadRect (View.loadsAt_vmem h_S1x16))
    let w1 ← Prog.lift (TpuEff.assume (t1.chk (shapeCast S16 l1 shapeCasts_S1x16_S16)) (t1.dec _))
    let g1 ← SparseCore.vectorLoadIdx (Memref.whole cc1_scratch2 : Memref sig .scVector .vmem S10000 .f32) ![shapeCast S16 l1 shapeCasts_S1x16_S16] (t1.idx _ w1.down) (View.loads_vmem h_S10000)
    let l2 ← Prog.lift (.load (Memref.whole cc1_scratch1 : Memref sig .scVector .vmem S96x512 .i32) (Rect.unit (s := S96x512) (t2.off k) S1x16.size (t2.inb k)).toLoadRect (View.loadsAt_vmem h_S1x16))
    let w2 ← Prog.lift (TpuEff.assume (t2.chk (shapeCast S16 l2 shapeCasts_S1x16_S16)) (t2.dec _))
    let g2 ← SparseCore.vectorLoadIdx (Memref.whole cc1_scratch2 : Memref sig .scVector .vmem S10000 .f32) ![shapeCast S16 l2 shapeCasts_S1x16_S16] (t2.idx _ w2.down) (View.loads_vmem h_S10000)
    let l3 ← Prog.lift (.load (Memref.whole cc1_scratch1 : Memref sig .scVector .vmem S96x512 .i32) (Rect.unit (s := S96x512) (t3.off k) S1x16.size (t3.inb k)).toLoadRect (View.loadsAt_vmem h_S1x16))
    let w3 ← Prog.lift (TpuEff.assume (t3.chk (shapeCast S16 l3 shapeCasts_S1x16_S16)) (t3.dec _))
    let g3 ← SparseCore.vectorLoadIdx (Memref.whole cc1_scratch2 : Memref sig .scVector .vmem S10000 .f32) ![shapeCast S16 l3 shapeCasts_S1x16_S16] (t3.idx _ w3.down) (View.loads_vmem h_S10000)
    let l4 ← Prog.lift (.load (Memref.whole cc1_scratch1 : Memref sig .scVector .vmem S96x512 .i32) (Rect.unit (s := S96x512) (t4.off k) S1x16.size (t4.inb k)).toLoadRect (View.loadsAt_vmem h_S1x16))
    let w4 ← Prog.lift (TpuEff.assume (t4.chk (shapeCast S16 l4 shapeCasts_S1x16_S16)) (t4.dec _))
    let g4 ← SparseCore.vectorLoadIdx (Memref.whole cc1_scratch2 : Memref sig .scVector .vmem S10000 .f32) ![shapeCast S16 l4 shapeCasts_S1x16_S16] (t4.idx _ w4.down) (View.loads_vmem h_S10000)
    let l5 ← Prog.lift (.load (Memref.whole cc1_scratch1 : Memref sig .scVector .vmem S96x512 .i32) (Rect.unit (s := S96x512) (t5.off k) S1x16.size (t5.inb k)).toLoadRect (View.loadsAt_vmem h_S1x16))
    let w5 ← Prog.lift (TpuEff.assume (t5.chk (shapeCast S16 l5 shapeCasts_S1x16_S16)) (t5.dec _))
    let g5 ← SparseCore.vectorLoadIdx (Memref.whole cc1_scratch2 : Memref sig .scVector .vmem S10000 .f32) ![shapeCast S16 l5 shapeCasts_S1x16_S16] (t5.idx _ w5.down) (View.loads_vmem h_S10000)
    let l6 ← Prog.lift (.load (Memref.whole cc1_scratch1 : Memref sig .scVector .vmem S96x512 .i32) (Rect.unit (s := S96x512) (t6.off k) S1x16.size (t6.inb k)).toLoadRect (View.loadsAt_vmem h_S1x16))
    let w6 ← Prog.lift (TpuEff.assume (t6.chk (shapeCast S16 l6 shapeCasts_S1x16_S16)) (t6.dec _))
    let g6 ← SparseCore.vectorLoadIdx (Memref.whole cc1_scratch2 : Memref sig .scVector .vmem S10000 .f32) ![shapeCast S16 l6 shapeCasts_S1x16_S16] (t6.idx _ w6.down) (View.loads_vmem h_S10000)
    let l7 ← Prog.lift (.load (Memref.whole cc1_scratch1 : Memref sig .scVector .vmem S96x512 .i32) (Rect.unit (s := S96x512) (t7.off k) S1x16.size (t7.inb k)).toLoadRect (View.loadsAt_vmem h_S1x16))
    let w7 ← Prog.lift (TpuEff.assume (t7.chk (shapeCast S16 l7 shapeCasts_S1x16_S16)) (t7.dec _))
    let g7 ← SparseCore.vectorLoadIdx (Memref.whole cc1_scratch2 : Memref sig .scVector .vmem S10000 .f32) ![shapeCast S16 l7 shapeCasts_S1x16_S16] (t7.idx _ w7.down) (View.loads_vmem h_S10000)
    pure (addf a0 g0, addf a1 g1, addf a2 g2, addf a3 g3, addf a4 g4, addf a5 g5, addf a6 g6, addf a7 g7)

/-- A stretch-1 loop's invariant: the running sums are the spec's; the index scratch and the table scratch as they stand. -/
def inv1 (A : Buf (Elt F) (iLoc d)) (Tt : Buf (Elt F) (tLoc d)) (s0 : Buf (Elt F) ((V d (cV L) (jV L)).loc cc1_scratch1)) (tv : Buf (Elt F) ((V d (cV L) (jV L)).loc cc1_scratch2))
    (c : ℕ) (k : ℕ) (acc : FVec F S16 .f32 × FVec F S16 .f32 × FVec F S16 .f32 × FVec F S16 .f32 × FVec F S16 .f32 × FVec F S16 .f32 × FVec F S16 .f32 × FVec F S16 .f32) : sProp (MM F) :=
  iprop(⌜acc = accs8 d L A Tt 104 c k⌝
    ∗ ((Memref.whole cc1_scratch1 : Memref sig .scVector .vmem S96x512 .i32).view.loc (V d (cV L) (jV L)) ↦{fullShare} s0)
    ∗ ((Memref.whole cc1_scratch2 : Memref sig .scVector .vmem S10000 .f32).view.loc (V d (cV L) (jV L)) ↦{fullShare} tv))

theorem region1 (A : Buf (Elt F) (iLoc d)) (Tt : Buf (Elt F) (tLoc d)) (s0 : Buf (Elt F) ((V d (cV L) (jV L)).loc cc1_scratch1)) (tv : Buf (Elt F) ((V d (cV L) (jV L)).loc cc1_scratch2))
    (hin : ∀ i, (A i).toNat < 10000)
    (hs0 : ∀ y, (s0 y).toNat = Cert.TileSpec.idxAt A (104 + (y 0).val) (colBase L + (y 1).val))
    (htv : ∀ y, tv y = Cert.TileSpec.tAt Tt (y 0).val)
    (c : ℕ) (n : ℕ) (t0 t1 t2 t3 t4 t5 t6 t7 : GStep1 n)
    (h0 : ∀ k, (t0.off k) 0 = 8 * k.val + 0 ∧ (t0.off k) 1 = c)
    (h1 : ∀ k, (t1.off k) 0 = 8 * k.val + 1 ∧ (t1.off k) 1 = c)
    (h2 : ∀ k, (t2.off k) 0 = 8 * k.val + 2 ∧ (t2.off k) 1 = c)
    (h3 : ∀ k, (t3.off k) 0 = 8 * k.val + 3 ∧ (t3.off k) 1 = c)
    (h4 : ∀ k, (t4.off k) 0 = 8 * k.val + 4 ∧ (t4.off k) 1 = c)
    (h5 : ∀ k, (t5.off k) 0 = 8 * k.val + 5 ∧ (t5.off k) 1 = c)
    (h6 : ∀ k, (t6.off k) 0 = 8 * k.val + 6 ∧ (t6.off k) 1 = c)
    (h7 : ∀ k, (t7.off k) 0 = 8 * k.val + 7 ∧ (t7.off k) 1 = c)
    (k : Fin n) (acc : FVec F S16 .f32 × FVec F S16 .f32 × FVec F S16 .f32 × FVec F S16 .f32 × FVec F S16 .f32 × FVec F S16 .f32 × FVec F S16 .f32 × FVec F S16 .f32) :
    inv1 d L A Tt s0 tv c k acc
      ⊢ wp frame (wpE (defs₀ (F := F)) 𝒱₀ (V d (cV L) (jV L)) none) Set.univ (gBody1 L n t0 t1 t2 t3 t4 t5 t6 t7 k acc) (inv1 d L A Tt s0 tv c (k.val + 1)) := by
  obtain ⟨a0, a1, a2, a3, a4, a5, a6, a7⟩ := acc
  unfold gBody1
  simp only [Prog.lift, Prog.bind_op, Prog.bind_ret, Prog.pure_eq_ret]
  unfold inv1
  iintro ⟨%hacc, Hs0, Hs2⟩
  ihave Hs2 := (Entails.of_eq (pts_s2_access (F := F) d L _).symm) $$ Hs2
  iapply (wp_load 𝒱₀ (V d (cV L) (jV L)) none Set.univ (m := (Memref.whole cc1_scratch1 : Memref sig .scVector .vmem S96x512 .i32)) (S := Finset.univ) (Finset.subset_univ _)) $$ Hs0; iintro Hs0
  rw [wp_assume_of _ _ _ _ (t0.ok _ (chk_rd1 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  iapply (wp_load 𝒱₀ (V d (cV L) (jV L)) none Set.univ (m := (Memref.whole cc1_scratch1 : Memref sig .scVector .vmem S96x512 .i32)) (S := Finset.univ) (Finset.subset_univ _)) $$ Hs0; iintro Hs0
  rw [wp_assume_of _ _ _ _ (t1.ok _ (chk_rd1 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  iapply (wp_load 𝒱₀ (V d (cV L) (jV L)) none Set.univ (m := (Memref.whole cc1_scratch1 : Memref sig .scVector .vmem S96x512 .i32)) (S := Finset.univ) (Finset.subset_univ _)) $$ Hs0; iintro Hs0
  rw [wp_assume_of _ _ _ _ (t2.ok _ (chk_rd1 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  iapply (wp_load 𝒱₀ (V d (cV L) (jV L)) none Set.univ (m := (Memref.whole cc1_scratch1 : Memref sig .scVector .vmem S96x512 .i32)) (S := Finset.univ) (Finset.subset_univ _)) $$ Hs0; iintro Hs0
  rw [wp_assume_of _ _ _ _ (t3.ok _ (chk_rd1 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  iapply (wp_load 𝒱₀ (V d (cV L) (jV L)) none Set.univ (m := (Memref.whole cc1_scratch1 : Memref sig .scVector .vmem S96x512 .i32)) (S := Finset.univ) (Finset.subset_univ _)) $$ Hs0; iintro Hs0
  rw [wp_assume_of _ _ _ _ (t4.ok _ (chk_rd1 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  iapply (wp_load 𝒱₀ (V d (cV L) (jV L)) none Set.univ (m := (Memref.whole cc1_scratch1 : Memref sig .scVector .vmem S96x512 .i32)) (S := Finset.univ) (Finset.subset_univ _)) $$ Hs0; iintro Hs0
  rw [wp_assume_of _ _ _ _ (t5.ok _ (chk_rd1 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  iapply (wp_load 𝒱₀ (V d (cV L) (jV L)) none Set.univ (m := (Memref.whole cc1_scratch1 : Memref sig .scVector .vmem S96x512 .i32)) (S := Finset.univ) (Finset.subset_univ _)) $$ Hs0; iintro Hs0
  rw [wp_assume_of _ _ _ _ (t6.ok _ (chk_rd1 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  iapply (wp_load 𝒱₀ (V d (cV L) (jV L)) none Set.univ (m := (Memref.whole cc1_scratch1 : Memref sig .scVector .vmem S96x512 .i32)) (S := Finset.univ) (Finset.subset_univ _)) $$ Hs0; iintro Hs0
  rw [wp_assume_of _ _ _ _ (t7.ok _ (chk_rd1 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  rw [wp_ret]; imodintro
  isplitr
  · ipureintro
    unfold accs8 at hacc ⊢
    obtain ⟨e0, e1, e2, e3, e4, e5, e6, e7⟩ : a0 = accV d L A Tt 104 c 0 k.val ∧ a1 = accV d L A Tt 104 c 1 k.val ∧ a2 = accV d L A Tt 104 c 2 k.val ∧ a3 = accV d L A Tt 104 c 3 k.val ∧ a4 = accV d L A Tt 104 c 4 k.val ∧ a5 = accV d L A Tt 104 c 5 k.val ∧ a6 = accV d L A Tt 104 c 6 k.val ∧ a7 = accV d L A Tt 104 c 7 k.val := by
      simp only [Prod.mk.injEq] at hacc; exact hacc
    refine Prod.ext ?_ (Prod.ext ?_ (Prod.ext ?_ (Prod.ext ?_ (Prod.ext ?_ (Prod.ext ?_ (Prod.ext ?_ ?_))))))
    · exact acc_step d L A Tt 104 c 0 k.val _ e0 _ (fun x => gather_val1 d L A Tt s0 tv hs0 htv _ _ _ _ (h0 k).1 (h0 k).2 _ x)
    · exact acc_step d L A Tt 104 c 1 k.val _ e1 _ (fun x => gather_val1 d L A Tt s0 tv hs0 htv _ _ _ _ (h1 k).1 (h1 k).2 _ x)
    · exact acc_step d L A Tt 104 c 2 k.val _ e2 _ (fun x => gather_val1 d L A Tt s0 tv hs0 htv _ _ _ _ (h2 k).1 (h2 k).2 _ x)
    · exact acc_step d L A Tt 104 c 3 k.val _ e3 _ (fun x => gather_val1 d L A Tt s0 tv hs0 htv _ _ _ _ (h3 k).1 (h3 k).2 _ x)
    · exact acc_step d L A Tt 104 c 4 k.val _ e4 _ (fun x => gather_val1 d L A Tt s0 tv hs0 htv _ _ _ _ (h4 k).1 (h4 k).2 _ x)
    · exact acc_step d L A Tt 104 c 5 k.val _ e5 _ (fun x => gather_val1 d L A Tt s0 tv hs0 htv _ _ _ _ (h5 k).1 (h5 k).2 _ x)
    · exact acc_step d L A Tt 104 c 6 k.val _ e6 _ (fun x => gather_val1 d L A Tt s0 tv hs0 htv _ _ _ _ (h6 k).1 (h6 k).2 _ x)
    · exact acc_step d L A Tt 104 c 7 k.val _ e7 _ (fun x => gather_val1 d L A Tt s0 tv hs0 htv _ _ _ _ (h7 k).1 (h7 k).2 _ x)
  isplitl [Hs0]
  · iexact Hs0
  · iapply (Entails.of_eq (pts_s2_access (F := F) d L _)); iexact Hs2

/-! ## What the sums scratch holds from block to block -/

/-- A stretch's total for the tile's column `b`: `n` rounds of eight positions from position `r0`. -/
def colS (A : Buf (Elt F) (iLoc d)) (Tt : Buf (Elt F) (tLoc d)) (r0 n b : ℕ) : F .f32 :=
  Cert.TileSpec.stretch (fun h => term d L A Tt r0 b h) n

/-- The sums scratch while the first stretch is stored: its first `n` blocks hold their columns' first-stretch totals. -/
def out1 (A : Buf (Elt F) (iLoc d)) (Tt : Buf (Elt F) (tLoc d)) (f3 : Buf (Elt F) ((V d (cV L) (jV L)).loc cc1_scratch3)) (n : ℕ) :
    Buf (Elt F) ((V d (cV L) (jV L)).loc cc1_scratch3) :=
  fun x => if (x 0).val < 16 * n then colS d L A Tt 0 13 (x 0).val else f3 x

/-- The sums scratch while the second stretch is added: its first `n` blocks hold their columns' whole sums, the rest the first-stretch totals. -/
def out2 (A : Buf (Elt F) (iLoc d)) (Tt : Buf (Elt F) (tLoc d)) (n : ℕ) :
    Buf (Elt F) ((V d (cV L) (jV L)).loc cc1_scratch3) :=
  fun x => if (x 0).val < 16 * n then FloatOps.addf (colS d L A Tt 0 13 (x 0).val) (colS d L A Tt 104 12 (x 0).val) else colS d L A Tt 0 13 (x 0).val

omit [Named F] in
theorem out1_zero (A : Buf (Elt F) (iLoc d)) (Tt : Buf (Elt F) (tLoc d)) (f3 : Buf (Elt F) ((V d (cV L) (jV L)).loc cc1_scratch3)) : out1 d L A Tt f3 0 = f3 := by
  funext x; unfold out1; rw [if_neg (by omega)]

omit [Named F] in
theorem out1_full (A : Buf (Elt F) (iLoc d)) (Tt : Buf (Elt F) (tLoc d)) (f3 : Buf (Elt F) ((V d (cV L) (jV L)).loc cc1_scratch3)) : out1 d L A Tt f3 32 = out2 d L A Tt 0 := by
  funext x
  have hx : (x 0).val < 512 := (x 0).isLt
  unfold out1 out2; rw [if_pos (by omega), if_neg (by omega)]

omit [Named F] in
/-- Eight running sums added up are the stretch's total, lane by lane. -/
theorem nested_apply (A : Buf (Elt F) (iLoc d)) (Tt : Buf (Elt F) (tLoc d)) (r0 c n : ℕ) (x : S16.Idx) :
    (addf (addf (addf (addf (addf (addf (addf (accV d L A Tt r0 c 0 n) (accV d L A Tt r0 c 1 n)) (accV d L A Tt r0 c 2 n)) (accV d L A Tt r0 c 3 n)) (accV d L A Tt r0 c 4 n)) (accV d L A Tt r0 c 5 n)) (accV d L A Tt r0 c 6 n)) (accV d L A Tt r0 c 7 n)) x = colS d L A Tt r0 n (c + (x 0).val) := rfl

omit [Named F] in
/-- One stored block over a function of the column: inside the block the payload, outside what was there. -/
theorem writes_block (g g' : Buf (Elt F) ((V d (cV L) (jV L)).loc cc1_scratch3)) (o : ℕ) (inb : ∀ a, (![o] : Fin 1 → ℕ) a + S16.size a ≤ S512.size a)
    (P : S16.Idx → F .f32)
    (hin : ∀ x : S16.Idx, ∀ y : S512.Idx, (y 0).val = o + (x 0).val → g' y = P x)
    (hout : ∀ y : S512.Idx, ((y 0).val < o ∨ o + 16 ≤ (y 0).val) → g' y = g y) :
    (Memref.whole cc1_scratch3 : Memref sig .scVector .vmem S512 .f32).view.writes (Elt F) g [⟨Rect.unit (s := S512) ![o] S16.size inb, P⟩] = g' := by
  funext y
  by_cases hy : o ≤ (y 0).val ∧ (y 0).val < o + 16
  · have hx : (y 0).val - o < 16 := by omega
    let x : S16.Idx := ValueIdx.ix1 ⟨(y 0).val - o, hx⟩
    have hemb : (Rect.unit (s := S512) ![o] S16.size inb).emb x = y := by
      funext a
      obtain rfl : a = 0 := Subsingleton.elim _ _
      apply Fin.ext
      show o + 1 * ((y 0).val - o) = (y 0).val
      omega
    have h1 := View.read_writes_cons_emb (Val := Elt F) (Memref.whole cc1_scratch3 : Memref sig .scVector .vmem S512 .f32).view g (Rect.unit (s := S512) ![o] S16.size inb) P [] x
    rw [hemb] at h1
    rw [hin x y (by show (y 0).val = o + ((y 0).val - o); omega)]
    exact h1
  · have h1 := View.read_writes_apply_of_forall_not_mem (Val := Elt F) (Memref.whole cc1_scratch3 : Memref sig .scVector .vmem S512 .f32).view g y [⟨Rect.unit (s := S512) ![o] S16.size inb, P⟩] (by
      intro p hp
      rw [List.mem_singleton] at hp
      subst hp
      rw [Rect.mem_set_unit]
      intro hm
      have := hm 0
      simp only [Matrix.cons_val_zero] at this
      apply hy
      have e16 : S16.size 0 = 16 := rfl
      omega)
    rw [hout y (by omega)]
    exact h1

theorem trips13 : Scf.trips (0#32) (Scalar.addi 0#32 13#32) (1#32) = 13 := by decide
theorem trips12 : Scf.trips (0#32) (Scalar.addi 0#32 12#32) (1#32) = 12 := by decide

omit [Named F] in
/-- A first-stretch block stored: block `j` now holds its columns' totals. -/
theorem s3_step0 (A : Buf (Elt F) (iLoc d)) (Tt : Buf (Elt F) (tLoc d)) (f3 : Buf (Elt F) ((V d (cV L) (jV L)).loc cc1_scratch3))
    (j j' o : ℕ) (ho : o = 16 * j) (hj' : j' = j + 1) (inb : ∀ a, (![o] : Fin 1 → ℕ) a + S16.size a ≤ S512.size a) :
    ((Memref.whole cc1_scratch3 : Memref sig .scVector .vmem S512 .f32).view.loc (V d (cV L) (jV L)) ↦{fullShare}
        (Memref.whole cc1_scratch3 : Memref sig .scVector .vmem S512 .f32).view.writes (Elt F) (out1 d L A Tt f3 j) [⟨Rect.unit (s := S512) ![o] S16.size inb, (addf (addf (addf (addf (addf (addf (addf (accV d L A Tt 0 o 0 13) (accV d L A Tt 0 o 1 13)) (accV d L A Tt 0 o 2 13)) (accV d L A Tt 0 o 3 13)) (accV d L A Tt 0 o 4 13)) (accV d L A Tt 0 o 5 13)) (accV d L A Tt 0 o 6 13)) (accV d L A Tt 0 o 7 13))⟩] : sProp (MM F))
      = ((Memref.whole cc1_scratch3 : Memref sig .scVector .vmem S512 .f32).view.loc (V d (cV L) (jV L)) ↦{fullShare} out1 d L A Tt f3 j') := by
  congr 1
  refine writes_block d L _ _ o inb _ ?_ ?_
  · intro x y hy
    have hx : (x 0).val < 16 := (x 0).isLt
    rw [nested_apply]; subst ho hj'; unfold out1; rw [if_pos (by omega), hy]
  · intro y hy
    subst ho hj'; unfold out1
    rcases hy with hy | hy
    · rw [if_pos (by omega), if_pos (by omega)]
    · rw [if_neg (by omega), if_neg (by omega)]

omit [Named F] in
theorem out2_of_lt (A : Buf (Elt F) (iLoc d)) (Tt : Buf (Elt F) (tLoc d)) (n : ℕ) (z : S512.Idx) (hz : (z 0).val < 16 * n) :
    out2 d L A Tt n z = FloatOps.addf (colS d L A Tt 0 13 (z 0).val) (colS d L A Tt 104 12 (z 0).val) := by
  unfold out2; rw [if_pos hz]
omit [Named F] in
theorem out2_of_ge (A : Buf (Elt F) (iLoc d)) (Tt : Buf (Elt F) (tLoc d)) (n : ℕ) (z : S512.Idx) (hz : 16 * n ≤ (z 0).val) :
    out2 d L A Tt n z = colS d L A Tt 0 13 (z 0).val := by
  unfold out2; rw [if_neg (by omega)]

omit [Named F] in
/-- A second-stretch block added: block `j` now holds its columns' whole sums. -/
theorem s3_eq1 (A : Buf (Elt F) (iLoc d)) (Tt : Buf (Elt F) (tLoc d))
    (j j' o : ℕ) (ho : o = 16 * j) (hj' : j' = j + 1) (inb : ∀ a, (![o] : Fin 1 → ℕ) a + S16.size a ≤ S512.size a) :
    (Memref.whole cc1_scratch3 : Memref sig .scVector .vmem S512 .f32).view.writes (Elt F) (out2 d L A Tt j) [⟨Rect.unit (s := S512) ![o] S16.size inb,
          addf ((Memref.whole cc1_scratch3 : Memref sig .scVector .vmem S512 .f32).view.readAt (Elt F) (Rect.unit (s := S512) ![o] S16.size inb).toLoadRect (out2 d L A Tt j)) (addf (addf (addf (addf (addf (addf (addf (accV d L A Tt 104 o 0 12) (accV d L A Tt 104 o 1 12)) (accV d L A Tt 104 o 2 12)) (accV d L A Tt 104 o 3 12)) (accV d L A Tt 104 o 4 12)) (accV d L A Tt 104 o 5 12)) (accV d L A Tt 104 o 6 12)) (accV d L A Tt 104 o 7 12))⟩]
      = out2 d L A Tt j' := by
  refine writes_block d L _ _ o inb _ ?_ ?_
  · intro x y hy
    have hx : (x 0).val < 16 := (x 0).isLt
    subst ho hj'
    show _ = FloatOps.addf (out2 d L A Tt j ((Rect.unit (s := S512) ![16 * j] S16.size inb).toLoadRect.idx x)) ((addf (addf (addf (addf (addf (addf (addf (accV d L A Tt 104 (16 * j) 0 12) (accV d L A Tt 104 (16 * j) 1 12)) (accV d L A Tt 104 (16 * j) 2 12)) (accV d L A Tt 104 (16 * j) 3 12)) (accV d L A Tt 104 (16 * j) 4 12)) (accV d L A Tt 104 (16 * j) 5 12)) (accV d L A Tt 104 (16 * j) 6 12)) (accV d L A Tt 104 (16 * j) 7 12)) x)
    rw [nested_apply, out2_of_lt d L A Tt (j + 1) y (by omega),
      out2_of_ge d L A Tt j ((Rect.unit (s := S512) ![16 * j] S16.size inb).toLoadRect.idx x) (by show 16 * j ≤ 16 * j + 1 * (x 0).val; omega)]
    show FloatOps.addf (colS d L A Tt 0 13 (y 0).val) (colS d L A Tt 104 12 (y 0).val)
      = FloatOps.addf (colS d L A Tt 0 13 (16 * j + 1 * (x 0).val)) (colS d L A Tt 104 12 (16 * j + (x 0).val))
    rw [hy, Nat.one_mul]
  · intro y hy
    subst ho hj'
    rcases hy with hy | hy
    · rw [out2_of_lt d L A Tt (j + 1) y (by omega), out2_of_lt d L A Tt j y (by omega)]
    · rw [out2_of_ge d L A Tt (j + 1) y (by omega), out2_of_ge d L A Tt j y (by omega)]

omit [Named F] in
theorem s3_step1 (A : Buf (Elt F) (iLoc d)) (Tt : Buf (Elt F) (tLoc d))
    (j j' o : ℕ) (ho : o = 16 * j) (hj' : j' = j + 1) (inb : ∀ a, (![o] : Fin 1 → ℕ) a + S16.size a ≤ S512.size a) :
    ((Memref.whole cc1_scratch3 : Memref sig .scVector .vmem S512 .f32).view.loc (V d (cV L) (jV L)) ↦{fullShare}
        (Memref.whole cc1_scratch3 : Memref sig .scVector .vmem S512 .f32).view.writes (Elt F) (out2 d L A Tt j) [⟨Rect.unit (s := S512) ![o] S16.size inb,
          addf ((Memref.whole cc1_scratch3 : Memref sig .scVector .vmem S512 .f32).view.readAt (Elt F) (Rect.unit (s := S512) ![o] S16.size inb).toLoadRect (out2 d L A Tt j)) (addf (addf (addf (addf (addf (addf (addf (accV d L A Tt 104 o 0 12) (accV d L A Tt 104 o 1 12)) (accV d L A Tt 104 o 2 12)) (accV d L A Tt 104 o 3 12)) (accV d L A Tt 104 o 4 12)) (accV d L A Tt 104 o 5 12)) (accV d L A Tt 104 o 6 12)) (accV d L A Tt 104 o 7 12))⟩] : sProp (MM F))
      = ((Memref.whole cc1_scratch3 : Memref sig .scVector .vmem S512 .f32).view.loc (V d (cV L) (jV L)) ↦{fullShare} out2 d L A Tt j') :=
  congrArg (fun f => ((Memref.whole cc1_scratch3 : Memref sig .scVector .vmem S512 .f32).view.loc (V d (cV L) (jV L)) ↦{fullShare} f : sProp (MM F))) (s3_eq1 d L A Tt j j' o ho hj' inb)

omit [Named F] in
/-- Contents that read as the whole sums through the tile's 512 output entries are the spec's output there. -/
theorem out_lands_of (A : Buf (Elt F) (iLoc d)) (Tt : Buf (Elt F) (tLoc d)) (g : Buf (Elt F) (oLoc d))
    (hg : ∀ x : S512.Idx, g ((oSl L).view.emb x) = out2 d L A Tt 32 x) :
    ((oSl L).view.loc (V d (cV L) (jV L)) ↦[(oSl L).view.set]{fullShare} g : sProp (MM F))
      = (oLoc d ↦[oSet L]{fullShare} Cert.TileSpec.out (F := F) A Tt) := by
  refine (pointsTo_congr ?_ : _ = (((oSl L).view.loc (V d (cV L) (jV L)) ↦[(oSl L).view.set]{fullShare} (Cert.TileSpec.out (F := F) A Tt : Buf (Elt F) (oLoc d))) : sProp (MM F)))
  intro i hi
  rw [show (oSl L).view.set = (Rect.unit (s := S16384) (k1_off515 L) S512.size (k1_off515_inb L)).set from View.set_slice_whole _ _, Rect.mem_set_unit] at hi
  have h0 := hi 0
  have q : k1_off515 L 0 = colBase L := congrFun (k1_off515_eq L) 0
  rw [q] at h0
  have e512 : S512.size 0 = 512 := rfl
  rw [e512] at h0
  have hx : (i 0).val - colBase L < 512 := by omega
  let x : S512.Idx := ValueIdx.ix1 ⟨(i 0).val - colBase L, hx⟩
  have hemb : (oSl L).view.emb x = i := by
    refine ((ValueIdx.eq_ix1 (n := 16384) ((oSl L).view.emb x)).trans ?_).trans (ValueIdx.eq_ix1 (n := 16384) i).symm
    congr 1; apply Fin.ext
    show k1_off515 L 0 + 1 * ((i 0).val - colBase L) = (i 0).val
    rw [q]; omega
  have hgx := hg x
  rw [hemb] at hgx
  rw [hgx, out2_of_lt d L A Tt 32 x (show (i 0).val - colBase L < 16 * 32 from hx)]
  show FloatOps.addf (colS d L A Tt 0 13 ((i 0).val - colBase L)) (colS d L A Tt 104 12 ((i 0).val - colBase L)) = _
  unfold colS term Cert.TileSpec.out Cert.TileSpec.bag
  have e : colBase L + ((i 0).val - colBase L) = (i 0).val := by omega
  simp only [Nat.zero_add, e]

omit [Named F] in
/-- The copy-out of the sums scratch, as the last block's store leaves it, lands the spec's output on the tile's entries. -/
theorem out_lands_last (A : Buf (Elt F) (iLoc d)) (Tt : Buf (Elt F) (tLoc d)) (fo : Buf (Elt F) (oLoc d)) (inb : ∀ a, (![496] : Fin 1 → ℕ) a + S16.size a ≤ S512.size a) :
    ((oSl L).view.loc (V d (cV L) (jV L)) ↦[(oSl L).view.set]{fullShare}
        (oSl L).view.writes (Elt F) fo [⟨Rect.whole S512, ReadAs.same.apply ((Memref.whole cc1_scratch3 : Memref sig .scVector .vmem S512 .f32).view.read (Elt F)
          ((Memref.whole cc1_scratch3 : Memref sig .scVector .vmem S512 .f32).view.writes (Elt F) (out2 d L A Tt 31) [⟨Rect.unit (s := S512) ![496] S16.size inb,
            addf ((Memref.whole cc1_scratch3 : Memref sig .scVector .vmem S512 .f32).view.readAt (Elt F) (Rect.unit (s := S512) ![496] S16.size inb).toLoadRect (out2 d L A Tt 31)) (addf (addf (addf (addf (addf (addf (addf (accV d L A Tt 104 496 0 12) (accV d L A Tt 104 496 1 12)) (accV d L A Tt 104 496 2 12)) (accV d L A Tt 104 496 3 12)) (accV d L A Tt 104 496 4 12)) (accV d L A Tt 104 496 5 12)) (accV d L A Tt 104 496 6 12)) (accV d L A Tt 104 496 7 12))⟩]))⟩] : sProp (MM F))
      = (oLoc d ↦[oSet L]{fullShare} Cert.TileSpec.out (F := F) A Tt) := by
  refine out_lands_of d L A Tt _ (fun x => ?_)
  have h1 := View.read_writes_cons_emb (Val := Elt F) (oSl L).view fo (Rect.whole S512) (ReadAs.same.apply ((Memref.whole cc1_scratch3 : Memref sig .scVector .vmem S512 .f32).view.read (Elt F)
          ((Memref.whole cc1_scratch3 : Memref sig .scVector .vmem S512 .f32).view.writes (Elt F) (out2 d L A Tt 31) [⟨Rect.unit (s := S512) ![496] S16.size inb,
            addf ((Memref.whole cc1_scratch3 : Memref sig .scVector .vmem S512 .f32).view.readAt (Elt F) (Rect.unit (s := S512) ![496] S16.size inb).toLoadRect (out2 d L A Tt 31)) (addf (addf (addf (addf (addf (addf (addf (accV d L A Tt 104 496 0 12) (accV d L A Tt 104 496 1 12)) (accV d L A Tt 104 496 2 12)) (accV d L A Tt 104 496 3 12)) (accV d L A Tt 104 496 4 12)) (accV d L A Tt 104 496 5 12)) (accV d L A Tt 104 496 6 12)) (accV d L A Tt 104 496 7 12))⟩]))) [] x
  rw [Rect.emb_whole_apply, View.read_apply] at h1
  simp only [cast_eq] at h1
  rw [h1]
  exact congrFun (s3_eq1 d L A Tt 31 32 496 rfl rfl inb) x

end Cert.Proof.KI

end
-- ==== Proof.TileKI.lean ====
/-
  One vector subcore's run of the summing kernel, at a symbolic tile and for every float instance: from a read share of
  the transposed index array (every word a table row) and of the folded table, the tile's 512 output entries and the
  subcore's own scratch and semaphores, the kernel ends holding the same, the 512 entries now the spec's sums. The three
  inbound copies land; each of the 64 gather loops runs by the one round lemma at its own places, its eight running sums
  then added up and stored (first stretch) or added onto what the block holds (second stretch); the copy-out lands the
  sums scratch on the tile's output entries.
-/
import proofs.«205085_g3753801417095_cont_8to1_b_1540_27_alg».proof.Proof.CommonKI
import proofs.«205085_g3753801417095_cont_8to1_b_1540_27_alg».proof.Proof.TileDefsKI
import proofs.«205085_g3753801417095_cont_8to1_b_1540_27_alg».proof.Proof.TileSpec
import proofs.«205085_g3753801417095_cont_8to1_b_1540_27_alg».proof.Proof.TileGenKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] (d : Dev nD) (L : grid1.Coords)

set_option maxHeartbeats 400000000 in
set_option maxRecDepth 65536 in
theorem tile_body (hF : (K (F := F)).Facts) (qi qt : PosShare TreeShare) (A : Buf (Elt F) (iLoc d)) (Tt : Buf (Elt F) (tLoc d)) (fo : Buf (Elt F) (oLoc d))
    (hin : ∀ i, (A i).toNat < 10000) (O : CellTallies nD τ sig (HIx 1)) (W : Waits sig (HIx 1)) (hO : ∀ g, O g none = 0) :
    iprop(levAts (K (F := F)).L (K (F := F)).lev ∗ (iLoc d ↦{qi} A) ∗ (tLoc d ↦{qt} Tt) ∗ (oLoc d ↦[oSet L]{fullShare} fo)
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc1__sc_sum L (Memref.whole main_v0_scv) (Memref.isWhole_whole _) (Memref.whole main_v8_scv) (Memref.isWhole_whole _) (Memref.whole main_v9_scv) (Memref.isWhole_whole _)
            (Memref.whole cc1_scratch0) (Memref.isWhole_whole _) (Memref.whole cc1_scratch1) (Memref.isWhole_whole _) (Memref.whole cc1_scratch2) (Memref.isWhole_whole _) (Memref.whole cc1_scratch3) (Memref.isWhole_whole _)
            cc1_scratch4 cc1_scratch5 cc1_scoped0 cc1_scoped1)
          fun _ => iprop((iLoc d ↦{qi} A) ∗ (tLoc d ↦{qt} Tt) ∗ (oLoc d ↦[oSet L]{fullShare} (Cert.TileSpec.out (F := F) A Tt))
            ∗ scopedBufs (V d (cV L) (jV L)) ∗ scopedSems0 (V d (cV L) (jV L)) ∗ ∃ W', ⌜∀ p ∈ W', p ∈ W ∨ p.2 = none⌝ ∗ owes (V d (cV L) (jV L)) O W') : sProp (MM F)) := by
  simp only [cc1__sc_sum_eq_skeleton]; unfold cc1__sc_sum_skel
  rw [(K (F := F)).scopedBufs_V hF d (cV L) (jV L), SparseCore.Cfg.scopedSems0_V (Val := Elt F) d (cV L) (jV L), ownSems0_V, ownBufs_V]
  iintro ⟨#Hlv, Hi, Ht, Ho, ⟨⟨%f0, Hs0⟩, ⟨%f1, Hs1⟩, ⟨%f2, Hs2⟩, ⟨%f3, Hs3⟩, Hbufs⟩, ⟨HsemA, HsemB, HsemC, HsemD, Hsems⟩, HO⟩
  ihave Hmw := ((K (F := F)).mayWaits_none (thr := V d (cV L) (jV L)) hO) $$ Hlv
  ihave Hi' := (Entails.of_eq (pts_i (F := F) d L _ _).symm) $$ Hi
  ihave Ht' := (Entails.of_eq (pts_t (F := F) d L _ _).symm) $$ Ht
  ihave Ho' := (Entails.of_eq (pts_o (F := F) d L _).symm) $$ Ho
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  ihave Hs3' := (Entails.of_eq ((pts_s3 (F := F) d L _).symm.trans (congrArg (fun f => ((Memref.whole cc1_scratch3 : Memref sig .scVector .vmem S512 .f32).view.loc (V d (cV L) (jV L)) ↦{fullShare} f : sProp (MM F))) (out1_zero d L A Tt f3).symm))) $$ Hs3
  sl_exec
  sl_unfold_run_names
  unfold_pays
  ihave Hs0' := (Entails.of_eq (land0 (F := F) d L A f0)) $$ Hs0'
  ihave Hs2' := (Entails.of_eq (land2 (F := F) d L Tt f2)) $$ Hs2'
  -- block 1
  sl_for (inv0 d L A Tt (s0c d L A) (tvc d L Tt) 0) $$ [Hs0' Hs2']
  case region =>
    exact region0 d L A Tt (s0c d L A) (tvc d L Tt) hin (hs0c d L A) (htvc d L Tt) 0 _ (⟨k1_off3, k1_off3_inb, k1_chk1, k1_chk1.dec, k1_idx1_inb, fun _ h => h⟩) (⟨k1_off4, k1_off4_inb, k1_chk2, k1_chk2.dec, k1_idx2_inb, fun _ h => h⟩) (⟨k1_off5, k1_off5_inb, k1_chk3, k1_chk3.dec, k1_idx3_inb, fun _ h => h⟩) (⟨k1_off6, k1_off6_inb, k1_chk4, k1_chk4.dec, k1_idx4_inb, fun _ h => h⟩) (⟨k1_off7, k1_off7_inb, k1_chk5, k1_chk5.dec, k1_idx5_inb, fun _ h => h⟩) (⟨k1_off8, k1_off8_inb, k1_chk6, k1_chk6.dec, k1_idx6_inb, fun _ h => h⟩) (⟨k1_off9, k1_off9_inb, k1_chk7, k1_chk7.dec, k1_idx7_inb, fun _ h => h⟩) (⟨k1_off10, k1_off10_inb, k1_chk8, k1_chk8.dec, k1_idx8_inb, fun _ h => h⟩) (fun k => ⟨congrFun (k1_off3_eq k) 0, congrFun (k1_off3_eq k) 1⟩) (fun k => ⟨congrFun (k1_off4_eq k) 0, congrFun (k1_off4_eq k) 1⟩) (fun k => ⟨congrFun (k1_off5_eq k) 0, congrFun (k1_off5_eq k) 1⟩) (fun k => ⟨congrFun (k1_off6_eq k) 0, congrFun (k1_off6_eq k) 1⟩) (fun k => ⟨congrFun (k1_off7_eq k) 0, congrFun (k1_off7_eq k) 1⟩) (fun k => ⟨congrFun (k1_off8_eq k) 0, congrFun (k1_off8_eq k) 1⟩) (fun k => ⟨congrFun (k1_off9_eq k) 0, congrFun (k1_off9_eq k) 1⟩) (fun k => ⟨congrFun (k1_off10_eq k) 0, congrFun (k1_off10_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t1_loop.lb k1_t1_loop.ub k1_t1_loop.st = 13 from trips13] at hacc
  subst hacc
  sl_exec
  sl_unfold_run_names
  unfold_pays
  ihave Hs3' := (Entails.of_eq (s3_step0 (F := F) d L A Tt f3 0 1 0 rfl rfl inb_S512_S16_0)) $$ Hs3'
  -- block 2
  sl_for (inv0 d L A Tt (s0c d L A) (tvc d L Tt) 16) $$ [Hs0' Hs2']
  case region =>
    exact region0 d L A Tt (s0c d L A) (tvc d L Tt) hin (hs0c d L A) (htvc d L Tt) 16 _ (⟨k1_off11, k1_off11_inb, k1_chk9, k1_chk9.dec, k1_idx9_inb, fun _ h => h⟩) (⟨k1_off12, k1_off12_inb, k1_chk10, k1_chk10.dec, k1_idx10_inb, fun _ h => h⟩) (⟨k1_off13, k1_off13_inb, k1_chk11, k1_chk11.dec, k1_idx11_inb, fun _ h => h⟩) (⟨k1_off14, k1_off14_inb, k1_chk12, k1_chk12.dec, k1_idx12_inb, fun _ h => h⟩) (⟨k1_off15, k1_off15_inb, k1_chk13, k1_chk13.dec, k1_idx13_inb, fun _ h => h⟩) (⟨k1_off16, k1_off16_inb, k1_chk14, k1_chk14.dec, k1_idx14_inb, fun _ h => h⟩) (⟨k1_off17, k1_off17_inb, k1_chk15, k1_chk15.dec, k1_idx15_inb, fun _ h => h⟩) (⟨k1_off18, k1_off18_inb, k1_chk16, k1_chk16.dec, k1_idx16_inb, fun _ h => h⟩) (fun k => ⟨congrFun (k1_off11_eq k) 0, congrFun (k1_off11_eq k) 1⟩) (fun k => ⟨congrFun (k1_off12_eq k) 0, congrFun (k1_off12_eq k) 1⟩) (fun k => ⟨congrFun (k1_off13_eq k) 0, congrFun (k1_off13_eq k) 1⟩) (fun k => ⟨congrFun (k1_off14_eq k) 0, congrFun (k1_off14_eq k) 1⟩) (fun k => ⟨congrFun (k1_off15_eq k) 0, congrFun (k1_off15_eq k) 1⟩) (fun k => ⟨congrFun (k1_off16_eq k) 0, congrFun (k1_off16_eq k) 1⟩) (fun k => ⟨congrFun (k1_off17_eq k) 0, congrFun (k1_off17_eq k) 1⟩) (fun k => ⟨congrFun (k1_off18_eq k) 0, congrFun (k1_off18_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t2_loop.lb k1_t2_loop.ub k1_t2_loop.st = 13 from trips13] at hacc
  subst hacc
  sl_exec
  sl_unfold_run_names
  unfold_pays
  ihave Hs3' := (Entails.of_eq (s3_step0 (F := F) d L A Tt f3 1 2 16 rfl rfl inb_S512_S16_16)) $$ Hs3'
  -- block 3
  sl_for (inv0 d L A Tt (s0c d L A) (tvc d L Tt) 32) $$ [Hs0' Hs2']
  case region =>
    exact region0 d L A Tt (s0c d L A) (tvc d L Tt) hin (hs0c d L A) (htvc d L Tt) 32 _ (⟨k1_off19, k1_off19_inb, k1_chk17, k1_chk17.dec, k1_idx17_inb, fun _ h => h⟩) (⟨k1_off20, k1_off20_inb, k1_chk18, k1_chk18.dec, k1_idx18_inb, fun _ h => h⟩) (⟨k1_off21, k1_off21_inb, k1_chk19, k1_chk19.dec, k1_idx19_inb, fun _ h => h⟩) (⟨k1_off22, k1_off22_inb, k1_chk20, k1_chk20.dec, k1_idx20_inb, fun _ h => h⟩) (⟨k1_off23, k1_off23_inb, k1_chk21, k1_chk21.dec, k1_idx21_inb, fun _ h => h⟩) (⟨k1_off24, k1_off24_inb, k1_chk22, k1_chk22.dec, k1_idx22_inb, fun _ h => h⟩) (⟨k1_off25, k1_off25_inb, k1_chk23, k1_chk23.dec, k1_idx23_inb, fun _ h => h⟩) (⟨k1_off26, k1_off26_inb, k1_chk24, k1_chk24.dec, k1_idx24_inb, fun _ h => h⟩) (fun k => ⟨congrFun (k1_off19_eq k) 0, congrFun (k1_off19_eq k) 1⟩) (fun k => ⟨congrFun (k1_off20_eq k) 0, congrFun (k1_off20_eq k) 1⟩) (fun k => ⟨congrFun (k1_off21_eq k) 0, congrFun (k1_off21_eq k) 1⟩) (fun k => ⟨congrFun (k1_off22_eq k) 0, congrFun (k1_off22_eq k) 1⟩) (fun k => ⟨congrFun (k1_off23_eq k) 0, congrFun (k1_off23_eq k) 1⟩) (fun k => ⟨congrFun (k1_off24_eq k) 0, congrFun (k1_off24_eq k) 1⟩) (fun k => ⟨congrFun (k1_off25_eq k) 0, congrFun (k1_off25_eq k) 1⟩) (fun k => ⟨congrFun (k1_off26_eq k) 0, congrFun (k1_off26_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t3_loop.lb k1_t3_loop.ub k1_t3_loop.st = 13 from trips13] at hacc
  subst hacc
  sl_exec
  sl_unfold_run_names
  unfold_pays
  ihave Hs3' := (Entails.of_eq (s3_step0 (F := F) d L A Tt f3 2 3 32 rfl rfl inb_S512_S16_32)) $$ Hs3'
  -- block 4
  sl_for (inv0 d L A Tt (s0c d L A) (tvc d L Tt) 48) $$ [Hs0' Hs2']
  case region =>
    exact region0 d L A Tt (s0c d L A) (tvc d L Tt) hin (hs0c d L A) (htvc d L Tt) 48 _ (⟨k1_off27, k1_off27_inb, k1_chk25, k1_chk25.dec, k1_idx25_inb, fun _ h => h⟩) (⟨k1_off28, k1_off28_inb, k1_chk26, k1_chk26.dec, k1_idx26_inb, fun _ h => h⟩) (⟨k1_off29, k1_off29_inb, k1_chk27, k1_chk27.dec, k1_idx27_inb, fun _ h => h⟩) (⟨k1_off30, k1_off30_inb, k1_chk28, k1_chk28.dec, k1_idx28_inb, fun _ h => h⟩) (⟨k1_off31, k1_off31_inb, k1_chk29, k1_chk29.dec, k1_idx29_inb, fun _ h => h⟩) (⟨k1_off32, k1_off32_inb, k1_chk30, k1_chk30.dec, k1_idx30_inb, fun _ h => h⟩) (⟨k1_off33, k1_off33_inb, k1_chk31, k1_chk31.dec, k1_idx31_inb, fun _ h => h⟩) (⟨k1_off34, k1_off34_inb, k1_chk32, k1_chk32.dec, k1_idx32_inb, fun _ h => h⟩) (fun k => ⟨congrFun (k1_off27_eq k) 0, congrFun (k1_off27_eq k) 1⟩) (fun k => ⟨congrFun (k1_off28_eq k) 0, congrFun (k1_off28_eq k) 1⟩) (fun k => ⟨congrFun (k1_off29_eq k) 0, congrFun (k1_off29_eq k) 1⟩) (fun k => ⟨congrFun (k1_off30_eq k) 0, congrFun (k1_off30_eq k) 1⟩) (fun k => ⟨congrFun (k1_off31_eq k) 0, congrFun (k1_off31_eq k) 1⟩) (fun k => ⟨congrFun (k1_off32_eq k) 0, congrFun (k1_off32_eq k) 1⟩) (fun k => ⟨congrFun (k1_off33_eq k) 0, congrFun (k1_off33_eq k) 1⟩) (fun k => ⟨congrFun (k1_off34_eq k) 0, congrFun (k1_off34_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t4_loop.lb k1_t4_loop.ub k1_t4_loop.st = 13 from trips13] at hacc
  subst hacc
  sl_exec
  sl_unfold_run_names
  unfold_pays
  ihave Hs3' := (Entails.of_eq (s3_step0 (F := F) d L A Tt f3 3 4 48 rfl rfl inb_S512_S16_48)) $$ Hs3'
  -- block 5
  sl_for (inv0 d L A Tt (s0c d L A) (tvc d L Tt) 64) $$ [Hs0' Hs2']
  case region =>
    exact region0 d L A Tt (s0c d L A) (tvc d L Tt) hin (hs0c d L A) (htvc d L Tt) 64 _ (⟨k1_off35, k1_off35_inb, k1_chk33, k1_chk33.dec, k1_idx33_inb, fun _ h => h⟩) (⟨k1_off36, k1_off36_inb, k1_chk34, k1_chk34.dec, k1_idx34_inb, fun _ h => h⟩) (⟨k1_off37, k1_off37_inb, k1_chk35, k1_chk35.dec, k1_idx35_inb, fun _ h => h⟩) (⟨k1_off38, k1_off38_inb, k1_chk36, k1_chk36.dec, k1_idx36_inb, fun _ h => h⟩) (⟨k1_off39, k1_off39_inb, k1_chk37, k1_chk37.dec, k1_idx37_inb, fun _ h => h⟩) (⟨k1_off40, k1_off40_inb, k1_chk38, k1_chk38.dec, k1_idx38_inb, fun _ h => h⟩) (⟨k1_off41, k1_off41_inb, k1_chk39, k1_chk39.dec, k1_idx39_inb, fun _ h => h⟩) (⟨k1_off42, k1_off42_inb, k1_chk40, k1_chk40.dec, k1_idx40_inb, fun _ h => h⟩) (fun k => ⟨congrFun (k1_off35_eq k) 0, congrFun (k1_off35_eq k) 1⟩) (fun k => ⟨congrFun (k1_off36_eq k) 0, congrFun (k1_off36_eq k) 1⟩) (fun k => ⟨congrFun (k1_off37_eq k) 0, congrFun (k1_off37_eq k) 1⟩) (fun k => ⟨congrFun (k1_off38_eq k) 0, congrFun (k1_off38_eq k) 1⟩) (fun k => ⟨congrFun (k1_off39_eq k) 0, congrFun (k1_off39_eq k) 1⟩) (fun k => ⟨congrFun (k1_off40_eq k) 0, congrFun (k1_off40_eq k) 1⟩) (fun k => ⟨congrFun (k1_off41_eq k) 0, congrFun (k1_off41_eq k) 1⟩) (fun k => ⟨congrFun (k1_off42_eq k) 0, congrFun (k1_off42_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t5_loop.lb k1_t5_loop.ub k1_t5_loop.st = 13 from trips13] at hacc
  subst hacc
  sl_exec
  sl_unfold_run_names
  unfold_pays
  ihave Hs3' := (Entails.of_eq (s3_step0 (F := F) d L A Tt f3 4 5 64 rfl rfl inb_S512_S16_64)) $$ Hs3'
  -- block 6
  sl_for (inv0 d L A Tt (s0c d L A) (tvc d L Tt) 80) $$ [Hs0' Hs2']
  case region =>
    exact region0 d L A Tt (s0c d L A) (tvc d L Tt) hin (hs0c d L A) (htvc d L Tt) 80 _ (⟨k1_off43, k1_off43_inb, k1_chk41, k1_chk41.dec, k1_idx41_inb, fun _ h => h⟩) (⟨k1_off44, k1_off44_inb, k1_chk42, k1_chk42.dec, k1_idx42_inb, fun _ h => h⟩) (⟨k1_off45, k1_off45_inb, k1_chk43, k1_chk43.dec, k1_idx43_inb, fun _ h => h⟩) (⟨k1_off46, k1_off46_inb, k1_chk44, k1_chk44.dec, k1_idx44_inb, fun _ h => h⟩) (⟨k1_off47, k1_off47_inb, k1_chk45, k1_chk45.dec, k1_idx45_inb, fun _ h => h⟩) (⟨k1_off48, k1_off48_inb, k1_chk46, k1_chk46.dec, k1_idx46_inb, fun _ h => h⟩) (⟨k1_off49, k1_off49_inb, k1_chk47, k1_chk47.dec, k1_idx47_inb, fun _ h => h⟩) (⟨k1_off50, k1_off50_inb, k1_chk48, k1_chk48.dec, k1_idx48_inb, fun _ h => h⟩) (fun k => ⟨congrFun (k1_off43_eq k) 0, congrFun (k1_off43_eq k) 1⟩) (fun k => ⟨congrFun (k1_off44_eq k) 0, congrFun (k1_off44_eq k) 1⟩) (fun k => ⟨congrFun (k1_off45_eq k) 0, congrFun (k1_off45_eq k) 1⟩) (fun k => ⟨congrFun (k1_off46_eq k) 0, congrFun (k1_off46_eq k) 1⟩) (fun k => ⟨congrFun (k1_off47_eq k) 0, congrFun (k1_off47_eq k) 1⟩) (fun k => ⟨congrFun (k1_off48_eq k) 0, congrFun (k1_off48_eq k) 1⟩) (fun k => ⟨congrFun (k1_off49_eq k) 0, congrFun (k1_off49_eq k) 1⟩) (fun k => ⟨congrFun (k1_off50_eq k) 0, congrFun (k1_off50_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t6_loop.lb k1_t6_loop.ub k1_t6_loop.st = 13 from trips13] at hacc
  subst hacc
  sl_exec
  sl_unfold_run_names
  unfold_pays
  ihave Hs3' := (Entails.of_eq (s3_step0 (F := F) d L A Tt f3 5 6 80 rfl rfl inb_S512_S16_80)) $$ Hs3'
  -- block 7
  sl_for (inv0 d L A Tt (s0c d L A) (tvc d L Tt) 96) $$ [Hs0' Hs2']
  case region =>
    exact region0 d L A Tt (s0c d L A) (tvc d L Tt) hin (hs0c d L A) (htvc d L Tt) 96 _ (⟨k1_off51, k1_off51_inb, k1_chk49, k1_chk49.dec, k1_idx49_inb, fun _ h => h⟩) (⟨k1_off52, k1_off52_inb, k1_chk50, k1_chk50.dec, k1_idx50_inb, fun _ h => h⟩) (⟨k1_off53, k1_off53_inb, k1_chk51, k1_chk51.dec, k1_idx51_inb, fun _ h => h⟩) (⟨k1_off54, k1_off54_inb, k1_chk52, k1_chk52.dec, k1_idx52_inb, fun _ h => h⟩) (⟨k1_off55, k1_off55_inb, k1_chk53, k1_chk53.dec, k1_idx53_inb, fun _ h => h⟩) (⟨k1_off56, k1_off56_inb, k1_chk54, k1_chk54.dec, k1_idx54_inb, fun _ h => h⟩) (⟨k1_off57, k1_off57_inb, k1_chk55, k1_chk55.dec, k1_idx55_inb, fun _ h => h⟩) (⟨k1_off58, k1_off58_inb, k1_chk56, k1_chk56.dec, k1_idx56_inb, fun _ h => h⟩) (fun k => ⟨congrFun (k1_off51_eq k) 0, congrFun (k1_off51_eq k) 1⟩) (fun k => ⟨congrFun (k1_off52_eq k) 0, congrFun (k1_off52_eq k) 1⟩) (fun k => ⟨congrFun (k1_off53_eq k) 0, congrFun (k1_off53_eq k) 1⟩) (fun k => ⟨congrFun (k1_off54_eq k) 0, congrFun (k1_off54_eq k) 1⟩) (fun k => ⟨congrFun (k1_off55_eq k) 0, congrFun (k1_off55_eq k) 1⟩) (fun k => ⟨congrFun (k1_off56_eq k) 0, congrFun (k1_off56_eq k) 1⟩) (fun k => ⟨congrFun (k1_off57_eq k) 0, congrFun (k1_off57_eq k) 1⟩) (fun k => ⟨congrFun (k1_off58_eq k) 0, congrFun (k1_off58_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t7_loop.lb k1_t7_loop.ub k1_t7_loop.st = 13 from trips13] at hacc
  subst hacc
  sl_exec
  sl_unfold_run_names
  unfold_pays
  ihave Hs3' := (Entails.of_eq (s3_step0 (F := F) d L A Tt f3 6 7 96 rfl rfl inb_S512_S16_96)) $$ Hs3'
  -- block 8
  sl_for (inv0 d L A Tt (s0c d L A) (tvc d L Tt) 112) $$ [Hs0' Hs2']
  case region =>
    exact region0 d L A Tt (s0c d L A) (tvc d L Tt) hin (hs0c d L A) (htvc d L Tt) 112 _ (⟨k1_off59, k1_off59_inb, k1_chk57, k1_chk57.dec, k1_idx57_inb, fun _ h => h⟩) (⟨k1_off60, k1_off60_inb, k1_chk58, k1_chk58.dec, k1_idx58_inb, fun _ h => h⟩) (⟨k1_off61, k1_off61_inb, k1_chk59, k1_chk59.dec, k1_idx59_inb, fun _ h => h⟩) (⟨k1_off62, k1_off62_inb, k1_chk60, k1_chk60.dec, k1_idx60_inb, fun _ h => h⟩) (⟨k1_off63, k1_off63_inb, k1_chk61, k1_chk61.dec, k1_idx61_inb, fun _ h => h⟩) (⟨k1_off64, k1_off64_inb, k1_chk62, k1_chk62.dec, k1_idx62_inb, fun _ h => h⟩) (⟨k1_off65, k1_off65_inb, k1_chk63, k1_chk63.dec, k1_idx63_inb, fun _ h => h⟩) (⟨k1_off66, k1_off66_inb, k1_chk64, k1_chk64.dec, k1_idx64_inb, fun _ h => h⟩) (fun k => ⟨congrFun (k1_off59_eq k) 0, congrFun (k1_off59_eq k) 1⟩) (fun k => ⟨congrFun (k1_off60_eq k) 0, congrFun (k1_off60_eq k) 1⟩) (fun k => ⟨congrFun (k1_off61_eq k) 0, congrFun (k1_off61_eq k) 1⟩) (fun k => ⟨congrFun (k1_off62_eq k) 0, congrFun (k1_off62_eq k) 1⟩) (fun k => ⟨congrFun (k1_off63_eq k) 0, congrFun (k1_off63_eq k) 1⟩) (fun k => ⟨congrFun (k1_off64_eq k) 0, congrFun (k1_off64_eq k) 1⟩) (fun k => ⟨congrFun (k1_off65_eq k) 0, congrFun (k1_off65_eq k) 1⟩) (fun k => ⟨congrFun (k1_off66_eq k) 0, congrFun (k1_off66_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t8_loop.lb k1_t8_loop.ub k1_t8_loop.st = 13 from trips13] at hacc
  subst hacc
  sl_exec
  sl_unfold_run_names
  unfold_pays
  ihave Hs3' := (Entails.of_eq (s3_step0 (F := F) d L A Tt f3 7 8 112 rfl rfl inb_S512_S16_112)) $$ Hs3'
  -- block 9
  sl_for (inv0 d L A Tt (s0c d L A) (tvc d L Tt) 128) $$ [Hs0' Hs2']
  case region =>
    exact region0 d L A Tt (s0c d L A) (tvc d L Tt) hin (hs0c d L A) (htvc d L Tt) 128 _ (⟨k1_off67, k1_off67_inb, k1_chk65, k1_chk65.dec, k1_idx65_inb, fun _ h => h⟩) (⟨k1_off68, k1_off68_inb, k1_chk66, k1_chk66.dec, k1_idx66_inb, fun _ h => h⟩) (⟨k1_off69, k1_off69_inb, k1_chk67, k1_chk67.dec, k1_idx67_inb, fun _ h => h⟩) (⟨k1_off70, k1_off70_inb, k1_chk68, k1_chk68.dec, k1_idx68_inb, fun _ h => h⟩) (⟨k1_off71, k1_off71_inb, k1_chk69, k1_chk69.dec, k1_idx69_inb, fun _ h => h⟩) (⟨k1_off72, k1_off72_inb, k1_chk70, k1_chk70.dec, k1_idx70_inb, fun _ h => h⟩) (⟨k1_off73, k1_off73_inb, k1_chk71, k1_chk71.dec, k1_idx71_inb, fun _ h => h⟩) (⟨k1_off74, k1_off74_inb, k1_chk72, k1_chk72.dec, k1_idx72_inb, fun _ h => h⟩) (fun k => ⟨congrFun (k1_off67_eq k) 0, congrFun (k1_off67_eq k) 1⟩) (fun k => ⟨congrFun (k1_off68_eq k) 0, congrFun (k1_off68_eq k) 1⟩) (fun k => ⟨congrFun (k1_off69_eq k) 0, congrFun (k1_off69_eq k) 1⟩) (fun k => ⟨congrFun (k1_off70_eq k) 0, congrFun (k1_off70_eq k) 1⟩) (fun k => ⟨congrFun (k1_off71_eq k) 0, congrFun (k1_off71_eq k) 1⟩) (fun k => ⟨congrFun (k1_off72_eq k) 0, congrFun (k1_off72_eq k) 1⟩) (fun k => ⟨congrFun (k1_off73_eq k) 0, congrFun (k1_off73_eq k) 1⟩) (fun k => ⟨congrFun (k1_off74_eq k) 0, congrFun (k1_off74_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t9_loop.lb k1_t9_loop.ub k1_t9_loop.st = 13 from trips13] at hacc
  subst hacc
  sl_exec
  sl_unfold_run_names
  unfold_pays
  ihave Hs3' := (Entails.of_eq (s3_step0 (F := F) d L A Tt f3 8 9 128 rfl rfl inb_S512_S16_128)) $$ Hs3'
  -- block 10
  sl_for (inv0 d L A Tt (s0c d L A) (tvc d L Tt) 144) $$ [Hs0' Hs2']
  case region =>
    exact region0 d L A Tt (s0c d L A) (tvc d L Tt) hin (hs0c d L A) (htvc d L Tt) 144 _ (⟨k1_off75, k1_off75_inb, k1_chk73, k1_chk73.dec, k1_idx73_inb, fun _ h => h⟩) (⟨k1_off76, k1_off76_inb, k1_chk74, k1_chk74.dec, k1_idx74_inb, fun _ h => h⟩) (⟨k1_off77, k1_off77_inb, k1_chk75, k1_chk75.dec, k1_idx75_inb, fun _ h => h⟩) (⟨k1_off78, k1_off78_inb, k1_chk76, k1_chk76.dec, k1_idx76_inb, fun _ h => h⟩) (⟨k1_off79, k1_off79_inb, k1_chk77, k1_chk77.dec, k1_idx77_inb, fun _ h => h⟩) (⟨k1_off80, k1_off80_inb, k1_chk78, k1_chk78.dec, k1_idx78_inb, fun _ h => h⟩) (⟨k1_off81, k1_off81_inb, k1_chk79, k1_chk79.dec, k1_idx79_inb, fun _ h => h⟩) (⟨k1_off82, k1_off82_inb, k1_chk80, k1_chk80.dec, k1_idx80_inb, fun _ h => h⟩) (fun k => ⟨congrFun (k1_off75_eq k) 0, congrFun (k1_off75_eq k) 1⟩) (fun k => ⟨congrFun (k1_off76_eq k) 0, congrFun (k1_off76_eq k) 1⟩) (fun k => ⟨congrFun (k1_off77_eq k) 0, congrFun (k1_off77_eq k) 1⟩) (fun k => ⟨congrFun (k1_off78_eq k) 0, congrFun (k1_off78_eq k) 1⟩) (fun k => ⟨congrFun (k1_off79_eq k) 0, congrFun (k1_off79_eq k) 1⟩) (fun k => ⟨congrFun (k1_off80_eq k) 0, congrFun (k1_off80_eq k) 1⟩) (fun k => ⟨congrFun (k1_off81_eq k) 0, congrFun (k1_off81_eq k) 1⟩) (fun k => ⟨congrFun (k1_off82_eq k) 0, congrFun (k1_off82_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t10_loop.lb k1_t10_loop.ub k1_t10_loop.st = 13 from trips13] at hacc
  subst hacc
  sl_exec
  sl_unfold_run_names
  unfold_pays
  ihave Hs3' := (Entails.of_eq (s3_step0 (F := F) d L A Tt f3 9 10 144 rfl rfl inb_S512_S16_144)) $$ Hs3'
  -- block 11
  sl_for (inv0 d L A Tt (s0c d L A) (tvc d L Tt) 160) $$ [Hs0' Hs2']
  case region =>
    exact region0 d L A Tt (s0c d L A) (tvc d L Tt) hin (hs0c d L A) (htvc d L Tt) 160 _ (⟨k1_off83, k1_off83_inb, k1_chk81, k1_chk81.dec, k1_idx81_inb, fun _ h => h⟩) (⟨k1_off84, k1_off84_inb, k1_chk82, k1_chk82.dec, k1_idx82_inb, fun _ h => h⟩) (⟨k1_off85, k1_off85_inb, k1_chk83, k1_chk83.dec, k1_idx83_inb, fun _ h => h⟩) (⟨k1_off86, k1_off86_inb, k1_chk84, k1_chk84.dec, k1_idx84_inb, fun _ h => h⟩) (⟨k1_off87, k1_off87_inb, k1_chk85, k1_chk85.dec, k1_idx85_inb, fun _ h => h⟩) (⟨k1_off88, k1_off88_inb, k1_chk86, k1_chk86.dec, k1_idx86_inb, fun _ h => h⟩) (⟨k1_off89, k1_off89_inb, k1_chk87, k1_chk87.dec, k1_idx87_inb, fun _ h => h⟩) (⟨k1_off90, k1_off90_inb, k1_chk88, k1_chk88.dec, k1_idx88_inb, fun _ h => h⟩) (fun k => ⟨congrFun (k1_off83_eq k) 0, congrFun (k1_off83_eq k) 1⟩) (fun k => ⟨congrFun (k1_off84_eq k) 0, congrFun (k1_off84_eq k) 1⟩) (fun k => ⟨congrFun (k1_off85_eq k) 0, congrFun (k1_off85_eq k) 1⟩) (fun k => ⟨congrFun (k1_off86_eq k) 0, congrFun (k1_off86_eq k) 1⟩) (fun k => ⟨congrFun (k1_off87_eq k) 0, congrFun (k1_off87_eq k) 1⟩) (fun k => ⟨congrFun (k1_off88_eq k) 0, congrFun (k1_off88_eq k) 1⟩) (fun k => ⟨congrFun (k1_off89_eq k) 0, congrFun (k1_off89_eq k) 1⟩) (fun k => ⟨congrFun (k1_off90_eq k) 0, congrFun (k1_off90_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t11_loop.lb k1_t11_loop.ub k1_t11_loop.st = 13 from trips13] at hacc
  subst hacc
  sl_exec
  sl_unfold_run_names
  unfold_pays
  ihave Hs3' := (Entails.of_eq (s3_step0 (F := F) d L A Tt f3 10 11 160 rfl rfl inb_S512_S16_160)) $$ Hs3'
  -- block 12
  sl_for (inv0 d L A Tt (s0c d L A) (tvc d L Tt) 176) $$ [Hs0' Hs2']
  case region =>
    exact region0 d L A Tt (s0c d L A) (tvc d L Tt) hin (hs0c d L A) (htvc d L Tt) 176 _ (⟨k1_off91, k1_off91_inb, k1_chk89, k1_chk89.dec, k1_idx89_inb, fun _ h => h⟩) (⟨k1_off92, k1_off92_inb, k1_chk90, k1_chk90.dec, k1_idx90_inb, fun _ h => h⟩) (⟨k1_off93, k1_off93_inb, k1_chk91, k1_chk91.dec, k1_idx91_inb, fun _ h => h⟩) (⟨k1_off94, k1_off94_inb, k1_chk92, k1_chk92.dec, k1_idx92_inb, fun _ h => h⟩) (⟨k1_off95, k1_off95_inb, k1_chk93, k1_chk93.dec, k1_idx93_inb, fun _ h => h⟩) (⟨k1_off96, k1_off96_inb, k1_chk94, k1_chk94.dec, k1_idx94_inb, fun _ h => h⟩) (⟨k1_off97, k1_off97_inb, k1_chk95, k1_chk95.dec, k1_idx95_inb, fun _ h => h⟩) (⟨k1_off98, k1_off98_inb, k1_chk96, k1_chk96.dec, k1_idx96_inb, fun _ h => h⟩) (fun k => ⟨congrFun (k1_off91_eq k) 0, congrFun (k1_off91_eq k) 1⟩) (fun k => ⟨congrFun (k1_off92_eq k) 0, congrFun (k1_off92_eq k) 1⟩) (fun k => ⟨congrFun (k1_off93_eq k) 0, congrFun (k1_off93_eq k) 1⟩) (fun k => ⟨congrFun (k1_off94_eq k) 0, congrFun (k1_off94_eq k) 1⟩) (fun k => ⟨congrFun (k1_off95_eq k) 0, congrFun (k1_off95_eq k) 1⟩) (fun k => ⟨congrFun (k1_off96_eq k) 0, congrFun (k1_off96_eq k) 1⟩) (fun k => ⟨congrFun (k1_off97_eq k) 0, congrFun (k1_off97_eq k) 1⟩) (fun k => ⟨congrFun (k1_off98_eq k) 0, congrFun (k1_off98_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t12_loop.lb k1_t12_loop.ub k1_t12_loop.st = 13 from trips13] at hacc
  subst hacc
  sl_exec
  sl_unfold_run_names
  unfold_pays
  ihave Hs3' := (Entails.of_eq (s3_step0 (F := F) d L A Tt f3 11 12 176 rfl rfl inb_S512_S16_176)) $$ Hs3'
  -- block 13
  sl_for (inv0 d L A Tt (s0c d L A) (tvc d L Tt) 192) $$ [Hs0' Hs2']
  case region =>
    exact region0 d L A Tt (s0c d L A) (tvc d L Tt) hin (hs0c d L A) (htvc d L Tt) 192 _ (⟨k1_off99, k1_off99_inb, k1_chk97, k1_chk97.dec, k1_idx97_inb, fun _ h => h⟩) (⟨k1_off100, k1_off100_inb, k1_chk98, k1_chk98.dec, k1_idx98_inb, fun _ h => h⟩) (⟨k1_off101, k1_off101_inb, k1_chk99, k1_chk99.dec, k1_idx99_inb, fun _ h => h⟩) (⟨k1_off102, k1_off102_inb, k1_chk100, k1_chk100.dec, k1_idx100_inb, fun _ h => h⟩) (⟨k1_off103, k1_off103_inb, k1_chk101, k1_chk101.dec, k1_idx101_inb, fun _ h => h⟩) (⟨k1_off104, k1_off104_inb, k1_chk102, k1_chk102.dec, k1_idx102_inb, fun _ h => h⟩) (⟨k1_off105, k1_off105_inb, k1_chk103, k1_chk103.dec, k1_idx103_inb, fun _ h => h⟩) (⟨k1_off106, k1_off106_inb, k1_chk104, k1_chk104.dec, k1_idx104_inb, fun _ h => h⟩) (fun k => ⟨congrFun (k1_off99_eq k) 0, congrFun (k1_off99_eq k) 1⟩) (fun k => ⟨congrFun (k1_off100_eq k) 0, congrFun (k1_off100_eq k) 1⟩) (fun k => ⟨congrFun (k1_off101_eq k) 0, congrFun (k1_off101_eq k) 1⟩) (fun k => ⟨congrFun (k1_off102_eq k) 0, congrFun (k1_off102_eq k) 1⟩) (fun k => ⟨congrFun (k1_off103_eq k) 0, congrFun (k1_off103_eq k) 1⟩) (fun k => ⟨congrFun (k1_off104_eq k) 0, congrFun (k1_off104_eq k) 1⟩) (fun k => ⟨congrFun (k1_off105_eq k) 0, congrFun (k1_off105_eq k) 1⟩) (fun k => ⟨congrFun (k1_off106_eq k) 0, congrFun (k1_off106_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t13_loop.lb k1_t13_loop.ub k1_t13_loop.st = 13 from trips13] at hacc
  subst hacc
  sl_exec
  sl_unfold_run_names
  unfold_pays
  ihave Hs3' := (Entails.of_eq (s3_step0 (F := F) d L A Tt f3 12 13 192 rfl rfl inb_S512_S16_192)) $$ Hs3'
  -- block 14
  sl_for (inv0 d L A Tt (s0c d L A) (tvc d L Tt) 208) $$ [Hs0' Hs2']
  case region =>
    exact region0 d L A Tt (s0c d L A) (tvc d L Tt) hin (hs0c d L A) (htvc d L Tt) 208 _ (⟨k1_off107, k1_off107_inb, k1_chk105, k1_chk105.dec, k1_idx105_inb, fun _ h => h⟩) (⟨k1_off108, k1_off108_inb, k1_chk106, k1_chk106.dec, k1_idx106_inb, fun _ h => h⟩) (⟨k1_off109, k1_off109_inb, k1_chk107, k1_chk107.dec, k1_idx107_inb, fun _ h => h⟩) (⟨k1_off110, k1_off110_inb, k1_chk108, k1_chk108.dec, k1_idx108_inb, fun _ h => h⟩) (⟨k1_off111, k1_off111_inb, k1_chk109, k1_chk109.dec, k1_idx109_inb, fun _ h => h⟩) (⟨k1_off112, k1_off112_inb, k1_chk110, k1_chk110.dec, k1_idx110_inb, fun _ h => h⟩) (⟨k1_off113, k1_off113_inb, k1_chk111, k1_chk111.dec, k1_idx111_inb, fun _ h => h⟩) (⟨k1_off114, k1_off114_inb, k1_chk112, k1_chk112.dec, k1_idx112_inb, fun _ h => h⟩) (fun k => ⟨congrFun (k1_off107_eq k) 0, congrFun (k1_off107_eq k) 1⟩) (fun k => ⟨congrFun (k1_off108_eq k) 0, congrFun (k1_off108_eq k) 1⟩) (fun k => ⟨congrFun (k1_off109_eq k) 0, congrFun (k1_off109_eq k) 1⟩) (fun k => ⟨congrFun (k1_off110_eq k) 0, congrFun (k1_off110_eq k) 1⟩) (fun k => ⟨congrFun (k1_off111_eq k) 0, congrFun (k1_off111_eq k) 1⟩) (fun k => ⟨congrFun (k1_off112_eq k) 0, congrFun (k1_off112_eq k) 1⟩) (fun k => ⟨congrFun (k1_off113_eq k) 0, congrFun (k1_off113_eq k) 1⟩) (fun k => ⟨congrFun (k1_off114_eq k) 0, congrFun (k1_off114_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t14_loop.lb k1_t14_loop.ub k1_t14_loop.st = 13 from trips13] at hacc
  subst hacc
  sl_exec
  sl_unfold_run_names
  unfold_pays
  ihave Hs3' := (Entails.of_eq (s3_step0 (F := F) d L A Tt f3 13 14 208 rfl rfl inb_S512_S16_208)) $$ Hs3'
  -- block 15
  sl_for (inv0 d L A Tt (s0c d L A) (tvc d L Tt) 224) $$ [Hs0' Hs2']
  case region =>
    exact region0 d L A Tt (s0c d L A) (tvc d L Tt) hin (hs0c d L A) (htvc d L Tt) 224 _ (⟨k1_off115, k1_off115_inb, k1_chk113, k1_chk113.dec, k1_idx113_inb, fun _ h => h⟩) (⟨k1_off116, k1_off116_inb, k1_chk114, k1_chk114.dec, k1_idx114_inb, fun _ h => h⟩) (⟨k1_off117, k1_off117_inb, k1_chk115, k1_chk115.dec, k1_idx115_inb, fun _ h => h⟩) (⟨k1_off118, k1_off118_inb, k1_chk116, k1_chk116.dec, k1_idx116_inb, fun _ h => h⟩) (⟨k1_off119, k1_off119_inb, k1_chk117, k1_chk117.dec, k1_idx117_inb, fun _ h => h⟩) (⟨k1_off120, k1_off120_inb, k1_chk118, k1_chk118.dec, k1_idx118_inb, fun _ h => h⟩) (⟨k1_off121, k1_off121_inb, k1_chk119, k1_chk119.dec, k1_idx119_inb, fun _ h => h⟩) (⟨k1_off122, k1_off122_inb, k1_chk120, k1_chk120.dec, k1_idx120_inb, fun _ h => h⟩) (fun k => ⟨congrFun (k1_off115_eq k) 0, congrFun (k1_off115_eq k) 1⟩) (fun k => ⟨congrFun (k1_off116_eq k) 0, congrFun (k1_off116_eq k) 1⟩) (fun k => ⟨congrFun (k1_off117_eq k) 0, congrFun (k1_off117_eq k) 1⟩) (fun k => ⟨congrFun (k1_off118_eq k) 0, congrFun (k1_off118_eq k) 1⟩) (fun k => ⟨congrFun (k1_off119_eq k) 0, congrFun (k1_off119_eq k) 1⟩) (fun k => ⟨congrFun (k1_off120_eq k) 0, congrFun (k1_off120_eq k) 1⟩) (fun k => ⟨congrFun (k1_off121_eq k) 0, congrFun (k1_off121_eq k) 1⟩) (fun k => ⟨congrFun (k1_off122_eq k) 0, congrFun (k1_off122_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t15_loop.lb k1_t15_loop.ub k1_t15_loop.st = 13 from trips13] at hacc
  subst hacc
  sl_exec
  sl_unfold_run_names
  unfold_pays
  ihave Hs3' := (Entails.of_eq (s3_step0 (F := F) d L A Tt f3 14 15 224 rfl rfl inb_S512_S16_224)) $$ Hs3'
  -- block 16
  sl_for (inv0 d L A Tt (s0c d L A) (tvc d L Tt) 240) $$ [Hs0' Hs2']
  case region =>
    exact region0 d L A Tt (s0c d L A) (tvc d L Tt) hin (hs0c d L A) (htvc d L Tt) 240 _ (⟨k1_off123, k1_off123_inb, k1_chk121, k1_chk121.dec, k1_idx121_inb, fun _ h => h⟩) (⟨k1_off124, k1_off124_inb, k1_chk122, k1_chk122.dec, k1_idx122_inb, fun _ h => h⟩) (⟨k1_off125, k1_off125_inb, k1_chk123, k1_chk123.dec, k1_idx123_inb, fun _ h => h⟩) (⟨k1_off126, k1_off126_inb, k1_chk124, k1_chk124.dec, k1_idx124_inb, fun _ h => h⟩) (⟨k1_off127, k1_off127_inb, k1_chk125, k1_chk125.dec, k1_idx125_inb, fun _ h => h⟩) (⟨k1_off128, k1_off128_inb, k1_chk126, k1_chk126.dec, k1_idx126_inb, fun _ h => h⟩) (⟨k1_off129, k1_off129_inb, k1_chk127, k1_chk127.dec, k1_idx127_inb, fun _ h => h⟩) (⟨k1_off130, k1_off130_inb, k1_chk128, k1_chk128.dec, k1_idx128_inb, fun _ h => h⟩) (fun k => ⟨congrFun (k1_off123_eq k) 0, congrFun (k1_off123_eq k) 1⟩) (fun k => ⟨congrFun (k1_off124_eq k) 0, congrFun (k1_off124_eq k) 1⟩) (fun k => ⟨congrFun (k1_off125_eq k) 0, congrFun (k1_off125_eq k) 1⟩) (fun k => ⟨congrFun (k1_off126_eq k) 0, congrFun (k1_off126_eq k) 1⟩) (fun k => ⟨congrFun (k1_off127_eq k) 0, congrFun (k1_off127_eq k) 1⟩) (fun k => ⟨congrFun (k1_off128_eq k) 0, congrFun (k1_off128_eq k) 1⟩) (fun k => ⟨congrFun (k1_off129_eq k) 0, congrFun (k1_off129_eq k) 1⟩) (fun k => ⟨congrFun (k1_off130_eq k) 0, congrFun (k1_off130_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t16_loop.lb k1_t16_loop.ub k1_t16_loop.st = 13 from trips13] at hacc
  subst hacc
  sl_exec
  sl_unfold_run_names
  unfold_pays
  ihave Hs3' := (Entails.of_eq (s3_step0 (F := F) d L A Tt f3 15 16 240 rfl rfl inb_S512_S16_240)) $$ Hs3'
  -- block 17
  sl_for (inv0 d L A Tt (s0c d L A) (tvc d L Tt) 256) $$ [Hs0' Hs2']
  case region =>
    exact region0 d L A Tt (s0c d L A) (tvc d L Tt) hin (hs0c d L A) (htvc d L Tt) 256 _ (⟨k1_off131, k1_off131_inb, k1_chk129, k1_chk129.dec, k1_idx129_inb, fun _ h => h⟩) (⟨k1_off132, k1_off132_inb, k1_chk130, k1_chk130.dec, k1_idx130_inb, fun _ h => h⟩) (⟨k1_off133, k1_off133_inb, k1_chk131, k1_chk131.dec, k1_idx131_inb, fun _ h => h⟩) (⟨k1_off134, k1_off134_inb, k1_chk132, k1_chk132.dec, k1_idx132_inb, fun _ h => h⟩) (⟨k1_off135, k1_off135_inb, k1_chk133, k1_chk133.dec, k1_idx133_inb, fun _ h => h⟩) (⟨k1_off136, k1_off136_inb, k1_chk134, k1_chk134.dec, k1_idx134_inb, fun _ h => h⟩) (⟨k1_off137, k1_off137_inb, k1_chk135, k1_chk135.dec, k1_idx135_inb, fun _ h => h⟩) (⟨k1_off138, k1_off138_inb, k1_chk136, k1_chk136.dec, k1_idx136_inb, fun _ h => h⟩) (fun k => ⟨congrFun (k1_off131_eq k) 0, congrFun (k1_off131_eq k) 1⟩) (fun k => ⟨congrFun (k1_off132_eq k) 0, congrFun (k1_off132_eq k) 1⟩) (fun k => ⟨congrFun (k1_off133_eq k) 0, congrFun (k1_off133_eq k) 1⟩) (fun k => ⟨congrFun (k1_off134_eq k) 0, congrFun (k1_off134_eq k) 1⟩) (fun k => ⟨congrFun (k1_off135_eq k) 0, congrFun (k1_off135_eq k) 1⟩) (fun k => ⟨congrFun (k1_off136_eq k) 0, congrFun (k1_off136_eq k) 1⟩) (fun k => ⟨congrFun (k1_off137_eq k) 0, congrFun (k1_off137_eq k) 1⟩) (fun k => ⟨congrFun (k1_off138_eq k) 0, congrFun (k1_off138_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t17_loop.lb k1_t17_loop.ub k1_t17_loop.st = 13 from trips13] at hacc
  subst hacc
  sl_exec
  sl_unfold_run_names
  unfold_pays
  ihave Hs3' := (Entails.of_eq (s3_step0 (F := F) d L A Tt f3 16 17 256 rfl rfl inb_S512_S16_256)) $$ Hs3'
  -- block 18
  sl_for (inv0 d L A Tt (s0c d L A) (tvc d L Tt) 272) $$ [Hs0' Hs2']
  case region =>
    exact region0 d L A Tt (s0c d L A) (tvc d L Tt) hin (hs0c d L A) (htvc d L Tt) 272 _ (⟨k1_off139, k1_off139_inb, k1_chk137, k1_chk137.dec, k1_idx137_inb, fun _ h => h⟩) (⟨k1_off140, k1_off140_inb, k1_chk138, k1_chk138.dec, k1_idx138_inb, fun _ h => h⟩) (⟨k1_off141, k1_off141_inb, k1_chk139, k1_chk139.dec, k1_idx139_inb, fun _ h => h⟩) (⟨k1_off142, k1_off142_inb, k1_chk140, k1_chk140.dec, k1_idx140_inb, fun _ h => h⟩) (⟨k1_off143, k1_off143_inb, k1_chk141, k1_chk141.dec, k1_idx141_inb, fun _ h => h⟩) (⟨k1_off144, k1_off144_inb, k1_chk142, k1_chk142.dec, k1_idx142_inb, fun _ h => h⟩) (⟨k1_off145, k1_off145_inb, k1_chk143, k1_chk143.dec, k1_idx143_inb, fun _ h => h⟩) (⟨k1_off146, k1_off146_inb, k1_chk144, k1_chk144.dec, k1_idx144_inb, fun _ h => h⟩) (fun k => ⟨congrFun (k1_off139_eq k) 0, congrFun (k1_off139_eq k) 1⟩) (fun k => ⟨congrFun (k1_off140_eq k) 0, congrFun (k1_off140_eq k) 1⟩) (fun k => ⟨congrFun (k1_off141_eq k) 0, congrFun (k1_off141_eq k) 1⟩) (fun k => ⟨congrFun (k1_off142_eq k) 0, congrFun (k1_off142_eq k) 1⟩) (fun k => ⟨congrFun (k1_off143_eq k) 0, congrFun (k1_off143_eq k) 1⟩) (fun k => ⟨congrFun (k1_off144_eq k) 0, congrFun (k1_off144_eq k) 1⟩) (fun k => ⟨congrFun (k1_off145_eq k) 0, congrFun (k1_off145_eq k) 1⟩) (fun k => ⟨congrFun (k1_off146_eq k) 0, congrFun (k1_off146_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t18_loop.lb k1_t18_loop.ub k1_t18_loop.st = 13 from trips13] at hacc
  subst hacc
  sl_exec
  sl_unfold_run_names
  unfold_pays
  ihave Hs3' := (Entails.of_eq (s3_step0 (F := F) d L A Tt f3 17 18 272 rfl rfl inb_S512_S16_272)) $$ Hs3'
  -- block 19
  sl_for (inv0 d L A Tt (s0c d L A) (tvc d L Tt) 288) $$ [Hs0' Hs2']
  case region =>
    exact region0 d L A Tt (s0c d L A) (tvc d L Tt) hin (hs0c d L A) (htvc d L Tt) 288 _ (⟨k1_off147, k1_off147_inb, k1_chk145, k1_chk145.dec, k1_idx145_inb, fun _ h => h⟩) (⟨k1_off148, k1_off148_inb, k1_chk146, k1_chk146.dec, k1_idx146_inb, fun _ h => h⟩) (⟨k1_off149, k1_off149_inb, k1_chk147, k1_chk147.dec, k1_idx147_inb, fun _ h => h⟩) (⟨k1_off150, k1_off150_inb, k1_chk148, k1_chk148.dec, k1_idx148_inb, fun _ h => h⟩) (⟨k1_off151, k1_off151_inb, k1_chk149, k1_chk149.dec, k1_idx149_inb, fun _ h => h⟩) (⟨k1_off152, k1_off152_inb, k1_chk150, k1_chk150.dec, k1_idx150_inb, fun _ h => h⟩) (⟨k1_off153, k1_off153_inb, k1_chk151, k1_chk151.dec, k1_idx151_inb, fun _ h => h⟩) (⟨k1_off154, k1_off154_inb, k1_chk152, k1_chk152.dec, k1_idx152_inb, fun _ h => h⟩) (fun k => ⟨congrFun (k1_off147_eq k) 0, congrFun (k1_off147_eq k) 1⟩) (fun k => ⟨congrFun (k1_off148_eq k) 0, congrFun (k1_off148_eq k) 1⟩) (fun k => ⟨congrFun (k1_off149_eq k) 0, congrFun (k1_off149_eq k) 1⟩) (fun k => ⟨congrFun (k1_off150_eq k) 0, congrFun (k1_off150_eq k) 1⟩) (fun k => ⟨congrFun (k1_off151_eq k) 0, congrFun (k1_off151_eq k) 1⟩) (fun k => ⟨congrFun (k1_off152_eq k) 0, congrFun (k1_off152_eq k) 1⟩) (fun k => ⟨congrFun (k1_off153_eq k) 0, congrFun (k1_off153_eq k) 1⟩) (fun k => ⟨congrFun (k1_off154_eq k) 0, congrFun (k1_off154_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t19_loop.lb k1_t19_loop.ub k1_t19_loop.st = 13 from trips13] at hacc
  subst hacc
  sl_exec
  sl_unfold_run_names
  unfold_pays
  ihave Hs3' := (Entails.of_eq (s3_step0 (F := F) d L A Tt f3 18 19 288 rfl rfl inb_S512_S16_288)) $$ Hs3'
  -- block 20
  sl_for (inv0 d L A Tt (s0c d L A) (tvc d L Tt) 304) $$ [Hs0' Hs2']
  case region =>
    exact region0 d L A Tt (s0c d L A) (tvc d L Tt) hin (hs0c d L A) (htvc d L Tt) 304 _ (⟨k1_off155, k1_off155_inb, k1_chk153, k1_chk153.dec, k1_idx153_inb, fun _ h => h⟩) (⟨k1_off156, k1_off156_inb, k1_chk154, k1_chk154.dec, k1_idx154_inb, fun _ h => h⟩) (⟨k1_off157, k1_off157_inb, k1_chk155, k1_chk155.dec, k1_idx155_inb, fun _ h => h⟩) (⟨k1_off158, k1_off158_inb, k1_chk156, k1_chk156.dec, k1_idx156_inb, fun _ h => h⟩) (⟨k1_off159, k1_off159_inb, k1_chk157, k1_chk157.dec, k1_idx157_inb, fun _ h => h⟩) (⟨k1_off160, k1_off160_inb, k1_chk158, k1_chk158.dec, k1_idx158_inb, fun _ h => h⟩) (⟨k1_off161, k1_off161_inb, k1_chk159, k1_chk159.dec, k1_idx159_inb, fun _ h => h⟩) (⟨k1_off162, k1_off162_inb, k1_chk160, k1_chk160.dec, k1_idx160_inb, fun _ h => h⟩) (fun k => ⟨congrFun (k1_off155_eq k) 0, congrFun (k1_off155_eq k) 1⟩) (fun k => ⟨congrFun (k1_off156_eq k) 0, congrFun (k1_off156_eq k) 1⟩) (fun k => ⟨congrFun (k1_off157_eq k) 0, congrFun (k1_off157_eq k) 1⟩) (fun k => ⟨congrFun (k1_off158_eq k) 0, congrFun (k1_off158_eq k) 1⟩) (fun k => ⟨congrFun (k1_off159_eq k) 0, congrFun (k1_off159_eq k) 1⟩) (fun k => ⟨congrFun (k1_off160_eq k) 0, congrFun (k1_off160_eq k) 1⟩) (fun k => ⟨congrFun (k1_off161_eq k) 0, congrFun (k1_off161_eq k) 1⟩) (fun k => ⟨congrFun (k1_off162_eq k) 0, congrFun (k1_off162_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t20_loop.lb k1_t20_loop.ub k1_t20_loop.st = 13 from trips13] at hacc
  subst hacc
  sl_exec
  sl_unfold_run_names
  unfold_pays
  ihave Hs3' := (Entails.of_eq (s3_step0 (F := F) d L A Tt f3 19 20 304 rfl rfl inb_S512_S16_304)) $$ Hs3'
  -- block 21
  sl_for (inv0 d L A Tt (s0c d L A) (tvc d L Tt) 320) $$ [Hs0' Hs2']
  case region =>
    exact region0 d L A Tt (s0c d L A) (tvc d L Tt) hin (hs0c d L A) (htvc d L Tt) 320 _ (⟨k1_off163, k1_off163_inb, k1_chk161, k1_chk161.dec, k1_idx161_inb, fun _ h => h⟩) (⟨k1_off164, k1_off164_inb, k1_chk162, k1_chk162.dec, k1_idx162_inb, fun _ h => h⟩) (⟨k1_off165, k1_off165_inb, k1_chk163, k1_chk163.dec, k1_idx163_inb, fun _ h => h⟩) (⟨k1_off166, k1_off166_inb, k1_chk164, k1_chk164.dec, k1_idx164_inb, fun _ h => h⟩) (⟨k1_off167, k1_off167_inb, k1_chk165, k1_chk165.dec, k1_idx165_inb, fun _ h => h⟩) (⟨k1_off168, k1_off168_inb, k1_chk166, k1_chk166.dec, k1_idx166_inb, fun _ h => h⟩) (⟨k1_off169, k1_off169_inb, k1_chk167, k1_chk167.dec, k1_idx167_inb, fun _ h => h⟩) (⟨k1_off170, k1_off170_inb, k1_chk168, k1_chk168.dec, k1_idx168_inb, fun _ h => h⟩) (fun k => ⟨congrFun (k1_off163_eq k) 0, congrFun (k1_off163_eq k) 1⟩) (fun k => ⟨congrFun (k1_off164_eq k) 0, congrFun (k1_off164_eq k) 1⟩) (fun k => ⟨congrFun (k1_off165_eq k) 0, congrFun (k1_off165_eq k) 1⟩) (fun k => ⟨congrFun (k1_off166_eq k) 0, congrFun (k1_off166_eq k) 1⟩) (fun k => ⟨congrFun (k1_off167_eq k) 0, congrFun (k1_off167_eq k) 1⟩) (fun k => ⟨congrFun (k1_off168_eq k) 0, congrFun (k1_off168_eq k) 1⟩) (fun k => ⟨congrFun (k1_off169_eq k) 0, congrFun (k1_off169_eq k) 1⟩) (fun k => ⟨congrFun (k1_off170_eq k) 0, congrFun (k1_off170_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t21_loop.lb k1_t21_loop.ub k1_t21_loop.st = 13 from trips13] at hacc
  subst hacc
  sl_exec
  sl_unfold_run_names
  unfold_pays
  ihave Hs3' := (Entails.of_eq (s3_step0 (F := F) d L A Tt f3 20 21 320 rfl rfl inb_S512_S16_320)) $$ Hs3'
  -- block 22
  sl_for (inv0 d L A Tt (s0c d L A) (tvc d L Tt) 336) $$ [Hs0' Hs2']
  case region =>
    exact region0 d L A Tt (s0c d L A) (tvc d L Tt) hin (hs0c d L A) (htvc d L Tt) 336 _ (⟨k1_off171, k1_off171_inb, k1_chk169, k1_chk169.dec, k1_idx169_inb, fun _ h => h⟩) (⟨k1_off172, k1_off172_inb, k1_chk170, k1_chk170.dec, k1_idx170_inb, fun _ h => h⟩) (⟨k1_off173, k1_off173_inb, k1_chk171, k1_chk171.dec, k1_idx171_inb, fun _ h => h⟩) (⟨k1_off174, k1_off174_inb, k1_chk172, k1_chk172.dec, k1_idx172_inb, fun _ h => h⟩) (⟨k1_off175, k1_off175_inb, k1_chk173, k1_chk173.dec, k1_idx173_inb, fun _ h => h⟩) (⟨k1_off176, k1_off176_inb, k1_chk174, k1_chk174.dec, k1_idx174_inb, fun _ h => h⟩) (⟨k1_off177, k1_off177_inb, k1_chk175, k1_chk175.dec, k1_idx175_inb, fun _ h => h⟩) (⟨k1_off178, k1_off178_inb, k1_chk176, k1_chk176.dec, k1_idx176_inb, fun _ h => h⟩) (fun k => ⟨congrFun (k1_off171_eq k) 0, congrFun (k1_off171_eq k) 1⟩) (fun k => ⟨congrFun (k1_off172_eq k) 0, congrFun (k1_off172_eq k) 1⟩) (fun k => ⟨congrFun (k1_off173_eq k) 0, congrFun (k1_off173_eq k) 1⟩) (fun k => ⟨congrFun (k1_off174_eq k) 0, congrFun (k1_off174_eq k) 1⟩) (fun k => ⟨congrFun (k1_off175_eq k) 0, congrFun (k1_off175_eq k) 1⟩) (fun k => ⟨congrFun (k1_off176_eq k) 0, congrFun (k1_off176_eq k) 1⟩) (fun k => ⟨congrFun (k1_off177_eq k) 0, congrFun (k1_off177_eq k) 1⟩) (fun k => ⟨congrFun (k1_off178_eq k) 0, congrFun (k1_off178_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t22_loop.lb k1_t22_loop.ub k1_t22_loop.st = 13 from trips13] at hacc
  subst hacc
  sl_exec
  sl_unfold_run_names
  unfold_pays
  ihave Hs3' := (Entails.of_eq (s3_step0 (F := F) d L A Tt f3 21 22 336 rfl rfl inb_S512_S16_336)) $$ Hs3'
  -- block 23
  sl_for (inv0 d L A Tt (s0c d L A) (tvc d L Tt) 352) $$ [Hs0' Hs2']
  case region =>
    exact region0 d L A Tt (s0c d L A) (tvc d L Tt) hin (hs0c d L A) (htvc d L Tt) 352 _ (⟨k1_off179, k1_off179_inb, k1_chk177, k1_chk177.dec, k1_idx177_inb, fun _ h => h⟩) (⟨k1_off180, k1_off180_inb, k1_chk178, k1_chk178.dec, k1_idx178_inb, fun _ h => h⟩) (⟨k1_off181, k1_off181_inb, k1_chk179, k1_chk179.dec, k1_idx179_inb, fun _ h => h⟩) (⟨k1_off182, k1_off182_inb, k1_chk180, k1_chk180.dec, k1_idx180_inb, fun _ h => h⟩) (⟨k1_off183, k1_off183_inb, k1_chk181, k1_chk181.dec, k1_idx181_inb, fun _ h => h⟩) (⟨k1_off184, k1_off184_inb, k1_chk182, k1_chk182.dec, k1_idx182_inb, fun _ h => h⟩) (⟨k1_off185, k1_off185_inb, k1_chk183, k1_chk183.dec, k1_idx183_inb, fun _ h => h⟩) (⟨k1_off186, k1_off186_inb, k1_chk184, k1_chk184.dec, k1_idx184_inb, fun _ h => h⟩) (fun k => ⟨congrFun (k1_off179_eq k) 0, congrFun (k1_off179_eq k) 1⟩) (fun k => ⟨congrFun (k1_off180_eq k) 0, congrFun (k1_off180_eq k) 1⟩) (fun k => ⟨congrFun (k1_off181_eq k) 0, congrFun (k1_off181_eq k) 1⟩) (fun k => ⟨congrFun (k1_off182_eq k) 0, congrFun (k1_off182_eq k) 1⟩) (fun k => ⟨congrFun (k1_off183_eq k) 0, congrFun (k1_off183_eq k) 1⟩) (fun k => ⟨congrFun (k1_off184_eq k) 0, congrFun (k1_off184_eq k) 1⟩) (fun k => ⟨congrFun (k1_off185_eq k) 0, congrFun (k1_off185_eq k) 1⟩) (fun k => ⟨congrFun (k1_off186_eq k) 0, congrFun (k1_off186_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t23_loop.lb k1_t23_loop.ub k1_t23_loop.st = 13 from trips13] at hacc
  subst hacc
  sl_exec
  sl_unfold_run_names
  unfold_pays
  ihave Hs3' := (Entails.of_eq (s3_step0 (F := F) d L A Tt f3 22 23 352 rfl rfl inb_S512_S16_352)) $$ Hs3'
  -- block 24
  sl_for (inv0 d L A Tt (s0c d L A) (tvc d L Tt) 368) $$ [Hs0' Hs2']
  case region =>
    exact region0 d L A Tt (s0c d L A) (tvc d L Tt) hin (hs0c d L A) (htvc d L Tt) 368 _ (⟨k1_off187, k1_off187_inb, k1_chk185, k1_chk185.dec, k1_idx185_inb, fun _ h => h⟩) (⟨k1_off188, k1_off188_inb, k1_chk186, k1_chk186.dec, k1_idx186_inb, fun _ h => h⟩) (⟨k1_off189, k1_off189_inb, k1_chk187, k1_chk187.dec, k1_idx187_inb, fun _ h => h⟩) (⟨k1_off190, k1_off190_inb, k1_chk188, k1_chk188.dec, k1_idx188_inb, fun _ h => h⟩) (⟨k1_off191, k1_off191_inb, k1_chk189, k1_chk189.dec, k1_idx189_inb, fun _ h => h⟩) (⟨k1_off192, k1_off192_inb, k1_chk190, k1_chk190.dec, k1_idx190_inb, fun _ h => h⟩) (⟨k1_off193, k1_off193_inb, k1_chk191, k1_chk191.dec, k1_idx191_inb, fun _ h => h⟩) (⟨k1_off194, k1_off194_inb, k1_chk192, k1_chk192.dec, k1_idx192_inb, fun _ h => h⟩) (fun k => ⟨congrFun (k1_off187_eq k) 0, congrFun (k1_off187_eq k) 1⟩) (fun k => ⟨congrFun (k1_off188_eq k) 0, congrFun (k1_off188_eq k) 1⟩) (fun k => ⟨congrFun (k1_off189_eq k) 0, congrFun (k1_off189_eq k) 1⟩) (fun k => ⟨congrFun (k1_off190_eq k) 0, congrFun (k1_off190_eq k) 1⟩) (fun k => ⟨congrFun (k1_off191_eq k) 0, congrFun (k1_off191_eq k) 1⟩) (fun k => ⟨congrFun (k1_off192_eq k) 0, congrFun (k1_off192_eq k) 1⟩) (fun k => ⟨congrFun (k1_off193_eq k) 0, congrFun (k1_off193_eq k) 1⟩) (fun k => ⟨congrFun (k1_off194_eq k) 0, congrFun (k1_off194_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t24_loop.lb k1_t24_loop.ub k1_t24_loop.st = 13 from trips13] at hacc
  subst hacc
  sl_exec
  sl_unfold_run_names
  unfold_pays
  ihave Hs3' := (Entails.of_eq (s3_step0 (F := F) d L A Tt f3 23 24 368 rfl rfl inb_S512_S16_368)) $$ Hs3'
  -- block 25
  sl_for (inv0 d L A Tt (s0c d L A) (tvc d L Tt) 384) $$ [Hs0' Hs2']
  case region =>
    exact region0 d L A Tt (s0c d L A) (tvc d L Tt) hin (hs0c d L A) (htvc d L Tt) 384 _ (⟨k1_off195, k1_off195_inb, k1_chk193, k1_chk193.dec, k1_idx193_inb, fun _ h => h⟩) (⟨k1_off196, k1_off196_inb, k1_chk194, k1_chk194.dec, k1_idx194_inb, fun _ h => h⟩) (⟨k1_off197, k1_off197_inb, k1_chk195, k1_chk195.dec, k1_idx195_inb, fun _ h => h⟩) (⟨k1_off198, k1_off198_inb, k1_chk196, k1_chk196.dec, k1_idx196_inb, fun _ h => h⟩) (⟨k1_off199, k1_off199_inb, k1_chk197, k1_chk197.dec, k1_idx197_inb, fun _ h => h⟩) (⟨k1_off200, k1_off200_inb, k1_chk198, k1_chk198.dec, k1_idx198_inb, fun _ h => h⟩) (⟨k1_off201, k1_off201_inb, k1_chk199, k1_chk199.dec, k1_idx199_inb, fun _ h => h⟩) (⟨k1_off202, k1_off202_inb, k1_chk200, k1_chk200.dec, k1_idx200_inb, fun _ h => h⟩) (fun k => ⟨congrFun (k1_off195_eq k) 0, congrFun (k1_off195_eq k) 1⟩) (fun k => ⟨congrFun (k1_off196_eq k) 0, congrFun (k1_off196_eq k) 1⟩) (fun k => ⟨congrFun (k1_off197_eq k) 0, congrFun (k1_off197_eq k) 1⟩) (fun k => ⟨congrFun (k1_off198_eq k) 0, congrFun (k1_off198_eq k) 1⟩) (fun k => ⟨congrFun (k1_off199_eq k) 0, congrFun (k1_off199_eq k) 1⟩) (fun k => ⟨congrFun (k1_off200_eq k) 0, congrFun (k1_off200_eq k) 1⟩) (fun k => ⟨congrFun (k1_off201_eq k) 0, congrFun (k1_off201_eq k) 1⟩) (fun k => ⟨congrFun (k1_off202_eq k) 0, congrFun (k1_off202_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t25_loop.lb k1_t25_loop.ub k1_t25_loop.st = 13 from trips13] at hacc
  subst hacc
  sl_exec
  sl_unfold_run_names
  unfold_pays
  ihave Hs3' := (Entails.of_eq (s3_step0 (F := F) d L A Tt f3 24 25 384 rfl rfl inb_S512_S16_384)) $$ Hs3'
  -- block 26
  sl_for (inv0 d L A Tt (s0c d L A) (tvc d L Tt) 400) $$ [Hs0' Hs2']
  case region =>
    exact region0 d L A Tt (s0c d L A) (tvc d L Tt) hin (hs0c d L A) (htvc d L Tt) 400 _ (⟨k1_off203, k1_off203_inb, k1_chk201, k1_chk201.dec, k1_idx201_inb, fun _ h => h⟩) (⟨k1_off204, k1_off204_inb, k1_chk202, k1_chk202.dec, k1_idx202_inb, fun _ h => h⟩) (⟨k1_off205, k1_off205_inb, k1_chk203, k1_chk203.dec, k1_idx203_inb, fun _ h => h⟩) (⟨k1_off206, k1_off206_inb, k1_chk204, k1_chk204.dec, k1_idx204_inb, fun _ h => h⟩) (⟨k1_off207, k1_off207_inb, k1_chk205, k1_chk205.dec, k1_idx205_inb, fun _ h => h⟩) (⟨k1_off208, k1_off208_inb, k1_chk206, k1_chk206.dec, k1_idx206_inb, fun _ h => h⟩) (⟨k1_off209, k1_off209_inb, k1_chk207, k1_chk207.dec, k1_idx207_inb, fun _ h => h⟩) (⟨k1_off210, k1_off210_inb, k1_chk208, k1_chk208.dec, k1_idx208_inb, fun _ h => h⟩) (fun k => ⟨congrFun (k1_off203_eq k) 0, congrFun (k1_off203_eq k) 1⟩) (fun k => ⟨congrFun (k1_off204_eq k) 0, congrFun (k1_off204_eq k) 1⟩) (fun k => ⟨congrFun (k1_off205_eq k) 0, congrFun (k1_off205_eq k) 1⟩) (fun k => ⟨congrFun (k1_off206_eq k) 0, congrFun (k1_off206_eq k) 1⟩) (fun k => ⟨congrFun (k1_off207_eq k) 0, congrFun (k1_off207_eq k) 1⟩) (fun k => ⟨congrFun (k1_off208_eq k) 0, congrFun (k1_off208_eq k) 1⟩) (fun k => ⟨congrFun (k1_off209_eq k) 0, congrFun (k1_off209_eq k) 1⟩) (fun k => ⟨congrFun (k1_off210_eq k) 0, congrFun (k1_off210_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t26_loop.lb k1_t26_loop.ub k1_t26_loop.st = 13 from trips13] at hacc
  subst hacc
  sl_exec
  sl_unfold_run_names
  unfold_pays
  ihave Hs3' := (Entails.of_eq (s3_step0 (F := F) d L A Tt f3 25 26 400 rfl rfl inb_S512_S16_400)) $$ Hs3'
  -- block 27
  sl_for (inv0 d L A Tt (s0c d L A) (tvc d L Tt) 416) $$ [Hs0' Hs2']
  case region =>
    exact region0 d L A Tt (s0c d L A) (tvc d L Tt) hin (hs0c d L A) (htvc d L Tt) 416 _ (⟨k1_off211, k1_off211_inb, k1_chk209, k1_chk209.dec, k1_idx209_inb, fun _ h => h⟩) (⟨k1_off212, k1_off212_inb, k1_chk210, k1_chk210.dec, k1_idx210_inb, fun _ h => h⟩) (⟨k1_off213, k1_off213_inb, k1_chk211, k1_chk211.dec, k1_idx211_inb, fun _ h => h⟩) (⟨k1_off214, k1_off214_inb, k1_chk212, k1_chk212.dec, k1_idx212_inb, fun _ h => h⟩) (⟨k1_off215, k1_off215_inb, k1_chk213, k1_chk213.dec, k1_idx213_inb, fun _ h => h⟩) (⟨k1_off216, k1_off216_inb, k1_chk214, k1_chk214.dec, k1_idx214_inb, fun _ h => h⟩) (⟨k1_off217, k1_off217_inb, k1_chk215, k1_chk215.dec, k1_idx215_inb, fun _ h => h⟩) (⟨k1_off218, k1_off218_inb, k1_chk216, k1_chk216.dec, k1_idx216_inb, fun _ h => h⟩) (fun k => ⟨congrFun (k1_off211_eq k) 0, congrFun (k1_off211_eq k) 1⟩) (fun k => ⟨congrFun (k1_off212_eq k) 0, congrFun (k1_off212_eq k) 1⟩) (fun k => ⟨congrFun (k1_off213_eq k) 0, congrFun (k1_off213_eq k) 1⟩) (fun k => ⟨congrFun (k1_off214_eq k) 0, congrFun (k1_off214_eq k) 1⟩) (fun k => ⟨congrFun (k1_off215_eq k) 0, congrFun (k1_off215_eq k) 1⟩) (fun k => ⟨congrFun (k1_off216_eq k) 0, congrFun (k1_off216_eq k) 1⟩) (fun k => ⟨congrFun (k1_off217_eq k) 0, congrFun (k1_off217_eq k) 1⟩) (fun k => ⟨congrFun (k1_off218_eq k) 0, congrFun (k1_off218_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t27_loop.lb k1_t27_loop.ub k1_t27_loop.st = 13 from trips13] at hacc
  subst hacc
  sl_exec
  sl_unfold_run_names
  unfold_pays
  ihave Hs3' := (Entails.of_eq (s3_step0 (F := F) d L A Tt f3 26 27 416 rfl rfl inb_S512_S16_416)) $$ Hs3'
  -- block 28
  sl_for (inv0 d L A Tt (s0c d L A) (tvc d L Tt) 432) $$ [Hs0' Hs2']
  case region =>
    exact region0 d L A Tt (s0c d L A) (tvc d L Tt) hin (hs0c d L A) (htvc d L Tt) 432 _ (⟨k1_off219, k1_off219_inb, k1_chk217, k1_chk217.dec, k1_idx217_inb, fun _ h => h⟩) (⟨k1_off220, k1_off220_inb, k1_chk218, k1_chk218.dec, k1_idx218_inb, fun _ h => h⟩) (⟨k1_off221, k1_off221_inb, k1_chk219, k1_chk219.dec, k1_idx219_inb, fun _ h => h⟩) (⟨k1_off222, k1_off222_inb, k1_chk220, k1_chk220.dec, k1_idx220_inb, fun _ h => h⟩) (⟨k1_off223, k1_off223_inb, k1_chk221, k1_chk221.dec, k1_idx221_inb, fun _ h => h⟩) (⟨k1_off224, k1_off224_inb, k1_chk222, k1_chk222.dec, k1_idx222_inb, fun _ h => h⟩) (⟨k1_off225, k1_off225_inb, k1_chk223, k1_chk223.dec, k1_idx223_inb, fun _ h => h⟩) (⟨k1_off226, k1_off226_inb, k1_chk224, k1_chk224.dec, k1_idx224_inb, fun _ h => h⟩) (fun k => ⟨congrFun (k1_off219_eq k) 0, congrFun (k1_off219_eq k) 1⟩) (fun k => ⟨congrFun (k1_off220_eq k) 0, congrFun (k1_off220_eq k) 1⟩) (fun k => ⟨congrFun (k1_off221_eq k) 0, congrFun (k1_off221_eq k) 1⟩) (fun k => ⟨congrFun (k1_off222_eq k) 0, congrFun (k1_off222_eq k) 1⟩) (fun k => ⟨congrFun (k1_off223_eq k) 0, congrFun (k1_off223_eq k) 1⟩) (fun k => ⟨congrFun (k1_off224_eq k) 0, congrFun (k1_off224_eq k) 1⟩) (fun k => ⟨congrFun (k1_off225_eq k) 0, congrFun (k1_off225_eq k) 1⟩) (fun k => ⟨congrFun (k1_off226_eq k) 0, congrFun (k1_off226_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t28_loop.lb k1_t28_loop.ub k1_t28_loop.st = 13 from trips13] at hacc
  subst hacc
  sl_exec
  sl_unfold_run_names
  unfold_pays
  ihave Hs3' := (Entails.of_eq (s3_step0 (F := F) d L A Tt f3 27 28 432 rfl rfl inb_S512_S16_432)) $$ Hs3'
  -- block 29
  sl_for (inv0 d L A Tt (s0c d L A) (tvc d L Tt) 448) $$ [Hs0' Hs2']
  case region =>
    exact region0 d L A Tt (s0c d L A) (tvc d L Tt) hin (hs0c d L A) (htvc d L Tt) 448 _ (⟨k1_off227, k1_off227_inb, k1_chk225, k1_chk225.dec, k1_idx225_inb, fun _ h => h⟩) (⟨k1_off228, k1_off228_inb, k1_chk226, k1_chk226.dec, k1_idx226_inb, fun _ h => h⟩) (⟨k1_off229, k1_off229_inb, k1_chk227, k1_chk227.dec, k1_idx227_inb, fun _ h => h⟩) (⟨k1_off230, k1_off230_inb, k1_chk228, k1_chk228.dec, k1_idx228_inb, fun _ h => h⟩) (⟨k1_off231, k1_off231_inb, k1_chk229, k1_chk229.dec, k1_idx229_inb, fun _ h => h⟩) (⟨k1_off232, k1_off232_inb, k1_chk230, k1_chk230.dec, k1_idx230_inb, fun _ h => h⟩) (⟨k1_off233, k1_off233_inb, k1_chk231, k1_chk231.dec, k1_idx231_inb, fun _ h => h⟩) (⟨k1_off234, k1_off234_inb, k1_chk232, k1_chk232.dec, k1_idx232_inb, fun _ h => h⟩) (fun k => ⟨congrFun (k1_off227_eq k) 0, congrFun (k1_off227_eq k) 1⟩) (fun k => ⟨congrFun (k1_off228_eq k) 0, congrFun (k1_off228_eq k) 1⟩) (fun k => ⟨congrFun (k1_off229_eq k) 0, congrFun (k1_off229_eq k) 1⟩) (fun k => ⟨congrFun (k1_off230_eq k) 0, congrFun (k1_off230_eq k) 1⟩) (fun k => ⟨congrFun (k1_off231_eq k) 0, congrFun (k1_off231_eq k) 1⟩) (fun k => ⟨congrFun (k1_off232_eq k) 0, congrFun (k1_off232_eq k) 1⟩) (fun k => ⟨congrFun (k1_off233_eq k) 0, congrFun (k1_off233_eq k) 1⟩) (fun k => ⟨congrFun (k1_off234_eq k) 0, congrFun (k1_off234_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t29_loop.lb k1_t29_loop.ub k1_t29_loop.st = 13 from trips13] at hacc
  subst hacc
  sl_exec
  sl_unfold_run_names
  unfold_pays
  ihave Hs3' := (Entails.of_eq (s3_step0 (F := F) d L A Tt f3 28 29 448 rfl rfl inb_S512_S16_448)) $$ Hs3'
  -- block 30
  sl_for (inv0 d L A Tt (s0c d L A) (tvc d L Tt) 464) $$ [Hs0' Hs2']
  case region =>
    exact region0 d L A Tt (s0c d L A) (tvc d L Tt) hin (hs0c d L A) (htvc d L Tt) 464 _ (⟨k1_off235, k1_off235_inb, k1_chk233, k1_chk233.dec, k1_idx233_inb, fun _ h => h⟩) (⟨k1_off236, k1_off236_inb, k1_chk234, k1_chk234.dec, k1_idx234_inb, fun _ h => h⟩) (⟨k1_off237, k1_off237_inb, k1_chk235, k1_chk235.dec, k1_idx235_inb, fun _ h => h⟩) (⟨k1_off238, k1_off238_inb, k1_chk236, k1_chk236.dec, k1_idx236_inb, fun _ h => h⟩) (⟨k1_off239, k1_off239_inb, k1_chk237, k1_chk237.dec, k1_idx237_inb, fun _ h => h⟩) (⟨k1_off240, k1_off240_inb, k1_chk238, k1_chk238.dec, k1_idx238_inb, fun _ h => h⟩) (⟨k1_off241, k1_off241_inb, k1_chk239, k1_chk239.dec, k1_idx239_inb, fun _ h => h⟩) (⟨k1_off242, k1_off242_inb, k1_chk240, k1_chk240.dec, k1_idx240_inb, fun _ h => h⟩) (fun k => ⟨congrFun (k1_off235_eq k) 0, congrFun (k1_off235_eq k) 1⟩) (fun k => ⟨congrFun (k1_off236_eq k) 0, congrFun (k1_off236_eq k) 1⟩) (fun k => ⟨congrFun (k1_off237_eq k) 0, congrFun (k1_off237_eq k) 1⟩) (fun k => ⟨congrFun (k1_off238_eq k) 0, congrFun (k1_off238_eq k) 1⟩) (fun k => ⟨congrFun (k1_off239_eq k) 0, congrFun (k1_off239_eq k) 1⟩) (fun k => ⟨congrFun (k1_off240_eq k) 0, congrFun (k1_off240_eq k) 1⟩) (fun k => ⟨congrFun (k1_off241_eq k) 0, congrFun (k1_off241_eq k) 1⟩) (fun k => ⟨congrFun (k1_off242_eq k) 0, congrFun (k1_off242_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t30_loop.lb k1_t30_loop.ub k1_t30_loop.st = 13 from trips13] at hacc
  subst hacc
  sl_exec
  sl_unfold_run_names
  unfold_pays
  ihave Hs3' := (Entails.of_eq (s3_step0 (F := F) d L A Tt f3 29 30 464 rfl rfl inb_S512_S16_464)) $$ Hs3'
  -- block 31
  sl_for (inv0 d L A Tt (s0c d L A) (tvc d L Tt) 480) $$ [Hs0' Hs2']
  case region =>
    exact region0 d L A Tt (s0c d L A) (tvc d L Tt) hin (hs0c d L A) (htvc d L Tt) 480 _ (⟨k1_off243, k1_off243_inb, k1_chk241, k1_chk241.dec, k1_idx241_inb, fun _ h => h⟩) (⟨k1_off244, k1_off244_inb, k1_chk242, k1_chk242.dec, k1_idx242_inb, fun _ h => h⟩) (⟨k1_off245, k1_off245_inb, k1_chk243, k1_chk243.dec, k1_idx243_inb, fun _ h => h⟩) (⟨k1_off246, k1_off246_inb, k1_chk244, k1_chk244.dec, k1_idx244_inb, fun _ h => h⟩) (⟨k1_off247, k1_off247_inb, k1_chk245, k1_chk245.dec, k1_idx245_inb, fun _ h => h⟩) (⟨k1_off248, k1_off248_inb, k1_chk246, k1_chk246.dec, k1_idx246_inb, fun _ h => h⟩) (⟨k1_off249, k1_off249_inb, k1_chk247, k1_chk247.dec, k1_idx247_inb, fun _ h => h⟩) (⟨k1_off250, k1_off250_inb, k1_chk248, k1_chk248.dec, k1_idx248_inb, fun _ h => h⟩) (fun k => ⟨congrFun (k1_off243_eq k) 0, congrFun (k1_off243_eq k) 1⟩) (fun k => ⟨congrFun (k1_off244_eq k) 0, congrFun (k1_off244_eq k) 1⟩) (fun k => ⟨congrFun (k1_off245_eq k) 0, congrFun (k1_off245_eq k) 1⟩) (fun k => ⟨congrFun (k1_off246_eq k) 0, congrFun (k1_off246_eq k) 1⟩) (fun k => ⟨congrFun (k1_off247_eq k) 0, congrFun (k1_off247_eq k) 1⟩) (fun k => ⟨congrFun (k1_off248_eq k) 0, congrFun (k1_off248_eq k) 1⟩) (fun k => ⟨congrFun (k1_off249_eq k) 0, congrFun (k1_off249_eq k) 1⟩) (fun k => ⟨congrFun (k1_off250_eq k) 0, congrFun (k1_off250_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t31_loop.lb k1_t31_loop.ub k1_t31_loop.st = 13 from trips13] at hacc
  subst hacc
  sl_exec
  sl_unfold_run_names
  unfold_pays
  ihave Hs3' := (Entails.of_eq (s3_step0 (F := F) d L A Tt f3 30 31 480 rfl rfl inb_S512_S16_480)) $$ Hs3'
  -- block 32
  sl_for (inv0 d L A Tt (s0c d L A) (tvc d L Tt) 496) $$ [Hs0' Hs2']
  case region =>
    exact region0 d L A Tt (s0c d L A) (tvc d L Tt) hin (hs0c d L A) (htvc d L Tt) 496 _ (⟨k1_off251, k1_off251_inb, k1_chk249, k1_chk249.dec, k1_idx249_inb, fun _ h => h⟩) (⟨k1_off252, k1_off252_inb, k1_chk250, k1_chk250.dec, k1_idx250_inb, fun _ h => h⟩) (⟨k1_off253, k1_off253_inb, k1_chk251, k1_chk251.dec, k1_idx251_inb, fun _ h => h⟩) (⟨k1_off254, k1_off254_inb, k1_chk252, k1_chk252.dec, k1_idx252_inb, fun _ h => h⟩) (⟨k1_off255, k1_off255_inb, k1_chk253, k1_chk253.dec, k1_idx253_inb, fun _ h => h⟩) (⟨k1_off256, k1_off256_inb, k1_chk254, k1_chk254.dec, k1_idx254_inb, fun _ h => h⟩) (⟨k1_off257, k1_off257_inb, k1_chk255, k1_chk255.dec, k1_idx255_inb, fun _ h => h⟩) (⟨k1_off258, k1_off258_inb, k1_chk256, k1_chk256.dec, k1_idx256_inb, fun _ h => h⟩) (fun k => ⟨congrFun (k1_off251_eq k) 0, congrFun (k1_off251_eq k) 1⟩) (fun k => ⟨congrFun (k1_off252_eq k) 0, congrFun (k1_off252_eq k) 1⟩) (fun k => ⟨congrFun (k1_off253_eq k) 0, congrFun (k1_off253_eq k) 1⟩) (fun k => ⟨congrFun (k1_off254_eq k) 0, congrFun (k1_off254_eq k) 1⟩) (fun k => ⟨congrFun (k1_off255_eq k) 0, congrFun (k1_off255_eq k) 1⟩) (fun k => ⟨congrFun (k1_off256_eq k) 0, congrFun (k1_off256_eq k) 1⟩) (fun k => ⟨congrFun (k1_off257_eq k) 0, congrFun (k1_off257_eq k) 1⟩) (fun k => ⟨congrFun (k1_off258_eq k) 0, congrFun (k1_off258_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t32_loop.lb k1_t32_loop.ub k1_t32_loop.st = 13 from trips13] at hacc
  subst hacc
  sl_exec
  sl_unfold_run_names
  unfold_pays
  ihave Hs3' := (Entails.of_eq (s3_step0 (F := F) d L A Tt f3 31 32 496 rfl rfl inb_S512_S16_496)) $$ Hs3'
  -- the second index copy has landed; the first stretch is stored in full
  ihave Hs1' := (Entails.of_eq (land1 (F := F) d L A f1)) $$ Hs1'
  ihave Hs3' := (Entails.of_eq (congrArg (fun f => ((Memref.whole cc1_scratch3 : Memref sig .scVector .vmem S512 .f32).view.loc (V d (cV L) (jV L)) ↦{fullShare} f : sProp (MM F))) (out1_full d L A Tt f3))) $$ Hs3'
  -- block 33
  sl_for (inv1 d L A Tt (s1c d L A) (tvc d L Tt) 0) $$ [Hs1' Hs2']
  case region =>
    exact region1 d L A Tt (s1c d L A) (tvc d L Tt) hin (hs1c d L A) (htvc d L Tt) 0 _ (⟨k1_off259, k1_off259_inb, k1_chk257, k1_chk257.dec, k1_idx257_inb, fun _ h => h⟩) (⟨k1_off260, k1_off260_inb, k1_chk258, k1_chk258.dec, k1_idx258_inb, fun _ h => h⟩) (⟨k1_off261, k1_off261_inb, k1_chk259, k1_chk259.dec, k1_idx259_inb, fun _ h => h⟩) (⟨k1_off262, k1_off262_inb, k1_chk260, k1_chk260.dec, k1_idx260_inb, fun _ h => h⟩) (⟨k1_off263, k1_off263_inb, k1_chk261, k1_chk261.dec, k1_idx261_inb, fun _ h => h⟩) (⟨k1_off264, k1_off264_inb, k1_chk262, k1_chk262.dec, k1_idx262_inb, fun _ h => h⟩) (⟨k1_off265, k1_off265_inb, k1_chk263, k1_chk263.dec, k1_idx263_inb, fun _ h => h⟩) (⟨k1_off266, k1_off266_inb, k1_chk264, k1_chk264.dec, k1_idx264_inb, fun _ h => h⟩) (fun k => ⟨congrFun (k1_off259_eq k) 0, congrFun (k1_off259_eq k) 1⟩) (fun k => ⟨congrFun (k1_off260_eq k) 0, congrFun (k1_off260_eq k) 1⟩) (fun k => ⟨congrFun (k1_off261_eq k) 0, congrFun (k1_off261_eq k) 1⟩) (fun k => ⟨congrFun (k1_off262_eq k) 0, congrFun (k1_off262_eq k) 1⟩) (fun k => ⟨congrFun (k1_off263_eq k) 0, congrFun (k1_off263_eq k) 1⟩) (fun k => ⟨congrFun (k1_off264_eq k) 0, congrFun (k1_off264_eq k) 1⟩) (fun k => ⟨congrFun (k1_off265_eq k) 0, congrFun (k1_off265_eq k) 1⟩) (fun k => ⟨congrFun (k1_off266_eq k) 0, congrFun (k1_off266_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t33_loop.lb k1_t33_loop.ub k1_t33_loop.st = 12 from trips12] at hacc
  subst hacc
  sl_exec
  sl_unfold_run_names
  unfold_pays
  ihave Hs3' := (Entails.of_eq (s3_step1 (F := F) d L A Tt 0 1 0 rfl rfl inb_S512_S16_0)) $$ Hs3'
  -- block 34
  sl_for (inv1 d L A Tt (s1c d L A) (tvc d L Tt) 16) $$ [Hs1' Hs2']
  case region =>
    exact region1 d L A Tt (s1c d L A) (tvc d L Tt) hin (hs1c d L A) (htvc d L Tt) 16 _ (⟨k1_off267, k1_off267_inb, k1_chk265, k1_chk265.dec, k1_idx265_inb, fun _ h => h⟩) (⟨k1_off268, k1_off268_inb, k1_chk266, k1_chk266.dec, k1_idx266_inb, fun _ h => h⟩) (⟨k1_off269, k1_off269_inb, k1_chk267, k1_chk267.dec, k1_idx267_inb, fun _ h => h⟩) (⟨k1_off270, k1_off270_inb, k1_chk268, k1_chk268.dec, k1_idx268_inb, fun _ h => h⟩) (⟨k1_off271, k1_off271_inb, k1_chk269, k1_chk269.dec, k1_idx269_inb, fun _ h => h⟩) (⟨k1_off272, k1_off272_inb, k1_chk270, k1_chk270.dec, k1_idx270_inb, fun _ h => h⟩) (⟨k1_off273, k1_off273_inb, k1_chk271, k1_chk271.dec, k1_idx271_inb, fun _ h => h⟩) (⟨k1_off274, k1_off274_inb, k1_chk272, k1_chk272.dec, k1_idx272_inb, fun _ h => h⟩) (fun k => ⟨congrFun (k1_off267_eq k) 0, congrFun (k1_off267_eq k) 1⟩) (fun k => ⟨congrFun (k1_off268_eq k) 0, congrFun (k1_off268_eq k) 1⟩) (fun k => ⟨congrFun (k1_off269_eq k) 0, congrFun (k1_off269_eq k) 1⟩) (fun k => ⟨congrFun (k1_off270_eq k) 0, congrFun (k1_off270_eq k) 1⟩) (fun k => ⟨congrFun (k1_off271_eq k) 0, congrFun (k1_off271_eq k) 1⟩) (fun k => ⟨congrFun (k1_off272_eq k) 0, congrFun (k1_off272_eq k) 1⟩) (fun k => ⟨congrFun (k1_off273_eq k) 0, congrFun (k1_off273_eq k) 1⟩) (fun k => ⟨congrFun (k1_off274_eq k) 0, congrFun (k1_off274_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t34_loop.lb k1_t34_loop.ub k1_t34_loop.st = 12 from trips12] at hacc
  subst hacc
  sl_exec
  sl_unfold_run_names
  unfold_pays
  ihave Hs3' := (Entails.of_eq (s3_step1 (F := F) d L A Tt 1 2 16 rfl rfl inb_S512_S16_16)) $$ Hs3'
  -- block 35
  sl_for (inv1 d L A Tt (s1c d L A) (tvc d L Tt) 32) $$ [Hs1' Hs2']
  case region =>
    exact region1 d L A Tt (s1c d L A) (tvc d L Tt) hin (hs1c d L A) (htvc d L Tt) 32 _ (⟨k1_off275, k1_off275_inb, k1_chk273, k1_chk273.dec, k1_idx273_inb, fun _ h => h⟩) (⟨k1_off276, k1_off276_inb, k1_chk274, k1_chk274.dec, k1_idx274_inb, fun _ h => h⟩) (⟨k1_off277, k1_off277_inb, k1_chk275, k1_chk275.dec, k1_idx275_inb, fun _ h => h⟩) (⟨k1_off278, k1_off278_inb, k1_chk276, k1_chk276.dec, k1_idx276_inb, fun _ h => h⟩) (⟨k1_off279, k1_off279_inb, k1_chk277, k1_chk277.dec, k1_idx277_inb, fun _ h => h⟩) (⟨k1_off280, k1_off280_inb, k1_chk278, k1_chk278.dec, k1_idx278_inb, fun _ h => h⟩) (⟨k1_off281, k1_off281_inb, k1_chk279, k1_chk279.dec, k1_idx279_inb, fun _ h => h⟩) (⟨k1_off282, k1_off282_inb, k1_chk280, k1_chk280.dec, k1_idx280_inb, fun _ h => h⟩) (fun k => ⟨congrFun (k1_off275_eq k) 0, congrFun (k1_off275_eq k) 1⟩) (fun k => ⟨congrFun (k1_off276_eq k) 0, congrFun (k1_off276_eq k) 1⟩) (fun k => ⟨congrFun (k1_off277_eq k) 0, congrFun (k1_off277_eq k) 1⟩) (fun k => ⟨congrFun (k1_off278_eq k) 0, congrFun (k1_off278_eq k) 1⟩) (fun k => ⟨congrFun (k1_off279_eq k) 0, congrFun (k1_off279_eq k) 1⟩) (fun k => ⟨congrFun (k1_off280_eq k) 0, congrFun (k1_off280_eq k) 1⟩) (fun k => ⟨congrFun (k1_off281_eq k) 0, congrFun (k1_off281_eq k) 1⟩) (fun k => ⟨congrFun (k1_off282_eq k) 0, congrFun (k1_off282_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t35_loop.lb k1_t35_loop.ub k1_t35_loop.st = 12 from trips12] at hacc
  subst hacc
  sl_exec
  sl_unfold_run_names
  unfold_pays
  ihave Hs3' := (Entails.of_eq (s3_step1 (F := F) d L A Tt 2 3 32 rfl rfl inb_S512_S16_32)) $$ Hs3'
  -- block 36
  sl_for (inv1 d L A Tt (s1c d L A) (tvc d L Tt) 48) $$ [Hs1' Hs2']
  case region =>
    exact region1 d L A Tt (s1c d L A) (tvc d L Tt) hin (hs1c d L A) (htvc d L Tt) 48 _ (⟨k1_off283, k1_off283_inb, k1_chk281, k1_chk281.dec, k1_idx281_inb, fun _ h => h⟩) (⟨k1_off284, k1_off284_inb, k1_chk282, k1_chk282.dec, k1_idx282_inb, fun _ h => h⟩) (⟨k1_off285, k1_off285_inb, k1_chk283, k1_chk283.dec, k1_idx283_inb, fun _ h => h⟩) (⟨k1_off286, k1_off286_inb, k1_chk284, k1_chk284.dec, k1_idx284_inb, fun _ h => h⟩) (⟨k1_off287, k1_off287_inb, k1_chk285, k1_chk285.dec, k1_idx285_inb, fun _ h => h⟩) (⟨k1_off288, k1_off288_inb, k1_chk286, k1_chk286.dec, k1_idx286_inb, fun _ h => h⟩) (⟨k1_off289, k1_off289_inb, k1_chk287, k1_chk287.dec, k1_idx287_inb, fun _ h => h⟩) (⟨k1_off290, k1_off290_inb, k1_chk288, k1_chk288.dec, k1_idx288_inb, fun _ h => h⟩) (fun k => ⟨congrFun (k1_off283_eq k) 0, congrFun (k1_off283_eq k) 1⟩) (fun k => ⟨congrFun (k1_off284_eq k) 0, congrFun (k1_off284_eq k) 1⟩) (fun k => ⟨congrFun (k1_off285_eq k) 0, congrFun (k1_off285_eq k) 1⟩) (fun k => ⟨congrFun (k1_off286_eq k) 0, congrFun (k1_off286_eq k) 1⟩) (fun k => ⟨congrFun (k1_off287_eq k) 0, congrFun (k1_off287_eq k) 1⟩) (fun k => ⟨congrFun (k1_off288_eq k) 0, congrFun (k1_off288_eq k) 1⟩) (fun k => ⟨congrFun (k1_off289_eq k) 0, congrFun (k1_off289_eq k) 1⟩) (fun k => ⟨congrFun (k1_off290_eq k) 0, congrFun (k1_off290_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t36_loop.lb k1_t36_loop.ub k1_t36_loop.st = 12 from trips12] at hacc
  subst hacc
  sl_exec
  sl_unfold_run_names
  unfold_pays
  ihave Hs3' := (Entails.of_eq (s3_step1 (F := F) d L A Tt 3 4 48 rfl rfl inb_S512_S16_48)) $$ Hs3'
  -- block 37
  sl_for (inv1 d L A Tt (s1c d L A) (tvc d L Tt) 64) $$ [Hs1' Hs2']
  case region =>
    exact region1 d L A Tt (s1c d L A) (tvc d L Tt) hin (hs1c d L A) (htvc d L Tt) 64 _ (⟨k1_off291, k1_off291_inb, k1_chk289, k1_chk289.dec, k1_idx289_inb, fun _ h => h⟩) (⟨k1_off292, k1_off292_inb, k1_chk290, k1_chk290.dec, k1_idx290_inb, fun _ h => h⟩) (⟨k1_off293, k1_off293_inb, k1_chk291, k1_chk291.dec, k1_idx291_inb, fun _ h => h⟩) (⟨k1_off294, k1_off294_inb, k1_chk292, k1_chk292.dec, k1_idx292_inb, fun _ h => h⟩) (⟨k1_off295, k1_off295_inb, k1_chk293, k1_chk293.dec, k1_idx293_inb, fun _ h => h⟩) (⟨k1_off296, k1_off296_inb, k1_chk294, k1_chk294.dec, k1_idx294_inb, fun _ h => h⟩) (⟨k1_off297, k1_off297_inb, k1_chk295, k1_chk295.dec, k1_idx295_inb, fun _ h => h⟩) (⟨k1_off298, k1_off298_inb, k1_chk296, k1_chk296.dec, k1_idx296_inb, fun _ h => h⟩) (fun k => ⟨congrFun (k1_off291_eq k) 0, congrFun (k1_off291_eq k) 1⟩) (fun k => ⟨congrFun (k1_off292_eq k) 0, congrFun (k1_off292_eq k) 1⟩) (fun k => ⟨congrFun (k1_off293_eq k) 0, congrFun (k1_off293_eq k) 1⟩) (fun k => ⟨congrFun (k1_off294_eq k) 0, congrFun (k1_off294_eq k) 1⟩) (fun k => ⟨congrFun (k1_off295_eq k) 0, congrFun (k1_off295_eq k) 1⟩) (fun k => ⟨congrFun (k1_off296_eq k) 0, congrFun (k1_off296_eq k) 1⟩) (fun k => ⟨congrFun (k1_off297_eq k) 0, congrFun (k1_off297_eq k) 1⟩) (fun k => ⟨congrFun (k1_off298_eq k) 0, congrFun (k1_off298_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t37_loop.lb k1_t37_loop.ub k1_t37_loop.st = 12 from trips12] at hacc
  subst hacc
  sl_exec
  sl_unfold_run_names
  unfold_pays
  ihave Hs3' := (Entails.of_eq (s3_step1 (F := F) d L A Tt 4 5 64 rfl rfl inb_S512_S16_64)) $$ Hs3'
  -- block 38
  sl_for (inv1 d L A Tt (s1c d L A) (tvc d L Tt) 80) $$ [Hs1' Hs2']
  case region =>
    exact region1 d L A Tt (s1c d L A) (tvc d L Tt) hin (hs1c d L A) (htvc d L Tt) 80 _ (⟨k1_off299, k1_off299_inb, k1_chk297, k1_chk297.dec, k1_idx297_inb, fun _ h => h⟩) (⟨k1_off300, k1_off300_inb, k1_chk298, k1_chk298.dec, k1_idx298_inb, fun _ h => h⟩) (⟨k1_off301, k1_off301_inb, k1_chk299, k1_chk299.dec, k1_idx299_inb, fun _ h => h⟩) (⟨k1_off302, k1_off302_inb, k1_chk300, k1_chk300.dec, k1_idx300_inb, fun _ h => h⟩) (⟨k1_off303, k1_off303_inb, k1_chk301, k1_chk301.dec, k1_idx301_inb, fun _ h => h⟩) (⟨k1_off304, k1_off304_inb, k1_chk302, k1_chk302.dec, k1_idx302_inb, fun _ h => h⟩) (⟨k1_off305, k1_off305_inb, k1_chk303, k1_chk303.dec, k1_idx303_inb, fun _ h => h⟩) (⟨k1_off306, k1_off306_inb, k1_chk304, k1_chk304.dec, k1_idx304_inb, fun _ h => h⟩) (fun k => ⟨congrFun (k1_off299_eq k) 0, congrFun (k1_off299_eq k) 1⟩) (fun k => ⟨congrFun (k1_off300_eq k) 0, congrFun (k1_off300_eq k) 1⟩) (fun k => ⟨congrFun (k1_off301_eq k) 0, congrFun (k1_off301_eq k) 1⟩) (fun k => ⟨congrFun (k1_off302_eq k) 0, congrFun (k1_off302_eq k) 1⟩) (fun k => ⟨congrFun (k1_off303_eq k) 0, congrFun (k1_off303_eq k) 1⟩) (fun k => ⟨congrFun (k1_off304_eq k) 0, congrFun (k1_off304_eq k) 1⟩) (fun k => ⟨congrFun (k1_off305_eq k) 0, congrFun (k1_off305_eq k) 1⟩) (fun k => ⟨congrFun (k1_off306_eq k) 0, congrFun (k1_off306_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t38_loop.lb k1_t38_loop.ub k1_t38_loop.st = 12 from trips12] at hacc
  subst hacc
  sl_exec
  sl_unfold_run_names
  unfold_pays
  ihave Hs3' := (Entails.of_eq (s3_step1 (F := F) d L A Tt 5 6 80 rfl rfl inb_S512_S16_80)) $$ Hs3'
  -- block 39
  sl_for (inv1 d L A Tt (s1c d L A) (tvc d L Tt) 96) $$ [Hs1' Hs2']
  case region =>
    exact region1 d L A Tt (s1c d L A) (tvc d L Tt) hin (hs1c d L A) (htvc d L Tt) 96 _ (⟨k1_off307, k1_off307_inb, k1_chk305, k1_chk305.dec, k1_idx305_inb, fun _ h => h⟩) (⟨k1_off308, k1_off308_inb, k1_chk306, k1_chk306.dec, k1_idx306_inb, fun _ h => h⟩) (⟨k1_off309, k1_off309_inb, k1_chk307, k1_chk307.dec, k1_idx307_inb, fun _ h => h⟩) (⟨k1_off310, k1_off310_inb, k1_chk308, k1_chk308.dec, k1_idx308_inb, fun _ h => h⟩) (⟨k1_off311, k1_off311_inb, k1_chk309, k1_chk309.dec, k1_idx309_inb, fun _ h => h⟩) (⟨k1_off312, k1_off312_inb, k1_chk310, k1_chk310.dec, k1_idx310_inb, fun _ h => h⟩) (⟨k1_off313, k1_off313_inb, k1_chk311, k1_chk311.dec, k1_idx311_inb, fun _ h => h⟩) (⟨k1_off314, k1_off314_inb, k1_chk312, k1_chk312.dec, k1_idx312_inb, fun _ h => h⟩) (fun k => ⟨congrFun (k1_off307_eq k) 0, congrFun (k1_off307_eq k) 1⟩) (fun k => ⟨congrFun (k1_off308_eq k) 0, congrFun (k1_off308_eq k) 1⟩) (fun k => ⟨congrFun (k1_off309_eq k) 0, congrFun (k1_off309_eq k) 1⟩) (fun k => ⟨congrFun (k1_off310_eq k) 0, congrFun (k1_off310_eq k) 1⟩) (fun k => ⟨congrFun (k1_off311_eq k) 0, congrFun (k1_off311_eq k) 1⟩) (fun k => ⟨congrFun (k1_off312_eq k) 0, congrFun (k1_off312_eq k) 1⟩) (fun k => ⟨congrFun (k1_off313_eq k) 0, congrFun (k1_off313_eq k) 1⟩) (fun k => ⟨congrFun (k1_off314_eq k) 0, congrFun (k1_off314_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t39_loop.lb k1_t39_loop.ub k1_t39_loop.st = 12 from trips12] at hacc
  subst hacc
  sl_exec
  sl_unfold_run_names
  unfold_pays
  ihave Hs3' := (Entails.of_eq (s3_step1 (F := F) d L A Tt 6 7 96 rfl rfl inb_S512_S16_96)) $$ Hs3'
  -- block 40
  sl_for (inv1 d L A Tt (s1c d L A) (tvc d L Tt) 112) $$ [Hs1' Hs2']
  case region =>
    exact region1 d L A Tt (s1c d L A) (tvc d L Tt) hin (hs1c d L A) (htvc d L Tt) 112 _ (⟨k1_off315, k1_off315_inb, k1_chk313, k1_chk313.dec, k1_idx313_inb, fun _ h => h⟩) (⟨k1_off316, k1_off316_inb, k1_chk314, k1_chk314.dec, k1_idx314_inb, fun _ h => h⟩) (⟨k1_off317, k1_off317_inb, k1_chk315, k1_chk315.dec, k1_idx315_inb, fun _ h => h⟩) (⟨k1_off318, k1_off318_inb, k1_chk316, k1_chk316.dec, k1_idx316_inb, fun _ h => h⟩) (⟨k1_off319, k1_off319_inb, k1_chk317, k1_chk317.dec, k1_idx317_inb, fun _ h => h⟩) (⟨k1_off320, k1_off320_inb, k1_chk318, k1_chk318.dec, k1_idx318_inb, fun _ h => h⟩) (⟨k1_off321, k1_off321_inb, k1_chk319, k1_chk319.dec, k1_idx319_inb, fun _ h => h⟩) (⟨k1_off322, k1_off322_inb, k1_chk320, k1_chk320.dec, k1_idx320_inb, fun _ h => h⟩) (fun k => ⟨congrFun (k1_off315_eq k) 0, congrFun (k1_off315_eq k) 1⟩) (fun k => ⟨congrFun (k1_off316_eq k) 0, congrFun (k1_off316_eq k) 1⟩) (fun k => ⟨congrFun (k1_off317_eq k) 0, congrFun (k1_off317_eq k) 1⟩) (fun k => ⟨congrFun (k1_off318_eq k) 0, congrFun (k1_off318_eq k) 1⟩) (fun k => ⟨congrFun (k1_off319_eq k) 0, congrFun (k1_off319_eq k) 1⟩) (fun k => ⟨congrFun (k1_off320_eq k) 0, congrFun (k1_off320_eq k) 1⟩) (fun k => ⟨congrFun (k1_off321_eq k) 0, congrFun (k1_off321_eq k) 1⟩) (fun k => ⟨congrFun (k1_off322_eq k) 0, congrFun (k1_off322_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t40_loop.lb k1_t40_loop.ub k1_t40_loop.st = 12 from trips12] at hacc
  subst hacc
  sl_exec
  sl_unfold_run_names
  unfold_pays
  ihave Hs3' := (Entails.of_eq (s3_step1 (F := F) d L A Tt 7 8 112 rfl rfl inb_S512_S16_112)) $$ Hs3'
  -- block 41
  sl_for (inv1 d L A Tt (s1c d L A) (tvc d L Tt) 128) $$ [Hs1' Hs2']
  case region =>
    exact region1 d L A Tt (s1c d L A) (tvc d L Tt) hin (hs1c d L A) (htvc d L Tt) 128 _ (⟨k1_off323, k1_off323_inb, k1_chk321, k1_chk321.dec, k1_idx321_inb, fun _ h => h⟩) (⟨k1_off324, k1_off324_inb, k1_chk322, k1_chk322.dec, k1_idx322_inb, fun _ h => h⟩) (⟨k1_off325, k1_off325_inb, k1_chk323, k1_chk323.dec, k1_idx323_inb, fun _ h => h⟩) (⟨k1_off326, k1_off326_inb, k1_chk324, k1_chk324.dec, k1_idx324_inb, fun _ h => h⟩) (⟨k1_off327, k1_off327_inb, k1_chk325, k1_chk325.dec, k1_idx325_inb, fun _ h => h⟩) (⟨k1_off328, k1_off328_inb, k1_chk326, k1_chk326.dec, k1_idx326_inb, fun _ h => h⟩) (⟨k1_off329, k1_off329_inb, k1_chk327, k1_chk327.dec, k1_idx327_inb, fun _ h => h⟩) (⟨k1_off330, k1_off330_inb, k1_chk328, k1_chk328.dec, k1_idx328_inb, fun _ h => h⟩) (fun k => ⟨congrFun (k1_off323_eq k) 0, congrFun (k1_off323_eq k) 1⟩) (fun k => ⟨congrFun (k1_off324_eq k) 0, congrFun (k1_off324_eq k) 1⟩) (fun k => ⟨congrFun (k1_off325_eq k) 0, congrFun (k1_off325_eq k) 1⟩) (fun k => ⟨congrFun (k1_off326_eq k) 0, congrFun (k1_off326_eq k) 1⟩) (fun k => ⟨congrFun (k1_off327_eq k) 0, congrFun (k1_off327_eq k) 1⟩) (fun k => ⟨congrFun (k1_off328_eq k) 0, congrFun (k1_off328_eq k) 1⟩) (fun k => ⟨congrFun (k1_off329_eq k) 0, congrFun (k1_off329_eq k) 1⟩) (fun k => ⟨congrFun (k1_off330_eq k) 0, congrFun (k1_off330_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t41_loop.lb k1_t41_loop.ub k1_t41_loop.st = 12 from trips12] at hacc
  subst hacc
  sl_exec
  sl_unfold_run_names
  unfold_pays
  ihave Hs3' := (Entails.of_eq (s3_step1 (F := F) d L A Tt 8 9 128 rfl rfl inb_S512_S16_128)) $$ Hs3'
  -- block 42
  sl_for (inv1 d L A Tt (s1c d L A) (tvc d L Tt) 144) $$ [Hs1' Hs2']
  case region =>
    exact region1 d L A Tt (s1c d L A) (tvc d L Tt) hin (hs1c d L A) (htvc d L Tt) 144 _ (⟨k1_off331, k1_off331_inb, k1_chk329, k1_chk329.dec, k1_idx329_inb, fun _ h => h⟩) (⟨k1_off332, k1_off332_inb, k1_chk330, k1_chk330.dec, k1_idx330_inb, fun _ h => h⟩) (⟨k1_off333, k1_off333_inb, k1_chk331, k1_chk331.dec, k1_idx331_inb, fun _ h => h⟩) (⟨k1_off334, k1_off334_inb, k1_chk332, k1_chk332.dec, k1_idx332_inb, fun _ h => h⟩) (⟨k1_off335, k1_off335_inb, k1_chk333, k1_chk333.dec, k1_idx333_inb, fun _ h => h⟩) (⟨k1_off336, k1_off336_inb, k1_chk334, k1_chk334.dec, k1_idx334_inb, fun _ h => h⟩) (⟨k1_off337, k1_off337_inb, k1_chk335, k1_chk335.dec, k1_idx335_inb, fun _ h => h⟩) (⟨k1_off338, k1_off338_inb, k1_chk336, k1_chk336.dec, k1_idx336_inb, fun _ h => h⟩) (fun k => ⟨congrFun (k1_off331_eq k) 0, congrFun (k1_off331_eq k) 1⟩) (fun k => ⟨congrFun (k1_off332_eq k) 0, congrFun (k1_off332_eq k) 1⟩) (fun k => ⟨congrFun (k1_off333_eq k) 0, congrFun (k1_off333_eq k) 1⟩) (fun k => ⟨congrFun (k1_off334_eq k) 0, congrFun (k1_off334_eq k) 1⟩) (fun k => ⟨congrFun (k1_off335_eq k) 0, congrFun (k1_off335_eq k) 1⟩) (fun k => ⟨congrFun (k1_off336_eq k) 0, congrFun (k1_off336_eq k) 1⟩) (fun k => ⟨congrFun (k1_off337_eq k) 0, congrFun (k1_off337_eq k) 1⟩) (fun k => ⟨congrFun (k1_off338_eq k) 0, congrFun (k1_off338_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t42_loop.lb k1_t42_loop.ub k1_t42_loop.st = 12 from trips12] at hacc
  subst hacc
  sl_exec
  sl_unfold_run_names
  unfold_pays
  ihave Hs3' := (Entails.of_eq (s3_step1 (F := F) d L A Tt 9 10 144 rfl rfl inb_S512_S16_144)) $$ Hs3'
  -- block 43
  sl_for (inv1 d L A Tt (s1c d L A) (tvc d L Tt) 160) $$ [Hs1' Hs2']
  case region =>
    exact region1 d L A Tt (s1c d L A) (tvc d L Tt) hin (hs1c d L A) (htvc d L Tt) 160 _ (⟨k1_off339, k1_off339_inb, k1_chk337, k1_chk337.dec, k1_idx337_inb, fun _ h => h⟩) (⟨k1_off340, k1_off340_inb, k1_chk338, k1_chk338.dec, k1_idx338_inb, fun _ h => h⟩) (⟨k1_off341, k1_off341_inb, k1_chk339, k1_chk339.dec, k1_idx339_inb, fun _ h => h⟩) (⟨k1_off342, k1_off342_inb, k1_chk340, k1_chk340.dec, k1_idx340_inb, fun _ h => h⟩) (⟨k1_off343, k1_off343_inb, k1_chk341, k1_chk341.dec, k1_idx341_inb, fun _ h => h⟩) (⟨k1_off344, k1_off344_inb, k1_chk342, k1_chk342.dec, k1_idx342_inb, fun _ h => h⟩) (⟨k1_off345, k1_off345_inb, k1_chk343, k1_chk343.dec, k1_idx343_inb, fun _ h => h⟩) (⟨k1_off346, k1_off346_inb, k1_chk344, k1_chk344.dec, k1_idx344_inb, fun _ h => h⟩) (fun k => ⟨congrFun (k1_off339_eq k) 0, congrFun (k1_off339_eq k) 1⟩) (fun k => ⟨congrFun (k1_off340_eq k) 0, congrFun (k1_off340_eq k) 1⟩) (fun k => ⟨congrFun (k1_off341_eq k) 0, congrFun (k1_off341_eq k) 1⟩) (fun k => ⟨congrFun (k1_off342_eq k) 0, congrFun (k1_off342_eq k) 1⟩) (fun k => ⟨congrFun (k1_off343_eq k) 0, congrFun (k1_off343_eq k) 1⟩) (fun k => ⟨congrFun (k1_off344_eq k) 0, congrFun (k1_off344_eq k) 1⟩) (fun k => ⟨congrFun (k1_off345_eq k) 0, congrFun (k1_off345_eq k) 1⟩) (fun k => ⟨congrFun (k1_off346_eq k) 0, congrFun (k1_off346_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t43_loop.lb k1_t43_loop.ub k1_t43_loop.st = 12 from trips12] at hacc
  subst hacc
  sl_exec
  sl_unfold_run_names
  unfold_pays
  ihave Hs3' := (Entails.of_eq (s3_step1 (F := F) d L A Tt 10 11 160 rfl rfl inb_S512_S16_160)) $$ Hs3'
  -- block 44
  sl_for (inv1 d L A Tt (s1c d L A) (tvc d L Tt) 176) $$ [Hs1' Hs2']
  case region =>
    exact region1 d L A Tt (s1c d L A) (tvc d L Tt) hin (hs1c d L A) (htvc d L Tt) 176 _ (⟨k1_off347, k1_off347_inb, k1_chk345, k1_chk345.dec, k1_idx345_inb, fun _ h => h⟩) (⟨k1_off348, k1_off348_inb, k1_chk346, k1_chk346.dec, k1_idx346_inb, fun _ h => h⟩) (⟨k1_off349, k1_off349_inb, k1_chk347, k1_chk347.dec, k1_idx347_inb, fun _ h => h⟩) (⟨k1_off350, k1_off350_inb, k1_chk348, k1_chk348.dec, k1_idx348_inb, fun _ h => h⟩) (⟨k1_off351, k1_off351_inb, k1_chk349, k1_chk349.dec, k1_idx349_inb, fun _ h => h⟩) (⟨k1_off352, k1_off352_inb, k1_chk350, k1_chk350.dec, k1_idx350_inb, fun _ h => h⟩) (⟨k1_off353, k1_off353_inb, k1_chk351, k1_chk351.dec, k1_idx351_inb, fun _ h => h⟩) (⟨k1_off354, k1_off354_inb, k1_chk352, k1_chk352.dec, k1_idx352_inb, fun _ h => h⟩) (fun k => ⟨congrFun (k1_off347_eq k) 0, congrFun (k1_off347_eq k) 1⟩) (fun k => ⟨congrFun (k1_off348_eq k) 0, congrFun (k1_off348_eq k) 1⟩) (fun k => ⟨congrFun (k1_off349_eq k) 0, congrFun (k1_off349_eq k) 1⟩) (fun k => ⟨congrFun (k1_off350_eq k) 0, congrFun (k1_off350_eq k) 1⟩) (fun k => ⟨congrFun (k1_off351_eq k) 0, congrFun (k1_off351_eq k) 1⟩) (fun k => ⟨congrFun (k1_off352_eq k) 0, congrFun (k1_off352_eq k) 1⟩) (fun k => ⟨congrFun (k1_off353_eq k) 0, congrFun (k1_off353_eq k) 1⟩) (fun k => ⟨congrFun (k1_off354_eq k) 0, congrFun (k1_off354_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t44_loop.lb k1_t44_loop.ub k1_t44_loop.st = 12 from trips12] at hacc
  subst hacc
  sl_exec
  sl_unfold_run_names
  unfold_pays
  ihave Hs3' := (Entails.of_eq (s3_step1 (F := F) d L A Tt 11 12 176 rfl rfl inb_S512_S16_176)) $$ Hs3'
  -- block 45
  sl_for (inv1 d L A Tt (s1c d L A) (tvc d L Tt) 192) $$ [Hs1' Hs2']
  case region =>
    exact region1 d L A Tt (s1c d L A) (tvc d L Tt) hin (hs1c d L A) (htvc d L Tt) 192 _ (⟨k1_off355, k1_off355_inb, k1_chk353, k1_chk353.dec, k1_idx353_inb, fun _ h => h⟩) (⟨k1_off356, k1_off356_inb, k1_chk354, k1_chk354.dec, k1_idx354_inb, fun _ h => h⟩) (⟨k1_off357, k1_off357_inb, k1_chk355, k1_chk355.dec, k1_idx355_inb, fun _ h => h⟩) (⟨k1_off358, k1_off358_inb, k1_chk356, k1_chk356.dec, k1_idx356_inb, fun _ h => h⟩) (⟨k1_off359, k1_off359_inb, k1_chk357, k1_chk357.dec, k1_idx357_inb, fun _ h => h⟩) (⟨k1_off360, k1_off360_inb, k1_chk358, k1_chk358.dec, k1_idx358_inb, fun _ h => h⟩) (⟨k1_off361, k1_off361_inb, k1_chk359, k1_chk359.dec, k1_idx359_inb, fun _ h => h⟩) (⟨k1_off362, k1_off362_inb, k1_chk360, k1_chk360.dec, k1_idx360_inb, fun _ h => h⟩) (fun k => ⟨congrFun (k1_off355_eq k) 0, congrFun (k1_off355_eq k) 1⟩) (fun k => ⟨congrFun (k1_off356_eq k) 0, congrFun (k1_off356_eq k) 1⟩) (fun k => ⟨congrFun (k1_off357_eq k) 0, congrFun (k1_off357_eq k) 1⟩) (fun k => ⟨congrFun (k1_off358_eq k) 0, congrFun (k1_off358_eq k) 1⟩) (fun k => ⟨congrFun (k1_off359_eq k) 0, congrFun (k1_off359_eq k) 1⟩) (fun k => ⟨congrFun (k1_off360_eq k) 0, congrFun (k1_off360_eq k) 1⟩) (fun k => ⟨congrFun (k1_off361_eq k) 0, congrFun (k1_off361_eq k) 1⟩) (fun k => ⟨congrFun (k1_off362_eq k) 0, congrFun (k1_off362_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t45_loop.lb k1_t45_loop.ub k1_t45_loop.st = 12 from trips12] at hacc
  subst hacc
  sl_exec
  sl_unfold_run_names
  unfold_pays
  ihave Hs3' := (Entails.of_eq (s3_step1 (F := F) d L A Tt 12 13 192 rfl rfl inb_S512_S16_192)) $$ Hs3'
  -- block 46
  sl_for (inv1 d L A Tt (s1c d L A) (tvc d L Tt) 208) $$ [Hs1' Hs2']
  case region =>
    exact region1 d L A Tt (s1c d L A) (tvc d L Tt) hin (hs1c d L A) (htvc d L Tt) 208 _ (⟨k1_off363, k1_off363_inb, k1_chk361, k1_chk361.dec, k1_idx361_inb, fun _ h => h⟩) (⟨k1_off364, k1_off364_inb, k1_chk362, k1_chk362.dec, k1_idx362_inb, fun _ h => h⟩) (⟨k1_off365, k1_off365_inb, k1_chk363, k1_chk363.dec, k1_idx363_inb, fun _ h => h⟩) (⟨k1_off366, k1_off366_inb, k1_chk364, k1_chk364.dec, k1_idx364_inb, fun _ h => h⟩) (⟨k1_off367, k1_off367_inb, k1_chk365, k1_chk365.dec, k1_idx365_inb, fun _ h => h⟩) (⟨k1_off368, k1_off368_inb, k1_chk366, k1_chk366.dec, k1_idx366_inb, fun _ h => h⟩) (⟨k1_off369, k1_off369_inb, k1_chk367, k1_chk367.dec, k1_idx367_inb, fun _ h => h⟩) (⟨k1_off370, k1_off370_inb, k1_chk368, k1_chk368.dec, k1_idx368_inb, fun _ h => h⟩) (fun k => ⟨congrFun (k1_off363_eq k) 0, congrFun (k1_off363_eq k) 1⟩) (fun k => ⟨congrFun (k1_off364_eq k) 0, congrFun (k1_off364_eq k) 1⟩) (fun k => ⟨congrFun (k1_off365_eq k) 0, congrFun (k1_off365_eq k) 1⟩) (fun k => ⟨congrFun (k1_off366_eq k) 0, congrFun (k1_off366_eq k) 1⟩) (fun k => ⟨congrFun (k1_off367_eq k) 0, congrFun (k1_off367_eq k) 1⟩) (fun k => ⟨congrFun (k1_off368_eq k) 0, congrFun (k1_off368_eq k) 1⟩) (fun k => ⟨congrFun (k1_off369_eq k) 0, congrFun (k1_off369_eq k) 1⟩) (fun k => ⟨congrFun (k1_off370_eq k) 0, congrFun (k1_off370_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t46_loop.lb k1_t46_loop.ub k1_t46_loop.st = 12 from trips12] at hacc
  subst hacc
  sl_exec
  sl_unfold_run_names
  unfold_pays
  ihave Hs3' := (Entails.of_eq (s3_step1 (F := F) d L A Tt 13 14 208 rfl rfl inb_S512_S16_208)) $$ Hs3'
  -- block 47
  sl_for (inv1 d L A Tt (s1c d L A) (tvc d L Tt) 224) $$ [Hs1' Hs2']
  case region =>
    exact region1 d L A Tt (s1c d L A) (tvc d L Tt) hin (hs1c d L A) (htvc d L Tt) 224 _ (⟨k1_off371, k1_off371_inb, k1_chk369, k1_chk369.dec, k1_idx369_inb, fun _ h => h⟩) (⟨k1_off372, k1_off372_inb, k1_chk370, k1_chk370.dec, k1_idx370_inb, fun _ h => h⟩) (⟨k1_off373, k1_off373_inb, k1_chk371, k1_chk371.dec, k1_idx371_inb, fun _ h => h⟩) (⟨k1_off374, k1_off374_inb, k1_chk372, k1_chk372.dec, k1_idx372_inb, fun _ h => h⟩) (⟨k1_off375, k1_off375_inb, k1_chk373, k1_chk373.dec, k1_idx373_inb, fun _ h => h⟩) (⟨k1_off376, k1_off376_inb, k1_chk374, k1_chk374.dec, k1_idx374_inb, fun _ h => h⟩) (⟨k1_off377, k1_off377_inb, k1_chk375, k1_chk375.dec, k1_idx375_inb, fun _ h => h⟩) (⟨k1_off378, k1_off378_inb, k1_chk376, k1_chk376.dec, k1_idx376_inb, fun _ h => h⟩) (fun k => ⟨congrFun (k1_off371_eq k) 0, congrFun (k1_off371_eq k) 1⟩) (fun k => ⟨congrFun (k1_off372_eq k) 0, congrFun (k1_off372_eq k) 1⟩) (fun k => ⟨congrFun (k1_off373_eq k) 0, congrFun (k1_off373_eq k) 1⟩) (fun k => ⟨congrFun (k1_off374_eq k) 0, congrFun (k1_off374_eq k) 1⟩) (fun k => ⟨congrFun (k1_off375_eq k) 0, congrFun (k1_off375_eq k) 1⟩) (fun k => ⟨congrFun (k1_off376_eq k) 0, congrFun (k1_off376_eq k) 1⟩) (fun k => ⟨congrFun (k1_off377_eq k) 0, congrFun (k1_off377_eq k) 1⟩) (fun k => ⟨congrFun (k1_off378_eq k) 0, congrFun (k1_off378_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t47_loop.lb k1_t47_loop.ub k1_t47_loop.st = 12 from trips12] at hacc
  subst hacc
  sl_exec
  sl_unfold_run_names
  unfold_pays
  ihave Hs3' := (Entails.of_eq (s3_step1 (F := F) d L A Tt 14 15 224 rfl rfl inb_S512_S16_224)) $$ Hs3'
  -- block 48
  sl_for (inv1 d L A Tt (s1c d L A) (tvc d L Tt) 240) $$ [Hs1' Hs2']
  case region =>
    exact region1 d L A Tt (s1c d L A) (tvc d L Tt) hin (hs1c d L A) (htvc d L Tt) 240 _ (⟨k1_off379, k1_off379_inb, k1_chk377, k1_chk377.dec, k1_idx377_inb, fun _ h => h⟩) (⟨k1_off380, k1_off380_inb, k1_chk378, k1_chk378.dec, k1_idx378_inb, fun _ h => h⟩) (⟨k1_off381, k1_off381_inb, k1_chk379, k1_chk379.dec, k1_idx379_inb, fun _ h => h⟩) (⟨k1_off382, k1_off382_inb, k1_chk380, k1_chk380.dec, k1_idx380_inb, fun _ h => h⟩) (⟨k1_off383, k1_off383_inb, k1_chk381, k1_chk381.dec, k1_idx381_inb, fun _ h => h⟩) (⟨k1_off384, k1_off384_inb, k1_chk382, k1_chk382.dec, k1_idx382_inb, fun _ h => h⟩) (⟨k1_off385, k1_off385_inb, k1_chk383, k1_chk383.dec, k1_idx383_inb, fun _ h => h⟩) (⟨k1_off386, k1_off386_inb, k1_chk384, k1_chk384.dec, k1_idx384_inb, fun _ h => h⟩) (fun k => ⟨congrFun (k1_off379_eq k) 0, congrFun (k1_off379_eq k) 1⟩) (fun k => ⟨congrFun (k1_off380_eq k) 0, congrFun (k1_off380_eq k) 1⟩) (fun k => ⟨congrFun (k1_off381_eq k) 0, congrFun (k1_off381_eq k) 1⟩) (fun k => ⟨congrFun (k1_off382_eq k) 0, congrFun (k1_off382_eq k) 1⟩) (fun k => ⟨congrFun (k1_off383_eq k) 0, congrFun (k1_off383_eq k) 1⟩) (fun k => ⟨congrFun (k1_off384_eq k) 0, congrFun (k1_off384_eq k) 1⟩) (fun k => ⟨congrFun (k1_off385_eq k) 0, congrFun (k1_off385_eq k) 1⟩) (fun k => ⟨congrFun (k1_off386_eq k) 0, congrFun (k1_off386_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t48_loop.lb k1_t48_loop.ub k1_t48_loop.st = 12 from trips12] at hacc
  subst hacc
  sl_exec
  sl_unfold_run_names
  unfold_pays
  ihave Hs3' := (Entails.of_eq (s3_step1 (F := F) d L A Tt 15 16 240 rfl rfl inb_S512_S16_240)) $$ Hs3'
  -- block 49
  sl_for (inv1 d L A Tt (s1c d L A) (tvc d L Tt) 256) $$ [Hs1' Hs2']
  case region =>
    exact region1 d L A Tt (s1c d L A) (tvc d L Tt) hin (hs1c d L A) (htvc d L Tt) 256 _ (⟨k1_off387, k1_off387_inb, k1_chk385, k1_chk385.dec, k1_idx385_inb, fun _ h => h⟩) (⟨k1_off388, k1_off388_inb, k1_chk386, k1_chk386.dec, k1_idx386_inb, fun _ h => h⟩) (⟨k1_off389, k1_off389_inb, k1_chk387, k1_chk387.dec, k1_idx387_inb, fun _ h => h⟩) (⟨k1_off390, k1_off390_inb, k1_chk388, k1_chk388.dec, k1_idx388_inb, fun _ h => h⟩) (⟨k1_off391, k1_off391_inb, k1_chk389, k1_chk389.dec, k1_idx389_inb, fun _ h => h⟩) (⟨k1_off392, k1_off392_inb, k1_chk390, k1_chk390.dec, k1_idx390_inb, fun _ h => h⟩) (⟨k1_off393, k1_off393_inb, k1_chk391, k1_chk391.dec, k1_idx391_inb, fun _ h => h⟩) (⟨k1_off394, k1_off394_inb, k1_chk392, k1_chk392.dec, k1_idx392_inb, fun _ h => h⟩) (fun k => ⟨congrFun (k1_off387_eq k) 0, congrFun (k1_off387_eq k) 1⟩) (fun k => ⟨congrFun (k1_off388_eq k) 0, congrFun (k1_off388_eq k) 1⟩) (fun k => ⟨congrFun (k1_off389_eq k) 0, congrFun (k1_off389_eq k) 1⟩) (fun k => ⟨congrFun (k1_off390_eq k) 0, congrFun (k1_off390_eq k) 1⟩) (fun k => ⟨congrFun (k1_off391_eq k) 0, congrFun (k1_off391_eq k) 1⟩) (fun k => ⟨congrFun (k1_off392_eq k) 0, congrFun (k1_off392_eq k) 1⟩) (fun k => ⟨congrFun (k1_off393_eq k) 0, congrFun (k1_off393_eq k) 1⟩) (fun k => ⟨congrFun (k1_off394_eq k) 0, congrFun (k1_off394_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t49_loop.lb k1_t49_loop.ub k1_t49_loop.st = 12 from trips12] at hacc
  subst hacc
  sl_exec
  sl_unfold_run_names
  unfold_pays
  ihave Hs3' := (Entails.of_eq (s3_step1 (F := F) d L A Tt 16 17 256 rfl rfl inb_S512_S16_256)) $$ Hs3'
  -- block 50
  sl_for (inv1 d L A Tt (s1c d L A) (tvc d L Tt) 272) $$ [Hs1' Hs2']
  case region =>
    exact region1 d L A Tt (s1c d L A) (tvc d L Tt) hin (hs1c d L A) (htvc d L Tt) 272 _ (⟨k1_off395, k1_off395_inb, k1_chk393, k1_chk393.dec, k1_idx393_inb, fun _ h => h⟩) (⟨k1_off396, k1_off396_inb, k1_chk394, k1_chk394.dec, k1_idx394_inb, fun _ h => h⟩) (⟨k1_off397, k1_off397_inb, k1_chk395, k1_chk395.dec, k1_idx395_inb, fun _ h => h⟩) (⟨k1_off398, k1_off398_inb, k1_chk396, k1_chk396.dec, k1_idx396_inb, fun _ h => h⟩) (⟨k1_off399, k1_off399_inb, k1_chk397, k1_chk397.dec, k1_idx397_inb, fun _ h => h⟩) (⟨k1_off400, k1_off400_inb, k1_chk398, k1_chk398.dec, k1_idx398_inb, fun _ h => h⟩) (⟨k1_off401, k1_off401_inb, k1_chk399, k1_chk399.dec, k1_idx399_inb, fun _ h => h⟩) (⟨k1_off402, k1_off402_inb, k1_chk400, k1_chk400.dec, k1_idx400_inb, fun _ h => h⟩) (fun k => ⟨congrFun (k1_off395_eq k) 0, congrFun (k1_off395_eq k) 1⟩) (fun k => ⟨congrFun (k1_off396_eq k) 0, congrFun (k1_off396_eq k) 1⟩) (fun k => ⟨congrFun (k1_off397_eq k) 0, congrFun (k1_off397_eq k) 1⟩) (fun k => ⟨congrFun (k1_off398_eq k) 0, congrFun (k1_off398_eq k) 1⟩) (fun k => ⟨congrFun (k1_off399_eq k) 0, congrFun (k1_off399_eq k) 1⟩) (fun k => ⟨congrFun (k1_off400_eq k) 0, congrFun (k1_off400_eq k) 1⟩) (fun k => ⟨congrFun (k1_off401_eq k) 0, congrFun (k1_off401_eq k) 1⟩) (fun k => ⟨congrFun (k1_off402_eq k) 0, congrFun (k1_off402_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t50_loop.lb k1_t50_loop.ub k1_t50_loop.st = 12 from trips12] at hacc
  subst hacc
  sl_exec
  sl_unfold_run_names
  unfold_pays
  ihave Hs3' := (Entails.of_eq (s3_step1 (F := F) d L A Tt 17 18 272 rfl rfl inb_S512_S16_272)) $$ Hs3'
  -- block 51
  sl_for (inv1 d L A Tt (s1c d L A) (tvc d L Tt) 288) $$ [Hs1' Hs2']
  case region =>
    exact region1 d L A Tt (s1c d L A) (tvc d L Tt) hin (hs1c d L A) (htvc d L Tt) 288 _ (⟨k1_off403, k1_off403_inb, k1_chk401, k1_chk401.dec, k1_idx401_inb, fun _ h => h⟩) (⟨k1_off404, k1_off404_inb, k1_chk402, k1_chk402.dec, k1_idx402_inb, fun _ h => h⟩) (⟨k1_off405, k1_off405_inb, k1_chk403, k1_chk403.dec, k1_idx403_inb, fun _ h => h⟩) (⟨k1_off406, k1_off406_inb, k1_chk404, k1_chk404.dec, k1_idx404_inb, fun _ h => h⟩) (⟨k1_off407, k1_off407_inb, k1_chk405, k1_chk405.dec, k1_idx405_inb, fun _ h => h⟩) (⟨k1_off408, k1_off408_inb, k1_chk406, k1_chk406.dec, k1_idx406_inb, fun _ h => h⟩) (⟨k1_off409, k1_off409_inb, k1_chk407, k1_chk407.dec, k1_idx407_inb, fun _ h => h⟩) (⟨k1_off410, k1_off410_inb, k1_chk408, k1_chk408.dec, k1_idx408_inb, fun _ h => h⟩) (fun k => ⟨congrFun (k1_off403_eq k) 0, congrFun (k1_off403_eq k) 1⟩) (fun k => ⟨congrFun (k1_off404_eq k) 0, congrFun (k1_off404_eq k) 1⟩) (fun k => ⟨congrFun (k1_off405_eq k) 0, congrFun (k1_off405_eq k) 1⟩) (fun k => ⟨congrFun (k1_off406_eq k) 0, congrFun (k1_off406_eq k) 1⟩) (fun k => ⟨congrFun (k1_off407_eq k) 0, congrFun (k1_off407_eq k) 1⟩) (fun k => ⟨congrFun (k1_off408_eq k) 0, congrFun (k1_off408_eq k) 1⟩) (fun k => ⟨congrFun (k1_off409_eq k) 0, congrFun (k1_off409_eq k) 1⟩) (fun k => ⟨congrFun (k1_off410_eq k) 0, congrFun (k1_off410_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t51_loop.lb k1_t51_loop.ub k1_t51_loop.st = 12 from trips12] at hacc
  subst hacc
  sl_exec
  sl_unfold_run_names
  unfold_pays
  ihave Hs3' := (Entails.of_eq (s3_step1 (F := F) d L A Tt 18 19 288 rfl rfl inb_S512_S16_288)) $$ Hs3'
  -- block 52
  sl_for (inv1 d L A Tt (s1c d L A) (tvc d L Tt) 304) $$ [Hs1' Hs2']
  case region =>
    exact region1 d L A Tt (s1c d L A) (tvc d L Tt) hin (hs1c d L A) (htvc d L Tt) 304 _ (⟨k1_off411, k1_off411_inb, k1_chk409, k1_chk409.dec, k1_idx409_inb, fun _ h => h⟩) (⟨k1_off412, k1_off412_inb, k1_chk410, k1_chk410.dec, k1_idx410_inb, fun _ h => h⟩) (⟨k1_off413, k1_off413_inb, k1_chk411, k1_chk411.dec, k1_idx411_inb, fun _ h => h⟩) (⟨k1_off414, k1_off414_inb, k1_chk412, k1_chk412.dec, k1_idx412_inb, fun _ h => h⟩) (⟨k1_off415, k1_off415_inb, k1_chk413, k1_chk413.dec, k1_idx413_inb, fun _ h => h⟩) (⟨k1_off416, k1_off416_inb, k1_chk414, k1_chk414.dec, k1_idx414_inb, fun _ h => h⟩) (⟨k1_off417, k1_off417_inb, k1_chk415, k1_chk415.dec, k1_idx415_inb, fun _ h => h⟩) (⟨k1_off418, k1_off418_inb, k1_chk416, k1_chk416.dec, k1_idx416_inb, fun _ h => h⟩) (fun k => ⟨congrFun (k1_off411_eq k) 0, congrFun (k1_off411_eq k) 1⟩) (fun k => ⟨congrFun (k1_off412_eq k) 0, congrFun (k1_off412_eq k) 1⟩) (fun k => ⟨congrFun (k1_off413_eq k) 0, congrFun (k1_off413_eq k) 1⟩) (fun k => ⟨congrFun (k1_off414_eq k) 0, congrFun (k1_off414_eq k) 1⟩) (fun k => ⟨congrFun (k1_off415_eq k) 0, congrFun (k1_off415_eq k) 1⟩) (fun k => ⟨congrFun (k1_off416_eq k) 0, congrFun (k1_off416_eq k) 1⟩) (fun k => ⟨congrFun (k1_off417_eq k) 0, congrFun (k1_off417_eq k) 1⟩) (fun k => ⟨congrFun (k1_off418_eq k) 0, congrFun (k1_off418_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t52_loop.lb k1_t52_loop.ub k1_t52_loop.st = 12 from trips12] at hacc
  subst hacc
  sl_exec
  sl_unfold_run_names
  unfold_pays
  ihave Hs3' := (Entails.of_eq (s3_step1 (F := F) d L A Tt 19 20 304 rfl rfl inb_S512_S16_304)) $$ Hs3'
  -- block 53
  sl_for (inv1 d L A Tt (s1c d L A) (tvc d L Tt) 320) $$ [Hs1' Hs2']
  case region =>
    exact region1 d L A Tt (s1c d L A) (tvc d L Tt) hin (hs1c d L A) (htvc d L Tt) 320 _ (⟨k1_off419, k1_off419_inb, k1_chk417, k1_chk417.dec, k1_idx417_inb, fun _ h => h⟩) (⟨k1_off420, k1_off420_inb, k1_chk418, k1_chk418.dec, k1_idx418_inb, fun _ h => h⟩) (⟨k1_off421, k1_off421_inb, k1_chk419, k1_chk419.dec, k1_idx419_inb, fun _ h => h⟩) (⟨k1_off422, k1_off422_inb, k1_chk420, k1_chk420.dec, k1_idx420_inb, fun _ h => h⟩) (⟨k1_off423, k1_off423_inb, k1_chk421, k1_chk421.dec, k1_idx421_inb, fun _ h => h⟩) (⟨k1_off424, k1_off424_inb, k1_chk422, k1_chk422.dec, k1_idx422_inb, fun _ h => h⟩) (⟨k1_off425, k1_off425_inb, k1_chk423, k1_chk423.dec, k1_idx423_inb, fun _ h => h⟩) (⟨k1_off426, k1_off426_inb, k1_chk424, k1_chk424.dec, k1_idx424_inb, fun _ h => h⟩) (fun k => ⟨congrFun (k1_off419_eq k) 0, congrFun (k1_off419_eq k) 1⟩) (fun k => ⟨congrFun (k1_off420_eq k) 0, congrFun (k1_off420_eq k) 1⟩) (fun k => ⟨congrFun (k1_off421_eq k) 0, congrFun (k1_off421_eq k) 1⟩) (fun k => ⟨congrFun (k1_off422_eq k) 0, congrFun (k1_off422_eq k) 1⟩) (fun k => ⟨congrFun (k1_off423_eq k) 0, congrFun (k1_off423_eq k) 1⟩) (fun k => ⟨congrFun (k1_off424_eq k) 0, congrFun (k1_off424_eq k) 1⟩) (fun k => ⟨congrFun (k1_off425_eq k) 0, congrFun (k1_off425_eq k) 1⟩) (fun k => ⟨congrFun (k1_off426_eq k) 0, congrFun (k1_off426_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t53_loop.lb k1_t53_loop.ub k1_t53_loop.st = 12 from trips12] at hacc
  subst hacc
  sl_exec
  sl_unfold_run_names
  unfold_pays
  ihave Hs3' := (Entails.of_eq (s3_step1 (F := F) d L A Tt 20 21 320 rfl rfl inb_S512_S16_320)) $$ Hs3'
  -- block 54
  sl_for (inv1 d L A Tt (s1c d L A) (tvc d L Tt) 336) $$ [Hs1' Hs2']
  case region =>
    exact region1 d L A Tt (s1c d L A) (tvc d L Tt) hin (hs1c d L A) (htvc d L Tt) 336 _ (⟨k1_off427, k1_off427_inb, k1_chk425, k1_chk425.dec, k1_idx425_inb, fun _ h => h⟩) (⟨k1_off428, k1_off428_inb, k1_chk426, k1_chk426.dec, k1_idx426_inb, fun _ h => h⟩) (⟨k1_off429, k1_off429_inb, k1_chk427, k1_chk427.dec, k1_idx427_inb, fun _ h => h⟩) (⟨k1_off430, k1_off430_inb, k1_chk428, k1_chk428.dec, k1_idx428_inb, fun _ h => h⟩) (⟨k1_off431, k1_off431_inb, k1_chk429, k1_chk429.dec, k1_idx429_inb, fun _ h => h⟩) (⟨k1_off432, k1_off432_inb, k1_chk430, k1_chk430.dec, k1_idx430_inb, fun _ h => h⟩) (⟨k1_off433, k1_off433_inb, k1_chk431, k1_chk431.dec, k1_idx431_inb, fun _ h => h⟩) (⟨k1_off434, k1_off434_inb, k1_chk432, k1_chk432.dec, k1_idx432_inb, fun _ h => h⟩) (fun k => ⟨congrFun (k1_off427_eq k) 0, congrFun (k1_off427_eq k) 1⟩) (fun k => ⟨congrFun (k1_off428_eq k) 0, congrFun (k1_off428_eq k) 1⟩) (fun k => ⟨congrFun (k1_off429_eq k) 0, congrFun (k1_off429_eq k) 1⟩) (fun k => ⟨congrFun (k1_off430_eq k) 0, congrFun (k1_off430_eq k) 1⟩) (fun k => ⟨congrFun (k1_off431_eq k) 0, congrFun (k1_off431_eq k) 1⟩) (fun k => ⟨congrFun (k1_off432_eq k) 0, congrFun (k1_off432_eq k) 1⟩) (fun k => ⟨congrFun (k1_off433_eq k) 0, congrFun (k1_off433_eq k) 1⟩) (fun k => ⟨congrFun (k1_off434_eq k) 0, congrFun (k1_off434_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t54_loop.lb k1_t54_loop.ub k1_t54_loop.st = 12 from trips12] at hacc
  subst hacc
  sl_exec
  sl_unfold_run_names
  unfold_pays
  ihave Hs3' := (Entails.of_eq (s3_step1 (F := F) d L A Tt 21 22 336 rfl rfl inb_S512_S16_336)) $$ Hs3'
  -- block 55
  sl_for (inv1 d L A Tt (s1c d L A) (tvc d L Tt) 352) $$ [Hs1' Hs2']
  case region =>
    exact region1 d L A Tt (s1c d L A) (tvc d L Tt) hin (hs1c d L A) (htvc d L Tt) 352 _ (⟨k1_off435, k1_off435_inb, k1_chk433, k1_chk433.dec, k1_idx433_inb, fun _ h => h⟩) (⟨k1_off436, k1_off436_inb, k1_chk434, k1_chk434.dec, k1_idx434_inb, fun _ h => h⟩) (⟨k1_off437, k1_off437_inb, k1_chk435, k1_chk435.dec, k1_idx435_inb, fun _ h => h⟩) (⟨k1_off438, k1_off438_inb, k1_chk436, k1_chk436.dec, k1_idx436_inb, fun _ h => h⟩) (⟨k1_off439, k1_off439_inb, k1_chk437, k1_chk437.dec, k1_idx437_inb, fun _ h => h⟩) (⟨k1_off440, k1_off440_inb, k1_chk438, k1_chk438.dec, k1_idx438_inb, fun _ h => h⟩) (⟨k1_off441, k1_off441_inb, k1_chk439, k1_chk439.dec, k1_idx439_inb, fun _ h => h⟩) (⟨k1_off442, k1_off442_inb, k1_chk440, k1_chk440.dec, k1_idx440_inb, fun _ h => h⟩) (fun k => ⟨congrFun (k1_off435_eq k) 0, congrFun (k1_off435_eq k) 1⟩) (fun k => ⟨congrFun (k1_off436_eq k) 0, congrFun (k1_off436_eq k) 1⟩) (fun k => ⟨congrFun (k1_off437_eq k) 0, congrFun (k1_off437_eq k) 1⟩) (fun k => ⟨congrFun (k1_off438_eq k) 0, congrFun (k1_off438_eq k) 1⟩) (fun k => ⟨congrFun (k1_off439_eq k) 0, congrFun (k1_off439_eq k) 1⟩) (fun k => ⟨congrFun (k1_off440_eq k) 0, congrFun (k1_off440_eq k) 1⟩) (fun k => ⟨congrFun (k1_off441_eq k) 0, congrFun (k1_off441_eq k) 1⟩) (fun k => ⟨congrFun (k1_off442_eq k) 0, congrFun (k1_off442_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t55_loop.lb k1_t55_loop.ub k1_t55_loop.st = 12 from trips12] at hacc
  subst hacc
  sl_exec
  sl_unfold_run_names
  unfold_pays
  ihave Hs3' := (Entails.of_eq (s3_step1 (F := F) d L A Tt 22 23 352 rfl rfl inb_S512_S16_352)) $$ Hs3'
  -- block 56
  sl_for (inv1 d L A Tt (s1c d L A) (tvc d L Tt) 368) $$ [Hs1' Hs2']
  case region =>
    exact region1 d L A Tt (s1c d L A) (tvc d L Tt) hin (hs1c d L A) (htvc d L Tt) 368 _ (⟨k1_off443, k1_off443_inb, k1_chk441, k1_chk441.dec, k1_idx441_inb, fun _ h => h⟩) (⟨k1_off444, k1_off444_inb, k1_chk442, k1_chk442.dec, k1_idx442_inb, fun _ h => h⟩) (⟨k1_off445, k1_off445_inb, k1_chk443, k1_chk443.dec, k1_idx443_inb, fun _ h => h⟩) (⟨k1_off446, k1_off446_inb, k1_chk444, k1_chk444.dec, k1_idx444_inb, fun _ h => h⟩) (⟨k1_off447, k1_off447_inb, k1_chk445, k1_chk445.dec, k1_idx445_inb, fun _ h => h⟩) (⟨k1_off448, k1_off448_inb, k1_chk446, k1_chk446.dec, k1_idx446_inb, fun _ h => h⟩) (⟨k1_off449, k1_off449_inb, k1_chk447, k1_chk447.dec, k1_idx447_inb, fun _ h => h⟩) (⟨k1_off450, k1_off450_inb, k1_chk448, k1_chk448.dec, k1_idx448_inb, fun _ h => h⟩) (fun k => ⟨congrFun (k1_off443_eq k) 0, congrFun (k1_off443_eq k) 1⟩) (fun k => ⟨congrFun (k1_off444_eq k) 0, congrFun (k1_off444_eq k) 1⟩) (fun k => ⟨congrFun (k1_off445_eq k) 0, congrFun (k1_off445_eq k) 1⟩) (fun k => ⟨congrFun (k1_off446_eq k) 0, congrFun (k1_off446_eq k) 1⟩) (fun k => ⟨congrFun (k1_off447_eq k) 0, congrFun (k1_off447_eq k) 1⟩) (fun k => ⟨congrFun (k1_off448_eq k) 0, congrFun (k1_off448_eq k) 1⟩) (fun k => ⟨congrFun (k1_off449_eq k) 0, congrFun (k1_off449_eq k) 1⟩) (fun k => ⟨congrFun (k1_off450_eq k) 0, congrFun (k1_off450_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t56_loop.lb k1_t56_loop.ub k1_t56_loop.st = 12 from trips12] at hacc
  subst hacc
  sl_exec
  sl_unfold_run_names
  unfold_pays
  ihave Hs3' := (Entails.of_eq (s3_step1 (F := F) d L A Tt 23 24 368 rfl rfl inb_S512_S16_368)) $$ Hs3'
  -- block 57
  sl_for (inv1 d L A Tt (s1c d L A) (tvc d L Tt) 384) $$ [Hs1' Hs2']
  case region =>
    exact region1 d L A Tt (s1c d L A) (tvc d L Tt) hin (hs1c d L A) (htvc d L Tt) 384 _ (⟨k1_off451, k1_off451_inb, k1_chk449, k1_chk449.dec, k1_idx449_inb, fun _ h => h⟩) (⟨k1_off452, k1_off452_inb, k1_chk450, k1_chk450.dec, k1_idx450_inb, fun _ h => h⟩) (⟨k1_off453, k1_off453_inb, k1_chk451, k1_chk451.dec, k1_idx451_inb, fun _ h => h⟩) (⟨k1_off454, k1_off454_inb, k1_chk452, k1_chk452.dec, k1_idx452_inb, fun _ h => h⟩) (⟨k1_off455, k1_off455_inb, k1_chk453, k1_chk453.dec, k1_idx453_inb, fun _ h => h⟩) (⟨k1_off456, k1_off456_inb, k1_chk454, k1_chk454.dec, k1_idx454_inb, fun _ h => h⟩) (⟨k1_off457, k1_off457_inb, k1_chk455, k1_chk455.dec, k1_idx455_inb, fun _ h => h⟩) (⟨k1_off458, k1_off458_inb, k1_chk456, k1_chk456.dec, k1_idx456_inb, fun _ h => h⟩) (fun k => ⟨congrFun (k1_off451_eq k) 0, congrFun (k1_off451_eq k) 1⟩) (fun k => ⟨congrFun (k1_off452_eq k) 0, congrFun (k1_off452_eq k) 1⟩) (fun k => ⟨congrFun (k1_off453_eq k) 0, congrFun (k1_off453_eq k) 1⟩) (fun k => ⟨congrFun (k1_off454_eq k) 0, congrFun (k1_off454_eq k) 1⟩) (fun k => ⟨congrFun (k1_off455_eq k) 0, congrFun (k1_off455_eq k) 1⟩) (fun k => ⟨congrFun (k1_off456_eq k) 0, congrFun (k1_off456_eq k) 1⟩) (fun k => ⟨congrFun (k1_off457_eq k) 0, congrFun (k1_off457_eq k) 1⟩) (fun k => ⟨congrFun (k1_off458_eq k) 0, congrFun (k1_off458_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t57_loop.lb k1_t57_loop.ub k1_t57_loop.st = 12 from trips12] at hacc
  subst hacc
  sl_exec
  sl_unfold_run_names
  unfold_pays
  ihave Hs3' := (Entails.of_eq (s3_step1 (F := F) d L A Tt 24 25 384 rfl rfl inb_S512_S16_384)) $$ Hs3'
  -- block 58
  sl_for (inv1 d L A Tt (s1c d L A) (tvc d L Tt) 400) $$ [Hs1' Hs2']
  case region =>
    exact region1 d L A Tt (s1c d L A) (tvc d L Tt) hin (hs1c d L A) (htvc d L Tt) 400 _ (⟨k1_off459, k1_off459_inb, k1_chk457, k1_chk457.dec, k1_idx457_inb, fun _ h => h⟩) (⟨k1_off460, k1_off460_inb, k1_chk458, k1_chk458.dec, k1_idx458_inb, fun _ h => h⟩) (⟨k1_off461, k1_off461_inb, k1_chk459, k1_chk459.dec, k1_idx459_inb, fun _ h => h⟩) (⟨k1_off462, k1_off462_inb, k1_chk460, k1_chk460.dec, k1_idx460_inb, fun _ h => h⟩) (⟨k1_off463, k1_off463_inb, k1_chk461, k1_chk461.dec, k1_idx461_inb, fun _ h => h⟩) (⟨k1_off464, k1_off464_inb, k1_chk462, k1_chk462.dec, k1_idx462_inb, fun _ h => h⟩) (⟨k1_off465, k1_off465_inb, k1_chk463, k1_chk463.dec, k1_idx463_inb, fun _ h => h⟩) (⟨k1_off466, k1_off466_inb, k1_chk464, k1_chk464.dec, k1_idx464_inb, fun _ h => h⟩) (fun k => ⟨congrFun (k1_off459_eq k) 0, congrFun (k1_off459_eq k) 1⟩) (fun k => ⟨congrFun (k1_off460_eq k) 0, congrFun (k1_off460_eq k) 1⟩) (fun k => ⟨congrFun (k1_off461_eq k) 0, congrFun (k1_off461_eq k) 1⟩) (fun k => ⟨congrFun (k1_off462_eq k) 0, congrFun (k1_off462_eq k) 1⟩) (fun k => ⟨congrFun (k1_off463_eq k) 0, congrFun (k1_off463_eq k) 1⟩) (fun k => ⟨congrFun (k1_off464_eq k) 0, congrFun (k1_off464_eq k) 1⟩) (fun k => ⟨congrFun (k1_off465_eq k) 0, congrFun (k1_off465_eq k) 1⟩) (fun k => ⟨congrFun (k1_off466_eq k) 0, congrFun (k1_off466_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t58_loop.lb k1_t58_loop.ub k1_t58_loop.st = 12 from trips12] at hacc
  subst hacc
  sl_exec
  sl_unfold_run_names
  unfold_pays
  ihave Hs3' := (Entails.of_eq (s3_step1 (F := F) d L A Tt 25 26 400 rfl rfl inb_S512_S16_400)) $$ Hs3'
  -- block 59
  sl_for (inv1 d L A Tt (s1c d L A) (tvc d L Tt) 416) $$ [Hs1' Hs2']
  case region =>
    exact region1 d L A Tt (s1c d L A) (tvc d L Tt) hin (hs1c d L A) (htvc d L Tt) 416 _ (⟨k1_off467, k1_off467_inb, k1_chk465, k1_chk465.dec, k1_idx465_inb, fun _ h => h⟩) (⟨k1_off468, k1_off468_inb, k1_chk466, k1_chk466.dec, k1_idx466_inb, fun _ h => h⟩) (⟨k1_off469, k1_off469_inb, k1_chk467, k1_chk467.dec, k1_idx467_inb, fun _ h => h⟩) (⟨k1_off470, k1_off470_inb, k1_chk468, k1_chk468.dec, k1_idx468_inb, fun _ h => h⟩) (⟨k1_off471, k1_off471_inb, k1_chk469, k1_chk469.dec, k1_idx469_inb, fun _ h => h⟩) (⟨k1_off472, k1_off472_inb, k1_chk470, k1_chk470.dec, k1_idx470_inb, fun _ h => h⟩) (⟨k1_off473, k1_off473_inb, k1_chk471, k1_chk471.dec, k1_idx471_inb, fun _ h => h⟩) (⟨k1_off474, k1_off474_inb, k1_chk472, k1_chk472.dec, k1_idx472_inb, fun _ h => h⟩) (fun k => ⟨congrFun (k1_off467_eq k) 0, congrFun (k1_off467_eq k) 1⟩) (fun k => ⟨congrFun (k1_off468_eq k) 0, congrFun (k1_off468_eq k) 1⟩) (fun k => ⟨congrFun (k1_off469_eq k) 0, congrFun (k1_off469_eq k) 1⟩) (fun k => ⟨congrFun (k1_off470_eq k) 0, congrFun (k1_off470_eq k) 1⟩) (fun k => ⟨congrFun (k1_off471_eq k) 0, congrFun (k1_off471_eq k) 1⟩) (fun k => ⟨congrFun (k1_off472_eq k) 0, congrFun (k1_off472_eq k) 1⟩) (fun k => ⟨congrFun (k1_off473_eq k) 0, congrFun (k1_off473_eq k) 1⟩) (fun k => ⟨congrFun (k1_off474_eq k) 0, congrFun (k1_off474_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t59_loop.lb k1_t59_loop.ub k1_t59_loop.st = 12 from trips12] at hacc
  subst hacc
  sl_exec
  sl_unfold_run_names
  unfold_pays
  ihave Hs3' := (Entails.of_eq (s3_step1 (F := F) d L A Tt 26 27 416 rfl rfl inb_S512_S16_416)) $$ Hs3'
  -- block 60
  sl_for (inv1 d L A Tt (s1c d L A) (tvc d L Tt) 432) $$ [Hs1' Hs2']
  case region =>
    exact region1 d L A Tt (s1c d L A) (tvc d L Tt) hin (hs1c d L A) (htvc d L Tt) 432 _ (⟨k1_off475, k1_off475_inb, k1_chk473, k1_chk473.dec, k1_idx473_inb, fun _ h => h⟩) (⟨k1_off476, k1_off476_inb, k1_chk474, k1_chk474.dec, k1_idx474_inb, fun _ h => h⟩) (⟨k1_off477, k1_off477_inb, k1_chk475, k1_chk475.dec, k1_idx475_inb, fun _ h => h⟩) (⟨k1_off478, k1_off478_inb, k1_chk476, k1_chk476.dec, k1_idx476_inb, fun _ h => h⟩) (⟨k1_off479, k1_off479_inb, k1_chk477, k1_chk477.dec, k1_idx477_inb, fun _ h => h⟩) (⟨k1_off480, k1_off480_inb, k1_chk478, k1_chk478.dec, k1_idx478_inb, fun _ h => h⟩) (⟨k1_off481, k1_off481_inb, k1_chk479, k1_chk479.dec, k1_idx479_inb, fun _ h => h⟩) (⟨k1_off482, k1_off482_inb, k1_chk480, k1_chk480.dec, k1_idx480_inb, fun _ h => h⟩) (fun k => ⟨congrFun (k1_off475_eq k) 0, congrFun (k1_off475_eq k) 1⟩) (fun k => ⟨congrFun (k1_off476_eq k) 0, congrFun (k1_off476_eq k) 1⟩) (fun k => ⟨congrFun (k1_off477_eq k) 0, congrFun (k1_off477_eq k) 1⟩) (fun k => ⟨congrFun (k1_off478_eq k) 0, congrFun (k1_off478_eq k) 1⟩) (fun k => ⟨congrFun (k1_off479_eq k) 0, congrFun (k1_off479_eq k) 1⟩) (fun k => ⟨congrFun (k1_off480_eq k) 0, congrFun (k1_off480_eq k) 1⟩) (fun k => ⟨congrFun (k1_off481_eq k) 0, congrFun (k1_off481_eq k) 1⟩) (fun k => ⟨congrFun (k1_off482_eq k) 0, congrFun (k1_off482_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t60_loop.lb k1_t60_loop.ub k1_t60_loop.st = 12 from trips12] at hacc
  subst hacc
  sl_exec
  sl_unfold_run_names
  unfold_pays
  ihave Hs3' := (Entails.of_eq (s3_step1 (F := F) d L A Tt 27 28 432 rfl rfl inb_S512_S16_432)) $$ Hs3'
  -- block 61
  sl_for (inv1 d L A Tt (s1c d L A) (tvc d L Tt) 448) $$ [Hs1' Hs2']
  case region =>
    exact region1 d L A Tt (s1c d L A) (tvc d L Tt) hin (hs1c d L A) (htvc d L Tt) 448 _ (⟨k1_off483, k1_off483_inb, k1_chk481, k1_chk481.dec, k1_idx481_inb, fun _ h => h⟩) (⟨k1_off484, k1_off484_inb, k1_chk482, k1_chk482.dec, k1_idx482_inb, fun _ h => h⟩) (⟨k1_off485, k1_off485_inb, k1_chk483, k1_chk483.dec, k1_idx483_inb, fun _ h => h⟩) (⟨k1_off486, k1_off486_inb, k1_chk484, k1_chk484.dec, k1_idx484_inb, fun _ h => h⟩) (⟨k1_off487, k1_off487_inb, k1_chk485, k1_chk485.dec, k1_idx485_inb, fun _ h => h⟩) (⟨k1_off488, k1_off488_inb, k1_chk486, k1_chk486.dec, k1_idx486_inb, fun _ h => h⟩) (⟨k1_off489, k1_off489_inb, k1_chk487, k1_chk487.dec, k1_idx487_inb, fun _ h => h⟩) (⟨k1_off490, k1_off490_inb, k1_chk488, k1_chk488.dec, k1_idx488_inb, fun _ h => h⟩) (fun k => ⟨congrFun (k1_off483_eq k) 0, congrFun (k1_off483_eq k) 1⟩) (fun k => ⟨congrFun (k1_off484_eq k) 0, congrFun (k1_off484_eq k) 1⟩) (fun k => ⟨congrFun (k1_off485_eq k) 0, congrFun (k1_off485_eq k) 1⟩) (fun k => ⟨congrFun (k1_off486_eq k) 0, congrFun (k1_off486_eq k) 1⟩) (fun k => ⟨congrFun (k1_off487_eq k) 0, congrFun (k1_off487_eq k) 1⟩) (fun k => ⟨congrFun (k1_off488_eq k) 0, congrFun (k1_off488_eq k) 1⟩) (fun k => ⟨congrFun (k1_off489_eq k) 0, congrFun (k1_off489_eq k) 1⟩) (fun k => ⟨congrFun (k1_off490_eq k) 0, congrFun (k1_off490_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t61_loop.lb k1_t61_loop.ub k1_t61_loop.st = 12 from trips12] at hacc
  subst hacc
  sl_exec
  sl_unfold_run_names
  unfold_pays
  ihave Hs3' := (Entails.of_eq (s3_step1 (F := F) d L A Tt 28 29 448 rfl rfl inb_S512_S16_448)) $$ Hs3'
  -- block 62
  sl_for (inv1 d L A Tt (s1c d L A) (tvc d L Tt) 464) $$ [Hs1' Hs2']
  case region =>
    exact region1 d L A Tt (s1c d L A) (tvc d L Tt) hin (hs1c d L A) (htvc d L Tt) 464 _ (⟨k1_off491, k1_off491_inb, k1_chk489, k1_chk489.dec, k1_idx489_inb, fun _ h => h⟩) (⟨k1_off492, k1_off492_inb, k1_chk490, k1_chk490.dec, k1_idx490_inb, fun _ h => h⟩) (⟨k1_off493, k1_off493_inb, k1_chk491, k1_chk491.dec, k1_idx491_inb, fun _ h => h⟩) (⟨k1_off494, k1_off494_inb, k1_chk492, k1_chk492.dec, k1_idx492_inb, fun _ h => h⟩) (⟨k1_off495, k1_off495_inb, k1_chk493, k1_chk493.dec, k1_idx493_inb, fun _ h => h⟩) (⟨k1_off496, k1_off496_inb, k1_chk494, k1_chk494.dec, k1_idx494_inb, fun _ h => h⟩) (⟨k1_off497, k1_off497_inb, k1_chk495, k1_chk495.dec, k1_idx495_inb, fun _ h => h⟩) (⟨k1_off498, k1_off498_inb, k1_chk496, k1_chk496.dec, k1_idx496_inb, fun _ h => h⟩) (fun k => ⟨congrFun (k1_off491_eq k) 0, congrFun (k1_off491_eq k) 1⟩) (fun k => ⟨congrFun (k1_off492_eq k) 0, congrFun (k1_off492_eq k) 1⟩) (fun k => ⟨congrFun (k1_off493_eq k) 0, congrFun (k1_off493_eq k) 1⟩) (fun k => ⟨congrFun (k1_off494_eq k) 0, congrFun (k1_off494_eq k) 1⟩) (fun k => ⟨congrFun (k1_off495_eq k) 0, congrFun (k1_off495_eq k) 1⟩) (fun k => ⟨congrFun (k1_off496_eq k) 0, congrFun (k1_off496_eq k) 1⟩) (fun k => ⟨congrFun (k1_off497_eq k) 0, congrFun (k1_off497_eq k) 1⟩) (fun k => ⟨congrFun (k1_off498_eq k) 0, congrFun (k1_off498_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t62_loop.lb k1_t62_loop.ub k1_t62_loop.st = 12 from trips12] at hacc
  subst hacc
  sl_exec
  sl_unfold_run_names
  unfold_pays
  ihave Hs3' := (Entails.of_eq (s3_step1 (F := F) d L A Tt 29 30 464 rfl rfl inb_S512_S16_464)) $$ Hs3'
  -- block 63
  sl_for (inv1 d L A Tt (s1c d L A) (tvc d L Tt) 480) $$ [Hs1' Hs2']
  case region =>
    exact region1 d L A Tt (s1c d L A) (tvc d L Tt) hin (hs1c d L A) (htvc d L Tt) 480 _ (⟨k1_off499, k1_off499_inb, k1_chk497, k1_chk497.dec, k1_idx497_inb, fun _ h => h⟩) (⟨k1_off500, k1_off500_inb, k1_chk498, k1_chk498.dec, k1_idx498_inb, fun _ h => h⟩) (⟨k1_off501, k1_off501_inb, k1_chk499, k1_chk499.dec, k1_idx499_inb, fun _ h => h⟩) (⟨k1_off502, k1_off502_inb, k1_chk500, k1_chk500.dec, k1_idx500_inb, fun _ h => h⟩) (⟨k1_off503, k1_off503_inb, k1_chk501, k1_chk501.dec, k1_idx501_inb, fun _ h => h⟩) (⟨k1_off504, k1_off504_inb, k1_chk502, k1_chk502.dec, k1_idx502_inb, fun _ h => h⟩) (⟨k1_off505, k1_off505_inb, k1_chk503, k1_chk503.dec, k1_idx503_inb, fun _ h => h⟩) (⟨k1_off506, k1_off506_inb, k1_chk504, k1_chk504.dec, k1_idx504_inb, fun _ h => h⟩) (fun k => ⟨congrFun (k1_off499_eq k) 0, congrFun (k1_off499_eq k) 1⟩) (fun k => ⟨congrFun (k1_off500_eq k) 0, congrFun (k1_off500_eq k) 1⟩) (fun k => ⟨congrFun (k1_off501_eq k) 0, congrFun (k1_off501_eq k) 1⟩) (fun k => ⟨congrFun (k1_off502_eq k) 0, congrFun (k1_off502_eq k) 1⟩) (fun k => ⟨congrFun (k1_off503_eq k) 0, congrFun (k1_off503_eq k) 1⟩) (fun k => ⟨congrFun (k1_off504_eq k) 0, congrFun (k1_off504_eq k) 1⟩) (fun k => ⟨congrFun (k1_off505_eq k) 0, congrFun (k1_off505_eq k) 1⟩) (fun k => ⟨congrFun (k1_off506_eq k) 0, congrFun (k1_off506_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t63_loop.lb k1_t63_loop.ub k1_t63_loop.st = 12 from trips12] at hacc
  subst hacc
  sl_exec
  sl_unfold_run_names
  unfold_pays
  ihave Hs3' := (Entails.of_eq (s3_step1 (F := F) d L A Tt 30 31 480 rfl rfl inb_S512_S16_480)) $$ Hs3'
  -- block 64
  sl_for (inv1 d L A Tt (s1c d L A) (tvc d L Tt) 496) $$ [Hs1' Hs2']
  case region =>
    exact region1 d L A Tt (s1c d L A) (tvc d L Tt) hin (hs1c d L A) (htvc d L Tt) 496 _ (⟨k1_off507, k1_off507_inb, k1_chk505, k1_chk505.dec, k1_idx505_inb, fun _ h => h⟩) (⟨k1_off508, k1_off508_inb, k1_chk506, k1_chk506.dec, k1_idx506_inb, fun _ h => h⟩) (⟨k1_off509, k1_off509_inb, k1_chk507, k1_chk507.dec, k1_idx507_inb, fun _ h => h⟩) (⟨k1_off510, k1_off510_inb, k1_chk508, k1_chk508.dec, k1_idx508_inb, fun _ h => h⟩) (⟨k1_off511, k1_off511_inb, k1_chk509, k1_chk509.dec, k1_idx509_inb, fun _ h => h⟩) (⟨k1_off512, k1_off512_inb, k1_chk510, k1_chk510.dec, k1_idx510_inb, fun _ h => h⟩) (⟨k1_off513, k1_off513_inb, k1_chk511, k1_chk511.dec, k1_idx511_inb, fun _ h => h⟩) (⟨k1_off514, k1_off514_inb, k1_chk512, k1_chk512.dec, k1_idx512_inb, fun _ h => h⟩) (fun k => ⟨congrFun (k1_off507_eq k) 0, congrFun (k1_off507_eq k) 1⟩) (fun k => ⟨congrFun (k1_off508_eq k) 0, congrFun (k1_off508_eq k) 1⟩) (fun k => ⟨congrFun (k1_off509_eq k) 0, congrFun (k1_off509_eq k) 1⟩) (fun k => ⟨congrFun (k1_off510_eq k) 0, congrFun (k1_off510_eq k) 1⟩) (fun k => ⟨congrFun (k1_off511_eq k) 0, congrFun (k1_off511_eq k) 1⟩) (fun k => ⟨congrFun (k1_off512_eq k) 0, congrFun (k1_off512_eq k) 1⟩) (fun k => ⟨congrFun (k1_off513_eq k) 0, congrFun (k1_off513_eq k) 1⟩) (fun k => ⟨congrFun (k1_off514_eq k) 0, congrFun (k1_off514_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t64_loop.lb k1_t64_loop.ub k1_t64_loop.st = 12 from trips12] at hacc
  subst hacc
  sl_exec
  sl_unfold_run_names
  unfold_pays
  -- the copy-out has landed and been waited for
  sl_step
  isplitl [Hi']
  · iapply (Entails.of_eq (pts_i (F := F) d L _ _)); iexact Hi'
  isplitl [Ht']
  · iapply (Entails.of_eq (pts_t (F := F) d L _ _)); iexact Ht'
  isplitl [Ho']
  · iapply (Entails.of_eq (out_lands_last (F := F) d L A Tt fo inb_S512_S16_496)); iexact Ho'
  isplitl [Hs0' Hs1' Hs2' Hs3' Hbufs]
  · isplitl [Hs0']
    · iexists _; iapply (Entails.of_eq (pts_s0 (F := F) d L _)); iexact Hs0'
    isplitl [Hs1']
    · iexists _; iapply (Entails.of_eq (pts_s1 (F := F) d L _)); iexact Hs1'
    isplitl [Hs2']
    · iexists _; iapply (Entails.of_eq (pts_s2 (F := F) d L _)); iexact Hs2'
    isplitl [Hs3']
    · iexists _; iapply (Entails.of_eq (pts_s3 (F := F) d L _)); iexact Hs3'
    · iexact Hbufs
  isplitl [HsemA HsemB HsemC HsemD Hsems]
  · isplitl [HsemA]
    · iexact HsemA
    isplitl [HsemB]
    · iexact HsemB
    isplitl [HsemC]
    · iexact HsemC
    isplitl [HsemD]
    · iexact HsemD
    · iexact Hsems
  iexists _
  isplitr
  on_goal 2 => iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp

end Cert.Proof.KI

end
-- ==== Proof.TileGenKB.lean ====
/-
  What one vector subcore's run of the summing kernel rests on, stated once for every tile and every float instance:
  the tile's own semaphores and scratch buffers among the subcore's; what the three inbound copies land (two row blocks
  of the transposed index array, the folded table); one round of a gather loop — eight gathers off the table at sixteen
  loaded indices each, every one added onto its running sum — as a generic program over the places it loads from, with
  its invariant (running sum `u` after `k` rounds is the spec's `acc` over positions `8·i + u`); and the sums scratch
  as ONE function of how many sixteen-column blocks have been stored (first stretch) or completed (second stretch),
  which the copy-out lands on the tile's 512 output entries as the spec's `out`.
-/
import proofs.«205085_g3753801417095_cont_8to1_b_1540_27_alg».proof.Proof.CommonKB
import proofs.«205085_g3753801417095_cont_8to1_b_1540_27_alg».proof.Proof.TileDefsKB
import proofs.«205085_g3753801417095_cont_8to1_b_1540_27_alg».proof.Proof.TileSpec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (d : Dev nD) (L : grid1.Coords)

open Lean Elab Tactic Meta in
/-- The program's stored values (`k1_payN`: sums of running sums, spelt as chains of named intermediate sums) written out
    in the goal as the sums they are. -/
elab "unfold_pays" : tactic => do
  let g ← getMainGoal
  let t ← instantiateMVars (← g.getType)
  let isPay (n : Name) : Bool := match n with
    | .str _ s => s.startsWith "k1_pay"
    | _ => false
  let zeta (e : Expr) : MetaM Expr :=
    Core.transform e (pre := fun e => match e with
      | .letE _ _ v b _ => return .visit (b.instantiate1 v)
      | _ => return .continue)
  let t' ← Meta.transform t (pre := fun e => do
    match e.getAppFn with
    | .const n _ =>
      if isPay n then
        match ← Meta.unfoldDefinition? e with
        | some e' => return .visit (← zeta e'.headBeta)
        | none => return .continue
      else return .continue
    | _ => return .continue)
  replaceMainGoal [← g.replaceTargetDefEq t']

/-- The four DMA semaphores of a tile: the two scratch semaphores of the index copies, the two scoped ones. -/
abbrev cellA : GSem nD τ sig := (V d (cV L) (jV L), .dma cc1_scratch4.sem)
abbrev cellB : GSem nD τ sig := (V d (cV L) (jV L), .dma cc1_scratch5.sem)
abbrev cellC : GSem nD τ sig := (V d (cV L) (jV L), .dma cc1_scoped0.sem)
abbrev cellD : GSem nD τ sig := (V d (cV L) (jV L), .dma cc1_scoped1.sem)

omit [FloatOps F] in
theorem ownSems0_V :
    (ownSems0 (V d (cV L) (jV L)) : sProp (MM F))
      = iprop(semVal (cellA d L) 0 ∗ semVal (cellB d L) 0 ∗ semVal (cellC d L) 0 ∗ semVal (cellD d L) 0
          ∗ bigSep (((((ownCells (V d (cV L) (jV L))).erase (cellA d L)).erase (cellB d L)).erase (cellC d L)).erase (cellD d L))
              fun g => semVal g 0) := by
  unfold SparseCore.Cfg.ownSems0
  rw [SparseCore.bigSep_erase' ((mem_ownCells (g := cellA d L)).mpr ⟨rfl, by
      show (SemLoc.dma cc1_scratch4.sem : SemLoc sig).isScoped .scVector = true; decide⟩),
    SparseCore.bigSep_erase' (Finset.mem_erase.mpr ⟨by simp [cellA, cellB]; decide, (mem_ownCells (g := cellB d L)).mpr ⟨rfl, by
      show (SemLoc.dma cc1_scratch5.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d L)).mpr ⟨rfl, by show (SemLoc.dma cc1_scoped0.sem : SemLoc sig).isScoped .scVector = true; decide⟩⟩⟩),
    SparseCore.bigSep_erase' (Finset.mem_erase.mpr ⟨by simp [cellC, cellD]; decide, Finset.mem_erase.mpr ⟨by simp [cellB, cellD]; decide, Finset.mem_erase.mpr ⟨by simp [cellA, cellD]; decide,
      (mem_ownCells (g := cellD d L)).mpr ⟨rfl, by show (SemLoc.dma cc1_scoped1.sem : SemLoc sig).isScoped .scVector = true; decide⟩⟩⟩⟩)]

omit [FloatOps F] in
/-- The four scratch buffers are among the subcore's own. -/
theorem ownBufs_V :
    (ownBufs (V d (cV L) (jV L)) : sProp (MM F))
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase ((Proc.scVector (cV L) (jV L)).devRef cc1_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩),
    SparseCore.bigSep_erase' (Finset.mem_erase.mpr ⟨fun e => absurd (Proc.devRef_injective _ e) (show (cc1_scratch3 : Ref sig .scVector) ≠ cc1_scratch2 by decide),
      Finset.mem_erase.mpr ⟨fun e => absurd (Proc.devRef_injective _ e) (show (cc1_scratch3 : Ref sig .scVector) ≠ cc1_scratch1 by decide),
      Finset.mem_erase.mpr ⟨fun e => absurd (Proc.devRef_injective _ e) (show (cc1_scratch3 : Ref sig .scVector) ≠ cc1_scratch0 by decide),
    SparseCore.Cfg.mem_ownRefs_of_owner (p := Proc.scVector (cV L) (jV L)) (b := (Proc.scVector (cV L) (jV L)).devRef cc1_scratch3) rfl⟩⟩⟩)]

/-! ## The arrays as the tile's memrefs address them -/

omit [FloatOps F] in
theorem pts_i (q : PosShare TreeShare) (f : Buf (Elt F) (iLoc d)) :
    ((Memref.whole main_v0_scv : Memref sig .scVector .hbm S200x16384 .i32).view.loc (V d (cV L) (jV L)) ↦{q} f : sProp (MM F)) = iLoc d ↦{q} f := by
  simp only [Memref.view_whole, View.set_whole]
omit [FloatOps F] in
theorem pts_t (q : PosShare TreeShare) (f : Buf (Elt F) (tLoc d)) :
    ((Memref.whole main_v8_scv : Memref sig .scVector .hbm S10000 .f32).view.loc (V d (cV L) (jV L)) ↦{q} f : sProp (MM F)) = tLoc d ↦{q} f := by
  simp only [Memref.view_whole, View.set_whole]
omit [FloatOps F] in
theorem pts_o (f : Buf (Elt F) (oLoc d)) :
    ((oSl L).view.loc (V d (cV L) (jV L)) ↦[(oSl L).view.set]{fullShare} f : sProp (MM F)) = oLoc d ↦[oSet L]{fullShare} f := rfl
omit [FloatOps F] in
theorem pts_s0 (f : Buf (Elt F) ((V d (cV L) (jV L)).loc cc1_scratch0)) :
    ((Memref.whole cc1_scratch0 : Memref sig .scVector .vmem S104x512 .i32).view.loc (V d (cV L) (jV L)) ↦{fullShare} f : sProp (MM F)) = (V d (cV L) (jV L)).loc cc1_scratch0 ↦{fullShare} f := rfl
omit [FloatOps F] in
theorem pts_s1 (f : Buf (Elt F) ((V d (cV L) (jV L)).loc cc1_scratch1)) :
    ((Memref.whole cc1_scratch1 : Memref sig .scVector .vmem S96x512 .i32).view.loc (V d (cV L) (jV L)) ↦{fullShare} f : sProp (MM F)) = (V d (cV L) (jV L)).loc cc1_scratch1 ↦{fullShare} f := rfl
omit [FloatOps F] in
theorem pts_s2 (f : Buf (Elt F) ((V d (cV L) (jV L)).loc cc1_scratch2)) :
    ((Memref.whole cc1_scratch2 : Memref sig .scVector .vmem S10000 .f32).view.loc (V d (cV L) (jV L)) ↦{fullShare} f : sProp (MM F)) = (V d (cV L) (jV L)).loc cc1_scratch2 ↦{fullShare} f := rfl
omit [FloatOps F] in
theorem pts_s3 (f : Buf (Elt F) ((V d (cV L) (jV L)).loc cc1_scratch3)) :
    ((Memref.whole cc1_scratch3 : Memref sig .scVector .vmem S512 .f32).view.loc (V d (cV L) (jV L)) ↦{fullShare} f : sProp (MM F)) = (V d (cV L) (jV L)).loc cc1_scratch3 ↦{fullShare} f := rfl

/-! ## What the loops compute -/

/-- The first of the 512 batch columns tile `L` sums. -/
def colBase (L : grid1.Coords) : ℕ := 1024 * (L 1).val + 512 * (L 0).val

/-- The table scalar of bag position `r0 + h` of the tile's column `b`. -/
def term (A : Buf (Elt F) (iLoc d)) (Tt : Buf (Elt F) (tLoc d)) (r0 b h : ℕ) : F .f32 :=
  Cert.TileSpec.tAt Tt (Cert.TileSpec.idxAt A (r0 + h) (colBase L + b))

/-- Running sum `u` of a stretch after `k` rounds, on the sixteen lanes of the column block at `c`. -/
def accV (A : Buf (Elt F) (iLoc d)) (Tt : Buf (Elt F) (tLoc d)) (r0 c u k : ℕ) : FVec F S16 .f32 :=
  fun x => Cert.TileSpec.acc Cert.TileSpec.zero (fun i => term d L A Tt r0 (c + (x 0).val) (i * 8 + u)) k

/-- The eight running sums after `k` rounds. -/
def accs8 (A : Buf (Elt F) (iLoc d)) (Tt : Buf (Elt F) (tLoc d)) (r0 c k : ℕ) :
    FVec F S16 .f32 × FVec F S16 .f32 × FVec F S16 .f32 × FVec F S16 .f32 × FVec F S16 .f32 × FVec F S16 .f32 × FVec F S16 .f32 × FVec F S16 .f32 :=
  (accV d L A Tt r0 c 0 k, accV d L A Tt r0 c 1 k, accV d L A Tt r0 c 2 k, accV d L A Tt r0 c 3 k, accV d L A Tt r0 c 4 k, accV d L A Tt r0 c 5 k, accV d L A Tt r0 c 6 k, accV d L A Tt r0 c 7 k)

omit [FloatOps F] in
theorem pts_s2_access (f : Buf (Elt F) ((V d (cV L) (jV L)).loc cc1_scratch2)) :
    ((((Memref.whole cc1_scratch2 : Memref sig .scVector .vmem S10000 .f32).access (.whole S10000)).loc (V d (cV L) (jV L)) ↦{fullShare} f : sProp (MM F)))
      = ((Memref.whole cc1_scratch2 : Memref sig .scVector .vmem S10000 .f32).view.loc (V d (cV L) (jV L)) ↦{fullShare} f) := rfl

theorem chk_ok {v : IVec S16 32} (hv : ∀ x, (v x).toNat < 10000) : ∀ a x, ((![v] : Fin 1 → IVec S16 32) a x).toNat < S10000.size a := by
  intro a x
  obtain rfl : a = 0 := Subsingleton.elim _ _
  exact hv x

theorem acc_step (A : Buf (Elt F) (iLoc d)) (Tt : Buf (Elt F) (tLoc d)) (r0 c u k : ℕ) (a : FVec F S16 .f32) (ha : a = accV d L A Tt r0 c u k)
    (G : FVec F S16 .f32) (hG : ∀ x, G x = term d L A Tt r0 (c + (x 0).val) (8 * k + u)) : addf a G = accV d L A Tt r0 c u (k + 1) := by
  subst ha
  funext x
  show FloatOps.addf _ (G x) = FloatOps.addf _ _
  rw [hG x, Nat.mul_comm 8 k]
  rfl

/-! ## What the copies land -/

/-- The two row blocks of the index array a tile copies in: rows 0‥103 and 104‥199 of its 512 columns. -/
abbrev iSl0 (L : grid1.Coords) : Memref sig .scVector .hbm S104x512 .i32 :=
  (Memref.whole main_v0_scv : Memref sig .scVector .hbm S200x16384 .i32).slice (Rect.unit (s := S200x16384) (k1_off1 L) S104x512.size (k1_off1_inb L)) (fun _ => rfl)
abbrev iSl1 (L : grid1.Coords) : Memref sig .scVector .hbm S96x512 .i32 :=
  (Memref.whole main_v0_scv : Memref sig .scVector .hbm S200x16384 .i32).slice (Rect.unit (s := S200x16384) (k1_off2 L) S96x512.size (k1_off2_inb L)) (fun _ => rfl)

/-- What the index scratches and the table scratch hold once their copies have landed. -/
def s0c (A : Buf (Elt F) (iLoc d)) : Buf (Elt F) ((V d (cV L) (jV L)).loc cc1_scratch0) := (iSl0 L).view.read (Elt F) A
def s1c (A : Buf (Elt F) (iLoc d)) : Buf (Elt F) ((V d (cV L) (jV L)).loc cc1_scratch1) := (iSl1 L).view.read (Elt F) A
def tvc (Tt : Buf (Elt F) (tLoc d)) : Buf (Elt F) ((V d (cV L) (jV L)).loc cc1_scratch2) := (Memref.whole main_v8_scv : Memref sig .scVector .hbm S10000 .f32).view.read (Elt F) Tt

omit [FloatOps F] in
theorem land0 (A : Buf (Elt F) (iLoc d)) (f0 : Buf (Elt F) ((V d (cV L) (jV L)).loc cc1_scratch0)) :
    ((Memref.whole cc1_scratch0 : Memref sig .scVector .vmem S104x512 .i32).view.loc (V d (cV L) (jV L)) ↦{fullShare}
        View.write (Elt F) (Memref.whole cc1_scratch0 : Memref sig .scVector .vmem S104x512 .i32).view f0 (ReadAs.same.apply ((iSl0 L).view.read (Elt F) A)) Finset.univ : sProp (MM F))
      = ((Memref.whole cc1_scratch0 : Memref sig .scVector .vmem S104x512 .i32).view.loc (V d (cV L) (jV L)) ↦{fullShare} s0c d L A) := by
  congr 1; exact View.write_whole_univ _ _ _
omit [FloatOps F] in
theorem land1 (A : Buf (Elt F) (iLoc d)) (f0 : Buf (Elt F) ((V d (cV L) (jV L)).loc cc1_scratch1)) :
    ((Memref.whole cc1_scratch1 : Memref sig .scVector .vmem S96x512 .i32).view.loc (V d (cV L) (jV L)) ↦{fullShare}
        View.write (Elt F) (Memref.whole cc1_scratch1 : Memref sig .scVector .vmem S96x512 .i32).view f0 (ReadAs.same.apply ((iSl1 L).view.read (Elt F) A)) Finset.univ : sProp (MM F))
      = ((Memref.whole cc1_scratch1 : Memref sig .scVector .vmem S96x512 .i32).view.loc (V d (cV L) (jV L)) ↦{fullShare} s1c d L A) := by
  congr 1; exact View.write_whole_univ _ _ _
omit [FloatOps F] in
theorem land2 (Tt : Buf (Elt F) (tLoc d)) (f0 : Buf (Elt F) ((V d (cV L) (jV L)).loc cc1_scratch2)) :
    ((Memref.whole cc1_scratch2 : Memref sig .scVector .vmem S10000 .f32).view.loc (V d (cV L) (jV L)) ↦{fullShare}
        View.write (Elt F) (Memref.whole cc1_scratch2 : Memref sig .scVector .vmem S10000 .f32).view f0 (ReadAs.same.apply ((Memref.whole main_v8_scv : Memref sig .scVector .hbm S10000 .f32).view.read (Elt F) Tt)) Finset.univ : sProp (MM F))
      = ((Memref.whole cc1_scratch2 : Memref sig .scVector .vmem S10000 .f32).view.loc (V d (cV L) (jV L)) ↦{fullShare} tvc d L Tt) := by
  congr 1; exact View.write_whole_univ _ _ _

omit [FloatOps F] in
theorem hs0c (A : Buf (Elt F) (iLoc d)) : ∀ y, (s0c d L A y).toNat = Cert.TileSpec.idxAt A (0 + (y 0).val) (colBase L + (y 1).val) := by
  intro y
  have hy0 : (y 0).val < 104 := (y 0).isLt
  have hy1 : (y 1).val < 512 := (y 1).isLt
  have hL0 : (L 0).val < 2 := (L 0).isLt
  have hL1 : (L 1).val < 16 := (L 1).isLt
  have q0 : k1_off1 L 0 = 0 := congrFun (k1_off1_eq L) 0
  have q1 : k1_off1 L 1 = 1024 * (L 1).val + 512 * (L 0).val := congrFun (k1_off1_eq L) 1
  unfold s0c Cert.TileSpec.idxAt
  rw [View.read_apply]
  simp only [cast_eq]
  have key : (iSl0 L).view.emb y = ValueIdx.ix2 ⟨(0 + (y 0).val) % 200, Nat.mod_lt _ (by norm_num)⟩ ⟨(colBase L + (y 1).val) % 16384, Nat.mod_lt _ (by norm_num)⟩ := by
    refine (ValueIdx.eq_ix2 _).trans ?_
    congr 1 <;> apply Fin.ext
    · show k1_off1 L 0 + 1 * (y 0).val = (0 + (y 0).val) % 200
      rw [q0]; omega
    · show k1_off1 L 1 + 1 * (y 1).val = (colBase L + (y 1).val) % 16384
      rw [q1]; unfold colBase; omega
  rw [key]

omit [FloatOps F] in
theorem hs1c (A : Buf (Elt F) (iLoc d)) : ∀ y, (s1c d L A y).toNat = Cert.TileSpec.idxAt A (104 + (y 0).val) (colBase L + (y 1).val) := by
  intro y
  have hy0 : (y 0).val < 96 := (y 0).isLt
  have hy1 : (y 1).val < 512 := (y 1).isLt
  have hL0 : (L 0).val < 2 := (L 0).isLt
  have hL1 : (L 1).val < 16 := (L 1).isLt
  have q0 : k1_off2 L 0 = 104 := congrFun (k1_off2_eq L) 0
  have q1 : k1_off2 L 1 = 1024 * (L 1).val + 512 * (L 0).val := congrFun (k1_off2_eq L) 1
  unfold s1c Cert.TileSpec.idxAt
  rw [View.read_apply]
  simp only [cast_eq]
  have key : (iSl1 L).view.emb y = ValueIdx.ix2 ⟨(104 + (y 0).val) % 200, Nat.mod_lt _ (by norm_num)⟩ ⟨(colBase L + (y 1).val) % 16384, Nat.mod_lt _ (by norm_num)⟩ := by
    refine (ValueIdx.eq_ix2 _).trans ?_
    congr 1 <;> apply Fin.ext
    · show k1_off2 L 0 + 1 * (y 0).val = (104 + (y 0).val) % 200
      rw [q0]; omega
    · show k1_off2 L 1 + 1 * (y 1).val = (colBase L + (y 1).val) % 16384
      rw [q1]; unfold colBase; omega
  rw [key]

theorem htvc (Tt : Buf (Elt F) (tLoc d)) : ∀ y, tvc d L Tt y = Cert.TileSpec.tAt Tt (y 0).val := by
  intro y
  unfold tvc Cert.TileSpec.tAt
  show Tt y = _
  have key : y = ValueIdx.ix1 ⟨(y 0).val % 10000, Nat.mod_lt _ (by norm_num)⟩ := by
    refine (ValueIdx.eq_ix1 (n := 10000) y).trans ?_
    congr 1; apply Fin.ext
    exact (Nat.mod_eq_of_lt (y 0).isLt).symm
  exact congrArg Tt key

omit [FloatOps F] in
theorem idx_lt0 (A : Buf (Elt F) (iLoc d)) (hin : ∀ i, (A i).toNat < 10000) (s0 : Buf (Elt F) ((V d (cV L) (jV L)).loc cc1_scratch0))
    (hs0 : ∀ y, (s0 y).toNat = Cert.TileSpec.idxAt A (0 + (y 0).val) (colBase L + (y 1).val)) (y) : (s0 y).toNat < 10000 := by
  rw [hs0]; exact hin _

/-- What one gather step reads: the table scalars of one bag position of the sixteen columns of a block. -/
theorem gather_val0 (A : Buf (Elt F) (iLoc d)) (Tt : Buf (Elt F) (tLoc d)) (s0 : Buf (Elt F) ((V d (cV L) (jV L)).loc cc1_scratch0)) (tv : Buf (Elt F) ((V d (cV L) (jV L)).loc cc1_scratch2))
    (hs0 : ∀ y, (s0 y).toNat = Cert.TileSpec.idxAt A (0 + (y 0).val) (colBase L + (y 1).val))
    (htv : ∀ y, tv y = Cert.TileSpec.tAt Tt (y 0).val)
    (o : Fin 2 → ℕ) (inb : ∀ a, o a + S1x16.size a ≤ S104x512.size a) (row c : ℕ) (ho0 : o 0 = row) (ho1 : o 1 = c)
    (hh : ∀ a x, ((![shapeCast S16 ((Memref.whole cc1_scratch0 : Memref sig .scVector .vmem S104x512 .i32).view.readAt (Elt F) (Rect.unit (s := S104x512) o S1x16.size inb).toLoadRect s0) shapeCasts_S1x16_S16] : Fin 1 → IVec S16 32) a x).toNat < S10000.size a)
    (x : S16.Idx) :
    loadIdx (((Memref.whole cc1_scratch2 : Memref sig .scVector .vmem S10000 .f32).access (.whole S10000)).read (Elt F) tv) ![shapeCast S16 ((Memref.whole cc1_scratch0 : Memref sig .scVector .vmem S104x512 .i32).view.readAt (Elt F) (Rect.unit (s := S104x512) o S1x16.size inb).toLoadRect s0) shapeCasts_S1x16_S16] hh x
      = term d L A Tt 0 (c + (x 0).val) row := by
  unfold loadIdx term
  rw [View.read_apply]
  simp only [cast_eq]
  rw [htv]
  congr 1
  have e2 : ∀ z, (((Memref.whole cc1_scratch2 : Memref sig .scVector .vmem S10000 .f32).access (Rect.whole S10000)).emb z) = z := fun z => Rect.emb_whole_apply _ z
  rw [e2]
  show (shapeCast S16 ((Memref.whole cc1_scratch0 : Memref sig .scVector .vmem S104x512 .i32).view.readAt (Elt F) (Rect.unit (s := S104x512) o S1x16.size inb).toLoadRect s0) shapeCasts_S1x16_S16 x).toNat = _
  unfold shapeCast
  rw [Shape.reshapeEquiv_cons_one]
  show (s0 ((Rect.unit (s := S104x512) o S1x16.size inb).toLoadRect.idx (Fin.cons ⟨0, Nat.one_pos⟩ x))).toNat = _
  rw [hs0]
  have i0 : (((Rect.unit (s := S104x512) o S1x16.size inb).toLoadRect.idx (Fin.cons ⟨0, Nat.one_pos⟩ x)) 0 : ℕ) = o 0 + 1 * 0 := rfl
  have i1 : (((Rect.unit (s := S104x512) o S1x16.size inb).toLoadRect.idx (Fin.cons ⟨0, Nat.one_pos⟩ x)) 1 : ℕ) = o 1 + 1 * (x 0).val := rfl
  rw [i0, i1, ho0, ho1, Nat.mul_zero, Nat.add_zero, Nat.one_mul]

omit [FloatOps F] in
/-- The sixteen words a step loads off the index scratch are table rows: they are words of the index array. -/
theorem chk_rd0 (A : Buf (Elt F) (iLoc d)) (hin : ∀ i, (A i).toNat < 10000) (s0 : Buf (Elt F) ((V d (cV L) (jV L)).loc cc1_scratch0))
    (hs0 : ∀ y, (s0 y).toNat = Cert.TileSpec.idxAt A (0 + (y 0).val) (colBase L + (y 1).val))
    (o : Fin 2 → ℕ) (inb : ∀ a, o a + S1x16.size a ≤ S104x512.size a) :
    ∀ a x, ((![shapeCast S16 ((Memref.whole cc1_scratch0 : Memref sig .scVector .vmem S104x512 .i32).view.readAt (Elt F) (Rect.unit (s := S104x512) o S1x16.size inb).toLoadRect s0) shapeCasts_S1x16_S16] : Fin 1 → IVec S16 32) a x).toNat < S10000.size a :=
  chk_ok (fun x => idx_lt0 d L A hin s0 hs0 _)

/-- One gather step of a stretch-0 loop as printed: where it loads its sixteen indices and the check it assumes of them. -/
structure GStep0 (n : ℕ) where
  off : Fin n → Fin 2 → ℕ
  inb : ∀ k a, off k a + S1x16.size a ≤ S104x512.size a
  chk : IVec S16 32 → Prop
  dec : ∀ v, Decidable (chk v)
  idx : ∀ v, chk v → ∀ a x, ((![v] : Fin 1 → IVec S16 32) a x).toNat < S10000.size a
  ok : ∀ v, (∀ a x, ((![v] : Fin 1 → IVec S16 32) a x).toNat < S10000.size a) → chk v

/-- A stretch-0 loop's round: eight gather steps, each added onto its running sum. -/
def gBody0 (L : grid1.Coords) (n : ℕ) (t0 t1 t2 t3 t4 t5 t6 t7 : GStep0 n) :
    Fin n → (FVec F S16 .f32 × FVec F S16 .f32 × FVec F S16 .f32 × FVec F S16 .f32 × FVec F S16 .f32 × FVec F S16 .f32 × FVec F S16 .f32 × FVec F S16 .f32) → Prog (TpuEff nD τ sig (Elt F) Λ₀ (.scVector ((L 0).castLE hcore1) ((L 1).castLE hsub1))) (FVec F S16 .f32 × FVec F S16 .f32 × FVec F S16 .f32 × FVec F S16 .f32 × FVec F S16 .f32 × FVec F S16 .f32 × FVec F S16 .f32 × FVec F S16 .f32) :=
  fun k (a0, a1, a2, a3, a4, a5, a6, a7) => do
    let l0 ← Prog.lift (.load (Memref.whole cc1_scratch0 : Memref sig .scVector .vmem S104x512 .i32) (Rect.unit (s := S104x512) (t0.off k) S1x16.size (t0.inb k)).toLoadRect (View.loadsAt_vmem h_S1x16))
    let w0 ← Prog.lift (TpuEff.assume (t0.chk (shapeCast S16 l0 shapeCasts_S1x16_S16)) (t0.dec _))
    let g0 ← SparseCore.vectorLoadIdx (Memref.whole cc1_scratch2 : Memref sig .scVector .vmem S10000 .f32) ![shapeCast S16 l0 shapeCasts_S1x16_S16] (t0.idx _ w0.down) (View.loads_vmem h_S10000)
    let l1 ← Prog.lift (.load (Memref.whole cc1_scratch0 : Memref sig .scVector .vmem S104x512 .i32) (Rect.unit (s := S104x512) (t1.off k) S1x16.size (t1.inb k)).toLoadRect (View.loadsAt_vmem h_S1x16))
    let w1 ← Prog.lift (TpuEff.assume (t1.chk (shapeCast S16 l1 shapeCasts_S1x16_S16)) (t1.dec _))
    let g1 ← SparseCore.vectorLoadIdx (Memref.whole cc1_scratch2 : Memref sig .scVector .vmem S10000 .f32) ![shapeCast S16 l1 shapeCasts_S1x16_S16] (t1.idx _ w1.down) (View.loads_vmem h_S10000)
    let l2 ← Prog.lift (.load (Memref.whole cc1_scratch0 : Memref sig .scVector .vmem S104x512 .i32) (Rect.unit (s := S104x512) (t2.off k) S1x16.size (t2.inb k)).toLoadRect (View.loadsAt_vmem h_S1x16))
    let w2 ← Prog.lift (TpuEff.assume (t2.chk (shapeCast S16 l2 shapeCasts_S1x16_S16)) (t2.dec _))
    let g2 ← SparseCore.vectorLoadIdx (Memref.whole cc1_scratch2 : Memref sig .scVector .vmem S10000 .f32) ![shapeCast S16 l2 shapeCasts_S1x16_S16] (t2.idx _ w2.down) (View.loads_vmem h_S10000)
    let l3 ← Prog.lift (.load (Memref.whole cc1_scratch0 : Memref sig .scVector .vmem S104x512 .i32) (Rect.unit (s := S104x512) (t3.off k) S1x16.size (t3.inb k)).toLoadRect (View.loadsAt_vmem h_S1x16))
    let w3 ← Prog.lift (TpuEff.assume (t3.chk (shapeCast S16 l3 shapeCasts_S1x16_S16)) (t3.dec _))
    let g3 ← SparseCore.vectorLoadIdx (Memref.whole cc1_scratch2 : Memref sig .scVector .vmem S10000 .f32) ![shapeCast S16 l3 shapeCasts_S1x16_S16] (t3.idx _ w3.down) (View.loads_vmem h_S10000)
    let l4 ← Prog.lift (.load (Memref.whole cc1_scratch0 : Memref sig .scVector .vmem S104x512 .i32) (Rect.unit (s := S104x512) (t4.off k) S1x16.size (t4.inb k)).toLoadRect (View.loadsAt_vmem h_S1x16))
    let w4 ← Prog.lift (TpuEff.assume (t4.chk (shapeCast S16 l4 shapeCasts_S1x16_S16)) (t4.dec _))
    let g4 ← SparseCore.vectorLoadIdx (Memref.whole cc1_scratch2 : Memref sig .scVector .vmem S10000 .f32) ![shapeCast S16 l4 shapeCasts_S1x16_S16] (t4.idx _ w4.down) (View.loads_vmem h_S10000)
    let l5 ← Prog.lift (.load (Memref.whole cc1_scratch0 : Memref sig .scVector .vmem S104x512 .i32) (Rect.unit (s := S104x512) (t5.off k) S1x16.size (t5.inb k)).toLoadRect (View.loadsAt_vmem h_S1x16))
    let w5 ← Prog.lift (TpuEff.assume (t5.chk (shapeCast S16 l5 shapeCasts_S1x16_S16)) (t5.dec _))
    let g5 ← SparseCore.vectorLoadIdx (Memref.whole cc1_scratch2 : Memref sig .scVector .vmem S10000 .f32) ![shapeCast S16 l5 shapeCasts_S1x16_S16] (t5.idx _ w5.down) (View.loads_vmem h_S10000)
    let l6 ← Prog.lift (.load (Memref.whole cc1_scratch0 : Memref sig .scVector .vmem S104x512 .i32) (Rect.unit (s := S104x512) (t6.off k) S1x16.size (t6.inb k)).toLoadRect (View.loadsAt_vmem h_S1x16))
    let w6 ← Prog.lift (TpuEff.assume (t6.chk (shapeCast S16 l6 shapeCasts_S1x16_S16)) (t6.dec _))
    let g6 ← SparseCore.vectorLoadIdx (Memref.whole cc1_scratch2 : Memref sig .scVector .vmem S10000 .f32) ![shapeCast S16 l6 shapeCasts_S1x16_S16] (t6.idx _ w6.down) (View.loads_vmem h_S10000)
    let l7 ← Prog.lift (.load (Memref.whole cc1_scratch0 : Memref sig .scVector .vmem S104x512 .i32) (Rect.unit (s := S104x512) (t7.off k) S1x16.size (t7.inb k)).toLoadRect (View.loadsAt_vmem h_S1x16))
    let w7 ← Prog.lift (TpuEff.assume (t7.chk (shapeCast S16 l7 shapeCasts_S1x16_S16)) (t7.dec _))
    let g7 ← SparseCore.vectorLoadIdx (Memref.whole cc1_scratch2 : Memref sig .scVector .vmem S10000 .f32) ![shapeCast S16 l7 shapeCasts_S1x16_S16] (t7.idx _ w7.down) (View.loads_vmem h_S10000)
    pure (addf a0 g0, addf a1 g1, addf a2 g2, addf a3 g3, addf a4 g4, addf a5 g5, addf a6 g6, addf a7 g7)

/-- A stretch-0 loop's invariant: the running sums are the spec's; the index scratch and the table scratch as they stand. -/
def inv0 (A : Buf (Elt F) (iLoc d)) (Tt : Buf (Elt F) (tLoc d)) (s0 : Buf (Elt F) ((V d (cV L) (jV L)).loc cc1_scratch0)) (tv : Buf (Elt F) ((V d (cV L) (jV L)).loc cc1_scratch2))
    (c : ℕ) (k : ℕ) (acc : FVec F S16 .f32 × FVec F S16 .f32 × FVec F S16 .f32 × FVec F S16 .f32 × FVec F S16 .f32 × FVec F S16 .f32 × FVec F S16 .f32 × FVec F S16 .f32) : sProp (MM F) :=
  iprop(⌜acc = accs8 d L A Tt 0 c k⌝
    ∗ ((Memref.whole cc1_scratch0 : Memref sig .scVector .vmem S104x512 .i32).view.loc (V d (cV L) (jV L)) ↦{fullShare} s0)
    ∗ ((Memref.whole cc1_scratch2 : Memref sig .scVector .vmem S10000 .f32).view.loc (V d (cV L) (jV L)) ↦{fullShare} tv))

theorem region0 (A : Buf (Elt F) (iLoc d)) (Tt : Buf (Elt F) (tLoc d)) (s0 : Buf (Elt F) ((V d (cV L) (jV L)).loc cc1_scratch0)) (tv : Buf (Elt F) ((V d (cV L) (jV L)).loc cc1_scratch2))
    (hin : ∀ i, (A i).toNat < 10000)
    (hs0 : ∀ y, (s0 y).toNat = Cert.TileSpec.idxAt A (0 + (y 0).val) (colBase L + (y 1).val))
    (htv : ∀ y, tv y = Cert.TileSpec.tAt Tt (y 0).val)
    (c : ℕ) (n : ℕ) (t0 t1 t2 t3 t4 t5 t6 t7 : GStep0 n)
    (h0 : ∀ k, (t0.off k) 0 = 8 * k.val + 0 ∧ (t0.off k) 1 = c)
    (h1 : ∀ k, (t1.off k) 0 = 8 * k.val + 1 ∧ (t1.off k) 1 = c)
    (h2 : ∀ k, (t2.off k) 0 = 8 * k.val + 2 ∧ (t2.off k) 1 = c)
    (h3 : ∀ k, (t3.off k) 0 = 8 * k.val + 3 ∧ (t3.off k) 1 = c)
    (h4 : ∀ k, (t4.off k) 0 = 8 * k.val + 4 ∧ (t4.off k) 1 = c)
    (h5 : ∀ k, (t5.off k) 0 = 8 * k.val + 5 ∧ (t5.off k) 1 = c)
    (h6 : ∀ k, (t6.off k) 0 = 8 * k.val + 6 ∧ (t6.off k) 1 = c)
    (h7 : ∀ k, (t7.off k) 0 = 8 * k.val + 7 ∧ (t7.off k) 1 = c)
    (k : Fin n) (acc : FVec F S16 .f32 × FVec F S16 .f32 × FVec F S16 .f32 × FVec F S16 .f32 × FVec F S16 .f32 × FVec F S16 .f32 × FVec F S16 .f32 × FVec F S16 .f32) :
    inv0 d L A Tt s0 tv c k acc
      ⊢ wp frame (wpE (defs₀ (F := F)) 𝒱₀ (V d (cV L) (jV L)) none) Set.univ (gBody0 L n t0 t1 t2 t3 t4 t5 t6 t7 k acc) (inv0 d L A Tt s0 tv c (k.val + 1)) := by
  obtain ⟨a0, a1, a2, a3, a4, a5, a6, a7⟩ := acc
  unfold gBody0
  simp only [Prog.lift, Prog.bind_op, Prog.bind_ret, Prog.pure_eq_ret]
  unfold inv0
  iintro ⟨%hacc, Hs0, Hs2⟩
  ihave Hs2 := (Entails.of_eq (pts_s2_access (F := F) d L _).symm) $$ Hs2
  iapply (wp_load 𝒱₀ (V d (cV L) (jV L)) none Set.univ (m := (Memref.whole cc1_scratch0 : Memref sig .scVector .vmem S104x512 .i32)) (S := Finset.univ) (Finset.subset_univ _)) $$ Hs0; iintro Hs0
  rw [wp_assume_of _ _ _ _ (t0.ok _ (chk_rd0 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  iapply (wp_load 𝒱₀ (V d (cV L) (jV L)) none Set.univ (m := (Memref.whole cc1_scratch0 : Memref sig .scVector .vmem S104x512 .i32)) (S := Finset.univ) (Finset.subset_univ _)) $$ Hs0; iintro Hs0
  rw [wp_assume_of _ _ _ _ (t1.ok _ (chk_rd0 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  iapply (wp_load 𝒱₀ (V d (cV L) (jV L)) none Set.univ (m := (Memref.whole cc1_scratch0 : Memref sig .scVector .vmem S104x512 .i32)) (S := Finset.univ) (Finset.subset_univ _)) $$ Hs0; iintro Hs0
  rw [wp_assume_of _ _ _ _ (t2.ok _ (chk_rd0 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  iapply (wp_load 𝒱₀ (V d (cV L) (jV L)) none Set.univ (m := (Memref.whole cc1_scratch0 : Memref sig .scVector .vmem S104x512 .i32)) (S := Finset.univ) (Finset.subset_univ _)) $$ Hs0; iintro Hs0
  rw [wp_assume_of _ _ _ _ (t3.ok _ (chk_rd0 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  iapply (wp_load 𝒱₀ (V d (cV L) (jV L)) none Set.univ (m := (Memref.whole cc1_scratch0 : Memref sig .scVector .vmem S104x512 .i32)) (S := Finset.univ) (Finset.subset_univ _)) $$ Hs0; iintro Hs0
  rw [wp_assume_of _ _ _ _ (t4.ok _ (chk_rd0 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  iapply (wp_load 𝒱₀ (V d (cV L) (jV L)) none Set.univ (m := (Memref.whole cc1_scratch0 : Memref sig .scVector .vmem S104x512 .i32)) (S := Finset.univ) (Finset.subset_univ _)) $$ Hs0; iintro Hs0
  rw [wp_assume_of _ _ _ _ (t5.ok _ (chk_rd0 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  iapply (wp_load 𝒱₀ (V d (cV L) (jV L)) none Set.univ (m := (Memref.whole cc1_scratch0 : Memref sig .scVector .vmem S104x512 .i32)) (S := Finset.univ) (Finset.subset_univ _)) $$ Hs0; iintro Hs0
  rw [wp_assume_of _ _ _ _ (t6.ok _ (chk_rd0 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  iapply (wp_load 𝒱₀ (V d (cV L) (jV L)) none Set.univ (m := (Memref.whole cc1_scratch0 : Memref sig .scVector .vmem S104x512 .i32)) (S := Finset.univ) (Finset.subset_univ _)) $$ Hs0; iintro Hs0
  rw [wp_assume_of _ _ _ _ (t7.ok _ (chk_rd0 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  rw [wp_ret]; imodintro
  isplitr
  · ipureintro
    unfold accs8 at hacc ⊢
    obtain ⟨e0, e1, e2, e3, e4, e5, e6, e7⟩ : a0 = accV d L A Tt 0 c 0 k.val ∧ a1 = accV d L A Tt 0 c 1 k.val ∧ a2 = accV d L A Tt 0 c 2 k.val ∧ a3 = accV d L A Tt 0 c 3 k.val ∧ a4 = accV d L A Tt 0 c 4 k.val ∧ a5 = accV d L A Tt 0 c 5 k.val ∧ a6 = accV d L A Tt 0 c 6 k.val ∧ a7 = accV d L A Tt 0 c 7 k.val := by
      simp only [Prod.mk.injEq] at hacc; exact hacc
    refine Prod.ext ?_ (Prod.ext ?_ (Prod.ext ?_ (Prod.ext ?_ (Prod.ext ?_ (Prod.ext ?_ (Prod.ext ?_ ?_))))))
    · exact acc_step d L A Tt 0 c 0 k.val _ e0 _ (fun x => gather_val0 d L A Tt s0 tv hs0 htv _ _ _ _ (h0 k).1 (h0 k).2 _ x)
    · exact acc_step d L A Tt 0 c 1 k.val _ e1 _ (fun x => gather_val0 d L A Tt s0 tv hs0 htv _ _ _ _ (h1 k).1 (h1 k).2 _ x)
    · exact acc_step d L A Tt 0 c 2 k.val _ e2 _ (fun x => gather_val0 d L A Tt s0 tv hs0 htv _ _ _ _ (h2 k).1 (h2 k).2 _ x)
    · exact acc_step d L A Tt 0 c 3 k.val _ e3 _ (fun x => gather_val0 d L A Tt s0 tv hs0 htv _ _ _ _ (h3 k).1 (h3 k).2 _ x)
    · exact acc_step d L A Tt 0 c 4 k.val _ e4 _ (fun x => gather_val0 d L A Tt s0 tv hs0 htv _ _ _ _ (h4 k).1 (h4 k).2 _ x)
    · exact acc_step d L A Tt 0 c 5 k.val _ e5 _ (fun x => gather_val0 d L A Tt s0 tv hs0 htv _ _ _ _ (h5 k).1 (h5 k).2 _ x)
    · exact acc_step d L A Tt 0 c 6 k.val _ e6 _ (fun x => gather_val0 d L A Tt s0 tv hs0 htv _ _ _ _ (h6 k).1 (h6 k).2 _ x)
    · exact acc_step d L A Tt 0 c 7 k.val _ e7 _ (fun x => gather_val0 d L A Tt s0 tv hs0 htv _ _ _ _ (h7 k).1 (h7 k).2 _ x)
  isplitl [Hs0]
  · iexact Hs0
  · iapply (Entails.of_eq (pts_s2_access (F := F) d L _)); iexact Hs2

omit [FloatOps F] in
theorem idx_lt1 (A : Buf (Elt F) (iLoc d)) (hin : ∀ i, (A i).toNat < 10000) (s0 : Buf (Elt F) ((V d (cV L) (jV L)).loc cc1_scratch1))
    (hs0 : ∀ y, (s0 y).toNat = Cert.TileSpec.idxAt A (104 + (y 0).val) (colBase L + (y 1).val)) (y) : (s0 y).toNat < 10000 := by
  rw [hs0]; exact hin _

/-- What one gather step reads: the table scalars of one bag position of the sixteen columns of a block. -/
theorem gather_val1 (A : Buf (Elt F) (iLoc d)) (Tt : Buf (Elt F) (tLoc d)) (s0 : Buf (Elt F) ((V d (cV L) (jV L)).loc cc1_scratch1)) (tv : Buf (Elt F) ((V d (cV L) (jV L)).loc cc1_scratch2))
    (hs0 : ∀ y, (s0 y).toNat = Cert.TileSpec.idxAt A (104 + (y 0).val) (colBase L + (y 1).val))
    (htv : ∀ y, tv y = Cert.TileSpec.tAt Tt (y 0).val)
    (o : Fin 2 → ℕ) (inb : ∀ a, o a + S1x16.size a ≤ S96x512.size a) (row c : ℕ) (ho0 : o 0 = row) (ho1 : o 1 = c)
    (hh : ∀ a x, ((![shapeCast S16 ((Memref.whole cc1_scratch1 : Memref sig .scVector .vmem S96x512 .i32).view.readAt (Elt F) (Rect.unit (s := S96x512) o S1x16.size inb).toLoadRect s0) shapeCasts_S1x16_S16] : Fin 1 → IVec S16 32) a x).toNat < S10000.size a)
    (x : S16.Idx) :
    loadIdx (((Memref.whole cc1_scratch2 : Memref sig .scVector .vmem S10000 .f32).access (.whole S10000)).read (Elt F) tv) ![shapeCast S16 ((Memref.whole cc1_scratch1 : Memref sig .scVector .vmem S96x512 .i32).view.readAt (Elt F) (Rect.unit (s := S96x512) o S1x16.size inb).toLoadRect s0) shapeCasts_S1x16_S16] hh x
      = term d L A Tt 104 (c + (x 0).val) row := by
  unfold loadIdx term
  rw [View.read_apply]
  simp only [cast_eq]
  rw [htv]
  congr 1
  have e2 : ∀ z, (((Memref.whole cc1_scratch2 : Memref sig .scVector .vmem S10000 .f32).access (Rect.whole S10000)).emb z) = z := fun z => Rect.emb_whole_apply _ z
  rw [e2]
  show (shapeCast S16 ((Memref.whole cc1_scratch1 : Memref sig .scVector .vmem S96x512 .i32).view.readAt (Elt F) (Rect.unit (s := S96x512) o S1x16.size inb).toLoadRect s0) shapeCasts_S1x16_S16 x).toNat = _
  unfold shapeCast
  rw [Shape.reshapeEquiv_cons_one]
  show (s0 ((Rect.unit (s := S96x512) o S1x16.size inb).toLoadRect.idx (Fin.cons ⟨0, Nat.one_pos⟩ x))).toNat = _
  rw [hs0]
  have i0 : (((Rect.unit (s := S96x512) o S1x16.size inb).toLoadRect.idx (Fin.cons ⟨0, Nat.one_pos⟩ x)) 0 : ℕ) = o 0 + 1 * 0 := rfl
  have i1 : (((Rect.unit (s := S96x512) o S1x16.size inb).toLoadRect.idx (Fin.cons ⟨0, Nat.one_pos⟩ x)) 1 : ℕ) = o 1 + 1 * (x 0).val := rfl
  rw [i0, i1, ho0, ho1, Nat.mul_zero, Nat.add_zero, Nat.one_mul]

omit [FloatOps F] in
/-- The sixteen words a step loads off the index scratch are table rows: they are words of the index array. -/
theorem chk_rd1 (A : Buf (Elt F) (iLoc d)) (hin : ∀ i, (A i).toNat < 10000) (s0 : Buf (Elt F) ((V d (cV L) (jV L)).loc cc1_scratch1))
    (hs0 : ∀ y, (s0 y).toNat = Cert.TileSpec.idxAt A (104 + (y 0).val) (colBase L + (y 1).val))
    (o : Fin 2 → ℕ) (inb : ∀ a, o a + S1x16.size a ≤ S96x512.size a) :
    ∀ a x, ((![shapeCast S16 ((Memref.whole cc1_scratch1 : Memref sig .scVector .vmem S96x512 .i32).view.readAt (Elt F) (Rect.unit (s := S96x512) o S1x16.size inb).toLoadRect s0) shapeCasts_S1x16_S16] : Fin 1 → IVec S16 32) a x).toNat < S10000.size a :=
  chk_ok (fun x => idx_lt1 d L A hin s0 hs0 _)

/-- One gather step of a stretch-1 loop as printed: where it loads its sixteen indices and the check it assumes of them. -/
structure GStep1 (n : ℕ) where
  off : Fin n → Fin 2 → ℕ
  inb : ∀ k a, off k a + S1x16.size a ≤ S96x512.size a
  chk : IVec S16 32 → Prop
  dec : ∀ v, Decidable (chk v)
  idx : ∀ v, chk v → ∀ a x, ((![v] : Fin 1 → IVec S16 32) a x).toNat < S10000.size a
  ok : ∀ v, (∀ a x, ((![v] : Fin 1 → IVec S16 32) a x).toNat < S10000.size a) → chk v

/-- A stretch-1 loop's round: eight gather steps, each added onto its running sum. -/
def gBody1 (L : grid1.Coords) (n : ℕ) (t0 t1 t2 t3 t4 t5 t6 t7 : GStep1 n) :
    Fin n → (FVec F S16 .f32 × FVec F S16 .f32 × FVec F S16 .f32 × FVec F S16 .f32 × FVec F S16 .f32 × FVec F S16 .f32 × FVec F S16 .f32 × FVec F S16 .f32) → Prog (TpuEff nD τ sig (Elt F) Λ₀ (.scVector ((L 0).castLE hcore1) ((L 1).castLE hsub1))) (FVec F S16 .f32 × FVec F S16 .f32 × FVec F S16 .f32 × FVec F S16 .f32 × FVec F S16 .f32 × FVec F S16 .f32 × FVec F S16 .f32 × FVec F S16 .f32) :=
  fun k (a0, a1, a2, a3, a4, a5, a6, a7) => do
    let l0 ← Prog.lift (.load (Memref.whole cc1_scratch1 : Memref sig .scVector .vmem S96x512 .i32) (Rect.unit (s := S96x512) (t0.off k) S1x16.size (t0.inb k)).toLoadRect (View.loadsAt_vmem h_S1x16))
    let w0 ← Prog.lift (TpuEff.assume (t0.chk (shapeCast S16 l0 shapeCasts_S1x16_S16)) (t0.dec _))
    let g0 ← SparseCore.vectorLoadIdx (Memref.whole cc1_scratch2 : Memref sig .scVector .vmem S10000 .f32) ![shapeCast S16 l0 shapeCasts_S1x16_S16] (t0.idx _ w0.down) (View.loads_vmem h_S10000)
    let l1 ← Prog.lift (.load (Memref.whole cc1_scratch1 : Memref sig .scVector .vmem S96x512 .i32) (Rect.unit (s := S96x512) (t1.off k) S1x16.size (t1.inb k)).toLoadRect (View.loadsAt_vmem h_S1x16))
    let w1 ← Prog.lift (TpuEff.assume (t1.chk (shapeCast S16 l1 shapeCasts_S1x16_S16)) (t1.dec _))
    let g1 ← SparseCore.vectorLoadIdx (Memref.whole cc1_scratch2 : Memref sig .scVector .vmem S10000 .f32) ![shapeCast S16 l1 shapeCasts_S1x16_S16] (t1.idx _ w1.down) (View.loads_vmem h_S10000)
    let l2 ← Prog.lift (.load (Memref.whole cc1_scratch1 : Memref sig .scVector .vmem S96x512 .i32) (Rect.unit (s := S96x512) (t2.off k) S1x16.size (t2.inb k)).toLoadRect (View.loadsAt_vmem h_S1x16))
    let w2 ← Prog.lift (TpuEff.assume (t2.chk (shapeCast S16 l2 shapeCasts_S1x16_S16)) (t2.dec _))
    let g2 ← SparseCore.vectorLoadIdx (Memref.whole cc1_scratch2 : Memref sig .scVector .vmem S10000 .f32) ![shapeCast S16 l2 shapeCasts_S1x16_S16] (t2.idx _ w2.down) (View.loads_vmem h_S10000)
    let l3 ← Prog.lift (.load (Memref.whole cc1_scratch1 : Memref sig .scVector .vmem S96x512 .i32) (Rect.unit (s := S96x512) (t3.off k) S1x16.size (t3.inb k)).toLoadRect (View.loadsAt_vmem h_S1x16))
    let w3 ← Prog.lift (TpuEff.assume (t3.chk (shapeCast S16 l3 shapeCasts_S1x16_S16)) (t3.dec _))
    let g3 ← SparseCore.vectorLoadIdx (Memref.whole cc1_scratch2 : Memref sig .scVector .vmem S10000 .f32) ![shapeCast S16 l3 shapeCasts_S1x16_S16] (t3.idx _ w3.down) (View.loads_vmem h_S10000)
    let l4 ← Prog.lift (.load (Memref.whole cc1_scratch1 : Memref sig .scVector .vmem S96x512 .i32) (Rect.unit (s := S96x512) (t4.off k) S1x16.size (t4.inb k)).toLoadRect (View.loadsAt_vmem h_S1x16))
    let w4 ← Prog.lift (TpuEff.assume (t4.chk (shapeCast S16 l4 shapeCasts_S1x16_S16)) (t4.dec _))
    let g4 ← SparseCore.vectorLoadIdx (Memref.whole cc1_scratch2 : Memref sig .scVector .vmem S10000 .f32) ![shapeCast S16 l4 shapeCasts_S1x16_S16] (t4.idx _ w4.down) (View.loads_vmem h_S10000)
    let l5 ← Prog.lift (.load (Memref.whole cc1_scratch1 : Memref sig .scVector .vmem S96x512 .i32) (Rect.unit (s := S96x512) (t5.off k) S1x16.size (t5.inb k)).toLoadRect (View.loadsAt_vmem h_S1x16))
    let w5 ← Prog.lift (TpuEff.assume (t5.chk (shapeCast S16 l5 shapeCasts_S1x16_S16)) (t5.dec _))
    let g5 ← SparseCore.vectorLoadIdx (Memref.whole cc1_scratch2 : Memref sig .scVector .vmem S10000 .f32) ![shapeCast S16 l5 shapeCasts_S1x16_S16] (t5.idx _ w5.down) (View.loads_vmem h_S10000)
    let l6 ← Prog.lift (.load (Memref.whole cc1_scratch1 : Memref sig .scVector .vmem S96x512 .i32) (Rect.unit (s := S96x512) (t6.off k) S1x16.size (t6.inb k)).toLoadRect (View.loadsAt_vmem h_S1x16))
    let w6 ← Prog.lift (TpuEff.assume (t6.chk (shapeCast S16 l6 shapeCasts_S1x16_S16)) (t6.dec _))
    let g6 ← SparseCore.vectorLoadIdx (Memref.whole cc1_scratch2 : Memref sig .scVector .vmem S10000 .f32) ![shapeCast S16 l6 shapeCasts_S1x16_S16] (t6.idx _ w6.down) (View.loads_vmem h_S10000)
    let l7 ← Prog.lift (.load (Memref.whole cc1_scratch1 : Memref sig .scVector .vmem S96x512 .i32) (Rect.unit (s := S96x512) (t7.off k) S1x16.size (t7.inb k)).toLoadRect (View.loadsAt_vmem h_S1x16))
    let w7 ← Prog.lift (TpuEff.assume (t7.chk (shapeCast S16 l7 shapeCasts_S1x16_S16)) (t7.dec _))
    let g7 ← SparseCore.vectorLoadIdx (Memref.whole cc1_scratch2 : Memref sig .scVector .vmem S10000 .f32) ![shapeCast S16 l7 shapeCasts_S1x16_S16] (t7.idx _ w7.down) (View.loads_vmem h_S10000)
    pure (addf a0 g0, addf a1 g1, addf a2 g2, addf a3 g3, addf a4 g4, addf a5 g5, addf a6 g6, addf a7 g7)

/-- A stretch-1 loop's invariant: the running sums are the spec's; the index scratch and the table scratch as they stand. -/
def inv1 (A : Buf (Elt F) (iLoc d)) (Tt : Buf (Elt F) (tLoc d)) (s0 : Buf (Elt F) ((V d (cV L) (jV L)).loc cc1_scratch1)) (tv : Buf (Elt F) ((V d (cV L) (jV L)).loc cc1_scratch2))
    (c : ℕ) (k : ℕ) (acc : FVec F S16 .f32 × FVec F S16 .f32 × FVec F S16 .f32 × FVec F S16 .f32 × FVec F S16 .f32 × FVec F S16 .f32 × FVec F S16 .f32 × FVec F S16 .f32) : sProp (MM F) :=
  iprop(⌜acc = accs8 d L A Tt 104 c k⌝
    ∗ ((Memref.whole cc1_scratch1 : Memref sig .scVector .vmem S96x512 .i32).view.loc (V d (cV L) (jV L)) ↦{fullShare} s0)
    ∗ ((Memref.whole cc1_scratch2 : Memref sig .scVector .vmem S10000 .f32).view.loc (V d (cV L) (jV L)) ↦{fullShare} tv))

theorem region1 (A : Buf (Elt F) (iLoc d)) (Tt : Buf (Elt F) (tLoc d)) (s0 : Buf (Elt F) ((V d (cV L) (jV L)).loc cc1_scratch1)) (tv : Buf (Elt F) ((V d (cV L) (jV L)).loc cc1_scratch2))
    (hin : ∀ i, (A i).toNat < 10000)
    (hs0 : ∀ y, (s0 y).toNat = Cert.TileSpec.idxAt A (104 + (y 0).val) (colBase L + (y 1).val))
    (htv : ∀ y, tv y = Cert.TileSpec.tAt Tt (y 0).val)
    (c : ℕ) (n : ℕ) (t0 t1 t2 t3 t4 t5 t6 t7 : GStep1 n)
    (h0 : ∀ k, (t0.off k) 0 = 8 * k.val + 0 ∧ (t0.off k) 1 = c)
    (h1 : ∀ k, (t1.off k) 0 = 8 * k.val + 1 ∧ (t1.off k) 1 = c)
    (h2 : ∀ k, (t2.off k) 0 = 8 * k.val + 2 ∧ (t2.off k) 1 = c)
    (h3 : ∀ k, (t3.off k) 0 = 8 * k.val + 3 ∧ (t3.off k) 1 = c)
    (h4 : ∀ k, (t4.off k) 0 = 8 * k.val + 4 ∧ (t4.off k) 1 = c)
    (h5 : ∀ k, (t5.off k) 0 = 8 * k.val + 5 ∧ (t5.off k) 1 = c)
    (h6 : ∀ k, (t6.off k) 0 = 8 * k.val + 6 ∧ (t6.off k) 1 = c)
    (h7 : ∀ k, (t7.off k) 0 = 8 * k.val + 7 ∧ (t7.off k) 1 = c)
    (k : Fin n) (acc : FVec F S16 .f32 × FVec F S16 .f32 × FVec F S16 .f32 × FVec F S16 .f32 × FVec F S16 .f32 × FVec F S16 .f32 × FVec F S16 .f32 × FVec F S16 .f32) :
    inv1 d L A Tt s0 tv c k acc
      ⊢ wp frame (wpE (defs₀ (F := F)) 𝒱₀ (V d (cV L) (jV L)) none) Set.univ (gBody1 L n t0 t1 t2 t3 t4 t5 t6 t7 k acc) (inv1 d L A Tt s0 tv c (k.val + 1)) := by
  obtain ⟨a0, a1, a2, a3, a4, a5, a6, a7⟩ := acc
  unfold gBody1
  simp only [Prog.lift, Prog.bind_op, Prog.bind_ret, Prog.pure_eq_ret]
  unfold inv1
  iintro ⟨%hacc, Hs0, Hs2⟩
  ihave Hs2 := (Entails.of_eq (pts_s2_access (F := F) d L _).symm) $$ Hs2
  iapply (wp_load 𝒱₀ (V d (cV L) (jV L)) none Set.univ (m := (Memref.whole cc1_scratch1 : Memref sig .scVector .vmem S96x512 .i32)) (S := Finset.univ) (Finset.subset_univ _)) $$ Hs0; iintro Hs0
  rw [wp_assume_of _ _ _ _ (t0.ok _ (chk_rd1 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  iapply (wp_load 𝒱₀ (V d (cV L) (jV L)) none Set.univ (m := (Memref.whole cc1_scratch1 : Memref sig .scVector .vmem S96x512 .i32)) (S := Finset.univ) (Finset.subset_univ _)) $$ Hs0; iintro Hs0
  rw [wp_assume_of _ _ _ _ (t1.ok _ (chk_rd1 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  iapply (wp_load 𝒱₀ (V d (cV L) (jV L)) none Set.univ (m := (Memref.whole cc1_scratch1 : Memref sig .scVector .vmem S96x512 .i32)) (S := Finset.univ) (Finset.subset_univ _)) $$ Hs0; iintro Hs0
  rw [wp_assume_of _ _ _ _ (t2.ok _ (chk_rd1 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  iapply (wp_load 𝒱₀ (V d (cV L) (jV L)) none Set.univ (m := (Memref.whole cc1_scratch1 : Memref sig .scVector .vmem S96x512 .i32)) (S := Finset.univ) (Finset.subset_univ _)) $$ Hs0; iintro Hs0
  rw [wp_assume_of _ _ _ _ (t3.ok _ (chk_rd1 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  iapply (wp_load 𝒱₀ (V d (cV L) (jV L)) none Set.univ (m := (Memref.whole cc1_scratch1 : Memref sig .scVector .vmem S96x512 .i32)) (S := Finset.univ) (Finset.subset_univ _)) $$ Hs0; iintro Hs0
  rw [wp_assume_of _ _ _ _ (t4.ok _ (chk_rd1 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  iapply (wp_load 𝒱₀ (V d (cV L) (jV L)) none Set.univ (m := (Memref.whole cc1_scratch1 : Memref sig .scVector .vmem S96x512 .i32)) (S := Finset.univ) (Finset.subset_univ _)) $$ Hs0; iintro Hs0
  rw [wp_assume_of _ _ _ _ (t5.ok _ (chk_rd1 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  iapply (wp_load 𝒱₀ (V d (cV L) (jV L)) none Set.univ (m := (Memref.whole cc1_scratch1 : Memref sig .scVector .vmem S96x512 .i32)) (S := Finset.univ) (Finset.subset_univ _)) $$ Hs0; iintro Hs0
  rw [wp_assume_of _ _ _ _ (t6.ok _ (chk_rd1 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  iapply (wp_load 𝒱₀ (V d (cV L) (jV L)) none Set.univ (m := (Memref.whole cc1_scratch1 : Memref sig .scVector .vmem S96x512 .i32)) (S := Finset.univ) (Finset.subset_univ _)) $$ Hs0; iintro Hs0
  rw [wp_assume_of _ _ _ _ (t7.ok _ (chk_rd1 d L A hin s0 hs0 _ _))]
  iapply (SparseCore.wp_vectorLoadIdx 𝒱₀ (V d (cV L) (jV L)) none Set.univ (base := (Memref.whole cc1_scratch2 : Memref sig .scVector .vmem S10000 .f32)) (S := Finset.univ) (q := fullShare) (Finset.subset_univ _)) $$ Hs2; iintro Hs2
  rw [wp_ret]; imodintro
  isplitr
  · ipureintro
    unfold accs8 at hacc ⊢
    obtain ⟨e0, e1, e2, e3, e4, e5, e6, e7⟩ : a0 = accV d L A Tt 104 c 0 k.val ∧ a1 = accV d L A Tt 104 c 1 k.val ∧ a2 = accV d L A Tt 104 c 2 k.val ∧ a3 = accV d L A Tt 104 c 3 k.val ∧ a4 = accV d L A Tt 104 c 4 k.val ∧ a5 = accV d L A Tt 104 c 5 k.val ∧ a6 = accV d L A Tt 104 c 6 k.val ∧ a7 = accV d L A Tt 104 c 7 k.val := by
      simp only [Prod.mk.injEq] at hacc; exact hacc
    refine Prod.ext ?_ (Prod.ext ?_ (Prod.ext ?_ (Prod.ext ?_ (Prod.ext ?_ (Prod.ext ?_ (Prod.ext ?_ ?_))))))
    · exact acc_step d L A Tt 104 c 0 k.val _ e0 _ (fun x => gather_val1 d L A Tt s0 tv hs0 htv _ _ _ _ (h0 k).1 (h0 k).2 _ x)
    · exact acc_step d L A Tt 104 c 1 k.val _ e1 _ (fun x => gather_val1 d L A Tt s0 tv hs0 htv _ _ _ _ (h1 k).1 (h1 k).2 _ x)
    · exact acc_step d L A Tt 104 c 2 k.val _ e2 _ (fun x => gather_val1 d L A Tt s0 tv hs0 htv _ _ _ _ (h2 k).1 (h2 k).2 _ x)
    · exact acc_step d L A Tt 104 c 3 k.val _ e3 _ (fun x => gather_val1 d L A Tt s0 tv hs0 htv _ _ _ _ (h3 k).1 (h3 k).2 _ x)
    · exact acc_step d L A Tt 104 c 4 k.val _ e4 _ (fun x => gather_val1 d L A Tt s0 tv hs0 htv _ _ _ _ (h4 k).1 (h4 k).2 _ x)
    · exact acc_step d L A Tt 104 c 5 k.val _ e5 _ (fun x => gather_val1 d L A Tt s0 tv hs0 htv _ _ _ _ (h5 k).1 (h5 k).2 _ x)
    · exact acc_step d L A Tt 104 c 6 k.val _ e6 _ (fun x => gather_val1 d L A Tt s0 tv hs0 htv _ _ _ _ (h6 k).1 (h6 k).2 _ x)
    · exact acc_step d L A Tt 104 c 7 k.val _ e7 _ (fun x => gather_val1 d L A Tt s0 tv hs0 htv _ _ _ _ (h7 k).1 (h7 k).2 _ x)
  isplitl [Hs0]
  · iexact Hs0
  · iapply (Entails.of_eq (pts_s2_access (F := F) d L _)); iexact Hs2

/-! ## What the sums scratch holds from block to block -/

/-- A stretch's total for the tile's column `b`: `n` rounds of eight positions from position `r0`. -/
def colS (A : Buf (Elt F) (iLoc d)) (Tt : Buf (Elt F) (tLoc d)) (r0 n b : ℕ) : F .f32 :=
  Cert.TileSpec.stretch (fun h => term d L A Tt r0 b h) n

/-- The sums scratch while the first stretch is stored: its first `n` blocks hold their columns' first-stretch totals. -/
def out1 (A : Buf (Elt F) (iLoc d)) (Tt : Buf (Elt F) (tLoc d)) (f3 : Buf (Elt F) ((V d (cV L) (jV L)).loc cc1_scratch3)) (n : ℕ) :
    Buf (Elt F) ((V d (cV L) (jV L)).loc cc1_scratch3) :=
  fun x => if (x 0).val < 16 * n then colS d L A Tt 0 13 (x 0).val else f3 x

/-- The sums scratch while the second stretch is added: its first `n` blocks hold their columns' whole sums, the rest the first-stretch totals. -/
def out2 (A : Buf (Elt F) (iLoc d)) (Tt : Buf (Elt F) (tLoc d)) (n : ℕ) :
    Buf (Elt F) ((V d (cV L) (jV L)).loc cc1_scratch3) :=
  fun x => if (x 0).val < 16 * n then FloatOps.addf (colS d L A Tt 0 13 (x 0).val) (colS d L A Tt 104 12 (x 0).val) else colS d L A Tt 0 13 (x 0).val

theorem out1_zero (A : Buf (Elt F) (iLoc d)) (Tt : Buf (Elt F) (tLoc d)) (f3 : Buf (Elt F) ((V d (cV L) (jV L)).loc cc1_scratch3)) : out1 d L A Tt f3 0 = f3 := by
  funext x; unfold out1; rw [if_neg (by omega)]

theorem out1_full (A : Buf (Elt F) (iLoc d)) (Tt : Buf (Elt F) (tLoc d)) (f3 : Buf (Elt F) ((V d (cV L) (jV L)).loc cc1_scratch3)) : out1 d L A Tt f3 32 = out2 d L A Tt 0 := by
  funext x
  have hx : (x 0).val < 512 := (x 0).isLt
  unfold out1 out2; rw [if_pos (by omega), if_neg (by omega)]

/-- Eight running sums added up are the stretch's total, lane by lane. -/
theorem nested_apply (A : Buf (Elt F) (iLoc d)) (Tt : Buf (Elt F) (tLoc d)) (r0 c n : ℕ) (x : S16.Idx) :
    (addf (addf (addf (addf (addf (addf (addf (accV d L A Tt r0 c 0 n) (accV d L A Tt r0 c 1 n)) (accV d L A Tt r0 c 2 n)) (accV d L A Tt r0 c 3 n)) (accV d L A Tt r0 c 4 n)) (accV d L A Tt r0 c 5 n)) (accV d L A Tt r0 c 6 n)) (accV d L A Tt r0 c 7 n)) x = colS d L A Tt r0 n (c + (x 0).val) := rfl

/-- One stored block over a function of the column: inside the block the payload, outside what was there. -/
theorem writes_block (g g' : Buf (Elt F) ((V d (cV L) (jV L)).loc cc1_scratch3)) (o : ℕ) (inb : ∀ a, (![o] : Fin 1 → ℕ) a + S16.size a ≤ S512.size a)
    (P : S16.Idx → F .f32)
    (hin : ∀ x : S16.Idx, ∀ y : S512.Idx, (y 0).val = o + (x 0).val → g' y = P x)
    (hout : ∀ y : S512.Idx, ((y 0).val < o ∨ o + 16 ≤ (y 0).val) → g' y = g y) :
    (Memref.whole cc1_scratch3 : Memref sig .scVector .vmem S512 .f32).view.writes (Elt F) g [⟨Rect.unit (s := S512) ![o] S16.size inb, P⟩] = g' := by
  funext y
  by_cases hy : o ≤ (y 0).val ∧ (y 0).val < o + 16
  · have hx : (y 0).val - o < 16 := by omega
    let x : S16.Idx := ValueIdx.ix1 ⟨(y 0).val - o, hx⟩
    have hemb : (Rect.unit (s := S512) ![o] S16.size inb).emb x = y := by
      funext a
      obtain rfl : a = 0 := Subsingleton.elim _ _
      apply Fin.ext
      show o + 1 * ((y 0).val - o) = (y 0).val
      omega
    have h1 := View.read_writes_cons_emb (Val := Elt F) (Memref.whole cc1_scratch3 : Memref sig .scVector .vmem S512 .f32).view g (Rect.unit (s := S512) ![o] S16.size inb) P [] x
    rw [hemb] at h1
    rw [hin x y (by show (y 0).val = o + ((y 0).val - o); omega)]
    exact h1
  · have h1 := View.read_writes_apply_of_forall_not_mem (Val := Elt F) (Memref.whole cc1_scratch3 : Memref sig .scVector .vmem S512 .f32).view g y [⟨Rect.unit (s := S512) ![o] S16.size inb, P⟩] (by
      intro p hp
      rw [List.mem_singleton] at hp
      subst hp
      rw [Rect.mem_set_unit]
      intro hm
      have := hm 0
      simp only [Matrix.cons_val_zero] at this
      apply hy
      have e16 : S16.size 0 = 16 := rfl
      omega)
    rw [hout y (by omega)]
    exact h1

theorem trips13 : Scf.trips (0#32) (Scalar.addi 0#32 13#32) (1#32) = 13 := by decide
theorem trips12 : Scf.trips (0#32) (Scalar.addi 0#32 12#32) (1#32) = 12 := by decide

/-- A first-stretch block stored: block `j` now holds its columns' totals. -/
theorem s3_step0 (A : Buf (Elt F) (iLoc d)) (Tt : Buf (Elt F) (tLoc d)) (f3 : Buf (Elt F) ((V d (cV L) (jV L)).loc cc1_scratch3))
    (j j' o : ℕ) (ho : o = 16 * j) (hj' : j' = j + 1) (inb : ∀ a, (![o] : Fin 1 → ℕ) a + S16.size a ≤ S512.size a) :
    ((Memref.whole cc1_scratch3 : Memref sig .scVector .vmem S512 .f32).view.loc (V d (cV L) (jV L)) ↦{fullShare}
        (Memref.whole cc1_scratch3 : Memref sig .scVector .vmem S512 .f32).view.writes (Elt F) (out1 d L A Tt f3 j) [⟨Rect.unit (s := S512) ![o] S16.size inb, (addf (addf (addf (addf (addf (addf (addf (accV d L A Tt 0 o 0 13) (accV d L A Tt 0 o 1 13)) (accV d L A Tt 0 o 2 13)) (accV d L A Tt 0 o 3 13)) (accV d L A Tt 0 o 4 13)) (accV d L A Tt 0 o 5 13)) (accV d L A Tt 0 o 6 13)) (accV d L A Tt 0 o 7 13))⟩] : sProp (MM F))
      = ((Memref.whole cc1_scratch3 : Memref sig .scVector .vmem S512 .f32).view.loc (V d (cV L) (jV L)) ↦{fullShare} out1 d L A Tt f3 j') := by
  congr 1
  refine writes_block d L _ _ o inb _ ?_ ?_
  · intro x y hy
    have hx : (x 0).val < 16 := (x 0).isLt
    rw [nested_apply]; subst ho hj'; unfold out1; rw [if_pos (by omega), hy]
  · intro y hy
    subst ho hj'; unfold out1
    rcases hy with hy | hy
    · rw [if_pos (by omega), if_pos (by omega)]
    · rw [if_neg (by omega), if_neg (by omega)]

theorem out2_of_lt (A : Buf (Elt F) (iLoc d)) (Tt : Buf (Elt F) (tLoc d)) (n : ℕ) (z : S512.Idx) (hz : (z 0).val < 16 * n) :
    out2 d L A Tt n z = FloatOps.addf (colS d L A Tt 0 13 (z 0).val) (colS d L A Tt 104 12 (z 0).val) := by
  unfold out2; rw [if_pos hz]
theorem out2_of_ge (A : Buf (Elt F) (iLoc d)) (Tt : Buf (Elt F) (tLoc d)) (n : ℕ) (z : S512.Idx) (hz : 16 * n ≤ (z 0).val) :
    out2 d L A Tt n z = colS d L A Tt 0 13 (z 0).val := by
  unfold out2; rw [if_neg (by omega)]

/-- A second-stretch block added: block `j` now holds its columns' whole sums. -/
theorem s3_eq1 (A : Buf (Elt F) (iLoc d)) (Tt : Buf (Elt F) (tLoc d))
    (j j' o : ℕ) (ho : o = 16 * j) (hj' : j' = j + 1) (inb : ∀ a, (![o] : Fin 1 → ℕ) a + S16.size a ≤ S512.size a) :
    (Memref.whole cc1_scratch3 : Memref sig .scVector .vmem S512 .f32).view.writes (Elt F) (out2 d L A Tt j) [⟨Rect.unit (s := S512) ![o] S16.size inb,
          addf ((Memref.whole cc1_scratch3 : Memref sig .scVector .vmem S512 .f32).view.readAt (Elt F) (Rect.unit (s := S512) ![o] S16.size inb).toLoadRect (out2 d L A Tt j)) (addf (addf (addf (addf (addf (addf (addf (accV d L A Tt 104 o 0 12) (accV d L A Tt 104 o 1 12)) (accV d L A Tt 104 o 2 12)) (accV d L A Tt 104 o 3 12)) (accV d L A Tt 104 o 4 12)) (accV d L A Tt 104 o 5 12)) (accV d L A Tt 104 o 6 12)) (accV d L A Tt 104 o 7 12))⟩]
      = out2 d L A Tt j' := by
  refine writes_block d L _ _ o inb _ ?_ ?_
  · intro x y hy
    have hx : (x 0).val < 16 := (x 0).isLt
    subst ho hj'
    show _ = FloatOps.addf (out2 d L A Tt j ((Rect.unit (s := S512) ![16 * j] S16.size inb).toLoadRect.idx x)) ((addf (addf (addf (addf (addf (addf (addf (accV d L A Tt 104 (16 * j) 0 12) (accV d L A Tt 104 (16 * j) 1 12)) (accV d L A Tt 104 (16 * j) 2 12)) (accV d L A Tt 104 (16 * j) 3 12)) (accV d L A Tt 104 (16 * j) 4 12)) (accV d L A Tt 104 (16 * j) 5 12)) (accV d L A Tt 104 (16 * j) 6 12)) (accV d L A Tt 104 (16 * j) 7 12)) x)
    rw [nested_apply, out2_of_lt d L A Tt (j + 1) y (by omega),
      out2_of_ge d L A Tt j ((Rect.unit (s := S512) ![16 * j] S16.size inb).toLoadRect.idx x) (by show 16 * j ≤ 16 * j + 1 * (x 0).val; omega)]
    show FloatOps.addf (colS d L A Tt 0 13 (y 0).val) (colS d L A Tt 104 12 (y 0).val)
      = FloatOps.addf (colS d L A Tt 0 13 (16 * j + 1 * (x 0).val)) (colS d L A Tt 104 12 (16 * j + (x 0).val))
    rw [hy, Nat.one_mul]
  · intro y hy
    subst ho hj'
    rcases hy with hy | hy
    · rw [out2_of_lt d L A Tt (j + 1) y (by omega), out2_of_lt d L A Tt j y (by omega)]
    · rw [out2_of_ge d L A Tt (j + 1) y (by omega), out2_of_ge d L A Tt j y (by omega)]

theorem s3_step1 (A : Buf (Elt F) (iLoc d)) (Tt : Buf (Elt F) (tLoc d))
    (j j' o : ℕ) (ho : o = 16 * j) (hj' : j' = j + 1) (inb : ∀ a, (![o] : Fin 1 → ℕ) a + S16.size a ≤ S512.size a) :
    ((Memref.whole cc1_scratch3 : Memref sig .scVector .vmem S512 .f32).view.loc (V d (cV L) (jV L)) ↦{fullShare}
        (Memref.whole cc1_scratch3 : Memref sig .scVector .vmem S512 .f32).view.writes (Elt F) (out2 d L A Tt j) [⟨Rect.unit (s := S512) ![o] S16.size inb,
          addf ((Memref.whole cc1_scratch3 : Memref sig .scVector .vmem S512 .f32).view.readAt (Elt F) (Rect.unit (s := S512) ![o] S16.size inb).toLoadRect (out2 d L A Tt j)) (addf (addf (addf (addf (addf (addf (addf (accV d L A Tt 104 o 0 12) (accV d L A Tt 104 o 1 12)) (accV d L A Tt 104 o 2 12)) (accV d L A Tt 104 o 3 12)) (accV d L A Tt 104 o 4 12)) (accV d L A Tt 104 o 5 12)) (accV d L A Tt 104 o 6 12)) (accV d L A Tt 104 o 7 12))⟩] : sProp (MM F))
      = ((Memref.whole cc1_scratch3 : Memref sig .scVector .vmem S512 .f32).view.loc (V d (cV L) (jV L)) ↦{fullShare} out2 d L A Tt j') :=
  congrArg (fun f => ((Memref.whole cc1_scratch3 : Memref sig .scVector .vmem S512 .f32).view.loc (V d (cV L) (jV L)) ↦{fullShare} f : sProp (MM F))) (s3_eq1 d L A Tt j j' o ho hj' inb)

/-- Contents that read as the whole sums through the tile's 512 output entries are the spec's output there. -/
theorem out_lands_of (A : Buf (Elt F) (iLoc d)) (Tt : Buf (Elt F) (tLoc d)) (g : Buf (Elt F) (oLoc d))
    (hg : ∀ x : S512.Idx, g ((oSl L).view.emb x) = out2 d L A Tt 32 x) :
    ((oSl L).view.loc (V d (cV L) (jV L)) ↦[(oSl L).view.set]{fullShare} g : sProp (MM F))
      = (oLoc d ↦[oSet L]{fullShare} Cert.TileSpec.out (F := F) A Tt) := by
  refine (pointsTo_congr ?_ : _ = (((oSl L).view.loc (V d (cV L) (jV L)) ↦[(oSl L).view.set]{fullShare} (Cert.TileSpec.out (F := F) A Tt : Buf (Elt F) (oLoc d))) : sProp (MM F)))
  intro i hi
  rw [show (oSl L).view.set = (Rect.unit (s := S16384) (k1_off515 L) S512.size (k1_off515_inb L)).set from View.set_slice_whole _ _, Rect.mem_set_unit] at hi
  have h0 := hi 0
  have q : k1_off515 L 0 = colBase L := congrFun (k1_off515_eq L) 0
  rw [q] at h0
  have e512 : S512.size 0 = 512 := rfl
  rw [e512] at h0
  have hx : (i 0).val - colBase L < 512 := by omega
  let x : S512.Idx := ValueIdx.ix1 ⟨(i 0).val - colBase L, hx⟩
  have hemb : (oSl L).view.emb x = i := by
    refine ((ValueIdx.eq_ix1 (n := 16384) ((oSl L).view.emb x)).trans ?_).trans (ValueIdx.eq_ix1 (n := 16384) i).symm
    congr 1; apply Fin.ext
    show k1_off515 L 0 + 1 * ((i 0).val - colBase L) = (i 0).val
    rw [q]; omega
  have hgx := hg x
  rw [hemb] at hgx
  rw [hgx, out2_of_lt d L A Tt 32 x (show (i 0).val - colBase L < 16 * 32 from hx)]
  show FloatOps.addf (colS d L A Tt 0 13 ((i 0).val - colBase L)) (colS d L A Tt 104 12 ((i 0).val - colBase L)) = _
  unfold colS term Cert.TileSpec.out Cert.TileSpec.bag
  have e : colBase L + ((i 0).val - colBase L) = (i 0).val := by omega
  simp only [Nat.zero_add, e]

/-- The copy-out of the sums scratch, as the last block's store leaves it, lands the spec's output on the tile's entries. -/
theorem out_lands_last (A : Buf (Elt F) (iLoc d)) (Tt : Buf (Elt F) (tLoc d)) (fo : Buf (Elt F) (oLoc d)) (inb : ∀ a, (![496] : Fin 1 → ℕ) a + S16.size a ≤ S512.size a) :
    ((oSl L).view.loc (V d (cV L) (jV L)) ↦[(oSl L).view.set]{fullShare}
        (oSl L).view.writes (Elt F) fo [⟨Rect.whole S512, ReadAs.same.apply ((Memref.whole cc1_scratch3 : Memref sig .scVector .vmem S512 .f32).view.read (Elt F)
          ((Memref.whole cc1_scratch3 : Memref sig .scVector .vmem S512 .f32).view.writes (Elt F) (out2 d L A Tt 31) [⟨Rect.unit (s := S512) ![496] S16.size inb,
            addf ((Memref.whole cc1_scratch3 : Memref sig .scVector .vmem S512 .f32).view.readAt (Elt F) (Rect.unit (s := S512) ![496] S16.size inb).toLoadRect (out2 d L A Tt 31)) (addf (addf (addf (addf (addf (addf (addf (accV d L A Tt 104 496 0 12) (accV d L A Tt 104 496 1 12)) (accV d L A Tt 104 496 2 12)) (accV d L A Tt 104 496 3 12)) (accV d L A Tt 104 496 4 12)) (accV d L A Tt 104 496 5 12)) (accV d L A Tt 104 496 6 12)) (accV d L A Tt 104 496 7 12))⟩]))⟩] : sProp (MM F))
      = (oLoc d ↦[oSet L]{fullShare} Cert.TileSpec.out (F := F) A Tt) := by
  refine out_lands_of d L A Tt _ (fun x => ?_)
  have h1 := View.read_writes_cons_emb (Val := Elt F) (oSl L).view fo (Rect.whole S512) (ReadAs.same.apply ((Memref.whole cc1_scratch3 : Memref sig .scVector .vmem S512 .f32).view.read (Elt F)
          ((Memref.whole cc1_scratch3 : Memref sig .scVector .vmem S512 .f32).view.writes (Elt F) (out2 d L A Tt 31) [⟨Rect.unit (s := S512) ![496] S16.size inb,
            addf ((Memref.whole cc1_scratch3 : Memref sig .scVector .vmem S512 .f32).view.readAt (Elt F) (Rect.unit (s := S512) ![496] S16.size inb).toLoadRect (out2 d L A Tt 31)) (addf (addf (addf (addf (addf (addf (addf (accV d L A Tt 104 496 0 12) (accV d L A Tt 104 496 1 12)) (accV d L A Tt 104 496 2 12)) (accV d L A Tt 104 496 3 12)) (accV d L A Tt 104 496 4 12)) (accV d L A Tt 104 496 5 12)) (accV d L A Tt 104 496 6 12)) (accV d L A Tt 104 496 7 12))⟩]))) [] x
  rw [Rect.emb_whole_apply, View.read_apply] at h1
  simp only [cast_eq] at h1
  rw [h1]
  exact congrFun (s3_eq1 d L A Tt 31 32 496 rfl rfl inb) x

end Cert.Proof.KB

end
-- ==== Proof.TileKB.lean ====
/-
  One vector subcore's run of the summing kernel, at a symbolic tile and for every float instance: from a read share of
  the transposed index array (every word a table row) and of the folded table, the tile's 512 output entries and the
  subcore's own scratch and semaphores, the kernel ends holding the same, the 512 entries now the spec's sums. The three
  inbound copies land; each of the 64 gather loops runs by the one round lemma at its own places, its eight running sums
  then added up and stored (first stretch) or added onto what the block holds (second stretch); the copy-out lands the
  sums scratch on the tile's output entries.
-/
import proofs.«205085_g3753801417095_cont_8to1_b_1540_27_alg».proof.Proof.CommonKB
import proofs.«205085_g3753801417095_cont_8to1_b_1540_27_alg».proof.Proof.TileDefsKB
import proofs.«205085_g3753801417095_cont_8to1_b_1540_27_alg».proof.Proof.TileSpec
import proofs.«205085_g3753801417095_cont_8to1_b_1540_27_alg».proof.Proof.TileGenKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (d : Dev nD) (L : grid1.Coords)

set_option maxHeartbeats 400000000 in
set_option maxRecDepth 65536 in
theorem tile_body (hF : (K (F := F)).Facts) (qi qt : PosShare TreeShare) (A : Buf (Elt F) (iLoc d)) (Tt : Buf (Elt F) (tLoc d)) (fo : Buf (Elt F) (oLoc d))
    (hin : ∀ i, (A i).toNat < 10000) (O : CellTallies nD τ sig (HIx 1)) (W : Waits sig (HIx 1)) (hO : ∀ g, O g none = 0) :
    iprop(levAts (K (F := F)).L (K (F := F)).lev ∗ (iLoc d ↦{qi} A) ∗ (tLoc d ↦{qt} Tt) ∗ (oLoc d ↦[oSet L]{fullShare} fo)
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc1__sc_sum L (Memref.whole main_v0_scv) (Memref.isWhole_whole _) (Memref.whole main_v8_scv) (Memref.isWhole_whole _) (Memref.whole main_v9_scv) (Memref.isWhole_whole _)
            (Memref.whole cc1_scratch0) (Memref.isWhole_whole _) (Memref.whole cc1_scratch1) (Memref.isWhole_whole _) (Memref.whole cc1_scratch2) (Memref.isWhole_whole _) (Memref.whole cc1_scratch3) (Memref.isWhole_whole _)
            cc1_scratch4 cc1_scratch5 cc1_scoped0 cc1_scoped1)
          fun _ => iprop((iLoc d ↦{qi} A) ∗ (tLoc d ↦{qt} Tt) ∗ (oLoc d ↦[oSet L]{fullShare} (Cert.TileSpec.out (F := F) A Tt))
            ∗ scopedBufs (V d (cV L) (jV L)) ∗ scopedSems0 (V d (cV L) (jV L)) ∗ ∃ W', ⌜∀ p ∈ W', p ∈ W ∨ p.2 = none⌝ ∗ owes (V d (cV L) (jV L)) O W') : sProp (MM F)) := by
  simp only [cc1__sc_sum_eq_skeleton]; unfold cc1__sc_sum_skel
  rw [(K (F := F)).scopedBufs_V hF d (cV L) (jV L), SparseCore.Cfg.scopedSems0_V (Val := Elt F) d (cV L) (jV L), ownSems0_V, ownBufs_V]
  iintro ⟨#Hlv, Hi, Ht, Ho, ⟨⟨%f0, Hs0⟩, ⟨%f1, Hs1⟩, ⟨%f2, Hs2⟩, ⟨%f3, Hs3⟩, Hbufs⟩, ⟨HsemA, HsemB, HsemC, HsemD, Hsems⟩, HO⟩
  ihave Hmw := ((K (F := F)).mayWaits_none (thr := V d (cV L) (jV L)) hO) $$ Hlv
  ihave Hi' := (Entails.of_eq (pts_i (F := F) d L _ _).symm) $$ Hi
  ihave Ht' := (Entails.of_eq (pts_t (F := F) d L _ _).symm) $$ Ht
  ihave Ho' := (Entails.of_eq (pts_o (F := F) d L _).symm) $$ Ho
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  ihave Hs3' := (Entails.of_eq ((pts_s3 (F := F) d L _).symm.trans (congrArg (fun f => ((Memref.whole cc1_scratch3 : Memref sig .scVector .vmem S512 .f32).view.loc (V d (cV L) (jV L)) ↦{fullShare} f : sProp (MM F))) (out1_zero d L A Tt f3).symm))) $$ Hs3
  sl_exec
  sl_unfold_run_names
  unfold_pays
  ihave Hs0' := (Entails.of_eq (land0 (F := F) d L A f0)) $$ Hs0'
  ihave Hs2' := (Entails.of_eq (land2 (F := F) d L Tt f2)) $$ Hs2'
  -- block 1
  sl_for (inv0 d L A Tt (s0c d L A) (tvc d L Tt) 0) $$ [Hs0' Hs2']
  case region =>
    exact region0 d L A Tt (s0c d L A) (tvc d L Tt) hin (hs0c d L A) (htvc d L Tt) 0 _ (⟨k1_off3, k1_off3_inb, k1_chk1, k1_chk1.dec, k1_idx1_inb, fun _ h => h⟩) (⟨k1_off4, k1_off4_inb, k1_chk2, k1_chk2.dec, k1_idx2_inb, fun _ h => h⟩) (⟨k1_off5, k1_off5_inb, k1_chk3, k1_chk3.dec, k1_idx3_inb, fun _ h => h⟩) (⟨k1_off6, k1_off6_inb, k1_chk4, k1_chk4.dec, k1_idx4_inb, fun _ h => h⟩) (⟨k1_off7, k1_off7_inb, k1_chk5, k1_chk5.dec, k1_idx5_inb, fun _ h => h⟩) (⟨k1_off8, k1_off8_inb, k1_chk6, k1_chk6.dec, k1_idx6_inb, fun _ h => h⟩) (⟨k1_off9, k1_off9_inb, k1_chk7, k1_chk7.dec, k1_idx7_inb, fun _ h => h⟩) (⟨k1_off10, k1_off10_inb, k1_chk8, k1_chk8.dec, k1_idx8_inb, fun _ h => h⟩) (fun k => ⟨congrFun (k1_off3_eq k) 0, congrFun (k1_off3_eq k) 1⟩) (fun k => ⟨congrFun (k1_off4_eq k) 0, congrFun (k1_off4_eq k) 1⟩) (fun k => ⟨congrFun (k1_off5_eq k) 0, congrFun (k1_off5_eq k) 1⟩) (fun k => ⟨congrFun (k1_off6_eq k) 0, congrFun (k1_off6_eq k) 1⟩) (fun k => ⟨congrFun (k1_off7_eq k) 0, congrFun (k1_off7_eq k) 1⟩) (fun k => ⟨congrFun (k1_off8_eq k) 0, congrFun (k1_off8_eq k) 1⟩) (fun k => ⟨congrFun (k1_off9_eq k) 0, congrFun (k1_off9_eq k) 1⟩) (fun k => ⟨congrFun (k1_off10_eq k) 0, congrFun (k1_off10_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t1_loop.lb k1_t1_loop.ub k1_t1_loop.st = 13 from trips13] at hacc
  subst hacc
  sl_exec
  sl_unfold_run_names
  unfold_pays
  ihave Hs3' := (Entails.of_eq (s3_step0 (F := F) d L A Tt f3 0 1 0 rfl rfl inb_S512_S16_0)) $$ Hs3'
  -- block 2
  sl_for (inv0 d L A Tt (s0c d L A) (tvc d L Tt) 16) $$ [Hs0' Hs2']
  case region =>
    exact region0 d L A Tt (s0c d L A) (tvc d L Tt) hin (hs0c d L A) (htvc d L Tt) 16 _ (⟨k1_off11, k1_off11_inb, k1_chk9, k1_chk9.dec, k1_idx9_inb, fun _ h => h⟩) (⟨k1_off12, k1_off12_inb, k1_chk10, k1_chk10.dec, k1_idx10_inb, fun _ h => h⟩) (⟨k1_off13, k1_off13_inb, k1_chk11, k1_chk11.dec, k1_idx11_inb, fun _ h => h⟩) (⟨k1_off14, k1_off14_inb, k1_chk12, k1_chk12.dec, k1_idx12_inb, fun _ h => h⟩) (⟨k1_off15, k1_off15_inb, k1_chk13, k1_chk13.dec, k1_idx13_inb, fun _ h => h⟩) (⟨k1_off16, k1_off16_inb, k1_chk14, k1_chk14.dec, k1_idx14_inb, fun _ h => h⟩) (⟨k1_off17, k1_off17_inb, k1_chk15, k1_chk15.dec, k1_idx15_inb, fun _ h => h⟩) (⟨k1_off18, k1_off18_inb, k1_chk16, k1_chk16.dec, k1_idx16_inb, fun _ h => h⟩) (fun k => ⟨congrFun (k1_off11_eq k) 0, congrFun (k1_off11_eq k) 1⟩) (fun k => ⟨congrFun (k1_off12_eq k) 0, congrFun (k1_off12_eq k) 1⟩) (fun k => ⟨congrFun (k1_off13_eq k) 0, congrFun (k1_off13_eq k) 1⟩) (fun k => ⟨congrFun (k1_off14_eq k) 0, congrFun (k1_off14_eq k) 1⟩) (fun k => ⟨congrFun (k1_off15_eq k) 0, congrFun (k1_off15_eq k) 1⟩) (fun k => ⟨congrFun (k1_off16_eq k) 0, congrFun (k1_off16_eq k) 1⟩) (fun k => ⟨congrFun (k1_off17_eq k) 0, congrFun (k1_off17_eq k) 1⟩) (fun k => ⟨congrFun (k1_off18_eq k) 0, congrFun (k1_off18_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t2_loop.lb k1_t2_loop.ub k1_t2_loop.st = 13 from trips13] at hacc
  subst hacc
  sl_exec
  sl_unfold_run_names
  unfold_pays
  ihave Hs3' := (Entails.of_eq (s3_step0 (F := F) d L A Tt f3 1 2 16 rfl rfl inb_S512_S16_16)) $$ Hs3'
  -- block 3
  sl_for (inv0 d L A Tt (s0c d L A) (tvc d L Tt) 32) $$ [Hs0' Hs2']
  case region =>
    exact region0 d L A Tt (s0c d L A) (tvc d L Tt) hin (hs0c d L A) (htvc d L Tt) 32 _ (⟨k1_off19, k1_off19_inb, k1_chk17, k1_chk17.dec, k1_idx17_inb, fun _ h => h⟩) (⟨k1_off20, k1_off20_inb, k1_chk18, k1_chk18.dec, k1_idx18_inb, fun _ h => h⟩) (⟨k1_off21, k1_off21_inb, k1_chk19, k1_chk19.dec, k1_idx19_inb, fun _ h => h⟩) (⟨k1_off22, k1_off22_inb, k1_chk20, k1_chk20.dec, k1_idx20_inb, fun _ h => h⟩) (⟨k1_off23, k1_off23_inb, k1_chk21, k1_chk21.dec, k1_idx21_inb, fun _ h => h⟩) (⟨k1_off24, k1_off24_inb, k1_chk22, k1_chk22.dec, k1_idx22_inb, fun _ h => h⟩) (⟨k1_off25, k1_off25_inb, k1_chk23, k1_chk23.dec, k1_idx23_inb, fun _ h => h⟩) (⟨k1_off26, k1_off26_inb, k1_chk24, k1_chk24.dec, k1_idx24_inb, fun _ h => h⟩) (fun k => ⟨congrFun (k1_off19_eq k) 0, congrFun (k1_off19_eq k) 1⟩) (fun k => ⟨congrFun (k1_off20_eq k) 0, congrFun (k1_off20_eq k) 1⟩) (fun k => ⟨congrFun (k1_off21_eq k) 0, congrFun (k1_off21_eq k) 1⟩) (fun k => ⟨congrFun (k1_off22_eq k) 0, congrFun (k1_off22_eq k) 1⟩) (fun k => ⟨congrFun (k1_off23_eq k) 0, congrFun (k1_off23_eq k) 1⟩) (fun k => ⟨congrFun (k1_off24_eq k) 0, congrFun (k1_off24_eq k) 1⟩) (fun k => ⟨congrFun (k1_off25_eq k) 0, congrFun (k1_off25_eq k) 1⟩) (fun k => ⟨congrFun (k1_off26_eq k) 0, congrFun (k1_off26_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t3_loop.lb k1_t3_loop.ub k1_t3_loop.st = 13 from trips13] at hacc
  subst hacc
  sl_exec
  sl_unfold_run_names
  unfold_pays
  ihave Hs3' := (Entails.of_eq (s3_step0 (F := F) d L A Tt f3 2 3 32 rfl rfl inb_S512_S16_32)) $$ Hs3'
  -- block 4
  sl_for (inv0 d L A Tt (s0c d L A) (tvc d L Tt) 48) $$ [Hs0' Hs2']
  case region =>
    exact region0 d L A Tt (s0c d L A) (tvc d L Tt) hin (hs0c d L A) (htvc d L Tt) 48 _ (⟨k1_off27, k1_off27_inb, k1_chk25, k1_chk25.dec, k1_idx25_inb, fun _ h => h⟩) (⟨k1_off28, k1_off28_inb, k1_chk26, k1_chk26.dec, k1_idx26_inb, fun _ h => h⟩) (⟨k1_off29, k1_off29_inb, k1_chk27, k1_chk27.dec, k1_idx27_inb, fun _ h => h⟩) (⟨k1_off30, k1_off30_inb, k1_chk28, k1_chk28.dec, k1_idx28_inb, fun _ h => h⟩) (⟨k1_off31, k1_off31_inb, k1_chk29, k1_chk29.dec, k1_idx29_inb, fun _ h => h⟩) (⟨k1_off32, k1_off32_inb, k1_chk30, k1_chk30.dec, k1_idx30_inb, fun _ h => h⟩) (⟨k1_off33, k1_off33_inb, k1_chk31, k1_chk31.dec, k1_idx31_inb, fun _ h => h⟩) (⟨k1_off34, k1_off34_inb, k1_chk32, k1_chk32.dec, k1_idx32_inb, fun _ h => h⟩) (fun k => ⟨congrFun (k1_off27_eq k) 0, congrFun (k1_off27_eq k) 1⟩) (fun k => ⟨congrFun (k1_off28_eq k) 0, congrFun (k1_off28_eq k) 1⟩) (fun k => ⟨congrFun (k1_off29_eq k) 0, congrFun (k1_off29_eq k) 1⟩) (fun k => ⟨congrFun (k1_off30_eq k) 0, congrFun (k1_off30_eq k) 1⟩) (fun k => ⟨congrFun (k1_off31_eq k) 0, congrFun (k1_off31_eq k) 1⟩) (fun k => ⟨congrFun (k1_off32_eq k) 0, congrFun (k1_off32_eq k) 1⟩) (fun k => ⟨congrFun (k1_off33_eq k) 0, congrFun (k1_off33_eq k) 1⟩) (fun k => ⟨congrFun (k1_off34_eq k) 0, congrFun (k1_off34_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t4_loop.lb k1_t4_loop.ub k1_t4_loop.st = 13 from trips13] at hacc
  subst hacc
  sl_exec
  sl_unfold_run_names
  unfold_pays
  ihave Hs3' := (Entails.of_eq (s3_step0 (F := F) d L A Tt f3 3 4 48 rfl rfl inb_S512_S16_48)) $$ Hs3'
  -- block 5
  sl_for (inv0 d L A Tt (s0c d L A) (tvc d L Tt) 64) $$ [Hs0' Hs2']
  case region =>
    exact region0 d L A Tt (s0c d L A) (tvc d L Tt) hin (hs0c d L A) (htvc d L Tt) 64 _ (⟨k1_off35, k1_off35_inb, k1_chk33, k1_chk33.dec, k1_idx33_inb, fun _ h => h⟩) (⟨k1_off36, k1_off36_inb, k1_chk34, k1_chk34.dec, k1_idx34_inb, fun _ h => h⟩) (⟨k1_off37, k1_off37_inb, k1_chk35, k1_chk35.dec, k1_idx35_inb, fun _ h => h⟩) (⟨k1_off38, k1_off38_inb, k1_chk36, k1_chk36.dec, k1_idx36_inb, fun _ h => h⟩) (⟨k1_off39, k1_off39_inb, k1_chk37, k1_chk37.dec, k1_idx37_inb, fun _ h => h⟩) (⟨k1_off40, k1_off40_inb, k1_chk38, k1_chk38.dec, k1_idx38_inb, fun _ h => h⟩) (⟨k1_off41, k1_off41_inb, k1_chk39, k1_chk39.dec, k1_idx39_inb, fun _ h => h⟩) (⟨k1_off42, k1_off42_inb, k1_chk40, k1_chk40.dec, k1_idx40_inb, fun _ h => h⟩) (fun k => ⟨congrFun (k1_off35_eq k) 0, congrFun (k1_off35_eq k) 1⟩) (fun k => ⟨congrFun (k1_off36_eq k) 0, congrFun (k1_off36_eq k) 1⟩) (fun k => ⟨congrFun (k1_off37_eq k) 0, congrFun (k1_off37_eq k) 1⟩) (fun k => ⟨congrFun (k1_off38_eq k) 0, congrFun (k1_off38_eq k) 1⟩) (fun k => ⟨congrFun (k1_off39_eq k) 0, congrFun (k1_off39_eq k) 1⟩) (fun k => ⟨congrFun (k1_off40_eq k) 0, congrFun (k1_off40_eq k) 1⟩) (fun k => ⟨congrFun (k1_off41_eq k) 0, congrFun (k1_off41_eq k) 1⟩) (fun k => ⟨congrFun (k1_off42_eq k) 0, congrFun (k1_off42_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t5_loop.lb k1_t5_loop.ub k1_t5_loop.st = 13 from trips13] at hacc
  subst hacc
  sl_exec
  sl_unfold_run_names
  unfold_pays
  ihave Hs3' := (Entails.of_eq (s3_step0 (F := F) d L A Tt f3 4 5 64 rfl rfl inb_S512_S16_64)) $$ Hs3'
  -- block 6
  sl_for (inv0 d L A Tt (s0c d L A) (tvc d L Tt) 80) $$ [Hs0' Hs2']
  case region =>
    exact region0 d L A Tt (s0c d L A) (tvc d L Tt) hin (hs0c d L A) (htvc d L Tt) 80 _ (⟨k1_off43, k1_off43_inb, k1_chk41, k1_chk41.dec, k1_idx41_inb, fun _ h => h⟩) (⟨k1_off44, k1_off44_inb, k1_chk42, k1_chk42.dec, k1_idx42_inb, fun _ h => h⟩) (⟨k1_off45, k1_off45_inb, k1_chk43, k1_chk43.dec, k1_idx43_inb, fun _ h => h⟩) (⟨k1_off46, k1_off46_inb, k1_chk44, k1_chk44.dec, k1_idx44_inb, fun _ h => h⟩) (⟨k1_off47, k1_off47_inb, k1_chk45, k1_chk45.dec, k1_idx45_inb, fun _ h => h⟩) (⟨k1_off48, k1_off48_inb, k1_chk46, k1_chk46.dec, k1_idx46_inb, fun _ h => h⟩) (⟨k1_off49, k1_off49_inb, k1_chk47, k1_chk47.dec, k1_idx47_inb, fun _ h => h⟩) (⟨k1_off50, k1_off50_inb, k1_chk48, k1_chk48.dec, k1_idx48_inb, fun _ h => h⟩) (fun k => ⟨congrFun (k1_off43_eq k) 0, congrFun (k1_off43_eq k) 1⟩) (fun k => ⟨congrFun (k1_off44_eq k) 0, congrFun (k1_off44_eq k) 1⟩) (fun k => ⟨congrFun (k1_off45_eq k) 0, congrFun (k1_off45_eq k) 1⟩) (fun k => ⟨congrFun (k1_off46_eq k) 0, congrFun (k1_off46_eq k) 1⟩) (fun k => ⟨congrFun (k1_off47_eq k) 0, congrFun (k1_off47_eq k) 1⟩) (fun k => ⟨congrFun (k1_off48_eq k) 0, congrFun (k1_off48_eq k) 1⟩) (fun k => ⟨congrFun (k1_off49_eq k) 0, congrFun (k1_off49_eq k) 1⟩) (fun k => ⟨congrFun (k1_off50_eq k) 0, congrFun (k1_off50_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t6_loop.lb k1_t6_loop.ub k1_t6_loop.st = 13 from trips13] at hacc
  subst hacc
  sl_exec
  sl_unfold_run_names
  unfold_pays
  ihave Hs3' := (Entails.of_eq (s3_step0 (F := F) d L A Tt f3 5 6 80 rfl rfl inb_S512_S16_80)) $$ Hs3'
  -- block 7
  sl_for (inv0 d L A Tt (s0c d L A) (tvc d L Tt) 96) $$ [Hs0' Hs2']
  case region =>
    exact region0 d L A Tt (s0c d L A) (tvc d L Tt) hin (hs0c d L A) (htvc d L Tt) 96 _ (⟨k1_off51, k1_off51_inb, k1_chk49, k1_chk49.dec, k1_idx49_inb, fun _ h => h⟩) (⟨k1_off52, k1_off52_inb, k1_chk50, k1_chk50.dec, k1_idx50_inb, fun _ h => h⟩) (⟨k1_off53, k1_off53_inb, k1_chk51, k1_chk51.dec, k1_idx51_inb, fun _ h => h⟩) (⟨k1_off54, k1_off54_inb, k1_chk52, k1_chk52.dec, k1_idx52_inb, fun _ h => h⟩) (⟨k1_off55, k1_off55_inb, k1_chk53, k1_chk53.dec, k1_idx53_inb, fun _ h => h⟩) (⟨k1_off56, k1_off56_inb, k1_chk54, k1_chk54.dec, k1_idx54_inb, fun _ h => h⟩) (⟨k1_off57, k1_off57_inb, k1_chk55, k1_chk55.dec, k1_idx55_inb, fun _ h => h⟩) (⟨k1_off58, k1_off58_inb, k1_chk56, k1_chk56.dec, k1_idx56_inb, fun _ h => h⟩) (fun k => ⟨congrFun (k1_off51_eq k) 0, congrFun (k1_off51_eq k) 1⟩) (fun k => ⟨congrFun (k1_off52_eq k) 0, congrFun (k1_off52_eq k) 1⟩) (fun k => ⟨congrFun (k1_off53_eq k) 0, congrFun (k1_off53_eq k) 1⟩) (fun k => ⟨congrFun (k1_off54_eq k) 0, congrFun (k1_off54_eq k) 1⟩) (fun k => ⟨congrFun (k1_off55_eq k) 0, congrFun (k1_off55_eq k) 1⟩) (fun k => ⟨congrFun (k1_off56_eq k) 0, congrFun (k1_off56_eq k) 1⟩) (fun k => ⟨congrFun (k1_off57_eq k) 0, congrFun (k1_off57_eq k) 1⟩) (fun k => ⟨congrFun (k1_off58_eq k) 0, congrFun (k1_off58_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t7_loop.lb k1_t7_loop.ub k1_t7_loop.st = 13 from trips13] at hacc
  subst hacc
  sl_exec
  sl_unfold_run_names
  unfold_pays
  ihave Hs3' := (Entails.of_eq (s3_step0 (F := F) d L A Tt f3 6 7 96 rfl rfl inb_S512_S16_96)) $$ Hs3'
  -- block 8
  sl_for (inv0 d L A Tt (s0c d L A) (tvc d L Tt) 112) $$ [Hs0' Hs2']
  case region =>
    exact region0 d L A Tt (s0c d L A) (tvc d L Tt) hin (hs0c d L A) (htvc d L Tt) 112 _ (⟨k1_off59, k1_off59_inb, k1_chk57, k1_chk57.dec, k1_idx57_inb, fun _ h => h⟩) (⟨k1_off60, k1_off60_inb, k1_chk58, k1_chk58.dec, k1_idx58_inb, fun _ h => h⟩) (⟨k1_off61, k1_off61_inb, k1_chk59, k1_chk59.dec, k1_idx59_inb, fun _ h => h⟩) (⟨k1_off62, k1_off62_inb, k1_chk60, k1_chk60.dec, k1_idx60_inb, fun _ h => h⟩) (⟨k1_off63, k1_off63_inb, k1_chk61, k1_chk61.dec, k1_idx61_inb, fun _ h => h⟩) (⟨k1_off64, k1_off64_inb, k1_chk62, k1_chk62.dec, k1_idx62_inb, fun _ h => h⟩) (⟨k1_off65, k1_off65_inb, k1_chk63, k1_chk63.dec, k1_idx63_inb, fun _ h => h⟩) (⟨k1_off66, k1_off66_inb, k1_chk64, k1_chk64.dec, k1_idx64_inb, fun _ h => h⟩) (fun k => ⟨congrFun (k1_off59_eq k) 0, congrFun (k1_off59_eq k) 1⟩) (fun k => ⟨congrFun (k1_off60_eq k) 0, congrFun (k1_off60_eq k) 1⟩) (fun k => ⟨congrFun (k1_off61_eq k) 0, congrFun (k1_off61_eq k) 1⟩) (fun k => ⟨congrFun (k1_off62_eq k) 0, congrFun (k1_off62_eq k) 1⟩) (fun k => ⟨congrFun (k1_off63_eq k) 0, congrFun (k1_off63_eq k) 1⟩) (fun k => ⟨congrFun (k1_off64_eq k) 0, congrFun (k1_off64_eq k) 1⟩) (fun k => ⟨congrFun (k1_off65_eq k) 0, congrFun (k1_off65_eq k) 1⟩) (fun k => ⟨congrFun (k1_off66_eq k) 0, congrFun (k1_off66_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t8_loop.lb k1_t8_loop.ub k1_t8_loop.st = 13 from trips13] at hacc
  subst hacc
  sl_exec
  sl_unfold_run_names
  unfold_pays
  ihave Hs3' := (Entails.of_eq (s3_step0 (F := F) d L A Tt f3 7 8 112 rfl rfl inb_S512_S16_112)) $$ Hs3'
  -- block 9
  sl_for (inv0 d L A Tt (s0c d L A) (tvc d L Tt) 128) $$ [Hs0' Hs2']
  case region =>
    exact region0 d L A Tt (s0c d L A) (tvc d L Tt) hin (hs0c d L A) (htvc d L Tt) 128 _ (⟨k1_off67, k1_off67_inb, k1_chk65, k1_chk65.dec, k1_idx65_inb, fun _ h => h⟩) (⟨k1_off68, k1_off68_inb, k1_chk66, k1_chk66.dec, k1_idx66_inb, fun _ h => h⟩) (⟨k1_off69, k1_off69_inb, k1_chk67, k1_chk67.dec, k1_idx67_inb, fun _ h => h⟩) (⟨k1_off70, k1_off70_inb, k1_chk68, k1_chk68.dec, k1_idx68_inb, fun _ h => h⟩) (⟨k1_off71, k1_off71_inb, k1_chk69, k1_chk69.dec, k1_idx69_inb, fun _ h => h⟩) (⟨k1_off72, k1_off72_inb, k1_chk70, k1_chk70.dec, k1_idx70_inb, fun _ h => h⟩) (⟨k1_off73, k1_off73_inb, k1_chk71, k1_chk71.dec, k1_idx71_inb, fun _ h => h⟩) (⟨k1_off74, k1_off74_inb, k1_chk72, k1_chk72.dec, k1_idx72_inb, fun _ h => h⟩) (fun k => ⟨congrFun (k1_off67_eq k) 0, congrFun (k1_off67_eq k) 1⟩) (fun k => ⟨congrFun (k1_off68_eq k) 0, congrFun (k1_off68_eq k) 1⟩) (fun k => ⟨congrFun (k1_off69_eq k) 0, congrFun (k1_off69_eq k) 1⟩) (fun k => ⟨congrFun (k1_off70_eq k) 0, congrFun (k1_off70_eq k) 1⟩) (fun k => ⟨congrFun (k1_off71_eq k) 0, congrFun (k1_off71_eq k) 1⟩) (fun k => ⟨congrFun (k1_off72_eq k) 0, congrFun (k1_off72_eq k) 1⟩) (fun k => ⟨congrFun (k1_off73_eq k) 0, congrFun (k1_off73_eq k) 1⟩) (fun k => ⟨congrFun (k1_off74_eq k) 0, congrFun (k1_off74_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t9_loop.lb k1_t9_loop.ub k1_t9_loop.st = 13 from trips13] at hacc
  subst hacc
  sl_exec
  sl_unfold_run_names
  unfold_pays
  ihave Hs3' := (Entails.of_eq (s3_step0 (F := F) d L A Tt f3 8 9 128 rfl rfl inb_S512_S16_128)) $$ Hs3'
  -- block 10
  sl_for (inv0 d L A Tt (s0c d L A) (tvc d L Tt) 144) $$ [Hs0' Hs2']
  case region =>
    exact region0 d L A Tt (s0c d L A) (tvc d L Tt) hin (hs0c d L A) (htvc d L Tt) 144 _ (⟨k1_off75, k1_off75_inb, k1_chk73, k1_chk73.dec, k1_idx73_inb, fun _ h => h⟩) (⟨k1_off76, k1_off76_inb, k1_chk74, k1_chk74.dec, k1_idx74_inb, fun _ h => h⟩) (⟨k1_off77, k1_off77_inb, k1_chk75, k1_chk75.dec, k1_idx75_inb, fun _ h => h⟩) (⟨k1_off78, k1_off78_inb, k1_chk76, k1_chk76.dec, k1_idx76_inb, fun _ h => h⟩) (⟨k1_off79, k1_off79_inb, k1_chk77, k1_chk77.dec, k1_idx77_inb, fun _ h => h⟩) (⟨k1_off80, k1_off80_inb, k1_chk78, k1_chk78.dec, k1_idx78_inb, fun _ h => h⟩) (⟨k1_off81, k1_off81_inb, k1_chk79, k1_chk79.dec, k1_idx79_inb, fun _ h => h⟩) (⟨k1_off82, k1_off82_inb, k1_chk80, k1_chk80.dec, k1_idx80_inb, fun _ h => h⟩) (fun k => ⟨congrFun (k1_off75_eq k) 0, congrFun (k1_off75_eq k) 1⟩) (fun k => ⟨congrFun (k1_off76_eq k) 0, congrFun (k1_off76_eq k) 1⟩) (fun k => ⟨congrFun (k1_off77_eq k) 0, congrFun (k1_off77_eq k) 1⟩) (fun k => ⟨congrFun (k1_off78_eq k) 0, congrFun (k1_off78_eq k) 1⟩) (fun k => ⟨congrFun (k1_off79_eq k) 0, congrFun (k1_off79_eq k) 1⟩) (fun k => ⟨congrFun (k1_off80_eq k) 0, congrFun (k1_off80_eq k) 1⟩) (fun k => ⟨congrFun (k1_off81_eq k) 0, congrFun (k1_off81_eq k) 1⟩) (fun k => ⟨congrFun (k1_off82_eq k) 0, congrFun (k1_off82_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t10_loop.lb k1_t10_loop.ub k1_t10_loop.st = 13 from trips13] at hacc
  subst hacc
  sl_exec
  sl_unfold_run_names
  unfold_pays
  ihave Hs3' := (Entails.of_eq (s3_step0 (F := F) d L A Tt f3 9 10 144 rfl rfl inb_S512_S16_144)) $$ Hs3'
  -- block 11
  sl_for (inv0 d L A Tt (s0c d L A) (tvc d L Tt) 160) $$ [Hs0' Hs2']
  case region =>
    exact region0 d L A Tt (s0c d L A) (tvc d L Tt) hin (hs0c d L A) (htvc d L Tt) 160 _ (⟨k1_off83, k1_off83_inb, k1_chk81, k1_chk81.dec, k1_idx81_inb, fun _ h => h⟩) (⟨k1_off84, k1_off84_inb, k1_chk82, k1_chk82.dec, k1_idx82_inb, fun _ h => h⟩) (⟨k1_off85, k1_off85_inb, k1_chk83, k1_chk83.dec, k1_idx83_inb, fun _ h => h⟩) (⟨k1_off86, k1_off86_inb, k1_chk84, k1_chk84.dec, k1_idx84_inb, fun _ h => h⟩) (⟨k1_off87, k1_off87_inb, k1_chk85, k1_chk85.dec, k1_idx85_inb, fun _ h => h⟩) (⟨k1_off88, k1_off88_inb, k1_chk86, k1_chk86.dec, k1_idx86_inb, fun _ h => h⟩) (⟨k1_off89, k1_off89_inb, k1_chk87, k1_chk87.dec, k1_idx87_inb, fun _ h => h⟩) (⟨k1_off90, k1_off90_inb, k1_chk88, k1_chk88.dec, k1_idx88_inb, fun _ h => h⟩) (fun k => ⟨congrFun (k1_off83_eq k) 0, congrFun (k1_off83_eq k) 1⟩) (fun k => ⟨congrFun (k1_off84_eq k) 0, congrFun (k1_off84_eq k) 1⟩) (fun k => ⟨congrFun (k1_off85_eq k) 0, congrFun (k1_off85_eq k) 1⟩) (fun k => ⟨congrFun (k1_off86_eq k) 0, congrFun (k1_off86_eq k) 1⟩) (fun k => ⟨congrFun (k1_off87_eq k) 0, congrFun (k1_off87_eq k) 1⟩) (fun k => ⟨congrFun (k1_off88_eq k) 0, congrFun (k1_off88_eq k) 1⟩) (fun k => ⟨congrFun (k1_off89_eq k) 0, congrFun (k1_off89_eq k) 1⟩) (fun k => ⟨congrFun (k1_off90_eq k) 0, congrFun (k1_off90_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t11_loop.lb k1_t11_loop.ub k1_t11_loop.st = 13 from trips13] at hacc
  subst hacc
  sl_exec
  sl_unfold_run_names
  unfold_pays
  ihave Hs3' := (Entails.of_eq (s3_step0 (F := F) d L A Tt f3 10 11 160 rfl rfl inb_S512_S16_160)) $$ Hs3'
  -- block 12
  sl_for (inv0 d L A Tt (s0c d L A) (tvc d L Tt) 176) $$ [Hs0' Hs2']
  case region =>
    exact region0 d L A Tt (s0c d L A) (tvc d L Tt) hin (hs0c d L A) (htvc d L Tt) 176 _ (⟨k1_off91, k1_off91_inb, k1_chk89, k1_chk89.dec, k1_idx89_inb, fun _ h => h⟩) (⟨k1_off92, k1_off92_inb, k1_chk90, k1_chk90.dec, k1_idx90_inb, fun _ h => h⟩) (⟨k1_off93, k1_off93_inb, k1_chk91, k1_chk91.dec, k1_idx91_inb, fun _ h => h⟩) (⟨k1_off94, k1_off94_inb, k1_chk92, k1_chk92.dec, k1_idx92_inb, fun _ h => h⟩) (⟨k1_off95, k1_off95_inb, k1_chk93, k1_chk93.dec, k1_idx93_inb, fun _ h => h⟩) (⟨k1_off96, k1_off96_inb, k1_chk94, k1_chk94.dec, k1_idx94_inb, fun _ h => h⟩) (⟨k1_off97, k1_off97_inb, k1_chk95, k1_chk95.dec, k1_idx95_inb, fun _ h => h⟩) (⟨k1_off98, k1_off98_inb, k1_chk96, k1_chk96.dec, k1_idx96_inb, fun _ h => h⟩) (fun k => ⟨congrFun (k1_off91_eq k) 0, congrFun (k1_off91_eq k) 1⟩) (fun k => ⟨congrFun (k1_off92_eq k) 0, congrFun (k1_off92_eq k) 1⟩) (fun k => ⟨congrFun (k1_off93_eq k) 0, congrFun (k1_off93_eq k) 1⟩) (fun k => ⟨congrFun (k1_off94_eq k) 0, congrFun (k1_off94_eq k) 1⟩) (fun k => ⟨congrFun (k1_off95_eq k) 0, congrFun (k1_off95_eq k) 1⟩) (fun k => ⟨congrFun (k1_off96_eq k) 0, congrFun (k1_off96_eq k) 1⟩) (fun k => ⟨congrFun (k1_off97_eq k) 0, congrFun (k1_off97_eq k) 1⟩) (fun k => ⟨congrFun (k1_off98_eq k) 0, congrFun (k1_off98_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t12_loop.lb k1_t12_loop.ub k1_t12_loop.st = 13 from trips13] at hacc
  subst hacc
  sl_exec
  sl_unfold_run_names
  unfold_pays
  ihave Hs3' := (Entails.of_eq (s3_step0 (F := F) d L A Tt f3 11 12 176 rfl rfl inb_S512_S16_176)) $$ Hs3'
  -- block 13
  sl_for (inv0 d L A Tt (s0c d L A) (tvc d L Tt) 192) $$ [Hs0' Hs2']
  case region =>
    exact region0 d L A Tt (s0c d L A) (tvc d L Tt) hin (hs0c d L A) (htvc d L Tt) 192 _ (⟨k1_off99, k1_off99_inb, k1_chk97, k1_chk97.dec, k1_idx97_inb, fun _ h => h⟩) (⟨k1_off100, k1_off100_inb, k1_chk98, k1_chk98.dec, k1_idx98_inb, fun _ h => h⟩) (⟨k1_off101, k1_off101_inb, k1_chk99, k1_chk99.dec, k1_idx99_inb, fun _ h => h⟩) (⟨k1_off102, k1_off102_inb, k1_chk100, k1_chk100.dec, k1_idx100_inb, fun _ h => h⟩) (⟨k1_off103, k1_off103_inb, k1_chk101, k1_chk101.dec, k1_idx101_inb, fun _ h => h⟩) (⟨k1_off104, k1_off104_inb, k1_chk102, k1_chk102.dec, k1_idx102_inb, fun _ h => h⟩) (⟨k1_off105, k1_off105_inb, k1_chk103, k1_chk103.dec, k1_idx103_inb, fun _ h => h⟩) (⟨k1_off106, k1_off106_inb, k1_chk104, k1_chk104.dec, k1_idx104_inb, fun _ h => h⟩) (fun k => ⟨congrFun (k1_off99_eq k) 0, congrFun (k1_off99_eq k) 1⟩) (fun k => ⟨congrFun (k1_off100_eq k) 0, congrFun (k1_off100_eq k) 1⟩) (fun k => ⟨congrFun (k1_off101_eq k) 0, congrFun (k1_off101_eq k) 1⟩) (fun k => ⟨congrFun (k1_off102_eq k) 0, congrFun (k1_off102_eq k) 1⟩) (fun k => ⟨congrFun (k1_off103_eq k) 0, congrFun (k1_off103_eq k) 1⟩) (fun k => ⟨congrFun (k1_off104_eq k) 0, congrFun (k1_off104_eq k) 1⟩) (fun k => ⟨congrFun (k1_off105_eq k) 0, congrFun (k1_off105_eq k) 1⟩) (fun k => ⟨congrFun (k1_off106_eq k) 0, congrFun (k1_off106_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t13_loop.lb k1_t13_loop.ub k1_t13_loop.st = 13 from trips13] at hacc
  subst hacc
  sl_exec
  sl_unfold_run_names
  unfold_pays
  ihave Hs3' := (Entails.of_eq (s3_step0 (F := F) d L A Tt f3 12 13 192 rfl rfl inb_S512_S16_192)) $$ Hs3'
  -- block 14
  sl_for (inv0 d L A Tt (s0c d L A) (tvc d L Tt) 208) $$ [Hs0' Hs2']
  case region =>
    exact region0 d L A Tt (s0c d L A) (tvc d L Tt) hin (hs0c d L A) (htvc d L Tt) 208 _ (⟨k1_off107, k1_off107_inb, k1_chk105, k1_chk105.dec, k1_idx105_inb, fun _ h => h⟩) (⟨k1_off108, k1_off108_inb, k1_chk106, k1_chk106.dec, k1_idx106_inb, fun _ h => h⟩) (⟨k1_off109, k1_off109_inb, k1_chk107, k1_chk107.dec, k1_idx107_inb, fun _ h => h⟩) (⟨k1_off110, k1_off110_inb, k1_chk108, k1_chk108.dec, k1_idx108_inb, fun _ h => h⟩) (⟨k1_off111, k1_off111_inb, k1_chk109, k1_chk109.dec, k1_idx109_inb, fun _ h => h⟩) (⟨k1_off112, k1_off112_inb, k1_chk110, k1_chk110.dec, k1_idx110_inb, fun _ h => h⟩) (⟨k1_off113, k1_off113_inb, k1_chk111, k1_chk111.dec, k1_idx111_inb, fun _ h => h⟩) (⟨k1_off114, k1_off114_inb, k1_chk112, k1_chk112.dec, k1_idx112_inb, fun _ h => h⟩) (fun k => ⟨congrFun (k1_off107_eq k) 0, congrFun (k1_off107_eq k) 1⟩) (fun k => ⟨congrFun (k1_off108_eq k) 0, congrFun (k1_off108_eq k) 1⟩) (fun k => ⟨congrFun (k1_off109_eq k) 0, congrFun (k1_off109_eq k) 1⟩) (fun k => ⟨congrFun (k1_off110_eq k) 0, congrFun (k1_off110_eq k) 1⟩) (fun k => ⟨congrFun (k1_off111_eq k) 0, congrFun (k1_off111_eq k) 1⟩) (fun k => ⟨congrFun (k1_off112_eq k) 0, congrFun (k1_off112_eq k) 1⟩) (fun k => ⟨congrFun (k1_off113_eq k) 0, congrFun (k1_off113_eq k) 1⟩) (fun k => ⟨congrFun (k1_off114_eq k) 0, congrFun (k1_off114_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t14_loop.lb k1_t14_loop.ub k1_t14_loop.st = 13 from trips13] at hacc
  subst hacc
  sl_exec
  sl_unfold_run_names
  unfold_pays
  ihave Hs3' := (Entails.of_eq (s3_step0 (F := F) d L A Tt f3 13 14 208 rfl rfl inb_S512_S16_208)) $$ Hs3'
  -- block 15
  sl_for (inv0 d L A Tt (s0c d L A) (tvc d L Tt) 224) $$ [Hs0' Hs2']
  case region =>
    exact region0 d L A Tt (s0c d L A) (tvc d L Tt) hin (hs0c d L A) (htvc d L Tt) 224 _ (⟨k1_off115, k1_off115_inb, k1_chk113, k1_chk113.dec, k1_idx113_inb, fun _ h => h⟩) (⟨k1_off116, k1_off116_inb, k1_chk114, k1_chk114.dec, k1_idx114_inb, fun _ h => h⟩) (⟨k1_off117, k1_off117_inb, k1_chk115, k1_chk115.dec, k1_idx115_inb, fun _ h => h⟩) (⟨k1_off118, k1_off118_inb, k1_chk116, k1_chk116.dec, k1_idx116_inb, fun _ h => h⟩) (⟨k1_off119, k1_off119_inb, k1_chk117, k1_chk117.dec, k1_idx117_inb, fun _ h => h⟩) (⟨k1_off120, k1_off120_inb, k1_chk118, k1_chk118.dec, k1_idx118_inb, fun _ h => h⟩) (⟨k1_off121, k1_off121_inb, k1_chk119, k1_chk119.dec, k1_idx119_inb, fun _ h => h⟩) (⟨k1_off122, k1_off122_inb, k1_chk120, k1_chk120.dec, k1_idx120_inb, fun _ h => h⟩) (fun k => ⟨congrFun (k1_off115_eq k) 0, congrFun (k1_off115_eq k) 1⟩) (fun k => ⟨congrFun (k1_off116_eq k) 0, congrFun (k1_off116_eq k) 1⟩) (fun k => ⟨congrFun (k1_off117_eq k) 0, congrFun (k1_off117_eq k) 1⟩) (fun k => ⟨congrFun (k1_off118_eq k) 0, congrFun (k1_off118_eq k) 1⟩) (fun k => ⟨congrFun (k1_off119_eq k) 0, congrFun (k1_off119_eq k) 1⟩) (fun k => ⟨congrFun (k1_off120_eq k) 0, congrFun (k1_off120_eq k) 1⟩) (fun k => ⟨congrFun (k1_off121_eq k) 0, congrFun (k1_off121_eq k) 1⟩) (fun k => ⟨congrFun (k1_off122_eq k) 0, congrFun (k1_off122_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t15_loop.lb k1_t15_loop.ub k1_t15_loop.st = 13 from trips13] at hacc
  subst hacc
  sl_exec
  sl_unfold_run_names
  unfold_pays
  ihave Hs3' := (Entails.of_eq (s3_step0 (F := F) d L A Tt f3 14 15 224 rfl rfl inb_S512_S16_224)) $$ Hs3'
  -- block 16
  sl_for (inv0 d L A Tt (s0c d L A) (tvc d L Tt) 240) $$ [Hs0' Hs2']
  case region =>
    exact region0 d L A Tt (s0c d L A) (tvc d L Tt) hin (hs0c d L A) (htvc d L Tt) 240 _ (⟨k1_off123, k1_off123_inb, k1_chk121, k1_chk121.dec, k1_idx121_inb, fun _ h => h⟩) (⟨k1_off124, k1_off124_inb, k1_chk122, k1_chk122.dec, k1_idx122_inb, fun _ h => h⟩) (⟨k1_off125, k1_off125_inb, k1_chk123, k1_chk123.dec, k1_idx123_inb, fun _ h => h⟩) (⟨k1_off126, k1_off126_inb, k1_chk124, k1_chk124.dec, k1_idx124_inb, fun _ h => h⟩) (⟨k1_off127, k1_off127_inb, k1_chk125, k1_chk125.dec, k1_idx125_inb, fun _ h => h⟩) (⟨k1_off128, k1_off128_inb, k1_chk126, k1_chk126.dec, k1_idx126_inb, fun _ h => h⟩) (⟨k1_off129, k1_off129_inb, k1_chk127, k1_chk127.dec, k1_idx127_inb, fun _ h => h⟩) (⟨k1_off130, k1_off130_inb, k1_chk128, k1_chk128.dec, k1_idx128_inb, fun _ h => h⟩) (fun k => ⟨congrFun (k1_off123_eq k) 0, congrFun (k1_off123_eq k) 1⟩) (fun k => ⟨congrFun (k1_off124_eq k) 0, congrFun (k1_off124_eq k) 1⟩) (fun k => ⟨congrFun (k1_off125_eq k) 0, congrFun (k1_off125_eq k) 1⟩) (fun k => ⟨congrFun (k1_off126_eq k) 0, congrFun (k1_off126_eq k) 1⟩) (fun k => ⟨congrFun (k1_off127_eq k) 0, congrFun (k1_off127_eq k) 1⟩) (fun k => ⟨congrFun (k1_off128_eq k) 0, congrFun (k1_off128_eq k) 1⟩) (fun k => ⟨congrFun (k1_off129_eq k) 0, congrFun (k1_off129_eq k) 1⟩) (fun k => ⟨congrFun (k1_off130_eq k) 0, congrFun (k1_off130_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t16_loop.lb k1_t16_loop.ub k1_t16_loop.st = 13 from trips13] at hacc
  subst hacc
  sl_exec
  sl_unfold_run_names
  unfold_pays
  ihave Hs3' := (Entails.of_eq (s3_step0 (F := F) d L A Tt f3 15 16 240 rfl rfl inb_S512_S16_240)) $$ Hs3'
  -- block 17
  sl_for (inv0 d L A Tt (s0c d L A) (tvc d L Tt) 256) $$ [Hs0' Hs2']
  case region =>
    exact region0 d L A Tt (s0c d L A) (tvc d L Tt) hin (hs0c d L A) (htvc d L Tt) 256 _ (⟨k1_off131, k1_off131_inb, k1_chk129, k1_chk129.dec, k1_idx129_inb, fun _ h => h⟩) (⟨k1_off132, k1_off132_inb, k1_chk130, k1_chk130.dec, k1_idx130_inb, fun _ h => h⟩) (⟨k1_off133, k1_off133_inb, k1_chk131, k1_chk131.dec, k1_idx131_inb, fun _ h => h⟩) (⟨k1_off134, k1_off134_inb, k1_chk132, k1_chk132.dec, k1_idx132_inb, fun _ h => h⟩) (⟨k1_off135, k1_off135_inb, k1_chk133, k1_chk133.dec, k1_idx133_inb, fun _ h => h⟩) (⟨k1_off136, k1_off136_inb, k1_chk134, k1_chk134.dec, k1_idx134_inb, fun _ h => h⟩) (⟨k1_off137, k1_off137_inb, k1_chk135, k1_chk135.dec, k1_idx135_inb, fun _ h => h⟩) (⟨k1_off138, k1_off138_inb, k1_chk136, k1_chk136.dec, k1_idx136_inb, fun _ h => h⟩) (fun k => ⟨congrFun (k1_off131_eq k) 0, congrFun (k1_off131_eq k) 1⟩) (fun k => ⟨congrFun (k1_off132_eq k) 0, congrFun (k1_off132_eq k) 1⟩) (fun k => ⟨congrFun (k1_off133_eq k) 0, congrFun (k1_off133_eq k) 1⟩) (fun k => ⟨congrFun (k1_off134_eq k) 0, congrFun (k1_off134_eq k) 1⟩) (fun k => ⟨congrFun (k1_off135_eq k) 0, congrFun (k1_off135_eq k) 1⟩) (fun k => ⟨congrFun (k1_off136_eq k) 0, congrFun (k1_off136_eq k) 1⟩) (fun k => ⟨congrFun (k1_off137_eq k) 0, congrFun (k1_off137_eq k) 1⟩) (fun k => ⟨congrFun (k1_off138_eq k) 0, congrFun (k1_off138_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t17_loop.lb k1_t17_loop.ub k1_t17_loop.st = 13 from trips13] at hacc
  subst hacc
  sl_exec
  sl_unfold_run_names
  unfold_pays
  ihave Hs3' := (Entails.of_eq (s3_step0 (F := F) d L A Tt f3 16 17 256 rfl rfl inb_S512_S16_256)) $$ Hs3'
  -- block 18
  sl_for (inv0 d L A Tt (s0c d L A) (tvc d L Tt) 272) $$ [Hs0' Hs2']
  case region =>
    exact region0 d L A Tt (s0c d L A) (tvc d L Tt) hin (hs0c d L A) (htvc d L Tt) 272 _ (⟨k1_off139, k1_off139_inb, k1_chk137, k1_chk137.dec, k1_idx137_inb, fun _ h => h⟩) (⟨k1_off140, k1_off140_inb, k1_chk138, k1_chk138.dec, k1_idx138_inb, fun _ h => h⟩) (⟨k1_off141, k1_off141_inb, k1_chk139, k1_chk139.dec, k1_idx139_inb, fun _ h => h⟩) (⟨k1_off142, k1_off142_inb, k1_chk140, k1_chk140.dec, k1_idx140_inb, fun _ h => h⟩) (⟨k1_off143, k1_off143_inb, k1_chk141, k1_chk141.dec, k1_idx141_inb, fun _ h => h⟩) (⟨k1_off144, k1_off144_inb, k1_chk142, k1_chk142.dec, k1_idx142_inb, fun _ h => h⟩) (⟨k1_off145, k1_off145_inb, k1_chk143, k1_chk143.dec, k1_idx143_inb, fun _ h => h⟩) (⟨k1_off146, k1_off146_inb, k1_chk144, k1_chk144.dec, k1_idx144_inb, fun _ h => h⟩) (fun k => ⟨congrFun (k1_off139_eq k) 0, congrFun (k1_off139_eq k) 1⟩) (fun k => ⟨congrFun (k1_off140_eq k) 0, congrFun (k1_off140_eq k) 1⟩) (fun k => ⟨congrFun (k1_off141_eq k) 0, congrFun (k1_off141_eq k) 1⟩) (fun k => ⟨congrFun (k1_off142_eq k) 0, congrFun (k1_off142_eq k) 1⟩) (fun k => ⟨congrFun (k1_off143_eq k) 0, congrFun (k1_off143_eq k) 1⟩) (fun k => ⟨congrFun (k1_off144_eq k) 0, congrFun (k1_off144_eq k) 1⟩) (fun k => ⟨congrFun (k1_off145_eq k) 0, congrFun (k1_off145_eq k) 1⟩) (fun k => ⟨congrFun (k1_off146_eq k) 0, congrFun (k1_off146_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t18_loop.lb k1_t18_loop.ub k1_t18_loop.st = 13 from trips13] at hacc
  subst hacc
  sl_exec
  sl_unfold_run_names
  unfold_pays
  ihave Hs3' := (Entails.of_eq (s3_step0 (F := F) d L A Tt f3 17 18 272 rfl rfl inb_S512_S16_272)) $$ Hs3'
  -- block 19
  sl_for (inv0 d L A Tt (s0c d L A) (tvc d L Tt) 288) $$ [Hs0' Hs2']
  case region =>
    exact region0 d L A Tt (s0c d L A) (tvc d L Tt) hin (hs0c d L A) (htvc d L Tt) 288 _ (⟨k1_off147, k1_off147_inb, k1_chk145, k1_chk145.dec, k1_idx145_inb, fun _ h => h⟩) (⟨k1_off148, k1_off148_inb, k1_chk146, k1_chk146.dec, k1_idx146_inb, fun _ h => h⟩) (⟨k1_off149, k1_off149_inb, k1_chk147, k1_chk147.dec, k1_idx147_inb, fun _ h => h⟩) (⟨k1_off150, k1_off150_inb, k1_chk148, k1_chk148.dec, k1_idx148_inb, fun _ h => h⟩) (⟨k1_off151, k1_off151_inb, k1_chk149, k1_chk149.dec, k1_idx149_inb, fun _ h => h⟩) (⟨k1_off152, k1_off152_inb, k1_chk150, k1_chk150.dec, k1_idx150_inb, fun _ h => h⟩) (⟨k1_off153, k1_off153_inb, k1_chk151, k1_chk151.dec, k1_idx151_inb, fun _ h => h⟩) (⟨k1_off154, k1_off154_inb, k1_chk152, k1_chk152.dec, k1_idx152_inb, fun _ h => h⟩) (fun k => ⟨congrFun (k1_off147_eq k) 0, congrFun (k1_off147_eq k) 1⟩) (fun k => ⟨congrFun (k1_off148_eq k) 0, congrFun (k1_off148_eq k) 1⟩) (fun k => ⟨congrFun (k1_off149_eq k) 0, congrFun (k1_off149_eq k) 1⟩) (fun k => ⟨congrFun (k1_off150_eq k) 0, congrFun (k1_off150_eq k) 1⟩) (fun k => ⟨congrFun (k1_off151_eq k) 0, congrFun (k1_off151_eq k) 1⟩) (fun k => ⟨congrFun (k1_off152_eq k) 0, congrFun (k1_off152_eq k) 1⟩) (fun k => ⟨congrFun (k1_off153_eq k) 0, congrFun (k1_off153_eq k) 1⟩) (fun k => ⟨congrFun (k1_off154_eq k) 0, congrFun (k1_off154_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t19_loop.lb k1_t19_loop.ub k1_t19_loop.st = 13 from trips13] at hacc
  subst hacc
  sl_exec
  sl_unfold_run_names
  unfold_pays
  ihave Hs3' := (Entails.of_eq (s3_step0 (F := F) d L A Tt f3 18 19 288 rfl rfl inb_S512_S16_288)) $$ Hs3'
  -- block 20
  sl_for (inv0 d L A Tt (s0c d L A) (tvc d L Tt) 304) $$ [Hs0' Hs2']
  case region =>
    exact region0 d L A Tt (s0c d L A) (tvc d L Tt) hin (hs0c d L A) (htvc d L Tt) 304 _ (⟨k1_off155, k1_off155_inb, k1_chk153, k1_chk153.dec, k1_idx153_inb, fun _ h => h⟩) (⟨k1_off156, k1_off156_inb, k1_chk154, k1_chk154.dec, k1_idx154_inb, fun _ h => h⟩) (⟨k1_off157, k1_off157_inb, k1_chk155, k1_chk155.dec, k1_idx155_inb, fun _ h => h⟩) (⟨k1_off158, k1_off158_inb, k1_chk156, k1_chk156.dec, k1_idx156_inb, fun _ h => h⟩) (⟨k1_off159, k1_off159_inb, k1_chk157, k1_chk157.dec, k1_idx157_inb, fun _ h => h⟩) (⟨k1_off160, k1_off160_inb, k1_chk158, k1_chk158.dec, k1_idx158_inb, fun _ h => h⟩) (⟨k1_off161, k1_off161_inb, k1_chk159, k1_chk159.dec, k1_idx159_inb, fun _ h => h⟩) (⟨k1_off162, k1_off162_inb, k1_chk160, k1_chk160.dec, k1_idx160_inb, fun _ h => h⟩) (fun k => ⟨congrFun (k1_off155_eq k) 0, congrFun (k1_off155_eq k) 1⟩) (fun k => ⟨congrFun (k1_off156_eq k) 0, congrFun (k1_off156_eq k) 1⟩) (fun k => ⟨congrFun (k1_off157_eq k) 0, congrFun (k1_off157_eq k) 1⟩) (fun k => ⟨congrFun (k1_off158_eq k) 0, congrFun (k1_off158_eq k) 1⟩) (fun k => ⟨congrFun (k1_off159_eq k) 0, congrFun (k1_off159_eq k) 1⟩) (fun k => ⟨congrFun (k1_off160_eq k) 0, congrFun (k1_off160_eq k) 1⟩) (fun k => ⟨congrFun (k1_off161_eq k) 0, congrFun (k1_off161_eq k) 1⟩) (fun k => ⟨congrFun (k1_off162_eq k) 0, congrFun (k1_off162_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t20_loop.lb k1_t20_loop.ub k1_t20_loop.st = 13 from trips13] at hacc
  subst hacc
  sl_exec
  sl_unfold_run_names
  unfold_pays
  ihave Hs3' := (Entails.of_eq (s3_step0 (F := F) d L A Tt f3 19 20 304 rfl rfl inb_S512_S16_304)) $$ Hs3'
  -- block 21
  sl_for (inv0 d L A Tt (s0c d L A) (tvc d L Tt) 320) $$ [Hs0' Hs2']
  case region =>
    exact region0 d L A Tt (s0c d L A) (tvc d L Tt) hin (hs0c d L A) (htvc d L Tt) 320 _ (⟨k1_off163, k1_off163_inb, k1_chk161, k1_chk161.dec, k1_idx161_inb, fun _ h => h⟩) (⟨k1_off164, k1_off164_inb, k1_chk162, k1_chk162.dec, k1_idx162_inb, fun _ h => h⟩) (⟨k1_off165, k1_off165_inb, k1_chk163, k1_chk163.dec, k1_idx163_inb, fun _ h => h⟩) (⟨k1_off166, k1_off166_inb, k1_chk164, k1_chk164.dec, k1_idx164_inb, fun _ h => h⟩) (⟨k1_off167, k1_off167_inb, k1_chk165, k1_chk165.dec, k1_idx165_inb, fun _ h => h⟩) (⟨k1_off168, k1_off168_inb, k1_chk166, k1_chk166.dec, k1_idx166_inb, fun _ h => h⟩) (⟨k1_off169, k1_off169_inb, k1_chk167, k1_chk167.dec, k1_idx167_inb, fun _ h => h⟩) (⟨k1_off170, k1_off170_inb, k1_chk168, k1_chk168.dec, k1_idx168_inb, fun _ h => h⟩) (fun k => ⟨congrFun (k1_off163_eq k) 0, congrFun (k1_off163_eq k) 1⟩) (fun k => ⟨congrFun (k1_off164_eq k) 0, congrFun (k1_off164_eq k) 1⟩) (fun k => ⟨congrFun (k1_off165_eq k) 0, congrFun (k1_off165_eq k) 1⟩) (fun k => ⟨congrFun (k1_off166_eq k) 0, congrFun (k1_off166_eq k) 1⟩) (fun k => ⟨congrFun (k1_off167_eq k) 0, congrFun (k1_off167_eq k) 1⟩) (fun k => ⟨congrFun (k1_off168_eq k) 0, congrFun (k1_off168_eq k) 1⟩) (fun k => ⟨congrFun (k1_off169_eq k) 0, congrFun (k1_off169_eq k) 1⟩) (fun k => ⟨congrFun (k1_off170_eq k) 0, congrFun (k1_off170_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t21_loop.lb k1_t21_loop.ub k1_t21_loop.st = 13 from trips13] at hacc
  subst hacc
  sl_exec
  sl_unfold_run_names
  unfold_pays
  ihave Hs3' := (Entails.of_eq (s3_step0 (F := F) d L A Tt f3 20 21 320 rfl rfl inb_S512_S16_320)) $$ Hs3'
  -- block 22
  sl_for (inv0 d L A Tt (s0c d L A) (tvc d L Tt) 336) $$ [Hs0' Hs2']
  case region =>
    exact region0 d L A Tt (s0c d L A) (tvc d L Tt) hin (hs0c d L A) (htvc d L Tt) 336 _ (⟨k1_off171, k1_off171_inb, k1_chk169, k1_chk169.dec, k1_idx169_inb, fun _ h => h⟩) (⟨k1_off172, k1_off172_inb, k1_chk170, k1_chk170.dec, k1_idx170_inb, fun _ h => h⟩) (⟨k1_off173, k1_off173_inb, k1_chk171, k1_chk171.dec, k1_idx171_inb, fun _ h => h⟩) (⟨k1_off174, k1_off174_inb, k1_chk172, k1_chk172.dec, k1_idx172_inb, fun _ h => h⟩) (⟨k1_off175, k1_off175_inb, k1_chk173, k1_chk173.dec, k1_idx173_inb, fun _ h => h⟩) (⟨k1_off176, k1_off176_inb, k1_chk174, k1_chk174.dec, k1_idx174_inb, fun _ h => h⟩) (⟨k1_off177, k1_off177_inb, k1_chk175, k1_chk175.dec, k1_idx175_inb, fun _ h => h⟩) (⟨k1_off178, k1_off178_inb, k1_chk176, k1_chk176.dec, k1_idx176_inb, fun _ h => h⟩) (fun k => ⟨congrFun (k1_off171_eq k) 0, congrFun (k1_off171_eq k) 1⟩) (fun k => ⟨congrFun (k1_off172_eq k) 0, congrFun (k1_off172_eq k) 1⟩) (fun k => ⟨congrFun (k1_off173_eq k) 0, congrFun (k1_off173_eq k) 1⟩) (fun k => ⟨congrFun (k1_off174_eq k) 0, congrFun (k1_off174_eq k) 1⟩) (fun k => ⟨congrFun (k1_off175_eq k) 0, congrFun (k1_off175_eq k) 1⟩) (fun k => ⟨congrFun (k1_off176_eq k) 0, congrFun (k1_off176_eq k) 1⟩) (fun k => ⟨congrFun (k1_off177_eq k) 0, congrFun (k1_off177_eq k) 1⟩) (fun k => ⟨congrFun (k1_off178_eq k) 0, congrFun (k1_off178_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t22_loop.lb k1_t22_loop.ub k1_t22_loop.st = 13 from trips13] at hacc
  subst hacc
  sl_exec
  sl_unfold_run_names
  unfold_pays
  ihave Hs3' := (Entails.of_eq (s3_step0 (F := F) d L A Tt f3 21 22 336 rfl rfl inb_S512_S16_336)) $$ Hs3'
  -- block 23
  sl_for (inv0 d L A Tt (s0c d L A) (tvc d L Tt) 352) $$ [Hs0' Hs2']
  case region =>
    exact region0 d L A Tt (s0c d L A) (tvc d L Tt) hin (hs0c d L A) (htvc d L Tt) 352 _ (⟨k1_off179, k1_off179_inb, k1_chk177, k1_chk177.dec, k1_idx177_inb, fun _ h => h⟩) (⟨k1_off180, k1_off180_inb, k1_chk178, k1_chk178.dec, k1_idx178_inb, fun _ h => h⟩) (⟨k1_off181, k1_off181_inb, k1_chk179, k1_chk179.dec, k1_idx179_inb, fun _ h => h⟩) (⟨k1_off182, k1_off182_inb, k1_chk180, k1_chk180.dec, k1_idx180_inb, fun _ h => h⟩) (⟨k1_off183, k1_off183_inb, k1_chk181, k1_chk181.dec, k1_idx181_inb, fun _ h => h⟩) (⟨k1_off184, k1_off184_inb, k1_chk182, k1_chk182.dec, k1_idx182_inb, fun _ h => h⟩) (⟨k1_off185, k1_off185_inb, k1_chk183, k1_chk183.dec, k1_idx183_inb, fun _ h => h⟩) (⟨k1_off186, k1_off186_inb, k1_chk184, k1_chk184.dec, k1_idx184_inb, fun _ h => h⟩) (fun k => ⟨congrFun (k1_off179_eq k) 0, congrFun (k1_off179_eq k) 1⟩) (fun k => ⟨congrFun (k1_off180_eq k) 0, congrFun (k1_off180_eq k) 1⟩) (fun k => ⟨congrFun (k1_off181_eq k) 0, congrFun (k1_off181_eq k) 1⟩) (fun k => ⟨congrFun (k1_off182_eq k) 0, congrFun (k1_off182_eq k) 1⟩) (fun k => ⟨congrFun (k1_off183_eq k) 0, congrFun (k1_off183_eq k) 1⟩) (fun k => ⟨congrFun (k1_off184_eq k) 0, congrFun (k1_off184_eq k) 1⟩) (fun k => ⟨congrFun (k1_off185_eq k) 0, congrFun (k1_off185_eq k) 1⟩) (fun k => ⟨congrFun (k1_off186_eq k) 0, congrFun (k1_off186_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t23_loop.lb k1_t23_loop.ub k1_t23_loop.st = 13 from trips13] at hacc
  subst hacc
  sl_exec
  sl_unfold_run_names
  unfold_pays
  ihave Hs3' := (Entails.of_eq (s3_step0 (F := F) d L A Tt f3 22 23 352 rfl rfl inb_S512_S16_352)) $$ Hs3'
  -- block 24
  sl_for (inv0 d L A Tt (s0c d L A) (tvc d L Tt) 368) $$ [Hs0' Hs2']
  case region =>
    exact region0 d L A Tt (s0c d L A) (tvc d L Tt) hin (hs0c d L A) (htvc d L Tt) 368 _ (⟨k1_off187, k1_off187_inb, k1_chk185, k1_chk185.dec, k1_idx185_inb, fun _ h => h⟩) (⟨k1_off188, k1_off188_inb, k1_chk186, k1_chk186.dec, k1_idx186_inb, fun _ h => h⟩) (⟨k1_off189, k1_off189_inb, k1_chk187, k1_chk187.dec, k1_idx187_inb, fun _ h => h⟩) (⟨k1_off190, k1_off190_inb, k1_chk188, k1_chk188.dec, k1_idx188_inb, fun _ h => h⟩) (⟨k1_off191, k1_off191_inb, k1_chk189, k1_chk189.dec, k1_idx189_inb, fun _ h => h⟩) (⟨k1_off192, k1_off192_inb, k1_chk190, k1_chk190.dec, k1_idx190_inb, fun _ h => h⟩) (⟨k1_off193, k1_off193_inb, k1_chk191, k1_chk191.dec, k1_idx191_inb, fun _ h => h⟩) (⟨k1_off194, k1_off194_inb, k1_chk192, k1_chk192.dec, k1_idx192_inb, fun _ h => h⟩) (fun k => ⟨congrFun (k1_off187_eq k) 0, congrFun (k1_off187_eq k) 1⟩) (fun k => ⟨congrFun (k1_off188_eq k) 0, congrFun (k1_off188_eq k) 1⟩) (fun k => ⟨congrFun (k1_off189_eq k) 0, congrFun (k1_off189_eq k) 1⟩) (fun k => ⟨congrFun (k1_off190_eq k) 0, congrFun (k1_off190_eq k) 1⟩) (fun k => ⟨congrFun (k1_off191_eq k) 0, congrFun (k1_off191_eq k) 1⟩) (fun k => ⟨congrFun (k1_off192_eq k) 0, congrFun (k1_off192_eq k) 1⟩) (fun k => ⟨congrFun (k1_off193_eq k) 0, congrFun (k1_off193_eq k) 1⟩) (fun k => ⟨congrFun (k1_off194_eq k) 0, congrFun (k1_off194_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t24_loop.lb k1_t24_loop.ub k1_t24_loop.st = 13 from trips13] at hacc
  subst hacc
  sl_exec
  sl_unfold_run_names
  unfold_pays
  ihave Hs3' := (Entails.of_eq (s3_step0 (F := F) d L A Tt f3 23 24 368 rfl rfl inb_S512_S16_368)) $$ Hs3'
  -- block 25
  sl_for (inv0 d L A Tt (s0c d L A) (tvc d L Tt) 384) $$ [Hs0' Hs2']
  case region =>
    exact region0 d L A Tt (s0c d L A) (tvc d L Tt) hin (hs0c d L A) (htvc d L Tt) 384 _ (⟨k1_off195, k1_off195_inb, k1_chk193, k1_chk193.dec, k1_idx193_inb, fun _ h => h⟩) (⟨k1_off196, k1_off196_inb, k1_chk194, k1_chk194.dec, k1_idx194_inb, fun _ h => h⟩) (⟨k1_off197, k1_off197_inb, k1_chk195, k1_chk195.dec, k1_idx195_inb, fun _ h => h⟩) (⟨k1_off198, k1_off198_inb, k1_chk196, k1_chk196.dec, k1_idx196_inb, fun _ h => h⟩) (⟨k1_off199, k1_off199_inb, k1_chk197, k1_chk197.dec, k1_idx197_inb, fun _ h => h⟩) (⟨k1_off200, k1_off200_inb, k1_chk198, k1_chk198.dec, k1_idx198_inb, fun _ h => h⟩) (⟨k1_off201, k1_off201_inb, k1_chk199, k1_chk199.dec, k1_idx199_inb, fun _ h => h⟩) (⟨k1_off202, k1_off202_inb, k1_chk200, k1_chk200.dec, k1_idx200_inb, fun _ h => h⟩) (fun k => ⟨congrFun (k1_off195_eq k) 0, congrFun (k1_off195_eq k) 1⟩) (fun k => ⟨congrFun (k1_off196_eq k) 0, congrFun (k1_off196_eq k) 1⟩) (fun k => ⟨congrFun (k1_off197_eq k) 0, congrFun (k1_off197_eq k) 1⟩) (fun k => ⟨congrFun (k1_off198_eq k) 0, congrFun (k1_off198_eq k) 1⟩) (fun k => ⟨congrFun (k1_off199_eq k) 0, congrFun (k1_off199_eq k) 1⟩) (fun k => ⟨congrFun (k1_off200_eq k) 0, congrFun (k1_off200_eq k) 1⟩) (fun k => ⟨congrFun (k1_off201_eq k) 0, congrFun (k1_off201_eq k) 1⟩) (fun k => ⟨congrFun (k1_off202_eq k) 0, congrFun (k1_off202_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t25_loop.lb k1_t25_loop.ub k1_t25_loop.st = 13 from trips13] at hacc
  subst hacc
  sl_exec
  sl_unfold_run_names
  unfold_pays
  ihave Hs3' := (Entails.of_eq (s3_step0 (F := F) d L A Tt f3 24 25 384 rfl rfl inb_S512_S16_384)) $$ Hs3'
  -- block 26
  sl_for (inv0 d L A Tt (s0c d L A) (tvc d L Tt) 400) $$ [Hs0' Hs2']
  case region =>
    exact region0 d L A Tt (s0c d L A) (tvc d L Tt) hin (hs0c d L A) (htvc d L Tt) 400 _ (⟨k1_off203, k1_off203_inb, k1_chk201, k1_chk201.dec, k1_idx201_inb, fun _ h => h⟩) (⟨k1_off204, k1_off204_inb, k1_chk202, k1_chk202.dec, k1_idx202_inb, fun _ h => h⟩) (⟨k1_off205, k1_off205_inb, k1_chk203, k1_chk203.dec, k1_idx203_inb, fun _ h => h⟩) (⟨k1_off206, k1_off206_inb, k1_chk204, k1_chk204.dec, k1_idx204_inb, fun _ h => h⟩) (⟨k1_off207, k1_off207_inb, k1_chk205, k1_chk205.dec, k1_idx205_inb, fun _ h => h⟩) (⟨k1_off208, k1_off208_inb, k1_chk206, k1_chk206.dec, k1_idx206_inb, fun _ h => h⟩) (⟨k1_off209, k1_off209_inb, k1_chk207, k1_chk207.dec, k1_idx207_inb, fun _ h => h⟩) (⟨k1_off210, k1_off210_inb, k1_chk208, k1_chk208.dec, k1_idx208_inb, fun _ h => h⟩) (fun k => ⟨congrFun (k1_off203_eq k) 0, congrFun (k1_off203_eq k) 1⟩) (fun k => ⟨congrFun (k1_off204_eq k) 0, congrFun (k1_off204_eq k) 1⟩) (fun k => ⟨congrFun (k1_off205_eq k) 0, congrFun (k1_off205_eq k) 1⟩) (fun k => ⟨congrFun (k1_off206_eq k) 0, congrFun (k1_off206_eq k) 1⟩) (fun k => ⟨congrFun (k1_off207_eq k) 0, congrFun (k1_off207_eq k) 1⟩) (fun k => ⟨congrFun (k1_off208_eq k) 0, congrFun (k1_off208_eq k) 1⟩) (fun k => ⟨congrFun (k1_off209_eq k) 0, congrFun (k1_off209_eq k) 1⟩) (fun k => ⟨congrFun (k1_off210_eq k) 0, congrFun (k1_off210_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t26_loop.lb k1_t26_loop.ub k1_t26_loop.st = 13 from trips13] at hacc
  subst hacc
  sl_exec
  sl_unfold_run_names
  unfold_pays
  ihave Hs3' := (Entails.of_eq (s3_step0 (F := F) d L A Tt f3 25 26 400 rfl rfl inb_S512_S16_400)) $$ Hs3'
  -- block 27
  sl_for (inv0 d L A Tt (s0c d L A) (tvc d L Tt) 416) $$ [Hs0' Hs2']
  case region =>
    exact region0 d L A Tt (s0c d L A) (tvc d L Tt) hin (hs0c d L A) (htvc d L Tt) 416 _ (⟨k1_off211, k1_off211_inb, k1_chk209, k1_chk209.dec, k1_idx209_inb, fun _ h => h⟩) (⟨k1_off212, k1_off212_inb, k1_chk210, k1_chk210.dec, k1_idx210_inb, fun _ h => h⟩) (⟨k1_off213, k1_off213_inb, k1_chk211, k1_chk211.dec, k1_idx211_inb, fun _ h => h⟩) (⟨k1_off214, k1_off214_inb, k1_chk212, k1_chk212.dec, k1_idx212_inb, fun _ h => h⟩) (⟨k1_off215, k1_off215_inb, k1_chk213, k1_chk213.dec, k1_idx213_inb, fun _ h => h⟩) (⟨k1_off216, k1_off216_inb, k1_chk214, k1_chk214.dec, k1_idx214_inb, fun _ h => h⟩) (⟨k1_off217, k1_off217_inb, k1_chk215, k1_chk215.dec, k1_idx215_inb, fun _ h => h⟩) (⟨k1_off218, k1_off218_inb, k1_chk216, k1_chk216.dec, k1_idx216_inb, fun _ h => h⟩) (fun k => ⟨congrFun (k1_off211_eq k) 0, congrFun (k1_off211_eq k) 1⟩) (fun k => ⟨congrFun (k1_off212_eq k) 0, congrFun (k1_off212_eq k) 1⟩) (fun k => ⟨congrFun (k1_off213_eq k) 0, congrFun (k1_off213_eq k) 1⟩) (fun k => ⟨congrFun (k1_off214_eq k) 0, congrFun (k1_off214_eq k) 1⟩) (fun k => ⟨congrFun (k1_off215_eq k) 0, congrFun (k1_off215_eq k) 1⟩) (fun k => ⟨congrFun (k1_off216_eq k) 0, congrFun (k1_off216_eq k) 1⟩) (fun k => ⟨congrFun (k1_off217_eq k) 0, congrFun (k1_off217_eq k) 1⟩) (fun k => ⟨congrFun (k1_off218_eq k) 0, congrFun (k1_off218_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t27_loop.lb k1_t27_loop.ub k1_t27_loop.st = 13 from trips13] at hacc
  subst hacc
  sl_exec
  sl_unfold_run_names
  unfold_pays
  ihave Hs3' := (Entails.of_eq (s3_step0 (F := F) d L A Tt f3 26 27 416 rfl rfl inb_S512_S16_416)) $$ Hs3'
  -- block 28
  sl_for (inv0 d L A Tt (s0c d L A) (tvc d L Tt) 432) $$ [Hs0' Hs2']
  case region =>
    exact region0 d L A Tt (s0c d L A) (tvc d L Tt) hin (hs0c d L A) (htvc d L Tt) 432 _ (⟨k1_off219, k1_off219_inb, k1_chk217, k1_chk217.dec, k1_idx217_inb, fun _ h => h⟩) (⟨k1_off220, k1_off220_inb, k1_chk218, k1_chk218.dec, k1_idx218_inb, fun _ h => h⟩) (⟨k1_off221, k1_off221_inb, k1_chk219, k1_chk219.dec, k1_idx219_inb, fun _ h => h⟩) (⟨k1_off222, k1_off222_inb, k1_chk220, k1_chk220.dec, k1_idx220_inb, fun _ h => h⟩) (⟨k1_off223, k1_off223_inb, k1_chk221, k1_chk221.dec, k1_idx221_inb, fun _ h => h⟩) (⟨k1_off224, k1_off224_inb, k1_chk222, k1_chk222.dec, k1_idx222_inb, fun _ h => h⟩) (⟨k1_off225, k1_off225_inb, k1_chk223, k1_chk223.dec, k1_idx223_inb, fun _ h => h⟩) (⟨k1_off226, k1_off226_inb, k1_chk224, k1_chk224.dec, k1_idx224_inb, fun _ h => h⟩) (fun k => ⟨congrFun (k1_off219_eq k) 0, congrFun (k1_off219_eq k) 1⟩) (fun k => ⟨congrFun (k1_off220_eq k) 0, congrFun (k1_off220_eq k) 1⟩) (fun k => ⟨congrFun (k1_off221_eq k) 0, congrFun (k1_off221_eq k) 1⟩) (fun k => ⟨congrFun (k1_off222_eq k) 0, congrFun (k1_off222_eq k) 1⟩) (fun k => ⟨congrFun (k1_off223_eq k) 0, congrFun (k1_off223_eq k) 1⟩) (fun k => ⟨congrFun (k1_off224_eq k) 0, congrFun (k1_off224_eq k) 1⟩) (fun k => ⟨congrFun (k1_off225_eq k) 0, congrFun (k1_off225_eq k) 1⟩) (fun k => ⟨congrFun (k1_off226_eq k) 0, congrFun (k1_off226_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t28_loop.lb k1_t28_loop.ub k1_t28_loop.st = 13 from trips13] at hacc
  subst hacc
  sl_exec
  sl_unfold_run_names
  unfold_pays
  ihave Hs3' := (Entails.of_eq (s3_step0 (F := F) d L A Tt f3 27 28 432 rfl rfl inb_S512_S16_432)) $$ Hs3'
  -- block 29
  sl_for (inv0 d L A Tt (s0c d L A) (tvc d L Tt) 448) $$ [Hs0' Hs2']
  case region =>
    exact region0 d L A Tt (s0c d L A) (tvc d L Tt) hin (hs0c d L A) (htvc d L Tt) 448 _ (⟨k1_off227, k1_off227_inb, k1_chk225, k1_chk225.dec, k1_idx225_inb, fun _ h => h⟩) (⟨k1_off228, k1_off228_inb, k1_chk226, k1_chk226.dec, k1_idx226_inb, fun _ h => h⟩) (⟨k1_off229, k1_off229_inb, k1_chk227, k1_chk227.dec, k1_idx227_inb, fun _ h => h⟩) (⟨k1_off230, k1_off230_inb, k1_chk228, k1_chk228.dec, k1_idx228_inb, fun _ h => h⟩) (⟨k1_off231, k1_off231_inb, k1_chk229, k1_chk229.dec, k1_idx229_inb, fun _ h => h⟩) (⟨k1_off232, k1_off232_inb, k1_chk230, k1_chk230.dec, k1_idx230_inb, fun _ h => h⟩) (⟨k1_off233, k1_off233_inb, k1_chk231, k1_chk231.dec, k1_idx231_inb, fun _ h => h⟩) (⟨k1_off234, k1_off234_inb, k1_chk232, k1_chk232.dec, k1_idx232_inb, fun _ h => h⟩) (fun k => ⟨congrFun (k1_off227_eq k) 0, congrFun (k1_off227_eq k) 1⟩) (fun k => ⟨congrFun (k1_off228_eq k) 0, congrFun (k1_off228_eq k) 1⟩) (fun k => ⟨congrFun (k1_off229_eq k) 0, congrFun (k1_off229_eq k) 1⟩) (fun k => ⟨congrFun (k1_off230_eq k) 0, congrFun (k1_off230_eq k) 1⟩) (fun k => ⟨congrFun (k1_off231_eq k) 0, congrFun (k1_off231_eq k) 1⟩) (fun k => ⟨congrFun (k1_off232_eq k) 0, congrFun (k1_off232_eq k) 1⟩) (fun k => ⟨congrFun (k1_off233_eq k) 0, congrFun (k1_off233_eq k) 1⟩) (fun k => ⟨congrFun (k1_off234_eq k) 0, congrFun (k1_off234_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t29_loop.lb k1_t29_loop.ub k1_t29_loop.st = 13 from trips13] at hacc
  subst hacc
  sl_exec
  sl_unfold_run_names
  unfold_pays
  ihave Hs3' := (Entails.of_eq (s3_step0 (F := F) d L A Tt f3 28 29 448 rfl rfl inb_S512_S16_448)) $$ Hs3'
  -- block 30
  sl_for (inv0 d L A Tt (s0c d L A) (tvc d L Tt) 464) $$ [Hs0' Hs2']
  case region =>
    exact region0 d L A Tt (s0c d L A) (tvc d L Tt) hin (hs0c d L A) (htvc d L Tt) 464 _ (⟨k1_off235, k1_off235_inb, k1_chk233, k1_chk233.dec, k1_idx233_inb, fun _ h => h⟩) (⟨k1_off236, k1_off236_inb, k1_chk234, k1_chk234.dec, k1_idx234_inb, fun _ h => h⟩) (⟨k1_off237, k1_off237_inb, k1_chk235, k1_chk235.dec, k1_idx235_inb, fun _ h => h⟩) (⟨k1_off238, k1_off238_inb, k1_chk236, k1_chk236.dec, k1_idx236_inb, fun _ h => h⟩) (⟨k1_off239, k1_off239_inb, k1_chk237, k1_chk237.dec, k1_idx237_inb, fun _ h => h⟩) (⟨k1_off240, k1_off240_inb, k1_chk238, k1_chk238.dec, k1_idx238_inb, fun _ h => h⟩) (⟨k1_off241, k1_off241_inb, k1_chk239, k1_chk239.dec, k1_idx239_inb, fun _ h => h⟩) (⟨k1_off242, k1_off242_inb, k1_chk240, k1_chk240.dec, k1_idx240_inb, fun _ h => h⟩) (fun k => ⟨congrFun (k1_off235_eq k) 0, congrFun (k1_off235_eq k) 1⟩) (fun k => ⟨congrFun (k1_off236_eq k) 0, congrFun (k1_off236_eq k) 1⟩) (fun k => ⟨congrFun (k1_off237_eq k) 0, congrFun (k1_off237_eq k) 1⟩) (fun k => ⟨congrFun (k1_off238_eq k) 0, congrFun (k1_off238_eq k) 1⟩) (fun k => ⟨congrFun (k1_off239_eq k) 0, congrFun (k1_off239_eq k) 1⟩) (fun k => ⟨congrFun (k1_off240_eq k) 0, congrFun (k1_off240_eq k) 1⟩) (fun k => ⟨congrFun (k1_off241_eq k) 0, congrFun (k1_off241_eq k) 1⟩) (fun k => ⟨congrFun (k1_off242_eq k) 0, congrFun (k1_off242_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t30_loop.lb k1_t30_loop.ub k1_t30_loop.st = 13 from trips13] at hacc
  subst hacc
  sl_exec
  sl_unfold_run_names
  unfold_pays
  ihave Hs3' := (Entails.of_eq (s3_step0 (F := F) d L A Tt f3 29 30 464 rfl rfl inb_S512_S16_464)) $$ Hs3'
  -- block 31
  sl_for (inv0 d L A Tt (s0c d L A) (tvc d L Tt) 480) $$ [Hs0' Hs2']
  case region =>
    exact region0 d L A Tt (s0c d L A) (tvc d L Tt) hin (hs0c d L A) (htvc d L Tt) 480 _ (⟨k1_off243, k1_off243_inb, k1_chk241, k1_chk241.dec, k1_idx241_inb, fun _ h => h⟩) (⟨k1_off244, k1_off244_inb, k1_chk242, k1_chk242.dec, k1_idx242_inb, fun _ h => h⟩) (⟨k1_off245, k1_off245_inb, k1_chk243, k1_chk243.dec, k1_idx243_inb, fun _ h => h⟩) (⟨k1_off246, k1_off246_inb, k1_chk244, k1_chk244.dec, k1_idx244_inb, fun _ h => h⟩) (⟨k1_off247, k1_off247_inb, k1_chk245, k1_chk245.dec, k1_idx245_inb, fun _ h => h⟩) (⟨k1_off248, k1_off248_inb, k1_chk246, k1_chk246.dec, k1_idx246_inb, fun _ h => h⟩) (⟨k1_off249, k1_off249_inb, k1_chk247, k1_chk247.dec, k1_idx247_inb, fun _ h => h⟩) (⟨k1_off250, k1_off250_inb, k1_chk248, k1_chk248.dec, k1_idx248_inb, fun _ h => h⟩) (fun k => ⟨congrFun (k1_off243_eq k) 0, congrFun (k1_off243_eq k) 1⟩) (fun k => ⟨congrFun (k1_off244_eq k) 0, congrFun (k1_off244_eq k) 1⟩) (fun k => ⟨congrFun (k1_off245_eq k) 0, congrFun (k1_off245_eq k) 1⟩) (fun k => ⟨congrFun (k1_off246_eq k) 0, congrFun (k1_off246_eq k) 1⟩) (fun k => ⟨congrFun (k1_off247_eq k) 0, congrFun (k1_off247_eq k) 1⟩) (fun k => ⟨congrFun (k1_off248_eq k) 0, congrFun (k1_off248_eq k) 1⟩) (fun k => ⟨congrFun (k1_off249_eq k) 0, congrFun (k1_off249_eq k) 1⟩) (fun k => ⟨congrFun (k1_off250_eq k) 0, congrFun (k1_off250_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t31_loop.lb k1_t31_loop.ub k1_t31_loop.st = 13 from trips13] at hacc
  subst hacc
  sl_exec
  sl_unfold_run_names
  unfold_pays
  ihave Hs3' := (Entails.of_eq (s3_step0 (F := F) d L A Tt f3 30 31 480 rfl rfl inb_S512_S16_480)) $$ Hs3'
  -- block 32
  sl_for (inv0 d L A Tt (s0c d L A) (tvc d L Tt) 496) $$ [Hs0' Hs2']
  case region =>
    exact region0 d L A Tt (s0c d L A) (tvc d L Tt) hin (hs0c d L A) (htvc d L Tt) 496 _ (⟨k1_off251, k1_off251_inb, k1_chk249, k1_chk249.dec, k1_idx249_inb, fun _ h => h⟩) (⟨k1_off252, k1_off252_inb, k1_chk250, k1_chk250.dec, k1_idx250_inb, fun _ h => h⟩) (⟨k1_off253, k1_off253_inb, k1_chk251, k1_chk251.dec, k1_idx251_inb, fun _ h => h⟩) (⟨k1_off254, k1_off254_inb, k1_chk252, k1_chk252.dec, k1_idx252_inb, fun _ h => h⟩) (⟨k1_off255, k1_off255_inb, k1_chk253, k1_chk253.dec, k1_idx253_inb, fun _ h => h⟩) (⟨k1_off256, k1_off256_inb, k1_chk254, k1_chk254.dec, k1_idx254_inb, fun _ h => h⟩) (⟨k1_off257, k1_off257_inb, k1_chk255, k1_chk255.dec, k1_idx255_inb, fun _ h => h⟩) (⟨k1_off258, k1_off258_inb, k1_chk256, k1_chk256.dec, k1_idx256_inb, fun _ h => h⟩) (fun k => ⟨congrFun (k1_off251_eq k) 0, congrFun (k1_off251_eq k) 1⟩) (fun k => ⟨congrFun (k1_off252_eq k) 0, congrFun (k1_off252_eq k) 1⟩) (fun k => ⟨congrFun (k1_off253_eq k) 0, congrFun (k1_off253_eq k) 1⟩) (fun k => ⟨congrFun (k1_off254_eq k) 0, congrFun (k1_off254_eq k) 1⟩) (fun k => ⟨congrFun (k1_off255_eq k) 0, congrFun (k1_off255_eq k) 1⟩) (fun k => ⟨congrFun (k1_off256_eq k) 0, congrFun (k1_off256_eq k) 1⟩) (fun k => ⟨congrFun (k1_off257_eq k) 0, congrFun (k1_off257_eq k) 1⟩) (fun k => ⟨congrFun (k1_off258_eq k) 0, congrFun (k1_off258_eq k) 1⟩)
  · unfold inv0
    isplitr
    · ipureintro; rfl
    isplitl [Hs0']
    · iexact Hs0'
    · iexact Hs2'
  iintro %acc HI
  unfold inv0
  icases HI with ⟨%hacc, Hs0', Hs2'⟩
  rw [show Scf.trips k1_t32_loop.lb k1_t32_loop.ub k1_t32_loop.st = 13 from trips13] at hacc
  subst hacc
  sl_exec
  sl_unfold_run_names
  unfold_pays
  ihave Hs3' := (Entails.of_eq (s3_step0 (F := F) d L A Tt f3 31 32 496 rfl rfl inb_S512_S16_496)) $$ Hs3'
  -- the second index copy has landed; the first stretch is stored in full
  ihave Hs1' := (Entails.of_eq (land1 (F := F) d L A f1)) $$ Hs1'
  ihave Hs3' := (Entails.of_eq (congrArg (fun f => ((Memref.whole cc1_scratch3 : Memref sig .scVector .vmem S512 .f32).view.loc (V d (cV L) (jV L)) ↦{fullShare} f : sProp (MM F))) (out1_full d L A Tt f3))) $$ Hs3'
  -- block 33
  sl_for (inv1 d L A Tt (s1c d L A) (tvc d L Tt) 0) $$ [Hs1' Hs2']
  case region =>
    exact region1 d L A Tt (s1c d L A) (tvc d L Tt) hin (hs1c d L A) (htvc d L Tt) 0 _ (⟨k1_off259, k1_off259_inb, k1_chk257, k1_chk257.dec, k1_idx257_inb, fun _ h => h⟩) (⟨k1_off260, k1_off260_inb, k1_chk258, k1_chk258.dec, k1_idx258_inb, fun _ h => h⟩) (⟨k1_off261, k1_off261_inb, k1_chk259, k1_chk259.dec, k1_idx259_inb, fun _ h => h⟩) (⟨k1_off262, k1_off262_inb, k1_chk260, k1_chk260.dec, k1_idx260_inb, fun _ h => h⟩) (⟨k1_off263, k1_off263_inb, k1_chk261, k1_chk261.dec, k1_idx261_inb, fun _ h => h⟩) (⟨k1_off264, k1_off264_inb, k1_chk262, k1_chk262.dec, k1_idx262_inb, fun _ h => h⟩) (⟨k1_off265, k1_off265_inb, k1_chk263, k1_chk263.dec, k1_idx263_inb, fun _ h => h⟩) (⟨k1_off266, k1_off266_inb, k1_chk264, k1_chk264.dec, k1_idx264_inb, fun _ h => h⟩) (fun k => ⟨congrFun (k1_off259_eq k) 0, congrFun (k1_off259_eq k) 1⟩) (fun k => ⟨congrFun (k1_off260_eq k) 0, congrFun (k1_off260_eq k) 1⟩) (fun k => ⟨congrFun (k1_off261_eq k) 0, congrFun (k1_off261_eq k) 1⟩) (fun k => ⟨congrFun (k1_off262_eq k) 0, congrFun (k1_off262_eq k) 1⟩) (fun k => ⟨congrFun (k1_off263_eq k) 0, congrFun (k1_off263_eq k) 1⟩) (fun k => ⟨congrFun (k1_off264_eq k) 0, congrFun (k1_off264_eq k) 1⟩) (fun k => ⟨congrFun (k1_off265_eq k) 0, congrFun (k1_off265_eq k) 1⟩) (fun k => ⟨congrFun (k1_off266_eq k) 0, congrFun (k1_off266_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t33_loop.lb k1_t33_loop.ub k1_t33_loop.st = 12 from trips12] at hacc
  subst hacc
  sl_exec
  sl_unfold_run_names
  unfold_pays
  ihave Hs3' := (Entails.of_eq (s3_step1 (F := F) d L A Tt 0 1 0 rfl rfl inb_S512_S16_0)) $$ Hs3'
  -- block 34
  sl_for (inv1 d L A Tt (s1c d L A) (tvc d L Tt) 16) $$ [Hs1' Hs2']
  case region =>
    exact region1 d L A Tt (s1c d L A) (tvc d L Tt) hin (hs1c d L A) (htvc d L Tt) 16 _ (⟨k1_off267, k1_off267_inb, k1_chk265, k1_chk265.dec, k1_idx265_inb, fun _ h => h⟩) (⟨k1_off268, k1_off268_inb, k1_chk266, k1_chk266.dec, k1_idx266_inb, fun _ h => h⟩) (⟨k1_off269, k1_off269_inb, k1_chk267, k1_chk267.dec, k1_idx267_inb, fun _ h => h⟩) (⟨k1_off270, k1_off270_inb, k1_chk268, k1_chk268.dec, k1_idx268_inb, fun _ h => h⟩) (⟨k1_off271, k1_off271_inb, k1_chk269, k1_chk269.dec, k1_idx269_inb, fun _ h => h⟩) (⟨k1_off272, k1_off272_inb, k1_chk270, k1_chk270.dec, k1_idx270_inb, fun _ h => h⟩) (⟨k1_off273, k1_off273_inb, k1_chk271, k1_chk271.dec, k1_idx271_inb, fun _ h => h⟩) (⟨k1_off274, k1_off274_inb, k1_chk272, k1_chk272.dec, k1_idx272_inb, fun _ h => h⟩) (fun k => ⟨congrFun (k1_off267_eq k) 0, congrFun (k1_off267_eq k) 1⟩) (fun k => ⟨congrFun (k1_off268_eq k) 0, congrFun (k1_off268_eq k) 1⟩) (fun k => ⟨congrFun (k1_off269_eq k) 0, congrFun (k1_off269_eq k) 1⟩) (fun k => ⟨congrFun (k1_off270_eq k) 0, congrFun (k1_off270_eq k) 1⟩) (fun k => ⟨congrFun (k1_off271_eq k) 0, congrFun (k1_off271_eq k) 1⟩) (fun k => ⟨congrFun (k1_off272_eq k) 0, congrFun (k1_off272_eq k) 1⟩) (fun k => ⟨congrFun (k1_off273_eq k) 0, congrFun (k1_off273_eq k) 1⟩) (fun k => ⟨congrFun (k1_off274_eq k) 0, congrFun (k1_off274_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t34_loop.lb k1_t34_loop.ub k1_t34_loop.st = 12 from trips12] at hacc
  subst hacc
  sl_exec
  sl_unfold_run_names
  unfold_pays
  ihave Hs3' := (Entails.of_eq (s3_step1 (F := F) d L A Tt 1 2 16 rfl rfl inb_S512_S16_16)) $$ Hs3'
  -- block 35
  sl_for (inv1 d L A Tt (s1c d L A) (tvc d L Tt) 32) $$ [Hs1' Hs2']
  case region =>
    exact region1 d L A Tt (s1c d L A) (tvc d L Tt) hin (hs1c d L A) (htvc d L Tt) 32 _ (⟨k1_off275, k1_off275_inb, k1_chk273, k1_chk273.dec, k1_idx273_inb, fun _ h => h⟩) (⟨k1_off276, k1_off276_inb, k1_chk274, k1_chk274.dec, k1_idx274_inb, fun _ h => h⟩) (⟨k1_off277, k1_off277_inb, k1_chk275, k1_chk275.dec, k1_idx275_inb, fun _ h => h⟩) (⟨k1_off278, k1_off278_inb, k1_chk276, k1_chk276.dec, k1_idx276_inb, fun _ h => h⟩) (⟨k1_off279, k1_off279_inb, k1_chk277, k1_chk277.dec, k1_idx277_inb, fun _ h => h⟩) (⟨k1_off280, k1_off280_inb, k1_chk278, k1_chk278.dec, k1_idx278_inb, fun _ h => h⟩) (⟨k1_off281, k1_off281_inb, k1_chk279, k1_chk279.dec, k1_idx279_inb, fun _ h => h⟩) (⟨k1_off282, k1_off282_inb, k1_chk280, k1_chk280.dec, k1_idx280_inb, fun _ h => h⟩) (fun k => ⟨congrFun (k1_off275_eq k) 0, congrFun (k1_off275_eq k) 1⟩) (fun k => ⟨congrFun (k1_off276_eq k) 0, congrFun (k1_off276_eq k) 1⟩) (fun k => ⟨congrFun (k1_off277_eq k) 0, congrFun (k1_off277_eq k) 1⟩) (fun k => ⟨congrFun (k1_off278_eq k) 0, congrFun (k1_off278_eq k) 1⟩) (fun k => ⟨congrFun (k1_off279_eq k) 0, congrFun (k1_off279_eq k) 1⟩) (fun k => ⟨congrFun (k1_off280_eq k) 0, congrFun (k1_off280_eq k) 1⟩) (fun k => ⟨congrFun (k1_off281_eq k) 0, congrFun (k1_off281_eq k) 1⟩) (fun k => ⟨congrFun (k1_off282_eq k) 0, congrFun (k1_off282_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t35_loop.lb k1_t35_loop.ub k1_t35_loop.st = 12 from trips12] at hacc
  subst hacc
  sl_exec
  sl_unfold_run_names
  unfold_pays
  ihave Hs3' := (Entails.of_eq (s3_step1 (F := F) d L A Tt 2 3 32 rfl rfl inb_S512_S16_32)) $$ Hs3'
  -- block 36
  sl_for (inv1 d L A Tt (s1c d L A) (tvc d L Tt) 48) $$ [Hs1' Hs2']
  case region =>
    exact region1 d L A Tt (s1c d L A) (tvc d L Tt) hin (hs1c d L A) (htvc d L Tt) 48 _ (⟨k1_off283, k1_off283_inb, k1_chk281, k1_chk281.dec, k1_idx281_inb, fun _ h => h⟩) (⟨k1_off284, k1_off284_inb, k1_chk282, k1_chk282.dec, k1_idx282_inb, fun _ h => h⟩) (⟨k1_off285, k1_off285_inb, k1_chk283, k1_chk283.dec, k1_idx283_inb, fun _ h => h⟩) (⟨k1_off286, k1_off286_inb, k1_chk284, k1_chk284.dec, k1_idx284_inb, fun _ h => h⟩) (⟨k1_off287, k1_off287_inb, k1_chk285, k1_chk285.dec, k1_idx285_inb, fun _ h => h⟩) (⟨k1_off288, k1_off288_inb, k1_chk286, k1_chk286.dec, k1_idx286_inb, fun _ h => h⟩) (⟨k1_off289, k1_off289_inb, k1_chk287, k1_chk287.dec, k1_idx287_inb, fun _ h => h⟩) (⟨k1_off290, k1_off290_inb, k1_chk288, k1_chk288.dec, k1_idx288_inb, fun _ h => h⟩) (fun k => ⟨congrFun (k1_off283_eq k) 0, congrFun (k1_off283_eq k) 1⟩) (fun k => ⟨congrFun (k1_off284_eq k) 0, congrFun (k1_off284_eq k) 1⟩) (fun k => ⟨congrFun (k1_off285_eq k) 0, congrFun (k1_off285_eq k) 1⟩) (fun k => ⟨congrFun (k1_off286_eq k) 0, congrFun (k1_off286_eq k) 1⟩) (fun k => ⟨congrFun (k1_off287_eq k) 0, congrFun (k1_off287_eq k) 1⟩) (fun k => ⟨congrFun (k1_off288_eq k) 0, congrFun (k1_off288_eq k) 1⟩) (fun k => ⟨congrFun (k1_off289_eq k) 0, congrFun (k1_off289_eq k) 1⟩) (fun k => ⟨congrFun (k1_off290_eq k) 0, congrFun (k1_off290_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t36_loop.lb k1_t36_loop.ub k1_t36_loop.st = 12 from trips12] at hacc
  subst hacc
  sl_exec
  sl_unfold_run_names
  unfold_pays
  ihave Hs3' := (Entails.of_eq (s3_step1 (F := F) d L A Tt 3 4 48 rfl rfl inb_S512_S16_48)) $$ Hs3'
  -- block 37
  sl_for (inv1 d L A Tt (s1c d L A) (tvc d L Tt) 64) $$ [Hs1' Hs2']
  case region =>
    exact region1 d L A Tt (s1c d L A) (tvc d L Tt) hin (hs1c d L A) (htvc d L Tt) 64 _ (⟨k1_off291, k1_off291_inb, k1_chk289, k1_chk289.dec, k1_idx289_inb, fun _ h => h⟩) (⟨k1_off292, k1_off292_inb, k1_chk290, k1_chk290.dec, k1_idx290_inb, fun _ h => h⟩) (⟨k1_off293, k1_off293_inb, k1_chk291, k1_chk291.dec, k1_idx291_inb, fun _ h => h⟩) (⟨k1_off294, k1_off294_inb, k1_chk292, k1_chk292.dec, k1_idx292_inb, fun _ h => h⟩) (⟨k1_off295, k1_off295_inb, k1_chk293, k1_chk293.dec, k1_idx293_inb, fun _ h => h⟩) (⟨k1_off296, k1_off296_inb, k1_chk294, k1_chk294.dec, k1_idx294_inb, fun _ h => h⟩) (⟨k1_off297, k1_off297_inb, k1_chk295, k1_chk295.dec, k1_idx295_inb, fun _ h => h⟩) (⟨k1_off298, k1_off298_inb, k1_chk296, k1_chk296.dec, k1_idx296_inb, fun _ h => h⟩) (fun k => ⟨congrFun (k1_off291_eq k) 0, congrFun (k1_off291_eq k) 1⟩) (fun k => ⟨congrFun (k1_off292_eq k) 0, congrFun (k1_off292_eq k) 1⟩) (fun k => ⟨congrFun (k1_off293_eq k) 0, congrFun (k1_off293_eq k) 1⟩) (fun k => ⟨congrFun (k1_off294_eq k) 0, congrFun (k1_off294_eq k) 1⟩) (fun k => ⟨congrFun (k1_off295_eq k) 0, congrFun (k1_off295_eq k) 1⟩) (fun k => ⟨congrFun (k1_off296_eq k) 0, congrFun (k1_off296_eq k) 1⟩) (fun k => ⟨congrFun (k1_off297_eq k) 0, congrFun (k1_off297_eq k) 1⟩) (fun k => ⟨congrFun (k1_off298_eq k) 0, congrFun (k1_off298_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t37_loop.lb k1_t37_loop.ub k1_t37_loop.st = 12 from trips12] at hacc
  subst hacc
  sl_exec
  sl_unfold_run_names
  unfold_pays
  ihave Hs3' := (Entails.of_eq (s3_step1 (F := F) d L A Tt 4 5 64 rfl rfl inb_S512_S16_64)) $$ Hs3'
  -- block 38
  sl_for (inv1 d L A Tt (s1c d L A) (tvc d L Tt) 80) $$ [Hs1' Hs2']
  case region =>
    exact region1 d L A Tt (s1c d L A) (tvc d L Tt) hin (hs1c d L A) (htvc d L Tt) 80 _ (⟨k1_off299, k1_off299_inb, k1_chk297, k1_chk297.dec, k1_idx297_inb, fun _ h => h⟩) (⟨k1_off300, k1_off300_inb, k1_chk298, k1_chk298.dec, k1_idx298_inb, fun _ h => h⟩) (⟨k1_off301, k1_off301_inb, k1_chk299, k1_chk299.dec, k1_idx299_inb, fun _ h => h⟩) (⟨k1_off302, k1_off302_inb, k1_chk300, k1_chk300.dec, k1_idx300_inb, fun _ h => h⟩) (⟨k1_off303, k1_off303_inb, k1_chk301, k1_chk301.dec, k1_idx301_inb, fun _ h => h⟩) (⟨k1_off304, k1_off304_inb, k1_chk302, k1_chk302.dec, k1_idx302_inb, fun _ h => h⟩) (⟨k1_off305, k1_off305_inb, k1_chk303, k1_chk303.dec, k1_idx303_inb, fun _ h => h⟩) (⟨k1_off306, k1_off306_inb, k1_chk304, k1_chk304.dec, k1_idx304_inb, fun _ h => h⟩) (fun k => ⟨congrFun (k1_off299_eq k) 0, congrFun (k1_off299_eq k) 1⟩) (fun k => ⟨congrFun (k1_off300_eq k) 0, congrFun (k1_off300_eq k) 1⟩) (fun k => ⟨congrFun (k1_off301_eq k) 0, congrFun (k1_off301_eq k) 1⟩) (fun k => ⟨congrFun (k1_off302_eq k) 0, congrFun (k1_off302_eq k) 1⟩) (fun k => ⟨congrFun (k1_off303_eq k) 0, congrFun (k1_off303_eq k) 1⟩) (fun k => ⟨congrFun (k1_off304_eq k) 0, congrFun (k1_off304_eq k) 1⟩) (fun k => ⟨congrFun (k1_off305_eq k) 0, congrFun (k1_off305_eq k) 1⟩) (fun k => ⟨congrFun (k1_off306_eq k) 0, congrFun (k1_off306_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t38_loop.lb k1_t38_loop.ub k1_t38_loop.st = 12 from trips12] at hacc
  subst hacc
  sl_exec
  sl_unfold_run_names
  unfold_pays
  ihave Hs3' := (Entails.of_eq (s3_step1 (F := F) d L A Tt 5 6 80 rfl rfl inb_S512_S16_80)) $$ Hs3'
  -- block 39
  sl_for (inv1 d L A Tt (s1c d L A) (tvc d L Tt) 96) $$ [Hs1' Hs2']
  case region =>
    exact region1 d L A Tt (s1c d L A) (tvc d L Tt) hin (hs1c d L A) (htvc d L Tt) 96 _ (⟨k1_off307, k1_off307_inb, k1_chk305, k1_chk305.dec, k1_idx305_inb, fun _ h => h⟩) (⟨k1_off308, k1_off308_inb, k1_chk306, k1_chk306.dec, k1_idx306_inb, fun _ h => h⟩) (⟨k1_off309, k1_off309_inb, k1_chk307, k1_chk307.dec, k1_idx307_inb, fun _ h => h⟩) (⟨k1_off310, k1_off310_inb, k1_chk308, k1_chk308.dec, k1_idx308_inb, fun _ h => h⟩) (⟨k1_off311, k1_off311_inb, k1_chk309, k1_chk309.dec, k1_idx309_inb, fun _ h => h⟩) (⟨k1_off312, k1_off312_inb, k1_chk310, k1_chk310.dec, k1_idx310_inb, fun _ h => h⟩) (⟨k1_off313, k1_off313_inb, k1_chk311, k1_chk311.dec, k1_idx311_inb, fun _ h => h⟩) (⟨k1_off314, k1_off314_inb, k1_chk312, k1_chk312.dec, k1_idx312_inb, fun _ h => h⟩) (fun k => ⟨congrFun (k1_off307_eq k) 0, congrFun (k1_off307_eq k) 1⟩) (fun k => ⟨congrFun (k1_off308_eq k) 0, congrFun (k1_off308_eq k) 1⟩) (fun k => ⟨congrFun (k1_off309_eq k) 0, congrFun (k1_off309_eq k) 1⟩) (fun k => ⟨congrFun (k1_off310_eq k) 0, congrFun (k1_off310_eq k) 1⟩) (fun k => ⟨congrFun (k1_off311_eq k) 0, congrFun (k1_off311_eq k) 1⟩) (fun k => ⟨congrFun (k1_off312_eq k) 0, congrFun (k1_off312_eq k) 1⟩) (fun k => ⟨congrFun (k1_off313_eq k) 0, congrFun (k1_off313_eq k) 1⟩) (fun k => ⟨congrFun (k1_off314_eq k) 0, congrFun (k1_off314_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t39_loop.lb k1_t39_loop.ub k1_t39_loop.st = 12 from trips12] at hacc
  subst hacc
  sl_exec
  sl_unfold_run_names
  unfold_pays
  ihave Hs3' := (Entails.of_eq (s3_step1 (F := F) d L A Tt 6 7 96 rfl rfl inb_S512_S16_96)) $$ Hs3'
  -- block 40
  sl_for (inv1 d L A Tt (s1c d L A) (tvc d L Tt) 112) $$ [Hs1' Hs2']
  case region =>
    exact region1 d L A Tt (s1c d L A) (tvc d L Tt) hin (hs1c d L A) (htvc d L Tt) 112 _ (⟨k1_off315, k1_off315_inb, k1_chk313, k1_chk313.dec, k1_idx313_inb, fun _ h => h⟩) (⟨k1_off316, k1_off316_inb, k1_chk314, k1_chk314.dec, k1_idx314_inb, fun _ h => h⟩) (⟨k1_off317, k1_off317_inb, k1_chk315, k1_chk315.dec, k1_idx315_inb, fun _ h => h⟩) (⟨k1_off318, k1_off318_inb, k1_chk316, k1_chk316.dec, k1_idx316_inb, fun _ h => h⟩) (⟨k1_off319, k1_off319_inb, k1_chk317, k1_chk317.dec, k1_idx317_inb, fun _ h => h⟩) (⟨k1_off320, k1_off320_inb, k1_chk318, k1_chk318.dec, k1_idx318_inb, fun _ h => h⟩) (⟨k1_off321, k1_off321_inb, k1_chk319, k1_chk319.dec, k1_idx319_inb, fun _ h => h⟩) (⟨k1_off322, k1_off322_inb, k1_chk320, k1_chk320.dec, k1_idx320_inb, fun _ h => h⟩) (fun k => ⟨congrFun (k1_off315_eq k) 0, congrFun (k1_off315_eq k) 1⟩) (fun k => ⟨congrFun (k1_off316_eq k) 0, congrFun (k1_off316_eq k) 1⟩) (fun k => ⟨congrFun (k1_off317_eq k) 0, congrFun (k1_off317_eq k) 1⟩) (fun k => ⟨congrFun (k1_off318_eq k) 0, congrFun (k1_off318_eq k) 1⟩) (fun k => ⟨congrFun (k1_off319_eq k) 0, congrFun (k1_off319_eq k) 1⟩) (fun k => ⟨congrFun (k1_off320_eq k) 0, congrFun (k1_off320_eq k) 1⟩) (fun k => ⟨congrFun (k1_off321_eq k) 0, congrFun (k1_off321_eq k) 1⟩) (fun k => ⟨congrFun (k1_off322_eq k) 0, congrFun (k1_off322_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t40_loop.lb k1_t40_loop.ub k1_t40_loop.st = 12 from trips12] at hacc
  subst hacc
  sl_exec
  sl_unfold_run_names
  unfold_pays
  ihave Hs3' := (Entails.of_eq (s3_step1 (F := F) d L A Tt 7 8 112 rfl rfl inb_S512_S16_112)) $$ Hs3'
  -- block 41
  sl_for (inv1 d L A Tt (s1c d L A) (tvc d L Tt) 128) $$ [Hs1' Hs2']
  case region =>
    exact region1 d L A Tt (s1c d L A) (tvc d L Tt) hin (hs1c d L A) (htvc d L Tt) 128 _ (⟨k1_off323, k1_off323_inb, k1_chk321, k1_chk321.dec, k1_idx321_inb, fun _ h => h⟩) (⟨k1_off324, k1_off324_inb, k1_chk322, k1_chk322.dec, k1_idx322_inb, fun _ h => h⟩) (⟨k1_off325, k1_off325_inb, k1_chk323, k1_chk323.dec, k1_idx323_inb, fun _ h => h⟩) (⟨k1_off326, k1_off326_inb, k1_chk324, k1_chk324.dec, k1_idx324_inb, fun _ h => h⟩) (⟨k1_off327, k1_off327_inb, k1_chk325, k1_chk325.dec, k1_idx325_inb, fun _ h => h⟩) (⟨k1_off328, k1_off328_inb, k1_chk326, k1_chk326.dec, k1_idx326_inb, fun _ h => h⟩) (⟨k1_off329, k1_off329_inb, k1_chk327, k1_chk327.dec, k1_idx327_inb, fun _ h => h⟩) (⟨k1_off330, k1_off330_inb, k1_chk328, k1_chk328.dec, k1_idx328_inb, fun _ h => h⟩) (fun k => ⟨congrFun (k1_off323_eq k) 0, congrFun (k1_off323_eq k) 1⟩) (fun k => ⟨congrFun (k1_off324_eq k) 0, congrFun (k1_off324_eq k) 1⟩) (fun k => ⟨congrFun (k1_off325_eq k) 0, congrFun (k1_off325_eq k) 1⟩) (fun k => ⟨congrFun (k1_off326_eq k) 0, congrFun (k1_off326_eq k) 1⟩) (fun k => ⟨congrFun (k1_off327_eq k) 0, congrFun (k1_off327_eq k) 1⟩) (fun k => ⟨congrFun (k1_off328_eq k) 0, congrFun (k1_off328_eq k) 1⟩) (fun k => ⟨congrFun (k1_off329_eq k) 0, congrFun (k1_off329_eq k) 1⟩) (fun k => ⟨congrFun (k1_off330_eq k) 0, congrFun (k1_off330_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t41_loop.lb k1_t41_loop.ub k1_t41_loop.st = 12 from trips12] at hacc
  subst hacc
  sl_exec
  sl_unfold_run_names
  unfold_pays
  ihave Hs3' := (Entails.of_eq (s3_step1 (F := F) d L A Tt 8 9 128 rfl rfl inb_S512_S16_128)) $$ Hs3'
  -- block 42
  sl_for (inv1 d L A Tt (s1c d L A) (tvc d L Tt) 144) $$ [Hs1' Hs2']
  case region =>
    exact region1 d L A Tt (s1c d L A) (tvc d L Tt) hin (hs1c d L A) (htvc d L Tt) 144 _ (⟨k1_off331, k1_off331_inb, k1_chk329, k1_chk329.dec, k1_idx329_inb, fun _ h => h⟩) (⟨k1_off332, k1_off332_inb, k1_chk330, k1_chk330.dec, k1_idx330_inb, fun _ h => h⟩) (⟨k1_off333, k1_off333_inb, k1_chk331, k1_chk331.dec, k1_idx331_inb, fun _ h => h⟩) (⟨k1_off334, k1_off334_inb, k1_chk332, k1_chk332.dec, k1_idx332_inb, fun _ h => h⟩) (⟨k1_off335, k1_off335_inb, k1_chk333, k1_chk333.dec, k1_idx333_inb, fun _ h => h⟩) (⟨k1_off336, k1_off336_inb, k1_chk334, k1_chk334.dec, k1_idx334_inb, fun _ h => h⟩) (⟨k1_off337, k1_off337_inb, k1_chk335, k1_chk335.dec, k1_idx335_inb, fun _ h => h⟩) (⟨k1_off338, k1_off338_inb, k1_chk336, k1_chk336.dec, k1_idx336_inb, fun _ h => h⟩) (fun k => ⟨congrFun (k1_off331_eq k) 0, congrFun (k1_off331_eq k) 1⟩) (fun k => ⟨congrFun (k1_off332_eq k) 0, congrFun (k1_off332_eq k) 1⟩) (fun k => ⟨congrFun (k1_off333_eq k) 0, congrFun (k1_off333_eq k) 1⟩) (fun k => ⟨congrFun (k1_off334_eq k) 0, congrFun (k1_off334_eq k) 1⟩) (fun k => ⟨congrFun (k1_off335_eq k) 0, congrFun (k1_off335_eq k) 1⟩) (fun k => ⟨congrFun (k1_off336_eq k) 0, congrFun (k1_off336_eq k) 1⟩) (fun k => ⟨congrFun (k1_off337_eq k) 0, congrFun (k1_off337_eq k) 1⟩) (fun k => ⟨congrFun (k1_off338_eq k) 0, congrFun (k1_off338_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t42_loop.lb k1_t42_loop.ub k1_t42_loop.st = 12 from trips12] at hacc
  subst hacc
  sl_exec
  sl_unfold_run_names
  unfold_pays
  ihave Hs3' := (Entails.of_eq (s3_step1 (F := F) d L A Tt 9 10 144 rfl rfl inb_S512_S16_144)) $$ Hs3'
  -- block 43
  sl_for (inv1 d L A Tt (s1c d L A) (tvc d L Tt) 160) $$ [Hs1' Hs2']
  case region =>
    exact region1 d L A Tt (s1c d L A) (tvc d L Tt) hin (hs1c d L A) (htvc d L Tt) 160 _ (⟨k1_off339, k1_off339_inb, k1_chk337, k1_chk337.dec, k1_idx337_inb, fun _ h => h⟩) (⟨k1_off340, k1_off340_inb, k1_chk338, k1_chk338.dec, k1_idx338_inb, fun _ h => h⟩) (⟨k1_off341, k1_off341_inb, k1_chk339, k1_chk339.dec, k1_idx339_inb, fun _ h => h⟩) (⟨k1_off342, k1_off342_inb, k1_chk340, k1_chk340.dec, k1_idx340_inb, fun _ h => h⟩) (⟨k1_off343, k1_off343_inb, k1_chk341, k1_chk341.dec, k1_idx341_inb, fun _ h => h⟩) (⟨k1_off344, k1_off344_inb, k1_chk342, k1_chk342.dec, k1_idx342_inb, fun _ h => h⟩) (⟨k1_off345, k1_off345_inb, k1_chk343, k1_chk343.dec, k1_idx343_inb, fun _ h => h⟩) (⟨k1_off346, k1_off346_inb, k1_chk344, k1_chk344.dec, k1_idx344_inb, fun _ h => h⟩) (fun k => ⟨congrFun (k1_off339_eq k) 0, congrFun (k1_off339_eq k) 1⟩) (fun k => ⟨congrFun (k1_off340_eq k) 0, congrFun (k1_off340_eq k) 1⟩) (fun k => ⟨congrFun (k1_off341_eq k) 0, congrFun (k1_off341_eq k) 1⟩) (fun k => ⟨congrFun (k1_off342_eq k) 0, congrFun (k1_off342_eq k) 1⟩) (fun k => ⟨congrFun (k1_off343_eq k) 0, congrFun (k1_off343_eq k) 1⟩) (fun k => ⟨congrFun (k1_off344_eq k) 0, congrFun (k1_off344_eq k) 1⟩) (fun k => ⟨congrFun (k1_off345_eq k) 0, congrFun (k1_off345_eq k) 1⟩) (fun k => ⟨congrFun (k1_off346_eq k) 0, congrFun (k1_off346_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t43_loop.lb k1_t43_loop.ub k1_t43_loop.st = 12 from trips12] at hacc
  subst hacc
  sl_exec
  sl_unfold_run_names
  unfold_pays
  ihave Hs3' := (Entails.of_eq (s3_step1 (F := F) d L A Tt 10 11 160 rfl rfl inb_S512_S16_160)) $$ Hs3'
  -- block 44
  sl_for (inv1 d L A Tt (s1c d L A) (tvc d L Tt) 176) $$ [Hs1' Hs2']
  case region =>
    exact region1 d L A Tt (s1c d L A) (tvc d L Tt) hin (hs1c d L A) (htvc d L Tt) 176 _ (⟨k1_off347, k1_off347_inb, k1_chk345, k1_chk345.dec, k1_idx345_inb, fun _ h => h⟩) (⟨k1_off348, k1_off348_inb, k1_chk346, k1_chk346.dec, k1_idx346_inb, fun _ h => h⟩) (⟨k1_off349, k1_off349_inb, k1_chk347, k1_chk347.dec, k1_idx347_inb, fun _ h => h⟩) (⟨k1_off350, k1_off350_inb, k1_chk348, k1_chk348.dec, k1_idx348_inb, fun _ h => h⟩) (⟨k1_off351, k1_off351_inb, k1_chk349, k1_chk349.dec, k1_idx349_inb, fun _ h => h⟩) (⟨k1_off352, k1_off352_inb, k1_chk350, k1_chk350.dec, k1_idx350_inb, fun _ h => h⟩) (⟨k1_off353, k1_off353_inb, k1_chk351, k1_chk351.dec, k1_idx351_inb, fun _ h => h⟩) (⟨k1_off354, k1_off354_inb, k1_chk352, k1_chk352.dec, k1_idx352_inb, fun _ h => h⟩) (fun k => ⟨congrFun (k1_off347_eq k) 0, congrFun (k1_off347_eq k) 1⟩) (fun k => ⟨congrFun (k1_off348_eq k) 0, congrFun (k1_off348_eq k) 1⟩) (fun k => ⟨congrFun (k1_off349_eq k) 0, congrFun (k1_off349_eq k) 1⟩) (fun k => ⟨congrFun (k1_off350_eq k) 0, congrFun (k1_off350_eq k) 1⟩) (fun k => ⟨congrFun (k1_off351_eq k) 0, congrFun (k1_off351_eq k) 1⟩) (fun k => ⟨congrFun (k1_off352_eq k) 0, congrFun (k1_off352_eq k) 1⟩) (fun k => ⟨congrFun (k1_off353_eq k) 0, congrFun (k1_off353_eq k) 1⟩) (fun k => ⟨congrFun (k1_off354_eq k) 0, congrFun (k1_off354_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t44_loop.lb k1_t44_loop.ub k1_t44_loop.st = 12 from trips12] at hacc
  subst hacc
  sl_exec
  sl_unfold_run_names
  unfold_pays
  ihave Hs3' := (Entails.of_eq (s3_step1 (F := F) d L A Tt 11 12 176 rfl rfl inb_S512_S16_176)) $$ Hs3'
  -- block 45
  sl_for (inv1 d L A Tt (s1c d L A) (tvc d L Tt) 192) $$ [Hs1' Hs2']
  case region =>
    exact region1 d L A Tt (s1c d L A) (tvc d L Tt) hin (hs1c d L A) (htvc d L Tt) 192 _ (⟨k1_off355, k1_off355_inb, k1_chk353, k1_chk353.dec, k1_idx353_inb, fun _ h => h⟩) (⟨k1_off356, k1_off356_inb, k1_chk354, k1_chk354.dec, k1_idx354_inb, fun _ h => h⟩) (⟨k1_off357, k1_off357_inb, k1_chk355, k1_chk355.dec, k1_idx355_inb, fun _ h => h⟩) (⟨k1_off358, k1_off358_inb, k1_chk356, k1_chk356.dec, k1_idx356_inb, fun _ h => h⟩) (⟨k1_off359, k1_off359_inb, k1_chk357, k1_chk357.dec, k1_idx357_inb, fun _ h => h⟩) (⟨k1_off360, k1_off360_inb, k1_chk358, k1_chk358.dec, k1_idx358_inb, fun _ h => h⟩) (⟨k1_off361, k1_off361_inb, k1_chk359, k1_chk359.dec, k1_idx359_inb, fun _ h => h⟩) (⟨k1_off362, k1_off362_inb, k1_chk360, k1_chk360.dec, k1_idx360_inb, fun _ h => h⟩) (fun k => ⟨congrFun (k1_off355_eq k) 0, congrFun (k1_off355_eq k) 1⟩) (fun k => ⟨congrFun (k1_off356_eq k) 0, congrFun (k1_off356_eq k) 1⟩) (fun k => ⟨congrFun (k1_off357_eq k) 0, congrFun (k1_off357_eq k) 1⟩) (fun k => ⟨congrFun (k1_off358_eq k) 0, congrFun (k1_off358_eq k) 1⟩) (fun k => ⟨congrFun (k1_off359_eq k) 0, congrFun (k1_off359_eq k) 1⟩) (fun k => ⟨congrFun (k1_off360_eq k) 0, congrFun (k1_off360_eq k) 1⟩) (fun k => ⟨congrFun (k1_off361_eq k) 0, congrFun (k1_off361_eq k) 1⟩) (fun k => ⟨congrFun (k1_off362_eq k) 0, congrFun (k1_off362_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t45_loop.lb k1_t45_loop.ub k1_t45_loop.st = 12 from trips12] at hacc
  subst hacc
  sl_exec
  sl_unfold_run_names
  unfold_pays
  ihave Hs3' := (Entails.of_eq (s3_step1 (F := F) d L A Tt 12 13 192 rfl rfl inb_S512_S16_192)) $$ Hs3'
  -- block 46
  sl_for (inv1 d L A Tt (s1c d L A) (tvc d L Tt) 208) $$ [Hs1' Hs2']
  case region =>
    exact region1 d L A Tt (s1c d L A) (tvc d L Tt) hin (hs1c d L A) (htvc d L Tt) 208 _ (⟨k1_off363, k1_off363_inb, k1_chk361, k1_chk361.dec, k1_idx361_inb, fun _ h => h⟩) (⟨k1_off364, k1_off364_inb, k1_chk362, k1_chk362.dec, k1_idx362_inb, fun _ h => h⟩) (⟨k1_off365, k1_off365_inb, k1_chk363, k1_chk363.dec, k1_idx363_inb, fun _ h => h⟩) (⟨k1_off366, k1_off366_inb, k1_chk364, k1_chk364.dec, k1_idx364_inb, fun _ h => h⟩) (⟨k1_off367, k1_off367_inb, k1_chk365, k1_chk365.dec, k1_idx365_inb, fun _ h => h⟩) (⟨k1_off368, k1_off368_inb, k1_chk366, k1_chk366.dec, k1_idx366_inb, fun _ h => h⟩) (⟨k1_off369, k1_off369_inb, k1_chk367, k1_chk367.dec, k1_idx367_inb, fun _ h => h⟩) (⟨k1_off370, k1_off370_inb, k1_chk368, k1_chk368.dec, k1_idx368_inb, fun _ h => h⟩) (fun k => ⟨congrFun (k1_off363_eq k) 0, congrFun (k1_off363_eq k) 1⟩) (fun k => ⟨congrFun (k1_off364_eq k) 0, congrFun (k1_off364_eq k) 1⟩) (fun k => ⟨congrFun (k1_off365_eq k) 0, congrFun (k1_off365_eq k) 1⟩) (fun k => ⟨congrFun (k1_off366_eq k) 0, congrFun (k1_off366_eq k) 1⟩) (fun k => ⟨congrFun (k1_off367_eq k) 0, congrFun (k1_off367_eq k) 1⟩) (fun k => ⟨congrFun (k1_off368_eq k) 0, congrFun (k1_off368_eq k) 1⟩) (fun k => ⟨congrFun (k1_off369_eq k) 0, congrFun (k1_off369_eq k) 1⟩) (fun k => ⟨congrFun (k1_off370_eq k) 0, congrFun (k1_off370_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t46_loop.lb k1_t46_loop.ub k1_t46_loop.st = 12 from trips12] at hacc
  subst hacc
  sl_exec
  sl_unfold_run_names
  unfold_pays
  ihave Hs3' := (Entails.of_eq (s3_step1 (F := F) d L A Tt 13 14 208 rfl rfl inb_S512_S16_208)) $$ Hs3'
  -- block 47
  sl_for (inv1 d L A Tt (s1c d L A) (tvc d L Tt) 224) $$ [Hs1' Hs2']
  case region =>
    exact region1 d L A Tt (s1c d L A) (tvc d L Tt) hin (hs1c d L A) (htvc d L Tt) 224 _ (⟨k1_off371, k1_off371_inb, k1_chk369, k1_chk369.dec, k1_idx369_inb, fun _ h => h⟩) (⟨k1_off372, k1_off372_inb, k1_chk370, k1_chk370.dec, k1_idx370_inb, fun _ h => h⟩) (⟨k1_off373, k1_off373_inb, k1_chk371, k1_chk371.dec, k1_idx371_inb, fun _ h => h⟩) (⟨k1_off374, k1_off374_inb, k1_chk372, k1_chk372.dec, k1_idx372_inb, fun _ h => h⟩) (⟨k1_off375, k1_off375_inb, k1_chk373, k1_chk373.dec, k1_idx373_inb, fun _ h => h⟩) (⟨k1_off376, k1_off376_inb, k1_chk374, k1_chk374.dec, k1_idx374_inb, fun _ h => h⟩) (⟨k1_off377, k1_off377_inb, k1_chk375, k1_chk375.dec, k1_idx375_inb, fun _ h => h⟩) (⟨k1_off378, k1_off378_inb, k1_chk376, k1_chk376.dec, k1_idx376_inb, fun _ h => h⟩) (fun k => ⟨congrFun (k1_off371_eq k) 0, congrFun (k1_off371_eq k) 1⟩) (fun k => ⟨congrFun (k1_off372_eq k) 0, congrFun (k1_off372_eq k) 1⟩) (fun k => ⟨congrFun (k1_off373_eq k) 0, congrFun (k1_off373_eq k) 1⟩) (fun k => ⟨congrFun (k1_off374_eq k) 0, congrFun (k1_off374_eq k) 1⟩) (fun k => ⟨congrFun (k1_off375_eq k) 0, congrFun (k1_off375_eq k) 1⟩) (fun k => ⟨congrFun (k1_off376_eq k) 0, congrFun (k1_off376_eq k) 1⟩) (fun k => ⟨congrFun (k1_off377_eq k) 0, congrFun (k1_off377_eq k) 1⟩) (fun k => ⟨congrFun (k1_off378_eq k) 0, congrFun (k1_off378_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t47_loop.lb k1_t47_loop.ub k1_t47_loop.st = 12 from trips12] at hacc
  subst hacc
  sl_exec
  sl_unfold_run_names
  unfold_pays
  ihave Hs3' := (Entails.of_eq (s3_step1 (F := F) d L A Tt 14 15 224 rfl rfl inb_S512_S16_224)) $$ Hs3'
  -- block 48
  sl_for (inv1 d L A Tt (s1c d L A) (tvc d L Tt) 240) $$ [Hs1' Hs2']
  case region =>
    exact region1 d L A Tt (s1c d L A) (tvc d L Tt) hin (hs1c d L A) (htvc d L Tt) 240 _ (⟨k1_off379, k1_off379_inb, k1_chk377, k1_chk377.dec, k1_idx377_inb, fun _ h => h⟩) (⟨k1_off380, k1_off380_inb, k1_chk378, k1_chk378.dec, k1_idx378_inb, fun _ h => h⟩) (⟨k1_off381, k1_off381_inb, k1_chk379, k1_chk379.dec, k1_idx379_inb, fun _ h => h⟩) (⟨k1_off382, k1_off382_inb, k1_chk380, k1_chk380.dec, k1_idx380_inb, fun _ h => h⟩) (⟨k1_off383, k1_off383_inb, k1_chk381, k1_chk381.dec, k1_idx381_inb, fun _ h => h⟩) (⟨k1_off384, k1_off384_inb, k1_chk382, k1_chk382.dec, k1_idx382_inb, fun _ h => h⟩) (⟨k1_off385, k1_off385_inb, k1_chk383, k1_chk383.dec, k1_idx383_inb, fun _ h => h⟩) (⟨k1_off386, k1_off386_inb, k1_chk384, k1_chk384.dec, k1_idx384_inb, fun _ h => h⟩) (fun k => ⟨congrFun (k1_off379_eq k) 0, congrFun (k1_off379_eq k) 1⟩) (fun k => ⟨congrFun (k1_off380_eq k) 0, congrFun (k1_off380_eq k) 1⟩) (fun k => ⟨congrFun (k1_off381_eq k) 0, congrFun (k1_off381_eq k) 1⟩) (fun k => ⟨congrFun (k1_off382_eq k) 0, congrFun (k1_off382_eq k) 1⟩) (fun k => ⟨congrFun (k1_off383_eq k) 0, congrFun (k1_off383_eq k) 1⟩) (fun k => ⟨congrFun (k1_off384_eq k) 0, congrFun (k1_off384_eq k) 1⟩) (fun k => ⟨congrFun (k1_off385_eq k) 0, congrFun (k1_off385_eq k) 1⟩) (fun k => ⟨congrFun (k1_off386_eq k) 0, congrFun (k1_off386_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t48_loop.lb k1_t48_loop.ub k1_t48_loop.st = 12 from trips12] at hacc
  subst hacc
  sl_exec
  sl_unfold_run_names
  unfold_pays
  ihave Hs3' := (Entails.of_eq (s3_step1 (F := F) d L A Tt 15 16 240 rfl rfl inb_S512_S16_240)) $$ Hs3'
  -- block 49
  sl_for (inv1 d L A Tt (s1c d L A) (tvc d L Tt) 256) $$ [Hs1' Hs2']
  case region =>
    exact region1 d L A Tt (s1c d L A) (tvc d L Tt) hin (hs1c d L A) (htvc d L Tt) 256 _ (⟨k1_off387, k1_off387_inb, k1_chk385, k1_chk385.dec, k1_idx385_inb, fun _ h => h⟩) (⟨k1_off388, k1_off388_inb, k1_chk386, k1_chk386.dec, k1_idx386_inb, fun _ h => h⟩) (⟨k1_off389, k1_off389_inb, k1_chk387, k1_chk387.dec, k1_idx387_inb, fun _ h => h⟩) (⟨k1_off390, k1_off390_inb, k1_chk388, k1_chk388.dec, k1_idx388_inb, fun _ h => h⟩) (⟨k1_off391, k1_off391_inb, k1_chk389, k1_chk389.dec, k1_idx389_inb, fun _ h => h⟩) (⟨k1_off392, k1_off392_inb, k1_chk390, k1_chk390.dec, k1_idx390_inb, fun _ h => h⟩) (⟨k1_off393, k1_off393_inb, k1_chk391, k1_chk391.dec, k1_idx391_inb, fun _ h => h⟩) (⟨k1_off394, k1_off394_inb, k1_chk392, k1_chk392.dec, k1_idx392_inb, fun _ h => h⟩) (fun k => ⟨congrFun (k1_off387_eq k) 0, congrFun (k1_off387_eq k) 1⟩) (fun k => ⟨congrFun (k1_off388_eq k) 0, congrFun (k1_off388_eq k) 1⟩) (fun k => ⟨congrFun (k1_off389_eq k) 0, congrFun (k1_off389_eq k) 1⟩) (fun k => ⟨congrFun (k1_off390_eq k) 0, congrFun (k1_off390_eq k) 1⟩) (fun k => ⟨congrFun (k1_off391_eq k) 0, congrFun (k1_off391_eq k) 1⟩) (fun k => ⟨congrFun (k1_off392_eq k) 0, congrFun (k1_off392_eq k) 1⟩) (fun k => ⟨congrFun (k1_off393_eq k) 0, congrFun (k1_off393_eq k) 1⟩) (fun k => ⟨congrFun (k1_off394_eq k) 0, congrFun (k1_off394_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t49_loop.lb k1_t49_loop.ub k1_t49_loop.st = 12 from trips12] at hacc
  subst hacc
  sl_exec
  sl_unfold_run_names
  unfold_pays
  ihave Hs3' := (Entails.of_eq (s3_step1 (F := F) d L A Tt 16 17 256 rfl rfl inb_S512_S16_256)) $$ Hs3'
  -- block 50
  sl_for (inv1 d L A Tt (s1c d L A) (tvc d L Tt) 272) $$ [Hs1' Hs2']
  case region =>
    exact region1 d L A Tt (s1c d L A) (tvc d L Tt) hin (hs1c d L A) (htvc d L Tt) 272 _ (⟨k1_off395, k1_off395_inb, k1_chk393, k1_chk393.dec, k1_idx393_inb, fun _ h => h⟩) (⟨k1_off396, k1_off396_inb, k1_chk394, k1_chk394.dec, k1_idx394_inb, fun _ h => h⟩) (⟨k1_off397, k1_off397_inb, k1_chk395, k1_chk395.dec, k1_idx395_inb, fun _ h => h⟩) (⟨k1_off398, k1_off398_inb, k1_chk396, k1_chk396.dec, k1_idx396_inb, fun _ h => h⟩) (⟨k1_off399, k1_off399_inb, k1_chk397, k1_chk397.dec, k1_idx397_inb, fun _ h => h⟩) (⟨k1_off400, k1_off400_inb, k1_chk398, k1_chk398.dec, k1_idx398_inb, fun _ h => h⟩) (⟨k1_off401, k1_off401_inb, k1_chk399, k1_chk399.dec, k1_idx399_inb, fun _ h => h⟩) (⟨k1_off402, k1_off402_inb, k1_chk400, k1_chk400.dec, k1_idx400_inb, fun _ h => h⟩) (fun k => ⟨congrFun (k1_off395_eq k) 0, congrFun (k1_off395_eq k) 1⟩) (fun k => ⟨congrFun (k1_off396_eq k) 0, congrFun (k1_off396_eq k) 1⟩) (fun k => ⟨congrFun (k1_off397_eq k) 0, congrFun (k1_off397_eq k) 1⟩) (fun k => ⟨congrFun (k1_off398_eq k) 0, congrFun (k1_off398_eq k) 1⟩) (fun k => ⟨congrFun (k1_off399_eq k) 0, congrFun (k1_off399_eq k) 1⟩) (fun k => ⟨congrFun (k1_off400_eq k) 0, congrFun (k1_off400_eq k) 1⟩) (fun k => ⟨congrFun (k1_off401_eq k) 0, congrFun (k1_off401_eq k) 1⟩) (fun k => ⟨congrFun (k1_off402_eq k) 0, congrFun (k1_off402_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t50_loop.lb k1_t50_loop.ub k1_t50_loop.st = 12 from trips12] at hacc
  subst hacc
  sl_exec
  sl_unfold_run_names
  unfold_pays
  ihave Hs3' := (Entails.of_eq (s3_step1 (F := F) d L A Tt 17 18 272 rfl rfl inb_S512_S16_272)) $$ Hs3'
  -- block 51
  sl_for (inv1 d L A Tt (s1c d L A) (tvc d L Tt) 288) $$ [Hs1' Hs2']
  case region =>
    exact region1 d L A Tt (s1c d L A) (tvc d L Tt) hin (hs1c d L A) (htvc d L Tt) 288 _ (⟨k1_off403, k1_off403_inb, k1_chk401, k1_chk401.dec, k1_idx401_inb, fun _ h => h⟩) (⟨k1_off404, k1_off404_inb, k1_chk402, k1_chk402.dec, k1_idx402_inb, fun _ h => h⟩) (⟨k1_off405, k1_off405_inb, k1_chk403, k1_chk403.dec, k1_idx403_inb, fun _ h => h⟩) (⟨k1_off406, k1_off406_inb, k1_chk404, k1_chk404.dec, k1_idx404_inb, fun _ h => h⟩) (⟨k1_off407, k1_off407_inb, k1_chk405, k1_chk405.dec, k1_idx405_inb, fun _ h => h⟩) (⟨k1_off408, k1_off408_inb, k1_chk406, k1_chk406.dec, k1_idx406_inb, fun _ h => h⟩) (⟨k1_off409, k1_off409_inb, k1_chk407, k1_chk407.dec, k1_idx407_inb, fun _ h => h⟩) (⟨k1_off410, k1_off410_inb, k1_chk408, k1_chk408.dec, k1_idx408_inb, fun _ h => h⟩) (fun k => ⟨congrFun (k1_off403_eq k) 0, congrFun (k1_off403_eq k) 1⟩) (fun k => ⟨congrFun (k1_off404_eq k) 0, congrFun (k1_off404_eq k) 1⟩) (fun k => ⟨congrFun (k1_off405_eq k) 0, congrFun (k1_off405_eq k) 1⟩) (fun k => ⟨congrFun (k1_off406_eq k) 0, congrFun (k1_off406_eq k) 1⟩) (fun k => ⟨congrFun (k1_off407_eq k) 0, congrFun (k1_off407_eq k) 1⟩) (fun k => ⟨congrFun (k1_off408_eq k) 0, congrFun (k1_off408_eq k) 1⟩) (fun k => ⟨congrFun (k1_off409_eq k) 0, congrFun (k1_off409_eq k) 1⟩) (fun k => ⟨congrFun (k1_off410_eq k) 0, congrFun (k1_off410_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t51_loop.lb k1_t51_loop.ub k1_t51_loop.st = 12 from trips12] at hacc
  subst hacc
  sl_exec
  sl_unfold_run_names
  unfold_pays
  ihave Hs3' := (Entails.of_eq (s3_step1 (F := F) d L A Tt 18 19 288 rfl rfl inb_S512_S16_288)) $$ Hs3'
  -- block 52
  sl_for (inv1 d L A Tt (s1c d L A) (tvc d L Tt) 304) $$ [Hs1' Hs2']
  case region =>
    exact region1 d L A Tt (s1c d L A) (tvc d L Tt) hin (hs1c d L A) (htvc d L Tt) 304 _ (⟨k1_off411, k1_off411_inb, k1_chk409, k1_chk409.dec, k1_idx409_inb, fun _ h => h⟩) (⟨k1_off412, k1_off412_inb, k1_chk410, k1_chk410.dec, k1_idx410_inb, fun _ h => h⟩) (⟨k1_off413, k1_off413_inb, k1_chk411, k1_chk411.dec, k1_idx411_inb, fun _ h => h⟩) (⟨k1_off414, k1_off414_inb, k1_chk412, k1_chk412.dec, k1_idx412_inb, fun _ h => h⟩) (⟨k1_off415, k1_off415_inb, k1_chk413, k1_chk413.dec, k1_idx413_inb, fun _ h => h⟩) (⟨k1_off416, k1_off416_inb, k1_chk414, k1_chk414.dec, k1_idx414_inb, fun _ h => h⟩) (⟨k1_off417, k1_off417_inb, k1_chk415, k1_chk415.dec, k1_idx415_inb, fun _ h => h⟩) (⟨k1_off418, k1_off418_inb, k1_chk416, k1_chk416.dec, k1_idx416_inb, fun _ h => h⟩) (fun k => ⟨congrFun (k1_off411_eq k) 0, congrFun (k1_off411_eq k) 1⟩) (fun k => ⟨congrFun (k1_off412_eq k) 0, congrFun (k1_off412_eq k) 1⟩) (fun k => ⟨congrFun (k1_off413_eq k) 0, congrFun (k1_off413_eq k) 1⟩) (fun k => ⟨congrFun (k1_off414_eq k) 0, congrFun (k1_off414_eq k) 1⟩) (fun k => ⟨congrFun (k1_off415_eq k) 0, congrFun (k1_off415_eq k) 1⟩) (fun k => ⟨congrFun (k1_off416_eq k) 0, congrFun (k1_off416_eq k) 1⟩) (fun k => ⟨congrFun (k1_off417_eq k) 0, congrFun (k1_off417_eq k) 1⟩) (fun k => ⟨congrFun (k1_off418_eq k) 0, congrFun (k1_off418_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t52_loop.lb k1_t52_loop.ub k1_t52_loop.st = 12 from trips12] at hacc
  subst hacc
  sl_exec
  sl_unfold_run_names
  unfold_pays
  ihave Hs3' := (Entails.of_eq (s3_step1 (F := F) d L A Tt 19 20 304 rfl rfl inb_S512_S16_304)) $$ Hs3'
  -- block 53
  sl_for (inv1 d L A Tt (s1c d L A) (tvc d L Tt) 320) $$ [Hs1' Hs2']
  case region =>
    exact region1 d L A Tt (s1c d L A) (tvc d L Tt) hin (hs1c d L A) (htvc d L Tt) 320 _ (⟨k1_off419, k1_off419_inb, k1_chk417, k1_chk417.dec, k1_idx417_inb, fun _ h => h⟩) (⟨k1_off420, k1_off420_inb, k1_chk418, k1_chk418.dec, k1_idx418_inb, fun _ h => h⟩) (⟨k1_off421, k1_off421_inb, k1_chk419, k1_chk419.dec, k1_idx419_inb, fun _ h => h⟩) (⟨k1_off422, k1_off422_inb, k1_chk420, k1_chk420.dec, k1_idx420_inb, fun _ h => h⟩) (⟨k1_off423, k1_off423_inb, k1_chk421, k1_chk421.dec, k1_idx421_inb, fun _ h => h⟩) (⟨k1_off424, k1_off424_inb, k1_chk422, k1_chk422.dec, k1_idx422_inb, fun _ h => h⟩) (⟨k1_off425, k1_off425_inb, k1_chk423, k1_chk423.dec, k1_idx423_inb, fun _ h => h⟩) (⟨k1_off426, k1_off426_inb, k1_chk424, k1_chk424.dec, k1_idx424_inb, fun _ h => h⟩) (fun k => ⟨congrFun (k1_off419_eq k) 0, congrFun (k1_off419_eq k) 1⟩) (fun k => ⟨congrFun (k1_off420_eq k) 0, congrFun (k1_off420_eq k) 1⟩) (fun k => ⟨congrFun (k1_off421_eq k) 0, congrFun (k1_off421_eq k) 1⟩) (fun k => ⟨congrFun (k1_off422_eq k) 0, congrFun (k1_off422_eq k) 1⟩) (fun k => ⟨congrFun (k1_off423_eq k) 0, congrFun (k1_off423_eq k) 1⟩) (fun k => ⟨congrFun (k1_off424_eq k) 0, congrFun (k1_off424_eq k) 1⟩) (fun k => ⟨congrFun (k1_off425_eq k) 0, congrFun (k1_off425_eq k) 1⟩) (fun k => ⟨congrFun (k1_off426_eq k) 0, congrFun (k1_off426_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t53_loop.lb k1_t53_loop.ub k1_t53_loop.st = 12 from trips12] at hacc
  subst hacc
  sl_exec
  sl_unfold_run_names
  unfold_pays
  ihave Hs3' := (Entails.of_eq (s3_step1 (F := F) d L A Tt 20 21 320 rfl rfl inb_S512_S16_320)) $$ Hs3'
  -- block 54
  sl_for (inv1 d L A Tt (s1c d L A) (tvc d L Tt) 336) $$ [Hs1' Hs2']
  case region =>
    exact region1 d L A Tt (s1c d L A) (tvc d L Tt) hin (hs1c d L A) (htvc d L Tt) 336 _ (⟨k1_off427, k1_off427_inb, k1_chk425, k1_chk425.dec, k1_idx425_inb, fun _ h => h⟩) (⟨k1_off428, k1_off428_inb, k1_chk426, k1_chk426.dec, k1_idx426_inb, fun _ h => h⟩) (⟨k1_off429, k1_off429_inb, k1_chk427, k1_chk427.dec, k1_idx427_inb, fun _ h => h⟩) (⟨k1_off430, k1_off430_inb, k1_chk428, k1_chk428.dec, k1_idx428_inb, fun _ h => h⟩) (⟨k1_off431, k1_off431_inb, k1_chk429, k1_chk429.dec, k1_idx429_inb, fun _ h => h⟩) (⟨k1_off432, k1_off432_inb, k1_chk430, k1_chk430.dec, k1_idx430_inb, fun _ h => h⟩) (⟨k1_off433, k1_off433_inb, k1_chk431, k1_chk431.dec, k1_idx431_inb, fun _ h => h⟩) (⟨k1_off434, k1_off434_inb, k1_chk432, k1_chk432.dec, k1_idx432_inb, fun _ h => h⟩) (fun k => ⟨congrFun (k1_off427_eq k) 0, congrFun (k1_off427_eq k) 1⟩) (fun k => ⟨congrFun (k1_off428_eq k) 0, congrFun (k1_off428_eq k) 1⟩) (fun k => ⟨congrFun (k1_off429_eq k) 0, congrFun (k1_off429_eq k) 1⟩) (fun k => ⟨congrFun (k1_off430_eq k) 0, congrFun (k1_off430_eq k) 1⟩) (fun k => ⟨congrFun (k1_off431_eq k) 0, congrFun (k1_off431_eq k) 1⟩) (fun k => ⟨congrFun (k1_off432_eq k) 0, congrFun (k1_off432_eq k) 1⟩) (fun k => ⟨congrFun (k1_off433_eq k) 0, congrFun (k1_off433_eq k) 1⟩) (fun k => ⟨congrFun (k1_off434_eq k) 0, congrFun (k1_off434_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t54_loop.lb k1_t54_loop.ub k1_t54_loop.st = 12 from trips12] at hacc
  subst hacc
  sl_exec
  sl_unfold_run_names
  unfold_pays
  ihave Hs3' := (Entails.of_eq (s3_step1 (F := F) d L A Tt 21 22 336 rfl rfl inb_S512_S16_336)) $$ Hs3'
  -- block 55
  sl_for (inv1 d L A Tt (s1c d L A) (tvc d L Tt) 352) $$ [Hs1' Hs2']
  case region =>
    exact region1 d L A Tt (s1c d L A) (tvc d L Tt) hin (hs1c d L A) (htvc d L Tt) 352 _ (⟨k1_off435, k1_off435_inb, k1_chk433, k1_chk433.dec, k1_idx433_inb, fun _ h => h⟩) (⟨k1_off436, k1_off436_inb, k1_chk434, k1_chk434.dec, k1_idx434_inb, fun _ h => h⟩) (⟨k1_off437, k1_off437_inb, k1_chk435, k1_chk435.dec, k1_idx435_inb, fun _ h => h⟩) (⟨k1_off438, k1_off438_inb, k1_chk436, k1_chk436.dec, k1_idx436_inb, fun _ h => h⟩) (⟨k1_off439, k1_off439_inb, k1_chk437, k1_chk437.dec, k1_idx437_inb, fun _ h => h⟩) (⟨k1_off440, k1_off440_inb, k1_chk438, k1_chk438.dec, k1_idx438_inb, fun _ h => h⟩) (⟨k1_off441, k1_off441_inb, k1_chk439, k1_chk439.dec, k1_idx439_inb, fun _ h => h⟩) (⟨k1_off442, k1_off442_inb, k1_chk440, k1_chk440.dec, k1_idx440_inb, fun _ h => h⟩) (fun k => ⟨congrFun (k1_off435_eq k) 0, congrFun (k1_off435_eq k) 1⟩) (fun k => ⟨congrFun (k1_off436_eq k) 0, congrFun (k1_off436_eq k) 1⟩) (fun k => ⟨congrFun (k1_off437_eq k) 0, congrFun (k1_off437_eq k) 1⟩) (fun k => ⟨congrFun (k1_off438_eq k) 0, congrFun (k1_off438_eq k) 1⟩) (fun k => ⟨congrFun (k1_off439_eq k) 0, congrFun (k1_off439_eq k) 1⟩) (fun k => ⟨congrFun (k1_off440_eq k) 0, congrFun (k1_off440_eq k) 1⟩) (fun k => ⟨congrFun (k1_off441_eq k) 0, congrFun (k1_off441_eq k) 1⟩) (fun k => ⟨congrFun (k1_off442_eq k) 0, congrFun (k1_off442_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t55_loop.lb k1_t55_loop.ub k1_t55_loop.st = 12 from trips12] at hacc
  subst hacc
  sl_exec
  sl_unfold_run_names
  unfold_pays
  ihave Hs3' := (Entails.of_eq (s3_step1 (F := F) d L A Tt 22 23 352 rfl rfl inb_S512_S16_352)) $$ Hs3'
  -- block 56
  sl_for (inv1 d L A Tt (s1c d L A) (tvc d L Tt) 368) $$ [Hs1' Hs2']
  case region =>
    exact region1 d L A Tt (s1c d L A) (tvc d L Tt) hin (hs1c d L A) (htvc d L Tt) 368 _ (⟨k1_off443, k1_off443_inb, k1_chk441, k1_chk441.dec, k1_idx441_inb, fun _ h => h⟩) (⟨k1_off444, k1_off444_inb, k1_chk442, k1_chk442.dec, k1_idx442_inb, fun _ h => h⟩) (⟨k1_off445, k1_off445_inb, k1_chk443, k1_chk443.dec, k1_idx443_inb, fun _ h => h⟩) (⟨k1_off446, k1_off446_inb, k1_chk444, k1_chk444.dec, k1_idx444_inb, fun _ h => h⟩) (⟨k1_off447, k1_off447_inb, k1_chk445, k1_chk445.dec, k1_idx445_inb, fun _ h => h⟩) (⟨k1_off448, k1_off448_inb, k1_chk446, k1_chk446.dec, k1_idx446_inb, fun _ h => h⟩) (⟨k1_off449, k1_off449_inb, k1_chk447, k1_chk447.dec, k1_idx447_inb, fun _ h => h⟩) (⟨k1_off450, k1_off450_inb, k1_chk448, k1_chk448.dec, k1_idx448_inb, fun _ h => h⟩) (fun k => ⟨congrFun (k1_off443_eq k) 0, congrFun (k1_off443_eq k) 1⟩) (fun k => ⟨congrFun (k1_off444_eq k) 0, congrFun (k1_off444_eq k) 1⟩) (fun k => ⟨congrFun (k1_off445_eq k) 0, congrFun (k1_off445_eq k) 1⟩) (fun k => ⟨congrFun (k1_off446_eq k) 0, congrFun (k1_off446_eq k) 1⟩) (fun k => ⟨congrFun (k1_off447_eq k) 0, congrFun (k1_off447_eq k) 1⟩) (fun k => ⟨congrFun (k1_off448_eq k) 0, congrFun (k1_off448_eq k) 1⟩) (fun k => ⟨congrFun (k1_off449_eq k) 0, congrFun (k1_off449_eq k) 1⟩) (fun k => ⟨congrFun (k1_off450_eq k) 0, congrFun (k1_off450_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t56_loop.lb k1_t56_loop.ub k1_t56_loop.st = 12 from trips12] at hacc
  subst hacc
  sl_exec
  sl_unfold_run_names
  unfold_pays
  ihave Hs3' := (Entails.of_eq (s3_step1 (F := F) d L A Tt 23 24 368 rfl rfl inb_S512_S16_368)) $$ Hs3'
  -- block 57
  sl_for (inv1 d L A Tt (s1c d L A) (tvc d L Tt) 384) $$ [Hs1' Hs2']
  case region =>
    exact region1 d L A Tt (s1c d L A) (tvc d L Tt) hin (hs1c d L A) (htvc d L Tt) 384 _ (⟨k1_off451, k1_off451_inb, k1_chk449, k1_chk449.dec, k1_idx449_inb, fun _ h => h⟩) (⟨k1_off452, k1_off452_inb, k1_chk450, k1_chk450.dec, k1_idx450_inb, fun _ h => h⟩) (⟨k1_off453, k1_off453_inb, k1_chk451, k1_chk451.dec, k1_idx451_inb, fun _ h => h⟩) (⟨k1_off454, k1_off454_inb, k1_chk452, k1_chk452.dec, k1_idx452_inb, fun _ h => h⟩) (⟨k1_off455, k1_off455_inb, k1_chk453, k1_chk453.dec, k1_idx453_inb, fun _ h => h⟩) (⟨k1_off456, k1_off456_inb, k1_chk454, k1_chk454.dec, k1_idx454_inb, fun _ h => h⟩) (⟨k1_off457, k1_off457_inb, k1_chk455, k1_chk455.dec, k1_idx455_inb, fun _ h => h⟩) (⟨k1_off458, k1_off458_inb, k1_chk456, k1_chk456.dec, k1_idx456_inb, fun _ h => h⟩) (fun k => ⟨congrFun (k1_off451_eq k) 0, congrFun (k1_off451_eq k) 1⟩) (fun k => ⟨congrFun (k1_off452_eq k) 0, congrFun (k1_off452_eq k) 1⟩) (fun k => ⟨congrFun (k1_off453_eq k) 0, congrFun (k1_off453_eq k) 1⟩) (fun k => ⟨congrFun (k1_off454_eq k) 0, congrFun (k1_off454_eq k) 1⟩) (fun k => ⟨congrFun (k1_off455_eq k) 0, congrFun (k1_off455_eq k) 1⟩) (fun k => ⟨congrFun (k1_off456_eq k) 0, congrFun (k1_off456_eq k) 1⟩) (fun k => ⟨congrFun (k1_off457_eq k) 0, congrFun (k1_off457_eq k) 1⟩) (fun k => ⟨congrFun (k1_off458_eq k) 0, congrFun (k1_off458_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t57_loop.lb k1_t57_loop.ub k1_t57_loop.st = 12 from trips12] at hacc
  subst hacc
  sl_exec
  sl_unfold_run_names
  unfold_pays
  ihave Hs3' := (Entails.of_eq (s3_step1 (F := F) d L A Tt 24 25 384 rfl rfl inb_S512_S16_384)) $$ Hs3'
  -- block 58
  sl_for (inv1 d L A Tt (s1c d L A) (tvc d L Tt) 400) $$ [Hs1' Hs2']
  case region =>
    exact region1 d L A Tt (s1c d L A) (tvc d L Tt) hin (hs1c d L A) (htvc d L Tt) 400 _ (⟨k1_off459, k1_off459_inb, k1_chk457, k1_chk457.dec, k1_idx457_inb, fun _ h => h⟩) (⟨k1_off460, k1_off460_inb, k1_chk458, k1_chk458.dec, k1_idx458_inb, fun _ h => h⟩) (⟨k1_off461, k1_off461_inb, k1_chk459, k1_chk459.dec, k1_idx459_inb, fun _ h => h⟩) (⟨k1_off462, k1_off462_inb, k1_chk460, k1_chk460.dec, k1_idx460_inb, fun _ h => h⟩) (⟨k1_off463, k1_off463_inb, k1_chk461, k1_chk461.dec, k1_idx461_inb, fun _ h => h⟩) (⟨k1_off464, k1_off464_inb, k1_chk462, k1_chk462.dec, k1_idx462_inb, fun _ h => h⟩) (⟨k1_off465, k1_off465_inb, k1_chk463, k1_chk463.dec, k1_idx463_inb, fun _ h => h⟩) (⟨k1_off466, k1_off466_inb, k1_chk464, k1_chk464.dec, k1_idx464_inb, fun _ h => h⟩) (fun k => ⟨congrFun (k1_off459_eq k) 0, congrFun (k1_off459_eq k) 1⟩) (fun k => ⟨congrFun (k1_off460_eq k) 0, congrFun (k1_off460_eq k) 1⟩) (fun k => ⟨congrFun (k1_off461_eq k) 0, congrFun (k1_off461_eq k) 1⟩) (fun k => ⟨congrFun (k1_off462_eq k) 0, congrFun (k1_off462_eq k) 1⟩) (fun k => ⟨congrFun (k1_off463_eq k) 0, congrFun (k1_off463_eq k) 1⟩) (fun k => ⟨congrFun (k1_off464_eq k) 0, congrFun (k1_off464_eq k) 1⟩) (fun k => ⟨congrFun (k1_off465_eq k) 0, congrFun (k1_off465_eq k) 1⟩) (fun k => ⟨congrFun (k1_off466_eq k) 0, congrFun (k1_off466_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t58_loop.lb k1_t58_loop.ub k1_t58_loop.st = 12 from trips12] at hacc
  subst hacc
  sl_exec
  sl_unfold_run_names
  unfold_pays
  ihave Hs3' := (Entails.of_eq (s3_step1 (F := F) d L A Tt 25 26 400 rfl rfl inb_S512_S16_400)) $$ Hs3'
  -- block 59
  sl_for (inv1 d L A Tt (s1c d L A) (tvc d L Tt) 416) $$ [Hs1' Hs2']
  case region =>
    exact region1 d L A Tt (s1c d L A) (tvc d L Tt) hin (hs1c d L A) (htvc d L Tt) 416 _ (⟨k1_off467, k1_off467_inb, k1_chk465, k1_chk465.dec, k1_idx465_inb, fun _ h => h⟩) (⟨k1_off468, k1_off468_inb, k1_chk466, k1_chk466.dec, k1_idx466_inb, fun _ h => h⟩) (⟨k1_off469, k1_off469_inb, k1_chk467, k1_chk467.dec, k1_idx467_inb, fun _ h => h⟩) (⟨k1_off470, k1_off470_inb, k1_chk468, k1_chk468.dec, k1_idx468_inb, fun _ h => h⟩) (⟨k1_off471, k1_off471_inb, k1_chk469, k1_chk469.dec, k1_idx469_inb, fun _ h => h⟩) (⟨k1_off472, k1_off472_inb, k1_chk470, k1_chk470.dec, k1_idx470_inb, fun _ h => h⟩) (⟨k1_off473, k1_off473_inb, k1_chk471, k1_chk471.dec, k1_idx471_inb, fun _ h => h⟩) (⟨k1_off474, k1_off474_inb, k1_chk472, k1_chk472.dec, k1_idx472_inb, fun _ h => h⟩) (fun k => ⟨congrFun (k1_off467_eq k) 0, congrFun (k1_off467_eq k) 1⟩) (fun k => ⟨congrFun (k1_off468_eq k) 0, congrFun (k1_off468_eq k) 1⟩) (fun k => ⟨congrFun (k1_off469_eq k) 0, congrFun (k1_off469_eq k) 1⟩) (fun k => ⟨congrFun (k1_off470_eq k) 0, congrFun (k1_off470_eq k) 1⟩) (fun k => ⟨congrFun (k1_off471_eq k) 0, congrFun (k1_off471_eq k) 1⟩) (fun k => ⟨congrFun (k1_off472_eq k) 0, congrFun (k1_off472_eq k) 1⟩) (fun k => ⟨congrFun (k1_off473_eq k) 0, congrFun (k1_off473_eq k) 1⟩) (fun k => ⟨congrFun (k1_off474_eq k) 0, congrFun (k1_off474_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t59_loop.lb k1_t59_loop.ub k1_t59_loop.st = 12 from trips12] at hacc
  subst hacc
  sl_exec
  sl_unfold_run_names
  unfold_pays
  ihave Hs3' := (Entails.of_eq (s3_step1 (F := F) d L A Tt 26 27 416 rfl rfl inb_S512_S16_416)) $$ Hs3'
  -- block 60
  sl_for (inv1 d L A Tt (s1c d L A) (tvc d L Tt) 432) $$ [Hs1' Hs2']
  case region =>
    exact region1 d L A Tt (s1c d L A) (tvc d L Tt) hin (hs1c d L A) (htvc d L Tt) 432 _ (⟨k1_off475, k1_off475_inb, k1_chk473, k1_chk473.dec, k1_idx473_inb, fun _ h => h⟩) (⟨k1_off476, k1_off476_inb, k1_chk474, k1_chk474.dec, k1_idx474_inb, fun _ h => h⟩) (⟨k1_off477, k1_off477_inb, k1_chk475, k1_chk475.dec, k1_idx475_inb, fun _ h => h⟩) (⟨k1_off478, k1_off478_inb, k1_chk476, k1_chk476.dec, k1_idx476_inb, fun _ h => h⟩) (⟨k1_off479, k1_off479_inb, k1_chk477, k1_chk477.dec, k1_idx477_inb, fun _ h => h⟩) (⟨k1_off480, k1_off480_inb, k1_chk478, k1_chk478.dec, k1_idx478_inb, fun _ h => h⟩) (⟨k1_off481, k1_off481_inb, k1_chk479, k1_chk479.dec, k1_idx479_inb, fun _ h => h⟩) (⟨k1_off482, k1_off482_inb, k1_chk480, k1_chk480.dec, k1_idx480_inb, fun _ h => h⟩) (fun k => ⟨congrFun (k1_off475_eq k) 0, congrFun (k1_off475_eq k) 1⟩) (fun k => ⟨congrFun (k1_off476_eq k) 0, congrFun (k1_off476_eq k) 1⟩) (fun k => ⟨congrFun (k1_off477_eq k) 0, congrFun (k1_off477_eq k) 1⟩) (fun k => ⟨congrFun (k1_off478_eq k) 0, congrFun (k1_off478_eq k) 1⟩) (fun k => ⟨congrFun (k1_off479_eq k) 0, congrFun (k1_off479_eq k) 1⟩) (fun k => ⟨congrFun (k1_off480_eq k) 0, congrFun (k1_off480_eq k) 1⟩) (fun k => ⟨congrFun (k1_off481_eq k) 0, congrFun (k1_off481_eq k) 1⟩) (fun k => ⟨congrFun (k1_off482_eq k) 0, congrFun (k1_off482_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t60_loop.lb k1_t60_loop.ub k1_t60_loop.st = 12 from trips12] at hacc
  subst hacc
  sl_exec
  sl_unfold_run_names
  unfold_pays
  ihave Hs3' := (Entails.of_eq (s3_step1 (F := F) d L A Tt 27 28 432 rfl rfl inb_S512_S16_432)) $$ Hs3'
  -- block 61
  sl_for (inv1 d L A Tt (s1c d L A) (tvc d L Tt) 448) $$ [Hs1' Hs2']
  case region =>
    exact region1 d L A Tt (s1c d L A) (tvc d L Tt) hin (hs1c d L A) (htvc d L Tt) 448 _ (⟨k1_off483, k1_off483_inb, k1_chk481, k1_chk481.dec, k1_idx481_inb, fun _ h => h⟩) (⟨k1_off484, k1_off484_inb, k1_chk482, k1_chk482.dec, k1_idx482_inb, fun _ h => h⟩) (⟨k1_off485, k1_off485_inb, k1_chk483, k1_chk483.dec, k1_idx483_inb, fun _ h => h⟩) (⟨k1_off486, k1_off486_inb, k1_chk484, k1_chk484.dec, k1_idx484_inb, fun _ h => h⟩) (⟨k1_off487, k1_off487_inb, k1_chk485, k1_chk485.dec, k1_idx485_inb, fun _ h => h⟩) (⟨k1_off488, k1_off488_inb, k1_chk486, k1_chk486.dec, k1_idx486_inb, fun _ h => h⟩) (⟨k1_off489, k1_off489_inb, k1_chk487, k1_chk487.dec, k1_idx487_inb, fun _ h => h⟩) (⟨k1_off490, k1_off490_inb, k1_chk488, k1_chk488.dec, k1_idx488_inb, fun _ h => h⟩) (fun k => ⟨congrFun (k1_off483_eq k) 0, congrFun (k1_off483_eq k) 1⟩) (fun k => ⟨congrFun (k1_off484_eq k) 0, congrFun (k1_off484_eq k) 1⟩) (fun k => ⟨congrFun (k1_off485_eq k) 0, congrFun (k1_off485_eq k) 1⟩) (fun k => ⟨congrFun (k1_off486_eq k) 0, congrFun (k1_off486_eq k) 1⟩) (fun k => ⟨congrFun (k1_off487_eq k) 0, congrFun (k1_off487_eq k) 1⟩) (fun k => ⟨congrFun (k1_off488_eq k) 0, congrFun (k1_off488_eq k) 1⟩) (fun k => ⟨congrFun (k1_off489_eq k) 0, congrFun (k1_off489_eq k) 1⟩) (fun k => ⟨congrFun (k1_off490_eq k) 0, congrFun (k1_off490_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t61_loop.lb k1_t61_loop.ub k1_t61_loop.st = 12 from trips12] at hacc
  subst hacc
  sl_exec
  sl_unfold_run_names
  unfold_pays
  ihave Hs3' := (Entails.of_eq (s3_step1 (F := F) d L A Tt 28 29 448 rfl rfl inb_S512_S16_448)) $$ Hs3'
  -- block 62
  sl_for (inv1 d L A Tt (s1c d L A) (tvc d L Tt) 464) $$ [Hs1' Hs2']
  case region =>
    exact region1 d L A Tt (s1c d L A) (tvc d L Tt) hin (hs1c d L A) (htvc d L Tt) 464 _ (⟨k1_off491, k1_off491_inb, k1_chk489, k1_chk489.dec, k1_idx489_inb, fun _ h => h⟩) (⟨k1_off492, k1_off492_inb, k1_chk490, k1_chk490.dec, k1_idx490_inb, fun _ h => h⟩) (⟨k1_off493, k1_off493_inb, k1_chk491, k1_chk491.dec, k1_idx491_inb, fun _ h => h⟩) (⟨k1_off494, k1_off494_inb, k1_chk492, k1_chk492.dec, k1_idx492_inb, fun _ h => h⟩) (⟨k1_off495, k1_off495_inb, k1_chk493, k1_chk493.dec, k1_idx493_inb, fun _ h => h⟩) (⟨k1_off496, k1_off496_inb, k1_chk494, k1_chk494.dec, k1_idx494_inb, fun _ h => h⟩) (⟨k1_off497, k1_off497_inb, k1_chk495, k1_chk495.dec, k1_idx495_inb, fun _ h => h⟩) (⟨k1_off498, k1_off498_inb, k1_chk496, k1_chk496.dec, k1_idx496_inb, fun _ h => h⟩) (fun k => ⟨congrFun (k1_off491_eq k) 0, congrFun (k1_off491_eq k) 1⟩) (fun k => ⟨congrFun (k1_off492_eq k) 0, congrFun (k1_off492_eq k) 1⟩) (fun k => ⟨congrFun (k1_off493_eq k) 0, congrFun (k1_off493_eq k) 1⟩) (fun k => ⟨congrFun (k1_off494_eq k) 0, congrFun (k1_off494_eq k) 1⟩) (fun k => ⟨congrFun (k1_off495_eq k) 0, congrFun (k1_off495_eq k) 1⟩) (fun k => ⟨congrFun (k1_off496_eq k) 0, congrFun (k1_off496_eq k) 1⟩) (fun k => ⟨congrFun (k1_off497_eq k) 0, congrFun (k1_off497_eq k) 1⟩) (fun k => ⟨congrFun (k1_off498_eq k) 0, congrFun (k1_off498_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t62_loop.lb k1_t62_loop.ub k1_t62_loop.st = 12 from trips12] at hacc
  subst hacc
  sl_exec
  sl_unfold_run_names
  unfold_pays
  ihave Hs3' := (Entails.of_eq (s3_step1 (F := F) d L A Tt 29 30 464 rfl rfl inb_S512_S16_464)) $$ Hs3'
  -- block 63
  sl_for (inv1 d L A Tt (s1c d L A) (tvc d L Tt) 480) $$ [Hs1' Hs2']
  case region =>
    exact region1 d L A Tt (s1c d L A) (tvc d L Tt) hin (hs1c d L A) (htvc d L Tt) 480 _ (⟨k1_off499, k1_off499_inb, k1_chk497, k1_chk497.dec, k1_idx497_inb, fun _ h => h⟩) (⟨k1_off500, k1_off500_inb, k1_chk498, k1_chk498.dec, k1_idx498_inb, fun _ h => h⟩) (⟨k1_off501, k1_off501_inb, k1_chk499, k1_chk499.dec, k1_idx499_inb, fun _ h => h⟩) (⟨k1_off502, k1_off502_inb, k1_chk500, k1_chk500.dec, k1_idx500_inb, fun _ h => h⟩) (⟨k1_off503, k1_off503_inb, k1_chk501, k1_chk501.dec, k1_idx501_inb, fun _ h => h⟩) (⟨k1_off504, k1_off504_inb, k1_chk502, k1_chk502.dec, k1_idx502_inb, fun _ h => h⟩) (⟨k1_off505, k1_off505_inb, k1_chk503, k1_chk503.dec, k1_idx503_inb, fun _ h => h⟩) (⟨k1_off506, k1_off506_inb, k1_chk504, k1_chk504.dec, k1_idx504_inb, fun _ h => h⟩) (fun k => ⟨congrFun (k1_off499_eq k) 0, congrFun (k1_off499_eq k) 1⟩) (fun k => ⟨congrFun (k1_off500_eq k) 0, congrFun (k1_off500_eq k) 1⟩) (fun k => ⟨congrFun (k1_off501_eq k) 0, congrFun (k1_off501_eq k) 1⟩) (fun k => ⟨congrFun (k1_off502_eq k) 0, congrFun (k1_off502_eq k) 1⟩) (fun k => ⟨congrFun (k1_off503_eq k) 0, congrFun (k1_off503_eq k) 1⟩) (fun k => ⟨congrFun (k1_off504_eq k) 0, congrFun (k1_off504_eq k) 1⟩) (fun k => ⟨congrFun (k1_off505_eq k) 0, congrFun (k1_off505_eq k) 1⟩) (fun k => ⟨congrFun (k1_off506_eq k) 0, congrFun (k1_off506_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t63_loop.lb k1_t63_loop.ub k1_t63_loop.st = 12 from trips12] at hacc
  subst hacc
  sl_exec
  sl_unfold_run_names
  unfold_pays
  ihave Hs3' := (Entails.of_eq (s3_step1 (F := F) d L A Tt 30 31 480 rfl rfl inb_S512_S16_480)) $$ Hs3'
  -- block 64
  sl_for (inv1 d L A Tt (s1c d L A) (tvc d L Tt) 496) $$ [Hs1' Hs2']
  case region =>
    exact region1 d L A Tt (s1c d L A) (tvc d L Tt) hin (hs1c d L A) (htvc d L Tt) 496 _ (⟨k1_off507, k1_off507_inb, k1_chk505, k1_chk505.dec, k1_idx505_inb, fun _ h => h⟩) (⟨k1_off508, k1_off508_inb, k1_chk506, k1_chk506.dec, k1_idx506_inb, fun _ h => h⟩) (⟨k1_off509, k1_off509_inb, k1_chk507, k1_chk507.dec, k1_idx507_inb, fun _ h => h⟩) (⟨k1_off510, k1_off510_inb, k1_chk508, k1_chk508.dec, k1_idx508_inb, fun _ h => h⟩) (⟨k1_off511, k1_off511_inb, k1_chk509, k1_chk509.dec, k1_idx509_inb, fun _ h => h⟩) (⟨k1_off512, k1_off512_inb, k1_chk510, k1_chk510.dec, k1_idx510_inb, fun _ h => h⟩) (⟨k1_off513, k1_off513_inb, k1_chk511, k1_chk511.dec, k1_idx511_inb, fun _ h => h⟩) (⟨k1_off514, k1_off514_inb, k1_chk512, k1_chk512.dec, k1_idx512_inb, fun _ h => h⟩) (fun k => ⟨congrFun (k1_off507_eq k) 0, congrFun (k1_off507_eq k) 1⟩) (fun k => ⟨congrFun (k1_off508_eq k) 0, congrFun (k1_off508_eq k) 1⟩) (fun k => ⟨congrFun (k1_off509_eq k) 0, congrFun (k1_off509_eq k) 1⟩) (fun k => ⟨congrFun (k1_off510_eq k) 0, congrFun (k1_off510_eq k) 1⟩) (fun k => ⟨congrFun (k1_off511_eq k) 0, congrFun (k1_off511_eq k) 1⟩) (fun k => ⟨congrFun (k1_off512_eq k) 0, congrFun (k1_off512_eq k) 1⟩) (fun k => ⟨congrFun (k1_off513_eq k) 0, congrFun (k1_off513_eq k) 1⟩) (fun k => ⟨congrFun (k1_off514_eq k) 0, congrFun (k1_off514_eq k) 1⟩)
  · unfold inv1
    isplitr
    · ipureintro; rfl
    isplitl [Hs1']
    · iexact Hs1'
    · iexact Hs2'
  iintro %acc HI
  unfold inv1
  icases HI with ⟨%hacc, Hs1', Hs2'⟩
  rw [show Scf.trips k1_t64_loop.lb k1_t64_loop.ub k1_t64_loop.st = 12 from trips12] at hacc
  subst hacc
  sl_exec
  sl_unfold_run_names
  unfold_pays
  -- the copy-out has landed and been waited for
  sl_step
  isplitl [Hi']
  · iapply (Entails.of_eq (pts_i (F := F) d L _ _)); iexact Hi'
  isplitl [Ht']
  · iapply (Entails.of_eq (pts_t (F := F) d L _ _)); iexact Ht'
  isplitl [Ho']
  · iapply (Entails.of_eq (out_lands_last (F := F) d L A Tt fo inb_S512_S16_496)); iexact Ho'
  isplitl [Hs0' Hs1' Hs2' Hs3' Hbufs]
  · isplitl [Hs0']
    · iexists _; iapply (Entails.of_eq (pts_s0 (F := F) d L _)); iexact Hs0'
    isplitl [Hs1']
    · iexists _; iapply (Entails.of_eq (pts_s1 (F := F) d L _)); iexact Hs1'
    isplitl [Hs2']
    · iexists _; iapply (Entails.of_eq (pts_s2 (F := F) d L _)); iexact Hs2'
    isplitl [Hs3']
    · iexists _; iapply (Entails.of_eq (pts_s3 (F := F) d L _)); iexact Hs3'
    · iexact Hbufs
  isplitl [HsemA HsemB HsemC HsemD Hsems]
  · isplitl [HsemA]
    · iexact HsemA
    isplitl [HsemB]
    · iexact HsemB
    isplitl [HsemC]
    · iexact HsemC
    isplitl [HsemD]
    · iexact HsemD
    · iexact Hsems
  iexists _
  isplitr
  on_goal 2 => iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp

end Cert.Proof.KB

end
-- ==== Proof.PreDecode.lean ====
/-
  The precondition `input_domain`, read back. The predicate is the conjunction of six reductions by `and` over all axes:
  |x| < +∞ for every element x of each of the five float inputs, and 0 ≤ w ≤ 9999 (signed) for every word w of the
  index input. The claim's hypothesis says the predicate is 1 at the one index of its rank-0 result. A conjunction of
  `i1` words that is 1 has both conjuncts 1; a reduction by `and` over all axes that is 1 met only 1s. So each
  element comparison holds. For a word, 0 ≤ w ≤ 9999 signed puts w in the nonnegative half, where the signed and the
  unsigned readings agree: w < 10000 unsigned. For a float element at the extended reals, the pattern 0x7F800000 is
  +∞, |x| = max x (-x), and max x (-x) < ⊤ says x is neither ⊤ nor ⊥: x is the real number `x.toReal`.
-/
import proofs.«205085_g3753801417095_cont_8to1_b_1540_27_alg».proof.Pre_input_domain
import proofs.«205085_g3753801417095_cont_8to1_b_1540_27_alg».proof.Proof.Gen.Pre_input_domain
import Idealize.ShloMosaic.PureOps.Ideal
import Idealize.ShloMosaic.Lib.ReduceAll
import Idealize.ShloMosaic.Lib.ValueIdx

noncomputable section

namespace Cert.PreDecode

open Idealize.ShloMosaic Cert.Pre_input_domain

/-- The rank-0 result has one index. -/
instance : Subsingleton S_.Idx := ⟨fun a b => funext fun d => d.elim0⟩

/-- The six conjuncts of the predicate, each at every element: generic in the float instance. -/
theorem conjuncts {F : FTy → Type} [FloatOps F] [Cert.Pre_input_domain.Facts] (a0 : IVec S16384x200 32)
    (a1 : FVec F S10000x64 .f32) (a2 : FVec F S64x64 .f32) (a3 : FVec F S64 .f32) (a4 : FVec F S1x64 .f32)
    (a5 : FVec F S1 .f32) (h : Cert.Pre_input_domain.fn (F := F) a0 a1 a2 a3 a4 a5 = fun _ => 1#1) :
    (∀ i, FloatOps.cmpf .olt (FloatOps.hostAbsf (a1 i)) (FloatOps.ofBits (F := F) .f32 0x7F800000#32) = 1#1) ∧
    (∀ i, FloatOps.cmpf .olt (FloatOps.hostAbsf (a2 i)) (FloatOps.ofBits (F := F) .f32 0x7F800000#32) = 1#1) ∧
    (∀ i, FloatOps.cmpf .olt (FloatOps.hostAbsf (a3 i)) (FloatOps.ofBits (F := F) .f32 0x7F800000#32) = 1#1) ∧
    (∀ i, FloatOps.cmpf .olt (FloatOps.hostAbsf (a4 i)) (FloatOps.ofBits (F := F) .f32 0x7F800000#32) = 1#1) ∧
    (∀ i, FloatOps.cmpf .olt (FloatOps.hostAbsf (a5 i)) (FloatOps.ofBits (F := F) .f32 0x7F800000#32) = 1#1) ∧
    (∀ i, IntOp.cmpi .sge (a0 i) 0#32 = 1#1 ∧ IntOp.cmpi .sle (a0 i) 9999#32 = 1#1) := by
  have e := congrFun h ValueIdx.ix0
  dsimp only [Cert.Pre_input_domain.fn, Cert.Pre_input_domain.fn_part1] at e
  simp only [andi, IntOp.andi_eq_one] at e
  obtain ⟨⟨⟨⟨⟨h1, h2⟩, h3⟩, h4⟩, h5⟩, h0⟩ := e
  refine ⟨fun i => ?_, fun i => ?_, fun i => ?_, fun i => ?_, fun i => ?_, fun i => ?_⟩
  · exact Host.reduce_andi_all _ _ _ _ _ h1 i
  · exact Host.reduce_andi_all _ _ _ _ _ h2 i
  · exact Host.reduce_andi_all _ _ _ _ _ h3 i
  · exact Host.reduce_andi_all _ _ _ _ _ h4 i
  · exact Host.reduce_andi_all _ _ _ _ _ h5 i
  · exact IntOp.andi_eq_one.1 (Host.reduce_andi_all _ _ _ _ _ h0 i)

/-- A 32-bit word between 0 and 9999 signed is below 10000 unsigned. -/
theorem toNat_lt_of_signed (w : BitVec 32) (h0 : (0#32).toInt ≤ w.toInt) (h1 : w.toInt ≤ (9999#32).toInt) :
    w.toNat < 10000 := by
  have e0 : (0#32 : BitVec 32).toInt = 0 := by decide
  have e1 : (9999#32 : BitVec 32).toInt = 9999 := by decide
  rw [e0] at h0
  rw [e1] at h1
  rw [BitVec.toInt_eq_toNat_cond] at h0 h1
  have := w.isLt
  split at h0 <;> omega

/-- generic in the float instance: every index word is a table row number -/
theorem idx_in_range {F : FTy → Type} [FloatOps F] [Cert.Pre_input_domain.Facts] (a0 : IVec S16384x200 32)
    (a1 : FVec F S10000x64 .f32) (a2 : FVec F S64x64 .f32) (a3 : FVec F S64 .f32) (a4 : FVec F S1x64 .f32)
    (a5 : FVec F S1 .f32) (h : Cert.Pre_input_domain.fn (F := F) a0 a1 a2 a3 a4 a5 = fun _ => 1#1) :
    ∀ i : S16384x200.Idx, (a0 i).toNat < 10000 := by
  intro i
  obtain ⟨hge, hle⟩ := (conjuncts a0 a1 a2 a3 a4 a5 h).2.2.2.2.2 i
  exact toNat_lt_of_signed _ (IntOp.cmpi_sge.1 hge) (IntOp.cmpi_sle.1 hle)

/-- The pattern 0x7F800000 is +∞ at the extended reals. -/
theorem inf_bits : Ideal.ofBits .f32 0x7F800000#32 = (⊤ : EReal) := by
  simp [Ideal.ofBits, Ideal.ieee]

/-- An extended real whose absolute value is below +∞ is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : x = ((x.toReal : ℝ) : EReal) := by
  have h' : BitVec.ofBool (decide (max x (-x) < Ideal.ofBits .f32 0x7F800000#32)) = 1#1 := h
  rw [inf_bits] at h'
  have hlt : max x (-x) < (⊤ : EReal) := by
    by_contra hn
    simp [hn] at h'
  obtain ⟨hx, hnx⟩ := max_lt_iff.1 hlt
  have hbot : x ≠ ⊥ := by
    rintro rfl
    simp at hnx
  exact (EReal.coe_toReal hx.ne hbot).symm

/-- at the ideal instance: every float input is a real number -/
theorem finite_inputs [Cert.Pre_input_domain.Facts] (a0 : IVec S16384x200 32) (a1 : FVec Ideal S10000x64 .f32)
    (a2 : FVec Ideal S64x64 .f32) (a3 : FVec Ideal S64 .f32) (a4 : FVec Ideal S1x64 .f32) (a5 : FVec Ideal S1 .f32)
    (h : Cert.Pre_input_domain.fn (F := Ideal) a0 a1 a2 a3 a4 a5 = fun _ => 1#1) :
    (∃ tab : S10000x64.Idx → ℝ, ∀ i, a1 i = ((tab i : ℝ) : EReal)) ∧
    (∃ w1 : S64x64.Idx → ℝ, ∀ i, a2 i = ((w1 i : ℝ) : EReal)) ∧
    (∃ b1 : S64.Idx → ℝ, ∀ i, a3 i = ((b1 i : ℝ) : EReal)) ∧
    (∃ w2 : S1x64.Idx → ℝ, ∀ i, a4 i = ((w2 i : ℝ) : EReal)) ∧
    (∃ b2 : S1.Idx → ℝ, ∀ i, a5 i = ((b2 i : ℝ) : EReal)) := by
  obtain ⟨h1, h2, h3, h4, h5, -⟩ := conjuncts a0 a1 a2 a3 a4 a5 h
  exact ⟨⟨fun i => (a1 i).toReal, fun i => real_of_abs_lt _ (h1 i)⟩,
    ⟨fun i => (a2 i).toReal, fun i => real_of_abs_lt _ (h2 i)⟩,
    ⟨fun i => (a3 i).toReal, fun i => real_of_abs_lt _ (h3 i)⟩,
    ⟨fun i => (a4 i).toReal, fun i => real_of_abs_lt _ (h4 i)⟩,
    ⟨fun i => (a5 i).toReal, fun i => real_of_abs_lt _ (h5 i)⟩⟩

end Cert.PreDecode

end
-- ==== Proof.Spec.lean ====
/-
  The two real-valued shapes of the computation.  An embedding bag of 200 table rows per batch entry is averaged,
  sent through an affine layer (W1, b1) and then through a one-row affine layer (W2, b2).  Because both layers are
  affine and the mean is linear, the whole map factors through ONE scalar per table row: fold the two layers into
  the table first, then sum 200 scalars per batch entry.
-/
import Mathlib.Algebra.BigOperators.Fin
import Mathlib.Data.Real.Basic
import Mathlib.Tactic.Ring
import Mathlib.Tactic.FieldSimp

namespace Cert.Spec

/-- Mean of the bag's rows, then the 64→64 affine layer, then the 64→1 affine layer. -/
noncomputable def refReal (idx : Fin 16384 → Fin 200 → Fin 10000) (tab : Fin 10000 → Fin 64 → ℝ)
    (w1 : Fin 64 → Fin 64 → ℝ) (b1 : Fin 64 → ℝ) (w2 : Fin 64 → ℝ) (b2 : ℝ) (b : Fin 16384) : ℝ :=
  (∑ o : Fin 64, ((∑ d : Fin 64, ((∑ h : Fin 200, tab (idx b h) d) / 200) * w1 o d) + b1 o) * w2 o) + b2

/-- Both layers folded into table row `v`: one scalar per row, already divided by the bag length. -/
noncomputable def foldReal (tab : Fin 10000 → Fin 64 → ℝ) (w1 : Fin 64 → Fin 64 → ℝ) (b1 : Fin 64 → ℝ)
    (w2 : Fin 64 → ℝ) (b2 : ℝ) (v : Fin 10000) : ℝ :=
  ((∑ d : Fin 64, (∑ o : Fin 64, w2 o * w1 o d) * tab v d) + ((∑ o : Fin 64, w2 o * b1 o) + b2)) * (1 / 200)

/-- The bag's 200 folded scalars summed. -/
noncomputable def kerReal (idx : Fin 16384 → Fin 200 → Fin 10000) (tab : Fin 10000 → Fin 64 → ℝ)
    (w1 : Fin 64 → Fin 64 → ℝ) (b1 : Fin 64 → ℝ) (w2 : Fin 64 → ℝ) (b2 : ℝ) (b : Fin 16384) : ℝ :=
  ∑ h : Fin 200, foldReal tab w1 b1 w2 b2 (idx b h)

end Cert.Spec
-- ==== Proof.RefDefs.lean ====
/-
  The reference's result as one pure function of its six argument arrays, stage by stage.

  The reference gathers, for every batch entry, the 200 table rows its indices name (with the usual index wrap and an
  in-range mask that replaces an out-of-range row by NaN), sums them, divides by 200, and applies two affine layers.
-/
import proofs.«205085_g3753801417095_cont_8to1_b_1540_27_alg».proof.Proof.Gen.ReferenceIdeal
import Idealize.ShloMosaic.PureOps.Ideal

noncomputable section

namespace Cert.ReferenceIdeal.RefRun

open Idealize.ShloMosaic Idealize.SL.Sem
open Cert.ReferenceIdeal Cert.ReferenceIdeal.Gen

/-! ## The result as a pure function -/

/-- The looked-up row index: an index below zero is moved up by the table's 10000 rows, any other is kept. -/
def wrapIdx (a0 : IVec S16384x200 32) : IVec S16384x200 32 :=
  select (cmpi .slt a0 (broadcastInDim S16384x200 ![] bcast_S_S16384x200 (constantI S_ 32 0#32)))
    (addi a0 (broadcastInDim S16384x200 ![] bcast_S_S16384x200 (constantI S_ 32 10000#32)))
    a0

/-- The wrapped indices with a trailing unit axis: the gather's start indices. -/
def startIdx (a0 : IVec S16384x200 32) : IVec S16384x200x1 32 :=
  broadcastInDim S16384x200x1 ![0, 1] bcast_S16384x200_S16384x200x1_0_1 (wrapIdx a0)

/-- The in-range mask: `0 ≤ index ≤ 9999`, folded with `and` over the trailing unit axis. -/
def inRange (a0 : IVec S16384x200 32) : IVec S16384x200 1 :=
  Host.reduce IntOp.andi
    (andi (cmpi .sge (startIdx a0) (broadcastInDim S16384x200x1 ![] bcast_S_S16384x200x1 (constantI S_ 32 0#32)))
      (cmpi .sle (startIdx a0)
        (broadcastInDim S16384x200x1 ![0, 1, 2] bcast_S1x1x1_S16384x200x1_0_1_2
          (broadcastInDim S1x1x1 ![2] bcast_S1_S1x1x1_2 (constantI S1 32 9999#32)))))
    (constantI S_ 1 1#1) reducesTo_S16384x200x1_S16384x200_d2 h_S_

/-- The gathered rows, an out-of-range one replaced by NaN. -/
def taken (a0 : IVec S16384x200 32) (a1 : FVec Ideal S10000x64 .f32) : FVec Ideal S16384x200x64 .f32 :=
  select (broadcastInDim S16384x200x64 ![0, 1] bcast_S16384x200_S16384x200x64_0_1 (inRange a0))
    (Host.gather gather_S10000x64_S16384x200x1_S16384x200x64_2_0_n_n_0_2_164 a1 (startIdx a0))
    (broadcastInDim S16384x200x64 ![] bcast_S_S16384x200x64 (constant S_ .f32 0x7FC00000#32))

/-- The bag's mean: the 200 rows summed from zero, divided by 200. -/
def pooled (a0 : IVec S16384x200 32) (a1 : FVec Ideal S10000x64 .f32) : FVec Ideal S16384x64 .f32 :=
  Host.divf
    (Host.reduceAdd (taken a0 a1) (constant S_ .f32 0x00000000#32) reducesTo_S16384x200x64_S16384x64_d1 h_S_)
    (broadcastInDim S16384x64 ![] bcast_S_S16384x64 (constant S_ .f32 0x43480000#32))

/-- The first affine layer: the mean times the transposed 64×64 weights, plus the bias row. -/
def hidden (a0 : IVec S16384x200 32) (a1 : FVec Ideal S10000x64 .f32) (a2 : FVec Ideal S64x64 .f32)
    (a3 : FVec Ideal S64 .f32) : FVec Ideal S16384x64 .f32 :=
  addf
    (Host.dotGeneral dot_S16384x64_S64x64_S16384x64_1_0_0_1_n_n none (pooled a0 a1)
      (transpose S64x64 [1, 0] a2 transposes_S64x64_S64x64_1_0))
    (broadcastInDim S16384x64 ![0, 1] bcast_S1x64_S16384x64_0_1 (broadcastInDim S1x64 ![1] bcast_S64_S1x64_1 a3))

/-- The second affine layer: a 64-wide row times the transposed one-row weights, plus the one bias. -/
def outLayer (x : FVec Ideal S16384x64 .f32) (a4 : FVec Ideal S1x64 .f32) (a5 : FVec Ideal S1 .f32) :
    FVec Ideal S16384x1 .f32 :=
  addf
    (Host.dotGeneral dot_S16384x64_S64x1_S16384x1_1_0_0_1_n_n none x
      (transpose S64x1 [1, 0] a4 transposes_S1x64_S64x1_1_0))
    (broadcastInDim S16384x1 ![0, 1] bcast_S1x1_S16384x1_0_1 (broadcastInDim S1x1 ![1] bcast_S1_S1x1_1 a5))

/-- the reference's result as ONE pure function of its six argument arrays: the second (one-row) affine layer applied
    to the first layer's output. -/
def refOut (a0 : (⟨S16384x200, .i32⟩ : BufTy).Contents (Elt Ideal)) (a1 : (⟨S10000x64, .f32⟩ : BufTy).Contents (Elt Ideal))
    (a2 : (⟨S64x64, .f32⟩ : BufTy).Contents (Elt Ideal)) (a3 : (⟨S64, .f32⟩ : BufTy).Contents (Elt Ideal))
    (a4 : (⟨S1x64, .f32⟩ : BufTy).Contents (Elt Ideal)) (a5 : (⟨S1, .f32⟩ : BufTy).Contents (Elt Ideal)) :
    (⟨S16384x1, .f32⟩ : BufTy).Contents (Elt Ideal) :=
  outLayer (hidden a0 a1 a2 a3) a4 a5

end Cert.ReferenceIdeal.RefRun

end
-- ==== Proof.RefRun.lean ====
/-
  The reference program's run.

  Its operations are listed in order (the two outlined helper functions inlined at their call sites), the run of that
  straight line is read back, and the result buffer's final contents are `refOut` of the arguments' contents.
-/
import proofs.«205085_g3753801417095_cont_8to1_b_1540_27_alg».proof.Defs
import proofs.«205085_g3753801417095_cont_8to1_b_1540_27_alg».proof.Proof.Gen.ReferenceIdeal
import proofs.«205085_g3753801417095_cont_8to1_b_1540_27_alg».proof.Proof.Spec
import proofs.«205085_g3753801417095_cont_8to1_b_1540_27_alg».proof.Proof.RefDefs
import Idealize.ShloMosaic.Lib.StableHlo.Run

noncomputable section

namespace Cert.ReferenceIdeal.RefRun

open Idealize.ShloMosaic Idealize.ShloMosaic.TcCoe Idealize.SL.Sem Idealize.ShloMosaic.StableHlo
open Cert.ReferenceIdeal Cert.ReferenceIdeal.Gen

/-! ## The program as a straight line -/

variable {F : FTy → Type} [FloatOps F]

/-- @main's operations in order as the program spells them, the two helper functions' bodies listed at their call
    sites over the buffers of those calls (typed references): the lookup's twenty-three (the index wrap, the mask,
    the gather, the select), then @main's own fifteen (the sum, the division, the two layers). -/
abbrev opsT : List (HloOp τ sig (Elt F)) :=
  [ TRef.nullary main_call0.c (constantI S_ 32 0#32),
    TRef.unary main_call0.c main_call0.v0 (broadcastInDim S16384x200 ![] bcast_S_S16384x200),
    TRef.binary (.of main_arg0) main_call0.v0 main_call0.v1 (cmpi .slt),
    TRef.nullary main_call0.c_0 (constantI S_ 32 10000#32),
    TRef.unary main_call0.c_0 main_call0.v2 (broadcastInDim S16384x200 ![] bcast_S_S16384x200),
    TRef.binary (.of main_arg0) main_call0.v2 main_call0.v3 addi,
    TRef.ternary main_call0.v1 main_call0.v3 (.of main_arg0) main_call0.call0.v0 select,
    TRef.unary main_call0.call0.v0 main_call0.v5 (broadcastInDim S16384x200x1 ![0, 1] bcast_S16384x200_S16384x200x1_0_1),
    TRef.nullary main_call0.c_1 (constantI S1 32 9999#32),
    TRef.nullary main_call0.c_2 (constantI S_ 32 0#32),
    TRef.unary main_call0.c_2 main_call0.v6 (broadcastInDim S16384x200x1 ![] bcast_S_S16384x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x200x1 ![0, 1, 2] bcast_S1x1x1_S16384x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x200x1_S16384x200_d2 h_S_),
    TRef.binary (.of main_arg1) main_call0.v5 main_call0.v13 (fun x i => Host.gather gather_S10000x64_S16384x200x1_S16384x200x64_2_0_n_n_0_2_164 x i),
    TRef.unary main_call0.v12 main_call0.v14 (broadcastInDim S16384x200x64 ![0, 1] bcast_S16384x200_S16384x200x64_0_1),
    TRef.nullary main_call0.cst (constant S_ .f32 0x7FC00000#32),
    TRef.unary main_call0.cst main_call0.v15 (broadcastInDim S16384x200x64 ![] bcast_S_S16384x200x64),
    TRef.ternary main_call0.v14 main_call0.v13 main_call0.v15 main_call0.v16 select,
    nullary main_cst (constant S_ .f32 0x00000000#32),
    binary main_v0 main_cst main_v1 ((fun x v => Host.reduceAdd x v reducesTo_S16384x200x64_S16384x64_d1 h_S_) : (⟨S16384x200x64, .f32⟩ : BufTy).Contents (Elt F) → (⟨S_, .f32⟩ : BufTy).Contents (Elt F) → (⟨S16384x64, .f32⟩ : BufTy).Contents (Elt F)),
    nullary main_cst_0 (constant S_ .f32 0x43480000#32),
    unary main_cst_0 main_v2 (broadcastInDim S16384x64 ![] bcast_S_S16384x64 : (⟨S_, .f32⟩ : BufTy).Contents (Elt F) → (⟨S16384x64, .f32⟩ : BufTy).Contents (Elt F)),
    binary main_v1 main_v2 main_v3 (Host.divf : (⟨S16384x64, .f32⟩ : BufTy).Contents (Elt F) → (⟨S16384x64, .f32⟩ : BufTy).Contents (Elt F) → (⟨S16384x64, .f32⟩ : BufTy).Contents (Elt F)),
    unary main_arg2 main_v4 ((transpose S64x64 [1, 0] · transposes_S64x64_S64x64_1_0) : (⟨S64x64, .f32⟩ : BufTy).Contents (Elt F) → (⟨S64x64, .f32⟩ : BufTy).Contents (Elt F)),
    binary main_v3 main_v4 main_v5 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    unary main_arg3 main_v6 (broadcastInDim S1x64 ![1] bcast_S64_S1x64_1 : (⟨S64, .f32⟩ : BufTy).Contents (Elt F) → (⟨S1x64, .f32⟩ : BufTy).Contents (Elt F)),
    unary main_v6 main_v7 (broadcastInDim S16384x64 ![0, 1] bcast_S1x64_S16384x64_0_1 : (⟨S1x64, .f32⟩ : BufTy).Contents (Elt F) → (⟨S16384x64, .f32⟩ : BufTy).Contents (Elt F)),
    binary main_v5 main_v7 main_v8 (addf : (⟨S16384x64, .f32⟩ : BufTy).Contents (Elt F) → (⟨S16384x64, .f32⟩ : BufTy).Contents (Elt F) → (⟨S16384x64, .f32⟩ : BufTy).Contents (Elt F)),
    unary main_arg4 main_v9 ((transpose S64x1 [1, 0] · transposes_S1x64_S64x1_1_0) : (⟨S1x64, .f32⟩ : BufTy).Contents (Elt F) → (⟨S64x1, .f32⟩ : BufTy).Contents (Elt F)),
    binary main_v8 main_v9 main_v10 ((fun l r => Host.dotGeneral dot_S16384x64_S64x1_S16384x1_1_0_0_1_n_n none l r) : (⟨S16384x64, .f32⟩ : BufTy).Contents (Elt F) → (⟨S64x1, .f32⟩ : BufTy).Contents (Elt F) → (⟨S16384x1, .f32⟩ : BufTy).Contents (Elt F)),
    unary main_arg5 main_v11 (broadcastInDim S1x1 ![1] bcast_S1_S1x1_1 : (⟨S1, .f32⟩ : BufTy).Contents (Elt F) → (⟨S1x1, .f32⟩ : BufTy).Contents (Elt F)),
    unary main_v11 main_v12 (broadcastInDim S16384x1 ![0, 1] bcast_S1x1_S16384x1_0_1 : (⟨S1x1, .f32⟩ : BufTy).Contents (Elt F) → (⟨S16384x1, .f32⟩ : BufTy).Contents (Elt F)),
    binary main_v10 main_v12 main_v13 (addf : (⟨S16384x1, .f32⟩ : BufTy).Contents (Elt F) → (⟨S16384x1, .f32⟩ : BufTy).Contents (Elt F) → (⟨S16384x1, .f32⟩ : BufTy).Contents (Elt F)) ]

/-- The same thirty-eight operations over the bare buffers: a typed reference to a literal buffer carries that
    buffer's own type, so the transport along its type equation is the identity. -/
abbrev ops : List (HloOp τ sig (Elt F)) :=
  [ nullary main_call0_c (constantI S_ 32 0#32 : (⟨S_, .i32⟩ : BufTy).Contents (Elt F)),
    unary main_call0_c main_call0_v0 (broadcastInDim S16384x200 ![] bcast_S_S16384x200 : (⟨S_, .i32⟩ : BufTy).Contents (Elt F) → (⟨S16384x200, .i32⟩ : BufTy).Contents (Elt F)),
    binary main_arg0 main_call0_v0 main_call0_v1 (cmpi .slt : (⟨S16384x200, .i32⟩ : BufTy).Contents (Elt F) → (⟨S16384x200, .i32⟩ : BufTy).Contents (Elt F) → (⟨S16384x200, .i1⟩ : BufTy).Contents (Elt F)),
    nullary main_call0_c_0 (constantI S_ 32 10000#32 : (⟨S_, .i32⟩ : BufTy).Contents (Elt F)),
    unary main_call0_c_0 main_call0_v2 (broadcastInDim S16384x200 ![] bcast_S_S16384x200 : (⟨S_, .i32⟩ : BufTy).Contents (Elt F) → (⟨S16384x200, .i32⟩ : BufTy).Contents (Elt F)),
    binary main_arg0 main_call0_v2 main_call0_v3 (addi : (⟨S16384x200, .i32⟩ : BufTy).Contents (Elt F) → (⟨S16384x200, .i32⟩ : BufTy).Contents (Elt F) → (⟨S16384x200, .i32⟩ : BufTy).Contents (Elt F)),
    ternary main_call0_v1 main_call0_v3 main_arg0 main_call0_v4 (select : (⟨S16384x200, .i1⟩ : BufTy).Contents (Elt F) → (⟨S16384x200, .i32⟩ : BufTy).Contents (Elt F) → (⟨S16384x200, .i32⟩ : BufTy).Contents (Elt F) → (⟨S16384x200, .i32⟩ : BufTy).Contents (Elt F)),
    unary main_call0_v4 main_call0_v5 (broadcastInDim S16384x200x1 ![0, 1] bcast_S16384x200_S16384x200x1_0_1 : (⟨S16384x200, .i32⟩ : BufTy).Contents (Elt F) → (⟨S16384x200x1, .i32⟩ : BufTy).Contents (Elt F)),
    nullary main_call0_c_1 (constantI S1 32 9999#32 : (⟨S1, .i32⟩ : BufTy).Contents (Elt F)),
    nullary main_call0_c_2 (constantI S_ 32 0#32 : (⟨S_, .i32⟩ : BufTy).Contents (Elt F)),
    unary main_call0_c_2 main_call0_v6 (broadcastInDim S16384x200x1 ![] bcast_S_S16384x200x1 : (⟨S_, .i32⟩ : BufTy).Contents (Elt F) → (⟨S16384x200x1, .i32⟩ : BufTy).Contents (Elt F)),
    binary main_call0_v5 main_call0_v6 main_call0_v7 (cmpi .sge : (⟨S16384x200x1, .i32⟩ : BufTy).Contents (Elt F) → (⟨S16384x200x1, .i32⟩ : BufTy).Contents (Elt F) → (⟨S16384x200x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S16384x200x1 ![0, 1, 2] bcast_S1x1x1_S16384x200x1_0_1_2 : (⟨S1x1x1, .i32⟩ : BufTy).Contents (Elt F) → (⟨S16384x200x1, .i32⟩ : BufTy).Contents (Elt F)),
    binary main_call0_v5 main_call0_v9 main_call0_v10 (cmpi .sle : (⟨S16384x200x1, .i32⟩ : BufTy).Contents (Elt F) → (⟨S16384x200x1, .i32⟩ : BufTy).Contents (Elt F) → (⟨S16384x200x1, .i1⟩ : BufTy).Contents (Elt F)),
    binary main_call0_v7 main_call0_v10 main_call0_v11 (andi : (⟨S16384x200x1, .i1⟩ : BufTy).Contents (Elt F) → (⟨S16384x200x1, .i1⟩ : BufTy).Contents (Elt F) → (⟨S16384x200x1, .i1⟩ : BufTy).Contents (Elt F)),
    nullary main_call0_c_3 (constantI S_ 1 1#1 : (⟨S_, .i1⟩ : BufTy).Contents (Elt F)),
    binary main_call0_v11 main_call0_c_3 main_call0_v12 ((fun x v => Host.reduce IntOp.andi x v reducesTo_S16384x200x1_S16384x200_d2 h_S_) : (⟨S16384x200x1, .i1⟩ : BufTy).Contents (Elt F) → (⟨S_, .i1⟩ : BufTy).Contents (Elt F) → (⟨S16384x200, .i1⟩ : BufTy).Contents (Elt F)),
    binary main_arg1 main_call0_v5 main_call0_v13 ((fun x i => Host.gather gather_S10000x64_S16384x200x1_S16384x200x64_2_0_n_n_0_2_164 x i) : (⟨S10000x64, .f32⟩ : BufTy).Contents (Elt F) → (⟨S16384x200x1, .i32⟩ : BufTy).Contents (Elt F) → (⟨S16384x200x64, .f32⟩ : BufTy).Contents (Elt F)),
    unary main_call0_v12 main_call0_v14 (broadcastInDim S16384x200x64 ![0, 1] bcast_S16384x200_S16384x200x64_0_1 : (⟨S16384x200, .i1⟩ : BufTy).Contents (Elt F) → (⟨S16384x200x64, .i1⟩ : BufTy).Contents (Elt F)),
    nullary main_call0_cst (constant S_ .f32 0x7FC00000#32 : (⟨S_, .f32⟩ : BufTy).Contents (Elt F)),
    unary main_call0_cst main_call0_v15 (broadcastInDim S16384x200x64 ![] bcast_S_S16384x200x64 : (⟨S_, .f32⟩ : BufTy).Contents (Elt F) → (⟨S16384x200x64, .f32⟩ : BufTy).Contents (Elt F)),
    ternary main_call0_v14 main_call0_v13 main_call0_v15 main_v0 (select : (⟨S16384x200x64, .i1⟩ : BufTy).Contents (Elt F) → (⟨S16384x200x64, .f32⟩ : BufTy).Contents (Elt F) → (⟨S16384x200x64, .f32⟩ : BufTy).Contents (Elt F) → (⟨S16384x200x64, .f32⟩ : BufTy).Contents (Elt F)),
    nullary main_cst (constant S_ .f32 0x00000000#32),
    binary main_v0 main_cst main_v1 ((fun x v => Host.reduceAdd x v reducesTo_S16384x200x64_S16384x64_d1 h_S_) : (⟨S16384x200x64, .f32⟩ : BufTy).Contents (Elt F) → (⟨S_, .f32⟩ : BufTy).Contents (Elt F) → (⟨S16384x64, .f32⟩ : BufTy).Contents (Elt F)),
    nullary main_cst_0 (constant S_ .f32 0x43480000#32),
    unary main_cst_0 main_v2 (broadcastInDim S16384x64 ![] bcast_S_S16384x64 : (⟨S_, .f32⟩ : BufTy).Contents (Elt F) → (⟨S16384x64, .f32⟩ : BufTy).Contents (Elt F)),
    binary main_v1 main_v2 main_v3 (Host.divf : (⟨S16384x64, .f32⟩ : BufTy).Contents (Elt F) → (⟨S16384x64, .f32⟩ : BufTy).Contents (Elt F) → (⟨S16384x64, .f32⟩ : BufTy).Contents (Elt F)),
    unary main_arg2 main_v4 ((transpose S64x64 [1, 0] · transposes_S64x64_S64x64_1_0) : (⟨S64x64, .f32⟩ : BufTy).Contents (Elt F) → (⟨S64x64, .f32⟩ : BufTy).Contents (Elt F)),
    binary main_v3 main_v4 main_v5 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    unary main_arg3 main_v6 (broadcastInDim S1x64 ![1] bcast_S64_S1x64_1 : (⟨S64, .f32⟩ : BufTy).Contents (Elt F) → (⟨S1x64, .f32⟩ : BufTy).Contents (Elt F)),
    unary main_v6 main_v7 (broadcastInDim S16384x64 ![0, 1] bcast_S1x64_S16384x64_0_1 : (⟨S1x64, .f32⟩ : BufTy).Contents (Elt F) → (⟨S16384x64, .f32⟩ : BufTy).Contents (Elt F)),
    binary main_v5 main_v7 main_v8 (addf : (⟨S16384x64, .f32⟩ : BufTy).Contents (Elt F) → (⟨S16384x64, .f32⟩ : BufTy).Contents (Elt F) → (⟨S16384x64, .f32⟩ : BufTy).Contents (Elt F)),
    unary main_arg4 main_v9 ((transpose S64x1 [1, 0] · transposes_S1x64_S64x1_1_0) : (⟨S1x64, .f32⟩ : BufTy).Contents (Elt F) → (⟨S64x1, .f32⟩ : BufTy).Contents (Elt F)),
    binary main_v8 main_v9 main_v10 ((fun l r => Host.dotGeneral dot_S16384x64_S64x1_S16384x1_1_0_0_1_n_n none l r) : (⟨S16384x64, .f32⟩ : BufTy).Contents (Elt F) → (⟨S64x1, .f32⟩ : BufTy).Contents (Elt F) → (⟨S16384x1, .f32⟩ : BufTy).Contents (Elt F)),
    unary main_arg5 main_v11 (broadcastInDim S1x1 ![1] bcast_S1_S1x1_1 : (⟨S1, .f32⟩ : BufTy).Contents (Elt F) → (⟨S1x1, .f32⟩ : BufTy).Contents (Elt F)),
    unary main_v11 main_v12 (broadcastInDim S16384x1 ![0, 1] bcast_S1x1_S16384x1_0_1 : (⟨S1x1, .f32⟩ : BufTy).Contents (Elt F) → (⟨S16384x1, .f32⟩ : BufTy).Contents (Elt F)),
    binary main_v10 main_v12 main_v13 (addf : (⟨S16384x1, .f32⟩ : BufTy).Contents (Elt F) → (⟨S16384x1, .f32⟩ : BufTy).Contents (Elt F) → (⟨S16384x1, .f32⟩ : BufTy).Contents (Elt F)) ]

attribute [local irreducible] Host.reduce Host.gather in
set_option maxRecDepth 8192 in
/-- The two lists are one list. -/
theorem opsT_eq : (opsT : List (HloOp τ sig (Elt F))) = ops := rfl

-- thirty-eight binds re-associated: the rewriting under the chain recurses once per statement
set_option maxRecDepth 2048 in
/-- @main is that straight line: the helper functions' definitions unfolded at their calls, both sides are one chain of
    steps once sequencing is re-associated. -/
theorem mainT_eq (c : Dev nD) : main (F := F) c = seq opsT := by
  simp only [main, fn_take.body, fn_where.body, seq, bind_assoc, pure_bind]

theorem main_eq (c : Dev nD) : main (F := F) c = seq ops := (mainT_eq c).trans (congrArg seq opsT_eq)

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., nullary_bufs_sub .., unary_bufs_sub .., binary_bufs_sub .., unary_bufs_sub ..,
    binary_bufs_sub .., unary_bufs_sub .., unary_bufs_sub .., binary_bufs_sub .., unary_bufs_sub .., binary_bufs_sub ..,
    unary_bufs_sub .., unary_bufs_sub .., binary_bufs_sub ..⟩

/-! ## The run -/

attribute [local irreducible] Host.reduce Host.gather Host.reduceAdd Host.divf in
set_option maxRecDepth 8192 in
set_option maxHeartbeats 1000000 in
/-- The fold of the operations at the result buffer is `refOut` of the arguments' contents: each operation's result
    is its function of the buffers it reads, and a buffer it does not write is left as it was. -/
theorem out_eq (V : Valuation τ sig (Elt Ideal)) :
    after ops V (main_v13 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

set_option maxRecDepth 8192 in
/-- No operation writes argument 0: it keeps its contents. -/
theorem arg0_eq (V : Valuation τ sig (Elt Ideal)) :
    after ops V (main_arg0 : DevRef τ sig) = V (main_arg0 : DevRef τ sig) := by
  after_results_simp

set_option maxRecDepth 8192 in
/-- No operation writes argument 1: it keeps its contents. -/
theorem arg1_eq (V : Valuation τ sig (Elt Ideal)) :
    after ops V (main_arg1 : DevRef τ sig) = V (main_arg1 : DevRef τ sig) := by
  after_results_simp

set_option maxRecDepth 8192 in
/-- No operation writes argument 2: it keeps its contents. -/
theorem arg2_eq (V : Valuation τ sig (Elt Ideal)) :
    after ops V (main_arg2 : DevRef τ sig) = V (main_arg2 : DevRef τ sig) := by
  after_results_simp

set_option maxRecDepth 8192 in
/-- No operation writes argument 3: it keeps its contents. -/
theorem arg3_eq (V : Valuation τ sig (Elt Ideal)) :
    after ops V (main_arg3 : DevRef τ sig) = V (main_arg3 : DevRef τ sig) := by
  after_results_simp

set_option maxRecDepth 8192 in
/-- No operation writes argument 4: it keeps its contents. -/
theorem arg4_eq (V : Valuation τ sig (Elt Ideal)) :
    after ops V (main_arg4 : DevRef τ sig) = V (main_arg4 : DevRef τ sig) := by
  after_results_simp

set_option maxRecDepth 8192 in
/-- No operation writes argument 5: it keeps its contents. -/
theorem arg5_eq (V : Valuation τ sig (Elt Ideal)) :
    after ops V (main_arg5 : DevRef τ sig) = V (main_arg5 : DevRef τ sig) := by
  after_results_simp

/-- On every device, from any memory with zero counters: every weakly fair execution of @main terminates with the
    result buffer at `refOut` of the arguments' launch contents and the six arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v13) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) :=
  (θ_run defs _ _).mono (fun _ h c => ⟨(h c main_v13).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c))⟩)
    (run_seq scopedRefs_eq scopedSems_eq defs main (fun _ => ops) main_eq (fun _ => ops_sub) m ρ)

end Cert.ReferenceIdeal.RefRun

end
-- ==== Proof.SpecLaws.lean ====
/-
  Laws relating the two real-valued shapes of the computation, and a few order-of-summation facts.

  ker_eq_ref: summing the bag's 200 folded scalars gives the reference value.  Each folded scalar is
  (Σ_d (Σ_o w2 o · w1 o d) · row d + c) / 200 with c = Σ_o w2 o · b1 o + b2.  The 200 copies of c / 200 add up to c
  because the bag has exactly 200 entries; the remaining triple sum over (h, d, o) is the reference's triple sum over
  (o, d, h) with the order of summation exchanged.
-/
import proofs.«205085_g3753801417095_cont_8to1_b_1540_27_alg».proof.Proof.Spec
import Mathlib.Algebra.BigOperators.Group.Finset.Basic
import Mathlib.Data.Fintype.BigOperators
import Mathlib.Tactic.Abel

namespace Cert.Spec

/-- A triple sum over (h, d, o) equals the same triple sum taken over (o, d, h). -/
theorem sum_rotate {H D O : Type} [Fintype H] [Fintype D] [Fintype O] (f : H → D → O → ℝ) :
    ∑ h : H, ∑ d : D, ∑ o : O, f h d o = ∑ o : O, ∑ d : D, ∑ h : H, f h d o := by
  calc ∑ h : H, ∑ d : D, ∑ o : O, f h d o
      = ∑ h : H, ∑ o : O, ∑ d : D, f h d o := Finset.sum_congr rfl (fun _ _ => Finset.sum_comm)
    _ = ∑ o : O, ∑ h : H, ∑ d : D, f h d o := Finset.sum_comm
    _ = ∑ o : O, ∑ d : D, ∑ h : H, f h d o := Finset.sum_congr rfl (fun _ _ => Finset.sum_comm)

/-- The folding identity over arbitrary finite index types: a bag of N rows, N nonzero. -/
theorem fold_sum_eq {H D O : Type} [Fintype H] [Fintype D] [Fintype O]
    (t : H → D → ℝ) (w1 : O → D → ℝ) (b1 : O → ℝ) (w2 : O → ℝ) (b2 : ℝ) (N : ℝ)
    (hN : (Fintype.card H : ℝ) = N) (hN0 : N ≠ 0) :
    ∑ h : H, ((∑ d : D, (∑ o : O, w2 o * w1 o d) * t h d) + ((∑ o : O, w2 o * b1 o) + b2)) * (1 / N)
      = (∑ o : O, ((∑ d : D, ((∑ h : H, t h d) / N) * w1 o d) + b1 o) * w2 o) + b2 := by
  -- the constant part: N copies of c / N
  have hc : ∑ _h : H, ((∑ o : O, w2 o * b1 o) + b2) * (1 / N) = (∑ o : O, w2 o * b1 o) + b2 := by
    rw [Finset.sum_const, Finset.card_univ, nsmul_eq_mul, hN]
    field_simp
  -- the linear part: exchange the order of the three sums
  have hmain : ∑ h : H, (∑ d : D, (∑ o : O, w2 o * w1 o d) * t h d) * (1 / N)
      = ∑ o : O, (∑ d : D, ((∑ h : H, t h d) / N) * w1 o d) * w2 o := by
    simp only [div_eq_mul_inv, Finset.sum_mul]
    rw [sum_rotate]
    refine Finset.sum_congr rfl (fun o _ => Finset.sum_congr rfl (fun d _ =>
      Finset.sum_congr rfl (fun h _ => ?_)))
    ring
  have hb : ∑ o : O, b1 o * w2 o = ∑ o : O, w2 o * b1 o :=
    Finset.sum_congr rfl (fun _ _ => mul_comm _ _)
  calc ∑ h : H, ((∑ d : D, (∑ o : O, w2 o * w1 o d) * t h d) + ((∑ o : O, w2 o * b1 o) + b2)) * (1 / N)
      = (∑ h : H, (∑ d : D, (∑ o : O, w2 o * w1 o d) * t h d) * (1 / N))
          + ∑ _h : H, ((∑ o : O, w2 o * b1 o) + b2) * (1 / N) := by
        rw [← Finset.sum_add_distrib]
        exact Finset.sum_congr rfl (fun _ _ => add_mul _ _ _)
    _ = (∑ o : O, (∑ d : D, ((∑ h : H, t h d) / N) * w1 o d) * w2 o) + ((∑ o : O, w2 o * b1 o) + b2) := by
        rw [hmain, hc]
    _ = (∑ o : O, ((∑ d : D, ((∑ h : H, t h d) / N) * w1 o d) + b1 o) * w2 o) + b2 := by
        have hsplit : ∑ o : O, ((∑ d : D, ((∑ h : H, t h d) / N) * w1 o d) + b1 o) * w2 o
            = (∑ o : O, (∑ d : D, ((∑ h : H, t h d) / N) * w1 o d) * w2 o) + ∑ o : O, b1 o * w2 o := by
          rw [← Finset.sum_add_distrib]
          exact Finset.sum_congr rfl (fun _ _ => add_mul _ _ _)
        rw [hsplit, hb, add_assoc]

/-- Summing the bag's 200 folded scalars gives the reference value. -/
theorem ker_eq_ref (idx : Fin 16384 → Fin 200 → Fin 10000) (tab : Fin 10000 → Fin 64 → ℝ)
    (w1 : Fin 64 → Fin 64 → ℝ) (b1 : Fin 64 → ℝ) (w2 : Fin 64 → ℝ) (b2 : ℝ) (b : Fin 16384) :
    kerReal idx tab w1 b1 w2 b2 b = refReal idx tab w1 b1 w2 b2 b := by
  unfold kerReal foldReal refReal
  exact fold_sum_eq (fun h d => tab (idx b h) d) w1 b1 w2 b2 200 (by simp) (by norm_num)

/-- a left fold that starts at 0 and adds x 0, x 1, …, x (n-1) in order -/
def foldAdd {M : Type} [AddCommMonoid M] (x : ℕ → M) : ℕ → M
  | 0 => 0
  | (n+1) => foldAdd x n + x n

theorem foldAdd_eq_sum {M : Type} [AddCommMonoid M] (x : ℕ → M) (n : ℕ) :
    foldAdd x n = ∑ i ∈ Finset.range n, x i := by
  induction n with
  | zero => simp [foldAdd]
  | succ n ih => rw [foldAdd, ih, Finset.sum_range_succ]

/-- eight interleaved accumulators over 8·n terms, then added up left to right, are the plain sum of the 8·n terms -/
theorem eight_lanes_sum {M : Type} [AddCommMonoid M] (x : ℕ → M) (n : ℕ) :
    (((((((∑ i ∈ Finset.range n, x (i*8+0)) + ∑ i ∈ Finset.range n, x (i*8+1)) + ∑ i ∈ Finset.range n, x (i*8+2)) + ∑ i ∈ Finset.range n, x (i*8+3)) + ∑ i ∈ Finset.range n, x (i*8+4)) + ∑ i ∈ Finset.range n, x (i*8+5)) + ∑ i ∈ Finset.range n, x (i*8+6)) + ∑ i ∈ Finset.range n, x (i*8+7)
      = ∑ k ∈ Finset.range (8*n), x k := by
  induction n with
  | zero => simp
  | succ n ih =>
    -- the last block of eight terms, x (8n), …, x (8n+7), is one new term for each accumulator
    have hblock : ∑ k ∈ Finset.range (8 * (n + 1)), x k
        = (∑ k ∈ Finset.range (8 * n), x k)
          + (x (n*8+0) + x (n*8+1) + x (n*8+2) + x (n*8+3) + x (n*8+4) + x (n*8+5) + x (n*8+6) + x (n*8+7)) := by
      rw [show 8 * (n + 1) = 8 * n + 8 by ring, Finset.sum_range_add, Nat.mul_comm 8 n]
      simp only [Finset.sum_range_succ, Finset.sum_range_zero, zero_add]
    rw [hblock, ← ih]
    simp only [Finset.sum_range_succ]
    abel

theorem split_104_96 {M : Type} [AddCommMonoid M] (x : ℕ → M) :
    (∑ k ∈ Finset.range 104, x k) + (∑ k ∈ Finset.range 96, x (104 + k)) = ∑ h : Fin 200, x h.val := by
  rw [Fin.sum_univ_eq_sum_range x 200, show (200 : ℕ) = 104 + 96 from rfl, Finset.sum_range_add]

end Cert.Spec
-- ==== Proof.TileValue.lean ====
/-
  The value of one output entry of the summing kernel at the extended reals.  There the float addition is the
  extended reals' addition, which is commutative and associative, and the zero word is 0; so the order in which the
  bag's 200 scalars are added (two stretches, eight interleaved running sums in each) does not matter, and an entry
  is the plain sum of the bag's 200 scalars.  When the folded table holds (coerced) real numbers, the entry is the
  coerced real sum.
-/
import proofs.«205085_g3753801417095_cont_8to1_b_1540_27_alg».proof.Proof.TileSpec
import proofs.«205085_g3753801417095_cont_8to1_b_1540_27_alg».proof.Proof.SpecLaws
import Idealize.ShloMosaic.PureOps.Ideal
import Idealize.ShloMosaic.Lib.ValueIdx

noncomputable section

namespace Cert.TileSpec

open Idealize.ShloMosaic

/-- The zero word denotes the extended real 0. -/
theorem zero_ideal : zero (F := Ideal) = (0 : EReal) := by
  simp [zero, Ideal.ofBits, Ideal.ieee]

/-- A running sum from zero is the left fold from 0. -/
theorem acc_ideal (x : ℕ → EReal) (n : ℕ) : acc (F := Ideal) zero x n = Cert.Spec.foldAdd x n := by
  induction n with
  | zero => exact zero_ideal
  | succ n ih =>
    show acc (F := Ideal) zero x n + x n = Cert.Spec.foldAdd x n + x n
    rw [ih]

/-- A stretch of 8·n terms is their plain sum. -/
theorem stretch_ideal (x : ℕ → EReal) (n : ℕ) :
    stretch (F := Ideal) x n = ∑ k ∈ Finset.range (8 * n), x k := by
  rw [← Cert.Spec.eight_lanes_sum x n]
  simp only [stretch, lanes8, Ideal.addf_def, acc_ideal, Cert.Spec.foldAdd_eq_sum]

/-- The whole bag is the plain sum of its 200 terms. -/
theorem bag_ideal (x : ℕ → EReal) : bag (F := Ideal) x = ∑ h : Fin 200, x h.val := by
  show stretch (F := Ideal) x 13 + stretch (F := Ideal) (fun k => x (104 + k)) 12 = _
  rw [stretch_ideal, stretch_ideal]
  exact Cert.Spec.split_104_96 x

/-- An in-range position and column are not changed by the reduction into range. -/
theorem idxAt_eq (A : (⟨2, ![200, 16384]⟩ : Shape).Idx → BitVec 32) (h : Fin 200) (b : Fin 16384) :
    idxAt A h.val b.val = (A (ValueIdx.ix2 h b)).toNat := by
  have hh : (⟨h.val % 200, Nat.mod_lt _ (by norm_num)⟩ : Fin 200) = h := Fin.ext (Nat.mod_eq_of_lt h.isLt)
  have hb : (⟨b.val % 16384, Nat.mod_lt _ (by norm_num)⟩ : Fin 16384) = b := Fin.ext (Nat.mod_eq_of_lt b.isLt)
  unfold idxAt
  rw [hh, hb]

/-- At the extended reals an output entry is the sum of the bag's 200 folded-table scalars. -/
theorem out_ideal (A : (⟨2, ![200, 16384]⟩ : Shape).Idx → BitVec 32) (Tt : (⟨1, ![10000]⟩ : Shape).Idx → EReal)
    (b : Fin 16384) :
    out (F := Ideal) A Tt (ValueIdx.ix1 b) = ∑ h : Fin 200, tAt (F := Ideal) Tt (A (ValueIdx.ix2 h b)).toNat := by
  show bag (F := Ideal) (fun h => tAt (F := Ideal) Tt (idxAt A h b.val)) = _
  rw [bag_ideal]
  exact Finset.sum_congr rfl (fun h _ => by rw [idxAt_eq])

/-- The coercion of a finite sum of reals into the extended reals is the sum of the coercions. -/
theorem coe_sum {ι : Type} (s : Finset ι) (g : ι → ℝ) :
    ((∑ i ∈ s, g i : ℝ) : EReal) = ∑ i ∈ s, ((g i : ℝ) : EReal) := by
  classical
  induction s using Finset.induction_on with
  | empty => simp
  | insert a s ha ih => rw [Finset.sum_insert ha, Finset.sum_insert ha, EReal.coe_add, ih]

/-- With in-range indices and a real-valued folded table, an output entry is the (coerced) real sum over the bag. -/
theorem out_real (A : (⟨2, ![200, 16384]⟩ : Shape).Idx → BitVec 32) (Tt : (⟨1, ![10000]⟩ : Shape).Idx → EReal)
    (idx : Fin 16384 → Fin 200 → Fin 10000) (f : Fin 10000 → ℝ)
    (hA : ∀ (b : Fin 16384) (h : Fin 200), (A (ValueIdx.ix2 h b)).toNat = (idx b h).val)
    (hT : ∀ v : Fin 10000, Tt (ValueIdx.ix1 v) = ((f v : ℝ) : EReal)) (b : Fin 16384) :
    out (F := Ideal) A Tt (ValueIdx.ix1 b) = ((∑ h : Fin 200, f (idx b h) : ℝ) : EReal) := by
  rw [out_ideal, coe_sum]
  refine Finset.sum_congr rfl (fun h _ => ?_)
  have hv : (⟨(idx b h).val % 10000, Nat.mod_lt _ (by norm_num)⟩ : Fin 10000) = idx b h :=
    Fin.ext (Nat.mod_eq_of_lt (idx b h).isLt)
  rw [hA b h]
  unfold tAt
  rw [hv, hT]

/-- With the folded table of the two layers, an output entry is the kernel-shaped real value. -/
theorem out_kerReal (A : (⟨2, ![200, 16384]⟩ : Shape).Idx → BitVec 32) (Tt : (⟨1, ![10000]⟩ : Shape).Idx → EReal)
    (idx : Fin 16384 → Fin 200 → Fin 10000) (tab : Fin 10000 → Fin 64 → ℝ)
    (w1 : Fin 64 → Fin 64 → ℝ) (b1 : Fin 64 → ℝ) (w2 : Fin 64 → ℝ) (b2 : ℝ)
    (hA : ∀ (b : Fin 16384) (h : Fin 200), (A (ValueIdx.ix2 h b)).toNat = (idx b h).val)
    (hT : ∀ v : Fin 10000, Tt (ValueIdx.ix1 v) = ((Cert.Spec.foldReal tab w1 b1 w2 b2 v : ℝ) : EReal))
    (b : Fin 16384) :
    out (F := Ideal) A Tt (ValueIdx.ix1 b) = ((Cert.Spec.kerReal idx tab w1 b1 w2 b2 b : ℝ) : EReal) :=
  out_real A Tt idx (Cert.Spec.foldReal tab w1 b1 w2 b2) hA hT b

/-- …and hence the reference-shaped real value. -/
theorem out_refReal (A : (⟨2, ![200, 16384]⟩ : Shape).Idx → BitVec 32) (Tt : (⟨1, ![10000]⟩ : Shape).Idx → EReal)
    (idx : Fin 16384 → Fin 200 → Fin 10000) (tab : Fin 10000 → Fin 64 → ℝ)
    (w1 : Fin 64 → Fin 64 → ℝ) (b1 : Fin 64 → ℝ) (w2 : Fin 64 → ℝ) (b2 : ℝ)
    (hA : ∀ (b : Fin 16384) (h : Fin 200), (A (ValueIdx.ix2 h b)).toNat = (idx b h).val)
    (hT : ∀ v : Fin 10000, Tt (ValueIdx.ix1 v) = ((Cert.Spec.foldReal tab w1 b1 w2 b2 v : ℝ) : EReal))
    (b : Fin 16384) :
    out (F := Ideal) A Tt (ValueIdx.ix1 b) = ((Cert.Spec.refReal idx tab w1 b1 w2 b2 b : ℝ) : EReal) := by
  rw [← Cert.Spec.ker_eq_ref]
  exact out_kerReal A Tt idx tab w1 b1 w2 b2 hA hT b

end Cert.TileSpec

end
-- ==== Proof.FoldValue.lean ====
/-
  The first kernel's stored value, read at a table row, over the reals. The host hands the kernel the second layer's
  weight row padded to eight rows (row 0 the row, rows 1–7 zero), the first layer's weights W1, the two biases with a
  leading unit axis, and the table transposed. The kernel forms P = pad(w2) · W1, an [8, 64] array whose row 0 is
  Σ_o w2[o] · W1[o, d]; the scalar c = Σ_o w2[o] · b1[o] + b2 from row 0 of the padded weights; Q = P · tabᵀ, an
  [8, 10000] array whose row 0 at column v is Σ_d P[0, d] · tab[v, d]; and stores (Q[0, v] + c) · (1/200). Only row 0
  of the padded operand reaches the stored value, so only row 0 of the padding is read back: the padding is a left fold
  of 64 single-element writes into the zero array, update element o lands at (0, o) and nowhere else, so after the fold
  position (0, o) holds update element o, the weight w2[o]. A product of an M×K by a K×N array into the zero array is, at
  (r, c), the sum over the K products; the lane sum over the two trailing axes of a [1, 1, 64] array is the sum of its 64
  lanes. With every operand a real number the extended-real sums and products are the coercions of the real ones, and
  the result is the folded scalar of row v.
-/
import proofs.«205085_g3753801417095_cont_8to1_b_1540_27_alg».proof.Proof.HostKI
import proofs.«205085_g3753801417095_cont_8to1_b_1540_27_alg».proof.Proof.Spec
import Idealize.ShloMosaic.PureOps.Ideal.Laws
import Idealize.ShloMosaic.PureOps.IdealRules
import Idealize.ShloMosaic.Lib.ValueIdx
import Idealize.ShloMosaic.Lib.ValueLayout

noncomputable section

namespace Cert.Proof.KI

open Cert.KernelIdeal Cert.KernelIdeal.Gen
open Idealize.ShloMosaic Idealize.ShloMosaic.ValueIdx

/-- The transposed index array reads, at (h, b), the index array at (b, h). -/
theorem hIdxT_apply (a0 : (⟨S16384x200, .i32⟩ : BufTy).Contents (Elt Ideal)) (h : Fin 200) (b : Fin 16384) :
    hIdxT (F := Ideal) a0 (ix2 h b) = a0 (ix2 b h) :=
  transpose_ix2_apply a0 _ h b

/-- The result with its trailing unit axis reads, at (b, 0), the result at b. -/
theorem hOut_apply (o : (⟨S16384, .f32⟩ : BufTy).Contents (Elt Ideal)) (b : Fin 16384) :
    hOut (F := Ideal) o (ix2 b (0 : Fin 1)) = o (ix1 b) :=
  shapeCast_apply o _ _ _ (by
    rw [Shape.rowMajor_val_one, Shape.rowMajor_val_two]
    show b.val = b.val * 1 + 0
    omega)

/-- An M×K by K×N product into the zero array reads, at (r, c), the sum over the K products. -/
theorem matmul_plain_zero_apply {M K N : Nat} (lhs : FVec Ideal ⟨2, ![M, K]⟩ .f32) (rhs : FVec Ideal ⟨2, ![K, N]⟩ .f32)
    (r : Fin M) (c : Fin N) :
    FloatOps.matmul (DotDims.plain M K N) none lhs rhs (constant (F := Ideal) ⟨2, ![M, N]⟩ .f32 0x00000000#32) (ix2 r c)
      = ∑ o : Fin K, lhs (ix2 r o) * rhs (ix2 o c) := by
  rw [Ideal.matmul_constant_zero_apply]
  rw [← Equiv.sum_comp (contrEquiv1 (DotDims.plain M K N) K rfl rfl).symm]
  refine Finset.sum_congr rfl fun o _ => ?_
  have hl : (DotDims.plain M K N).lhsIdx (ix2 r c) ((contrEquiv1 (DotDims.plain M K N) K rfl rfl).symm o) = ix2 r o := by
    funext a
    match a with
    | ⟨0, _⟩ => rfl
    | ⟨1, _⟩ =>
      exact Fin.ext (((DotDims.plain M K N).lhsIdx_val_of_single rfl _ _).trans (contrEquiv1_symm_val _ _ _ _ o))
  have hr : (DotDims.plain M K N).rhsIdx (ix2 r c) ((contrEquiv1 (DotDims.plain M K N) K rfl rfl).symm o) = ix2 o c := by
    funext a
    match a with
    | ⟨0, _⟩ =>
      exact Fin.ext (((DotDims.plain M K N).rhsIdx_val_of_single rfl _ _).trans (contrEquiv1_symm_val _ _ _ _ o))
    | ⟨1, _⟩ => rfl
  rw [hl, hr]

/-! ## Row 0 of the padded weights -/

/-- A left fold whose steps leave the value at `i₀` alone off the positions that hit it keeps the start value there
    when no position of the list hits. -/
theorem foldl_read_miss {ι κ α : Type} (step : (κ → α) → ι → (κ → α)) (i₀ : κ) (hit : ι → Prop)
    (hmiss : ∀ r n, ¬ hit n → step r n i₀ = r i₀) :
    ∀ (l : List ι) (x : κ → α), (∀ n ∈ l, ¬ hit n) → l.foldl step x i₀ = x i₀
  | [], x, _ => rfl
  | a :: l, x, h => by
    rw [List.foldl_cons, foldl_read_miss step i₀ hit hmiss l _ (fun n hn => h n (List.mem_cons_of_mem _ hn)),
      hmiss x a (h a List.mem_cons_self)]

/-- When exactly one position `n₀` of a duplicate-free list hits `i₀`, and a hit writes `val` of the position, the
    fold ends with `val n₀` at `i₀`. -/
theorem foldl_read_hit {ι κ α : Type} (step : (κ → α) → ι → (κ → α)) (i₀ : κ) (hit : ι → Prop) (val : ι → α)
    (hmiss : ∀ r n, ¬ hit n → step r n i₀ = r i₀) (hhit : ∀ r n, hit n → step r n i₀ = val n) (n₀ : ι) (h₀ : hit n₀) :
    ∀ (l : List ι) (x : κ → α), l.Nodup → n₀ ∈ l → (∀ n ∈ l, hit n → n = n₀) → l.foldl step x i₀ = val n₀
  | [], x, _, hm, _ => absurd hm List.not_mem_nil
  | a :: l, x, hnd, hm, hu => by
    rw [List.foldl_cons]
    by_cases ha : a = n₀
    · subst ha
      have hnl : a ∉ l := (List.nodup_cons.1 hnd).1
      rw [foldl_read_miss step i₀ hit hmiss l _ (fun n hn hh => hnl (hu n (List.mem_cons_of_mem _ hn) hh ▸ hn)),
        hhit x a h₀]
    · have hm' : n₀ ∈ l := by
        rcases List.mem_cons.1 hm with h | h
        · exact absurd h.symm ha
        · exact h
      exact foldl_read_hit step i₀ hit val hmiss hhit n₀ h₀ l _ (List.nodup_cons.1 hnd).2 hm'
        (fun n hn => hu n (List.mem_cons_of_mem _ hn))

/-- With every start index 0, update element `o` of the 64 lands at (0, o) of the [8, 64] operand. -/
theorem scatter_resultIdx (idx : IVec S1 32) (hidx : ∀ i, idx i = 0#32) (o : Fin 64) :
    scatter_S8x64_S1_S64_0_0_0_0.resultIdx? (ix1 o) idx = some (ix2 (0 : Fin 8) o) := by
  have hs0 : ∀ h : 0 < S8x64.rank, scatter_S8x64_S1_S64_0_0_0_0.start (ix1 o) idx ⟨0, h⟩ = 0 := by
    intro h
    unfold ScatterDims.start
    rw [dif_pos (by decide +revert), hidx]
    rfl
  have hs1 : ∀ h : 1 < S8x64.rank, scatter_S8x64_S1_S64_0_0_0_0.start (ix1 o) idx ⟨1, h⟩ = 0 := by
    intro h
    unfold ScatterDims.start
    rw [dif_neg (by decide +revert)]
  have hw0 : ∀ h : 0 < S8x64.rank, scatter_S8x64_S1_S64_0_0_0_0.window (ix1 o) ⟨0, h⟩ = 0 := fun _ => rfl
  have hw1 : ∀ h : 1 < S8x64.rank, scatter_S8x64_S1_S64_0_0_0_0.window (ix1 o) ⟨1, h⟩ = o.val := fun _ => rfl
  unfold ScatterDims.resultIdx?
  have hcond : ∀ a, 0 ≤ scatter_S8x64_S1_S64_0_0_0_0.start (ix1 o) idx a + scatter_S8x64_S1_S64_0_0_0_0.window (ix1 o) a
      ∧ scatter_S8x64_S1_S64_0_0_0_0.start (ix1 o) idx a + scatter_S8x64_S1_S64_0_0_0_0.window (ix1 o) a < S8x64.size a := by
    intro a
    match a with
    | ⟨0, h⟩ =>
      rw [hs0 h, hw0 h]
      refine ⟨by omega, ?_⟩
      show (0 : Int) + ((0 : Nat) : Int) < ((8 : Nat) : Int)
      omega
    | ⟨1, h⟩ =>
      rw [hs1 h, hw1 h]
      have := o.isLt
      refine ⟨by omega, ?_⟩
      show (0 : Int) + (o.val : Int) < ((64 : Nat) : Int)
      omega
  rw [dif_pos hcond]
  congr 1
  funext a
  match a with
  | ⟨0, h⟩ =>
    apply Fin.ext
    show (scatter_S8x64_S1_S64_0_0_0_0.start (ix1 o) idx ⟨0, h⟩ + scatter_S8x64_S1_S64_0_0_0_0.window (ix1 o) ⟨0, h⟩).toNat = 0
    rw [hs0 h, hw0 h]; rfl
  | ⟨1, h⟩ =>
    apply Fin.ext
    show (scatter_S8x64_S1_S64_0_0_0_0.start (ix1 o) idx ⟨1, h⟩ + scatter_S8x64_S1_S64_0_0_0_0.window (ix1 o) ⟨1, h⟩).toNat = o.val
    rw [hs1 h, hw1 h]; omega

/-- Row 0 of the padded weights is the weight row. -/
theorem hW2p_row0 (a4 : (⟨S1x64, .f32⟩ : BufTy).Contents (Elt Ideal)) (o : Fin 64) :
    hW2p (F := Ideal) a4 (ix2 (0 : Fin 8) o) = a4 (ix2 (0 : Fin 1) o) := by
  unfold hW2p Host.scatter
  have hidx : ∀ i, (broadcastInDim S1 ![] bcast_S_S1 (constantI S_ 32 0#32) : IVec S1 32) i = 0#32 := fun _ => rfl
  refine (foldl_read_hit _ (ix2 (0 : Fin 8) o) (fun n : Fin S64.numel => S64.rowMajor.symm n = ix1 o)
    (fun n => shapeCast S64 a4 shapeCasts_S1x64_S64 (S64.rowMajor.symm n)) ?_ ?_ (S64.rowMajor (ix1 o))
    (Equiv.symm_apply_apply _ _) _ _ (List.nodup_finRange _) (List.mem_finRange _) ?_).trans ?_
  · intro r n hn
    obtain ⟨o', ho'⟩ : ∃ o' : Fin 64, S64.rowMajor.symm n = ix1 o' := ⟨_, eq_ix1 _⟩
    beta_reduce
    rw [ho', scatter_resultIdx _ hidx]
    have hne : o ≠ o' := fun e => hn (by rw [ho', e])
    show (if ix2 (0 : Fin 8) o = ix2 (0 : Fin 8) o' then _ else r (ix2 (0 : Fin 8) o)) = _
    rw [if_neg (fun e => hne (congrFun e ⟨1, by decide⟩))]
  · intro r n hn
    beta_reduce
    rw [hn, scatter_resultIdx _ hidx]
    show (if ix2 (0 : Fin 8) o = ix2 (0 : Fin 8) o then _ else r (ix2 (0 : Fin 8) o)) = _
    rw [if_pos rfl]
  · intro n _ hn
    rw [← hn, Equiv.apply_symm_apply]
  · beta_reduce
    rw [Equiv.symm_apply_apply]
    exact shapeCast_1a_a_apply a4 _ o

/-! ## The stored value at a table row -/

/-- The first product: (8×64)·(64×64) into zero, at (r, c). -/
theorem mm1_apply (L : FVec Ideal S8x64 .f32) (R : FVec Ideal S64x64 .f32) (r : Fin 8) (c : Fin 64) :
    matmul (F := Ideal) dot_S8x64_S64x64_S8x64_1_0_0_1_n_n none L R (constant (F := Ideal) S8x64 .f32 0x00000000#32) (ix2 r c)
      = ∑ o : Fin 64, L (ix2 r o) * R (ix2 o c) :=
  matmul_plain_zero_apply L R r c

/-- The second product: (8×64)·(64×10000) into zero, at (r, c). -/
theorem mm2_apply (L : FVec Ideal S8x64 .f32) (R : FVec Ideal S64x10000 .f32) (r : Fin 8) (c : Fin 10000) :
    matmul (F := Ideal) dot_S8x64_S64x10000_S8x10000_1_0_0_1_n_n none L R (constant (F := Ideal) S8x10000 .f32 0x00000000#32) (ix2 r c)
      = ∑ o : Fin 64, L (ix2 r o) * R (ix2 o c) :=
  matmul_plain_zero_apply L R r c

/-- The sum over both trailing axes of a [1, 64] row seen as [1, 1, 64] is the sum of its 64 lanes. -/
theorem lane_sum (y : FVec Ideal S1x64 .f32) (hφ : FTy.f32 = FTy.f32 ∨ FTy.f32 = FTy.bf16)
    (hacc : (0x00000000#32 : BitVec 32) = 0x00000000#32) (j : S1.Idx) :
    multiReduction (F := Ideal) .add [1, 2] S1 (shapeCast S1x1x64 y shapeCasts_S1x64_S1x1x64) 0x00000000#32
        reduces_S1x1x64_S1 hφ hacc j
      = ∑ o : Fin 64, y (ix2 (0 : Fin 1) o) := by
  refine (Ideal.multiReduction_add_total _ _ _ (fun b => ?_) hφ hacc j).trans ?_
  · match b with
    | ⟨0, _⟩ => rfl
  · unfold shapeCast
    rw [Equiv.sum_comp (Shape.reshapeEquiv shapeCasts_S1x64_S1x1x64) y, sum_idx2, Fin.sum_univ_one]

/-- The kernel's named constant is the rational 1/200. -/
theorem inv_200 : Named.named (F := Ideal) Cert.KernelIdeal.κ "inv_200" (φ := .f32) 0x3BA3D70A#32 = ((1 / 200 : ℝ) : EReal) :=
  IdealRules.named_const.ideal_named_scalar _ _ _ _ rfl

/-- The bias scalar: the lane sum of row 0 of the weights times the first bias, plus the second bias. -/
theorem bias_apply (v0 : FVec Ideal S8x64 .f32) (v5 : FVec Ideal S1x64 .f32) (v12 : FVec Ideal S1x1 .f32)
    (hφ : FTy.f32 = FTy.f32 ∨ FTy.f32 = FTy.bf16) (hacc : (0x00000000#32 : BitVec 32) = 0x00000000#32) :
    Scalar.addf (F := Ideal)
        (extractAt ![0, 0, 0]
          (shapeCast S1x1x1
            (multiReduction (F := Ideal) .add [1, 2] S1
              (shapeCast S1x1x64 (mulf (extractStridedSlice S1x64 ![0, 0] v0 slices_S8x64_o0_0_S1x64) v5)
                shapeCasts_S1x64_S1x1x64)
              0x00000000#32 reduces_S1x1x64_S1 hφ hacc)
            shapeCasts_S1_S1x1x1)
          inpos_S1x1x1_p0_0_0)
        (extractAt ![0, 0] v12 inpos_S1x1_p0_0)
      = (∑ o : Fin 64, v0 (ix2 (0 : Fin 8) o) * v5 (ix2 (0 : Fin 1) o)) + v12 (ix2 (0 : Fin 1) (0 : Fin 1)) := by
  show (multiReduction (F := Ideal) .add [1, 2] S1 _ 0x00000000#32 reduces_S1x1x64_S1 hφ hacc _) + v12 _ = _
  rw [lane_sum]
  congr 1
  · refine Finset.sum_congr rfl fun o _ => ?_
    rw [mulf_apply, slice2_axis0_apply 0 _ _ (0 : Fin 1) o (0 : Fin 8) rfl]
  · exact congrArg v12 (funext fun a => match a with | ⟨0, _⟩ => rfl | ⟨1, _⟩ => rfl)

/-- The stored value at table row `v`, over any operands: the two products' row 0, the bias scalar, the scale. -/
theorem k0_pay1_apply (v0 : FVec Ideal S8x64 .f32) (v2 : FVec Ideal S64x64 .f32) (v5 : FVec Ideal S1x64 .f32)
    (v12 : FVec Ideal S1x1 .f32) (v15 : FVec Ideal S64x10000 .f32) (v : Fin 10000) :
    Gen.k0_pay1 (F := Ideal) v0 v2 v5 v12 v15 (ix1 v)
      = ((∑ d : Fin 64, (∑ o : Fin 64, v0 (ix2 (0 : Fin 8) o) * v2 (ix2 o d)) * v15 (ix2 d v))
          + ((∑ o : Fin 64, v0 (ix2 (0 : Fin 8) o) * v5 (ix2 (0 : Fin 1) o)) + v12 (ix2 (0 : Fin 1) (0 : Fin 1))))
        * ((1 / 200 : ℝ) : EReal) := by
  unfold Gen.k0_pay1
  simp only [shapeCast_self]
  rw [mulf_apply, addf_apply, broadcast_apply, broadcast_apply, inv_200, shapeCast_1a_a_apply,
    slice2_axis0_apply 0 _ _ (0 : Fin 1) v (0 : Fin 8) rfl, mm2_apply]
  simp only [mm1_apply]
  congr 2
  exact bias_apply v0 v5 v12 _ _

/-! ## At real operands -/

/-- The coercion of a finite sum of reals is the sum of the coercions. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- At real operands the stored value at table row `v` is the folded scalar of the row. -/
theorem foldArr_real (a1 : (⟨S10000x64, .f32⟩ : BufTy).Contents (Elt Ideal)) (a2 : (⟨S64x64, .f32⟩ : BufTy).Contents (Elt Ideal))
    (a3 : (⟨S64, .f32⟩ : BufTy).Contents (Elt Ideal)) (a4 : (⟨S1x64, .f32⟩ : BufTy).Contents (Elt Ideal))
    (a5 : (⟨S1, .f32⟩ : BufTy).Contents (Elt Ideal))
    (tab : Fin 10000 → Fin 64 → ℝ) (w1 : Fin 64 → Fin 64 → ℝ) (b1 : Fin 64 → ℝ) (w2 : Fin 64 → ℝ) (b2 : ℝ)
    (h1 : ∀ v d, a1 (ix2 v d) = ((tab v d : ℝ) : EReal)) (h2 : ∀ o d, a2 (ix2 o d) = ((w1 o d : ℝ) : EReal))
    (h3 : ∀ o, a3 (ix1 o) = ((b1 o : ℝ) : EReal)) (h4 : ∀ o, a4 (ix2 (0 : Fin 1) o) = ((w2 o : ℝ) : EReal))
    (h5 : a5 (ix1 (0 : Fin 1)) = ((b2 : ℝ) : EReal)) (v : Fin 10000) :
    foldArr (F := Ideal) a1 a2 a3 a4 a5 (ix1 v) = ((Cert.Spec.foldReal tab w1 b1 w2 b2 v : ℝ) : EReal) := by
  have e0 : ∀ o : Fin 64, hW2p (F := Ideal) a4 (ix2 (0 : Fin 8) o) = ((w2 o : ℝ) : EReal) :=
    fun o => (hW2p_row0 a4 o).trans (h4 o)
  have e5 : ∀ o : Fin 64, hB1 (F := Ideal) a3 (ix2 (0 : Fin 1) o) = ((b1 o : ℝ) : EReal) :=
    fun o => (shapeCast_a_1a_apply a3 _ 0 o).trans (h3 o)
  have e12 : hB2 (F := Ideal) a5 (ix2 (0 : Fin 1) (0 : Fin 1)) = ((b2 : ℝ) : EReal) :=
    (shapeCast_a_1a_apply a5 _ 0 0).trans h5
  have e15 : ∀ d : Fin 64, hTabT (F := Ideal) a1 (ix2 d v) = ((tab v d : ℝ) : EReal) :=
    fun d => (transpose_ix2_apply a1 _ d v).trans (h1 v d)
  unfold foldArr
  rw [k0_pay1_apply]
  simp only [e0, e5, e12, e15, h2]
  simp only [← EReal.coe_mul, ← coe_sum, ← EReal.coe_add]
  rfl

end Cert.Proof.KI

end
-- ==== Proof.BridgeKI.lean ====
/-
  The value bridge at the extended reals: under the precondition, the kernel program's result array and the
  reference's are the same function of the six argument arrays.  The precondition makes every index word a table
  row number and every float input a real number.  Then the kernel side is, entry by entry, the sum over the bag of
  the folded table's scalars, which is the reference-shaped real value (the folding identity); and the reference
  side is that same real value.  The reference's result enters only through its real-value law, so the bridge is
  stated for any function of the six arrays obeying that law.
-/
import proofs.«205085_g3753801417095_cont_8to1_b_1540_27_alg».proof.Proof.HostKI
import proofs.«205085_g3753801417095_cont_8to1_b_1540_27_alg».proof.Proof.TileValue
import proofs.«205085_g3753801417095_cont_8to1_b_1540_27_alg».proof.Proof.PreDecode
import proofs.«205085_g3753801417095_cont_8to1_b_1540_27_alg».proof.Proof.FoldValue

noncomputable section

namespace Cert.Proof.KI

open Cert.KernelIdeal Cert.KernelIdeal.Gen
open Idealize.ShloMosaic

/-- A 32-bit word is the word of its own number. -/
theorem word_eq_ofNat_toNat (w : BitVec 32) : w = BitVec.ofNat 32 w.toNat :=
  BitVec.eq_of_toNat_eq (by rw [BitVec.toNat_ofNat, Nat.mod_eq_of_lt w.isLt])

/-- The real-value law of a reference result: with in-range row numbers and real-valued float inputs, entry b is
    the reference-shaped real value. -/
def RefLaw (refOut : (⟨S16384x200, .i32⟩ : BufTy).Contents (Elt Ideal) → (⟨S10000x64, .f32⟩ : BufTy).Contents (Elt Ideal)
    → (⟨S64x64, .f32⟩ : BufTy).Contents (Elt Ideal) → (⟨S64, .f32⟩ : BufTy).Contents (Elt Ideal)
    → (⟨S1x64, .f32⟩ : BufTy).Contents (Elt Ideal) → (⟨S1, .f32⟩ : BufTy).Contents (Elt Ideal)
    → (⟨S16384x1, .f32⟩ : BufTy).Contents (Elt Ideal)) : Prop :=
  ∀ (a0 : (⟨S16384x200, .i32⟩ : BufTy).Contents (Elt Ideal))
    (a1 : (⟨S10000x64, .f32⟩ : BufTy).Contents (Elt Ideal))
    (a2 : (⟨S64x64, .f32⟩ : BufTy).Contents (Elt Ideal)) (a3 : (⟨S64, .f32⟩ : BufTy).Contents (Elt Ideal))
    (a4 : (⟨S1x64, .f32⟩ : BufTy).Contents (Elt Ideal)) (a5 : (⟨S1, .f32⟩ : BufTy).Contents (Elt Ideal))
    (idx : Fin 16384 → Fin 200 → Fin 10000)
    (tab : Fin 10000 → Fin 64 → ℝ) (w1 : Fin 64 → Fin 64 → ℝ) (b1 : Fin 64 → ℝ) (w2 : Fin 64 → ℝ) (b2 : ℝ)
    (_ : ∀ (b : Fin 16384) (h : Fin 200), a0 (ValueIdx.ix2 b h) = BitVec.ofNat 32 (idx b h).val)
    (_ : ∀ v d, a1 (ValueIdx.ix2 v d) = ((tab v d : ℝ) : EReal))
    (_ : ∀ o d, a2 (ValueIdx.ix2 o d) = ((w1 o d : ℝ) : EReal))
    (_ : ∀ o, a3 (ValueIdx.ix1 o) = ((b1 o : ℝ) : EReal))
    (_ : ∀ o, a4 (ValueIdx.ix2 (0 : Fin 1) o) = ((w2 o : ℝ) : EReal))
    (_ : a5 (ValueIdx.ix1 (0 : Fin 1)) = ((b2 : ℝ) : EReal)) (b : Fin 16384),
    refOut a0 a1 a2 a3 a4 a5 (ValueIdx.ix2 b (0 : Fin 1))
      = ((Cert.Spec.refReal idx tab w1 b1 w2 b2 b : ℝ) : EReal)

theorem kernel_eq_ref_of [Cert.Pre_input_domain.Facts]
    (refOut : (⟨S16384x200, .i32⟩ : BufTy).Contents (Elt Ideal) → (⟨S10000x64, .f32⟩ : BufTy).Contents (Elt Ideal)
      → (⟨S64x64, .f32⟩ : BufTy).Contents (Elt Ideal) → (⟨S64, .f32⟩ : BufTy).Contents (Elt Ideal)
      → (⟨S1x64, .f32⟩ : BufTy).Contents (Elt Ideal) → (⟨S1, .f32⟩ : BufTy).Contents (Elt Ideal)
      → (⟨S16384x1, .f32⟩ : BufTy).Contents (Elt Ideal))
    (refOut_real : RefLaw refOut)
    (a0 : IVec S16384x200 32) (a1 : FVec Ideal S10000x64 .f32)
    (a2 : FVec Ideal S64x64 .f32) (a3 : FVec Ideal S64 .f32) (a4 : FVec Ideal S1x64 .f32) (a5 : FVec Ideal S1 .f32)
    (hpre : Cert.Pre_input_domain.fn (F := Ideal) a0 a1 a2 a3 a4 a5 = fun _ => 1#1) :
    hOut (F := Ideal) (Cert.TileSpec.out (F := Ideal) (hIdxT (F := Ideal) a0) (foldArr (F := Ideal) a1 a2 a3 a4 a5))
      = refOut a0 a1 a2 a3 a4 a5 := by
  -- what the precondition says: row numbers in range, real-valued float inputs
  have hidx := Cert.PreDecode.idx_in_range a0 a1 a2 a3 a4 a5 hpre
  obtain ⟨⟨tab', htab⟩, ⟨w1', hw1⟩, ⟨b1', hb1⟩, ⟨w2', hw2⟩, ⟨b2', hb2⟩⟩ :=
    Cert.PreDecode.finite_inputs a0 a1 a2 a3 a4 a5 hpre
  -- the mathematical data, indexed by coordinates
  let idx : Fin 16384 → Fin 200 → Fin 10000 := fun b h => ⟨(a0 (ValueIdx.ix2 b h)).toNat, hidx _⟩
  let tab : Fin 10000 → Fin 64 → ℝ := fun v d => tab' (ValueIdx.ix2 v d)
  let w1 : Fin 64 → Fin 64 → ℝ := fun o d => w1' (ValueIdx.ix2 o d)
  let b1 : Fin 64 → ℝ := fun o => b1' (ValueIdx.ix1 o)
  let w2 : Fin 64 → ℝ := fun o => w2' (ValueIdx.ix2 (0 : Fin 1) o)
  let b2 : ℝ := b2' (ValueIdx.ix1 (0 : Fin 1))
  have h0 : ∀ (b : Fin 16384) (h : Fin 200), a0 (ValueIdx.ix2 b h) = BitVec.ofNat 32 (idx b h).val :=
    fun b h => word_eq_ofNat_toNat _
  have h1 : ∀ v d, a1 (ValueIdx.ix2 v d) = ((tab v d : ℝ) : EReal) := fun v d => htab _
  have h2 : ∀ o d, a2 (ValueIdx.ix2 o d) = ((w1 o d : ℝ) : EReal) := fun o d => hw1 _
  have h3 : ∀ o, a3 (ValueIdx.ix1 o) = ((b1 o : ℝ) : EReal) := fun o => hb1 _
  have h4 : ∀ o, a4 (ValueIdx.ix2 (0 : Fin 1) o) = ((w2 o : ℝ) : EReal) := fun o => hw2 _
  have h5 : a5 (ValueIdx.ix1 (0 : Fin 1)) = ((b2 : ℝ) : EReal) := hb2 _
  -- entry by entry; the second coordinate is the one element of its axis
  funext j
  obtain ⟨b, z, rfl⟩ : ∃ (b : Fin 16384) (z : Fin 1), j = ValueIdx.ix2 b z := ⟨j 0, j 1, ValueIdx.eq_ix2 j⟩
  obtain rfl : z = 0 := Subsingleton.elim _ _
  have hA : ∀ (b : Fin 16384) (h : Fin 200), (hIdxT (F := Ideal) a0 (ValueIdx.ix2 h b)).toNat = (idx b h).val :=
    fun b h => by rw [hIdxT_apply]
  have hT : ∀ v : Fin 10000, foldArr (F := Ideal) a1 a2 a3 a4 a5 (ValueIdx.ix1 v)
      = ((Cert.Spec.foldReal tab w1 b1 w2 b2 v : ℝ) : EReal) :=
    foldArr_real a1 a2 a3 a4 a5 tab w1 b1 w2 b2 h1 h2 h3 h4 h5
  rw [hOut_apply,
    Cert.TileSpec.out_refReal (hIdxT (F := Ideal) a0) (foldArr (F := Ideal) a1 a2 a3 a4 a5) idx tab w1 b1 w2 b2 hA hT b,
    refOut_real a0 a1 a2 a3 a4 a5 idx tab w1 b1 w2 b2 h0 h1 h2 h3 h4 h5 b]

end Cert.Proof.KI

end
-- ==== Proof.RefValue.lean ====
/-
  The reference's result at the extended reals, read entry by entry.  With every index word a table row number
  (0 ≤ word ≤ 9999) the index wrap keeps the word, the in-range mask is all ones, and the gather reads the named
  table row; the bag's 200 rows are summed from zero and divided by 200; then come the two affine layers.  With
  real-valued float inputs every stage is the coerced real number, and the whole is the reference-shaped real value.
-/
import proofs.«205085_g3753801417095_cont_8to1_b_1540_27_alg».proof.Proof.RefDefs
import proofs.«205085_g3753801417095_cont_8to1_b_1540_27_alg».proof.Proof.Spec
import Idealize.ShloMosaic.Lib.ValueIdx
import Idealize.ShloMosaic.Lib.IdealHost
import Idealize.ShloMosaic.Lib.KernelVsHost
import Idealize.ShloMosaic.Lib.StackMember
import Idealize.ShloMosaic.Lib.ValueLayout
import Idealize.ShloMosaic.Lib.Affine
import Idealize.ShloMosaic.PureOps.Reduce
import Idealize.ShloMosaic.PureOps.Ideal.Laws

set_option maxRecDepth 16384

noncomputable section

namespace Cert.ReferenceIdeal.RefRun

open Idealize.ShloMosaic Idealize.ShloMosaic.ValueIdx
open Cert.ReferenceIdeal Cert.ReferenceIdeal.Gen

/-! ## Words -/

/-- A row number read as a signed word is itself. -/
theorem toInt_ofNat_small (v : ℕ) (hv : v < 10000) : (BitVec.ofNat 32 v).toInt = (v : ℤ) := by
  rw [BitVec.toInt_eq_toNat_cond, BitVec.toNat_ofNat, Nat.mod_eq_of_lt (by omega)]
  split <;> omega

theorem toInt_zero32 : (0#32 : BitVec 32).toInt = 0 := by decide
theorem toInt_9999 : (9999#32 : BitVec 32).toInt = 9999 := by decide

/-- A row number is not below zero, -/
theorem slt_zero (v : ℕ) (hv : v < 10000) : IntOp.cmpi .slt (BitVec.ofNat 32 v) 0#32 = 0#1 := by
  refine eq_zero_of_ne_one fun h => ?_
  rw [IntOp.cmpi_slt, toInt_ofNat_small v hv, toInt_zero32] at h
  omega

/-- is at least zero, -/
theorem sge_zero (v : ℕ) (hv : v < 10000) : IntOp.cmpi .sge (BitVec.ofNat 32 v) 0#32 = 1#1 := by
  rw [IntOp.cmpi_sge, toInt_ofNat_small v hv, toInt_zero32]
  omega

/-- and at most 9999. -/
theorem sle_9999 (v : ℕ) (hv : v < 10000) : IntOp.cmpi .sle (BitVec.ofNat 32 v) 9999#32 = 1#1 := by
  rw [IntOp.cmpi_sle, toInt_ofNat_small v hv, toInt_9999]
  omega

/-- A fold over the one element of a one-element axis. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-! ## The index stages -/

/-- The wrap keeps a row number. -/
theorem wrapIdx_apply (a0 : IVec S16384x200 32) (i : S16384x200.Idx) (v : ℕ) (hv : v < 10000)
    (h : a0 i = BitVec.ofNat 32 v) : wrapIdx a0 i = BitVec.ofNat 32 v := by
  show Scalar.select (IntOp.cmpi .slt (a0 i) 0#32) (IntOp.addi (a0 i) 10000#32) (a0 i) = _
  rw [h, slt_zero v hv, select_zero]

/-- The start indices at (b, h, 0) are the wrapped index at (b, h). -/
theorem startIdx_apply (a0 : IVec S16384x200 32) (b : Fin 16384) (h : Fin 200) (u : Fin 1) :
    startIdx a0 (ix3 b h u) = wrapIdx a0 (ix2 b h) := by
  unfold startIdx
  refine broadcastInDim_apply _ _ _ _ (ix2 b h) ?_
  intro a
  match a with
  | ⟨0, _⟩ =>
    show b.val = if (16384 : ℕ) = 1 then 0 else b.val
    rw [if_neg (by decide)]
  | ⟨1, _⟩ =>
    show h.val = if (200 : ℕ) = 1 then 0 else h.val
    rw [if_neg (by decide)]

/-- The in-range mask is one at a row number. -/
theorem inRange_apply (a0 : IVec S16384x200 32) (b : Fin 16384) (h : Fin 200) (v : ℕ) (hv : v < 10000)
    (h0 : a0 (ix2 b h) = BitVec.ofNat 32 v) : inRange a0 (ix2 b h) = 1#1 := by
  have hr : S16384x200x1.Reduces [2] S16384x200 := by decide
  unfold inRange
  rw [Host.reduce_eq_fold_single IntOp.andi _ _ reducesTo_S16384x200x1_S16384x200_d2 hr h_S_ (ix2 b h)]
  refine Eq.trans (fold_fin_one IntOp.andi _ _) ?_
  have hl : hr.lift (ix2 b h) (0 : Fin 1) = ix3 b h (0 : Fin 1) := by
    funext c; refine Fin.ext ?_
    match c with
    | ⟨0, _⟩ => rfl
    | ⟨1, _⟩ => rfl
    | ⟨2, _⟩ => rfl
  show IntOp.andi (IntOp.andi (IntOp.cmpi .sge (startIdx a0 (hr.lift (ix2 b h) (0 : Fin 1))) 0#32)
    (IntOp.cmpi .sle (startIdx a0 (hr.lift (ix2 b h) (0 : Fin 1))) 9999#32)) 1#1 = 1#1
  rw [hl, startIdx_apply, wrapIdx_apply a0 _ v hv h0, sge_zero v hv, sle_9999 v hv]
  decide

/-! ## The gather -/

/-- The gather of table rows read at (b, h, d): the table at the start index of (b, h), read signed and clamped into
    the table's rows, and at column d. -/
theorem gather_apply {α : Type} (x : S10000x64.Idx → α) (idx : IVec S16384x200x1 32) (b : Fin 16384) (h : Fin 200)
    (d : Fin 64) (k : S10000x64.Idx) (hk0 : (k 0).val = min (idx (ix3 b h (0 : Fin 1))).toInt.toNat 9999)
    (hk1 : (k 1).val = d.val) :
    Host.gather gather_S10000x64_S16384x200x1_S16384x200x64_2_0_n_n_0_2_164 x idx (ix3 b h d) = x k := by
  have hsi : ∀ c, gather_S10000x64_S16384x200x1_S16384x200x64_2_0_n_n_0_2_164.siIdx (ix3 b h d) c
      = ix3 b h (0 : Fin 1) := by
    intro c
    have hc : c.val < 1 := c.isLt
    funext a; refine Fin.ext ?_
    match a with
    | ⟨0, _⟩ => rfl
    | ⟨1, _⟩ => rfl
    | ⟨2, _⟩ =>
      show c.val = 0
      omega
  have e0 : (gather_S10000x64_S16384x200x1_S16384x200x64_2_0_n_n_0_2_164.operandIdx (ix3 b h d) idx (0 : Fin 2)).val
      = min (idx (ix3 b h (0 : Fin 1))).toInt.toNat 9999 := by
    show gather_S10000x64_S16384x200x1_S16384x200x64_2_0_n_n_0_2_164.start (ix3 b h d) idx (0 : Fin 2)
      + gather_S10000x64_S16384x200x1_S16384x200x64_2_0_n_n_0_2_164.batchCoord (ix3 b h d) (0 : Fin 2)
      + gather_S10000x64_S16384x200x1_S16384x200x64_2_0_n_n_0_2_164.offCoord (ix3 b h d) (0 : Fin 2) = _
    rw [GatherDims.batchCoord_eq_zero _ _ _ List.not_mem_nil, Nat.add_zero,
      GatherDims.offCoord_eq_zero _ _ _ (fun hh => ((GatherDims.mem_sKept _ _).mp hh).1 (List.mem_singleton.mpr rfl)),
      Nat.add_zero]
    unfold GatherDims.start
    split
    · rw [hsi]; rfl
    · rename_i hn
      exact absurd (List.mem_singleton.mpr rfl) hn
  have e1 : (gather_S10000x64_S16384x200x1_S16384x200x64_2_0_n_n_0_2_164.operandIdx (ix3 b h d) idx (1 : Fin 2)).val
      = d.val := by
    show gather_S10000x64_S16384x200x1_S16384x200x64_2_0_n_n_0_2_164.start (ix3 b h d) idx (1 : Fin 2)
      + gather_S10000x64_S16384x200x1_S16384x200x64_2_0_n_n_0_2_164.batchCoord (ix3 b h d) (1 : Fin 2)
      + gather_S10000x64_S16384x200x1_S16384x200x64_2_0_n_n_0_2_164.offCoord (ix3 b h d) (1 : Fin 2) = _
    rw [GatherDims.batchCoord_eq_zero _ _ _ List.not_mem_nil, Nat.add_zero]
    have hs : gather_S10000x64_S16384x200x1_S16384x200x64_2_0_n_n_0_2_164.start (ix3 b h d) idx (1 : Fin 2) = 0 := by
      unfold GatherDims.start
      split
      · rename_i hp
        exact absurd (List.mem_singleton.mp hp) (by decide)
      · rfl
    rw [hs, Nat.zero_add]
    unfold GatherDims.offCoord
    split
    · rfl
    · rename_i hn
      exact absurd ((GatherDims.mem_sKept _ _).mpr ⟨by decide, List.not_mem_nil⟩) hn
  unfold Host.gather
  congr 1
  funext a
  refine Fin.ext ?_
  match a with
  | ⟨0, _⟩ => exact e0.trans hk0.symm
  | ⟨1, _⟩ => exact e1.trans hk1.symm

/-- The gathered rows at (b, h, d): the table's row named by the index word, at column d. -/
theorem taken_apply (a0 : IVec S16384x200 32) (a1 : FVec Ideal S10000x64 .f32) (b : Fin 16384) (h : Fin 200)
    (d : Fin 64) (v : Fin 10000) (h0 : a0 (ix2 b h) = BitVec.ofNat 32 v.val) :
    taken a0 a1 (ix3 b h d) = a1 (ix2 v d) := by
  have hm : broadcastInDim S16384x200x64 ![0, 1] bcast_S16384x200_S16384x200x64_0_1 (inRange a0) (ix3 b h d) = 1#1 := by
    refine (broadcastInDim_apply _ _ _ _ (ix2 b h) ?_).trans (inRange_apply a0 b h v.val v.isLt h0)
    intro a
    match a with
    | ⟨0, _⟩ =>
      show b.val = if (16384 : ℕ) = 1 then 0 else b.val
      rw [if_neg (by decide)]
    | ⟨1, _⟩ =>
      show h.val = if (200 : ℕ) = 1 then 0 else h.val
      rw [if_neg (by decide)]
  have hg : Host.gather gather_S10000x64_S16384x200x1_S16384x200x64_2_0_n_n_0_2_164 a1 (startIdx a0) (ix3 b h d)
      = a1 (ix2 v d) := by
    refine gather_apply a1 (startIdx a0) b h d (ix2 v d) ?_ rfl
    rw [startIdx_apply, wrapIdx_apply a0 _ v.val v.isLt h0, toInt_ofNat_small v.val v.isLt]
    show v.val = min ((v.val : ℤ)).toNat 9999
    have := v.isLt
    simp only [Int.toNat_natCast]
    omega
  unfold taken
  rw [select_apply, hm, select_one, hg]

/-! ## Constants and coercions -/

theorem ofBits_200 : Ideal.ofBits .f32 0x43480000#32 = ((200 : ℝ) : EReal) := by
  simp [Ideal.ofBits, Ideal.ieee, -EReal.coe_mul]; norm_num

/-- The coercion of a finite sum of reals into the extended reals is the sum of the coercions. -/
theorem coe_sum {ι : Type} (s : Finset ι) (g : ι → ℝ) :
    ((∑ i ∈ s, g i : ℝ) : EReal) = ∑ i ∈ s, ((g i : ℝ) : EReal) := by
  classical
  induction s using Finset.induction_on with
  | empty => simp
  | insert a s ha ih => rw [Finset.sum_insert ha, Finset.sum_insert ha, EReal.coe_add, ih]

/-! ## The float stages -/

/-- The bag's mean at (b, d), for a bag of row numbers and a real-valued table. -/
theorem pooled_apply (a0 : IVec S16384x200 32) (a1 : FVec Ideal S10000x64 .f32) (b : Fin 16384) (d : Fin 64)
    (idx : Fin 200 → Fin 10000) (tab : Fin 10000 → Fin 64 → ℝ)
    (h0 : ∀ h : Fin 200, a0 (ix2 b h) = BitVec.ofNat 32 (idx h).val)
    (h1 : ∀ v d, a1 (ix2 v d) = ((tab v d : ℝ) : EReal)) :
    pooled a0 a1 (ix2 b d) = (((∑ h : Fin 200, tab (idx h) d) / 200 : ℝ) : EReal) := by
  have hr : S16384x200x64.Reduces [1] S16384x64 := by decide
  have hl : ∀ h : Fin 200, hr.lift (ix2 b d) h = ix3 b h d := by
    intro h
    funext c; refine Fin.ext ?_
    match c with
    | ⟨0, _⟩ => rfl
    | ⟨1, _⟩ => rfl
    | ⟨2, _⟩ => rfl
  unfold pooled
  rw [hostDivf_apply, hostReduceAdd_apply, Ideal.hostReduceAdd_single _ hr]
  show Ideal.div (Ideal.ofBits .f32 0x00000000#32 + ∑ h : Fin 200, taken a0 a1 (hr.lift (ix2 b d) h))
    (Ideal.ofBits .f32 0x43480000#32) = _
  rw [Ideal.ofBits_zero_f32, zero_add, ofBits_200, Ideal.div_coe (by norm_num : (200 : ℝ) ≠ 0)]
  rw [Finset.sum_congr rfl fun h _ => by rw [hl h, taken_apply a0 a1 b h d (idx h) (h0 h), h1]]
  rw [← coe_sum, ← EReal.coe_mul]
  congr 1
  ring

/-- The first affine layer at (b, o), for a real-valued mean row, weights and bias. -/
theorem hidden_apply (a0 : IVec S16384x200 32) (a1 : FVec Ideal S10000x64 .f32) (a2 : FVec Ideal S64x64 .f32)
    (a3 : FVec Ideal S64 .f32) (b : Fin 16384) (o : Fin 64) (P : Fin 64 → ℝ) (w1 : Fin 64 → Fin 64 → ℝ)
    (b1 : Fin 64 → ℝ) (hP : ∀ d, pooled a0 a1 (ix2 b d) = ((P d : ℝ) : EReal))
    (h2 : ∀ o d, a2 (ix2 o d) = ((w1 o d : ℝ) : EReal)) (h3 : ∀ o, a3 (ix1 o) = ((b1 o : ℝ) : EReal)) :
    hidden a0 a1 a2 a3 (ix2 b o) = (((∑ d : Fin 64, P d * w1 o d) + b1 o : ℝ) : EReal) := by
  have hdot : Host.dotGeneral dot_S16384x64_S64x64_S16384x64_1_0_0_1_n_n none (pooled a0 a1)
      (transpose S64x64 [1, 0] a2 transposes_S64x64_S64x64_1_0) (ix2 b o)
      = ∑ d : Fin 64, pooled a0 a1 (ix2 b d) * transpose S64x64 [1, 0] a2 transposes_S64x64_S64x64_1_0 (ix2 d o) :=
    StackMember.dotGeneral_plain_apply none (pooled a0 a1) (transpose S64x64 [1, 0] a2 transposes_S64x64_S64x64_1_0) b o
  have hbias : broadcastInDim S16384x64 ![0, 1] bcast_S1x64_S16384x64_0_1
      (broadcastInDim S1x64 ![1] bcast_S64_S1x64_1 a3) (ix2 b o) = a3 (ix1 o) := by
    rw [broadcastInDim_oneRow_apply]
    refine broadcastInDim_apply _ _ _ _ (ix1 o) ?_
    intro a
    match a with
    | ⟨0, _⟩ =>
      show o.val = if (64 : ℕ) = 1 then 0 else o.val
      rw [if_neg (by decide)]
  unfold hidden
  rw [addf_apply, hdot, hbias, h3]
  rw [Finset.sum_congr rfl fun d _ => by rw [hP d, transpose_ix2_apply, h2, ← EReal.coe_mul]]
  rw [← coe_sum, ← EReal.coe_add]

/-- The second affine layer at (b, 0), for a real-valued input row, weights and bias. -/
theorem outLayer_apply (x : FVec Ideal S16384x64 .f32) (a4 : FVec Ideal S1x64 .f32) (a5 : FVec Ideal S1 .f32)
    (b : Fin 16384) (H : Fin 64 → ℝ) (w2 : Fin 64 → ℝ) (b2 : ℝ) (hH : ∀ o, x (ix2 b o) = ((H o : ℝ) : EReal))
    (h4 : ∀ o, a4 (ix2 (0 : Fin 1) o) = ((w2 o : ℝ) : EReal)) (h5 : a5 (ix1 (0 : Fin 1)) = ((b2 : ℝ) : EReal)) :
    outLayer x a4 a5 (ix2 b (0 : Fin 1)) = (((∑ o : Fin 64, H o * w2 o) + b2 : ℝ) : EReal) := by
  have hdot : Host.dotGeneral dot_S16384x64_S64x1_S16384x1_1_0_0_1_n_n none x
      (transpose S64x1 [1, 0] a4 transposes_S1x64_S64x1_1_0) (ix2 b (0 : Fin 1))
      = ∑ o : Fin 64, x (ix2 b o) * transpose S64x1 [1, 0] a4 transposes_S1x64_S64x1_1_0 (ix2 o (0 : Fin 1)) :=
    StackMember.dotGeneral_plain_apply none x (transpose S64x1 [1, 0] a4 transposes_S1x64_S64x1_1_0) b (0 : Fin 1)
  have hbias : broadcastInDim S16384x1 ![0, 1] bcast_S1x1_S16384x1_0_1
      (broadcastInDim S1x1 ![1] bcast_S1_S1x1_1 a5) (ix2 b (0 : Fin 1)) = a5 (ix1 (0 : Fin 1)) := by
    rw [broadcastInDim_oneRow_apply]
    refine broadcastInDim_apply _ _ _ _ (ix1 (0 : Fin 1)) ?_
    intro a
    match a with
    | ⟨0, _⟩ =>
      show (0 : ℕ) = if (1 : ℕ) = 1 then 0 else 0
      rw [if_pos rfl]
  unfold outLayer
  rw [addf_apply, hdot, hbias, h5]
  rw [Finset.sum_congr rfl fun o _ => by rw [hH o, transpose_ix2_apply, h4, ← EReal.coe_mul]]
  rw [← coe_sum, ← EReal.coe_add]

/-! ## The whole -/

/-- With row numbers in range and real-valued float inputs, the reference's result at (b, 0) is the reference-shaped
    real value. -/
theorem refOut_real (a0 : (⟨S16384x200, .i32⟩ : BufTy).Contents (Elt Ideal))
    (a1 : (⟨S10000x64, .f32⟩ : BufTy).Contents (Elt Ideal)) (a2 : (⟨S64x64, .f32⟩ : BufTy).Contents (Elt Ideal))
    (a3 : (⟨S64, .f32⟩ : BufTy).Contents (Elt Ideal)) (a4 : (⟨S1x64, .f32⟩ : BufTy).Contents (Elt Ideal))
    (a5 : (⟨S1, .f32⟩ : BufTy).Contents (Elt Ideal)) (idx : Fin 16384 → Fin 200 → Fin 10000)
    (tab : Fin 10000 → Fin 64 → ℝ) (w1 : Fin 64 → Fin 64 → ℝ) (b1 : Fin 64 → ℝ) (w2 : Fin 64 → ℝ) (b2 : ℝ)
    (h0 : ∀ (b : Fin 16384) (h : Fin 200), a0 (ValueIdx.ix2 b h) = BitVec.ofNat 32 (idx b h).val)
    (h1 : ∀ v d, a1 (ValueIdx.ix2 v d) = ((tab v d : ℝ) : EReal))
    (h2 : ∀ o d, a2 (ValueIdx.ix2 o d) = ((w1 o d : ℝ) : EReal))
    (h3 : ∀ o, a3 (ValueIdx.ix1 o) = ((b1 o : ℝ) : EReal))
    (h4 : ∀ o, a4 (ValueIdx.ix2 (0 : Fin 1) o) = ((w2 o : ℝ) : EReal))
    (h5 : a5 (ValueIdx.ix1 (0 : Fin 1)) = ((b2 : ℝ) : EReal)) (b : Fin 16384) :
    refOut a0 a1 a2 a3 a4 a5 (ValueIdx.ix2 b (0 : Fin 1))
      = ((Cert.Spec.refReal idx tab w1 b1 w2 b2 b : ℝ) : EReal) := by
  unfold refOut
  rw [outLayer_apply (hidden a0 a1 a2 a3) a4 a5 b
    (fun o => (∑ d : Fin 64, ((∑ h : Fin 200, tab (idx b h) d) / 200) * w1 o d) + b1 o) w2 b2
    (fun o => hidden_apply a0 a1 a2 a3 b o (fun d => (∑ h : Fin 200, tab (idx b h) d) / 200) w1 b1
      (fun d => pooled_apply a0 a1 b d (idx b) tab (h0 b) h1) h2 h3) h4 h5]
  rfl

end Cert.ReferenceIdeal.RefRun

end
-- ==== Proof.BridgeRef.lean ====
/-
  The value bridge with the reference's own result: under the precondition the kernel program's result array is the
  reference's result array, as functions of the six argument arrays, at the extended reals.
-/
import proofs.«205085_g3753801417095_cont_8to1_b_1540_27_alg».proof.Proof.BridgeKI
import proofs.«205085_g3753801417095_cont_8to1_b_1540_27_alg».proof.Proof.RefValue

noncomputable section

namespace Cert.Proof.KI

open Cert.KernelIdeal Cert.KernelIdeal.Gen
open Idealize.ShloMosaic

theorem kernel_eq_ref [Cert.Pre_input_domain.Facts] (a0 : IVec S16384x200 32) (a1 : FVec Ideal S10000x64 .f32)
    (a2 : FVec Ideal S64x64 .f32) (a3 : FVec Ideal S64 .f32) (a4 : FVec Ideal S1x64 .f32) (a5 : FVec Ideal S1 .f32)
    (hpre : Cert.Pre_input_domain.fn (F := Ideal) a0 a1 a2 a3 a4 a5 = fun _ => 1#1) :
    hOut (F := Ideal) (Cert.TileSpec.out (F := Ideal) (hIdxT (F := Ideal) a0) (foldArr (F := Ideal) a1 a2 a3 a4 a5))
      = Cert.ReferenceIdeal.RefRun.refOut a0 a1 a2 a3 a4 a5 :=
  kernel_eq_ref_of Cert.ReferenceIdeal.RefRun.refOut Cert.ReferenceIdeal.RefRun.refOut_real a0 a1 a2 a3 a4 a5 hpre

end Cert.Proof.KI

end
-- ==== Proof.lean ====
/-
  The five claims.  Both kernel programs (the word-level one and the idealized one) run to the end on all thirty-five
  threads with the arguments unchanged, by the launch theorem for SparseCore meshes over the tile body's run and the
  TensorCore kernel's region; the reference runs as its host operations compose; the one ledger entry names 1/200;
  and at the extended reals the kernel's result — each bag's 200 folded scalars summed — is the reference's mean of
  rows sent through both affine layers, because the layers are affine and the bag has exactly 200 entries.
-/
import proofs.«205085_g3753801417095_cont_8to1_b_1540_27_alg».proof.Defs
import proofs.«205085_g3753801417095_cont_8to1_b_1540_27_alg».proof.Proof.Gen.Kernel
import proofs.«205085_g3753801417095_cont_8to1_b_1540_27_alg».proof.Proof.Gen.KernelIdeal
import proofs.«205085_g3753801417095_cont_8to1_b_1540_27_alg».proof.Proof.Gen.ReferenceIdeal
import proofs.«205085_g3753801417095_cont_8to1_b_1540_27_alg».proof.Proof.Gen.Pre_input_domain
import proofs.«205085_g3753801417095_cont_8to1_b_1540_27_alg».proof.Proof.LaunchKI
import proofs.«205085_g3753801417095_cont_8to1_b_1540_27_alg».proof.Proof.LaunchKB
import proofs.«205085_g3753801417095_cont_8to1_b_1540_27_alg».proof.Proof.TileKI
import proofs.«205085_g3753801417095_cont_8to1_b_1540_27_alg».proof.Proof.TileKB
import proofs.«205085_g3753801417095_cont_8to1_b_1540_27_alg».proof.Proof.PreDecode
import proofs.«205085_g3753801417095_cont_8to1_b_1540_27_alg».proof.Proof.RefRun
import proofs.«205085_g3753801417095_cont_8to1_b_1540_27_alg».proof.Proof.BridgeRef
import Idealize.ShloMosaic.Adequacy
import Idealize.ShloMosaic.Init

noncomputable section

namespace Cert.Proof

open Idealize.ShloMosaic Idealize.SL.Sem

open Cert.Pre_input_domain.Gen in
theorem frame_k : Cert.frame_Kernel (hKernel := Cert.Kernel.Gen.facts) (hPre_input_domain := Cert.Pre_input_domain.Gen.facts) := fun m ρ hpre =>
  (θ_run (Cert.Kernel.defs (F := Bits)) _ _).mono (fun _ h c => (h c).2)
    (Cert.Proof.KB.run_main (F := Bits) m ρ (fun d L qi qt A Tt fo hin O W hO => Cert.Proof.KB.tile_body d L Cert.Proof.KB.facts qi qt A Tt fo hin O W hO)
      (fun d => Cert.PreDecode.idx_in_range (F := Bits) _ _ _ _ _ _ (hpre d)))

open Cert.Pre_input_domain.Gen in
theorem frame_ki : Cert.frame_KernelIdeal (hKernelIdeal := Cert.KernelIdeal.Gen.facts) (hPre_input_domain := Cert.Pre_input_domain.Gen.facts) := fun m ρ hpre =>
  (θ_run (Cert.KernelIdeal.defs (F := Ideal)) _ _).mono (fun _ h c => (h c).2)
    (Cert.Proof.KI.run_main (F := Ideal) m ρ (fun d L qi qt A Tt fo hin O W hO => Cert.Proof.KI.tile_body d L Cert.Proof.KI.facts qi qt A Tt fo hin O W hO)
      (fun d => Cert.PreDecode.idx_in_range (F := Ideal) _ _ _ _ _ _ (hpre d)))

theorem frame_ri : Cert.frame_ReferenceIdeal (hReferenceIdeal := Cert.ReferenceIdeal.Gen.facts) (hPre_input_domain := Cert.Pre_input_domain.Gen.facts) := fun m ρ _ =>
  (θ_run (Cert.ReferenceIdeal.defs (F := Ideal)) _ _).mono (fun _ h c => (h c).2) (Cert.ReferenceIdeal.RefRun.run m ρ)

/-- The ledger's one entry: the table gives "inv_200" the value 1/200. -/
theorem preserves : Cert.preserves_Kernel_KernelIdeal :=
  IdealRules.named_const.statement Cert.KernelIdeal.κ "inv_200" .f32 0x3BA3D70A#32 ((1 / 200 : ℝ) : EReal) rfl

open Cert.Pre_input_domain.Gen in
theorem algebraic : Cert.algebraic_KernelIdeal_ReferenceIdeal (hKernelIdeal := Cert.KernelIdeal.Gen.facts) (hReferenceIdeal := Cert.ReferenceIdeal.Gen.facts) (hPre_input_domain := Cert.Pre_input_domain.Gen.facts) := by
  intro m ρ m' ρ' hpre hagree
  refine ⟨fun c => Cert.Proof.KI.Rof m c, ?_, ?_⟩
  · exact Cert.Proof.KI.run_main (F := Ideal) m ρ (fun d L qi qt A Tt fo hin O W hO => Cert.Proof.KI.tile_body d L Cert.Proof.KI.facts qi qt A Tt fo hin O W hO)
      (fun d => Cert.PreDecode.idx_in_range (F := Ideal) _ _ _ _ _ _ (hpre d))
  · refine (θ_run (Cert.ReferenceIdeal.defs (F := Ideal)) _ _).mono (fun _ h c => ⟨(h c).1.trans ?_, (h c).2⟩) (Cert.ReferenceIdeal.RefRun.run m' ρ')
    rw [(hagree c).1, (hagree c).2.1, (hagree c).2.2.1, (hagree c).2.2.2.1, (hagree c).2.2.2.2.1, (hagree c).2.2.2.2.2]
    exact (Cert.Proof.KI.kernel_eq_ref _ _ _ _ _ _ (hpre c)).symm

theorem claim : Cert.Claim :=
  ⟨Cert.Kernel.Gen.facts, Cert.KernelIdeal.Gen.facts, Cert.ReferenceIdeal.Gen.facts, Cert.Pre_input_domain.Gen.facts, frame_k, frame_ki, frame_ri, preserves, algebraic⟩

end Cert.Proof

end
